-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32x1024 : Shape := ⟨2, ![32, 1024]⟩
abbrev S1024x1024 : Shape := ⟨2, ![1024, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x1024 .f32) (main_arg1 : FVec F S1024x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32x1024 : Shape := ⟨2, ![32, 1024]⟩
abbrev S1024x1024 : Shape := ⟨2, ![1024, 1024]⟩
abbrev S1024x32 : Shape := ⟨2, ![1024, 32]⟩
abbrev S32x8x128 : Shape := ⟨3, ![32, 8, 128]⟩
abbrev S32 : Shape := ⟨1, ![32]⟩
abbrev S_ : Shape := ⟨0, ![]⟩
abbrev S1024x256 : Shape := ⟨2, ![1024, 256]⟩
abbrev S32x256 : Shape := ⟨2, ![32, 256]⟩
abbrev S32x32 : Shape := ⟨2, ![32, 32]⟩
abbrev S8x32 : Shape := ⟨2, ![8, 32]⟩
abbrev S8x128 : Shape := ⟨2, ![8, 128]⟩
abbrev S1x8x128 : Shape := ⟨3, ![1, 8, 128]⟩
abbrev S1 : Shape := ⟨1, ![1]⟩
abbrev S1x8x32 : Shape := ⟨3, ![1, 8, 32]⟩

abbrev nBuf : Space → Nat
  | .hbm => 3
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S1024x32, .f32⟩
  | .local _ .vmem, ⟨0, _⟩ => ⟨S32x1024, .f32⟩
  | .local _ .vmem, ⟨1, _⟩ => ⟨S1024x1024, .f32⟩
  | .local _ .vmem, ⟨2, _⟩ => ⟨S1024x32, .f32⟩
  | .local _ .vmem, ⟨3, _⟩ => ⟨S32x8x128, .f32⟩
  | .local _ .vmem, ⟨4, _⟩ => ⟨S32x8x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  { ofTc nBuf bufTy 1 67 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_148 : BitVec 32) (c0_i32_146 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 32 := Scalar.addi c0_i32_146 v2
  let c8_i32_147 : BitVec 32 := 8#32
  let v208 : BitVec 32 := Scalar.remsi v207 c8_i32_147
  let v209 : BitVec 32 := Scalar.addi c0_i32_148 v208
  ![v209.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_151 : BitVec 32 := 0#32
  let c0_i32_152 : BitVec 32 := 0#32
  ![v2.toNat, 0, 0]
def k0_off4 (d0 : Dev nD) (c0_i32_148 : BitVec 32) (c0_i32_146 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 32 := Scalar.addi c0_i32_146 v2
  let c8_i32_147 : BitVec 32 := 8#32
  let v208 : BitVec 32 := Scalar.remsi v207 c8_i32_147
  let v209 : BitVec 32 := Scalar.addi c0_i32_148 v208
  let c0_i32_153 : BitVec 32 := 0#32
  let c0_i32_154 : BitVec 32 := 0#32
  ![v209.toNat, 0, 0]
def k0_dev32 (d0 : Dev nD) : Nat :=
  let c0_i32_150 : BitVec 32 := 0#32
  let c0_i32_148 : BitVec 32 := 0#32
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 32 := Scalar.addi c0_i32_146 v2
  let c8_i32_147 : BitVec 32 := 8#32
  let v208 : BitVec 32 := Scalar.remsi v207 c8_i32_147
  let v209 : BitVec 32 := Scalar.addi c0_i32_148 v208
  let c1_i32_149 : BitVec 32 := 1#32
  let v210 : BitVec 32 := Scalar.muli v209 c1_i32_149
  let v211 : BitVec 32 := Scalar.addi c0_i32_150 v210
  v211.toNat
def k0_dev33 (d0 : Dev nD) : Nat :=
  let c0_i32_159 : BitVec 32 := 0#32
  let c0_i32_157 : BitVec 32 := 0#32
  let c1_i32_155 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v220 : BitVec 32 := Scalar.addi c1_i32_155 v2
  let c8_i32_156 : BitVec 32 := 8#32
  let v221 : BitVec 32 := Scalar.remsi v220 c8_i32_156
  let v222 : BitVec 32 := Scalar.addi c0_i32_157 v221
  let c1_i32_158 : BitVec 32 := 1#32
  let v223 : BitVec 32 := Scalar.muli v222 c1_i32_158
  let v224 : BitVec 32 := Scalar.addi c0_i32_159 v223
  v224.toNat
def k0_dev34 (d0 : Dev nD) : Nat :=
  let c0_i32_168 : BitVec 32 := 0#32
  let c0_i32_166 : BitVec 32 := 0#32
  let c2_i32_164 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v233 : BitVec 32 := Scalar.addi c2_i32_164 v2
  let c8_i32_165 : BitVec 32 := 8#32
  let v234 : BitVec 32 := Scalar.remsi v233 c8_i32_165
  let v235 : BitVec 32 := Scalar.addi c0_i32_166 v234
  let c1_i32_167 : BitVec 32 := 1#32
  let v236 : BitVec 32 := Scalar.muli v235 c1_i32_167
  let v237 : BitVec 32 := Scalar.addi c0_i32_168 v236
  v237.toNat
def k0_dev35 (d0 : Dev nD) : Nat :=
  let c0_i32_177 : BitVec 32 := 0#32
  let c0_i32_175 : BitVec 32 := 0#32
  let c3_i32_173 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v246 : BitVec 32 := Scalar.addi c3_i32_173 v2
  let c8_i32_174 : BitVec 32 := 8#32
  let v247 : BitVec 32 := Scalar.remsi v246 c8_i32_174
  let v248 : BitVec 32 := Scalar.addi c0_i32_175 v247
  let c1_i32_176 : BitVec 32 := 1#32
  let v249 : BitVec 32 := Scalar.muli v248 c1_i32_176
  let v250 : BitVec 32 := Scalar.addi c0_i32_177 v249
  v250.toNat
def k0_dev36 (d0 : Dev nD) : Nat :=
  let c0_i32_186 : BitVec 32 := 0#32
  let c0_i32_184 : BitVec 32 := 0#32
  let c4_i32_182 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v259 : BitVec 32 := Scalar.addi c4_i32_182 v2
  let c8_i32_183 : BitVec 32 := 8#32
  let v260 : BitVec 32 := Scalar.remsi v259 c8_i32_183
  let v261 : BitVec 32 := Scalar.addi c0_i32_184 v260
  let c1_i32_185 : BitVec 32 := 1#32
  let v262 : BitVec 32 := Scalar.muli v261 c1_i32_185
  let v263 : BitVec 32 := Scalar.addi c0_i32_186 v262
  v263.toNat
def k0_dev37 (d0 : Dev nD) : Nat :=
  let c0_i32_195 : BitVec 32 := 0#32
  let c0_i32_193 : BitVec 32 := 0#32
  let c5_i32_191 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v272 : BitVec 32 := Scalar.addi c5_i32_191 v2
  let c8_i32_192 : BitVec 32 := 8#32
  let v273 : BitVec 32 := Scalar.remsi v272 c8_i32_192
  let v274 : BitVec 32 := Scalar.addi c0_i32_193 v273
  let c1_i32_194 : BitVec 32 := 1#32
  let v275 : BitVec 32 := Scalar.muli v274 c1_i32_194
  let v276 : BitVec 32 := Scalar.addi c0_i32_195 v275
  v276.toNat
def k0_dev38 (d0 : Dev nD) : Nat :=
  let c0_i32_204 : BitVec 32 := 0#32
  let c0_i32_202 : BitVec 32 := 0#32
  let c6_i32_200 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v285 : BitVec 32 := Scalar.addi c6_i32_200 v2
  let c8_i32_201 : BitVec 32 := 8#32
  let v286 : BitVec 32 := Scalar.remsi v285 c8_i32_201
  let v287 : BitVec 32 := Scalar.addi c0_i32_202 v286
  let c1_i32_203 : BitVec 32 := 1#32
  let v288 : BitVec 32 := Scalar.muli v287 c1_i32_203
  let v289 : BitVec 32 := Scalar.addi c0_i32_204 v288
  v289.toNat
def k0_dev39 (d0 : Dev nD) : Nat :=
  let c0_i32_213 : BitVec 32 := 0#32
  let c0_i32_211 : BitVec 32 := 0#32
  let c7_i32_209 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v298 : BitVec 32 := Scalar.addi c7_i32_209 v2
  let c8_i32_210 : BitVec 32 := 8#32
  let v299 : BitVec 32 := Scalar.remsi v298 c8_i32_210
  let v300 : BitVec 32 := Scalar.addi c0_i32_211 v299
  let c1_i32_212 : BitVec 32 := 1#32
  let v301 : BitVec 32 := Scalar.muli v300 c1_i32_212
  let v302 : BitVec 32 := Scalar.addi c0_i32_213 v301
  v302.toNat
def k0_dev40 (d0 : Dev nD) : Nat :=
  let c0_i32_243 : BitVec 32 := 0#32
  let c8_i32_241 : BitVec 32 := 8#32
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v390 : BitVec 32 := Scalar.addi c0_i32_239 v2
  let c8_i32_240 : BitVec 32 := 8#32
  let v391 : BitVec 32 := Scalar.remsi v390 c8_i32_240
  let v392 : BitVec 32 := Scalar.addi c8_i32_241 v391
  let c1_i32_242 : BitVec 32 := 1#32
  let v393 : BitVec 32 := Scalar.muli v392 c1_i32_242
  let v394 : BitVec 32 := Scalar.addi c0_i32_243 v393
  v394.toNat
def k0_dev41 (d0 : Dev nD) : Nat :=
  let c0_i32_252 : BitVec 32 := 0#32
  let c8_i32_250 : BitVec 32 := 8#32
  let c1_i32_248 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v403 : BitVec 32 := Scalar.addi c1_i32_248 v2
  let c8_i32_249 : BitVec 32 := 8#32
  let v404 : BitVec 32 := Scalar.remsi v403 c8_i32_249
  let v405 : BitVec 32 := Scalar.addi c8_i32_250 v404
  let c1_i32_251 : BitVec 32 := 1#32
  let v406 : BitVec 32 := Scalar.muli v405 c1_i32_251
  let v407 : BitVec 32 := Scalar.addi c0_i32_252 v406
  v407.toNat
def k0_dev42 (d0 : Dev nD) : Nat :=
  let c0_i32_261 : BitVec 32 := 0#32
  let c8_i32_259 : BitVec 32 := 8#32
  let c2_i32_257 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v416 : BitVec 32 := Scalar.addi c2_i32_257 v2
  let c8_i32_258 : BitVec 32 := 8#32
  let v417 : BitVec 32 := Scalar.remsi v416 c8_i32_258
  let v418 : BitVec 32 := Scalar.addi c8_i32_259 v417
  let c1_i32_260 : BitVec 32 := 1#32
  let v419 : BitVec 32 := Scalar.muli v418 c1_i32_260
  let v420 : BitVec 32 := Scalar.addi c0_i32_261 v419
  v420.toNat
def k0_dev43 (d0 : Dev nD) : Nat :=
  let c0_i32_270 : BitVec 32 := 0#32
  let c8_i32_268 : BitVec 32 := 8#32
  let c3_i32_266 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v429 : BitVec 32 := Scalar.addi c3_i32_266 v2
  let c8_i32_267 : BitVec 32 := 8#32
  let v430 : BitVec 32 := Scalar.remsi v429 c8_i32_267
  let v431 : BitVec 32 := Scalar.addi c8_i32_268 v430
  let c1_i32_269 : BitVec 32 := 1#32
  let v432 : BitVec 32 := Scalar.muli v431 c1_i32_269
  let v433 : BitVec 32 := Scalar.addi c0_i32_270 v432
  v433.toNat
def k0_dev44 (d0 : Dev nD) : Nat :=
  let c0_i32_279 : BitVec 32 := 0#32
  let c8_i32_277 : BitVec 32 := 8#32
  let c4_i32_275 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v442 : BitVec 32 := Scalar.addi c4_i32_275 v2
  let c8_i32_276 : BitVec 32 := 8#32
  let v443 : BitVec 32 := Scalar.remsi v442 c8_i32_276
  let v444 : BitVec 32 := Scalar.addi c8_i32_277 v443
  let c1_i32_278 : BitVec 32 := 1#32
  let v445 : BitVec 32 := Scalar.muli v444 c1_i32_278
  let v446 : BitVec 32 := Scalar.addi c0_i32_279 v445
  v446.toNat
def k0_dev45 (d0 : Dev nD) : Nat :=
  let c0_i32_288 : BitVec 32 := 0#32
  let c8_i32_286 : BitVec 32 := 8#32
  let c5_i32_284 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v455 : BitVec 32 := Scalar.addi c5_i32_284 v2
  let c8_i32_285 : BitVec 32 := 8#32
  let v456 : BitVec 32 := Scalar.remsi v455 c8_i32_285
  let v457 : BitVec 32 := Scalar.addi c8_i32_286 v456
  let c1_i32_287 : BitVec 32 := 1#32
  let v458 : BitVec 32 := Scalar.muli v457 c1_i32_287
  let v459 : BitVec 32 := Scalar.addi c0_i32_288 v458
  v459.toNat
def k0_dev46 (d0 : Dev nD) : Nat :=
  let c0_i32_297 : BitVec 32 := 0#32
  let c8_i32_295 : BitVec 32 := 8#32
  let c6_i32_293 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v468 : BitVec 32 := Scalar.addi c6_i32_293 v2
  let c8_i32_294 : BitVec 32 := 8#32
  let v469 : BitVec 32 := Scalar.remsi v468 c8_i32_294
  let v470 : BitVec 32 := Scalar.addi c8_i32_295 v469
  let c1_i32_296 : BitVec 32 := 1#32
  let v471 : BitVec 32 := Scalar.muli v470 c1_i32_296
  let v472 : BitVec 32 := Scalar.addi c0_i32_297 v471
  v472.toNat
def k0_dev47 (d0 : Dev nD) : Nat :=
  let c0_i32_306 : BitVec 32 := 0#32
  let c8_i32_304 : BitVec 32 := 8#32
  let c7_i32_302 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v481 : BitVec 32 := Scalar.addi c7_i32_302 v2
  let c8_i32_303 : BitVec 32 := 8#32
  let v482 : BitVec 32 := Scalar.remsi v481 c8_i32_303
  let v483 : BitVec 32 := Scalar.addi c8_i32_304 v482
  let c1_i32_305 : BitVec 32 := 1#32
  let v484 : BitVec 32 := Scalar.muli v483 c1_i32_305
  let v485 : BitVec 32 := Scalar.addi c0_i32_306 v484
  v485.toNat
def k0_dev48 (d0 : Dev nD) : Nat :=
  let c0_i32_336 : BitVec 32 := 0#32
  let c16_i32_334 : BitVec 32 := 16#32
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v573 : BitVec 32 := Scalar.addi c0_i32_332 v2
  let c8_i32_333 : BitVec 32 := 8#32
  let v574 : BitVec 32 := Scalar.remsi v573 c8_i32_333
  let v575 : BitVec 32 := Scalar.addi c16_i32_334 v574
  let c1_i32_335 : BitVec 32 := 1#32
  let v576 : BitVec 32 := Scalar.muli v575 c1_i32_335
  let v577 : BitVec 32 := Scalar.addi c0_i32_336 v576
  v577.toNat
def k0_dev49 (d0 : Dev nD) : Nat :=
  let c0_i32_345 : BitVec 32 := 0#32
  let c16_i32_343 : BitVec 32 := 16#32
  let c1_i32_341 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v586 : BitVec 32 := Scalar.addi c1_i32_341 v2
  let c8_i32_342 : BitVec 32 := 8#32
  let v587 : BitVec 32 := Scalar.remsi v586 c8_i32_342
  let v588 : BitVec 32 := Scalar.addi c16_i32_343 v587
  let c1_i32_344 : BitVec 32 := 1#32
  let v589 : BitVec 32 := Scalar.muli v588 c1_i32_344
  let v590 : BitVec 32 := Scalar.addi c0_i32_345 v589
  v590.toNat
def k0_dev50 (d0 : Dev nD) : Nat :=
  let c0_i32_354 : BitVec 32 := 0#32
  let c16_i32_352 : BitVec 32 := 16#32
  let c2_i32_350 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v599 : BitVec 32 := Scalar.addi c2_i32_350 v2
  let c8_i32_351 : BitVec 32 := 8#32
  let v600 : BitVec 32 := Scalar.remsi v599 c8_i32_351
  let v601 : BitVec 32 := Scalar.addi c16_i32_352 v600
  let c1_i32_353 : BitVec 32 := 1#32
  let v602 : BitVec 32 := Scalar.muli v601 c1_i32_353
  let v603 : BitVec 32 := Scalar.addi c0_i32_354 v602
  v603.toNat
def k0_dev51 (d0 : Dev nD) : Nat :=
  let c0_i32_363 : BitVec 32 := 0#32
  let c16_i32_361 : BitVec 32 := 16#32
  let c3_i32_359 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v612 : BitVec 32 := Scalar.addi c3_i32_359 v2
  let c8_i32_360 : BitVec 32 := 8#32
  let v613 : BitVec 32 := Scalar.remsi v612 c8_i32_360
  let v614 : BitVec 32 := Scalar.addi c16_i32_361 v613
  let c1_i32_362 : BitVec 32 := 1#32
  let v615 : BitVec 32 := Scalar.muli v614 c1_i32_362
  let v616 : BitVec 32 := Scalar.addi c0_i32_363 v615
  v616.toNat
def k0_dev52 (d0 : Dev nD) : Nat :=
  let c0_i32_372 : BitVec 32 := 0#32
  let c16_i32_370 : BitVec 32 := 16#32
  let c4_i32_368 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v625 : BitVec 32 := Scalar.addi c4_i32_368 v2
  let c8_i32_369 : BitVec 32 := 8#32
  let v626 : BitVec 32 := Scalar.remsi v625 c8_i32_369
  let v627 : BitVec 32 := Scalar.addi c16_i32_370 v626
  let c1_i32_371 : BitVec 32 := 1#32
  let v628 : BitVec 32 := Scalar.muli v627 c1_i32_371
  let v629 : BitVec 32 := Scalar.addi c0_i32_372 v628
  v629.toNat
def k0_dev53 (d0 : Dev nD) : Nat :=
  let c0_i32_381 : BitVec 32 := 0#32
  let c16_i32_379 : BitVec 32 := 16#32
  let c5_i32_377 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v638 : BitVec 32 := Scalar.addi c5_i32_377 v2
  let c8_i32_378 : BitVec 32 := 8#32
  let v639 : BitVec 32 := Scalar.remsi v638 c8_i32_378
  let v640 : BitVec 32 := Scalar.addi c16_i32_379 v639
  let c1_i32_380 : BitVec 32 := 1#32
  let v641 : BitVec 32 := Scalar.muli v640 c1_i32_380
  let v642 : BitVec 32 := Scalar.addi c0_i32_381 v641
  v642.toNat
def k0_dev54 (d0 : Dev nD) : Nat :=
  let c0_i32_390 : BitVec 32 := 0#32
  let c16_i32_388 : BitVec 32 := 16#32
  let c6_i32_386 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v651 : BitVec 32 := Scalar.addi c6_i32_386 v2
  let c8_i32_387 : BitVec 32 := 8#32
  let v652 : BitVec 32 := Scalar.remsi v651 c8_i32_387
  let v653 : BitVec 32 := Scalar.addi c16_i32_388 v652
  let c1_i32_389 : BitVec 32 := 1#32
  let v654 : BitVec 32 := Scalar.muli v653 c1_i32_389
  let v655 : BitVec 32 := Scalar.addi c0_i32_390 v654
  v655.toNat
def k0_dev55 (d0 : Dev nD) : Nat :=
  let c0_i32_399 : BitVec 32 := 0#32
  let c16_i32_397 : BitVec 32 := 16#32
  let c7_i32_395 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v664 : BitVec 32 := Scalar.addi c7_i32_395 v2
  let c8_i32_396 : BitVec 32 := 8#32
  let v665 : BitVec 32 := Scalar.remsi v664 c8_i32_396
  let v666 : BitVec 32 := Scalar.addi c16_i32_397 v665
  let c1_i32_398 : BitVec 32 := 1#32
  let v667 : BitVec 32 := Scalar.muli v666 c1_i32_398
  let v668 : BitVec 32 := Scalar.addi c0_i32_399 v667
  v668.toNat
def k0_dev56 (d0 : Dev nD) : Nat :=
  let c0_i32_429 : BitVec 32 := 0#32
  let c24_i32_427 : BitVec 32 := 24#32
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v756 : BitVec 32 := Scalar.addi c0_i32_425 v2
  let c8_i32_426 : BitVec 32 := 8#32
  let v757 : BitVec 32 := Scalar.remsi v756 c8_i32_426
  let v758 : BitVec 32 := Scalar.addi c24_i32_427 v757
  let c1_i32_428 : BitVec 32 := 1#32
  let v759 : BitVec 32 := Scalar.muli v758 c1_i32_428
  let v760 : BitVec 32 := Scalar.addi c0_i32_429 v759
  v760.toNat
def k0_dev57 (d0 : Dev nD) : Nat :=
  let c0_i32_438 : BitVec 32 := 0#32
  let c24_i32_436 : BitVec 32 := 24#32
  let c1_i32_434 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v769 : BitVec 32 := Scalar.addi c1_i32_434 v2
  let c8_i32_435 : BitVec 32 := 8#32
  let v770 : BitVec 32 := Scalar.remsi v769 c8_i32_435
  let v771 : BitVec 32 := Scalar.addi c24_i32_436 v770
  let c1_i32_437 : BitVec 32 := 1#32
  let v772 : BitVec 32 := Scalar.muli v771 c1_i32_437
  let v773 : BitVec 32 := Scalar.addi c0_i32_438 v772
  v773.toNat
def k0_dev58 (d0 : Dev nD) : Nat :=
  let c0_i32_447 : BitVec 32 := 0#32
  let c24_i32_445 : BitVec 32 := 24#32
  let c2_i32_443 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v782 : BitVec 32 := Scalar.addi c2_i32_443 v2
  let c8_i32_444 : BitVec 32 := 8#32
  let v783 : BitVec 32 := Scalar.remsi v782 c8_i32_444
  let v784 : BitVec 32 := Scalar.addi c24_i32_445 v783
  let c1_i32_446 : BitVec 32 := 1#32
  let v785 : BitVec 32 := Scalar.muli v784 c1_i32_446
  let v786 : BitVec 32 := Scalar.addi c0_i32_447 v785
  v786.toNat
def k0_dev59 (d0 : Dev nD) : Nat :=
  let c0_i32_456 : BitVec 32 := 0#32
  let c24_i32_454 : BitVec 32 := 24#32
  let c3_i32_452 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v795 : BitVec 32 := Scalar.addi c3_i32_452 v2
  let c8_i32_453 : BitVec 32 := 8#32
  let v796 : BitVec 32 := Scalar.remsi v795 c8_i32_453
  let v797 : BitVec 32 := Scalar.addi c24_i32_454 v796
  let c1_i32_455 : BitVec 32 := 1#32
  let v798 : BitVec 32 := Scalar.muli v797 c1_i32_455
  let v799 : BitVec 32 := Scalar.addi c0_i32_456 v798
  v799.toNat
def k0_dev60 (d0 : Dev nD) : Nat :=
  let c0_i32_465 : BitVec 32 := 0#32
  let c24_i32_463 : BitVec 32 := 24#32
  let c4_i32_461 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v808 : BitVec 32 := Scalar.addi c4_i32_461 v2
  let c8_i32_462 : BitVec 32 := 8#32
  let v809 : BitVec 32 := Scalar.remsi v808 c8_i32_462
  let v810 : BitVec 32 := Scalar.addi c24_i32_463 v809
  let c1_i32_464 : BitVec 32 := 1#32
  let v811 : BitVec 32 := Scalar.muli v810 c1_i32_464
  let v812 : BitVec 32 := Scalar.addi c0_i32_465 v811
  v812.toNat
def k0_dev61 (d0 : Dev nD) : Nat :=
  let c0_i32_474 : BitVec 32 := 0#32
  let c24_i32_472 : BitVec 32 := 24#32
  let c5_i32_470 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v821 : BitVec 32 := Scalar.addi c5_i32_470 v2
  let c8_i32_471 : BitVec 32 := 8#32
  let v822 : BitVec 32 := Scalar.remsi v821 c8_i32_471
  let v823 : BitVec 32 := Scalar.addi c24_i32_472 v822
  let c1_i32_473 : BitVec 32 := 1#32
  let v824 : BitVec 32 := Scalar.muli v823 c1_i32_473
  let v825 : BitVec 32 := Scalar.addi c0_i32_474 v824
  v825.toNat
def k0_dev62 (d0 : Dev nD) : Nat :=
  let c0_i32_483 : BitVec 32 := 0#32
  let c24_i32_481 : BitVec 32 := 24#32
  let c6_i32_479 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v834 : BitVec 32 := Scalar.addi c6_i32_479 v2
  let c8_i32_480 : BitVec 32 := 8#32
  let v835 : BitVec 32 := Scalar.remsi v834 c8_i32_480
  let v836 : BitVec 32 := Scalar.addi c24_i32_481 v835
  let c1_i32_482 : BitVec 32 := 1#32
  let v837 : BitVec 32 := Scalar.muli v836 c1_i32_482
  let v838 : BitVec 32 := Scalar.addi c0_i32_483 v837
  v838.toNat
def k0_dev63 (d0 : Dev nD) : Nat :=
  let c0_i32_492 : BitVec 32 := 0#32
  let c24_i32_490 : BitVec 32 := 24#32
  let c7_i32_488 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v847 : BitVec 32 := Scalar.addi c7_i32_488 v2
  let c8_i32_489 : BitVec 32 := 8#32
  let v848 : BitVec 32 := Scalar.remsi v847 c8_i32_489
  let v849 : BitVec 32 := Scalar.addi c24_i32_490 v848
  let c1_i32_491 : BitVec 32 := 1#32
  let v850 : BitVec 32 := Scalar.muli v849 c1_i32_491
  let v851 : BitVec 32 := Scalar.addi c0_i32_492 v850
  v851.toNat
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  slices_S32x256_o0_0_S32x32 : S32x256.Slices ![0, 0] S32x32
  slices_S32x32_o0_0_S8x32 : S32x32.Slices ![0, 0] S8x32
  slices_S32x32_o8_0_S8x32 : S32x32.Slices ![8, 0] S8x32
  slices_S32x32_o16_0_S8x32 : S32x32.Slices ![16, 0] S8x32
  slices_S32x32_o24_0_S8x32 : S32x32.Slices ![24, 0] S8x32
  concatenates_S8x32_S8x32_S8x32_S8x32_S8x128_d1 : Shape.Concatenates [S8x32, S8x32, S8x32, S8x32] S8x128 1
  inb_S32x8x128_S1x8x128_0_0_0 : ∀ a, (![0, 0, 0] : Fin 3 → Nat) a + S1x8x128.size a ≤ S32x8x128.size a
  h_S1x8x128 : 0 < S1x8x128.numel
  shapeCasts_S1x8x128_S8x128 : S1x8x128.ShapeCasts S8x128
  shapeCasts_S8x128_S1x8x128 : S8x128.ShapeCasts S1x8x128
  slices_S32x256_o0_32_S32x32 : S32x256.Slices ![0, 32] S32x32
  inb_S32x8x128_S1x8x128_1_0_0 : ∀ a, (![1, 0, 0] : Fin 3 → Nat) a + S1x8x128.size a ≤ S32x8x128.size a
  slices_S32x256_o0_64_S32x32 : S32x256.Slices ![0, 64] S32x32
  inb_S32x8x128_S1x8x128_2_0_0 : ∀ a, (![2, 0, 0] : Fin 3 → Nat) a + S1x8x128.size a ≤ S32x8x128.size a
  slices_S32x256_o0_96_S32x32 : S32x256.Slices ![0, 96] S32x32
  inb_S32x8x128_S1x8x128_3_0_0 : ∀ a, (![3, 0, 0] : Fin 3 → Nat) a + S1x8x128.size a ≤ S32x8x128.size a
  slices_S32x256_o0_128_S32x32 : S32x256.Slices ![0, 128] S32x32
  inb_S32x8x128_S1x8x128_4_0_0 : ∀ a, (![4, 0, 0] : Fin 3 → Nat) a + S1x8x128.size a ≤ S32x8x128.size a
  slices_S32x256_o0_160_S32x32 : S32x256.Slices ![0, 160] S32x32
  inb_S32x8x128_S1x8x128_5_0_0 : ∀ a, (![5, 0, 0] : Fin 3 → Nat) a + S1x8x128.size a ≤ S32x8x128.size a
  slices_S32x256_o0_192_S32x32 : S32x256.Slices ![0, 192] S32x32
  inb_S32x8x128_S1x8x128_6_0_0 : ∀ a, (![6, 0, 0] : Fin 3 → Nat) a + S1x8x128.size a ≤ S32x8x128.size a
  slices_S32x256_o0_224_S32x32 : S32x256.Slices ![0, 224] S32x32
  inb_S32x8x128_S1x8x128_7_0_0 : ∀ a, (![7, 0, 0] : Fin 3 → Nat) a + S1x8x128.size a ≤ S32x8x128.size a
  hamt_31 : (31#32 : BitVec 32).msb = false
  squeezes_S1_S_ : S1.Squeezes S_
  squeezes_S1x8x128_S8x128 : S1x8x128.Squeezes S8x128
  inb_S1024x1024_S1024x256_0_256 : ∀ a, (![0, 256] : Fin 2 → Nat) a + S1024x256.size a ≤ S1024x1024.size a
  inb_S32x8x128_S1x8x128_8_0_0 : ∀ a, (![8, 0, 0] : Fin 3 → Nat) a + S1x8x128.size a ≤ S32x8x128.size a
  inb_S32x8x128_S1x8x128_9_0_0 : ∀ a, (![9, 0, 0] : Fin 3 → Nat) a + S1x8x128.size a ≤ S32x8x128.size a
  inb_S32x8x128_S1x8x128_10_0_0 : ∀ a, (![10, 0, 0] : Fin 3 → Nat) a + S1x8x128.size a ≤ S32x8x128.size a
  inb_S32x8x128_S1x8x128_11_0_0 : ∀ a, (![11, 0, 0] : Fin 3 → Nat) a + S1x8x128.size a ≤ S32x8x128.size a
  inb_S32x8x128_S1x8x128_12_0_0 : ∀ a, (![12, 0, 0] : Fin 3 → Nat) a + S1x8x128.size a ≤ S32x8x128.size a
  inb_S32x8x128_S1x8x128_13_0_0 : ∀ a, (![13, 0, 0] : Fin 3 → Nat) a + S1x8x128.size a ≤ S32x8x128.size a
  inb_S32x8x128_S1x8x128_14_0_0 : ∀ a, (![14, 0, 0] : Fin 3 → Nat) a + S1x8x128.size a ≤ S32x8x128.size a
  inb_S32x8x128_S1x8x128_15_0_0 : ∀ a, (![15, 0, 0] : Fin 3 → Nat) a + S1x8x128.size a ≤ S32x8x128.size a
  inb_S1024x1024_S1024x256_0_512 : ∀ a, (![0, 512] : Fin 2 → Nat) a + S1024x256.size a ≤ S1024x1024.size a
  inb_S32x8x128_S1x8x128_16_0_0 : ∀ a, (![16, 0, 0] : Fin 3 → Nat) a + S1x8x128.size a ≤ S32x8x128.size a
  inb_S32x8x128_S1x8x128_17_0_0 : ∀ a, (![17, 0, 0] : Fin 3 → Nat) a + S1x8x128.size a ≤ S32x8x128.size a
  inb_S32x8x128_S1x8x128_18_0_0 : ∀ a, (![18, 0, 0] : Fin 3 → Nat) a + S1x8x128.size a ≤ S32x8x128.size a
  inb_S32x8x128_S1x8x128_19_0_0 : ∀ a, (![19, 0, 0] : Fin 3 → Nat) a + S1x8x128.size a ≤ S32x8x128.size a
  inb_S32x8x128_S1x8x128_20_0_0 : ∀ a, (![20, 0, 0] : Fin 3 → Nat) a + S1x8x128.size a ≤ S32x8x128.size a
  inb_S32x8x128_S1x8x128_21_0_0 : ∀ a, (![21, 0, 0] : Fin 3 → Nat) a + S1x8x128.size a ≤ S32x8x128.size a
  inb_S32x8x128_S1x8x128_22_0_0 : ∀ a, (![22, 0, 0] : Fin 3 → Nat) a + S1x8x128.size a ≤ S32x8x128.size a
  inb_S32x8x128_S1x8x128_23_0_0 : ∀ a, (![23, 0, 0] : Fin 3 → Nat) a + S1x8x128.size a ≤ S32x8x128.size a
  inb_S1024x1024_S1024x256_0_768 : ∀ a, (![0, 768] : Fin 2 → Nat) a + S1024x256.size a ≤ S1024x1024.size a
  inb_S32x8x128_S1x8x128_24_0_0 : ∀ a, (![24, 0, 0] : Fin 3 → Nat) a + S1x8x128.size a ≤ S32x8x128.size a
  inb_S32x8x128_S1x8x128_25_0_0 : ∀ a, (![25, 0, 0] : Fin 3 → Nat) a + S1x8x128.size a ≤ S32x8x128.size a
  inb_S32x8x128_S1x8x128_26_0_0 : ∀ a, (![26, 0, 0] : Fin 3 → Nat) a + S1x8x128.size a ≤ S32x8x128.size a
  inb_S32x8x128_S1x8x128_27_0_0 : ∀ a, (![27, 0, 0] : Fin 3 → Nat) a + S1x8x128.size a ≤ S32x8x128.size a
  inb_S32x8x128_S1x8x128_28_0_0 : ∀ a, (![28, 0, 0] : Fin 3 → Nat) a + S1x8x128.size a ≤ S32x8x128.size a
  inb_S32x8x128_S1x8x128_29_0_0 : ∀ a, (![29, 0, 0] : Fin 3 → Nat) a + S1x8x128.size a ≤ S32x8x128.size a
  inb_S32x8x128_S1x8x128_30_0_0 : ∀ a, (![30, 0, 0] : Fin 3 → Nat) a + S1x8x128.size a ≤ S32x8x128.size a
  inb_S32x8x128_S1x8x128_31_0_0 : ∀ a, (![31, 0, 0] : Fin 3 → Nat) a + S1x8x128.size a ≤ S32x8x128.size a
  inb_S32_S1_0 : ∀ a, (![0] : Fin 1 → Nat) a + S1.size a ≤ S32.size a
  inb_S32x8x128_S1x8x32_0_0_0 : ∀ a, (![0, 0, 0] : Fin 3 → Nat) a + S1x8x32.size a ≤ S32x8x128.size a
  h_S1x8x32 : 0 < S1x8x32.numel
  shapeCasts_S1x8x32_S8x32 : S1x8x32.ShapeCasts S8x32
  inb_S1024x32_S8x32_0_0 : ∀ a, (![0, 0] : Fin 2 → Nat) a + S8x32.size a ≤ S1024x32.size a
  h_S8x32 : 0 < S8x32.numel
  inb_S32x8x128_S1x8x32_0_0_32 : ∀ a, (![0, 0, 32] : Fin 3 → Nat) a + S1x8x32.size a ≤ S32x8x128.size a
  inb_S1024x32_S8x32_8_0 : ∀ a, (![8, 0] : Fin 2 → Nat) a + S8x32.size a ≤ S1024x32.size a
  inb_S32x8x128_S1x8x32_0_0_64 : ∀ a, (![0, 0, 64] : Fin 3 → Nat) a + S1x8x32.size a ≤ S32x8x128.size a
  inb_S1024x32_S8x32_16_0 : ∀ a, (![16, 0] : Fin 2 → Nat) a + S8x32.size a ≤ S1024x32.size a
  inb_S32x8x128_S1x8x32_0_0_96 : ∀ a, (![0, 0, 96] : Fin 3 → Nat) a + S1x8x32.size a ≤ S32x8x128.size a
  inb_S1024x32_S8x32_24_0 : ∀ a, (![24, 0] : Fin 2 → Nat) a + S8x32.size a ≤ S1024x32.size a
  inb_S32_S1_1 : ∀ a, (![1] : Fin 1 → Nat) a + S1.size a ≤ S32.size a
  inb_S32x8x128_S1x8x32_1_0_0 : ∀ a, (![1, 0, 0] : Fin 3 → Nat) a + S1x8x32.size a ≤ S32x8x128.size a
  inb_S1024x32_S8x32_32_0 : ∀ a, (![32, 0] : Fin 2 → Nat) a + S8x32.size a ≤ S1024x32.size a
  inb_S32x8x128_S1x8x32_1_0_32 : ∀ a, (![1, 0, 32] : Fin 3 → Nat) a + S1x8x32.size a ≤ S32x8x128.size a
  inb_S1024x32_S8x32_40_0 : ∀ a, (![40, 0] : Fin 2 → Nat) a + S8x32.size a ≤ S1024x32.size a
  inb_S32x8x128_S1x8x32_1_0_64 : ∀ a, (![1, 0, 64] : Fin 3 → Nat) a + S1x8x32.size a ≤ S32x8x128.size a
  inb_S1024x32_S8x32_48_0 : ∀ a, (![48, 0] : Fin 2 → Nat) a + S8x32.size a ≤ S1024x32.size a
  inb_S32x8x128_S1x8x32_1_0_96 : ∀ a, (![1, 0, 96] : Fin 3 → Nat) a + S1x8x32.size a ≤ S32x8x128.size a
  inb_S1024x32_S8x32_56_0 : ∀ a, (![56, 0] : Fin 2 → Nat) a + S8x32.size a ≤ S1024x32.size a
  inb_S32_S1_2 : ∀ a, (![2] : Fin 1 → Nat) a + S1.size a ≤ S32.size a
  inb_S32x8x128_S1x8x32_2_0_0 : ∀ a, (![2, 0, 0] : Fin 3 → Nat) a + S1x8x32.size a ≤ S32x8x128.size a
  inb_S1024x32_S8x32_64_0 : ∀ a, (![64, 0] : Fin 2 → Nat) a + S8x32.size a ≤ S1024x32.size a
  inb_S32x8x128_S1x8x32_2_0_32 : ∀ a, (![2, 0, 32] : Fin 3 → Nat) a + S1x8x32.size a ≤ S32x8x128.size a
  inb_S1024x32_S8x32_72_0 : ∀ a, (![72, 0] : Fin 2 → Nat) a + S8x32.size a ≤ S1024x32.size a
  inb_S32x8x128_S1x8x32_2_0_64 : ∀ a, (![2, 0, 64] : Fin 3 → Nat) a + S1x8x32.size a ≤ S32x8x128.size a
  inb_S1024x32_S8x32_80_0 : ∀ a, (![80, 0] : Fin 2 → Nat) a + S8x32.size a ≤ S1024x32.size a
  inb_S32x8x128_S1x8x32_2_0_96 : ∀ a, (![2, 0, 96] : Fin 3 → Nat) a + S1x8x32.size a ≤ S32x8x128.size a
  inb_S1024x32_S8x32_88_0 : ∀ a, (![88, 0] : Fin 2 → Nat) a + S8x32.size a ≤ S1024x32.size a
  inb_S32_S1_3 : ∀ a, (![3] : Fin 1 → Nat) a + S1.size a ≤ S32.size a
  inb_S32x8x128_S1x8x32_3_0_0 : ∀ a, (![3, 0, 0] : Fin 3 → Nat) a + S1x8x32.size a ≤ S32x8x128.size a
  inb_S1024x32_S8x32_96_0 : ∀ a, (![96, 0] : Fin 2 → Nat) a + S8x32.size a ≤ S1024x32.size a
  inb_S32x8x128_S1x8x32_3_0_32 : ∀ a, (![3, 0, 32] : Fin 3 → Nat) a + S1x8x32.size a ≤ S32x8x128.size a
  inb_S1024x32_S8x32_104_0 : ∀ a, (![104, 0] : Fin 2 → Nat) a + S8x32.size a ≤ S1024x32.size a
  inb_S32x8x128_S1x8x32_3_0_64 : ∀ a, (![3, 0, 64] : Fin 3 → Nat) a + S1x8x32.size a ≤ S32x8x128.size a
  inb_S1024x32_S8x32_112_0 : ∀ a, (![112, 0] : Fin 2 → Nat) a + S8x32.size a ≤ S1024x32.size a
  inb_S32x8x128_S1x8x32_3_0_96 : ∀ a, (![3, 0, 96] : Fin 3 → Nat) a + S1x8x32.size a ≤ S32x8x128.size a
  inb_S1024x32_S8x32_120_0 : ∀ a, (![120, 0] : Fin 2 → Nat) a + S8x32.size a ≤ S1024x32.size a
  inb_S32_S1_4 : ∀ a, (![4] : Fin 1 → Nat) a + S1.size a ≤ S32.size a
  inb_S32x8x128_S1x8x32_4_0_0 : ∀ a, (![4, 0, 0] : Fin 3 → Nat) a + S1x8x32.size a ≤ S32x8x128.size a
  inb_S1024x32_S8x32_128_0 : ∀ a, (![128, 0] : Fin 2 → Nat) a + S8x32.size a ≤ S1024x32.size a
  inb_S32x8x128_S1x8x32_4_0_32 : ∀ a, (![4, 0, 32] : Fin 3 → Nat) a + S1x8x32.size a ≤ S32x8x128.size a
  inb_S1024x32_S8x32_136_0 : ∀ a, (![136, 0] : Fin 2 → Nat) a + S8x32.size a ≤ S1024x32.size a
  inb_S32x8x128_S1x8x32_4_0_64 : ∀ a, (![4, 0, 64] : Fin 3 → Nat) a + S1x8x32.size a ≤ S32x8x128.size a
  inb_S1024x32_S8x32_144_0 : ∀ a, (![144, 0] : Fin 2 → Nat) a + S8x32.size a ≤ S1024x32.size a
  inb_S32x8x128_S1x8x32_4_0_96 : ∀ a, (![4, 0, 96] : Fin 3 → Nat) a + S1x8x32.size a ≤ S32x8x128.size a
  inb_S1024x32_S8x32_152_0 : ∀ a, (![152, 0] : Fin 2 → Nat) a + S8x32.size a ≤ S1024x32.size a
  inb_S32_S1_5 : ∀ a, (![5] : Fin 1 → Nat) a + S1.size a ≤ S32.size a
  inb_S32x8x128_S1x8x32_5_0_0 : ∀ a, (![5, 0, 0] : Fin 3 → Nat) a + S1x8x32.size a ≤ S32x8x128.size a
  inb_S1024x32_S8x32_160_0 : ∀ a, (![160, 0] : Fin 2 → Nat) a + S8x32.size a ≤ S1024x32.size a
  inb_S32x8x128_S1x8x32_5_0_32 : ∀ a, (![5, 0, 32] : Fin 3 → Nat) a + S1x8x32.size a ≤ S32x8x128.size a
  inb_S1024x32_S8x32_168_0 : ∀ a, (![168, 0] : Fin 2 → Nat) a + S8x32.size a ≤ S1024x32.size a
  inb_S32x8x128_S1x8x32_5_0_64 : ∀ a, (![5, 0, 64] : Fin 3 → Nat) a + S1x8x32.size a ≤ S32x8x128.size a
  inb_S1024x32_S8x32_176_0 : ∀ a, (![176, 0] : Fin 2 → Nat) a + S8x32.size a ≤ S1024x32.size a
  inb_S32x8x128_S1x8x32_5_0_96 : ∀ a, (![5, 0, 96] : Fin 3 → Nat) a + S1x8x32.size a ≤ S32x8x128.size a
  inb_S1024x32_S8x32_184_0 : ∀ a, (![184, 0] : Fin 2 → Nat) a + S8x32.size a ≤ S1024x32.size a
  inb_S32_S1_6 : ∀ a, (![6] : Fin 1 → Nat) a + S1.size a ≤ S32.size a
  inb_S32x8x128_S1x8x32_6_0_0 : ∀ a, (![6, 0, 0] : Fin 3 → Nat) a + S1x8x32.size a ≤ S32x8x128.size a
  inb_S1024x32_S8x32_192_0 : ∀ a, (![192, 0] : Fin 2 → Nat) a + S8x32.size a ≤ S1024x32.size a
  inb_S32x8x128_S1x8x32_6_0_32 : ∀ a, (![6, 0, 32] : Fin 3 → Nat) a + S1x8x32.size a ≤ S32x8x128.size a
  inb_S1024x32_S8x32_200_0 : ∀ a, (![200, 0] : Fin 2 → Nat) a + S8x32.size a ≤ S1024x32.size a
  inb_S32x8x128_S1x8x32_6_0_64 : ∀ a, (![6, 0, 64] : Fin 3 → Nat) a + S1x8x32.size a ≤ S32x8x128.size a
  inb_S1024x32_S8x32_208_0 : ∀ a, (![208, 0] : Fin 2 → Nat) a + S8x32.size a ≤ S1024x32.size a
  inb_S32x8x128_S1x8x32_6_0_96 : ∀ a, (![6, 0, 96] : Fin 3 → Nat) a + S1x8x32.size a ≤ S32x8x128.size a
  inb_S1024x32_S8x32_216_0 : ∀ a, (![216, 0] : Fin 2 → Nat) a + S8x32.size a ≤ S1024x32.size a
  inb_S32_S1_7 : ∀ a, (![7] : Fin 1 → Nat) a + S1.size a ≤ S32.size a
  inb_S32x8x128_S1x8x32_7_0_0 : ∀ a, (![7, 0, 0] : Fin 3 → Nat) a + S1x8x32.size a ≤ S32x8x128.size a
  inb_S1024x32_S8x32_224_0 : ∀ a, (![224, 0] : Fin 2 → Nat) a + S8x32.size a ≤ S1024x32.size a
  inb_S32x8x128_S1x8x32_7_0_32 : ∀ a, (![7, 0, 32] : Fin 3 → Nat) a + S1x8x32.size a ≤ S32x8x128.size a
  inb_S1024x32_S8x32_232_0 : ∀ a, (![232, 0] : Fin 2 → Nat) a + S8x32.size a ≤ S1024x32.size a
  inb_S32x8x128_S1x8x32_7_0_64 : ∀ a, (![7, 0, 64] : Fin 3 → Nat) a + S1x8x32.size a ≤ S32x8x128.size a
  inb_S1024x32_S8x32_240_0 : ∀ a, (![240, 0] : Fin 2 → Nat) a + S8x32.size a ≤ S1024x32.size a
  inb_S32x8x128_S1x8x32_7_0_96 : ∀ a, (![7, 0, 96] : Fin 3 → Nat) a + S1x8x32.size a ≤ S32x8x128.size a
  inb_S1024x32_S8x32_248_0 : ∀ a, (![248, 0] : Fin 2 → Nat) a + S8x32.size a ≤ S1024x32.size a
  inb_S32_S1_8 : ∀ a, (![8] : Fin 1 → Nat) a + S1.size a ≤ S32.size a
  inb_S32x8x128_S1x8x32_8_0_0 : ∀ a, (![8, 0, 0] : Fin 3 → Nat) a + S1x8x32.size a ≤ S32x8x128.size a
  inb_S1024x32_S8x32_256_0 : ∀ a, (![256, 0] : Fin 2 → Nat) a + S8x32.size a ≤ S1024x32.size a
  inb_S32x8x128_S1x8x32_8_0_32 : ∀ a, (![8, 0, 32] : Fin 3 → Nat) a + S1x8x32.size a ≤ S32x8x128.size a
  inb_S1024x32_S8x32_264_0 : ∀ a, (![264, 0] : Fin 2 → Nat) a + S8x32.size a ≤ S1024x32.size a
  inb_S32x8x128_S1x8x32_8_0_64 : ∀ a, (![8, 0, 64] : Fin 3 → Nat) a + S1x8x32.size a ≤ S32x8x128.size a
  inb_S1024x32_S8x32_272_0 : ∀ a, (![272, 0] : Fin 2 → Nat) a + S8x32.size a ≤ S1024x32.size a
  inb_S32x8x128_S1x8x32_8_0_96 : ∀ a, (![8, 0, 96] : Fin 3 → Nat) a + S1x8x32.size a ≤ S32x8x128.size a
  inb_S1024x32_S8x32_280_0 : ∀ a, (![280, 0] : Fin 2 → Nat) a + S8x32.size a ≤ S1024x32.size a
  inb_S32_S1_9 : ∀ a, (![9] : Fin 1 → Nat) a + S1.size a ≤ S32.size a
  inb_S32x8x128_S1x8x32_9_0_0 : ∀ a, (![9, 0, 0] : Fin 3 → Nat) a + S1x8x32.size a ≤ S32x8x128.size a
  inb_S1024x32_S8x32_288_0 : ∀ a, (![288, 0] : Fin 2 → Nat) a + S8x32.size a ≤ S1024x32.size a
  inb_S32x8x128_S1x8x32_9_0_32 : ∀ a, (![9, 0, 32] : Fin 3 → Nat) a + S1x8x32.size a ≤ S32x8x128.size a
  inb_S1024x32_S8x32_296_0 : ∀ a, (![296, 0] : Fin 2 → Nat) a + S8x32.size a ≤ S1024x32.size a
  inb_S32x8x128_S1x8x32_9_0_64 : ∀ a, (![9, 0, 64] : Fin 3 → Nat) a + S1x8x32.size a ≤ S32x8x128.size a
  inb_S1024x32_S8x32_304_0 : ∀ a, (![304, 0] : Fin 2 → Nat) a + S8x32.size a ≤ S1024x32.size a
  inb_S32x8x128_S1x8x32_9_0_96 : ∀ a, (![9, 0, 96] : Fin 3 → Nat) a + S1x8x32.size a ≤ S32x8x128.size a
  inb_S1024x32_S8x32_312_0 : ∀ a, (![312, 0] : Fin 2 → Nat) a + S8x32.size a ≤ S1024x32.size a
  inb_S32_S1_10 : ∀ a, (![10] : Fin 1 → Nat) a + S1.size a ≤ S32.size a
  inb_S32x8x128_S1x8x32_10_0_0 : ∀ a, (![10, 0, 0] : Fin 3 → Nat) a + S1x8x32.size a ≤ S32x8x128.size a
  inb_S1024x32_S8x32_320_0 : ∀ a, (![320, 0] : Fin 2 → Nat) a + S8x32.size a ≤ S1024x32.size a
  inb_S32x8x128_S1x8x32_10_0_32 : ∀ a, (![10, 0, 32] : Fin 3 → Nat) a + S1x8x32.size a ≤ S32x8x128.size a
  inb_S1024x32_S8x32_328_0 : ∀ a, (![328, 0] : Fin 2 → Nat) a + S8x32.size a ≤ S1024x32.size a
  inb_S32x8x128_S1x8x32_10_0_64 : ∀ a, (![10, 0, 64] : Fin 3 → Nat) a + S1x8x32.size a ≤ S32x8x128.size a
  inb_S1024x32_S8x32_336_0 : ∀ a, (![336, 0] : Fin 2 → Nat) a + S8x32.size a ≤ S1024x32.size a
  inb_S32x8x128_S1x8x32_10_0_96 : ∀ a, (![10, 0, 96] : Fin 3 → Nat) a + S1x8x32.size a ≤ S32x8x128.size a
  inb_S1024x32_S8x32_344_0 : ∀ a, (![344, 0] : Fin 2 → Nat) a + S8x32.size a ≤ S1024x32.size a
  inb_S32_S1_11 : ∀ a, (![11] : Fin 1 → Nat) a + S1.size a ≤ S32.size a
  inb_S32x8x128_S1x8x32_11_0_0 : ∀ a, (![11, 0, 0] : Fin 3 → Nat) a + S1x8x32.size a ≤ S32x8x128.size a
  inb_S1024x32_S8x32_352_0 : ∀ a, (![352, 0] : Fin 2 → Nat) a + S8x32.size a ≤ S1024x32.size a
  inb_S32x8x128_S1x8x32_11_0_32 : ∀ a, (![11, 0, 32] : Fin 3 → Nat) a + S1x8x32.size a ≤ S32x8x128.size a
  inb_S1024x32_S8x32_360_0 : ∀ a, (![360, 0] : Fin 2 → Nat) a + S8x32.size a ≤ S1024x32.size a
  inb_S32x8x128_S1x8x32_11_0_64 : ∀ a, (![11, 0, 64] : Fin 3 → Nat) a + S1x8x32.size a ≤ S32x8x128.size a
  inb_S1024x32_S8x32_368_0 : ∀ a, (![368, 0] : Fin 2 → Nat) a + S8x32.size a ≤ S1024x32.size a
  inb_S32x8x128_S1x8x32_11_0_96 : ∀ a, (![11, 0, 96] : Fin 3 → Nat) a + S1x8x32.size a ≤ S32x8x128.size a
  inb_S1024x32_S8x32_376_0 : ∀ a, (![376, 0] : Fin 2 → Nat) a + S8x32.size a ≤ S1024x32.size a
  inb_S32_S1_12 : ∀ a, (![12] : Fin 1 → Nat) a + S1.size a ≤ S32.size a
  inb_S32x8x128_S1x8x32_12_0_0 : ∀ a, (![12, 0, 0] : Fin 3 → Nat) a + S1x8x32.size a ≤ S32x8x128.size a
  inb_S1024x32_S8x32_384_0 : ∀ a, (![384, 0] : Fin 2 → Nat) a + S8x32.size a ≤ S1024x32.size a
  inb_S32x8x128_S1x8x32_12_0_32 : ∀ a, (![12, 0, 32] : Fin 3 → Nat) a + S1x8x32.size a ≤ S32x8x128.size a
  inb_S1024x32_S8x32_392_0 : ∀ a, (![392, 0] : Fin 2 → Nat) a + S8x32.size a ≤ S1024x32.size a
  inb_S32x8x128_S1x8x32_12_0_64 : ∀ a, (![12, 0, 64] : Fin 3 → Nat) a + S1x8x32.size a ≤ S32x8x128.size a
  inb_S1024x32_S8x32_400_0 : ∀ a, (![400, 0] : Fin 2 → Nat) a + S8x32.size a ≤ S1024x32.size a
  inb_S32x8x128_S1x8x32_12_0_96 : ∀ a, (![12, 0, 96] : Fin 3 → Nat) a + S1x8x32.size a ≤ S32x8x128.size a
  inb_S1024x32_S8x32_408_0 : ∀ a, (![408, 0] : Fin 2 → Nat) a + S8x32.size a ≤ S1024x32.size a
  inb_S32_S1_13 : ∀ a, (![13] : Fin 1 → Nat) a + S1.size a ≤ S32.size a
  inb_S32x8x128_S1x8x32_13_0_0 : ∀ a, (![13, 0, 0] : Fin 3 → Nat) a + S1x8x32.size a ≤ S32x8x128.size a
  inb_S1024x32_S8x32_416_0 : ∀ a, (![416, 0] : Fin 2 → Nat) a + S8x32.size a ≤ S1024x32.size a
  inb_S32x8x128_S1x8x32_13_0_32 : ∀ a, (![13, 0, 32] : Fin 3 → Nat) a + S1x8x32.size a ≤ S32x8x128.size a
  inb_S1024x32_S8x32_424_0 : ∀ a, (![424, 0] : Fin 2 → Nat) a + S8x32.size a ≤ S1024x32.size a
  inb_S32x8x128_S1x8x32_13_0_64 : ∀ a, (![13, 0, 64] : Fin 3 → Nat) a + S1x8x32.size a ≤ S32x8x128.size a
  inb_S1024x32_S8x32_432_0 : ∀ a, (![432, 0] : Fin 2 → Nat) a + S8x32.size a ≤ S1024x32.size a
  inb_S32x8x128_S1x8x32_13_0_96 : ∀ a, (![13, 0, 96] : Fin 3 → Nat) a + S1x8x32.size a ≤ S32x8x128.size a
  inb_S1024x32_S8x32_440_0 : ∀ a, (![440, 0] : Fin 2 → Nat) a + S8x32.size a ≤ S1024x32.size a
  inb_S32_S1_14 : ∀ a, (![14] : Fin 1 → Nat) a + S1.size a ≤ S32.size a
  inb_S32x8x128_S1x8x32_14_0_0 : ∀ a, (![14, 0, 0] : Fin 3 → Nat) a + S1x8x32.size a ≤ S32x8x128.size a
  inb_S1024x32_S8x32_448_0 : ∀ a, (![448, 0] : Fin 2 → Nat) a + S8x32.size a ≤ S1024x32.size a
  inb_S32x8x128_S1x8x32_14_0_32 : ∀ a, (![14, 0, 32] : Fin 3 → Nat) a + S1x8x32.size a ≤ S32x8x128.size a
  inb_S1024x32_S8x32_456_0 : ∀ a, (![456, 0] : Fin 2 → Nat) a + S8x32.size a ≤ S1024x32.size a
  inb_S32x8x128_S1x8x32_14_0_64 : ∀ a, (![14, 0, 64] : Fin 3 → Nat) a + S1x8x32.size a ≤ S32x8x128.size a
  inb_S1024x32_S8x32_464_0 : ∀ a, (![464, 0] : Fin 2 → Nat) a + S8x32.size a ≤ S1024x32.size a
  inb_S32x8x128_S1x8x32_14_0_96 : ∀ a, (![14, 0, 96] : Fin 3 → Nat) a + S1x8x32.size a ≤ S32x8x128.size a
  inb_S1024x32_S8x32_472_0 : ∀ a, (![472, 0] : Fin 2 → Nat) a + S8x32.size a ≤ S1024x32.size a
  inb_S32_S1_15 : ∀ a, (![15] : Fin 1 → Nat) a + S1.size a ≤ S32.size a
  inb_S32x8x128_S1x8x32_15_0_0 : ∀ a, (![15, 0, 0] : Fin 3 → Nat) a + S1x8x32.size a ≤ S32x8x128.size a
  inb_S1024x32_S8x32_480_0 : ∀ a, (![480, 0] : Fin 2 → Nat) a + S8x32.size a ≤ S1024x32.size a
  inb_S32x8x128_S1x8x32_15_0_32 : ∀ a, (![15, 0, 32] : Fin 3 → Nat) a + S1x8x32.size a ≤ S32x8x128.size a
  inb_S1024x32_S8x32_488_0 : ∀ a, (![488, 0] : Fin 2 → Nat) a + S8x32.size a ≤ S1024x32.size a
  inb_S32x8x128_S1x8x32_15_0_64 : ∀ a, (![15, 0, 64] : Fin 3 → Nat) a + S1x8x32.size a ≤ S32x8x128.size a
  inb_S1024x32_S8x32_496_0 : ∀ a, (![496, 0] : Fin 2 → Nat) a + S8x32.size a ≤ S1024x32.size a
  inb_S32x8x128_S1x8x32_15_0_96 : ∀ a, (![15, 0, 96] : Fin 3 → Nat) a + S1x8x32.size a ≤ S32x8x128.size a
  inb_S1024x32_S8x32_504_0 : ∀ a, (![504, 0] : Fin 2 → Nat) a + S8x32.size a ≤ S1024x32.size a
  inb_S32_S1_16 : ∀ a, (![16] : Fin 1 → Nat) a + S1.size a ≤ S32.size a
  inb_S32x8x128_S1x8x32_16_0_0 : ∀ a, (![16, 0, 0] : Fin 3 → Nat) a + S1x8x32.size a ≤ S32x8x128.size a
  inb_S1024x32_S8x32_512_0 : ∀ a, (![512, 0] : Fin 2 → Nat) a + S8x32.size a ≤ S1024x32.size a
  inb_S32x8x128_S1x8x32_16_0_32 : ∀ a, (![16, 0, 32] : Fin 3 → Nat) a + S1x8x32.size a ≤ S32x8x128.size a
  inb_S1024x32_S8x32_520_0 : ∀ a, (![520, 0] : Fin 2 → Nat) a + S8x32.size a ≤ S1024x32.size a
  inb_S32x8x128_S1x8x32_16_0_64 : ∀ a, (![16, 0, 64] : Fin 3 → Nat) a + S1x8x32.size a ≤ S32x8x128.size a
  inb_S1024x32_S8x32_528_0 : ∀ a, (![528, 0] : Fin 2 → Nat) a + S8x32.size a ≤ S1024x32.size a
  inb_S32x8x128_S1x8x32_16_0_96 : ∀ a, (![16, 0, 96] : Fin 3 → Nat) a + S1x8x32.size a ≤ S32x8x128.size a
  inb_S1024x32_S8x32_536_0 : ∀ a, (![536, 0] : Fin 2 → Nat) a + S8x32.size a ≤ S1024x32.size a
  inb_S32_S1_17 : ∀ a, (![17] : Fin 1 → Nat) a + S1.size a ≤ S32.size a
  inb_S32x8x128_S1x8x32_17_0_0 : ∀ a, (![17, 0, 0] : Fin 3 → Nat) a + S1x8x32.size a ≤ S32x8x128.size a
  inb_S1024x32_S8x32_544_0 : ∀ a, (![544, 0] : Fin 2 → Nat) a + S8x32.size a ≤ S1024x32.size a
  inb_S32x8x128_S1x8x32_17_0_32 : ∀ a, (![17, 0, 32] : Fin 3 → Nat) a + S1x8x32.size a ≤ S32x8x128.size a
  inb_S1024x32_S8x32_552_0 : ∀ a, (![552, 0] : Fin 2 → Nat) a + S8x32.size a ≤ S1024x32.size a
  inb_S32x8x128_S1x8x32_17_0_64 : ∀ a, (![17, 0, 64] : Fin 3 → Nat) a + S1x8x32.size a ≤ S32x8x128.size a
  inb_S1024x32_S8x32_560_0 : ∀ a, (![560, 0] : Fin 2 → Nat) a + S8x32.size a ≤ S1024x32.size a
  inb_S32x8x128_S1x8x32_17_0_96 : ∀ a, (![17, 0, 96] : Fin 3 → Nat) a + S1x8x32.size a ≤ S32x8x128.size a
  inb_S1024x32_S8x32_568_0 : ∀ a, (![568, 0] : Fin 2 → Nat) a + S8x32.size a ≤ S1024x32.size a
  inb_S32_S1_18 : ∀ a, (![18] : Fin 1 → Nat) a + S1.size a ≤ S32.size a
  inb_S32x8x128_S1x8x32_18_0_0 : ∀ a, (![18, 0, 0] : Fin 3 → Nat) a + S1x8x32.size a ≤ S32x8x128.size a
  inb_S1024x32_S8x32_576_0 : ∀ a, (![576, 0] : Fin 2 → Nat) a + S8x32.size a ≤ S1024x32.size a
  inb_S32x8x128_S1x8x32_18_0_32 : ∀ a, (![18, 0, 32] : Fin 3 → Nat) a + S1x8x32.size a ≤ S32x8x128.size a
  inb_S1024x32_S8x32_584_0 : ∀ a, (![584, 0] : Fin 2 → Nat) a + S8x32.size a ≤ S1024x32.size a
  inb_S32x8x128_S1x8x32_18_0_64 : ∀ a, (![18, 0, 64] : Fin 3 → Nat) a + S1x8x32.size a ≤ S32x8x128.size a
  inb_S1024x32_S8x32_592_0 : ∀ a, (![592, 0] : Fin 2 → Nat) a + S8x32.size a ≤ S1024x32.size a
  inb_S32x8x128_S1x8x32_18_0_96 : ∀ a, (![18, 0, 96] : Fin 3 → Nat) a + S1x8x32.size a ≤ S32x8x128.size a
  inb_S1024x32_S8x32_600_0 : ∀ a, (![600, 0] : Fin 2 → Nat) a + S8x32.size a ≤ S1024x32.size a
  inb_S32_S1_19 : ∀ a, (![19] : Fin 1 → Nat) a + S1.size a ≤ S32.size a
  inb_S32x8x128_S1x8x32_19_0_0 : ∀ a, (![19, 0, 0] : Fin 3 → Nat) a + S1x8x32.size a ≤ S32x8x128.size a
  inb_S1024x32_S8x32_608_0 : ∀ a, (![608, 0] : Fin 2 → Nat) a + S8x32.size a ≤ S1024x32.size a
  inb_S32x8x128_S1x8x32_19_0_32 : ∀ a, (![19, 0, 32] : Fin 3 → Nat) a + S1x8x32.size a ≤ S32x8x128.size a
  inb_S1024x32_S8x32_616_0 : ∀ a, (![616, 0] : Fin 2 → Nat) a + S8x32.size a ≤ S1024x32.size a
  inb_S32x8x128_S1x8x32_19_0_64 : ∀ a, (![19, 0, 64] : Fin 3 → Nat) a + S1x8x32.size a ≤ S32x8x128.size a
  inb_S1024x32_S8x32_624_0 : ∀ a, (![624, 0] : Fin 2 → Nat) a + S8x32.size a ≤ S1024x32.size a
  inb_S32x8x128_S1x8x32_19_0_96 : ∀ a, (![19, 0, 96] : Fin 3 → Nat) a + S1x8x32.size a ≤ S32x8x128.size a
  inb_S1024x32_S8x32_632_0 : ∀ a, (![632, 0] : Fin 2 → Nat) a + S8x32.size a ≤ S1024x32.size a
  inb_S32_S1_20 : ∀ a, (![20] : Fin 1 → Nat) a + S1.size a ≤ S32.size a
  inb_S32x8x128_S1x8x32_20_0_0 : ∀ a, (![20, 0, 0] : Fin 3 → Nat) a + S1x8x32.size a ≤ S32x8x128.size a
  inb_S1024x32_S8x32_640_0 : ∀ a, (![640, 0] : Fin 2 → Nat) a + S8x32.size a ≤ S1024x32.size a
  inb_S32x8x128_S1x8x32_20_0_32 : ∀ a, (![20, 0, 32] : Fin 3 → Nat) a + S1x8x32.size a ≤ S32x8x128.size a
  inb_S1024x32_S8x32_648_0 : ∀ a, (![648, 0] : Fin 2 → Nat) a + S8x32.size a ≤ S1024x32.size a
  inb_S32x8x128_S1x8x32_20_0_64 : ∀ a, (![20, 0, 64] : Fin 3 → Nat) a + S1x8x32.size a ≤ S32x8x128.size a
  inb_S1024x32_S8x32_656_0 : ∀ a, (![656, 0] : Fin 2 → Nat) a + S8x32.size a ≤ S1024x32.size a
  inb_S32x8x128_S1x8x32_20_0_96 : ∀ a, (![20, 0, 96] : Fin 3 → Nat) a + S1x8x32.size a ≤ S32x8x128.size a
  inb_S1024x32_S8x32_664_0 : ∀ a, (![664, 0] : Fin 2 → Nat) a + S8x32.size a ≤ S1024x32.size a
  inb_S32_S1_21 : ∀ a, (![21] : Fin 1 → Nat) a + S1.size a ≤ S32.size a
  inb_S32x8x128_S1x8x32_21_0_0 : ∀ a, (![21, 0, 0] : Fin 3 → Nat) a + S1x8x32.size a ≤ S32x8x128.size a
  inb_S1024x32_S8x32_672_0 : ∀ a, (![672, 0] : Fin 2 → Nat) a + S8x32.size a ≤ S1024x32.size a
  inb_S32x8x128_S1x8x32_21_0_32 : ∀ a, (![21, 0, 32] : Fin 3 → Nat) a + S1x8x32.size a ≤ S32x8x128.size a
  inb_S1024x32_S8x32_680_0 : ∀ a, (![680, 0] : Fin 2 → Nat) a + S8x32.size a ≤ S1024x32.size a
  inb_S32x8x128_S1x8x32_21_0_64 : ∀ a, (![21, 0, 64] : Fin 3 → Nat) a + S1x8x32.size a ≤ S32x8x128.size a
  inb_S1024x32_S8x32_688_0 : ∀ a, (![688, 0] : Fin 2 → Nat) a + S8x32.size a ≤ S1024x32.size a
  inb_S32x8x128_S1x8x32_21_0_96 : ∀ a, (![21, 0, 96] : Fin 3 → Nat) a + S1x8x32.size a ≤ S32x8x128.size a
  inb_S1024x32_S8x32_696_0 : ∀ a, (![696, 0] : Fin 2 → Nat) a + S8x32.size a ≤ S1024x32.size a
  inb_S32_S1_22 : ∀ a, (![22] : Fin 1 → Nat) a + S1.size a ≤ S32.size a
  inb_S32x8x128_S1x8x32_22_0_0 : ∀ a, (![22, 0, 0] : Fin 3 → Nat) a + S1x8x32.size a ≤ S32x8x128.size a
  inb_S1024x32_S8x32_704_0 : ∀ a, (![704, 0] : Fin 2 → Nat) a + S8x32.size a ≤ S1024x32.size a
  inb_S32x8x128_S1x8x32_22_0_32 : ∀ a, (![22, 0, 32] : Fin 3 → Nat) a + S1x8x32.size a ≤ S32x8x128.size a
  inb_S1024x32_S8x32_712_0 : ∀ a, (![712, 0] : Fin 2 → Nat) a + S8x32.size a ≤ S1024x32.size a
  inb_S32x8x128_S1x8x32_22_0_64 : ∀ a, (![22, 0, 64] : Fin 3 → Nat) a + S1x8x32.size a ≤ S32x8x128.size a
  inb_S1024x32_S8x32_720_0 : ∀ a, (![720, 0] : Fin 2 → Nat) a + S8x32.size a ≤ S1024x32.size a
  inb_S32x8x128_S1x8x32_22_0_96 : ∀ a, (![22, 0, 96] : Fin 3 → Nat) a + S1x8x32.size a ≤ S32x8x128.size a
  inb_S1024x32_S8x32_728_0 : ∀ a, (![728, 0] : Fin 2 → Nat) a + S8x32.size a ≤ S1024x32.size a
  inb_S32_S1_23 : ∀ a, (![23] : Fin 1 → Nat) a + S1.size a ≤ S32.size a
  inb_S32x8x128_S1x8x32_23_0_0 : ∀ a, (![23, 0, 0] : Fin 3 → Nat) a + S1x8x32.size a ≤ S32x8x128.size a
  inb_S1024x32_S8x32_736_0 : ∀ a, (![736, 0] : Fin 2 → Nat) a + S8x32.size a ≤ S1024x32.size a
  inb_S32x8x128_S1x8x32_23_0_32 : ∀ a, (![23, 0, 32] : Fin 3 → Nat) a + S1x8x32.size a ≤ S32x8x128.size a
  inb_S1024x32_S8x32_744_0 : ∀ a, (![744, 0] : Fin 2 → Nat) a + S8x32.size a ≤ S1024x32.size a
  inb_S32x8x128_S1x8x32_23_0_64 : ∀ a, (![23, 0, 64] : Fin 3 → Nat) a + S1x8x32.size a ≤ S32x8x128.size a
  inb_S1024x32_S8x32_752_0 : ∀ a, (![752, 0] : Fin 2 → Nat) a + S8x32.size a ≤ S1024x32.size a
  inb_S32x8x128_S1x8x32_23_0_96 : ∀ a, (![23, 0, 96] : Fin 3 → Nat) a + S1x8x32.size a ≤ S32x8x128.size a
  inb_S1024x32_S8x32_760_0 : ∀ a, (![760, 0] : Fin 2 → Nat) a + S8x32.size a ≤ S1024x32.size a
  inb_S32_S1_24 : ∀ a, (![24] : Fin 1 → Nat) a + S1.size a ≤ S32.size a
  inb_S32x8x128_S1x8x32_24_0_0 : ∀ a, (![24, 0, 0] : Fin 3 → Nat) a + S1x8x32.size a ≤ S32x8x128.size a
  inb_S1024x32_S8x32_768_0 : ∀ a, (![768, 0] : Fin 2 → Nat) a + S8x32.size a ≤ S1024x32.size a
  inb_S32x8x128_S1x8x32_24_0_32 : ∀ a, (![24, 0, 32] : Fin 3 → Nat) a + S1x8x32.size a ≤ S32x8x128.size a
  inb_S1024x32_S8x32_776_0 : ∀ a, (![776, 0] : Fin 2 → Nat) a + S8x32.size a ≤ S1024x32.size a
  inb_S32x8x128_S1x8x32_24_0_64 : ∀ a, (![24, 0, 64] : Fin 3 → Nat) a + S1x8x32.size a ≤ S32x8x128.size a
  inb_S1024x32_S8x32_784_0 : ∀ a, (![784, 0] : Fin 2 → Nat) a + S8x32.size a ≤ S1024x32.size a
  inb_S32x8x128_S1x8x32_24_0_96 : ∀ a, (![24, 0, 96] : Fin 3 → Nat) a + S1x8x32.size a ≤ S32x8x128.size a
  inb_S1024x32_S8x32_792_0 : ∀ a, (![792, 0] : Fin 2 → Nat) a + S8x32.size a ≤ S1024x32.size a
  inb_S32_S1_25 : ∀ a, (![25] : Fin 1 → Nat) a + S1.size a ≤ S32.size a
  inb_S32x8x128_S1x8x32_25_0_0 : ∀ a, (![25, 0, 0] : Fin 3 → Nat) a + S1x8x32.size a ≤ S32x8x128.size a
  inb_S1024x32_S8x32_800_0 : ∀ a, (![800, 0] : Fin 2 → Nat) a + S8x32.size a ≤ S1024x32.size a
  inb_S32x8x128_S1x8x32_25_0_32 : ∀ a, (![25, 0, 32] : Fin 3 → Nat) a + S1x8x32.size a ≤ S32x8x128.size a
  inb_S1024x32_S8x32_808_0 : ∀ a, (![808, 0] : Fin 2 → Nat) a + S8x32.size a ≤ S1024x32.size a
  inb_S32x8x128_S1x8x32_25_0_64 : ∀ a, (![25, 0, 64] : Fin 3 → Nat) a + S1x8x32.size a ≤ S32x8x128.size a
  inb_S1024x32_S8x32_816_0 : ∀ a, (![816, 0] : Fin 2 → Nat) a + S8x32.size a ≤ S1024x32.size a
  inb_S32x8x128_S1x8x32_25_0_96 : ∀ a, (![25, 0, 96] : Fin 3 → Nat) a + S1x8x32.size a ≤ S32x8x128.size a
  inb_S1024x32_S8x32_824_0 : ∀ a, (![824, 0] : Fin 2 → Nat) a + S8x32.size a ≤ S1024x32.size a
  inb_S32_S1_26 : ∀ a, (![26] : Fin 1 → Nat) a + S1.size a ≤ S32.size a
  inb_S32x8x128_S1x8x32_26_0_0 : ∀ a, (![26, 0, 0] : Fin 3 → Nat) a + S1x8x32.size a ≤ S32x8x128.size a
  inb_S1024x32_S8x32_832_0 : ∀ a, (![832, 0] : Fin 2 → Nat) a + S8x32.size a ≤ S1024x32.size a
  inb_S32x8x128_S1x8x32_26_0_32 : ∀ a, (![26, 0, 32] : Fin 3 → Nat) a + S1x8x32.size a ≤ S32x8x128.size a
  inb_S1024x32_S8x32_840_0 : ∀ a, (![840, 0] : Fin 2 → Nat) a + S8x32.size a ≤ S1024x32.size a
  inb_S32x8x128_S1x8x32_26_0_64 : ∀ a, (![26, 0, 64] : Fin 3 → Nat) a + S1x8x32.size a ≤ S32x8x128.size a
  inb_S1024x32_S8x32_848_0 : ∀ a, (![848, 0] : Fin 2 → Nat) a + S8x32.size a ≤ S1024x32.size a
  inb_S32x8x128_S1x8x32_26_0_96 : ∀ a, (![26, 0, 96] : Fin 3 → Nat) a + S1x8x32.size a ≤ S32x8x128.size a
  inb_S1024x32_S8x32_856_0 : ∀ a, (![856, 0] : Fin 2 → Nat) a + S8x32.size a ≤ S1024x32.size a
  inb_S32_S1_27 : ∀ a, (![27] : Fin 1 → Nat) a + S1.size a ≤ S32.size a
  inb_S32x8x128_S1x8x32_27_0_0 : ∀ a, (![27, 0, 0] : Fin 3 → Nat) a + S1x8x32.size a ≤ S32x8x128.size a
  inb_S1024x32_S8x32_864_0 : ∀ a, (![864, 0] : Fin 2 → Nat) a + S8x32.size a ≤ S1024x32.size a
  inb_S32x8x128_S1x8x32_27_0_32 : ∀ a, (![27, 0, 32] : Fin 3 → Nat) a + S1x8x32.size a ≤ S32x8x128.size a
  inb_S1024x32_S8x32_872_0 : ∀ a, (![872, 0] : Fin 2 → Nat) a + S8x32.size a ≤ S1024x32.size a
  inb_S32x8x128_S1x8x32_27_0_64 : ∀ a, (![27, 0, 64] : Fin 3 → Nat) a + S1x8x32.size a ≤ S32x8x128.size a
  inb_S1024x32_S8x32_880_0 : ∀ a, (![880, 0] : Fin 2 → Nat) a + S8x32.size a ≤ S1024x32.size a
  inb_S32x8x128_S1x8x32_27_0_96 : ∀ a, (![27, 0, 96] : Fin 3 → Nat) a + S1x8x32.size a ≤ S32x8x128.size a
  inb_S1024x32_S8x32_888_0 : ∀ a, (![888, 0] : Fin 2 → Nat) a + S8x32.size a ≤ S1024x32.size a
  inb_S32_S1_28 : ∀ a, (![28] : Fin 1 → Nat) a + S1.size a ≤ S32.size a
  inb_S32x8x128_S1x8x32_28_0_0 : ∀ a, (![28, 0, 0] : Fin 3 → Nat) a + S1x8x32.size a ≤ S32x8x128.size a
  inb_S1024x32_S8x32_896_0 : ∀ a, (![896, 0] : Fin 2 → Nat) a + S8x32.size a ≤ S1024x32.size a
  inb_S32x8x128_S1x8x32_28_0_32 : ∀ a, (![28, 0, 32] : Fin 3 → Nat) a + S1x8x32.size a ≤ S32x8x128.size a
  inb_S1024x32_S8x32_904_0 : ∀ a, (![904, 0] : Fin 2 → Nat) a + S8x32.size a ≤ S1024x32.size a
  inb_S32x8x128_S1x8x32_28_0_64 : ∀ a, (![28, 0, 64] : Fin 3 → Nat) a + S1x8x32.size a ≤ S32x8x128.size a
  inb_S1024x32_S8x32_912_0 : ∀ a, (![912, 0] : Fin 2 → Nat) a + S8x32.size a ≤ S1024x32.size a
  inb_S32x8x128_S1x8x32_28_0_96 : ∀ a, (![28, 0, 96] : Fin 3 → Nat) a + S1x8x32.size a ≤ S32x8x128.size a
  inb_S1024x32_S8x32_920_0 : ∀ a, (![920, 0] : Fin 2 → Nat) a + S8x32.size a ≤ S1024x32.size a
  inb_S32_S1_29 : ∀ a, (![29] : Fin 1 → Nat) a + S1.size a ≤ S32.size a
  inb_S32x8x128_S1x8x32_29_0_0 : ∀ a, (![29, 0, 0] : Fin 3 → Nat) a + S1x8x32.size a ≤ S32x8x128.size a
  inb_S1024x32_S8x32_928_0 : ∀ a, (![928, 0] : Fin 2 → Nat) a + S8x32.size a ≤ S1024x32.size a
  inb_S32x8x128_S1x8x32_29_0_32 : ∀ a, (![29, 0, 32] : Fin 3 → Nat) a + S1x8x32.size a ≤ S32x8x128.size a
  inb_S1024x32_S8x32_936_0 : ∀ a, (![936, 0] : Fin 2 → Nat) a + S8x32.size a ≤ S1024x32.size a
  inb_S32x8x128_S1x8x32_29_0_64 : ∀ a, (![29, 0, 64] : Fin 3 → Nat) a + S1x8x32.size a ≤ S32x8x128.size a
  inb_S1024x32_S8x32_944_0 : ∀ a, (![944, 0] : Fin 2 → Nat) a + S8x32.size a ≤ S1024x32.size a
  inb_S32x8x128_S1x8x32_29_0_96 : ∀ a, (![29, 0, 96] : Fin 3 → Nat) a + S1x8x32.size a ≤ S32x8x128.size a
  inb_S1024x32_S8x32_952_0 : ∀ a, (![952, 0] : Fin 2 → Nat) a + S8x32.size a ≤ S1024x32.size a
  inb_S32_S1_30 : ∀ a, (![30] : Fin 1 → Nat) a + S1.size a ≤ S32.size a
  inb_S32x8x128_S1x8x32_30_0_0 : ∀ a, (![30, 0, 0] : Fin 3 → Nat) a + S1x8x32.size a ≤ S32x8x128.size a
  inb_S1024x32_S8x32_960_0 : ∀ a, (![960, 0] : Fin 2 → Nat) a + S8x32.size a ≤ S1024x32.size a
  inb_S32x8x128_S1x8x32_30_0_32 : ∀ a, (![30, 0, 32] : Fin 3 → Nat) a + S1x8x32.size a ≤ S32x8x128.size a
  inb_S1024x32_S8x32_968_0 : ∀ a, (![968, 0] : Fin 2 → Nat) a + S8x32.size a ≤ S1024x32.size a
  inb_S32x8x128_S1x8x32_30_0_64 : ∀ a, (![30, 0, 64] : Fin 3 → Nat) a + S1x8x32.size a ≤ S32x8x128.size a
  inb_S1024x32_S8x32_976_0 : ∀ a, (![976, 0] : Fin 2 → Nat) a + S8x32.size a ≤ S1024x32.size a
  inb_S32x8x128_S1x8x32_30_0_96 : ∀ a, (![30, 0, 96] : Fin 3 → Nat) a + S1x8x32.size a ≤ S32x8x128.size a
  inb_S1024x32_S8x32_984_0 : ∀ a, (![984, 0] : Fin 2 → Nat) a + S8x32.size a ≤ S1024x32.size a
  inb_S32_S1_31 : ∀ a, (![31] : Fin 1 → Nat) a + S1.size a ≤ S32.size a
  inb_S32x8x128_S1x8x32_31_0_0 : ∀ a, (![31, 0, 0] : Fin 3 → Nat) a + S1x8x32.size a ≤ S32x8x128.size a
  inb_S1024x32_S8x32_992_0 : ∀ a, (![992, 0] : Fin 2 → Nat) a + S8x32.size a ≤ S1024x32.size a
  inb_S32x8x128_S1x8x32_31_0_32 : ∀ a, (![31, 0, 32] : Fin 3 → Nat) a + S1x8x32.size a ≤ S32x8x128.size a
  inb_S1024x32_S8x32_1000_0 : ∀ a, (![1000, 0] : Fin 2 → Nat) a + S8x32.size a ≤ S1024x32.size a
  inb_S32x8x128_S1x8x32_31_0_64 : ∀ a, (![31, 0, 64] : Fin 3 → Nat) a + S1x8x32.size a ≤ S32x8x128.size a
  inb_S1024x32_S8x32_1008_0 : ∀ a, (![1008, 0] : Fin 2 → Nat) a + S8x32.size a ≤ S1024x32.size a
  inb_S32x8x128_S1x8x32_31_0_96 : ∀ a, (![31, 0, 96] : Fin 3 → Nat) a + S1x8x32.size a ≤ S32x8x128.size a
  inb_S1024x32_S8x32_1016_0 : ∀ a, (![1016, 0] : Fin 2 → Nat) a + S8x32.size a ≤ S1024x32.size a
  dot_S32x1024_S1024x256_S32x256_1_0_0_1_n_n_wf : DotDims.WF S32x1024 S1024x256 S32x256 [1] [0] [0] [1] [] []
  hcc0_scratch2 : 3 + S32.numel ≤ 67
  hcc0_scratch3 : 35 + S32.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ (r₁ : Fin 4) (r₂ : Fin 8), ∀ a, (k0_off1 d0 (BitVec.ofNat 32 (8 * r₁.val)) (BitVec.ofNat 32 r₂.val)) a + S1.size a ≤ S32.size a
  k0_off2_inb : ∀ d0 : Dev nD, ∀ a, (k0_off2 d0) a + S1.size a ≤ S32.size a
  k0_off3_inb : ∀ d0 : Dev nD, ∀ a, (k0_off3 d0) a + S1x8x128.size a ≤ S32x8x128.size a
  k0_off4_inb : ∀ d0 : Dev nD, ∀ (r₁ : Fin 4) (r₂ : Fin 8), ∀ a, (k0_off4 d0 (BitVec.ofNat 32 (8 * r₁.val)) (BitVec.ofNat 32 r₂.val)) a + S1x8x128.size a ≤ S32x8x128.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S32 := SemArray.consecutive 3 S32 hcc0_scratch2
abbrev cc0_scratch3 : DmaSems sig S32 := SemArray.consecutive 35 S32 hcc0_scratch3
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Ref.lean ====
import proofs.«900436_g7700000000000437_dist_gemm_a2a_m1024_k1024_n1024_f32_relu_v7x_i32_1_alg».proof.Defs
import proofs.«900436_g7700000000000437_dist_gemm_a2a_m1024_k1024_n1024_f32_relu_v7x_i32_1_alg».proof.Proof.Gen.ReferenceIdeal
import proofs.«900436_g7700000000000437_dist_gemm_a2a_m1024_k1024_n1024_f32_relu_v7x_i32_1_alg».proof.Proof.Gen.Pre_finite_inputs_ReferenceIdeal
import proofs.«900436_g7700000000000437_dist_gemm_a2a_m1024_k1024_n1024_f32_relu_v7x_i32_1_alg».proof.Proof.Gen.ReferenceIdeal.Read
import Idealize.ShloMosaic.Lib.ValueIdx
import Idealize.ShloMosaic.PureOps.Ideal.Laws

/-!
# The reference side

The reference is one host program on one device over the whole arrays: a matrix product of the two
`1024 × 1024` arguments followed by a maximum with zero. Its run is the generated one; here its frame is
that run with the result dropped, and its result is read at an index: entry `(a, b)` is
`max (∑ₖ X[a, k] · W[k, b]) 0` on the extended reals.
-/

noncomputable section

namespace Cert.RefSide

open Idealize.ShloMosaic Idealize.ShloMosaic.TcCoe Idealize.SL.Sem
open Cert.ReferenceIdeal Cert.ReferenceIdeal.Gen

/-- The reference terminates, faults nowhere and leaves its two arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- Entry `(a, b)` of `relu (X · W)` over the extended reals: the sum over the contracted index of the
    products, then the maximum with the zero word's value. -/
def reluDot (X W : (⟨S1024x1024, .f32⟩ : BufTy).Contents (Elt Ideal)) (i : S1024x1024.Idx) : EReal :=
  max (∑ k : Fin 1024, X (Read.lidx_main_v0 i k) * W (Read.ridx_main_v0 i k)) (Ideal.ofBits .f32 0x00000000#32)

/-- The reference's last stage (its result term, by the generated `val_main_v2_eq`), read at an index. -/
theorem result_apply (X W : (⟨S1024x1024, .f32⟩ : BufTy).Contents (Elt Ideal)) (i : S1024x1024.Idx) :
    Read.val_main_v2 (F := Ideal) X W i = reluDot X W i := by
  rw [Read.val_main_v2_apply, Read.val_main_v0_apply, Read.val_main_v1_apply, Read.val_main_cst_apply]
  rfl

end Cert.RefSide

end
-- ==== Proof.Sched.lean ====
import proofs.«900436_g7700000000000437_dist_gemm_a2a_m1024_k1024_n1024_f32_relu_v7x_i32_1_alg».proof.Proof.Gen.KernelIdeal
import proofs.«900436_g7700000000000437_dist_gemm_a2a_m1024_k1024_n1024_f32_relu_v7x_i32_1_alg».proof.Proof.Gen.KernelIdeal.Skeleton
import proofs.«900436_g7700000000000437_dist_gemm_a2a_m1024_k1024_n1024_f32_relu_v7x_i32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

/-!
# The exchange's protocol

Thirty-two devices. Device `c` computes `Y_c = max (x_c · W) 0` (32 × 1024), lays block `d` of its columns
(32 columns) into slot `d` of a staging scratch as an 8 × 128 tile (row `r`, lane `32q + j` holds `Y_c[8q + r, 32d + j]`),
and copies slot `d` into slot `c` of device `d`'s receive scratch. Before its first copy it has signalled every other
device's barrier semaphore once and waited for the 31 signals addressed to it.

Cells and duties (a duty is named by the device that pays it):
* the barrier cell of `c`: one round, a duty of one unit from every `p ≠ c`, handing `c` slot `c` of `p`'s receive
  scratch (at any contents) and the fact that `p` has reached round 0 of its receive cell `c`;
* receive cell `s` of `c`: one round, one duty, paid by device `s`'s copy, handing `c` its receive slot `s` holding
  slot `c` of `s`'s staging scratch;
* send cell `d` of `c`: one round, one duty, paid by `c`'s own copy to `d`, handing back staging slot `d`.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices, semaphores, cells -/

/-- The device `off` places after `c` around the mesh. -/
def peer (c : Dev nD) (off : ℕ) : Dev nD := ⟨(c.val + off) % 32, Nat.mod_lt _ (by decide)⟩

/-- The destination of copy `i` of group `g`: within the group's eight devices, rotated by `c`. -/
def dest (c : Dev nD) (g : Fin 4) (i : Fin 8) : Dev nD := ⟨8 * g.val + (i.val + c.val) % 8, by have := g.isLt; have := Nat.mod_lt (i.val + c.val) (show 0 < 8 by decide); show _ < 32; omega⟩

abbrev barS : Sem sig := (SemArray.scalar (sig.barrier 0 rfl) : Sems sig S_).sem
/-- Send semaphore `d` and receive semaphore `s` of the two scratch arrays, by their place in the pool. -/
def sendQ (d : Dev nD) : DmaSem sig := ⟨3 + d.val, by have h : d.val < 32 := d.isLt; show 3 + d.val < 67; omega⟩
def recvQ (s : Dev nD) : DmaSem sig := ⟨35 + s.val, by have h : s.val < 32 := s.isLt; show 35 + s.val < 67; omega⟩

abbrev barCell (c : Dev nD) : GSem nD τ sig := ((c : Thread nD τ), .reg barS)
abbrev sendCell (c d : Dev nD) : GSem nD τ sig := ((c : Thread nD τ), .dma (sendQ d))
abbrev recvCell (c s : Dev nD) : GSem nD τ sig := ((c : Thread nD τ), .dma (recvQ s))

/-! ## The two scratch buffers by slots -/

abbrev stgM : Memref sig .tc .vmem S32x8x128 .f32 := Memref.whole cc0_scratch0
abbrev rcvM : Memref sig .tc .vmem S32x8x128 .f32 := Memref.whole cc0_scratch1

theorem slot_inb (d : Dev nD) : ∀ a, (![d.val, 0, 0] : Fin 3 → Nat) a + S1x8x128.size a ≤ S32x8x128.size a := by
  intro a; have h : d.val < 32 := d.isLt
  match a with
  | ⟨0, _⟩ => show d.val + 1 ≤ 32; omega
  | ⟨1, _⟩ => show 0 + 8 ≤ 8; omega
  | ⟨2, _⟩ => show 0 + 128 ≤ 128; omega

/-- Slot `d` of a 32-slot scratch, as the kernel addresses it: the slice, squeezed to a tile. -/
abbrev slotM (M : Memref sig .tc .vmem S32x8x128 .f32) (d : Dev nD) : Memref sig .tc .vmem S8x128 .f32 :=
  (M.slice (Rect.unit (s := S32x8x128) ![d.val, 0, 0] S1x8x128.size (slot_inb d)) (fun _ => rfl)).squeeze S8x128 squeezes_S1x8x128_S8x128

/-- A tile's credit on a DMA semaphore. -/
abbrev N : ℕ := (slotM rcvM (0 : Dev nD)).view.dmaCredit
theorem N_pos : 0 < N := View.dmaCredit_pos _ (by decide)

/-! ## Contents -/

/-- Device `c`'s block of `x` and its copy of `w` as the region's first point stages them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- What the body's load of the whole `x` tile reads, -/
def xld (c : Dev nD) : Vec F S32x1024 .f32 :=
  (Memref.whole cc0_stg0_0 : Memref sig .tc .vmem S32x1024 .f32).view.readAt (Elt F)
    (Rect.unit (s := S32x1024) ![0, 0] S32x1024.size inb_S32x1024_S32x1024_0_0).toLoadRect (xstg m c)
/-- and its load of column group `g` of `w` (columns 256g … 256g + 255). -/
def wld (c : Dev nD) (g : Fin 4) : Vec F S1024x256 .f32 := match g with
  | 0 => (Memref.whole cc0_stg1_0 : Memref sig .tc .vmem S1024x1024 .f32).view.readAt (Elt F)
      (Rect.unit (s := S1024x1024) ![0, 0] S1024x256.size inb_S1024x1024_S1024x256_0_0).toLoadRect (wstg m c)
  | 1 => (Memref.whole cc0_stg1_0 : Memref sig .tc .vmem S1024x1024 .f32).view.readAt (Elt F)
      (Rect.unit (s := S1024x1024) ![0, 256] S1024x256.size inb_S1024x1024_S1024x256_0_256).toLoadRect (wstg m c)
  | 2 => (Memref.whole cc0_stg1_0 : Memref sig .tc .vmem S1024x1024 .f32).view.readAt (Elt F)
      (Rect.unit (s := S1024x1024) ![0, 512] S1024x256.size inb_S1024x1024_S1024x256_0_512).toLoadRect (wstg m c)
  | 3 => (Memref.whole cc0_stg1_0 : Memref sig .tc .vmem S1024x1024 .f32).view.readAt (Elt F)
      (Rect.unit (s := S1024x1024) ![0, 768] S1024x256.size inb_S1024x1024_S1024x256_0_768).toLoadRect (wstg m c)

/-- Column group `g` of `Y_c = max (x_c · W) 0`: the body's product of the two loads into a zero accumulator, then the
    maximum with zero (the skeleton's first payload; the other three groups compute the same function of their loads). -/
def Ygrp (c : Dev nD) (g : Fin 4) : FVec F S32x256 .f32 := k0_pay1 (xld m c) (wld m c g)

/-- The staging scratch of `c` once its 32 slots are stored: slot `d`, row `r`, lane `l` holds
    `Y_c[8 (l / 32) + r, 32 d + l % 32]`, column `32 (d % 8) + l % 32` of group `d / 8`. -/
def Sfin (c : Dev nD) : Buf (Elt F) ((c : Thread nD τ).loc cc0_scratch0) := fun j =>
  Ygrp m c ⟨(j 0).val / 8, by have h : (j 0).val < 32 := (j 0).isLt; omega⟩
    (ValueIdx.ix2 (n0 := 32) (n1 := 256)
      ⟨8 * ((j 2).val / 32) + (j 1).val, by have h1 : (j 1).val < 8 := (j 1).isLt; have h2 : (j 2).val < 128 := (j 2).isLt; omega⟩
      ⟨32 * ((j 0).val % 8) + (j 2).val % 32, by omega⟩)

/-- The receive scratch of `c` once the 32 copies have landed: slot `s` holds slot `c` of `s`'s staging scratch. -/
def Rfin (c : Dev nD) : Buf (Elt F) ((c : Thread nD τ).loc cc0_scratch1) := fun j =>
  Sfin m ⟨(j 0).val, (j 0).isLt⟩ (ValueIdx.ix3 (n0 := 32) (n1 := 8) (n2 := 128) c ⟨(j 1).val, (j 1).isLt⟩ ⟨(j 2).val, (j 2).isLt⟩)

/-! ## The schedule -/

/-- What `p`'s signal hands `c`: slot `c` of `p`'s receive scratch at any contents, and that `p` has reached round 0 of
    its receive cell `c` — what `c`'s copy into that slot needs. -/
def barPay (c p : Dev nD) : sProp 𝕄 :=
  iprop((∃ f : Buf (Elt F) ((slotM rcvM c).view.loc (p : Thread nD τ)), (slotM rcvM c).view.loc (p : Thread nD τ) ↦[(slotM rcvM c).view.set]{fullShare} f)
    ∗ reached ER (recvCell p c) 0)
/-- What the copy from `s` hands `c`: receive slot `s`, holding what landed. -/
def recvPay (c s : Dev nD) : sProp 𝕄 :=
  (slotM rcvM s).view.loc (c : Thread nD τ) ↦[(slotM rcvM s).view.set]{fullShare} Rfin m c
/-- What `c`'s own copy to `d` hands back: staging slot `d`, unchanged. -/
def sendPay (c d : Dev nD) : sProp 𝕄 :=
  (slotM stgM d).view.loc (c : Thread nD τ) ↦[(slotM stgM d).view.set]{fullShare} Sfin m c

def slotOfSend (q : DmaSem sig) : Dev nD := ⟨(q.val - 3) % 32, Nat.mod_lt _ (by decide)⟩
def slotOfRecv (q : DmaSem sig) : Dev nD := ⟨(q.val - 35) % 32, Nat.mod_lt _ (by decide)⟩

theorem slotOfSend_sendQ (d : Dev nD) : slotOfSend (sendQ d) = d := by
  have h : d.val < 32 := d.isLt
  exact Fin.ext (show (3 + d.val - 3) % 32 = d.val by omega)
theorem slotOfRecv_recvQ (s : Dev nD) : slotOfRecv (recvQ s) = s := by
  have h : s.val < 32 := s.isLt
  exact Fin.ext (show (35 + s.val - 35) % 32 = s.val by omega)

/-- One round. A barrier cell: a duty of one unit from every other device. A send cell: one duty, the device's own.
    A receive cell `s`: one duty, device `s`'s. -/
def sched : Rounds.Schedule (GSem nD τ sig) (Dev nD) 𝕄 where
  duties g r := if r ≠ 0 ∨ g.1.2 ≠ .tc then ∅ else match g.2 with
    | .reg s => if s = barS then Finset.univ.erase g.1.1 else ∅
    | .dma q => if 3 ≤ q.val ∧ q.val < 35 then {g.1.1} else if 35 ≤ q.val then {slotOfRecv q} else ∅
  amount g _ _ := match g.2 with
    | .reg _ => 1
    | .dma _ => N
  payload g _ d := match g.2 with
    | .reg _ => barPay g.1.1 d
    | .dma q => if q.val < 35 then sendPay m g.1.1 (slotOfSend q) else recvPay m g.1.1 (slotOfRecv q)
  amount_pos g _ _ _ := by
    cases g.2 with
    | reg _ => exact Nat.one_pos
    | dma _ => exact N_pos

instance sched_payload_storable (g : GSem nD τ sig) (r : ℕ) (d : Dev nD) :
    BI.Storable (upEmb : UEmb _ 𝕄) ((sched (F := F) m).payload g r d) := by
  show BI.Storable upEmb (match g.2 with
    | .reg _ => barPay g.1.1 d
    | .dma q => if q.val < 35 then sendPay m g.1.1 (slotOfSend q) else recvPay m g.1.1 (slotOfRecv q))
  unfold barPay recvPay sendPay
  (repeat' split) <;> infer_instance

section Tables
variable (c : Dev nD)

theorem duties_bar : (sched (F := F) m).duties (barCell c) 0 = Finset.univ.erase c := by
  dsimp only [sched]; rw [if_neg (by simp)]; exact if_pos rfl
theorem duties_send (d : Dev nD) : (sched (F := F) m).duties (sendCell c d) 0 = {c} := by
  dsimp only [sched]; rw [if_neg (by simp)]
  have h : d.val < 32 := d.isLt
  exact if_pos ⟨show 3 ≤ 3 + d.val by omega, show 3 + d.val < 35 by omega⟩
theorem duties_recv (s : Dev nD) : (sched (F := F) m).duties (recvCell c s) 0 = {s} := by
  dsimp only [sched]; rw [if_neg (by simp)]
  have h : s.val < 32 := s.isLt
  show (if 3 ≤ 35 + s.val ∧ 35 + s.val < 35 then ({c} : Finset (Dev nD)) else if 35 ≤ 35 + s.val then {slotOfRecv (recvQ s)} else ∅) = {s}
  rw [if_neg (by omega), if_pos (by omega), slotOfRecv_recvQ]
theorem duties_later (g : GSem nD τ sig) : ∀ r, 1 ≤ r → (sched (F := F) m).duties g r = ∅ :=
  fun r hr => by dsimp only [sched]; exact if_pos (Or.inl (by omega))

theorem amount_bar (d : Dev nD) : (sched (F := F) m).amount (barCell c) 0 d = 1 := rfl
theorem amount_send (d e : Dev nD) : (sched (F := F) m).amount (sendCell c d) 0 e = N := rfl
theorem amount_recv (s e : Dev nD) : (sched (F := F) m).amount (recvCell c s) 0 e = N := rfl

theorem payload_bar (p : Dev nD) : (sched (F := F) m).payload (barCell c) 0 p = barPay c p := rfl
theorem payload_send (d e : Dev nD) : (sched (F := F) m).payload (sendCell c d) 0 e = sendPay m c d := by
  have h : d.val < 32 := d.isLt
  show (if 3 + d.val < 35 then sendPay m c (slotOfSend (sendQ d)) else recvPay m c (slotOfRecv (sendQ d))) = _
  rw [if_pos (by omega), slotOfSend_sendQ]
theorem payload_recv (s e : Dev nD) : (sched (F := F) m).payload (recvCell c s) 0 e = recvPay m c s := by
  show (if 35 + s.val < 35 then sendPay m c (slotOfSend (recvQ s)) else recvPay m c (slotOfRecv (recvQ s))) = _
  rw [if_neg (by omega), slotOfRecv_recvQ]

theorem expect_bar : (sched (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (d : Dev nD) : (sched (F := F) m).expect (sendCell c d) 0 = N := by
  unfold Schedule.expect Schedule.amountOf; rw [duties_send, Finset.sum_singleton, amount_send]
theorem expect_recv (s : Dev nD) : (sched (F := F) m).expect (recvCell c s) 0 = N := by
  unfold Schedule.expect Schedule.amountOf; rw [duties_recv, Finset.sum_singleton, amount_recv]

end Tables

end Cert.KernelIdeal.Exchange

end
-- ==== Proof.Slots.lean ====
import proofs.«900436_g7700000000000437_dist_gemm_a2a_m1024_k1024_n1024_f32_relu_v7x_i32_1_alg».proof.Proof.Sched

/-!
# The two scratch buffers, slot by slot

A 32 × 8 × 128 scratch is the disjoint union of its 32 tiles: an index lies in slot `d` exactly when its first coordinate
is `d`. So a points-to of the whole buffer is the `∗` of the points-tos of its slots at the same contents, in any order
of the slots: by slot number, around the mesh from a device (`peer c`), or group by group in the rotated order a device
sends them (`dest c`).
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The rectangle of slot `d`: first coordinate `d`, the other two free. -/
abbrev slotRect (d : Dev nD) : Rect S32x8x128 := Rect.unit (s := S32x8x128) ![d.val, 0, 0] S1x8x128.size (slot_inb d)

theorem mem_slotRect (d : Dev nD) (j : S32x8x128.Idx) : j ∈ (slotRect d).set ↔ (j 0).val = d.val := by
  rw [Rect.mem_set_unit]
  constructor
  · intro h
    have h0 : d.val ≤ (j 0).val ∧ (j 0).val < d.val + 1 := h 0
    omega
  · intro h a
    have h1 : (j 1).val < 8 := (j 1).isLt
    have h2 : (j 2).val < 128 := (j 2).isLt
    match a with
    | 0 => show d.val ≤ (j 0).val ∧ (j 0).val < d.val + 1; omega
    | 1 => show 0 ≤ (j 1).val ∧ (j 1).val < 0 + 8; omega
    | 2 => show 0 ≤ (j 2).val ∧ (j 2).val < 0 + 128; omega

theorem slotRect_disjoint {d d' : Dev nD} (h : d ≠ d') : Disjoint (slotRect d).set (slotRect d').set := by
  rw [Finset.disjoint_left]
  intro j hj hj'
  rw [mem_slotRect] at hj hj'
  exact h (Fin.ext (hj.symm.trans hj'))

theorem slotRect_cover : (Finset.univ : Finset (Dev nD)).biUnion (fun d => (slotRect d).set) = Finset.univ := by
  ext j
  simp only [Finset.mem_biUnion, Finset.mem_univ, true_and, iff_true]
  exact ⟨⟨(j 0).val, (j 0).isLt⟩, (mem_slotRect _ j).mpr rfl⟩

/-- A slot's elements, through the kernel's slice-and-squeeze of either scratch. -/
theorem slot_set_stg (d : Dev nD) : (slotM stgM d).view.set = (slotRect d).set := by
  rw [Memref.set_view_squeeze]
  show ((View.whole cc0_scratch0).slice (slotRect d)).set = _
  exact View.set_slice_whole _ _
theorem slot_set_rcv (d : Dev nD) : (slotM rcvM d).view.set = (slotRect d).set := by
  rw [Memref.set_view_squeeze]
  show ((View.whole cc0_scratch1).slice (slotRect d)).set = _
  exact View.set_slice_whole _ _

/-- The staging scratch whole is its 32 slots, each at the same contents; -/
theorem stg_slots (c : Dev nD) (q : PosShare TreeShare) (f : Buf (Elt F) ((c : Thread nD τ).loc cc0_scratch0)) :
    ((((c : Thread nD τ).loc cc0_scratch0) ↦{q} f) : sProp 𝕄)
      = bigSep Finset.univ fun d : Dev nD => (((c : Thread nD τ).loc cc0_scratch0) ↦[(slotRect d).set]{q} f) := by
  have h := pointsTo_biUnion (Ix := Unit) (Name := ℕ) (U := UU) (Lvl := ℕ) (Val := Elt F) (q := q) (f := f) Finset.univ (fun d : Dev nD => (slotRect d).set)
    (fun t _ t' _ h => slotRect_disjoint h)
  rw [slotRect_cover] at h
  exact h
/-- and so is the receive scratch. -/
theorem rcv_slots (c : Dev nD) (q : PosShare TreeShare) (f : Buf (Elt F) ((c : Thread nD τ).loc cc0_scratch1)) :
    ((((c : Thread nD τ).loc cc0_scratch1) ↦{q} f) : sProp 𝕄)
      = bigSep Finset.univ fun d : Dev nD => (((c : Thread nD τ).loc cc0_scratch1) ↦[(slotRect d).set]{q} f) := by
  have h := pointsTo_biUnion (Ix := Unit) (Name := ℕ) (U := UU) (Lvl := ℕ) (Val := Elt F) (q := q) (f := f) Finset.univ (fun d : Dev nD => (slotRect d).set)
    (fun t _ t' _ h => slotRect_disjoint h)
  rw [slotRect_cover] at h
  exact h

/-! ## Re-indexing the slots -/

/-- Around the mesh from `c`: offset `k` names device `(c + k) mod 32`. -/
def around (c : Dev nD) : Dev nD ≃ Dev nD where
  toFun k := peer c k.val
  invFun p := ⟨(p.val + 32 - c.val) % 32, Nat.mod_lt _ (by decide)⟩
  left_inv k := by
    have hc : c.val < 32 := c.isLt; have hk : k.val < 32 := k.isLt
    apply Fin.ext; show ((c.val + k.val) % 32 + 32 - c.val) % 32 = k.val; omega
  right_inv p := by
    have hc : c.val < 32 := c.isLt; have hp : p.val < 32 := p.isLt
    apply Fin.ext; show (c.val + (p.val + 32 - c.val) % 32) % 32 = p.val; omega

theorem around_zero (c : Dev nD) : around c 0 = c := by
  have hc : c.val < 32 := c.isLt
  apply Fin.ext; show (c.val + 0) % 32 = c.val; omega

/-- Group by group in the order `c` sends: `(g, i)` names device `8 g + (i + c) mod 8`. -/
def sendOrder (c : Dev nD) : Fin 4 × Fin 8 ≃ Dev nD where
  toFun gi := dest c gi.1 gi.2
  invFun d := (⟨d.val / 8, by have h : d.val < 32 := d.isLt; omega⟩, ⟨(d.val % 8 + 8 - c.val % 8) % 8, Nat.mod_lt _ (by decide)⟩)
  left_inv gi := by
    obtain ⟨g, i⟩ := gi
    have hg : g.val < 4 := g.isLt; have hi : i.val < 8 := i.isLt; have hc : c.val < 32 := c.isLt
    apply Prod.ext
    · apply Fin.ext; show (8 * g.val + (i.val + c.val) % 8) / 8 = g.val; omega
    · apply Fin.ext; show ((8 * g.val + (i.val + c.val) % 8) % 8 + 8 - c.val % 8) % 8 = i.val; omega
  right_inv d := by
    have hd : d.val < 32 := d.isLt; have hc : c.val < 32 := c.isLt
    apply Fin.ext; show 8 * (d.val / 8) + ((d.val % 8 + 8 - c.val % 8) % 8 + c.val) % 8 = d.val; omega

end Cert.KernelIdeal.Exchange

end
-- ==== Proof.Steps.lean ====
import proofs.«900436_g7700000000000437_dist_gemm_a2a_m1024_k1024_n1024_f32_relu_v7x_i32_1_alg».proof.Proof.Slots

/-!
# The protocol's steps

Each remote statement of a device's body, as one rule over the schedule: the signal to a peer's barrier cell, the wait on
the device's own barrier cell, the copy of a staging slot into a peer's receive slot, and the two waits that close a copy
(on the receive cell, on the send cell). Every device holds, persistently, every cell's invariant (at some name) and the
fact that round 0 of every cell is reached; the rest is what the statement consumes and returns.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's 65 cells: its barrier cell, its 32 send cells, its 32 receive cells. -/
abbrev CellIx : Type := Unit ⊕ (Dev nD ⊕ Dev nD)
def kcell (ck : Dev nD × CellIx) : GSem nD τ sig := match ck.2 with
  | .inl _ => barCell ck.1
  | .inr (.inl d) => sendCell ck.1 d
  | .inr (.inr s) => recvCell ck.1 s

/-- What every device knows of every cell: its invariant's name, and that its round 0 is reached. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records m K) := by unfold records; infer_instance

theorem inv_at' (K : Dev nD × CellIx → ℕ) (ck : Dev nD × CellIx) :
    (bigSep Finset.univ fun ck : Dev nD × CellIx => (cellInv ER (sched m) (K ck) (kcell ck) : sProp 𝕄)) ⊢ cellInv ER (sched m) (K ck) (kcell ck) :=
  bigSep_elim (Finset.mem_univ ck)
theorem reached_at' (ck : Dev nD × CellIx) :
    (bigSep Finset.univ fun ck : Dev nD × CellIx => (reached ER (kcell ck) 0 : sProp 𝕄)) ⊢ reached ER (kcell ck) 0 :=
  bigSep_elim (Finset.mem_univ ck)
theorem inv_at (K : Dev nD × CellIx → ℕ) (ck : Dev nD × CellIx) : records m K ⊢ cellInv ER (sched m) (K ck) (kcell ck) := by
  unfold records; iintro ⟨HI, -⟩
  iapply (inv_at' m K ck); iexact HI
theorem reached_at (K : Dev nD × CellIx → ℕ) (ck : Dev nD × CellIx) : records m K ⊢ reached ER (kcell ck) 0 := by
  unfold records; iintro ⟨-, HR⟩
  iapply (reached_at' (F := F) ck); iexact HR

/-- Slot `d` of the receive scratch of device `c`, at contents `f`; of its staging scratch. -/
abbrev rcvSlot (c d : Dev nD) (f : Buf (Elt F) ((slotM rcvM d).view.loc (c : Thread nD τ))) : sProp 𝕄 :=
  (slotM rcvM d).view.loc (c : Thread nD τ) ↦[(slotM rcvM d).view.set]{fullShare} f
abbrev stgSlot (c d : Dev nD) (f : Buf (Elt F) ((slotM stgM d).view.loc (c : Thread nD τ))) : sProp 𝕄 :=
  (slotM stgM d).view.loc (c : Thread nD τ) ↦[(slotM stgM d).view.set]{fullShare} f

/-- THE SIGNAL to peer `p`'s barrier cell: `c` pays its duty there with one unit off what it owes, handing over slot `p`
    of its own receive scratch (the slot `p`'s copy will fill). -/
theorem step_signal (K : Dev nD × CellIx → ℕ) (c p : Dev nD) (hp : p ≠ c) (O : CellTallies nD τ sig Unit) (W : Waits sig Unit)
    (f : Buf (Elt F) ((slotM rcvM p).view.loc (c : Thread nD τ)))
    {α : Type} {Q : α → sProp 𝕄} {k : PUnit → Prog (TpuEff nD τ sig (Elt F) Λ₀ .tc) α} :
    iprop(records m K ∗ owes (c : Thread nD τ) (O + tallyAt (barCell p) () 1) W ∗ dutyTok ER (barCell p) 0 c ∗ rcvSlot c p f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) := by
  iintro ⟨#HR, HO, Htok, Hslot⟩
  iapply (Rounds.wp_signal 𝒱₀ ER (sched m) (c : Thread nD τ) none (dst := (p : Thread nD τ)) (κ := K (p, .inl ()))
      (d := c) (by rw [duties_bar]; exact Finset.mem_erase.mpr ⟨fun h => hp h.symm, Finset.mem_univ _⟩) (amount_bar m p c) () O rfl)
    $$ [HO Htok Hslot]
  · isplitr; · iapply (inv_at m K (p, .inl ())); iexact HR
    isplitl [HO]; · iexact HO
    isplitl [Htok]; · iexact Htok
    isplitl [Hslot]
    · rw [payload_bar]; unfold barPay
      isplitl [Hslot]; · iexists f; iexact Hslot
      iapply (reached_at m K (c, .inr (.inr p))); iexact HR
    · iapply (reached_at m K (p, .inl ())); iexact HR

/-! ## The waits -/

theorem rest_bar (c : Dev nD) :
    bigSep ((sched (F := F) m).duties (barCell c) 0 \ ∅) (fun d => (sched (F := F) m).payload (barCell c) 0 d)
      = bigSep (Finset.univ.erase c) (fun p => barPay (F := F) c p) := by
  rw [Finset.sdiff_empty, duties_bar]; rfl
theorem rest_send (c d : Dev nD) :
    bigSep ((sched (F := F) m).duties (sendCell c d) 0 \ ∅) (fun e => (sched (F := F) m).payload (sendCell c d) 0 e) = sendPay m c d := by
  rw [Finset.sdiff_empty, duties_send, bigSep_singleton, payload_send]
theorem rest_recv (c s : Dev nD) :
    bigSep ((sched (F := F) m).duties (recvCell c s) 0 \ ∅) (fun e => (sched (F := F) m).payload (recvCell c s) 0 e) = recvPay m c s := by
  rw [Finset.sdiff_empty, duties_recv, bigSep_singleton, payload_recv]

/-- THE WAIT for 31 on the device's own barrier cell: every other device's signal has landed, and with them slot `c` of
    every other device's receive scratch. -/
theorem step_barrier (K : Dev nD × CellIx → ℕ) (c : Dev nD) (O : CellTallies nD τ sig Unit) (W : Waits sig Unit)
    {α : Type} {Q : α → sProp 𝕄} {k : PUnit → Prog (TpuEff nD τ sig (Elt F) Λ₀ .tc) α} :
    iprop(records m K ∗ cred (tallyAt (barCell c) () 31) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ bigSep (Finset.univ.erase c) (fun p => barPay (F := F) c p))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HR, Hcr, HO, Hlev, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hcr HO Hlev Hat]
  · isplitr; · iapply (inv_at m K (c, .inl ())); iexact HR
    isplitl [Hcr]; · iexact Hcr
    isplitl [HO]; · iexact HO
    isplitl [Hlev]; · iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- THE WAIT on receive cell `s`, owing nothing: device `s`'s copy has landed, receive slot `s` holds slot `c` of its staging
    scratch; the cell's one round is consumed. -/
theorem step_recv_wait (K : Dev nD × CellIx → ℕ) (c s : Dev nD) (W : Waits sig Unit)
    {sp' : Space} {s' : Shape} {e' : EltTy} {src : Memref sig .tc sp' s' e'} {hsrc : src.view.WordExact} {hdst : (slotM rcvM s).view.WordExact}
    {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvQ s), ()) W) ∗ atPos ER (recvCell c s) 1 ∅ 0 ∗ rcvSlot c s (Rfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ s) src (slotM rcvM s) hsrc hdst) k) Q) := by
  iintro ⟨#HR, Hcr, HO, Hat⟩ Hk
  iapply (Rounds.wp_wait_rest_token 𝒱₀ ER (sched m) (c : Thread nD τ) none (κ := K (c, .inr (.inr s)))
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iapply (inv_at m K (c, .inr (.inr s))); iexact HR
    isplitl [Hcr]; · iexact Hcr
    isplitl [HO]; · iexact HO
    isplitr; · rw [MayWait_zero]; iempintro
    iexact Hat
  iintro ⟨HO, Hat, -, Hpay⟩
  ihave Hp := (Entails.of_eq (rest_recv m c s)) $$ Hpay
  iapply Hk
  isplitl [HO]; · iexact HO
  isplitl [Hat]; · iexact Hat
  unfold recvPay; iexact Hp

/-- THE WAIT on send cell `d`, owing nothing: the copy to `d` has read its source, staging slot `d` is back. -/
theorem step_send_wait (K : Dev nD × CellIx → ℕ) (c d : Dev nD) (W : Waits sig Unit)
    {sp' : Space} {s' : Shape} {e' : EltTy} {src : Memref sig .tc sp' s' e'} {hsrc : src.view.WordExact} {hdst : (slotM stgM d).view.WordExact}
    {α : Type} {Q : α → sProp 𝕄} {k : PUnit → Prog (TpuEff nD τ sig (Elt F) Λ₀ .tc) α} :
    iprop(records m K ∗ cred (tallyAt (sendCell c d) () N) ∗ owes (c : Thread nD τ) 0 W ∗ atPos ER (sendCell c d) 0 ∅ 0)
      ⊢ iprop(((owes (c : Thread nD τ) 0 (insert (SemLoc.dma (sendQ d), ()) W) ∗ atPos ER (sendCell c d) 1 ∅ 0 ∗ stgSlot c d (Sfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ d) src (slotM stgM d) hsrc hdst) k) Q) := by
  iintro ⟨#HR, Hcr, HO, Hat⟩ Hk
  iapply (Rounds.wp_wait_rest_token 𝒱₀ ER (sched m) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (inv_at m K (c, .inr (.inl d))); iexact HR
    isplitl [Hcr]; · iexact Hcr
    isplitl [HO]; · iexact HO
    isplitr; · rw [MayWait_zero]; iempintro
    iexact Hat
  iintro ⟨HO, Hat, -, Hpay⟩
  ihave Hp := (Entails.of_eq (rest_send m c d)) $$ Hpay
  iapply Hk
  isplitl [HO]; · iexact HO
  isplitl [Hat]; · iexact Hat
  unfold sendPay; iexact Hp

end Cert.KernelIdeal.Exchange

end
-- ==== Proof.Copy.lean ====
import proofs.«900436_g7700000000000437_dist_gemm_a2a_m1024_k1024_n1024_f32_relu_v7x_i32_1_alg».proof.Proof.Steps
import Idealize.ShloMosaic.Lib.Pipeline.Value
import Idealize.ShloMosaic.Lib.ValueLayout

/-!
# The copy

A device's copy of staging slot `d` into slot `c` of device `d`'s receive scratch. Element `(r, l)` of a slot is element
`(d, r, l)` of its scratch, so what lands in receive slot `c` of `d` is the tile `(r, l) ↦ S_c[d, r, l]`: exactly the
receive scratch's final contents there. The copy pays the device's duty on its own send cell (the source comes back with
it) and on the destination's receive cell (the landed slot goes to the destination's device).
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Element `(r, l)` of slot `d` is element `(d, r, l)` of the scratch. -/
theorem slot_emb_stg (d : Dev nD) (r : Fin 8) (l : Fin 128) :
    (slotM stgM d).view.emb (ValueIdx.ix2 r l) = ValueIdx.ix3 (n0 := 32) d r l := by
  show (slotRect d).emb (Shape.reshapeEquiv squeezes_S1x8x128_S8x128.numel_eq (ValueIdx.ix2 r l)) = _
  rw [ValueIdx.reshapeEquiv_ix2_1ab]
  funext a
  apply Fin.ext
  match a with
  | ⟨0, _⟩ => show d.val + 1 * 0 = d.val; omega
  | ⟨1, _⟩ => show 0 + 1 * r.val = r.val; omega
  | ⟨2, _⟩ => show 0 + 1 * l.val = l.val; omega
theorem slot_emb_rcv (d : Dev nD) (r : Fin 8) (l : Fin 128) :
    (slotM rcvM d).view.emb (ValueIdx.ix2 r l) = ValueIdx.ix3 (n0 := 32) d r l := by
  show (slotRect d).emb (Shape.reshapeEquiv squeezes_S1x8x128_S8x128.numel_eq (ValueIdx.ix2 r l)) = _
  rw [ValueIdx.reshapeEquiv_ix2_1ab]
  funext a
  apply Fin.ext
  match a with
  | ⟨0, _⟩ => show d.val + 1 * 0 = d.val; omega
  | ⟨1, _⟩ => show 0 + 1 * r.val = r.val; omega
  | ⟨2, _⟩ => show 0 + 1 * l.val = l.val; omega

/-- What the copy from `c` lands in slot `c` of `d`'s receive scratch is that scratch's final contents there, whatever the
    slot held before. -/
theorem landing (c d : Dev nD) (fd : Buf (Elt F) ((slotM rcvM c).view.loc (d : Thread nD τ))) :
    ((slotM rcvM c).view.loc (d : Thread nD τ) ↦[(slotM rcvM c).view.set]{fullShare}
        ((slotM rcvM c).view.write (Elt F) fd ((slotM stgM d).view.read (Elt F) (Sfin m c)) Finset.univ) : sProp 𝕄)
      = rcvSlot d c (Rfin m d) := by
  refine BI.Region.is_congr fun i hi => ?_
  obtain ⟨y, rfl⟩ := View.exists_emb_of_mem_set _ hi
  rw [View.write_emb_of_mem _ _ (Finset.mem_univ y), View.read_apply]
  obtain ⟨r, l, rfl⟩ : ∃ (r : Fin 8) (l : Fin 128), y = ValueIdx.ix2 r l := ⟨y 0, y 1, ValueIdx.eq_ix2 y⟩
  rw [slot_emb_stg, slot_emb_rcv]
  simp only [cast_cast, cast_eq]
  rfl

/-- THE COPY of staging slot `d` to device `d`: `c` lends the slot to its send cell, fills slot `c` of `d`'s receive scratch
    (which `d`'s barrier signal handed it, or which is its own when `d = c`), and pays the tile's credit off what it owes. -/
theorem step_send (K : Dev nD × CellIx → ℕ) (c d dev : Dev nD) (hdev : dev = d) (O : CellTallies nD τ sig Unit) (W : Waits sig Unit)
    (fd : Buf (Elt F) ((slotM rcvM c).view.loc (d : Thread nD τ)))
    {hsc : (slotM rcvM c : Memref sig (Dev.tc dev : Thread nD τ).2.kind .vmem S8x128 .f32).view.ref.isScScratch = false}
    {hsrc : (slotM stgM d).view.WordExact} {hdst : (slotM rcvM c).view.WordExact}
    {hsem : DmaTarget.Typed .vmem (.dma (recvQ c)) (.remote (Dev.tc dev : Thread nD τ) (slotM rcvM c) (.dma (sendQ d)) hsc)}
    {α : Type} {Q : α → sProp 𝕄} {k : PUnit → Prog (TpuEff nD τ sig (Elt F) Λ₀ .tc) α} :
    iprop(records m K ∗ stgSlot c d (Sfin m c) ∗ rcvSlot d c fd ∗ owes (c : Thread nD τ) (O + tallyAt (recvCell d c) () N) W
        ∗ dutyTok ER (sendCell c d) 0 c ∗ dutyTok ER (recvCell d c) 0 c)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM stgM d) (.remote (Dev.tc dev : Thread nD τ) (slotM rcvM c) (.dma (sendQ d)) hsc) (.dma (recvQ c)) hsrc hdst hsem) k) Q) := by
  subst hdev
  iintro ⟨#HR, Hsrc, Hdst, HO, Hts, Htr⟩
  iapply (Rounds.wp_send_pointsTo 𝒱₀ ER (sched m) (c : Thread nD τ) none (κ₁ := K (c, .inr (.inl dev))) (κ₂ := K (dev, .inr (.inr c)))
    (r₁ := 0) (r₂ := 0) (d₁ := c) (d₂ := c) (fd := fd)
    (by rw [duties_send]; exact Finset.mem_singleton_self _) (by rw [duties_recv]; exact Finset.mem_singleton_self _)
    () () N rfl (amount_send m c dev c) (amount_recv m dev c c) O rfl (W := W)
    (by rw [payload_send]; exact BI.Entails.refl _)
    (by rw [payload_recv]; unfold recvPay; rw [landing])) $$ [Hsrc Hdst HO Hts Htr]
  isplitr; · iapply (inv_at m K (c, .inr (.inl dev))); iexact HR
  isplitr; · iapply (inv_at m K (dev, .inr (.inr c))); iexact HR
  isplitl [Hsrc]; · iexact Hsrc
  isplitl [Hdst]; · iexact Hdst
  isplitl [HO]; · iexact HO
  isplitl [Hts]; · iexact Hts
  isplitr; · iapply (reached_at m K (c, .inr (.inl dev))); iexact HR
  isplitl [Htr]; · iexact Htr
  iapply (reached_at m K (dev, .inr (.inr c))); iexact HR

end Cert.KernelIdeal.Exchange

end
-- ==== Proof.GroupValue.lean ====
import proofs.«900436_g7700000000000437_dist_gemm_a2a_m1024_k1024_n1024_f32_relu_v7x_i32_1_alg».proof.Proof.Gen.KernelIdeal
import proofs.«900436_g7700000000000437_dist_gemm_a2a_m1024_k1024_n1024_f32_relu_v7x_i32_1_alg».proof.Proof.Gen.KernelIdeal.Skeleton
import Idealize.ShloMosaic.Lib.Pipeline.Value
import Idealize.ShloMosaic.Lib.ValueIdx
import Idealize.ShloMosaic.PureOps.Ideal.Laws

/-!
# A column group of `max (x · W) 0`, index by index

The body computes each group of 256 columns as a matrix product of the 32 × 1024 tile of `x` with a 1024 × 256 slab of
`W` into a zero accumulator, then the maximum with zero. On the extended reals entry `(a, b)` of that is
`max (∑ₖ x[a, k] · w[k, b]) 0`: the product into a zero accumulator is the plain sum over the contracted index.
-/

noncomputable section

namespace Cert.KernelIdeal.GroupValue

open Cert.KernelIdeal Cert.KernelIdeal.Gen Idealize.ShloMosaic Idealize.ShloMosaic.TcCoe

theorem lhs_0 (i : S32x256.Idx) (q : dot_S32x1024_S1024x256_S32x256_1_0_0_1_n_n.contr.Idx) : (dot_S32x1024_S1024x256_S32x256_1_0_0_1_n_n.lhsIdx i q 0).val = (i 0).val := by
  unfold DotDims.lhsIdx
  rw [dif_neg (show ¬(0 : Fin S32x1024.rank) ∈ dot_S32x1024_S1024x256_S32x256_1_0_0_1_n_n.lhsBatch by decide), dif_pos (show (0 : Fin S32x1024.rank) ∈ dot_S32x1024_S1024x256_S32x256_1_0_0_1_n_n.lhsNonContracting by decide)]
  rfl
theorem lhs_1 (i : S32x256.Idx) (q : dot_S32x1024_S1024x256_S32x256_1_0_0_1_n_n.contr.Idx) : (dot_S32x1024_S1024x256_S32x256_1_0_0_1_n_n.lhsIdx i q 1).val = (q ⟨0, by decide⟩).val :=
  dot_S32x1024_S1024x256_S32x256_1_0_0_1_n_n.lhsIdx_val_of_single rfl i q
theorem rhs_0 (i : S32x256.Idx) (q : dot_S32x1024_S1024x256_S32x256_1_0_0_1_n_n.contr.Idx) : (dot_S32x1024_S1024x256_S32x256_1_0_0_1_n_n.rhsIdx i q 0).val = (q ⟨0, by decide⟩).val :=
  dot_S32x1024_S1024x256_S32x256_1_0_0_1_n_n.rhsIdx_val_of_single rfl i q
theorem rhs_1 (i : S32x256.Idx) (q : dot_S32x1024_S1024x256_S32x256_1_0_0_1_n_n.contr.Idx) : (dot_S32x1024_S1024x256_S32x256_1_0_0_1_n_n.rhsIdx i q 1).val = (i 1).val := by
  unfold DotDims.rhsIdx
  rw [dif_neg (show ¬(1 : Fin S1024x256.rank) ∈ dot_S32x1024_S1024x256_S32x256_1_0_0_1_n_n.rhsBatch by decide), dif_pos (show (1 : Fin S1024x256.rank) ∈ dot_S32x1024_S1024x256_S32x256_1_0_0_1_n_n.rhsNonContracting by decide)]
  rfl

/-- The kernel's product into a zero accumulator, at an entry: the sum over the 1024 contracted positions. -/
theorem matmul_zero_apply (x : FVec Ideal S32x1024 .f32) (w : FVec Ideal S1024x256 .f32) (a : Fin 32) (b : Fin 256) :
    FloatOps.matmul dot_S32x1024_S1024x256_S32x256_1_0_0_1_n_n none x w (constant S32x256 .f32 0x00000000#32) (ValueIdx.ix2 a b)
      = ∑ k : Fin 1024, x (ValueIdx.ix2 a k) * w (ValueIdx.ix2 k b) := by
  rw [Ideal.matmul_constant_zero_apply, ← Equiv.sum_comp (ValueIdx.contrEquiv1 dot_S32x1024_S1024x256_S32x256_1_0_0_1_n_n 1024 rfl rfl).symm]
  refine Finset.sum_congr rfl fun k _ => ?_
  have hk := ValueIdx.contrEquiv1_symm_val dot_S32x1024_S1024x256_S32x256_1_0_0_1_n_n 1024 rfl rfl k
  have el : dot_S32x1024_S1024x256_S32x256_1_0_0_1_n_n.lhsIdx (ValueIdx.ix2 a b) ((ValueIdx.contrEquiv1 dot_S32x1024_S1024x256_S32x256_1_0_0_1_n_n 1024 rfl rfl).symm k) = ValueIdx.ix2 a k := funext fun z => Fin.ext (by
    match z with
    | ⟨0, _⟩ => exact lhs_0 _ _
    | ⟨1, _⟩ => exact (lhs_1 _ _).trans hk)
  have er : dot_S32x1024_S1024x256_S32x256_1_0_0_1_n_n.rhsIdx (ValueIdx.ix2 a b) ((ValueIdx.contrEquiv1 dot_S32x1024_S1024x256_S32x256_1_0_0_1_n_n 1024 rfl rfl).symm k) = ValueIdx.ix2 k b := funext fun z => Fin.ext (by
    match z with
    | ⟨0, _⟩ => exact (rhs_0 _ _).trans hk
    | ⟨1, _⟩ => exact rhs_1 _ _)
  rw [el, er]

/-- A column group's payload at an entry: `max (∑ₖ x[a, k] · w[k, b]) 0`. -/
theorem pay1_apply (x : Vec Ideal S32x1024 .f32) (w : Vec Ideal S1024x256 .f32) (a : Fin 32) (b : Fin 256) :
    k0_pay1 (F := Ideal) x w (ValueIdx.ix2 a b)
      = max (∑ k : Fin 1024, x (ValueIdx.ix2 a k) * w (ValueIdx.ix2 k b)) (Ideal.ofBits .f32 0x00000000#32) := by
  unfold k0_pay1
  show max (FloatOps.matmul dot_S32x1024_S1024x256_S32x256_1_0_0_1_n_n none (shapeCast S32x1024 x shapeCasts_S32x1024_S32x1024) (shapeCast S1024x256 w shapeCasts_S1024x256_S1024x256)
      (constant S32x256 .f32 0x00000000#32) (ValueIdx.ix2 a b)) (Ideal.ofBits .f32 0x00000000#32) = _
  rw [matmul_zero_apply]
  simp only [shapeCast_self]

end Cert.KernelIdeal.GroupValue

end
-- ==== Proof.OutValue.lean ====
import proofs.«900436_g7700000000000437_dist_gemm_a2a_m1024_k1024_n1024_f32_relu_v7x_i32_1_alg».proof.Proof.Sched
import proofs.«900436_g7700000000000437_dist_gemm_a2a_m1024_k1024_n1024_f32_relu_v7x_i32_1_alg».proof.Proof.GroupValue
import proofs.«900436_g7700000000000437_dist_gemm_a2a_m1024_k1024_n1024_f32_relu_v7x_i32_1_alg».proof.Proof.Ref
import Idealize.ShloMosaic.Lib.Layout

/-!
# The value: every device ends with its columns of `max (X · W) 0`

Device `c`'s result tile, read off its receive scratch once all 32 copies have landed: row `ρ = 32 s + 8 q + r`, column `j`
is element `(s, r, 32 q + j)` of the receive scratch, which is element `(c, r, 32 q + j)` of device `s`'s staging scratch,
which is `Y_s[8 q + r, 32 c + j]`. With device `s` holding rows `32 s … 32 s + 31` of `X` and every device all of `W`, that is
`max (∑ₖ X[ρ, k] · W[k, 32 c + j]) 0`: entry `(ρ, 32 c + j)` of the reference's result, the entry block `c` of its columns
has at `(ρ, j)`. Nothing but re-indexing: the same sum on both sides, so no finiteness is needed.
-/

set_option maxRecDepth 16384

noncomputable section

namespace Cert.KernelIdeal.Exchange

open Cert.KernelIdeal Cert.KernelIdeal.Gen
open Idealize.ShloMosaic Idealize.ShloMosaic.TcCoe Idealize.SL.Sem

section AnyFloat
variable {F : FTy → Type} [FloatOps F]
variable (m : (ℓ : Loc nD τ sig) → Buf (Elt F) ℓ)

/-- The result tile of device `c` once the 32 received slots are laid out: rows `32 s … 32 s + 31` from slot `s`. -/
def outFin (c : Dev nD) : Buf (Elt F) ((c : Thread nD τ).loc cc0_stg2_0) := fun i =>
  Rfin m c (ValueIdx.ix3 (n0 := 32) (n1 := 8) (n2 := 128)
    ⟨(i 0).val / 32, by have h : (i 0).val < 1024 := (i 0).isLt; omega⟩
    ⟨(i 0).val % 8, by omega⟩
    ⟨32 * ((i 0).val % 32 / 8) + (i 1).val, by have h : (i 1).val < 32 := (i 1).isLt; omega⟩)

theorem hz2 : (![0, 0] : Fin 2 → Nat) = fun _ => 0 := funext fun a => by
  match a with
  | ⟨0, _⟩ => rfl
  | ⟨1, _⟩ => rfl

/-- The staged tile of `x` is the argument buffer, and the body's load of it reads it whole. -/
theorem xld_apply (c : Dev nD) (a : Fin 32) (k : Fin 1024) :
    xld m c (ValueIdx.ix2 a k) = m ((c : Thread nD τ).loc main_arg0) (ValueIdx.ix2 a k) := by
  have h : xld m c = xstg m c := Memref.readAt_unit_zero (Elt F) cc0_stg0_0 hz2 inb_S32x1024_S32x1024_0_0 (xstg m c)
  rw [h]
  unfold xstg
  show m ((c : Thread nD τ).loc main_arg0) ((win0_0.blk (0 : Fin 1)).view.emb (ValueIdx.ix2 a k)) = _
  congr 1
  funext z
  apply Fin.ext
  match z with
  | ⟨0, _⟩ => show 0 * 32 + 1 * a.val = a.val; omega
  | ⟨1, _⟩ => show 0 * 1024 + 1 * k.val = k.val; omega

/-- The body's load of column group `g` of `w` reads columns `256 g …` of the argument buffer. -/
theorem wld_apply (c : Dev nD) (g : Fin 4) (k : Fin 1024) (b : Fin 256) :
    wld m c g (ValueIdx.ix2 k b)
      = m ((c : Thread nD τ).loc main_arg1) (ValueIdx.ix2 (n0 := 1024) (n1 := 1024) k ⟨256 * g.val + b.val, by have := g.isLt; have := b.isLt; omega⟩) := by
  match g with
  | ⟨0, _⟩ =>
    show m ((c : Thread nD τ).loc main_arg1) ((win0_1.blk (0 : Fin 1)).view.emb
      ((Rect.unit (s := S1024x1024) ![0, 0] S1024x256.size inb_S1024x1024_S1024x256_0_0).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (0 + 1 * b.val) = 256 * 0 + b.val; omega
  | ⟨1, _⟩ =>
    show m ((c : Thread nD τ).loc main_arg1) ((win0_1.blk (0 : Fin 1)).view.emb
      ((Rect.unit (s := S1024x1024) ![0, 256] S1024x256.size inb_S1024x1024_S1024x256_0_256).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (256 + 1 * b.val) = 256 * 1 + b.val; omega
  | ⟨2, _⟩ =>
    show m ((c : Thread nD τ).loc main_arg1) ((win0_1.blk (0 : Fin 1)).view.emb
      ((Rect.unit (s := S1024x1024) ![0, 512] S1024x256.size inb_S1024x1024_S1024x256_0_512).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (512 + 1 * b.val) = 256 * 2 + b.val; omega
  | ⟨3, _⟩ =>
    show m ((c : Thread nD τ).loc main_arg1) ((win0_1.blk (0 : Fin 1)).view.emb
      ((Rect.unit (s := S1024x1024) ![0, 768] S1024x256.size inb_S1024x1024_S1024x256_0_768).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (768 + 1 * b.val) = 256 * 3 + b.val; omega

/-- The two scratch buffers' final contents, at coordinates. -/
theorem Sfin_apply (c d : Dev nD) (r : Fin 8) (l : Fin 128) :
    Sfin m c (ValueIdx.ix3 (n0 := 32) d r l)
      = Ygrp m c ⟨d.val / 8, by have h : d.val < 32 := d.isLt; omega⟩
          (ValueIdx.ix2 (n0 := 32) (n1 := 256) ⟨8 * (l.val / 32) + r.val, by have := r.isLt; have := l.isLt; omega⟩
            ⟨32 * (d.val % 8) + l.val % 32, by omega⟩) := rfl
theorem Rfin_apply (c s : Dev nD) (r : Fin 8) (l : Fin 128) :
    Rfin m c (ValueIdx.ix3 (n0 := 32) s r l) = Sfin m s (ValueIdx.ix3 (n0 := 32) c r l) := rfl

/-- Entry `(ρ, j)` of device `c`'s result tile is entry `(ρ mod 32, 32 (c mod 8) + j)` of column group `c / 8` of `Y` on
    device `ρ / 32`. -/
theorem outFin_apply (c : Dev nD) (ρ : Fin 1024) (j : Fin 32) :
    outFin m c (ValueIdx.ix2 ρ j)
      = Ygrp m ⟨ρ.val / 32, by have := ρ.isLt; show ρ.val / 32 < 32; omega⟩ ⟨c.val / 8, by have h : c.val < 32 := c.isLt; omega⟩
          (ValueIdx.ix2 (n0 := 32) (n1 := 256) ⟨ρ.val % 32, Nat.mod_lt _ (by decide)⟩
            ⟨32 * (c.val % 8) + j.val, by have := j.isLt; omega⟩) := by
  have hρ := ρ.isLt; have hj := j.isLt; have hc : c.val < 32 := c.isLt
  show Rfin m c (ValueIdx.ix3 (n0 := 32) (n1 := 8) (n2 := 128) ⟨ρ.val / 32, _⟩ ⟨ρ.val % 8, _⟩ ⟨32 * (ρ.val % 32 / 8) + j.val, _⟩) = _
  rw [Rfin_apply, Sfin_apply]
  congr 2
  · exact Fin.ext (show 8 * ((32 * (ρ.val % 32 / 8) + j.val) / 32) + ρ.val % 8 = ρ.val % 32 by omega)
  · exact Fin.ext (show 32 * (c.val % 8) + (32 * (ρ.val % 32 / 8) + j.val) % 32 = 32 * (c.val % 8) + j.val by omega)

end AnyFloat

section AtIdeal
variable (m : (ℓ : Loc nD τ sig) → Buf (Elt Ideal) ℓ)

/-- With device `s` holding rows `32 s …` of `X` and every device all of `W`, device `c`'s result tile is block `c` of the
    columns of the reference's result. -/
theorem outFin_eq_block (X W : (⟨S1024x1024, .f32⟩ : BufTy).Contents (Elt Ideal))
    (hx : ∀ s : Dev nD, m ((s : Thread nD τ).loc main_arg0) = Layout.block ⟨2, ![32, 1024]⟩ ⟨2, ![1024, 1024]⟩ 0 32 s X)
    (hw : ∀ s : Dev nD, m ((s : Thread nD τ).loc main_arg1) = W) (c : Dev nD) :
    outFin m c = Layout.block ⟨2, ![1024, 32]⟩ ⟨2, ![1024, 1024]⟩ 1 32 c (Cert.ReferenceIdeal.Read.val_main_v2 (F := Ideal) X W) := by
  funext i
  obtain ⟨ρ, j, rfl⟩ : ∃ (ρ : Fin 1024) (j : Fin 32), i = ValueIdx.ix2 ρ j := ⟨i 0, i 1, ValueIdx.eq_ix2 i⟩
  have hρ := ρ.isLt; have hj := j.isLt; have hc : c.val < 32 := c.isLt
  rw [outFin_apply, Layout.block_apply, Cert.RefSide.result_apply]
  unfold Ygrp Cert.RefSide.reluDot
  rw [GroupValue.pay1_apply]
  refine congrArg (fun t : EReal => max t (Ideal.ofBits .f32 0x00000000#32)) ?_
  refine Finset.sum_congr rfl fun k _ => ?_
  rw [xld_apply, wld_apply, hx, hw, Layout.block_apply]
  congr 1
  · congr 1
    funext z; apply Fin.ext
    match z with
    | ⟨0, _⟩ => show (ρ.val / 32) * 32 + ρ.val % 32 = ρ.val; omega
    | ⟨1, _⟩ => rfl
  · congr 1
    funext z; apply Fin.ext
    match z with
    | ⟨0, _⟩ => rfl
    | ⟨1, _⟩ => show 256 * (c.val / 8) + (32 * (c.val % 8) + j.val) = c.val * 32 + j.val; omega

end AtIdeal

end Cert.KernelIdeal.Exchange

end
-- ==== Proof.Data.lean ====
import proofs.«900436_g7700000000000437_dist_gemm_a2a_m1024_k1024_n1024_f32_relu_v7x_i32_1_alg».proof.Proof.Copy
import proofs.«900436_g7700000000000437_dist_gemm_a2a_m1024_k1024_n1024_f32_relu_v7x_i32_1_alg».proof.Proof.OutValue
import proofs.«900436_g7700000000000437_dist_gemm_a2a_m1024_k1024_n1024_f32_relu_v7x_i32_1_alg».proof.Proof.Gen.KernelIdeal.Points
import proofs.«900436_g7700000000000437_dist_gemm_a2a_m1024_k1024_n1024_f32_relu_v7x_i32_1_alg».proof.Proof.Gen.KernelIdeal.Frame

/-!
# The proof data

What each device owes at launch, the levels, the ghost state it starts from, the invariant before and after the region's
one point, and the contents of the three staged windows after the body: the `x` tile and the `w` copy unchanged, the
result tile laid out from the 32 received slots.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- Device `c` owes every other device's barrier cell one unit, and receive cell `c` of every device (its own included)
    a tile's credit. -/
def O₀ (c : Dev nD) : CellTallies nD τ sig Unit :=
  (∑ p ∈ Finset.univ.erase c, tallyAt (barCell p) () 1) + ∑ d : Dev nD, tallyAt (recvCell d c) () N

def L (g : GSem nD τ sig) : Finset Unit := if g.1.2 = .tc then {()} else ∅
/-- Barrier cells at 1, receive cells (pool places 35 … 66) at 2, everything else (staging, send) at 0. -/
def lv (g : GSem nD τ sig) (_ : Unit) : ℕ := match g.2 with
  | .reg s => if s = barS then 1 else 0
  | .dma q => if 35 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- Its positions at round 0 of its 65 cells, and the tokens of the 95 duties IT pays: every other device's barrier duty
    `c`, its own 32 send duties, duty `c` of receive cell `c` of every device. -/
def linear (c : Dev nD) : sProp 𝕄 :=
  iprop(atPos ER (barCell c) 0 ∅ 0
    ∗ (bigSep Finset.univ fun d : Dev nD => atPos ER (sendCell c d) 0 ∅ 0)
    ∗ (bigSep Finset.univ fun s : Dev nD => atPos ER (recvCell c s) 0 ∅ 0)
    ∗ (bigSep (Finset.univ.erase c) fun p : Dev nD => dutyTok ER (barCell p) 0 c)
    ∗ (bigSep Finset.univ fun d : Dev nD => dutyTok ER (sendCell c d) 0 c)
    ∗ (bigSep Finset.univ fun d : Dev nD => dutyTok ER (recvCell d c) 0 c))

def ghost (K : Dev nD × CellIx → ℕ) (c : Dev nD) : sProp 𝕄 := iprop(records m K ∗ linear (F := F) c)

/-- What device `c`'s body starts from: the ghost state at some names, the credit its waits consume (31 units on its
    barrier cell, a tile's credit on each receive cell) and the level facts. -/
def start (c : Dev nD) : sProp 𝕄 :=
  iprop((∃ K, ghost m K c) ∗ cred (tallyAt (barCell c) () 31)
    ∗ (bigSep Finset.univ fun s : Dev nD => cred (tallyAt (recvCell c s) () N)) ∗ levAts L lv)

/-- Before the point: that, and the two scratch buffers at any contents. -/
def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two scratch buffers at their final contents, and the device's 64 own DMA cells closed at zero (the
    barrier cell is the runtime's: nothing to hand back). -/
def Φ₁ (c : Dev nD) : sProp 𝕄 :=
  iprop((((c : Thread nD τ).loc cc0_scratch0) ↦{fullShare} Sfin m c) ∗ (((c : Thread nD τ).loc cc0_scratch1) ↦{fullShare} Rfin m c)
    ∗ (bigSep Finset.univ fun d : Dev nD => semVal (sendCell c d) 0)
    ∗ (bigSep Finset.univ fun s : Dev nD => semVal (recvCell c s) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outFin m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Exchange

end
-- ==== Proof.Launch.lean ====
import proofs.«900436_g7700000000000437_dist_gemm_a2a_m1024_k1024_n1024_f32_relu_v7x_i32_1_alg».proof.Proof.Data

/-!
# The launch

The exchange's ghost state is allocated for all thirty-two devices at once: every device's 65 cells (its barrier
cell, its 32 send cells, its 32 receive cells) get their invariants under one update, the duty tokens minted at a
device's own cells are dealt to the devices that pay them, and the credit the launch deals a device for what the
others owe its cells is read off: 31 units on its barrier cell, one tile's credit on each receive cell. With the
body obligation as a hypothesis, the run of @main follows from the pipeline library's launch theorem.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

theorem sendQ_inj {d d' : Dev nD} (h : sendQ d = sendQ d') : d = d' := by
  rw [← slotOfSend_sendQ d, ← slotOfSend_sendQ d', h]
theorem recvQ_inj {s s' : Dev nD} (h : recvQ s = recvQ s') : s = s' := by
  rw [← slotOfRecv_recvQ s, ← slotOfRecv_recvQ s', h]
theorem sendQ_ne_recvQ (d s : Dev nD) : sendQ d ≠ recvQ s := fun h => by
  have h1 : d.val < 32 := d.isLt
  have h2 : (sendQ d).val = (recvQ s).val := congrArg Fin.val h
  have h3 : 3 + d.val = 35 + s.val := h2
  omega
theorem send_ne_bar (d : Dev nD) : (SemLoc.dma (sendQ d) : SemLoc sig) ≠ .reg barS := fun h => by cases h
theorem recv_ne_bar (s : Dev nD) : (SemLoc.dma (recvQ s) : SemLoc sig) ≠ .reg barS := fun h => by cases h

/-- The kernel's own (scoped) semaphores: the 32 send and the 32 receive semaphores. The barrier semaphore is the
    runtime's. -/
abbrev osem : Dev nD ⊕ Dev nD → SemLoc sig := fun
  | .inl d => .dma (sendQ d)
  | .inr s => .dma (recvQ s)

theorem ownSemFacts : Pipeline.OwnSemFacts cfg0.spec osem := by decide

theorem share_eq (c : Dev nD) (w : Fin cfg0.W) : (dats m 0 c).share w = fullShare := by unfold Dat.share; split <;> rfl

/-! ## The cells and the tokens -/

theorem kcell_injective : Function.Injective (kcell : Dev nD × CellIx → GSem nD τ sig) := by
  rintro ⟨c, k⟩ ⟨c', k'⟩ h
  have h1 : c = c' := by
    rcases k with u | d | s <;> rcases k' with u' | d' | s' <;> exact congrArg (fun g : GSem nD τ sig => g.1.1) h
  subst h1
  rcases k with u | d | s <;> rcases k' with u' | d' | s'
  · rfl
  · exact absurd (congrArg Prod.snd h) (fun h' => by cases h')
  · exact absurd (congrArg Prod.snd h) (fun h' => by cases h')
  · exact absurd (congrArg Prod.snd h) (fun h' => by cases h')
  · have : d = d' := sendQ_inj (SemLoc.dma.inj (congrArg Prod.snd h))
    subst this; rfl
  · exact absurd (SemLoc.dma.inj (congrArg Prod.snd h)) (sendQ_ne_recvQ d s')
  · exact absurd (congrArg Prod.snd h) (fun h' => by cases h')
  · exact absurd (SemLoc.dma.inj (congrArg Prod.snd h)).symm (sendQ_ne_recvQ d' s)
  · have : s = s' := recvQ_inj (SemLoc.dma.inj (congrArg Prod.snd h))
    subst this; rfl

/-- Every device's 65 cells. -/
def exCells : Finset (GSem nD τ sig) := Finset.univ.map ⟨kcell, kcell_injective⟩

/-- The duty tokens as minted, at the cell they pay into: at device `c`'s barrier cell one per device, at its send
    cell `d` its own, at its receive cell `s` device `s`'s. -/
abbrev TokIx : Type := Dev nD ⊕ (Dev nD ⊕ Dev nD)
def tokOf (cj : Dev nD × TokIx) : GSem nD τ sig × ℕ × Dev nD := match cj.2 with
  | .inl p => (barCell cj.1, 0, p)
  | .inr (.inl d) => (sendCell cj.1 d, 0, cj.1)
  | .inr (.inr s) => (recvCell cj.1 s, 0, s)

theorem tokOf_injective : Function.Injective (tokOf : Dev nD × TokIx → GSem nD τ sig × ℕ × Dev nD) := by
  rintro ⟨c, j⟩ ⟨c', j'⟩ h
  have h1 : c = c' := by
    rcases j with p | d | s <;> rcases j' with p' | d' | s' <;> exact congrArg (fun x : GSem nD τ sig × ℕ × Dev nD => x.1.1.1) h
  subst h1
  rcases j with p | d | s <;> rcases j' with p' | d' | s'
  · have : p = p' := congrArg (fun x : GSem nD τ sig × ℕ × Dev nD => x.2.2) h
    subst this; rfl
  · exact absurd (congrArg (fun x : GSem nD τ sig × ℕ × Dev nD => x.1.2) h) (fun h' => by cases h')
  · exact absurd (congrArg (fun x : GSem nD τ sig × ℕ × Dev nD => x.1.2) h) (fun h' => by cases h')
  · exact absurd (congrArg (fun x : GSem nD τ sig × ℕ × Dev nD => x.1.2) h) (fun h' => by cases h')
  · have : d = d' := sendQ_inj (SemLoc.dma.inj (congrArg (fun x : GSem nD τ sig × ℕ × Dev nD => x.1.2) h))
    subst this; rfl
  · exact absurd (SemLoc.dma.inj (congrArg (fun x : GSem nD τ sig × ℕ × Dev nD => x.1.2) h)) (sendQ_ne_recvQ d s')
  · exact absurd (congrArg (fun x : GSem nD τ sig × ℕ × Dev nD => x.1.2) h) (fun h' => by cases h')
  · exact absurd (SemLoc.dma.inj (congrArg (fun x : GSem nD τ sig × ℕ × Dev nD => x.1.2) h)).symm (sendQ_ne_recvQ d' s)
  · have : s = s' := recvQ_inj (SemLoc.dma.inj (congrArg (fun x : GSem nD τ sig × ℕ × Dev nD => x.1.2) h))
    subst this; rfl

def exToks : Finset (GSem nD τ sig × ℕ × Dev nD) := Finset.univ.map ⟨tokOf, tokOf_injective⟩

/-- The launch element: the pipeline's staging cells beside the exchange's cells and tokens. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun p : Dev nD => dutyTok ER (barCell c) 0 p)
    ∗ (bigSep Finset.univ fun d : Dev nD => dutyTok ER (sendCell c d) 0 c)
    ∗ (bigSep Finset.univ fun s : Dev nD => dutyTok ER (recvCell c s) 0 s))

/-- What the launch element deals device `c` (the theorem's `G`). -/
def G (c : Dev nD) : sProp 𝕄 :=
  iprop((bigSep Finset.univ fun k : CellIx => roundState ER (sched m) (kcell (c, k)) 0)
    ∗ (bigSep Finset.univ fun k : CellIx => iprop(atPos ER (kcell (c, k)) 0 ∅ 0 ∗ reached ER (kcell (c, k)) 0)) ∗ toks c)

/-- What the global step makes of it (`G'`). -/
def G' (c : Dev nD) : sProp 𝕄 := iprop(∃ K, ghost m K c)

/-- A conjunction over a device's 65 cells, by kind. -/
theorem bigSep_cellIx (Φ : CellIx → sProp 𝕄) :
    bigSep Finset.univ Φ = iprop(Φ (.inl ()) ∗ (bigSep Finset.univ fun d : Dev nD => Φ (.inr (.inl d))) ∗ bigSep Finset.univ fun s : Dev nD => Φ (.inr (.inr s))) := by
  rw [bigSep_univ_sum, bigSep_univ_of_subsingleton (), bigSep_univ_sum]
  rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CellIx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun d : Dev nD => semVal (sendCell c d) 0) ∗ bigSep Finset.univ fun s : Dev nD => semVal (recvCell c s) 0) := by
  unfold Pipeline.ownSems0; rw [bigSep_univ_sum]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m) (kcell (c, k)) 0)
      ⊢ (|={Set.univ}=> bigSep Finset.univ fun k : CellIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records m K ∗ linear (F := F) c) ⊢ G' m c := by
  unfold G' ghost
  iintro H
  iexists K
  iexact H

/-- The tokens of the duties device `c` pays: every other device's barrier duty `c`, its own send duties, duty `c` of
    receive cell `c` of every device. -/
def payToks (c : Dev nD) : sProp 𝕄 :=
  iprop((bigSep (Finset.univ.erase c) fun p : Dev nD => dutyTok ER (barCell p) 0 c)
    ∗ (bigSep Finset.univ fun d : Dev nD => dutyTok ER (sendCell c d) 0 c)
    ∗ (bigSep Finset.univ fun d : Dev nD => dutyTok ER (recvCell d c) 0 c))

/-- The tokens dealt to their payers: the token of barrier cell `c`'s duty `p` and the token of receive cell `(c, s)`
    go to the device that names the duty — the two device indices of a double conjunction change places —; the
    send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c p : Dev nD => (dutyTok ER (barCell c) 0 p : sProp 𝕄)),
    bigSep_univ_comm (fun c s : Dev nD => (dutyTok ER (recvCell c s) 0 s : sProp 𝕄))]
  exact sep_mono (bigSep_mono fun c _ => bigSep_subset (Finset.erase_subset c Finset.univ)) .rfl

theorem linear_intro (c : Dev nD) :
    iprop((bigSep Finset.univ fun k : CellIx => (atPos ER (kcell (c, k)) 0 ∅ 0 : sProp 𝕄)) ∗ payToks c) ⊢ linear (F := F) c := by
  unfold linear payToks
  rw [bigSep_cellIx]
  iintro ⟨⟨Ha, Hb, Hc⟩, H1, H2, H3⟩
  isplitl [Ha]; · iexact Ha
  isplitl [Hb]; · iexact Hb
  isplitl [Hc]; · iexact Hc
  isplitl [H1]; · iexact H1
  isplitl [H2]; · iexact H2
  iexact H3

theorem regroup :
    (bigSep Finset.univ fun c : Dev nD => iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (recvCell a s = recvCell b t) (a = b ∧ s = t) :=
  ⟨fun h => ⟨congrArg (fun g : GSem nD τ sig => g.1.1) h, recvQ_inj (SemLoc.dma.inj (congrArg Prod.snd h))⟩, fun ⟨h1, h2⟩ => h1 ▸ h2 ▸ rfl⟩

theorem tally_bar_bar (p c : Dev nD) (k : ℕ) : (tallyAt (barCell p) () k : CellTallies nD τ sig Unit) (barCell c) () = if c = p then k else 0 := by
  rw [tallyAt_apply]; exact if_congr ⟨fun h => bar_eq_iff.mp h.1, fun h => ⟨bar_eq_iff.mpr h, rfl⟩⟩ rfl rfl
theorem tally_recv_bar (e d c : Dev nD) (k : ℕ) : (tallyAt (recvCell e d) () k : CellTallies nD τ sig Unit) (barCell c) () = 0 := by
  rw [tallyAt_ne_cell (fun h => recv_ne_bar d (congrArg Prod.snd h).symm)]; rfl
theorem tally_bar_recv (p c s : Dev nD) (k : ℕ) : (tallyAt (barCell p) () k : CellTallies nD τ sig Unit) (recvCell c s) () = 0 := by
  rw [tallyAt_ne_cell (fun h => recv_ne_bar s (congrArg Prod.snd h))]; rfl
theorem tally_recv_recv (e d c s : Dev nD) (k : ℕ) :
    (tallyAt (recvCell e d) () k : CellTallies nD τ sig Unit) (recvCell c s) () = if c = e ∧ s = d then k else 0 := by
  rw [tallyAt_apply]; exact if_congr ⟨fun h => recv_eq_iff.mp h.1, fun h => ⟨recv_eq_iff.mpr h, rfl⟩⟩ rfl rfl

/-- What device `d` owes device `c`'s barrier cell: one unit, unless `d = c`. -/
theorem owed_bar (d c : Dev nD) : O₀ d (barCell c) () = if d ∈ Finset.univ.erase c then 1 else 0 := by
  have h1 : (∑ p ∈ Finset.univ.erase d, tallyAt (barCell p) () 1 : CellTallies nD τ sig Unit) (barCell c) () = if c ∈ Finset.univ.erase d then 1 else 0 := by
    rw [Finset.sum_apply, Finsupp.finsetSum_apply, Finset.sum_congr rfl fun p _ => tally_bar_bar p c 1, Finset.sum_ite_eq]
  have h2 : (∑ e : Dev nD, tallyAt (recvCell e d) () N : CellTallies nD τ sig Unit) (barCell c) () = 0 := by
    rw [Finset.sum_apply, Finsupp.finsetSum_apply, Finset.sum_congr rfl fun e _ => tally_recv_bar e d c N, Finset.sum_const_zero]
  unfold O₀
  rw [Pi.add_apply, Finsupp.add_apply, h1, h2, Nat.add_zero]
  exact if_congr ⟨fun h => Finset.mem_erase.mpr ⟨fun e => (Finset.mem_erase.mp h).1 e.symm, Finset.mem_univ _⟩,
    fun h => Finset.mem_erase.mpr ⟨fun e => (Finset.mem_erase.mp h).1 e.symm, Finset.mem_univ _⟩⟩ rfl rfl

/-- What device `d` owes receive cell `s` of device `c`: a tile's credit if `d = s` (its copy to `c`), nothing otherwise. -/
theorem owed_recv (d c s : Dev nD) : O₀ d (recvCell c s) () = if s = d then N else 0 := by
  have h1 : (∑ p ∈ Finset.univ.erase d, tallyAt (barCell p) () 1 : CellTallies nD τ sig Unit) (recvCell c s) () = 0 := by
    rw [Finset.sum_apply, Finsupp.finsetSum_apply, Finset.sum_congr rfl fun p _ => tally_bar_recv p c s 1, Finset.sum_const_zero]
  have h2 : (∑ e : Dev nD, tallyAt (recvCell e d) () N : CellTallies nD τ sig Unit) (recvCell c s) () = if s = d then N else 0 := by
    rw [Finset.sum_apply, Finsupp.finsetSum_apply, Finset.sum_congr rfl fun e _ => tally_recv_recv e d c s N]
    by_cases h : s = d
    · rw [if_pos h, Finset.sum_congr rfl fun e _ => if_congr (and_iff_left h) rfl rfl, Finset.sum_ite_eq, if_pos (Finset.mem_univ _)]
    · rw [if_neg h, Finset.sum_congr rfl fun e _ => if_neg (fun h' => h h'.2), Finset.sum_const_zero]
  unfold O₀
  rw [Pi.add_apply, Finsupp.add_apply, h1, h2, Nat.zero_add]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_mem, Finset.univ_inter,
    Finset.sum_const, Finset.card_erase_of_mem (Finset.mem_univ _), Finset.card_univ, Fintype.card_fin, smul_eq_mul]
  rfl

theorem launch_recv (c s : Dev nD) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq,
    if_pos (Finset.mem_univ _)]

/-- The credit the launch deals device `c`: the 31 units the others owe its barrier cell, and on each receive cell
    the tile's credit its one sender owes. -/
theorem creds (c : Dev nD) :
    (Pipeline.launchCred O₀ c : sProp 𝕄) ⊢ iprop(cred (tallyAt (barCell c) () 31) ∗ bigSep Finset.univ fun s : Dev nD => cred (tallyAt (recvCell c s) () N)) := by
  unfold Pipeline.launchCred
  rw [bigSep_univ_at _ (SemLoc.reg barS), launch_bar]
  refine sep_mono_right ?_
  have e : (bigSep Finset.univ fun s : Dev nD => (cred (tallyAt (recvCell c s) () N) : sProp 𝕄))
      = bigSep (Finset.univ.map ⟨fun s : Dev nD => (SemLoc.dma (recvQ s) : SemLoc sig), fun a b h => recvQ_inj (SemLoc.dma.inj h)⟩)
          fun sm => cred (tallyOn ((c : Thread nD τ), sm) (launchCredit (Pipeline.owing O₀) 0 ((c : Thread nD τ), sm))) := by
    rw [bigSep_map]; exact bigSep_congr fun s _ => congrArg cred (launch_recv c s).symm
  rw [e]
  exact bigSep_subset fun sm h => by
    obtain ⟨s, _, rfl⟩ := Finset.mem_map.mp h
    exact Finset.mem_erase.mpr ⟨recv_ne_bar s, Finset.mem_univ _⟩

/-! ## The levels: everything a device owes sits above its staging and send cells -/

theorem O₀_pos {c : Dev nD} {g : GSem nD τ sig} {u : Unit} (h : 0 < O₀ c g u) : (∃ p, g = barCell p) ∨ ∃ d, g = recvCell d c := by
  by_contra hn
  rw [not_or, not_exists, not_exists] at hn
  have h1 : (∑ p ∈ Finset.univ.erase c, tallyAt (barCell p) () 1 : CellTallies nD τ sig Unit) g u = 0 := by
    rw [Finset.sum_apply, Finsupp.finsetSum_apply]
    exact Finset.sum_eq_zero fun p _ => by rw [tallyAt_apply, if_neg (fun h' => hn.1 p h'.1)]
  have h2 : (∑ d : Dev nD, tallyAt (recvCell d c) () N : CellTallies nD τ sig Unit) g u = 0 := by
    rw [Finset.sum_apply, Finsupp.finsetSum_apply]
    exact Finset.sum_eq_zero fun d _ => by rw [tallyAt_apply, if_neg (fun h' => hn.2 d h'.1)]
  unfold O₀ at h
  rw [Pi.add_apply, Finsupp.add_apply, h1, h2] at h
  exact Nat.lt_irrefl 0 h

/-- A wait on a DMA semaphore below the receive semaphores (a staging cell, a send cell), owing what the device owes at
    launch or nothing: the barrier cells sit at level 1 and the receive cells at level 2, above the waited cell's 0. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨d, rfl⟩ <;> exact Finset.mem_singleton_self _)
      (fun p hp => by
        rw [Finset.mem_singleton.mp hp]
        show (if 35 ≤ q.val then 2 else 0) ≤ 0
        rw [if_neg (by omega)])
      (fun g u hg => by
        rcases O₀_pos hg with ⟨p, rfl⟩ | ⟨d, rfl⟩
        · show 0 < (if barS = barS then 1 else 0)
          rw [if_pos rfl]; decide
        · show 0 < (if 35 ≤ (recvQ c).val then 2 else 0)
          have h35 : 35 ≤ (recvQ c).val := show 35 ≤ 35 + c.val by omega
          rw [if_pos h35]; decide)
  · rw [MayWait_zero]; iintro -; iempintro

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨HS, HR, HzS, HzV⟩
  isplitr; · iempintro
  isplitl [HzS HzV]
  · isplitl [HzS]; · iexact HzS
    iexact HzV
  isplitl [HS]
  · iexists (Sfin m c); iexact HS
  · iexists (Rfin m c); iexact HR

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 32768 in
/-- At the compiled mesh of thirty-two devices, for any float values, from any memory with zero counters, given the body
    obligation on every device: every weakly fair execution of @main — the thirty-two kernels signalling each other's
    barrier semaphore, then exchanging their tiles — terminates, and every final state has each window's array at what
    the proof data compute for it. -/
theorem run_main (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Exchange.run_main' depends on axioms: [propext, Classical.choice, Quot.sound] -/
#guard_msgs in #print axioms run_main

/-! ## The final arrays -/

/-- The `x` and `w` arrays after the run hold what they held. -/
theorem final_x (c : Dev nD) : (dats m 0 c).arrAt (0 : Fin 3) cfg0.N = m ((c : Thread nD τ).loc main_arg0) :=
  (dats (F := F) m 0 c).arrAt_in (0 : Fin 3) rfl _
theorem final_w (c : Dev nD) : (dats m 0 c).arrAt (1 : Fin 3) cfg0.N = m ((c : Thread nD τ).loc main_arg1) :=
  (dats (F := F) m 0 c).arrAt_in (1 : Fin 3) rfl _

/-- The result array after the run: written back whole at the one point, it holds what the body left in its staging
    buffer. -/
theorem final_out (c : Dev nD) : (dats m 0 c).arrAt (2 : Fin 3) cfg0.N = outFin m c := by
  have h := (dats (F := F) m 0 c).arrAt_succ (2 : Fin 3) t0_0
  rw [flush0_2, if_pos rfl] at h
  exact h.trans (Memref.write_access_unit_zero_univ (Elt F) main_v1 (funext fun a => Nat.zero_mul _) _ _ _)

end Cert.KernelIdeal.Exchange

end
-- ==== Proof.Order.lean ====
import proofs.«900436_g7700000000000437_dist_gemm_a2a_m1024_k1024_n1024_f32_relu_v7x_i32_1_alg».proof.Proof.Data

/-!
# The orders in which a device's body consumes its resources

Its 31 barrier signals go around the mesh (`peer c 1, …, peer c 31`: every device but `c`, once each); its 32 copies go
group by group, within a group rotated by `c` (`dest c g i`: every device, once each); its 32 receive waits go by slot
number. A `∗` over the corresponding finite set is the `∗`-chain along the list, and what the device owes at launch is
the sum along the first two lists.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

def sigL (c : Dev nD) : List (Dev nD) := [peer c 1, peer c 2, peer c 3, peer c 4, peer c 5, peer c 6, peer c 7, peer c 8, peer c 9, peer c 10, peer c 11, peer c 12, peer c 13, peer c 14, peer c 15, peer c 16, peer c 17, peer c 18, peer c 19, peer c 20, peer c 21, peer c 22, peer c 23, peer c 24, peer c 25, peer c 26, peer c 27, peer c 28, peer c 29, peer c 30, peer c 31]
def sendL (c : Dev nD) : List (Dev nD) := [dest c 0 0, dest c 0 1, dest c 0 2, dest c 0 3, dest c 0 4, dest c 0 5, dest c 0 6, dest c 0 7, dest c 1 0, dest c 1 1, dest c 1 2, dest c 1 3, dest c 1 4, dest c 1 5, dest c 1 6, dest c 1 7, dest c 2 0, dest c 2 1, dest c 2 2, dest c 2 3, dest c 2 4, dest c 2 5, dest c 2 6, dest c 2 7, dest c 3 0, dest c 3 1, dest c 3 2, dest c 3 3, dest c 3 4, dest c 3 5, dest c 3 6, dest c 3 7]
def allL : List (Dev nD) := [0, 1, 2, 3, 4, 5, 6, 7, 8, 9, 10, 11, 12, 13, 14, 15, 16, 17, 18, 19, 20, 21, 22, 23, 24, 25, 26, 27, 28, 29, 30, 31]

theorem sigL_toFinset : ∀ c : Dev nD, Finset.univ.erase c = (sigL c).toFinset := by decide +kernel
theorem sigL_nodup : ∀ c : Dev nD, (sigL c).Nodup := by decide +kernel
theorem sendL_toFinset : ∀ c : Dev nD, (Finset.univ : Finset (Dev nD)) = (sendL c).toFinset := by decide +kernel
theorem sendL_nodup : ∀ c : Dev nD, (sendL c).Nodup := by decide +kernel
theorem allL_toFinset : (Finset.univ : Finset (Dev nD)) = allL.toFinset := by decide +kernel
theorem allL_nodup : allL.Nodup := by decide +kernel

theorem flat_sig (c : Dev nD) (Φ : Dev nD → sProp 𝕄) : bigSep (Finset.univ.erase c) Φ = bigSepL (sigL c) Φ :=
  bigSep_eq_bigSepL_of_eq (sigL c) (sigL_toFinset c) (sigL_nodup c) Φ
theorem flat_send (c : Dev nD) (Φ : Dev nD → sProp 𝕄) : bigSep Finset.univ Φ = bigSepL (sendL c) Φ :=
  bigSep_univ_eq_bigSepL (sendL c) (sendL_toFinset c) (sendL_nodup c) Φ
theorem flat_all (Φ : Dev nD → sProp 𝕄) : bigSep Finset.univ Φ = bigSepL allL Φ :=
  bigSep_univ_eq_bigSepL allL allL_toFinset allL_nodup Φ

theorem sum_sig {M : Type} [AddCommMonoid M] (c : Dev nD) (f : Dev nD → M) : ∑ p ∈ Finset.univ.erase c, f p = ((sigL c).map f).sum := by
  rw [sigL_toFinset c, List.sum_toFinset _ (sigL_nodup c)]
theorem sum_send {M : Type} [AddCommMonoid M] (c : Dev nD) (g : Dev nD → M) : ∑ d : Dev nD, g d = ((sendL c).map g).sum := by
  have h : (∑ d : Dev nD, g d) = ∑ d ∈ (sendL c).toFinset, g d := by rw [← sendL_toFinset c]
  rw [h, List.sum_toFinset _ (sendL_nodup c)]

/-- What a device owes at launch, along its program: the 31 barrier units in signalling order, then the 32 tile credits
    in sending order. -/
theorem O₀_list (c : Dev nD) :
    O₀ c = ((sigL c).map fun p => tallyAt (barCell p) () 1).sum + ((sendL c).map fun d => tallyAt (recvCell d c) () N).sum := by
  unfold O₀; rw [sum_sig, sum_send]

end Cert.KernelIdeal.Exchange

end
-- ==== Proof.Prep.lean ====
import proofs.«900436_g7700000000000437_dist_gemm_a2a_m1024_k1024_n1024_f32_relu_v7x_i32_1_alg».proof.Proof.Order

/-!
# Tables for the body

The device each printed `device_id` chain names; what a device still owes before each of its 63 payments, in program
order (31 barrier units, then 32 tile credits), as a chain of definitions each a payment more than the next; and the three
`∗`-chains along the body's three orders.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## The devices the body addresses -/

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 16 := Fin.ext (k0_dev16_eq c)
theorem dev17_eq (c : Dev nD) : (⟨k0_dev17 c, k0_dev17_lt c⟩ : Dev nD) = peer c 17 := Fin.ext (k0_dev17_eq c)
theorem dev18_eq (c : Dev nD) : (⟨k0_dev18 c, k0_dev18_lt c⟩ : Dev nD) = peer c 18 := Fin.ext (k0_dev18_eq c)
theorem dev19_eq (c : Dev nD) : (⟨k0_dev19 c, k0_dev19_lt c⟩ : Dev nD) = peer c 19 := Fin.ext (k0_dev19_eq c)
theorem dev20_eq (c : Dev nD) : (⟨k0_dev20 c, k0_dev20_lt c⟩ : Dev nD) = peer c 20 := Fin.ext (k0_dev20_eq c)
theorem dev21_eq (c : Dev nD) : (⟨k0_dev21 c, k0_dev21_lt c⟩ : Dev nD) = peer c 21 := Fin.ext (k0_dev21_eq c)
theorem dev22_eq (c : Dev nD) : (⟨k0_dev22 c, k0_dev22_lt c⟩ : Dev nD) = peer c 22 := Fin.ext (k0_dev22_eq c)
theorem dev23_eq (c : Dev nD) : (⟨k0_dev23 c, k0_dev23_lt c⟩ : Dev nD) = peer c 23 := Fin.ext (k0_dev23_eq c)
theorem dev24_eq (c : Dev nD) : (⟨k0_dev24 c, k0_dev24_lt c⟩ : Dev nD) = peer c 24 := Fin.ext (k0_dev24_eq c)
theorem dev25_eq (c : Dev nD) : (⟨k0_dev25 c, k0_dev25_lt c⟩ : Dev nD) = peer c 25 := Fin.ext (k0_dev25_eq c)
theorem dev26_eq (c : Dev nD) : (⟨k0_dev26 c, k0_dev26_lt c⟩ : Dev nD) = peer c 26 := Fin.ext (k0_dev26_eq c)
theorem dev27_eq (c : Dev nD) : (⟨k0_dev27 c, k0_dev27_lt c⟩ : Dev nD) = peer c 27 := Fin.ext (k0_dev27_eq c)
theorem dev28_eq (c : Dev nD) : (⟨k0_dev28 c, k0_dev28_lt c⟩ : Dev nD) = peer c 28 := Fin.ext (k0_dev28_eq c)
theorem dev29_eq (c : Dev nD) : (⟨k0_dev29 c, k0_dev29_lt c⟩ : Dev nD) = peer c 29 := Fin.ext (k0_dev29_eq c)
theorem dev30_eq (c : Dev nD) : (⟨k0_dev30 c, k0_dev30_lt c⟩ : Dev nD) = peer c 30 := Fin.ext (k0_dev30_eq c)
theorem dev31_eq (c : Dev nD) : (⟨k0_dev31 c, k0_dev31_lt c⟩ : Dev nD) = peer c 31 := Fin.ext (k0_dev31_eq c)
theorem dev32_eq (c : Dev nD) : (⟨k0_dev32 c, k0_dev32_lt c⟩ : Dev nD) = dest c 0 0 := Fin.ext ((k0_dev32_eq c).trans (by show _ = 8 * 0 + (0 + c.val) % 8; omega))
theorem dev33_eq (c : Dev nD) : (⟨k0_dev33 c, k0_dev33_lt c⟩ : Dev nD) = dest c 0 1 := Fin.ext ((k0_dev33_eq c).trans (by show _ = 8 * 0 + (1 + c.val) % 8; omega))
theorem dev34_eq (c : Dev nD) : (⟨k0_dev34 c, k0_dev34_lt c⟩ : Dev nD) = dest c 0 2 := Fin.ext ((k0_dev34_eq c).trans (by show _ = 8 * 0 + (2 + c.val) % 8; omega))
theorem dev35_eq (c : Dev nD) : (⟨k0_dev35 c, k0_dev35_lt c⟩ : Dev nD) = dest c 0 3 := Fin.ext ((k0_dev35_eq c).trans (by show _ = 8 * 0 + (3 + c.val) % 8; omega))
theorem dev36_eq (c : Dev nD) : (⟨k0_dev36 c, k0_dev36_lt c⟩ : Dev nD) = dest c 0 4 := Fin.ext ((k0_dev36_eq c).trans (by show _ = 8 * 0 + (4 + c.val) % 8; omega))
theorem dev37_eq (c : Dev nD) : (⟨k0_dev37 c, k0_dev37_lt c⟩ : Dev nD) = dest c 0 5 := Fin.ext ((k0_dev37_eq c).trans (by show _ = 8 * 0 + (5 + c.val) % 8; omega))
theorem dev38_eq (c : Dev nD) : (⟨k0_dev38 c, k0_dev38_lt c⟩ : Dev nD) = dest c 0 6 := Fin.ext ((k0_dev38_eq c).trans (by show _ = 8 * 0 + (6 + c.val) % 8; omega))
theorem dev39_eq (c : Dev nD) : (⟨k0_dev39 c, k0_dev39_lt c⟩ : Dev nD) = dest c 0 7 := Fin.ext ((k0_dev39_eq c).trans (by show _ = 8 * 0 + (7 + c.val) % 8; omega))
theorem dev40_eq (c : Dev nD) : (⟨k0_dev40 c, k0_dev40_lt c⟩ : Dev nD) = dest c 1 0 := Fin.ext ((k0_dev40_eq c).trans (by show _ = 8 * 1 + (0 + c.val) % 8; omega))
theorem dev41_eq (c : Dev nD) : (⟨k0_dev41 c, k0_dev41_lt c⟩ : Dev nD) = dest c 1 1 := Fin.ext ((k0_dev41_eq c).trans (by show _ = 8 * 1 + (1 + c.val) % 8; omega))
theorem dev42_eq (c : Dev nD) : (⟨k0_dev42 c, k0_dev42_lt c⟩ : Dev nD) = dest c 1 2 := Fin.ext ((k0_dev42_eq c).trans (by show _ = 8 * 1 + (2 + c.val) % 8; omega))
theorem dev43_eq (c : Dev nD) : (⟨k0_dev43 c, k0_dev43_lt c⟩ : Dev nD) = dest c 1 3 := Fin.ext ((k0_dev43_eq c).trans (by show _ = 8 * 1 + (3 + c.val) % 8; omega))
theorem dev44_eq (c : Dev nD) : (⟨k0_dev44 c, k0_dev44_lt c⟩ : Dev nD) = dest c 1 4 := Fin.ext ((k0_dev44_eq c).trans (by show _ = 8 * 1 + (4 + c.val) % 8; omega))
theorem dev45_eq (c : Dev nD) : (⟨k0_dev45 c, k0_dev45_lt c⟩ : Dev nD) = dest c 1 5 := Fin.ext ((k0_dev45_eq c).trans (by show _ = 8 * 1 + (5 + c.val) % 8; omega))
theorem dev46_eq (c : Dev nD) : (⟨k0_dev46 c, k0_dev46_lt c⟩ : Dev nD) = dest c 1 6 := Fin.ext ((k0_dev46_eq c).trans (by show _ = 8 * 1 + (6 + c.val) % 8; omega))
theorem dev47_eq (c : Dev nD) : (⟨k0_dev47 c, k0_dev47_lt c⟩ : Dev nD) = dest c 1 7 := Fin.ext ((k0_dev47_eq c).trans (by show _ = 8 * 1 + (7 + c.val) % 8; omega))
theorem dev48_eq (c : Dev nD) : (⟨k0_dev48 c, k0_dev48_lt c⟩ : Dev nD) = dest c 2 0 := Fin.ext ((k0_dev48_eq c).trans (by show _ = 8 * 2 + (0 + c.val) % 8; omega))
theorem dev49_eq (c : Dev nD) : (⟨k0_dev49 c, k0_dev49_lt c⟩ : Dev nD) = dest c 2 1 := Fin.ext ((k0_dev49_eq c).trans (by show _ = 8 * 2 + (1 + c.val) % 8; omega))
theorem dev50_eq (c : Dev nD) : (⟨k0_dev50 c, k0_dev50_lt c⟩ : Dev nD) = dest c 2 2 := Fin.ext ((k0_dev50_eq c).trans (by show _ = 8 * 2 + (2 + c.val) % 8; omega))
theorem dev51_eq (c : Dev nD) : (⟨k0_dev51 c, k0_dev51_lt c⟩ : Dev nD) = dest c 2 3 := Fin.ext ((k0_dev51_eq c).trans (by show _ = 8 * 2 + (3 + c.val) % 8; omega))
theorem dev52_eq (c : Dev nD) : (⟨k0_dev52 c, k0_dev52_lt c⟩ : Dev nD) = dest c 2 4 := Fin.ext ((k0_dev52_eq c).trans (by show _ = 8 * 2 + (4 + c.val) % 8; omega))
theorem dev53_eq (c : Dev nD) : (⟨k0_dev53 c, k0_dev53_lt c⟩ : Dev nD) = dest c 2 5 := Fin.ext ((k0_dev53_eq c).trans (by show _ = 8 * 2 + (5 + c.val) % 8; omega))
theorem dev54_eq (c : Dev nD) : (⟨k0_dev54 c, k0_dev54_lt c⟩ : Dev nD) = dest c 2 6 := Fin.ext ((k0_dev54_eq c).trans (by show _ = 8 * 2 + (6 + c.val) % 8; omega))
theorem dev55_eq (c : Dev nD) : (⟨k0_dev55 c, k0_dev55_lt c⟩ : Dev nD) = dest c 2 7 := Fin.ext ((k0_dev55_eq c).trans (by show _ = 8 * 2 + (7 + c.val) % 8; omega))
theorem dev56_eq (c : Dev nD) : (⟨k0_dev56 c, k0_dev56_lt c⟩ : Dev nD) = dest c 3 0 := Fin.ext ((k0_dev56_eq c).trans (by show _ = 8 * 3 + (0 + c.val) % 8; omega))
theorem dev57_eq (c : Dev nD) : (⟨k0_dev57 c, k0_dev57_lt c⟩ : Dev nD) = dest c 3 1 := Fin.ext ((k0_dev57_eq c).trans (by show _ = 8 * 3 + (1 + c.val) % 8; omega))
theorem dev58_eq (c : Dev nD) : (⟨k0_dev58 c, k0_dev58_lt c⟩ : Dev nD) = dest c 3 2 := Fin.ext ((k0_dev58_eq c).trans (by show _ = 8 * 3 + (2 + c.val) % 8; omega))
theorem dev59_eq (c : Dev nD) : (⟨k0_dev59 c, k0_dev59_lt c⟩ : Dev nD) = dest c 3 3 := Fin.ext ((k0_dev59_eq c).trans (by show _ = 8 * 3 + (3 + c.val) % 8; omega))
theorem dev60_eq (c : Dev nD) : (⟨k0_dev60 c, k0_dev60_lt c⟩ : Dev nD) = dest c 3 4 := Fin.ext ((k0_dev60_eq c).trans (by show _ = 8 * 3 + (4 + c.val) % 8; omega))
theorem dev61_eq (c : Dev nD) : (⟨k0_dev61 c, k0_dev61_lt c⟩ : Dev nD) = dest c 3 5 := Fin.ext ((k0_dev61_eq c).trans (by show _ = 8 * 3 + (5 + c.val) % 8; omega))
theorem dev62_eq (c : Dev nD) : (⟨k0_dev62 c, k0_dev62_lt c⟩ : Dev nD) = dest c 3 6 := Fin.ext ((k0_dev62_eq c).trans (by show _ = 8 * 3 + (6 + c.val) % 8; omega))
theorem dev63_eq (c : Dev nD) : (⟨k0_dev63 c, k0_dev63_lt c⟩ : Dev nD) = dest c 3 7 := Fin.ext ((k0_dev63_eq c).trans (by show _ = 8 * 3 + (7 + c.val) % 8; omega))

theorem peer_ne (c : Dev nD) (k : ℕ) (h1 : 1 ≤ k) (h2 : k < 32) : peer c k ≠ c := by
  intro h
  have hv : (c.val + k) % 32 = c.val := congrArg Fin.val h
  have hc : c.val < 32 := c.isLt
  omega

/-! ## What is owed before each payment -/

def owe63 (c : Dev nD) : CellTallies nD τ sig Unit := 0
def owe62 (c : Dev nD) : CellTallies nD τ sig Unit := owe63 c + tallyAt (recvCell (dest c 3 7) c) () N
def owe61 (c : Dev nD) : CellTallies nD τ sig Unit := owe62 c + tallyAt (recvCell (dest c 3 6) c) () N
def owe60 (c : Dev nD) : CellTallies nD τ sig Unit := owe61 c + tallyAt (recvCell (dest c 3 5) c) () N
def owe59 (c : Dev nD) : CellTallies nD τ sig Unit := owe60 c + tallyAt (recvCell (dest c 3 4) c) () N
def owe58 (c : Dev nD) : CellTallies nD τ sig Unit := owe59 c + tallyAt (recvCell (dest c 3 3) c) () N
def owe57 (c : Dev nD) : CellTallies nD τ sig Unit := owe58 c + tallyAt (recvCell (dest c 3 2) c) () N
def owe56 (c : Dev nD) : CellTallies nD τ sig Unit := owe57 c + tallyAt (recvCell (dest c 3 1) c) () N
def owe55 (c : Dev nD) : CellTallies nD τ sig Unit := owe56 c + tallyAt (recvCell (dest c 3 0) c) () N
def owe54 (c : Dev nD) : CellTallies nD τ sig Unit := owe55 c + tallyAt (recvCell (dest c 2 7) c) () N
def owe53 (c : Dev nD) : CellTallies nD τ sig Unit := owe54 c + tallyAt (recvCell (dest c 2 6) c) () N
def owe52 (c : Dev nD) : CellTallies nD τ sig Unit := owe53 c + tallyAt (recvCell (dest c 2 5) c) () N
def owe51 (c : Dev nD) : CellTallies nD τ sig Unit := owe52 c + tallyAt (recvCell (dest c 2 4) c) () N
def owe50 (c : Dev nD) : CellTallies nD τ sig Unit := owe51 c + tallyAt (recvCell (dest c 2 3) c) () N
def owe49 (c : Dev nD) : CellTallies nD τ sig Unit := owe50 c + tallyAt (recvCell (dest c 2 2) c) () N
def owe48 (c : Dev nD) : CellTallies nD τ sig Unit := owe49 c + tallyAt (recvCell (dest c 2 1) c) () N
def owe47 (c : Dev nD) : CellTallies nD τ sig Unit := owe48 c + tallyAt (recvCell (dest c 2 0) c) () N
def owe46 (c : Dev nD) : CellTallies nD τ sig Unit := owe47 c + tallyAt (recvCell (dest c 1 7) c) () N
def owe45 (c : Dev nD) : CellTallies nD τ sig Unit := owe46 c + tallyAt (recvCell (dest c 1 6) c) () N
def owe44 (c : Dev nD) : CellTallies nD τ sig Unit := owe45 c + tallyAt (recvCell (dest c 1 5) c) () N
def owe43 (c : Dev nD) : CellTallies nD τ sig Unit := owe44 c + tallyAt (recvCell (dest c 1 4) c) () N
def owe42 (c : Dev nD) : CellTallies nD τ sig Unit := owe43 c + tallyAt (recvCell (dest c 1 3) c) () N
def owe41 (c : Dev nD) : CellTallies nD τ sig Unit := owe42 c + tallyAt (recvCell (dest c 1 2) c) () N
def owe40 (c : Dev nD) : CellTallies nD τ sig Unit := owe41 c + tallyAt (recvCell (dest c 1 1) c) () N
def owe39 (c : Dev nD) : CellTallies nD τ sig Unit := owe40 c + tallyAt (recvCell (dest c 1 0) c) () N
def owe38 (c : Dev nD) : CellTallies nD τ sig Unit := owe39 c + tallyAt (recvCell (dest c 0 7) c) () N
def owe37 (c : Dev nD) : CellTallies nD τ sig Unit := owe38 c + tallyAt (recvCell (dest c 0 6) c) () N
def owe36 (c : Dev nD) : CellTallies nD τ sig Unit := owe37 c + tallyAt (recvCell (dest c 0 5) c) () N
def owe35 (c : Dev nD) : CellTallies nD τ sig Unit := owe36 c + tallyAt (recvCell (dest c 0 4) c) () N
def owe34 (c : Dev nD) : CellTallies nD τ sig Unit := owe35 c + tallyAt (recvCell (dest c 0 3) c) () N
def owe33 (c : Dev nD) : CellTallies nD τ sig Unit := owe34 c + tallyAt (recvCell (dest c 0 2) c) () N
def owe32 (c : Dev nD) : CellTallies nD τ sig Unit := owe33 c + tallyAt (recvCell (dest c 0 1) c) () N
def owe31 (c : Dev nD) : CellTallies nD τ sig Unit := owe32 c + tallyAt (recvCell (dest c 0 0) c) () N
def owe30 (c : Dev nD) : CellTallies nD τ sig Unit := owe31 c + tallyAt (barCell (peer c 31)) () 1
def owe29 (c : Dev nD) : CellTallies nD τ sig Unit := owe30 c + tallyAt (barCell (peer c 30)) () 1
def owe28 (c : Dev nD) : CellTallies nD τ sig Unit := owe29 c + tallyAt (barCell (peer c 29)) () 1
def owe27 (c : Dev nD) : CellTallies nD τ sig Unit := owe28 c + tallyAt (barCell (peer c 28)) () 1
def owe26 (c : Dev nD) : CellTallies nD τ sig Unit := owe27 c + tallyAt (barCell (peer c 27)) () 1
def owe25 (c : Dev nD) : CellTallies nD τ sig Unit := owe26 c + tallyAt (barCell (peer c 26)) () 1
def owe24 (c : Dev nD) : CellTallies nD τ sig Unit := owe25 c + tallyAt (barCell (peer c 25)) () 1
def owe23 (c : Dev nD) : CellTallies nD τ sig Unit := owe24 c + tallyAt (barCell (peer c 24)) () 1
def owe22 (c : Dev nD) : CellTallies nD τ sig Unit := owe23 c + tallyAt (barCell (peer c 23)) () 1
def owe21 (c : Dev nD) : CellTallies nD τ sig Unit := owe22 c + tallyAt (barCell (peer c 22)) () 1
def owe20 (c : Dev nD) : CellTallies nD τ sig Unit := owe21 c + tallyAt (barCell (peer c 21)) () 1
def owe19 (c : Dev nD) : CellTallies nD τ sig Unit := owe20 c + tallyAt (barCell (peer c 20)) () 1
def owe18 (c : Dev nD) : CellTallies nD τ sig Unit := owe19 c + tallyAt (barCell (peer c 19)) () 1
def owe17 (c : Dev nD) : CellTallies nD τ sig Unit := owe18 c + tallyAt (barCell (peer c 18)) () 1
def owe16 (c : Dev nD) : CellTallies nD τ sig Unit := owe17 c + tallyAt (barCell (peer c 17)) () 1
def owe15 (c : Dev nD) : CellTallies nD τ sig Unit := owe16 c + tallyAt (barCell (peer c 16)) () 1
def owe14 (c : Dev nD) : CellTallies nD τ sig Unit := owe15 c + tallyAt (barCell (peer c 15)) () 1
def owe13 (c : Dev nD) : CellTallies nD τ sig Unit := owe14 c + tallyAt (barCell (peer c 14)) () 1
def owe12 (c : Dev nD) : CellTallies nD τ sig Unit := owe13 c + tallyAt (barCell (peer c 13)) () 1
def owe11 (c : Dev nD) : CellTallies nD τ sig Unit := owe12 c + tallyAt (barCell (peer c 12)) () 1
def owe10 (c : Dev nD) : CellTallies nD τ sig Unit := owe11 c + tallyAt (barCell (peer c 11)) () 1
def owe9 (c : Dev nD) : CellTallies nD τ sig Unit := owe10 c + tallyAt (barCell (peer c 10)) () 1
def owe8 (c : Dev nD) : CellTallies nD τ sig Unit := owe9 c + tallyAt (barCell (peer c 9)) () 1
def owe7 (c : Dev nD) : CellTallies nD τ sig Unit := owe8 c + tallyAt (barCell (peer c 8)) () 1
def owe6 (c : Dev nD) : CellTallies nD τ sig Unit := owe7 c + tallyAt (barCell (peer c 7)) () 1
def owe5 (c : Dev nD) : CellTallies nD τ sig Unit := owe6 c + tallyAt (barCell (peer c 6)) () 1
def owe4 (c : Dev nD) : CellTallies nD τ sig Unit := owe5 c + tallyAt (barCell (peer c 5)) () 1
def owe3 (c : Dev nD) : CellTallies nD τ sig Unit := owe4 c + tallyAt (barCell (peer c 4)) () 1
def owe2 (c : Dev nD) : CellTallies nD τ sig Unit := owe3 c + tallyAt (barCell (peer c 3)) () 1
def owe1 (c : Dev nD) : CellTallies nD τ sig Unit := owe2 c + tallyAt (barCell (peer c 2)) () 1
def owe0 (c : Dev nD) : CellTallies nD τ sig Unit := owe1 c + tallyAt (barCell (peer c 1)) () 1

theorem O₀_owe (c : Dev nD) : O₀ c = owe0 c := by
  rw [O₀_list]
  simp only [sigL, sendL, List.map_cons, List.map_nil, List.sum_cons, List.sum_nil, owe0, owe1, owe2, owe3, owe4, owe5, owe6, owe7, owe8, owe9, owe10, owe11, owe12, owe13, owe14, owe15, owe16, owe17, owe18, owe19, owe20, owe21, owe22, owe23, owe24, owe25, owe26, owe27, owe28, owe29, owe30, owe31, owe32, owe33, owe34, owe35, owe36, owe37, owe38, owe39, owe40, owe41, owe42, owe43, owe44, owe45, owe46, owe47, owe48, owe49, owe50, owe51, owe52, owe53, owe54, owe55, owe56, owe57, owe58, owe59, owe60, owe61, owe62, owe63]
  abel

/-! ## The three chains -/

theorem chain_sig (c : Dev nD) (Φ : Dev nD → sProp 𝕄) :
    bigSep (Finset.univ.erase c) Φ = iprop(Φ (peer c 1) ∗ Φ (peer c 2) ∗ Φ (peer c 3) ∗ Φ (peer c 4) ∗ Φ (peer c 5) ∗ Φ (peer c 6) ∗ Φ (peer c 7) ∗ Φ (peer c 8) ∗ Φ (peer c 9) ∗ Φ (peer c 10) ∗ Φ (peer c 11) ∗ Φ (peer c 12) ∗ Φ (peer c 13) ∗ Φ (peer c 14) ∗ Φ (peer c 15) ∗ Φ (peer c 16) ∗ Φ (peer c 17) ∗ Φ (peer c 18) ∗ Φ (peer c 19) ∗ Φ (peer c 20) ∗ Φ (peer c 21) ∗ Φ (peer c 22) ∗ Φ (peer c 23) ∗ Φ (peer c 24) ∗ Φ (peer c 25) ∗ Φ (peer c 26) ∗ Φ (peer c 27) ∗ Φ (peer c 28) ∗ Φ (peer c 29) ∗ Φ (peer c 30) ∗ Φ (peer c 31)) := flat_sig c Φ
theorem chain_send (c : Dev nD) (Φ : Dev nD → sProp 𝕄) :
    bigSep Finset.univ Φ = iprop(Φ (dest c 0 0) ∗ Φ (dest c 0 1) ∗ Φ (dest c 0 2) ∗ Φ (dest c 0 3) ∗ Φ (dest c 0 4) ∗ Φ (dest c 0 5) ∗ Φ (dest c 0 6) ∗ Φ (dest c 0 7) ∗ Φ (dest c 1 0) ∗ Φ (dest c 1 1) ∗ Φ (dest c 1 2) ∗ Φ (dest c 1 3) ∗ Φ (dest c 1 4) ∗ Φ (dest c 1 5) ∗ Φ (dest c 1 6) ∗ Φ (dest c 1 7) ∗ Φ (dest c 2 0) ∗ Φ (dest c 2 1) ∗ Φ (dest c 2 2) ∗ Φ (dest c 2 3) ∗ Φ (dest c 2 4) ∗ Φ (dest c 2 5) ∗ Φ (dest c 2 6) ∗ Φ (dest c 2 7) ∗ Φ (dest c 3 0) ∗ Φ (dest c 3 1) ∗ Φ (dest c 3 2) ∗ Φ (dest c 3 3) ∗ Φ (dest c 3 4) ∗ Φ (dest c 3 5) ∗ Φ (dest c 3 6) ∗ Φ (dest c 3 7)) := flat_send c Φ
theorem chain_all (Φ : Dev nD → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := flat_all Φ

end Cert.KernelIdeal.Exchange

end
-- ==== Proof.Names.lean ====
import proofs.«900436_g7700000000000437_dist_gemm_a2a_m1024_k1024_n1024_f32_relu_v7x_i32_1_alg».proof.Proof.Prep

/-!
# The printed copies' operands

The kernel addresses the source slot, the destination slot and the two semaphores of each copy through offsets it
computes from its device id. In closed form those are: staging slot `dest c g i`, receive slot `c`, send semaphore
`dest c g i`, receive semaphore `c`.
-/

set_option maxRecDepth 16384

noncomputable section

namespace Cert.KernelIdeal.Exchange

open Cert.KernelIdeal Cert.KernelIdeal.Gen
open Idealize.ShloMosaic Idealize.ShloMosaic.TcCoe

theorem off4_dest (c : Dev nD) (g : Fin 4) (i : Fin 8) :
    k0_off4 c (BitVec.ofNat 32 (8 * g.val)) (BitVec.ofNat 32 i.val) = ![(dest c g i).val, 0, 0] := k0_off4_eq c g i
theorem off1_dest (c : Dev nD) (g : Fin 4) (i : Fin 8) :
    k0_off1 c (BitVec.ofNat 32 (8 * g.val)) (BitVec.ofNat 32 i.val) = ![(dest c g i).val] := k0_off1_eq c g i

/-- The source of copy `(g, i)`: staging slot `dest c g i`. -/
theorem src_eq (c : Dev nD) (g : Fin 4) (i : Fin 8) (p : ∀ a, (k0_off4 c (BitVec.ofNat 32 (8 * g.val)) (BitVec.ofNat 32 i.val)) a + S1x8x128.size a ≤ S32x8x128.size a)
    (hs : ∀ a, (Rect.unit (s := S32x8x128) (k0_off4 c (BitVec.ofNat 32 (8 * g.val)) (BitVec.ofNat 32 i.val)) S1x8x128.size p).stride a = 1) :
    (stgM.slice (Rect.unit (s := S32x8x128) (k0_off4 c (BitVec.ofNat 32 (8 * g.val)) (BitVec.ofNat 32 i.val)) S1x8x128.size p) hs).squeeze S8x128 squeezes_S1x8x128_S8x128
      = slotM stgM (dest c g i) :=
  congrArg (fun M : Memref sig .tc .vmem S1x8x128 .f32 => M.squeeze S8x128 squeezes_S1x8x128_S8x128)
    (Memref.slice_unit_congr stgM (off4_dest c g i) p (slot_inb (dest c g i)) hs (fun _ => rfl))
/-- Its destination: receive slot `c` (of the addressed device). -/
theorem dst_eq (c : Dev nD) (p : ∀ a, (k0_off3 c) a + S1x8x128.size a ≤ S32x8x128.size a)
    (hs : ∀ a, (Rect.unit (s := S32x8x128) (k0_off3 c) S1x8x128.size p).stride a = 1) :
    (rcvM.slice (Rect.unit (s := S32x8x128) (k0_off3 c) S1x8x128.size p) hs).squeeze S8x128 squeezes_S1x8x128_S8x128 = slotM rcvM c :=
  congrArg (fun M : Memref sig .tc .vmem S1x8x128 .f32 => M.squeeze S8x128 squeezes_S1x8x128_S8x128)
    (Memref.slice_unit_congr rcvM (k0_off3_eq c) p (slot_inb c) hs (fun _ => rfl))

theorem s32_inb (d : Dev nD) : ∀ a, (![d.val] : Fin 1 → Nat) a + S1.size a ≤ S32.size a := by
  intro a; have h : d.val < 32 := d.isLt
  match a with
  | ⟨0, _⟩ => show d.val + 1 ≤ 32; omega

/-- One semaphore of a 32-array at place `d`: the pool's place `base + d`. -/
theorem sem_at (base : ℕ) (hb : base + S32.numel ≤ sig.nDmaSem) (d : Dev nD) :
    (((SemArray.consecutive base S32 hb : DmaSems sig S32).slice (Rect.unit (s := S32) ![d.val] S1.size (s32_inb d))).squeeze S_ squeezes_S1_S_).sem.val = base + d.val := by
  show base + (S32.rowMajor ((Rect.unit (s := S32) ![d.val] S1.size (s32_inb d)).emb (Shape.reshapeEquiv squeezes_S1_S_.numel_eq (fun a => a.elim0)))).val = _
  rw [Shape.rowMajor_val_one]
  show base + (d.val + 1 * ((Shape.reshapeEquiv squeezes_S1_S_.numel_eq (fun a => a.elim0) : S1.Idx) 0).val) = _
  have h0 : ((Shape.reshapeEquiv squeezes_S1_S_.numel_eq (fun a => a.elim0) : S1.Idx) 0).val = 0 := by
    have := ((Shape.reshapeEquiv squeezes_S1_S_.numel_eq (fun a => a.elim0) : S1.Idx) 0).isLt
    have h1 : S1.size 0 = 1 := rfl
    omega
  rw [h0]; omega

/-- The send semaphore of copy `(g, i)`, and the receive semaphore every copy of `c` credits. -/
theorem send_sem_eq (c : Dev nD) (g : Fin 4) (i : Fin 8) (p : ∀ a, (k0_off1 c (BitVec.ofNat 32 (8 * g.val)) (BitVec.ofNat 32 i.val)) a + S1.size a ≤ S32.size a) :
    ((cc0_scratch2.slice (Rect.unit (s := S32) (k0_off1 c (BitVec.ofNat 32 (8 * g.val)) (BitVec.ofNat 32 i.val)) S1.size p)).squeeze S_ squeezes_S1_S_).sem = sendQ (dest c g i) := by
  rw [SemArray.slice_unit_congr cc0_scratch2 (off1_dest c g i) p (s32_inb (dest c g i))]
  exact Fin.ext (sem_at 3 hcc0_scratch2 (dest c g i))
theorem recv_sem_eq (c : Dev nD) (p : ∀ a, (k0_off2 c) a + S1.size a ≤ S32.size a) :
    ((cc0_scratch3.slice (Rect.unit (s := S32) (k0_off2 c) S1.size p)).squeeze S_ squeezes_S1_S_).sem = recvQ c := by
  rw [SemArray.slice_unit_congr cc0_scratch3 (k0_off2_eq c) p (s32_inb c)]
  exact Fin.ext (sem_at 35 hcc0_scratch3 c)

end Cert.KernelIdeal.Exchange

end
-- ==== Proof.BodyRules.lean ====
import proofs.«900436_g7700000000000437_dist_gemm_a2a_m1024_k1024_n1024_f32_relu_v7x_i32_1_alg».proof.Proof.Names

/-!
# The body's remaining rules

The level evidence at the barrier wait (a device then owes only tile credits, on receive cells, which sit above barrier
cells); the barrier wait's 31 payloads and the device's own slot regrouped by destination; a group's eight staging slots
by number and in sending order; and the copy rule with the printed operands given by their equations.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

theorem rcvSlot_eq (c d : Dev nD) (f : Buf (Elt F) ((c : Thread nD τ).loc cc0_scratch1)) :
    (rcvSlot c d f : sProp 𝕄) = (((c : Thread nD τ).loc cc0_scratch1) ↦[(slotRect d).set]{fullShare} f) := by
  show ((((c : Thread nD τ).loc cc0_scratch1) ↦[(slotM rcvM d).view.set]{fullShare} f) : sProp 𝕄) = _
  rw [slot_set_rcv]
theorem stgSlot_eq (c d : Dev nD) (f : Buf (Elt F) ((c : Thread nD τ).loc cc0_scratch0)) :
    (stgSlot c d f : sProp 𝕄) = (((c : Thread nD τ).loc cc0_scratch0) ↦[(slotRect d).set]{fullShare} f) := by
  show ((((c : Thread nD τ).loc cc0_scratch0) ↦[(slotM stgM d).view.set]{fullShare} f) : sProp 𝕄) = _
  rw [slot_set_stg]

theorem split_own (c : Dev nD) (Φ : Dev nD → sProp 𝕄) : bigSep Finset.univ Φ = iprop(Φ c ∗ bigSep (Finset.univ.erase c) Φ) :=
  bigSep_univ_split c

/-! ## The barrier wait -/

theorem owe31_eq (c : Dev nD) : owe31 c = ∑ d : Dev nD, tallyAt (recvCell d c) () N := by
  rw [sum_send c]
  simp only [sendL, List.map_cons, List.map_nil, List.sum_cons, List.sum_nil, owe31, owe32, owe33, owe34, owe35, owe36, owe37, owe38, owe39, owe40, owe41, owe42, owe43, owe44, owe45, owe46, owe47, owe48, owe49, owe50, owe51, owe52, owe53, owe54, owe55, owe56, owe57, owe58, owe59, owe60, owe61, owe62, owe63]
  abel

theorem owe31_pos {c : Dev nD} {g : GSem nD τ sig} {u : Unit} (h : 0 < owe31 c g u) : ∃ d : Dev nD, g = recvCell d c := by
  rw [owe31_eq, Finset.sum_apply, Finsupp.finset_sum_apply] at h
  by_contra hn
  have hz : ∀ d ∈ (Finset.univ : Finset (Dev nD)), (tallyAt (recvCell d c) () N : CellTallies nD τ sig Unit) g u = 0 := fun d _ => by
    rw [tallyAt_apply, if_neg (fun h' => hn ⟨d, h'.1⟩)]
  rw [Finset.sum_eq_zero hz] at h
  exact Nat.lt_irrefl 0 h

/-- At its barrier wait a device owes tile credits only, on receive cells: above its barrier cell. -/
theorem mayWait_bar (c : Dev nD) : (levAts L lv : sProp 𝕄) ⊢ MayWait (c : Thread nD τ) (.reg barS) () (owe31 c) :=
  MayOwe.of_cut (L := L) (lev := lv) 1 (fun p hp => by rw [Finset.mem_singleton.mp hp, L_tc]; exact Finset.mem_singleton_self _)
    (fun g u hg => by obtain ⟨d, rfl⟩ := owe31_pos hg; rw [L_tc]; exact Finset.mem_singleton_self _)
    (fun p hp => by rw [Finset.mem_singleton.mp hp]; show (if barS = barS then 1 else 0) ≤ 1; rw [if_pos rfl])
    (fun g u hg => by
      obtain ⟨d, rfl⟩ := owe31_pos hg
      show 1 < (if 35 ≤ 35 + c.val then 2 else 0)
      rw [if_pos (by omega)]; decide)

/-- A barrier payload gives slot `c` of the signalling device's receive scratch, at some contents. -/
theorem barPay_drop (c p : Dev nD) :
    barPay (F := F) c p
      ⊢ iprop(∃ f : Buf (Elt F) ((p : Thread nD τ).loc cc0_scratch1), ((p : Thread nD τ).loc cc0_scratch1) ↦[(slotRect c).set]{fullShare} f) := by
  unfold barPay
  iintro ⟨⟨%f, H⟩, -⟩
  iexists f
  rw [← rcvSlot_eq]
  iexact H
theorem barPay_others (c : Dev nD) :
    bigSep (Finset.univ.erase c) (fun p => barPay (F := F) c p)
      ⊢ bigSep (Finset.univ.erase c) (fun d : Dev nD =>
          iprop(∃ f : Buf (Elt F) ((d : Thread nD τ).loc cc0_scratch1), ((d : Thread nD τ).loc cc0_scratch1) ↦[(slotRect c).set]{fullShare} f)) :=
  bigSep_mono fun p _ => barPay_drop c p
/-- The device's own receive slot and the 31 the barrier wait brings: slot `c` of every device's receive scratch. -/
theorem barPay_all (c : Dev nD) (fr : Buf (Elt F) ((c : Thread nD τ).loc cc0_scratch1)) :
    iprop((((c : Thread nD τ).loc cc0_scratch1) ↦[(slotRect c).set]{fullShare} fr) ∗ bigSep (Finset.univ.erase c) (fun p => barPay (F := F) c p))
      ⊢ bigSep Finset.univ (fun d : Dev nD =>
          iprop(∃ f : Buf (Elt F) ((d : Thread nD τ).loc cc0_scratch1), ((d : Thread nD τ).loc cc0_scratch1) ↦[(slotRect c).set]{fullShare} f)) := by
  rw [split_own c]
  iintro ⟨H, Hp⟩
  isplitl [H]
  · iexists fr; iexact H
  · iapply (barPay_others (F := F) c); iexact Hp

/-! ## A group's slots -/

theorem grp0_set : ∀ c : Dev nD, ([0, 1, 2, 3, 4, 5, 6, 7] : List (Dev nD)).toFinset = [dest c 0 0, dest c 0 1, dest c 0 2, dest c 0 3, dest c 0 4, dest c 0 5, dest c 0 6, dest c 0 7].toFinset := by decide +kernel
theorem grp0_nodup : ∀ c : Dev nD, ([dest c 0 0, dest c 0 1, dest c 0 2, dest c 0 3, dest c 0 4, dest c 0 5, dest c 0 6, dest c 0 7] : List (Dev nD)).Nodup := by decide +kernel
/-- Group 0's eight slots, by number or in the order `c` sends them: the same eight. -/
theorem grp0_rot (c : Dev nD) (Φ : Dev nD → sProp 𝕄) :
    iprop(Φ 0 ∗ Φ 1 ∗ Φ 2 ∗ Φ 3 ∗ Φ 4 ∗ Φ 5 ∗ Φ 6 ∗ Φ 7) = iprop(Φ (dest c 0 0) ∗ Φ (dest c 0 1) ∗ Φ (dest c 0 2) ∗ Φ (dest c 0 3) ∗ Φ (dest c 0 4) ∗ Φ (dest c 0 5) ∗ Φ (dest c 0 6) ∗ Φ (dest c 0 7)) :=
  (bigSep_eq_bigSepL_of_eq [0, 1, 2, 3, 4, 5, 6, 7] rfl (by decide) Φ).symm.trans (bigSep_eq_bigSepL_of_eq [dest c 0 0, dest c 0 1, dest c 0 2, dest c 0 3, dest c 0 4, dest c 0 5, dest c 0 6, dest c 0 7] (grp0_set c) (grp0_nodup c) Φ)

theorem grp1_set : ∀ c : Dev nD, ([8, 9, 10, 11, 12, 13, 14, 15] : List (Dev nD)).toFinset = [dest c 1 0, dest c 1 1, dest c 1 2, dest c 1 3, dest c 1 4, dest c 1 5, dest c 1 6, dest c 1 7].toFinset := by decide +kernel
theorem grp1_nodup : ∀ c : Dev nD, ([dest c 1 0, dest c 1 1, dest c 1 2, dest c 1 3, dest c 1 4, dest c 1 5, dest c 1 6, dest c 1 7] : List (Dev nD)).Nodup := by decide +kernel
/-- Group 1's eight slots, by number or in the order `c` sends them: the same eight. -/
theorem grp1_rot (c : Dev nD) (Φ : Dev nD → sProp 𝕄) :
    iprop(Φ 8 ∗ Φ 9 ∗ Φ 10 ∗ Φ 11 ∗ Φ 12 ∗ Φ 13 ∗ Φ 14 ∗ Φ 15) = iprop(Φ (dest c 1 0) ∗ Φ (dest c 1 1) ∗ Φ (dest c 1 2) ∗ Φ (dest c 1 3) ∗ Φ (dest c 1 4) ∗ Φ (dest c 1 5) ∗ Φ (dest c 1 6) ∗ Φ (dest c 1 7)) :=
  (bigSep_eq_bigSepL_of_eq [8, 9, 10, 11, 12, 13, 14, 15] rfl (by decide) Φ).symm.trans (bigSep_eq_bigSepL_of_eq [dest c 1 0, dest c 1 1, dest c 1 2, dest c 1 3, dest c 1 4, dest c 1 5, dest c 1 6, dest c 1 7] (grp1_set c) (grp1_nodup c) Φ)

theorem grp2_set : ∀ c : Dev nD, ([16, 17, 18, 19, 20, 21, 22, 23] : List (Dev nD)).toFinset = [dest c 2 0, dest c 2 1, dest c 2 2, dest c 2 3, dest c 2 4, dest c 2 5, dest c 2 6, dest c 2 7].toFinset := by decide +kernel
theorem grp2_nodup : ∀ c : Dev nD, ([dest c 2 0, dest c 2 1, dest c 2 2, dest c 2 3, dest c 2 4, dest c 2 5, dest c 2 6, dest c 2 7] : List (Dev nD)).Nodup := by decide +kernel
/-- Group 2's eight slots, by number or in the order `c` sends them: the same eight. -/
theorem grp2_rot (c : Dev nD) (Φ : Dev nD → sProp 𝕄) :
    iprop(Φ 16 ∗ Φ 17 ∗ Φ 18 ∗ Φ 19 ∗ Φ 20 ∗ Φ 21 ∗ Φ 22 ∗ Φ 23) = iprop(Φ (dest c 2 0) ∗ Φ (dest c 2 1) ∗ Φ (dest c 2 2) ∗ Φ (dest c 2 3) ∗ Φ (dest c 2 4) ∗ Φ (dest c 2 5) ∗ Φ (dest c 2 6) ∗ Φ (dest c 2 7)) :=
  (bigSep_eq_bigSepL_of_eq [16, 17, 18, 19, 20, 21, 22, 23] rfl (by decide) Φ).symm.trans (bigSep_eq_bigSepL_of_eq [dest c 2 0, dest c 2 1, dest c 2 2, dest c 2 3, dest c 2 4, dest c 2 5, dest c 2 6, dest c 2 7] (grp2_set c) (grp2_nodup c) Φ)

theorem grp3_set : ∀ c : Dev nD, ([24, 25, 26, 27, 28, 29, 30, 31] : List (Dev nD)).toFinset = [dest c 3 0, dest c 3 1, dest c 3 2, dest c 3 3, dest c 3 4, dest c 3 5, dest c 3 6, dest c 3 7].toFinset := by decide +kernel
theorem grp3_nodup : ∀ c : Dev nD, ([dest c 3 0, dest c 3 1, dest c 3 2, dest c 3 3, dest c 3 4, dest c 3 5, dest c 3 6, dest c 3 7] : List (Dev nD)).Nodup := by decide +kernel
/-- Group 3's eight slots, by number or in the order `c` sends them: the same eight. -/
theorem grp3_rot (c : Dev nD) (Φ : Dev nD → sProp 𝕄) :
    iprop(Φ 24 ∗ Φ 25 ∗ Φ 26 ∗ Φ 27 ∗ Φ 28 ∗ Φ 29 ∗ Φ 30 ∗ Φ 31) = iprop(Φ (dest c 3 0) ∗ Φ (dest c 3 1) ∗ Φ (dest c 3 2) ∗ Φ (dest c 3 3) ∗ Φ (dest c 3 4) ∗ Φ (dest c 3 5) ∗ Φ (dest c 3 6) ∗ Φ (dest c 3 7)) :=
  (bigSep_eq_bigSepL_of_eq [24, 25, 26, 27, 28, 29, 30, 31] rfl (by decide) Φ).symm.trans (bigSep_eq_bigSepL_of_eq [dest c 3 0, dest c 3 1, dest c 3 2, dest c 3 3, dest c 3 4, dest c 3 5, dest c 3 6, dest c 3 7] (grp3_set c) (grp3_nodup c) Φ)

/-! ## The copy, its printed operands given by their equations -/

theorem step_send' (K : Dev nD × CellIx → ℕ) (c d dev : Dev nD) (hdev : dev = d)
    (src dst : Memref sig .tc .vmem S8x128 .f32) (hsrcM : src = slotM stgM d) (hdstM : dst = slotM rcvM c)
    (qs qr : DmaSem sig) (hqs : qs = sendQ d) (hqr : qr = recvQ c)
    (O' O : CellTallies nD τ sig Unit) (hO : O' = O + tallyAt (recvCell d c) () N) (W : Waits sig Unit)
    (fsrc : Buf (Elt F) ((c : Thread nD τ).loc cc0_scratch0)) (hv : ∀ j ∈ (slotRect d).set, fsrc j = Sfin m c j)
    (fd : Buf (Elt F) ((d : Thread nD τ).loc cc0_scratch1))
    {hsc : (dst : Memref sig (Dev.tc dev : Thread nD τ).2.kind .vmem S8x128 .f32).view.ref.isScScratch = false}
    {hsrc : src.view.WordExact} {hdst : dst.view.WordExact}
    {hsem : DmaTarget.Typed .vmem (.dma qr) (.remote (Dev.tc dev : Thread nD τ) dst (.dma qs) hsc)}
    {α : Type} {Q : α → sProp 𝕄} {k : PUnit → Prog (TpuEff nD τ sig (Elt F) Λ₀ .tc) α} :
    iprop(records m K ∗ (((c : Thread nD τ).loc cc0_scratch0) ↦[(slotRect d).set]{fullShare} fsrc)
        ∗ (((d : Thread nD τ).loc cc0_scratch1) ↦[(slotRect c).set]{fullShare} fd)
        ∗ owes (c : Thread nD τ) O' W ∗ dutyTok ER (sendCell c d) 0 c ∗ dutyTok ER (recvCell d c) 0 c)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dev : Thread nD τ) dst (.dma qs) hsc) (.dma qr) hsrc hdst hsem) k) Q) := by
  subst hdev hsrcM hdstM hqs hqr hO
  have hs : ((((c : Thread nD τ).loc cc0_scratch0) ↦[(slotRect dev).set]{fullShare} fsrc) : sProp 𝕄) = stgSlot c dev (Sfin m c) := by
    rw [stgSlot_eq]; exact BI.Region.is_congr hv
  rw [hs, ← rcvSlot_eq]
  exact step_send m K c dev dev rfl O W fd

end Cert.KernelIdeal.Exchange

end
-- ==== Proof.BodyPost.lean ====
import proofs.«900436_g7700000000000437_dist_gemm_a2a_m1024_k1024_n1024_f32_relu_v7x_i32_1_alg».proof.Proof.BodyRules

/-!
# What one device's body is run from and to

From: the ghost state at names `K`, the credit its waits consume, the level facts, the two scratch buffers whole at any
contents, what it owes at launch, and the three staged windows (`x` and `w` as fetched, the result tile at any contents).
To: the two scratch buffers whole at their final contents, its 64 own DMA cells closed at zero, nothing owed, `x` and `w`
as they were, and the result tile laid out from the received slots.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

abbrev xM : Memref sig .tc .vmem S32x1024 .f32 := Memref.whole cc0_stg0_0
abbrev wM : Memref sig .tc .vmem S1024x1024 .f32 := Memref.whole cc0_stg1_0
abbrev oM : Memref sig .tc .vmem S1024x32 .f32 := Memref.whole cc0_stg2_0

def bodyPre (K : Dev nD × CellIx → ℕ) (c : Dev nD) (W : Waits sig Unit)
    (fs : Buf (Elt F) ((c : Thread nD τ).loc cc0_scratch0)) (fr : Buf (Elt F) ((c : Thread nD τ).loc cc0_scratch1))
    (fo : Buf (Elt F) (oM.view.loc (c : Thread nD τ))) : sProp 𝕄 :=
  iprop(records m K ∗ linear (F := F) c ∗ cred (tallyAt (barCell c) () 31)
    ∗ (bigSep Finset.univ fun s : Dev nD => cred (tallyAt (recvCell c s) () N)) ∗ levAts L lv
    ∗ (((c : Thread nD τ).loc cc0_scratch0) ↦{fullShare} fs)
    ∗ (((c : Thread nD τ).loc cc0_scratch1) ↦{fullShare} fr)
    ∗ owes (c : Thread nD τ) (O₀ c) W
    ∗ (xM.view.loc (c : Thread nD τ) ↦[xM.view.set]{fullShare} xstg m c)
    ∗ (wM.view.loc (c : Thread nD τ) ↦[wM.view.set]{fullShare} wstg m c)
    ∗ (oM.view.loc (c : Thread nD τ) ↦[oM.view.set]{fullShare} fo))

def bodyPost (c : Dev nD) : sProp 𝕄 :=
  iprop(Φ₁ m c ∗ (∃ W' : Waits sig Unit, owes (c : Thread nD τ) 0 W')
    ∗ (xM.view.loc (c : Thread nD τ) ↦[xM.view.set]{fullShare} xstg m c)
    ∗ (wM.view.loc (c : Thread nD τ) ↦[wM.view.set]{fullShare} wstg m c)
    ∗ (oM.view.loc (c : Thread nD τ) ↦[oM.view.set]{fullShare} outFin m c))

/-- The run of one device's body. -/
def BodyRun : Prop :=
  ∀ (K : Dev nD × CellIx → ℕ) (c : Dev nD) (W : Waits sig Unit)
    (fs : Buf (Elt F) ((c : Thread nD τ).loc cc0_scratch0)) (fr : Buf (Elt F) ((c : Thread nD τ).loc cc0_scratch1))
    (fo : Buf (Elt F) (oM.view.loc (c : Thread nD τ))),
    bodyPre m K c W fs fr fo
      ⊢ wp frame (wpE (defs₀ (F := F)) 𝒱₀ (c : Thread nD τ) none) Set.univ
          (cc0_body xM (Memref.isWhole_whole _) wM (Memref.isWhole_whole _) oM (Memref.isWhole_whole _)
            stgM (Memref.isWhole_whole _) rcvM (Memref.isWhole_whole _) cc0_scratch2 cc0_scratch3) (fun _ => bodyPost m c)

end Cert.KernelIdeal.Exchange

end
-- ==== Proof.StageValue.lean ====
import proofs.«900436_g7700000000000437_dist_gemm_a2a_m1024_k1024_n1024_f32_relu_v7x_i32_1_alg».proof.Proof.Gen.KernelIdeal
import proofs.«900436_g7700000000000437_dist_gemm_a2a_m1024_k1024_n1024_f32_relu_v7x_i32_1_alg».proof.Proof.Gen.KernelIdeal.Skeleton
import Idealize.ShloMosaic.Lib.Pipeline.Value
import Idealize.ShloMosaic.Lib.ValueIdx
import Idealize.ShloMosaic.Lib.ValueLayout

/-!
# The staged tiles and the result tiles, index by index

Each column group `Y` (32 rows, 256 columns) is staged as eight 8 × 128 tiles. Tile `i` takes the 32 columns
`32 i … 32 i + 31` of `Y`, cuts them in four bands of 8 rows and lays the bands side by side along the columns, so
entry `(r, l)` of the tile is `Y (8 (l / 32) + r, 32 i + l % 32)`. Only layout operations are involved: a slice, a
concatenation and a shape cast each read one entry of their operand.
-/

noncomputable section

namespace Cert.KernelIdeal.StageValue

open Cert.KernelIdeal Cert.KernelIdeal.Gen Idealize.ShloMosaic Idealize.ShloMosaic.TcCoe

variable {F : FTy → Type} [FloatOps F]

section Bands
variable {α : Type}

/-! Four 8 × 32 pieces side by side: column `l` of the 8 × 128 result lies in piece `l / 32`, at column `l % 32`. -/

theorem concat4_apply_0 (p0 p1 p2 p3 : S8x32.Idx → α) (r : Fin 8) (l : Fin 128) (hl : l.val / 32 = 0) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p0 (ValueIdx.ix2 r ⟨l.val % 32, Nat.mod_lt _ (by decide)⟩) := by
  refine concatenate_apply_piece (t := S8x128) 1 _ _ (ValueIdx.ix2 r l) 0 (by simp) S8x32 p0 rfl rfl 0 rfl
    (ValueIdx.ix2 r ⟨l.val % 32, Nat.mod_lt _ (by decide)⟩) ?_ ?_
  · intro b hb
    match b with
    | ⟨0, _⟩ => rfl
    | ⟨1, _⟩ => exact absurd rfl hb
  · show 0 + l.val % 32 = l.val
    omega

theorem concat4_apply_1 (p0 p1 p2 p3 : S8x32.Idx → α) (r : Fin 8) (l : Fin 128) (hl : l.val / 32 = 1) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p1 (ValueIdx.ix2 r ⟨l.val % 32, Nat.mod_lt _ (by decide)⟩) := by
  refine concatenate_apply_piece (t := S8x128) 1 _ _ (ValueIdx.ix2 r l) 1 (by simp) S8x32 p1 rfl rfl 32 rfl
    (ValueIdx.ix2 r ⟨l.val % 32, Nat.mod_lt _ (by decide)⟩) ?_ ?_
  · intro b hb
    match b with
    | ⟨0, _⟩ => rfl
    | ⟨1, _⟩ => exact absurd rfl hb
  · show 32 + l.val % 32 = l.val
    omega

theorem concat4_apply_2 (p0 p1 p2 p3 : S8x32.Idx → α) (r : Fin 8) (l : Fin 128) (hl : l.val / 32 = 2) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p2 (ValueIdx.ix2 r ⟨l.val % 32, Nat.mod_lt _ (by decide)⟩) := by
  refine concatenate_apply_piece (t := S8x128) 1 _ _ (ValueIdx.ix2 r l) 2 (by simp) S8x32 p2 rfl rfl 64 rfl
    (ValueIdx.ix2 r ⟨l.val % 32, Nat.mod_lt _ (by decide)⟩) ?_ ?_
  · intro b hb
    match b with
    | ⟨0, _⟩ => rfl
    | ⟨1, _⟩ => exact absurd rfl hb
  · show 64 + l.val % 32 = l.val
    omega

theorem concat4_apply_3 (p0 p1 p2 p3 : S8x32.Idx → α) (r : Fin 8) (l : Fin 128) (hl : l.val / 32 = 3) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p3 (ValueIdx.ix2 r ⟨l.val % 32, Nat.mod_lt _ (by decide)⟩) := by
  refine concatenate_apply_piece (t := S8x128) 1 _ _ (ValueIdx.ix2 r l) 3 (by simp) S8x32 p3 rfl rfl 96 rfl
    (ValueIdx.ix2 r ⟨l.val % 32, Nat.mod_lt _ (by decide)⟩) ?_ ?_
  · intro b hb
    match b with
    | ⟨0, _⟩ => rfl
    | ⟨1, _⟩ => exact absurd rfl hb
  · show 96 + l.val % 32 = l.val
    omega

end Bands

section Tile
variable {α : Type}

/-- A band of eight rows of a 32 × 32 block, read at an entry. -/
theorem band_apply (B : S32x32.Idx → α) (o : Nat) (ho : o + 8 ≤ 32) (hs : S32x32.Slices ![o, 0] S8x32) (r : Fin 8) (c : Fin 32) :
    extractStridedSlice S8x32 ![o, 0] B hs (ValueIdx.ix2 r c) = B (ValueIdx.ix2 ⟨o + r.val, by have := r.isLt; omega⟩ c) := by
  refine extractStridedSlice_apply _ _ _ _ _ fun a => ?_
  match a with
  | ⟨0, _⟩ => rfl
  | ⟨1, _⟩ => show c.val = 0 + c.val; omega

/-- A block of 32 columns of a column group, read at an entry. -/
theorem block_apply (Y : S32x256.Idx → α) (c : Nat) (hc : c + 32 ≤ 256) (hs : S32x256.Slices ![0, c] S32x32) (a : Fin 32) (b : Fin 32) :
    extractStridedSlice S32x32 ![0, c] Y hs (ValueIdx.ix2 a b) = Y (ValueIdx.ix2 a ⟨c + b.val, by have := b.isLt; omega⟩) := by
  refine extractStridedSlice_apply _ _ _ _ _ fun d => ?_
  match d with
  | ⟨0, _⟩ => show a.val = 0 + a.val; omega
  | ⟨1, _⟩ => rfl

/-- The staged tile of the 32 columns from `c` of a column group `Y`: its four bands of eight rows laid side by side,
    with a leading unit axis. Entry `(0, r, l)` is `Y (8 (l / 32) + r, c + l % 32)`. -/
theorem tile_apply (Y : S32x256.Idx → α) (c : Nat) (hc : c + 32 ≤ 256) (hs : S32x256.Slices ![0, c] S32x32) (r : Fin 8) (l : Fin 128) :
    shapeCast S1x8x128
        (concatenate S8x128 1
          [⟨S8x32, extractStridedSlice S8x32 ![0, 0] (extractStridedSlice S32x32 ![0, c] Y hs) slices_S32x32_o0_0_S8x32⟩,
           ⟨S8x32, extractStridedSlice S8x32 ![8, 0] (extractStridedSlice S32x32 ![0, c] Y hs) slices_S32x32_o8_0_S8x32⟩,
           ⟨S8x32, extractStridedSlice S8x32 ![16, 0] (extractStridedSlice S32x32 ![0, c] Y hs) slices_S32x32_o16_0_S8x32⟩,
           ⟨S8x32, extractStridedSlice S8x32 ![24, 0] (extractStridedSlice S32x32 ![0, c] Y hs) slices_S32x32_o24_0_S8x32⟩]
          concatenates_S8x32_S8x32_S8x32_S8x32_S8x128_d1)
        shapeCasts_S8x128_S1x8x128 (ValueIdx.ix3 (n0 := 1) (n1 := 8) (n2 := 128) ⟨0, Nat.one_pos⟩ r l)
      = Y (ValueIdx.ix2 (n0 := 32) (n1 := 256) ⟨8 * (l.val / 32) + r.val, by have := r.isLt; have := l.isLt; omega⟩
            ⟨c + l.val % 32, by omega⟩) := by
  refine (shapeCast_addUnit_apply (n := 2) ![8, 128] _ _ _).trans ?_
  have e : (fun a : Fin 2 => ValueIdx.ix3 (n0 := 1) (n1 := 8) (n2 := 128) ⟨0, Nat.one_pos⟩ r l a.succ) = ValueIdx.ix2 r l := by
    funext a
    match a with
    | ⟨0, _⟩ => rfl
    | ⟨1, _⟩ => rfl
  refine (congrArg _ e).trans ?_
  have h4 : l.val / 32 = 0 ∨ l.val / 32 = 1 ∨ l.val / 32 = 2 ∨ l.val / 32 = 3 := by have := l.isLt; omega
  rcases h4 with h | h | h | h
  · refine (concat4_apply_0 _ _ _ _ r l h).trans ?_
    refine (band_apply _ 0 (by omega) _ r _).trans ?_
    refine (block_apply Y c hc hs _ _).trans ?_
    refine congrArg Y (funext fun a => ?_)
    match a with
    | ⟨0, _⟩ => exact Fin.ext (by show 0 + r.val = 8 * (l.val / 32) + r.val; omega)
    | ⟨1, _⟩ => rfl
  · refine (concat4_apply_1 _ _ _ _ r l h).trans ?_
    refine (band_apply _ 8 (by omega) _ r _).trans ?_
    refine (block_apply Y c hc hs _ _).trans ?_
    refine congrArg Y (funext fun a => ?_)
    match a with
    | ⟨0, _⟩ => exact Fin.ext (by show 8 + r.val = 8 * (l.val / 32) + r.val; omega)
    | ⟨1, _⟩ => rfl
  · refine (concat4_apply_2 _ _ _ _ r l h).trans ?_
    refine (band_apply _ 16 (by omega) _ r _).trans ?_
    refine (block_apply Y c hc hs _ _).trans ?_
    refine congrArg Y (funext fun a => ?_)
    match a with
    | ⟨0, _⟩ => exact Fin.ext (by show 16 + r.val = 8 * (l.val / 32) + r.val; omega)
    | ⟨1, _⟩ => rfl
  · refine (concat4_apply_3 _ _ _ _ r l h).trans ?_
    refine (band_apply _ 24 (by omega) _ r _).trans ?_
    refine (block_apply Y c hc hs _ _).trans ?_
    refine congrArg Y (funext fun a => ?_)
    match a with
    | ⟨0, _⟩ => exact Fin.ext (by show 24 + r.val = 8 * (l.val / 32) + r.val; omega)
    | ⟨1, _⟩ => rfl

end Tile

/-! The four column groups are one function of the tile of `x` and the slab of `W`. -/

theorem pay14_eq (x : Vec F S32x1024 .f32) (w : Vec F S1024x256 .f32) : k0_pay14 x w = k0_pay1 x w := rfl
theorem pay24_eq (x : Vec F S32x1024 .f32) (w : Vec F S1024x256 .f32) : k0_pay24 x w = k0_pay1 x w := rfl
theorem pay34_eq (x : Vec F S32x1024 .f32) (w : Vec F S1024x256 .f32) : k0_pay34 x w = k0_pay1 x w := rfl
theorem pay14_eq_fun : k0_pay14 (F := F) = k0_pay1 := rfl
theorem pay24_eq_fun : k0_pay24 (F := F) = k0_pay1 := rfl
theorem pay34_eq_fun : k0_pay34 (F := F) = k0_pay1 := rfl

/-! ## The 32 staged tiles

Slot `d = 8 g + i` holds tile `i` of column group `g`: entry `(0, r, l)` is entry `(8 (l / 32) + r, 32 i + l % 32)` of
the group. -/

theorem stage_pay_0 (x : Vec F S32x1024 .f32) (w : Vec F S1024x256 .f32) (r : Fin 8) (l : Fin 128) :
    (k0_pay2 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  unfold k0_pay2
  exact tile_apply (k0_pay1 x w) 0 (by omega) slices_S32x256_o0_0_S32x32 r l

theorem stage_pay_1 (x : Vec F S32x1024 .f32) (w : Vec F S1024x256 .f32) (r : Fin 8) (l : Fin 128) :
    (k0_pay3 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  unfold k0_pay3
  exact tile_apply (k0_pay1 x w) 32 (by omega) slices_S32x256_o0_32_S32x32 r l

theorem stage_pay_2 (x : Vec F S32x1024 .f32) (w : Vec F S1024x256 .f32) (r : Fin 8) (l : Fin 128) :
    (k0_pay8 (k0_pay4 x w) (k0_pay5 x w) (k0_pay6 x w) (k0_pay7 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  unfold k0_pay8 k0_pay5 k0_pay6 k0_pay7 k0_pay4
  exact tile_apply (k0_pay1 x w) 64 (by omega) slices_S32x256_o0_64_S32x32 r l

theorem stage_pay_3 (x : Vec F S32x1024 .f32) (w : Vec F S1024x256 .f32) (r : Fin 8) (l : Fin 128) :
    (k0_pay9 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  unfold k0_pay9
  exact tile_apply (k0_pay1 x w) 96 (by omega) slices_S32x256_o0_96_S32x32 r l

theorem stage_pay_4 (x : Vec F S32x1024 .f32) (w : Vec F S1024x256 .f32) (r : Fin 8) (l : Fin 128) :
    (k0_pay10 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  unfold k0_pay10
  exact tile_apply (k0_pay1 x w) 128 (by omega) slices_S32x256_o0_128_S32x32 r l

theorem stage_pay_5 (x : Vec F S32x1024 .f32) (w : Vec F S1024x256 .f32) (r : Fin 8) (l : Fin 128) :
    (k0_pay11 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  unfold k0_pay11
  exact tile_apply (k0_pay1 x w) 160 (by omega) slices_S32x256_o0_160_S32x32 r l

theorem stage_pay_6 (x : Vec F S32x1024 .f32) (w : Vec F S1024x256 .f32) (r : Fin 8) (l : Fin 128) :
    (k0_pay12 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  unfold k0_pay12
  exact tile_apply (k0_pay1 x w) 192 (by omega) slices_S32x256_o0_192_S32x32 r l

theorem stage_pay_7 (x : Vec F S32x1024 .f32) (w : Vec F S1024x256 .f32) (r : Fin 8) (l : Fin 128) :
    (k0_pay13 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  unfold k0_pay13
  exact tile_apply (k0_pay1 x w) 224 (by omega) slices_S32x256_o0_224_S32x32 r l

theorem stage_pay_8 (x : Vec F S32x1024 .f32) (w : Vec F S1024x256 .f32) (r : Fin 8) (l : Fin 128) :
    (k0_pay15 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay14_eq x w) _)
  unfold k0_pay15
  exact tile_apply (k0_pay14 x w) 0 (by omega) slices_S32x256_o0_0_S32x32 r l

theorem stage_pay_9 (x : Vec F S32x1024 .f32) (w : Vec F S1024x256 .f32) (r : Fin 8) (l : Fin 128) :
    (k0_pay16 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay14_eq x w) _)
  unfold k0_pay16
  exact tile_apply (k0_pay14 x w) 32 (by omega) slices_S32x256_o0_32_S32x32 r l

theorem stage_pay_10 (x : Vec F S32x1024 .f32) (w : Vec F S1024x256 .f32) (r : Fin 8) (l : Fin 128) :
    (k0_pay17 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay14_eq x w) _)
  unfold k0_pay17
  exact tile_apply (k0_pay14 x w) 64 (by omega) slices_S32x256_o0_64_S32x32 r l

theorem stage_pay_11 (x : Vec F S32x1024 .f32) (w : Vec F S1024x256 .f32) (r : Fin 8) (l : Fin 128) :
    (k0_pay18 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay14_eq x w) _)
  unfold k0_pay18
  exact tile_apply (k0_pay14 x w) 96 (by omega) slices_S32x256_o0_96_S32x32 r l

theorem stage_pay_12 (x : Vec F S32x1024 .f32) (w : Vec F S1024x256 .f32) (r : Fin 8) (l : Fin 128) :
    (k0_pay19 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay14_eq x w) _)
  unfold k0_pay19
  exact tile_apply (k0_pay14 x w) 128 (by omega) slices_S32x256_o0_128_S32x32 r l

theorem stage_pay_13 (x : Vec F S32x1024 .f32) (w : Vec F S1024x256 .f32) (r : Fin 8) (l : Fin 128) :
    (k0_pay20 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay14_eq x w) _)
  unfold k0_pay20
  exact tile_apply (k0_pay14 x w) 160 (by omega) slices_S32x256_o0_160_S32x32 r l

theorem stage_pay_14 (x : Vec F S32x1024 .f32) (w : Vec F S1024x256 .f32) (r : Fin 8) (l : Fin 128) :
    (k0_pay22 (k0_pay21 (k0_pay14 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay14_eq x w) _)
  unfold k0_pay22 k0_pay21
  exact tile_apply (k0_pay14 x w) 192 (by omega) slices_S32x256_o0_192_S32x32 r l

theorem stage_pay_15 (x : Vec F S32x1024 .f32) (w : Vec F S1024x256 .f32) (r : Fin 8) (l : Fin 128) :
    (k0_pay23 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay14_eq x w) _)
  unfold k0_pay23
  exact tile_apply (k0_pay14 x w) 224 (by omega) slices_S32x256_o0_224_S32x32 r l

theorem stage_pay_16 (x : Vec F S32x1024 .f32) (w : Vec F S1024x256 .f32) (r : Fin 8) (l : Fin 128) :
    (k0_pay25 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay24_eq x w) _)
  unfold k0_pay25
  exact tile_apply (k0_pay24 x w) 0 (by omega) slices_S32x256_o0_0_S32x32 r l

theorem stage_pay_17 (x : Vec F S32x1024 .f32) (w : Vec F S1024x256 .f32) (r : Fin 8) (l : Fin 128) :
    (k0_pay26 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay24_eq x w) _)
  unfold k0_pay26
  exact tile_apply (k0_pay24 x w) 32 (by omega) slices_S32x256_o0_32_S32x32 r l

theorem stage_pay_18 (x : Vec F S32x1024 .f32) (w : Vec F S1024x256 .f32) (r : Fin 8) (l : Fin 128) :
    (k0_pay27 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay24_eq x w) _)
  unfold k0_pay27
  exact tile_apply (k0_pay24 x w) 64 (by omega) slices_S32x256_o0_64_S32x32 r l

theorem stage_pay_19 (x : Vec F S32x1024 .f32) (w : Vec F S1024x256 .f32) (r : Fin 8) (l : Fin 128) :
    (k0_pay28 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay24_eq x w) _)
  unfold k0_pay28
  exact tile_apply (k0_pay24 x w) 96 (by omega) slices_S32x256_o0_96_S32x32 r l

theorem stage_pay_20 (x : Vec F S32x1024 .f32) (w : Vec F S1024x256 .f32) (r : Fin 8) (l : Fin 128) :
    (k0_pay29 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay24_eq x w) _)
  unfold k0_pay29
  exact tile_apply (k0_pay24 x w) 128 (by omega) slices_S32x256_o0_128_S32x32 r l

theorem stage_pay_21 (x : Vec F S32x1024 .f32) (w : Vec F S1024x256 .f32) (r : Fin 8) (l : Fin 128) :
    (k0_pay30 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay24_eq x w) _)
  unfold k0_pay30
  exact tile_apply (k0_pay24 x w) 160 (by omega) slices_S32x256_o0_160_S32x32 r l

theorem stage_pay_22 (x : Vec F S32x1024 .f32) (w : Vec F S1024x256 .f32) (r : Fin 8) (l : Fin 128) :
    (k0_pay32 (k0_pay31 (k0_pay24 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay24_eq x w) _)
  unfold k0_pay32 k0_pay31
  exact tile_apply (k0_pay24 x w) 192 (by omega) slices_S32x256_o0_192_S32x32 r l

theorem stage_pay_23 (x : Vec F S32x1024 .f32) (w : Vec F S1024x256 .f32) (r : Fin 8) (l : Fin 128) :
    (k0_pay33 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay24_eq x w) _)
  unfold k0_pay33
  exact tile_apply (k0_pay24 x w) 224 (by omega) slices_S32x256_o0_224_S32x32 r l

theorem stage_pay_24 (x : Vec F S32x1024 .f32) (w : Vec F S1024x256 .f32) (r : Fin 8) (l : Fin 128) :
    (k0_pay35 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay34_eq x w) _)
  unfold k0_pay35
  exact tile_apply (k0_pay34 x w) 0 (by omega) slices_S32x256_o0_0_S32x32 r l

theorem stage_pay_25 (x : Vec F S32x1024 .f32) (w : Vec F S1024x256 .f32) (r : Fin 8) (l : Fin 128) :
    (k0_pay37 (k0_pay36 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay34_eq x w) _)
  unfold k0_pay37 k0_pay36
  exact tile_apply (k0_pay34 x w) 32 (by omega) slices_S32x256_o0_32_S32x32 r l

theorem stage_pay_26 (x : Vec F S32x1024 .f32) (w : Vec F S1024x256 .f32) (r : Fin 8) (l : Fin 128) :
    (k0_pay38 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay34_eq x w) _)
  unfold k0_pay38
  exact tile_apply (k0_pay34 x w) 64 (by omega) slices_S32x256_o0_64_S32x32 r l

theorem stage_pay_27 (x : Vec F S32x1024 .f32) (w : Vec F S1024x256 .f32) (r : Fin 8) (l : Fin 128) :
    (k0_pay39 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay34_eq x w) _)
  unfold k0_pay39
  exact tile_apply (k0_pay34 x w) 96 (by omega) slices_S32x256_o0_96_S32x32 r l

theorem stage_pay_28 (x : Vec F S32x1024 .f32) (w : Vec F S1024x256 .f32) (r : Fin 8) (l : Fin 128) :
    (k0_pay40 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay34_eq x w) _)
  unfold k0_pay40
  exact tile_apply (k0_pay34 x w) 128 (by omega) slices_S32x256_o0_128_S32x32 r l

theorem stage_pay_29 (x : Vec F S32x1024 .f32) (w : Vec F S1024x256 .f32) (r : Fin 8) (l : Fin 128) :
    (k0_pay41 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay34_eq x w) _)
  unfold k0_pay41
  exact tile_apply (k0_pay34 x w) 160 (by omega) slices_S32x256_o0_160_S32x32 r l

theorem stage_pay_30 (x : Vec F S32x1024 .f32) (w : Vec F S1024x256 .f32) (r : Fin 8) (l : Fin 128) :
    (k0_pay43 (k0_pay42 (k0_pay34 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay34_eq x w) _)
  unfold k0_pay43 k0_pay42
  exact tile_apply (k0_pay34 x w) 192 (by omega) slices_S32x256_o0_192_S32x32 r l

theorem stage_pay_31 (x : Vec F S32x1024 .f32) (w : Vec F S1024x256 .f32) (r : Fin 8) (l : Fin 128) :
    (k0_pay44 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay34_eq x w) _)
  unfold k0_pay44
  exact tile_apply (k0_pay34 x w) 224 (by omega) slices_S32x256_o0_224_S32x32 r l

/-! ## The 128 result tiles

Every result store takes its 8 × 32 tile from a received 1 × 8 × 32 block by dropping the unit axis: the 128 payloads
are one function, and entry `(r, j)` of the tile is entry `(0, r, j)` of the block. -/

theorem out_pay_eq_45 : k0_pay45 (F := F) = k0_pay45 := rfl
theorem out_pay_eq_46 : k0_pay46 (F := F) = k0_pay45 := rfl
theorem out_pay_eq_47 : k0_pay47 (F := F) = k0_pay45 := rfl
theorem out_pay_eq_48 : k0_pay48 (F := F) = k0_pay45 := rfl
theorem out_pay_eq_49 : k0_pay49 (F := F) = k0_pay45 := rfl
theorem out_pay_eq_50 : k0_pay50 (F := F) = k0_pay45 := rfl
theorem out_pay_eq_51 : k0_pay51 (F := F) = k0_pay45 := rfl
theorem out_pay_eq_52 : k0_pay52 (F := F) = k0_pay45 := rfl
theorem out_pay_eq_53 : k0_pay53 (F := F) = k0_pay45 := rfl
theorem out_pay_eq_54 : k0_pay54 (F := F) = k0_pay45 := rfl
theorem out_pay_eq_55 : k0_pay55 (F := F) = k0_pay45 := rfl
theorem out_pay_eq_56 : k0_pay56 (F := F) = k0_pay45 := rfl
theorem out_pay_eq_57 : k0_pay57 (F := F) = k0_pay45 := rfl
theorem out_pay_eq_58 : k0_pay58 (F := F) = k0_pay45 := rfl
theorem out_pay_eq_59 : k0_pay59 (F := F) = k0_pay45 := rfl
theorem out_pay_eq_60 : k0_pay60 (F := F) = k0_pay45 := rfl
theorem out_pay_eq_61 : k0_pay61 (F := F) = k0_pay45 := rfl
theorem out_pay_eq_62 : k0_pay62 (F := F) = k0_pay45 := rfl
theorem out_pay_eq_63 : k0_pay63 (F := F) = k0_pay45 := rfl
theorem out_pay_eq_64 : k0_pay64 (F := F) = k0_pay45 := rfl
theorem out_pay_eq_65 : k0_pay65 (F := F) = k0_pay45 := rfl
theorem out_pay_eq_66 : k0_pay66 (F := F) = k0_pay45 := rfl
theorem out_pay_eq_67 : k0_pay67 (F := F) = k0_pay45 := rfl
theorem out_pay_eq_68 : k0_pay68 (F := F) = k0_pay45 := rfl
theorem out_pay_eq_69 : k0_pay69 (F := F) = k0_pay45 := rfl
theorem out_pay_eq_70 : k0_pay70 (F := F) = k0_pay45 := rfl
theorem out_pay_eq_71 : k0_pay71 (F := F) = k0_pay45 := rfl
theorem out_pay_eq_72 : k0_pay72 (F := F) = k0_pay45 := rfl
theorem out_pay_eq_73 : k0_pay73 (F := F) = k0_pay45 := rfl
theorem out_pay_eq_74 : k0_pay74 (F := F) = k0_pay45 := rfl
theorem out_pay_eq_75 : k0_pay75 (F := F) = k0_pay45 := rfl
theorem out_pay_eq_76 : k0_pay76 (F := F) = k0_pay45 := rfl
theorem out_pay_eq_77 : k0_pay77 (F := F) = k0_pay45 := rfl
theorem out_pay_eq_78 : k0_pay78 (F := F) = k0_pay45 := rfl
theorem out_pay_eq_79 : k0_pay79 (F := F) = k0_pay45 := rfl
theorem out_pay_eq_80 : k0_pay80 (F := F) = k0_pay45 := rfl
theorem out_pay_eq_81 : k0_pay81 (F := F) = k0_pay45 := rfl
theorem out_pay_eq_82 : k0_pay82 (F := F) = k0_pay45 := rfl
theorem out_pay_eq_83 : k0_pay83 (F := F) = k0_pay45 := rfl
theorem out_pay_eq_84 : k0_pay84 (F := F) = k0_pay45 := rfl
theorem out_pay_eq_85 : k0_pay85 (F := F) = k0_pay45 := rfl
theorem out_pay_eq_86 : k0_pay86 (F := F) = k0_pay45 := rfl
theorem out_pay_eq_87 : k0_pay87 (F := F) = k0_pay45 := rfl
theorem out_pay_eq_88 : k0_pay88 (F := F) = k0_pay45 := rfl
theorem out_pay_eq_89 : k0_pay89 (F := F) = k0_pay45 := rfl
theorem out_pay_eq_90 : k0_pay90 (F := F) = k0_pay45 := rfl
theorem out_pay_eq_91 : k0_pay91 (F := F) = k0_pay45 := rfl
theorem out_pay_eq_92 : k0_pay92 (F := F) = k0_pay45 := rfl
theorem out_pay_eq_93 : k0_pay93 (F := F) = k0_pay45 := rfl
theorem out_pay_eq_94 : k0_pay94 (F := F) = k0_pay45 := rfl
theorem out_pay_eq_95 : k0_pay95 (F := F) = k0_pay45 := rfl
theorem out_pay_eq_96 : k0_pay96 (F := F) = k0_pay45 := rfl
theorem out_pay_eq_97 : k0_pay97 (F := F) = k0_pay45 := rfl
theorem out_pay_eq_98 : k0_pay98 (F := F) = k0_pay45 := rfl
theorem out_pay_eq_99 : k0_pay99 (F := F) = k0_pay45 := rfl
theorem out_pay_eq_100 : k0_pay100 (F := F) = k0_pay45 := rfl
theorem out_pay_eq_101 : k0_pay101 (F := F) = k0_pay45 := rfl
theorem out_pay_eq_102 : k0_pay102 (F := F) = k0_pay45 := rfl
theorem out_pay_eq_103 : k0_pay103 (F := F) = k0_pay45 := rfl
theorem out_pay_eq_104 : k0_pay104 (F := F) = k0_pay45 := rfl
theorem out_pay_eq_105 : k0_pay105 (F := F) = k0_pay45 := rfl
theorem out_pay_eq_106 : k0_pay106 (F := F) = k0_pay45 := rfl
theorem out_pay_eq_107 : k0_pay107 (F := F) = k0_pay45 := rfl
theorem out_pay_eq_108 : k0_pay108 (F := F) = k0_pay45 := rfl
theorem out_pay_eq_109 : k0_pay109 (F := F) = k0_pay45 := rfl
theorem out_pay_eq_110 : k0_pay110 (F := F) = k0_pay45 := rfl
theorem out_pay_eq_111 : k0_pay111 (F := F) = k0_pay45 := rfl
theorem out_pay_eq_112 : k0_pay112 (F := F) = k0_pay45 := rfl
theorem out_pay_eq_113 : k0_pay113 (F := F) = k0_pay45 := rfl
theorem out_pay_eq_114 : k0_pay114 (F := F) = k0_pay45 := rfl
theorem out_pay_eq_115 : k0_pay115 (F := F) = k0_pay45 := rfl
theorem out_pay_eq_116 : k0_pay116 (F := F) = k0_pay45 := rfl
theorem out_pay_eq_117 : k0_pay117 (F := F) = k0_pay45 := rfl
theorem out_pay_eq_118 : k0_pay118 (F := F) = k0_pay45 := rfl
theorem out_pay_eq_119 : k0_pay119 (F := F) = k0_pay45 := rfl
theorem out_pay_eq_120 : k0_pay120 (F := F) = k0_pay45 := rfl
theorem out_pay_eq_121 : k0_pay121 (F := F) = k0_pay45 := rfl
theorem out_pay_eq_122 : k0_pay122 (F := F) = k0_pay45 := rfl
theorem out_pay_eq_123 : k0_pay123 (F := F) = k0_pay45 := rfl
theorem out_pay_eq_124 : k0_pay124 (F := F) = k0_pay45 := rfl
theorem out_pay_eq_125 : k0_pay125 (F := F) = k0_pay45 := rfl
theorem out_pay_eq_126 : k0_pay126 (F := F) = k0_pay45 := rfl
theorem out_pay_eq_127 : k0_pay127 (F := F) = k0_pay45 := rfl
theorem out_pay_eq_128 : k0_pay128 (F := F) = k0_pay45 := rfl
theorem out_pay_eq_129 : k0_pay129 (F := F) = k0_pay45 := rfl
theorem out_pay_eq_130 : k0_pay130 (F := F) = k0_pay45 := rfl
theorem out_pay_eq_131 : k0_pay131 (F := F) = k0_pay45 := rfl
theorem out_pay_eq_132 : k0_pay132 (F := F) = k0_pay45 := rfl
theorem out_pay_eq_133 : k0_pay133 (F := F) = k0_pay45 := rfl
theorem out_pay_eq_134 : k0_pay134 (F := F) = k0_pay45 := rfl
theorem out_pay_eq_135 : k0_pay135 (F := F) = k0_pay45 := rfl
theorem out_pay_eq_136 : k0_pay136 (F := F) = k0_pay45 := rfl
theorem out_pay_eq_137 : k0_pay137 (F := F) = k0_pay45 := rfl
theorem out_pay_eq_138 : k0_pay138 (F := F) = k0_pay45 := rfl
theorem out_pay_eq_139 : k0_pay139 (F := F) = k0_pay45 := rfl
theorem out_pay_eq_140 : k0_pay140 (F := F) = k0_pay45 := rfl
theorem out_pay_eq_141 : k0_pay141 (F := F) = k0_pay45 := rfl
theorem out_pay_eq_142 : k0_pay142 (F := F) = k0_pay45 := rfl
theorem out_pay_eq_143 : k0_pay143 (F := F) = k0_pay45 := rfl
theorem out_pay_eq_144 : k0_pay144 (F := F) = k0_pay45 := rfl
theorem out_pay_eq_145 : k0_pay145 (F := F) = k0_pay45 := rfl
theorem out_pay_eq_146 : k0_pay146 (F := F) = k0_pay45 := rfl
theorem out_pay_eq_147 : k0_pay147 (F := F) = k0_pay45 := rfl
theorem out_pay_eq_148 : k0_pay148 (F := F) = k0_pay45 := rfl
theorem out_pay_eq_149 : k0_pay149 (F := F) = k0_pay45 := rfl
theorem out_pay_eq_150 : k0_pay150 (F := F) = k0_pay45 := rfl
theorem out_pay_eq_151 : k0_pay151 (F := F) = k0_pay45 := rfl
theorem out_pay_eq_152 : k0_pay152 (F := F) = k0_pay45 := rfl
theorem out_pay_eq_153 : k0_pay153 (F := F) = k0_pay45 := rfl
theorem out_pay_eq_154 : k0_pay154 (F := F) = k0_pay45 := rfl
theorem out_pay_eq_155 : k0_pay155 (F := F) = k0_pay45 := rfl
theorem out_pay_eq_156 : k0_pay156 (F := F) = k0_pay45 := rfl
theorem out_pay_eq_157 : k0_pay157 (F := F) = k0_pay45 := rfl
theorem out_pay_eq_158 : k0_pay158 (F := F) = k0_pay45 := rfl
theorem out_pay_eq_159 : k0_pay159 (F := F) = k0_pay45 := rfl
theorem out_pay_eq_160 : k0_pay160 (F := F) = k0_pay45 := rfl
theorem out_pay_eq_161 : k0_pay161 (F := F) = k0_pay45 := rfl
theorem out_pay_eq_162 : k0_pay162 (F := F) = k0_pay45 := rfl
theorem out_pay_eq_163 : k0_pay163 (F := F) = k0_pay45 := rfl
theorem out_pay_eq_164 : k0_pay164 (F := F) = k0_pay45 := rfl
theorem out_pay_eq_165 : k0_pay165 (F := F) = k0_pay45 := rfl
theorem out_pay_eq_166 : k0_pay166 (F := F) = k0_pay45 := rfl
theorem out_pay_eq_167 : k0_pay167 (F := F) = k0_pay45 := rfl
theorem out_pay_eq_168 : k0_pay168 (F := F) = k0_pay45 := rfl
theorem out_pay_eq_169 : k0_pay169 (F := F) = k0_pay45 := rfl
theorem out_pay_eq_170 : k0_pay170 (F := F) = k0_pay45 := rfl
theorem out_pay_eq_171 : k0_pay171 (F := F) = k0_pay45 := rfl
theorem out_pay_eq_172 : k0_pay172 (F := F) = k0_pay45 := rfl

/-- Dropping the leading unit axis: entry `(r, j)` of the tile is entry `(0, r, j)` of the block. -/
theorem out_pay45_apply (v : Vec F S1x8x32 .f32) (r : Fin 8) (j : Fin 32) :
    k0_pay45 v (ValueIdx.ix2 r j) = v (ValueIdx.ix3 (n0 := 1) ⟨0, Nat.one_pos⟩ r j) := by
  unfold k0_pay45
  refine (shapeCast_dropUnit_apply (n := 2) ![8, 32] _ _ _).trans ?_
  refine congrArg v (funext fun a => ?_)
  match a with
  | ⟨0, _⟩ => rfl
  | ⟨1, _⟩ => rfl
  | ⟨2, _⟩ => rfl

end Cert.KernelIdeal.StageValue

end
-- ==== Proof.StageHw.lean ====
import proofs.«900436_g7700000000000437_dist_gemm_a2a_m1024_k1024_n1024_f32_relu_v7x_i32_1_alg».proof.Proof.StageValue
import proofs.«900436_g7700000000000437_dist_gemm_a2a_m1024_k1024_n1024_f32_relu_v7x_i32_1_alg».proof.Proof.OutValue

/-!
# The stored tiles are the staging scratch's final contents

Slot `d` of the staging scratch is stored once, with the tile the body computes from its loads of `x` and of column
group `d / 8` of `w`. Read at `(0, r, l)` that tile is `Y_c[8 (l / 32) + r, 32 d + l mod 32]`: the final contents of the
scratch at `(d, r, l)`.
-/

set_option maxRecDepth 16384

noncomputable section

namespace Cert.KernelIdeal.Exchange

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem stage_hw_0 (c : Dev nD) (r : Fin 8) (l : Fin 128) :
    (k0_pay2 (xld m c) (wld m c 0)) (ValueIdx.ix3 (n0 := 1) (n1 := 8) (n2 := 128) ⟨0, Nat.one_pos⟩ r l) = Sfin m c (ValueIdx.ix3 (n0 := 32) 0 r l) := by
  rw [Sfin_apply]
  exact StageValue.stage_pay_0 (xld m c) (wld m c 0) r l
theorem stage_hw_1 (c : Dev nD) (r : Fin 8) (l : Fin 128) :
    (k0_pay3 (xld m c) (wld m c 0)) (ValueIdx.ix3 (n0 := 1) (n1 := 8) (n2 := 128) ⟨0, Nat.one_pos⟩ r l) = Sfin m c (ValueIdx.ix3 (n0 := 32) 1 r l) := by
  rw [Sfin_apply]
  exact StageValue.stage_pay_1 (xld m c) (wld m c 0) r l
theorem stage_hw_2 (c : Dev nD) (r : Fin 8) (l : Fin 128) :
    (k0_pay8 (k0_pay4 (xld m c) (wld m c 0)) (k0_pay5 (xld m c) (wld m c 0)) (k0_pay6 (xld m c) (wld m c 0)) (k0_pay7 (xld m c) (wld m c 0))) (ValueIdx.ix3 (n0 := 1) (n1 := 8) (n2 := 128) ⟨0, Nat.one_pos⟩ r l) = Sfin m c (ValueIdx.ix3 (n0 := 32) 2 r l) := by
  rw [Sfin_apply]
  exact StageValue.stage_pay_2 (xld m c) (wld m c 0) r l
theorem stage_hw_3 (c : Dev nD) (r : Fin 8) (l : Fin 128) :
    (k0_pay9 (k0_pay1 (xld m c) (wld m c 0))) (ValueIdx.ix3 (n0 := 1) (n1 := 8) (n2 := 128) ⟨0, Nat.one_pos⟩ r l) = Sfin m c (ValueIdx.ix3 (n0 := 32) 3 r l) := by
  rw [Sfin_apply]
  exact StageValue.stage_pay_3 (xld m c) (wld m c 0) r l
theorem stage_hw_4 (c : Dev nD) (r : Fin 8) (l : Fin 128) :
    (k0_pay10 (k0_pay1 (xld m c) (wld m c 0))) (ValueIdx.ix3 (n0 := 1) (n1 := 8) (n2 := 128) ⟨0, Nat.one_pos⟩ r l) = Sfin m c (ValueIdx.ix3 (n0 := 32) 4 r l) := by
  rw [Sfin_apply]
  exact StageValue.stage_pay_4 (xld m c) (wld m c 0) r l
theorem stage_hw_5 (c : Dev nD) (r : Fin 8) (l : Fin 128) :
    (k0_pay11 (k0_pay1 (xld m c) (wld m c 0))) (ValueIdx.ix3 (n0 := 1) (n1 := 8) (n2 := 128) ⟨0, Nat.one_pos⟩ r l) = Sfin m c (ValueIdx.ix3 (n0 := 32) 5 r l) := by
  rw [Sfin_apply]
  exact StageValue.stage_pay_5 (xld m c) (wld m c 0) r l
theorem stage_hw_6 (c : Dev nD) (r : Fin 8) (l : Fin 128) :
    (k0_pay12 (k0_pay1 (xld m c) (wld m c 0))) (ValueIdx.ix3 (n0 := 1) (n1 := 8) (n2 := 128) ⟨0, Nat.one_pos⟩ r l) = Sfin m c (ValueIdx.ix3 (n0 := 32) 6 r l) := by
  rw [Sfin_apply]
  exact StageValue.stage_pay_6 (xld m c) (wld m c 0) r l
theorem stage_hw_7 (c : Dev nD) (r : Fin 8) (l : Fin 128) :
    (k0_pay13 (k0_pay1 (xld m c) (wld m c 0))) (ValueIdx.ix3 (n0 := 1) (n1 := 8) (n2 := 128) ⟨0, Nat.one_pos⟩ r l) = Sfin m c (ValueIdx.ix3 (n0 := 32) 7 r l) := by
  rw [Sfin_apply]
  exact StageValue.stage_pay_7 (xld m c) (wld m c 0) r l
theorem stage_hw_8 (c : Dev nD) (r : Fin 8) (l : Fin 128) :
    (k0_pay15 (xld m c) (wld m c 1)) (ValueIdx.ix3 (n0 := 1) (n1 := 8) (n2 := 128) ⟨0, Nat.one_pos⟩ r l) = Sfin m c (ValueIdx.ix3 (n0 := 32) 8 r l) := by
  rw [Sfin_apply]
  exact StageValue.stage_pay_8 (xld m c) (wld m c 1) r l
theorem stage_hw_9 (c : Dev nD) (r : Fin 8) (l : Fin 128) :
    (k0_pay16 (xld m c) (wld m c 1)) (ValueIdx.ix3 (n0 := 1) (n1 := 8) (n2 := 128) ⟨0, Nat.one_pos⟩ r l) = Sfin m c (ValueIdx.ix3 (n0 := 32) 9 r l) := by
  rw [Sfin_apply]
  exact StageValue.stage_pay_9 (xld m c) (wld m c 1) r l
theorem stage_hw_10 (c : Dev nD) (r : Fin 8) (l : Fin 128) :
    (k0_pay17 (k0_pay14 (xld m c) (wld m c 1))) (ValueIdx.ix3 (n0 := 1) (n1 := 8) (n2 := 128) ⟨0, Nat.one_pos⟩ r l) = Sfin m c (ValueIdx.ix3 (n0 := 32) 10 r l) := by
  rw [Sfin_apply]
  exact StageValue.stage_pay_10 (xld m c) (wld m c 1) r l
theorem stage_hw_11 (c : Dev nD) (r : Fin 8) (l : Fin 128) :
    (k0_pay18 (k0_pay14 (xld m c) (wld m c 1))) (ValueIdx.ix3 (n0 := 1) (n1 := 8) (n2 := 128) ⟨0, Nat.one_pos⟩ r l) = Sfin m c (ValueIdx.ix3 (n0 := 32) 11 r l) := by
  rw [Sfin_apply]
  exact StageValue.stage_pay_11 (xld m c) (wld m c 1) r l
theorem stage_hw_12 (c : Dev nD) (r : Fin 8) (l : Fin 128) :
    (k0_pay19 (k0_pay14 (xld m c) (wld m c 1))) (ValueIdx.ix3 (n0 := 1) (n1 := 8) (n2 := 128) ⟨0, Nat.one_pos⟩ r l) = Sfin m c (ValueIdx.ix3 (n0 := 32) 12 r l) := by
  rw [Sfin_apply]
  exact StageValue.stage_pay_12 (xld m c) (wld m c 1) r l
theorem stage_hw_13 (c : Dev nD) (r : Fin 8) (l : Fin 128) :
    (k0_pay20 (k0_pay14 (xld m c) (wld m c 1))) (ValueIdx.ix3 (n0 := 1) (n1 := 8) (n2 := 128) ⟨0, Nat.one_pos⟩ r l) = Sfin m c (ValueIdx.ix3 (n0 := 32) 13 r l) := by
  rw [Sfin_apply]
  exact StageValue.stage_pay_13 (xld m c) (wld m c 1) r l
theorem stage_hw_14 (c : Dev nD) (r : Fin 8) (l : Fin 128) :
    (k0_pay22 (k0_pay21 (k0_pay14 (xld m c) (wld m c 1)))) (ValueIdx.ix3 (n0 := 1) (n1 := 8) (n2 := 128) ⟨0, Nat.one_pos⟩ r l) = Sfin m c (ValueIdx.ix3 (n0 := 32) 14 r l) := by
  rw [Sfin_apply]
  exact StageValue.stage_pay_14 (xld m c) (wld m c 1) r l
theorem stage_hw_15 (c : Dev nD) (r : Fin 8) (l : Fin 128) :
    (k0_pay23 (k0_pay14 (xld m c) (wld m c 1))) (ValueIdx.ix3 (n0 := 1) (n1 := 8) (n2 := 128) ⟨0, Nat.one_pos⟩ r l) = Sfin m c (ValueIdx.ix3 (n0 := 32) 15 r l) := by
  rw [Sfin_apply]
  exact StageValue.stage_pay_15 (xld m c) (wld m c 1) r l
theorem stage_hw_16 (c : Dev nD) (r : Fin 8) (l : Fin 128) :
    (k0_pay25 (xld m c) (wld m c 2)) (ValueIdx.ix3 (n0 := 1) (n1 := 8) (n2 := 128) ⟨0, Nat.one_pos⟩ r l) = Sfin m c (ValueIdx.ix3 (n0 := 32) 16 r l) := by
  rw [Sfin_apply]
  exact StageValue.stage_pay_16 (xld m c) (wld m c 2) r l
theorem stage_hw_17 (c : Dev nD) (r : Fin 8) (l : Fin 128) :
    (k0_pay26 (xld m c) (wld m c 2)) (ValueIdx.ix3 (n0 := 1) (n1 := 8) (n2 := 128) ⟨0, Nat.one_pos⟩ r l) = Sfin m c (ValueIdx.ix3 (n0 := 32) 17 r l) := by
  rw [Sfin_apply]
  exact StageValue.stage_pay_17 (xld m c) (wld m c 2) r l
theorem stage_hw_18 (c : Dev nD) (r : Fin 8) (l : Fin 128) :
    (k0_pay27 (k0_pay24 (xld m c) (wld m c 2))) (ValueIdx.ix3 (n0 := 1) (n1 := 8) (n2 := 128) ⟨0, Nat.one_pos⟩ r l) = Sfin m c (ValueIdx.ix3 (n0 := 32) 18 r l) := by
  rw [Sfin_apply]
  exact StageValue.stage_pay_18 (xld m c) (wld m c 2) r l
theorem stage_hw_19 (c : Dev nD) (r : Fin 8) (l : Fin 128) :
    (k0_pay28 (k0_pay24 (xld m c) (wld m c 2))) (ValueIdx.ix3 (n0 := 1) (n1 := 8) (n2 := 128) ⟨0, Nat.one_pos⟩ r l) = Sfin m c (ValueIdx.ix3 (n0 := 32) 19 r l) := by
  rw [Sfin_apply]
  exact StageValue.stage_pay_19 (xld m c) (wld m c 2) r l
theorem stage_hw_20 (c : Dev nD) (r : Fin 8) (l : Fin 128) :
    (k0_pay29 (k0_pay24 (xld m c) (wld m c 2))) (ValueIdx.ix3 (n0 := 1) (n1 := 8) (n2 := 128) ⟨0, Nat.one_pos⟩ r l) = Sfin m c (ValueIdx.ix3 (n0 := 32) 20 r l) := by
  rw [Sfin_apply]
  exact StageValue.stage_pay_20 (xld m c) (wld m c 2) r l
theorem stage_hw_21 (c : Dev nD) (r : Fin 8) (l : Fin 128) :
    (k0_pay30 (k0_pay24 (xld m c) (wld m c 2))) (ValueIdx.ix3 (n0 := 1) (n1 := 8) (n2 := 128) ⟨0, Nat.one_pos⟩ r l) = Sfin m c (ValueIdx.ix3 (n0 := 32) 21 r l) := by
  rw [Sfin_apply]
  exact StageValue.stage_pay_21 (xld m c) (wld m c 2) r l
theorem stage_hw_22 (c : Dev nD) (r : Fin 8) (l : Fin 128) :
    (k0_pay32 (k0_pay31 (k0_pay24 (xld m c) (wld m c 2)))) (ValueIdx.ix3 (n0 := 1) (n1 := 8) (n2 := 128) ⟨0, Nat.one_pos⟩ r l) = Sfin m c (ValueIdx.ix3 (n0 := 32) 22 r l) := by
  rw [Sfin_apply]
  exact StageValue.stage_pay_22 (xld m c) (wld m c 2) r l
theorem stage_hw_23 (c : Dev nD) (r : Fin 8) (l : Fin 128) :
    (k0_pay33 (k0_pay24 (xld m c) (wld m c 2))) (ValueIdx.ix3 (n0 := 1) (n1 := 8) (n2 := 128) ⟨0, Nat.one_pos⟩ r l) = Sfin m c (ValueIdx.ix3 (n0 := 32) 23 r l) := by
  rw [Sfin_apply]
  exact StageValue.stage_pay_23 (xld m c) (wld m c 2) r l
theorem stage_hw_24 (c : Dev nD) (r : Fin 8) (l : Fin 128) :
    (k0_pay35 (xld m c) (wld m c 3)) (ValueIdx.ix3 (n0 := 1) (n1 := 8) (n2 := 128) ⟨0, Nat.one_pos⟩ r l) = Sfin m c (ValueIdx.ix3 (n0 := 32) 24 r l) := by
  rw [Sfin_apply]
  exact StageValue.stage_pay_24 (xld m c) (wld m c 3) r l
theorem stage_hw_25 (c : Dev nD) (r : Fin 8) (l : Fin 128) :
    (k0_pay37 (k0_pay36 (xld m c) (wld m c 3))) (ValueIdx.ix3 (n0 := 1) (n1 := 8) (n2 := 128) ⟨0, Nat.one_pos⟩ r l) = Sfin m c (ValueIdx.ix3 (n0 := 32) 25 r l) := by
  rw [Sfin_apply]
  exact StageValue.stage_pay_25 (xld m c) (wld m c 3) r l
theorem stage_hw_26 (c : Dev nD) (r : Fin 8) (l : Fin 128) :
    (k0_pay38 (k0_pay34 (xld m c) (wld m c 3))) (ValueIdx.ix3 (n0 := 1) (n1 := 8) (n2 := 128) ⟨0, Nat.one_pos⟩ r l) = Sfin m c (ValueIdx.ix3 (n0 := 32) 26 r l) := by
  rw [Sfin_apply]
  exact StageValue.stage_pay_26 (xld m c) (wld m c 3) r l
theorem stage_hw_27 (c : Dev nD) (r : Fin 8) (l : Fin 128) :
    (k0_pay39 (k0_pay34 (xld m c) (wld m c 3))) (ValueIdx.ix3 (n0 := 1) (n1 := 8) (n2 := 128) ⟨0, Nat.one_pos⟩ r l) = Sfin m c (ValueIdx.ix3 (n0 := 32) 27 r l) := by
  rw [Sfin_apply]
  exact StageValue.stage_pay_27 (xld m c) (wld m c 3) r l
theorem stage_hw_28 (c : Dev nD) (r : Fin 8) (l : Fin 128) :
    (k0_pay40 (k0_pay34 (xld m c) (wld m c 3))) (ValueIdx.ix3 (n0 := 1) (n1 := 8) (n2 := 128) ⟨0, Nat.one_pos⟩ r l) = Sfin m c (ValueIdx.ix3 (n0 := 32) 28 r l) := by
  rw [Sfin_apply]
  exact StageValue.stage_pay_28 (xld m c) (wld m c 3) r l
theorem stage_hw_29 (c : Dev nD) (r : Fin 8) (l : Fin 128) :
    (k0_pay41 (k0_pay34 (xld m c) (wld m c 3))) (ValueIdx.ix3 (n0 := 1) (n1 := 8) (n2 := 128) ⟨0, Nat.one_pos⟩ r l) = Sfin m c (ValueIdx.ix3 (n0 := 32) 29 r l) := by
  rw [Sfin_apply]
  exact StageValue.stage_pay_29 (xld m c) (wld m c 3) r l
theorem stage_hw_30 (c : Dev nD) (r : Fin 8) (l : Fin 128) :
    (k0_pay43 (k0_pay42 (k0_pay34 (xld m c) (wld m c 3)))) (ValueIdx.ix3 (n0 := 1) (n1 := 8) (n2 := 128) ⟨0, Nat.one_pos⟩ r l) = Sfin m c (ValueIdx.ix3 (n0 := 32) 30 r l) := by
  rw [Sfin_apply]
  exact StageValue.stage_pay_30 (xld m c) (wld m c 3) r l
theorem stage_hw_31 (c : Dev nD) (r : Fin 8) (l : Fin 128) :
    (k0_pay44 (k0_pay34 (xld m c) (wld m c 3))) (ValueIdx.ix3 (n0 := 1) (n1 := 8) (n2 := 128) ⟨0, Nat.one_pos⟩ r l) = Sfin m c (ValueIdx.ix3 (n0 := 32) 31 r l) := by
  rw [Sfin_apply]
  exact StageValue.stage_pay_31 (xld m c) (wld m c 3) r l

end Cert.KernelIdeal.Exchange

end
-- ==== Proof.OutFinal.lean ====
import proofs.«900436_g7700000000000437_dist_gemm_a2a_m1024_k1024_n1024_f32_relu_v7x_i32_1_alg».proof.Proof.StageValue
import proofs.«900436_g7700000000000437_dist_gemm_a2a_m1024_k1024_n1024_f32_relu_v7x_i32_1_alg».proof.Proof.OutValue
import Idealize.ShloMosaic.Lib.Pipeline.Value
import Idealize.ShloMosaic.Lib.Pipeline.FrameBody
import Idealize.ShloMosaic.Lib.Writes

/-!
# The result tile after its 128 stores

Once the 32 slots of the receive scratch `R` have landed, the body fills the 1024 × 32 result tile by 128 stores: for
`s = 0 … 31` and `q = 0 … 3`, rows `32 s + 8 q … 32 s + 8 q + 7` take the 8 × 32 block of slot `s` of `R` at lanes
`32 q … 32 q + 31`, its leading unit axis dropped. The 128 row bands are disjoint and cover the tile, and entry `(r, j)` of
the band of `(s, q)` is `R (s, r, 32 q + j)`: what the closed form of the tile has at row `32 s + 8 q + r`, column `j`.
So the tile after the stores is that closed form, whatever it held before.
-/

set_option maxRecDepth 16384

noncomputable section

namespace Cert.KernelIdeal.Exchange

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The 128 stores into the result tile as pieces, the last store first: the band of rows `32 s + 8 q …` with the block of
    slot `s`, lanes `32 q …`, of the receive scratch `R`. -/
def outPieces (c : Dev nD) (R : Buf (Elt F) (rcvM.view.loc (c : Thread nD τ))) : List (View.Piece (Elt F) S1024x32 .f32) :=
   ⟨Rect.unit (s := S1024x32) ![1016, 0] S8x32.size inb_S1024x32_S8x32_1016_0, k0_pay172 (rcvM.view.readAt (Elt F) (Rect.unit (s := S32x8x128) ![31, 0, 96] S1x8x32.size inb_S32x8x128_S1x8x32_31_0_96).toLoadRect R)⟩ ::
   ⟨Rect.unit (s := S1024x32) ![1008, 0] S8x32.size inb_S1024x32_S8x32_1008_0, k0_pay171 (rcvM.view.readAt (Elt F) (Rect.unit (s := S32x8x128) ![31, 0, 64] S1x8x32.size inb_S32x8x128_S1x8x32_31_0_64).toLoadRect R)⟩ ::
   ⟨Rect.unit (s := S1024x32) ![1000, 0] S8x32.size inb_S1024x32_S8x32_1000_0, k0_pay170 (rcvM.view.readAt (Elt F) (Rect.unit (s := S32x8x128) ![31, 0, 32] S1x8x32.size inb_S32x8x128_S1x8x32_31_0_32).toLoadRect R)⟩ ::
   ⟨Rect.unit (s := S1024x32) ![992, 0] S8x32.size inb_S1024x32_S8x32_992_0, k0_pay169 (rcvM.view.readAt (Elt F) (Rect.unit (s := S32x8x128) ![31, 0, 0] S1x8x32.size inb_S32x8x128_S1x8x32_31_0_0).toLoadRect R)⟩ ::
   ⟨Rect.unit (s := S1024x32) ![984, 0] S8x32.size inb_S1024x32_S8x32_984_0, k0_pay168 (rcvM.view.readAt (Elt F) (Rect.unit (s := S32x8x128) ![30, 0, 96] S1x8x32.size inb_S32x8x128_S1x8x32_30_0_96).toLoadRect R)⟩ ::
   ⟨Rect.unit (s := S1024x32) ![976, 0] S8x32.size inb_S1024x32_S8x32_976_0, k0_pay167 (rcvM.view.readAt (Elt F) (Rect.unit (s := S32x8x128) ![30, 0, 64] S1x8x32.size inb_S32x8x128_S1x8x32_30_0_64).toLoadRect R)⟩ ::
   ⟨Rect.unit (s := S1024x32) ![968, 0] S8x32.size inb_S1024x32_S8x32_968_0, k0_pay166 (rcvM.view.readAt (Elt F) (Rect.unit (s := S32x8x128) ![30, 0, 32] S1x8x32.size inb_S32x8x128_S1x8x32_30_0_32).toLoadRect R)⟩ ::
   ⟨Rect.unit (s := S1024x32) ![960, 0] S8x32.size inb_S1024x32_S8x32_960_0, k0_pay165 (rcvM.view.readAt (Elt F) (Rect.unit (s := S32x8x128) ![30, 0, 0] S1x8x32.size inb_S32x8x128_S1x8x32_30_0_0).toLoadRect R)⟩ ::
   ⟨Rect.unit (s := S1024x32) ![952, 0] S8x32.size inb_S1024x32_S8x32_952_0, k0_pay164 (rcvM.view.readAt (Elt F) (Rect.unit (s := S32x8x128) ![29, 0, 96] S1x8x32.size inb_S32x8x128_S1x8x32_29_0_96).toLoadRect R)⟩ ::
   ⟨Rect.unit (s := S1024x32) ![944, 0] S8x32.size inb_S1024x32_S8x32_944_0, k0_pay163 (rcvM.view.readAt (Elt F) (Rect.unit (s := S32x8x128) ![29, 0, 64] S1x8x32.size inb_S32x8x128_S1x8x32_29_0_64).toLoadRect R)⟩ ::
   ⟨Rect.unit (s := S1024x32) ![936, 0] S8x32.size inb_S1024x32_S8x32_936_0, k0_pay162 (rcvM.view.readAt (Elt F) (Rect.unit (s := S32x8x128) ![29, 0, 32] S1x8x32.size inb_S32x8x128_S1x8x32_29_0_32).toLoadRect R)⟩ ::
   ⟨Rect.unit (s := S1024x32) ![928, 0] S8x32.size inb_S1024x32_S8x32_928_0, k0_pay161 (rcvM.view.readAt (Elt F) (Rect.unit (s := S32x8x128) ![29, 0, 0] S1x8x32.size inb_S32x8x128_S1x8x32_29_0_0).toLoadRect R)⟩ ::
   ⟨Rect.unit (s := S1024x32) ![920, 0] S8x32.size inb_S1024x32_S8x32_920_0, k0_pay160 (rcvM.view.readAt (Elt F) (Rect.unit (s := S32x8x128) ![28, 0, 96] S1x8x32.size inb_S32x8x128_S1x8x32_28_0_96).toLoadRect R)⟩ ::
   ⟨Rect.unit (s := S1024x32) ![912, 0] S8x32.size inb_S1024x32_S8x32_912_0, k0_pay159 (rcvM.view.readAt (Elt F) (Rect.unit (s := S32x8x128) ![28, 0, 64] S1x8x32.size inb_S32x8x128_S1x8x32_28_0_64).toLoadRect R)⟩ ::
   ⟨Rect.unit (s := S1024x32) ![904, 0] S8x32.size inb_S1024x32_S8x32_904_0, k0_pay158 (rcvM.view.readAt (Elt F) (Rect.unit (s := S32x8x128) ![28, 0, 32] S1x8x32.size inb_S32x8x128_S1x8x32_28_0_32).toLoadRect R)⟩ ::
   ⟨Rect.unit (s := S1024x32) ![896, 0] S8x32.size inb_S1024x32_S8x32_896_0, k0_pay157 (rcvM.view.readAt (Elt F) (Rect.unit (s := S32x8x128) ![28, 0, 0] S1x8x32.size inb_S32x8x128_S1x8x32_28_0_0).toLoadRect R)⟩ ::
   ⟨Rect.unit (s := S1024x32) ![888, 0] S8x32.size inb_S1024x32_S8x32_888_0, k0_pay156 (rcvM.view.readAt (Elt F) (Rect.unit (s := S32x8x128) ![27, 0, 96] S1x8x32.size inb_S32x8x128_S1x8x32_27_0_96).toLoadRect R)⟩ ::
   ⟨Rect.unit (s := S1024x32) ![880, 0] S8x32.size inb_S1024x32_S8x32_880_0, k0_pay155 (rcvM.view.readAt (Elt F) (Rect.unit (s := S32x8x128) ![27, 0, 64] S1x8x32.size inb_S32x8x128_S1x8x32_27_0_64).toLoadRect R)⟩ ::
   ⟨Rect.unit (s := S1024x32) ![872, 0] S8x32.size inb_S1024x32_S8x32_872_0, k0_pay154 (rcvM.view.readAt (Elt F) (Rect.unit (s := S32x8x128) ![27, 0, 32] S1x8x32.size inb_S32x8x128_S1x8x32_27_0_32).toLoadRect R)⟩ ::
   ⟨Rect.unit (s := S1024x32) ![864, 0] S8x32.size inb_S1024x32_S8x32_864_0, k0_pay153 (rcvM.view.readAt (Elt F) (Rect.unit (s := S32x8x128) ![27, 0, 0] S1x8x32.size inb_S32x8x128_S1x8x32_27_0_0).toLoadRect R)⟩ ::
   ⟨Rect.unit (s := S1024x32) ![856, 0] S8x32.size inb_S1024x32_S8x32_856_0, k0_pay152 (rcvM.view.readAt (Elt F) (Rect.unit (s := S32x8x128) ![26, 0, 96] S1x8x32.size inb_S32x8x128_S1x8x32_26_0_96).toLoadRect R)⟩ ::
   ⟨Rect.unit (s := S1024x32) ![848, 0] S8x32.size inb_S1024x32_S8x32_848_0, k0_pay151 (rcvM.view.readAt (Elt F) (Rect.unit (s := S32x8x128) ![26, 0, 64] S1x8x32.size inb_S32x8x128_S1x8x32_26_0_64).toLoadRect R)⟩ ::
   ⟨Rect.unit (s := S1024x32) ![840, 0] S8x32.size inb_S1024x32_S8x32_840_0, k0_pay150 (rcvM.view.readAt (Elt F) (Rect.unit (s := S32x8x128) ![26, 0, 32] S1x8x32.size inb_S32x8x128_S1x8x32_26_0_32).toLoadRect R)⟩ ::
   ⟨Rect.unit (s := S1024x32) ![832, 0] S8x32.size inb_S1024x32_S8x32_832_0, k0_pay149 (rcvM.view.readAt (Elt F) (Rect.unit (s := S32x8x128) ![26, 0, 0] S1x8x32.size inb_S32x8x128_S1x8x32_26_0_0).toLoadRect R)⟩ ::
   ⟨Rect.unit (s := S1024x32) ![824, 0] S8x32.size inb_S1024x32_S8x32_824_0, k0_pay148 (rcvM.view.readAt (Elt F) (Rect.unit (s := S32x8x128) ![25, 0, 96] S1x8x32.size inb_S32x8x128_S1x8x32_25_0_96).toLoadRect R)⟩ ::
   ⟨Rect.unit (s := S1024x32) ![816, 0] S8x32.size inb_S1024x32_S8x32_816_0, k0_pay147 (rcvM.view.readAt (Elt F) (Rect.unit (s := S32x8x128) ![25, 0, 64] S1x8x32.size inb_S32x8x128_S1x8x32_25_0_64).toLoadRect R)⟩ ::
   ⟨Rect.unit (s := S1024x32) ![808, 0] S8x32.size inb_S1024x32_S8x32_808_0, k0_pay146 (rcvM.view.readAt (Elt F) (Rect.unit (s := S32x8x128) ![25, 0, 32] S1x8x32.size inb_S32x8x128_S1x8x32_25_0_32).toLoadRect R)⟩ ::
   ⟨Rect.unit (s := S1024x32) ![800, 0] S8x32.size inb_S1024x32_S8x32_800_0, k0_pay145 (rcvM.view.readAt (Elt F) (Rect.unit (s := S32x8x128) ![25, 0, 0] S1x8x32.size inb_S32x8x128_S1x8x32_25_0_0).toLoadRect R)⟩ ::
   ⟨Rect.unit (s := S1024x32) ![792, 0] S8x32.size inb_S1024x32_S8x32_792_0, k0_pay144 (rcvM.view.readAt (Elt F) (Rect.unit (s := S32x8x128) ![24, 0, 96] S1x8x32.size inb_S32x8x128_S1x8x32_24_0_96).toLoadRect R)⟩ ::
   ⟨Rect.unit (s := S1024x32) ![784, 0] S8x32.size inb_S1024x32_S8x32_784_0, k0_pay143 (rcvM.view.readAt (Elt F) (Rect.unit (s := S32x8x128) ![24, 0, 64] S1x8x32.size inb_S32x8x128_S1x8x32_24_0_64).toLoadRect R)⟩ ::
   ⟨Rect.unit (s := S1024x32) ![776, 0] S8x32.size inb_S1024x32_S8x32_776_0, k0_pay142 (rcvM.view.readAt (Elt F) (Rect.unit (s := S32x8x128) ![24, 0, 32] S1x8x32.size inb_S32x8x128_S1x8x32_24_0_32).toLoadRect R)⟩ ::
   ⟨Rect.unit (s := S1024x32) ![768, 0] S8x32.size inb_S1024x32_S8x32_768_0, k0_pay141 (rcvM.view.readAt (Elt F) (Rect.unit (s := S32x8x128) ![24, 0, 0] S1x8x32.size inb_S32x8x128_S1x8x32_24_0_0).toLoadRect R)⟩ ::
   ⟨Rect.unit (s := S1024x32) ![760, 0] S8x32.size inb_S1024x32_S8x32_760_0, k0_pay140 (rcvM.view.readAt (Elt F) (Rect.unit (s := S32x8x128) ![23, 0, 96] S1x8x32.size inb_S32x8x128_S1x8x32_23_0_96).toLoadRect R)⟩ ::
   ⟨Rect.unit (s := S1024x32) ![752, 0] S8x32.size inb_S1024x32_S8x32_752_0, k0_pay139 (rcvM.view.readAt (Elt F) (Rect.unit (s := S32x8x128) ![23, 0, 64] S1x8x32.size inb_S32x8x128_S1x8x32_23_0_64).toLoadRect R)⟩ ::
   ⟨Rect.unit (s := S1024x32) ![744, 0] S8x32.size inb_S1024x32_S8x32_744_0, k0_pay138 (rcvM.view.readAt (Elt F) (Rect.unit (s := S32x8x128) ![23, 0, 32] S1x8x32.size inb_S32x8x128_S1x8x32_23_0_32).toLoadRect R)⟩ ::
   ⟨Rect.unit (s := S1024x32) ![736, 0] S8x32.size inb_S1024x32_S8x32_736_0, k0_pay137 (rcvM.view.readAt (Elt F) (Rect.unit (s := S32x8x128) ![23, 0, 0] S1x8x32.size inb_S32x8x128_S1x8x32_23_0_0).toLoadRect R)⟩ ::
   ⟨Rect.unit (s := S1024x32) ![728, 0] S8x32.size inb_S1024x32_S8x32_728_0, k0_pay136 (rcvM.view.readAt (Elt F) (Rect.unit (s := S32x8x128) ![22, 0, 96] S1x8x32.size inb_S32x8x128_S1x8x32_22_0_96).toLoadRect R)⟩ ::
   ⟨Rect.unit (s := S1024x32) ![720, 0] S8x32.size inb_S1024x32_S8x32_720_0, k0_pay135 (rcvM.view.readAt (Elt F) (Rect.unit (s := S32x8x128) ![22, 0, 64] S1x8x32.size inb_S32x8x128_S1x8x32_22_0_64).toLoadRect R)⟩ ::
   ⟨Rect.unit (s := S1024x32) ![712, 0] S8x32.size inb_S1024x32_S8x32_712_0, k0_pay134 (rcvM.view.readAt (Elt F) (Rect.unit (s := S32x8x128) ![22, 0, 32] S1x8x32.size inb_S32x8x128_S1x8x32_22_0_32).toLoadRect R)⟩ ::
   ⟨Rect.unit (s := S1024x32) ![704, 0] S8x32.size inb_S1024x32_S8x32_704_0, k0_pay133 (rcvM.view.readAt (Elt F) (Rect.unit (s := S32x8x128) ![22, 0, 0] S1x8x32.size inb_S32x8x128_S1x8x32_22_0_0).toLoadRect R)⟩ ::
   ⟨Rect.unit (s := S1024x32) ![696, 0] S8x32.size inb_S1024x32_S8x32_696_0, k0_pay132 (rcvM.view.readAt (Elt F) (Rect.unit (s := S32x8x128) ![21, 0, 96] S1x8x32.size inb_S32x8x128_S1x8x32_21_0_96).toLoadRect R)⟩ ::
   ⟨Rect.unit (s := S1024x32) ![688, 0] S8x32.size inb_S1024x32_S8x32_688_0, k0_pay131 (rcvM.view.readAt (Elt F) (Rect.unit (s := S32x8x128) ![21, 0, 64] S1x8x32.size inb_S32x8x128_S1x8x32_21_0_64).toLoadRect R)⟩ ::
   ⟨Rect.unit (s := S1024x32) ![680, 0] S8x32.size inb_S1024x32_S8x32_680_0, k0_pay130 (rcvM.view.readAt (Elt F) (Rect.unit (s := S32x8x128) ![21, 0, 32] S1x8x32.size inb_S32x8x128_S1x8x32_21_0_32).toLoadRect R)⟩ ::
   ⟨Rect.unit (s := S1024x32) ![672, 0] S8x32.size inb_S1024x32_S8x32_672_0, k0_pay129 (rcvM.view.readAt (Elt F) (Rect.unit (s := S32x8x128) ![21, 0, 0] S1x8x32.size inb_S32x8x128_S1x8x32_21_0_0).toLoadRect R)⟩ ::
   ⟨Rect.unit (s := S1024x32) ![664, 0] S8x32.size inb_S1024x32_S8x32_664_0, k0_pay128 (rcvM.view.readAt (Elt F) (Rect.unit (s := S32x8x128) ![20, 0, 96] S1x8x32.size inb_S32x8x128_S1x8x32_20_0_96).toLoadRect R)⟩ ::
   ⟨Rect.unit (s := S1024x32) ![656, 0] S8x32.size inb_S1024x32_S8x32_656_0, k0_pay127 (rcvM.view.readAt (Elt F) (Rect.unit (s := S32x8x128) ![20, 0, 64] S1x8x32.size inb_S32x8x128_S1x8x32_20_0_64).toLoadRect R)⟩ ::
   ⟨Rect.unit (s := S1024x32) ![648, 0] S8x32.size inb_S1024x32_S8x32_648_0, k0_pay126 (rcvM.view.readAt (Elt F) (Rect.unit (s := S32x8x128) ![20, 0, 32] S1x8x32.size inb_S32x8x128_S1x8x32_20_0_32).toLoadRect R)⟩ ::
   ⟨Rect.unit (s := S1024x32) ![640, 0] S8x32.size inb_S1024x32_S8x32_640_0, k0_pay125 (rcvM.view.readAt (Elt F) (Rect.unit (s := S32x8x128) ![20, 0, 0] S1x8x32.size inb_S32x8x128_S1x8x32_20_0_0).toLoadRect R)⟩ ::
   ⟨Rect.unit (s := S1024x32) ![632, 0] S8x32.size inb_S1024x32_S8x32_632_0, k0_pay124 (rcvM.view.readAt (Elt F) (Rect.unit (s := S32x8x128) ![19, 0, 96] S1x8x32.size inb_S32x8x128_S1x8x32_19_0_96).toLoadRect R)⟩ ::
   ⟨Rect.unit (s := S1024x32) ![624, 0] S8x32.size inb_S1024x32_S8x32_624_0, k0_pay123 (rcvM.view.readAt (Elt F) (Rect.unit (s := S32x8x128) ![19, 0, 64] S1x8x32.size inb_S32x8x128_S1x8x32_19_0_64).toLoadRect R)⟩ ::
   ⟨Rect.unit (s := S1024x32) ![616, 0] S8x32.size inb_S1024x32_S8x32_616_0, k0_pay122 (rcvM.view.readAt (Elt F) (Rect.unit (s := S32x8x128) ![19, 0, 32] S1x8x32.size inb_S32x8x128_S1x8x32_19_0_32).toLoadRect R)⟩ ::
   ⟨Rect.unit (s := S1024x32) ![608, 0] S8x32.size inb_S1024x32_S8x32_608_0, k0_pay121 (rcvM.view.readAt (Elt F) (Rect.unit (s := S32x8x128) ![19, 0, 0] S1x8x32.size inb_S32x8x128_S1x8x32_19_0_0).toLoadRect R)⟩ ::
   ⟨Rect.unit (s := S1024x32) ![600, 0] S8x32.size inb_S1024x32_S8x32_600_0, k0_pay120 (rcvM.view.readAt (Elt F) (Rect.unit (s := S32x8x128) ![18, 0, 96] S1x8x32.size inb_S32x8x128_S1x8x32_18_0_96).toLoadRect R)⟩ ::
   ⟨Rect.unit (s := S1024x32) ![592, 0] S8x32.size inb_S1024x32_S8x32_592_0, k0_pay119 (rcvM.view.readAt (Elt F) (Rect.unit (s := S32x8x128) ![18, 0, 64] S1x8x32.size inb_S32x8x128_S1x8x32_18_0_64).toLoadRect R)⟩ ::
   ⟨Rect.unit (s := S1024x32) ![584, 0] S8x32.size inb_S1024x32_S8x32_584_0, k0_pay118 (rcvM.view.readAt (Elt F) (Rect.unit (s := S32x8x128) ![18, 0, 32] S1x8x32.size inb_S32x8x128_S1x8x32_18_0_32).toLoadRect R)⟩ ::
   ⟨Rect.unit (s := S1024x32) ![576, 0] S8x32.size inb_S1024x32_S8x32_576_0, k0_pay117 (rcvM.view.readAt (Elt F) (Rect.unit (s := S32x8x128) ![18, 0, 0] S1x8x32.size inb_S32x8x128_S1x8x32_18_0_0).toLoadRect R)⟩ ::
   ⟨Rect.unit (s := S1024x32) ![568, 0] S8x32.size inb_S1024x32_S8x32_568_0, k0_pay116 (rcvM.view.readAt (Elt F) (Rect.unit (s := S32x8x128) ![17, 0, 96] S1x8x32.size inb_S32x8x128_S1x8x32_17_0_96).toLoadRect R)⟩ ::
   ⟨Rect.unit (s := S1024x32) ![560, 0] S8x32.size inb_S1024x32_S8x32_560_0, k0_pay115 (rcvM.view.readAt (Elt F) (Rect.unit (s := S32x8x128) ![17, 0, 64] S1x8x32.size inb_S32x8x128_S1x8x32_17_0_64).toLoadRect R)⟩ ::
   ⟨Rect.unit (s := S1024x32) ![552, 0] S8x32.size inb_S1024x32_S8x32_552_0, k0_pay114 (rcvM.view.readAt (Elt F) (Rect.unit (s := S32x8x128) ![17, 0, 32] S1x8x32.size inb_S32x8x128_S1x8x32_17_0_32).toLoadRect R)⟩ ::
   ⟨Rect.unit (s := S1024x32) ![544, 0] S8x32.size inb_S1024x32_S8x32_544_0, k0_pay113 (rcvM.view.readAt (Elt F) (Rect.unit (s := S32x8x128) ![17, 0, 0] S1x8x32.size inb_S32x8x128_S1x8x32_17_0_0).toLoadRect R)⟩ ::
   ⟨Rect.unit (s := S1024x32) ![536, 0] S8x32.size inb_S1024x32_S8x32_536_0, k0_pay112 (rcvM.view.readAt (Elt F) (Rect.unit (s := S32x8x128) ![16, 0, 96] S1x8x32.size inb_S32x8x128_S1x8x32_16_0_96).toLoadRect R)⟩ ::
   ⟨Rect.unit (s := S1024x32) ![528, 0] S8x32.size inb_S1024x32_S8x32_528_0, k0_pay111 (rcvM.view.readAt (Elt F) (Rect.unit (s := S32x8x128) ![16, 0, 64] S1x8x32.size inb_S32x8x128_S1x8x32_16_0_64).toLoadRect R)⟩ ::
   ⟨Rect.unit (s := S1024x32) ![520, 0] S8x32.size inb_S1024x32_S8x32_520_0, k0_pay110 (rcvM.view.readAt (Elt F) (Rect.unit (s := S32x8x128) ![16, 0, 32] S1x8x32.size inb_S32x8x128_S1x8x32_16_0_32).toLoadRect R)⟩ ::
   ⟨Rect.unit (s := S1024x32) ![512, 0] S8x32.size inb_S1024x32_S8x32_512_0, k0_pay109 (rcvM.view.readAt (Elt F) (Rect.unit (s := S32x8x128) ![16, 0, 0] S1x8x32.size inb_S32x8x128_S1x8x32_16_0_0).toLoadRect R)⟩ ::
   ⟨Rect.unit (s := S1024x32) ![504, 0] S8x32.size inb_S1024x32_S8x32_504_0, k0_pay108 (rcvM.view.readAt (Elt F) (Rect.unit (s := S32x8x128) ![15, 0, 96] S1x8x32.size inb_S32x8x128_S1x8x32_15_0_96).toLoadRect R)⟩ ::
   ⟨Rect.unit (s := S1024x32) ![496, 0] S8x32.size inb_S1024x32_S8x32_496_0, k0_pay107 (rcvM.view.readAt (Elt F) (Rect.unit (s := S32x8x128) ![15, 0, 64] S1x8x32.size inb_S32x8x128_S1x8x32_15_0_64).toLoadRect R)⟩ ::
   ⟨Rect.unit (s := S1024x32) ![488, 0] S8x32.size inb_S1024x32_S8x32_488_0, k0_pay106 (rcvM.view.readAt (Elt F) (Rect.unit (s := S32x8x128) ![15, 0, 32] S1x8x32.size inb_S32x8x128_S1x8x32_15_0_32).toLoadRect R)⟩ ::
   ⟨Rect.unit (s := S1024x32) ![480, 0] S8x32.size inb_S1024x32_S8x32_480_0, k0_pay105 (rcvM.view.readAt (Elt F) (Rect.unit (s := S32x8x128) ![15, 0, 0] S1x8x32.size inb_S32x8x128_S1x8x32_15_0_0).toLoadRect R)⟩ ::
   ⟨Rect.unit (s := S1024x32) ![472, 0] S8x32.size inb_S1024x32_S8x32_472_0, k0_pay104 (rcvM.view.readAt (Elt F) (Rect.unit (s := S32x8x128) ![14, 0, 96] S1x8x32.size inb_S32x8x128_S1x8x32_14_0_96).toLoadRect R)⟩ ::
   ⟨Rect.unit (s := S1024x32) ![464, 0] S8x32.size inb_S1024x32_S8x32_464_0, k0_pay103 (rcvM.view.readAt (Elt F) (Rect.unit (s := S32x8x128) ![14, 0, 64] S1x8x32.size inb_S32x8x128_S1x8x32_14_0_64).toLoadRect R)⟩ ::
   ⟨Rect.unit (s := S1024x32) ![456, 0] S8x32.size inb_S1024x32_S8x32_456_0, k0_pay102 (rcvM.view.readAt (Elt F) (Rect.unit (s := S32x8x128) ![14, 0, 32] S1x8x32.size inb_S32x8x128_S1x8x32_14_0_32).toLoadRect R)⟩ ::
   ⟨Rect.unit (s := S1024x32) ![448, 0] S8x32.size inb_S1024x32_S8x32_448_0, k0_pay101 (rcvM.view.readAt (Elt F) (Rect.unit (s := S32x8x128) ![14, 0, 0] S1x8x32.size inb_S32x8x128_S1x8x32_14_0_0).toLoadRect R)⟩ ::
   ⟨Rect.unit (s := S1024x32) ![440, 0] S8x32.size inb_S1024x32_S8x32_440_0, k0_pay100 (rcvM.view.readAt (Elt F) (Rect.unit (s := S32x8x128) ![13, 0, 96] S1x8x32.size inb_S32x8x128_S1x8x32_13_0_96).toLoadRect R)⟩ ::
   ⟨Rect.unit (s := S1024x32) ![432, 0] S8x32.size inb_S1024x32_S8x32_432_0, k0_pay99 (rcvM.view.readAt (Elt F) (Rect.unit (s := S32x8x128) ![13, 0, 64] S1x8x32.size inb_S32x8x128_S1x8x32_13_0_64).toLoadRect R)⟩ ::
   ⟨Rect.unit (s := S1024x32) ![424, 0] S8x32.size inb_S1024x32_S8x32_424_0, k0_pay98 (rcvM.view.readAt (Elt F) (Rect.unit (s := S32x8x128) ![13, 0, 32] S1x8x32.size inb_S32x8x128_S1x8x32_13_0_32).toLoadRect R)⟩ ::
   ⟨Rect.unit (s := S1024x32) ![416, 0] S8x32.size inb_S1024x32_S8x32_416_0, k0_pay97 (rcvM.view.readAt (Elt F) (Rect.unit (s := S32x8x128) ![13, 0, 0] S1x8x32.size inb_S32x8x128_S1x8x32_13_0_0).toLoadRect R)⟩ ::
   ⟨Rect.unit (s := S1024x32) ![408, 0] S8x32.size inb_S1024x32_S8x32_408_0, k0_pay96 (rcvM.view.readAt (Elt F) (Rect.unit (s := S32x8x128) ![12, 0, 96] S1x8x32.size inb_S32x8x128_S1x8x32_12_0_96).toLoadRect R)⟩ ::
   ⟨Rect.unit (s := S1024x32) ![400, 0] S8x32.size inb_S1024x32_S8x32_400_0, k0_pay95 (rcvM.view.readAt (Elt F) (Rect.unit (s := S32x8x128) ![12, 0, 64] S1x8x32.size inb_S32x8x128_S1x8x32_12_0_64).toLoadRect R)⟩ ::
   ⟨Rect.unit (s := S1024x32) ![392, 0] S8x32.size inb_S1024x32_S8x32_392_0, k0_pay94 (rcvM.view.readAt (Elt F) (Rect.unit (s := S32x8x128) ![12, 0, 32] S1x8x32.size inb_S32x8x128_S1x8x32_12_0_32).toLoadRect R)⟩ ::
   ⟨Rect.unit (s := S1024x32) ![384, 0] S8x32.size inb_S1024x32_S8x32_384_0, k0_pay93 (rcvM.view.readAt (Elt F) (Rect.unit (s := S32x8x128) ![12, 0, 0] S1x8x32.size inb_S32x8x128_S1x8x32_12_0_0).toLoadRect R)⟩ ::
   ⟨Rect.unit (s := S1024x32) ![376, 0] S8x32.size inb_S1024x32_S8x32_376_0, k0_pay92 (rcvM.view.readAt (Elt F) (Rect.unit (s := S32x8x128) ![11, 0, 96] S1x8x32.size inb_S32x8x128_S1x8x32_11_0_96).toLoadRect R)⟩ ::
   ⟨Rect.unit (s := S1024x32) ![368, 0] S8x32.size inb_S1024x32_S8x32_368_0, k0_pay91 (rcvM.view.readAt (Elt F) (Rect.unit (s := S32x8x128) ![11, 0, 64] S1x8x32.size inb_S32x8x128_S1x8x32_11_0_64).toLoadRect R)⟩ ::
   ⟨Rect.unit (s := S1024x32) ![360, 0] S8x32.size inb_S1024x32_S8x32_360_0, k0_pay90 (rcvM.view.readAt (Elt F) (Rect.unit (s := S32x8x128) ![11, 0, 32] S1x8x32.size inb_S32x8x128_S1x8x32_11_0_32).toLoadRect R)⟩ ::
   ⟨Rect.unit (s := S1024x32) ![352, 0] S8x32.size inb_S1024x32_S8x32_352_0, k0_pay89 (rcvM.view.readAt (Elt F) (Rect.unit (s := S32x8x128) ![11, 0, 0] S1x8x32.size inb_S32x8x128_S1x8x32_11_0_0).toLoadRect R)⟩ ::
   ⟨Rect.unit (s := S1024x32) ![344, 0] S8x32.size inb_S1024x32_S8x32_344_0, k0_pay88 (rcvM.view.readAt (Elt F) (Rect.unit (s := S32x8x128) ![10, 0, 96] S1x8x32.size inb_S32x8x128_S1x8x32_10_0_96).toLoadRect R)⟩ ::
   ⟨Rect.unit (s := S1024x32) ![336, 0] S8x32.size inb_S1024x32_S8x32_336_0, k0_pay87 (rcvM.view.readAt (Elt F) (Rect.unit (s := S32x8x128) ![10, 0, 64] S1x8x32.size inb_S32x8x128_S1x8x32_10_0_64).toLoadRect R)⟩ ::
   ⟨Rect.unit (s := S1024x32) ![328, 0] S8x32.size inb_S1024x32_S8x32_328_0, k0_pay86 (rcvM.view.readAt (Elt F) (Rect.unit (s := S32x8x128) ![10, 0, 32] S1x8x32.size inb_S32x8x128_S1x8x32_10_0_32).toLoadRect R)⟩ ::
   ⟨Rect.unit (s := S1024x32) ![320, 0] S8x32.size inb_S1024x32_S8x32_320_0, k0_pay85 (rcvM.view.readAt (Elt F) (Rect.unit (s := S32x8x128) ![10, 0, 0] S1x8x32.size inb_S32x8x128_S1x8x32_10_0_0).toLoadRect R)⟩ ::
   ⟨Rect.unit (s := S1024x32) ![312, 0] S8x32.size inb_S1024x32_S8x32_312_0, k0_pay84 (rcvM.view.readAt (Elt F) (Rect.unit (s := S32x8x128) ![9, 0, 96] S1x8x32.size inb_S32x8x128_S1x8x32_9_0_96).toLoadRect R)⟩ ::
   ⟨Rect.unit (s := S1024x32) ![304, 0] S8x32.size inb_S1024x32_S8x32_304_0, k0_pay83 (rcvM.view.readAt (Elt F) (Rect.unit (s := S32x8x128) ![9, 0, 64] S1x8x32.size inb_S32x8x128_S1x8x32_9_0_64).toLoadRect R)⟩ ::
   ⟨Rect.unit (s := S1024x32) ![296, 0] S8x32.size inb_S1024x32_S8x32_296_0, k0_pay82 (rcvM.view.readAt (Elt F) (Rect.unit (s := S32x8x128) ![9, 0, 32] S1x8x32.size inb_S32x8x128_S1x8x32_9_0_32).toLoadRect R)⟩ ::
   ⟨Rect.unit (s := S1024x32) ![288, 0] S8x32.size inb_S1024x32_S8x32_288_0, k0_pay81 (rcvM.view.readAt (Elt F) (Rect.unit (s := S32x8x128) ![9, 0, 0] S1x8x32.size inb_S32x8x128_S1x8x32_9_0_0).toLoadRect R)⟩ ::
   ⟨Rect.unit (s := S1024x32) ![280, 0] S8x32.size inb_S1024x32_S8x32_280_0, k0_pay80 (rcvM.view.readAt (Elt F) (Rect.unit (s := S32x8x128) ![8, 0, 96] S1x8x32.size inb_S32x8x128_S1x8x32_8_0_96).toLoadRect R)⟩ ::
   ⟨Rect.unit (s := S1024x32) ![272, 0] S8x32.size inb_S1024x32_S8x32_272_0, k0_pay79 (rcvM.view.readAt (Elt F) (Rect.unit (s := S32x8x128) ![8, 0, 64] S1x8x32.size inb_S32x8x128_S1x8x32_8_0_64).toLoadRect R)⟩ ::
   ⟨Rect.unit (s := S1024x32) ![264, 0] S8x32.size inb_S1024x32_S8x32_264_0, k0_pay78 (rcvM.view.readAt (Elt F) (Rect.unit (s := S32x8x128) ![8, 0, 32] S1x8x32.size inb_S32x8x128_S1x8x32_8_0_32).toLoadRect R)⟩ ::
   ⟨Rect.unit (s := S1024x32) ![256, 0] S8x32.size inb_S1024x32_S8x32_256_0, k0_pay77 (rcvM.view.readAt (Elt F) (Rect.unit (s := S32x8x128) ![8, 0, 0] S1x8x32.size inb_S32x8x128_S1x8x32_8_0_0).toLoadRect R)⟩ ::
   ⟨Rect.unit (s := S1024x32) ![248, 0] S8x32.size inb_S1024x32_S8x32_248_0, k0_pay76 (rcvM.view.readAt (Elt F) (Rect.unit (s := S32x8x128) ![7, 0, 96] S1x8x32.size inb_S32x8x128_S1x8x32_7_0_96).toLoadRect R)⟩ ::
   ⟨Rect.unit (s := S1024x32) ![240, 0] S8x32.size inb_S1024x32_S8x32_240_0, k0_pay75 (rcvM.view.readAt (Elt F) (Rect.unit (s := S32x8x128) ![7, 0, 64] S1x8x32.size inb_S32x8x128_S1x8x32_7_0_64).toLoadRect R)⟩ ::
   ⟨Rect.unit (s := S1024x32) ![232, 0] S8x32.size inb_S1024x32_S8x32_232_0, k0_pay74 (rcvM.view.readAt (Elt F) (Rect.unit (s := S32x8x128) ![7, 0, 32] S1x8x32.size inb_S32x8x128_S1x8x32_7_0_32).toLoadRect R)⟩ ::
   ⟨Rect.unit (s := S1024x32) ![224, 0] S8x32.size inb_S1024x32_S8x32_224_0, k0_pay73 (rcvM.view.readAt (Elt F) (Rect.unit (s := S32x8x128) ![7, 0, 0] S1x8x32.size inb_S32x8x128_S1x8x32_7_0_0).toLoadRect R)⟩ ::
   ⟨Rect.unit (s := S1024x32) ![216, 0] S8x32.size inb_S1024x32_S8x32_216_0, k0_pay72 (rcvM.view.readAt (Elt F) (Rect.unit (s := S32x8x128) ![6, 0, 96] S1x8x32.size inb_S32x8x128_S1x8x32_6_0_96).toLoadRect R)⟩ ::
   ⟨Rect.unit (s := S1024x32) ![208, 0] S8x32.size inb_S1024x32_S8x32_208_0, k0_pay71 (rcvM.view.readAt (Elt F) (Rect.unit (s := S32x8x128) ![6, 0, 64] S1x8x32.size inb_S32x8x128_S1x8x32_6_0_64).toLoadRect R)⟩ ::
   ⟨Rect.unit (s := S1024x32) ![200, 0] S8x32.size inb_S1024x32_S8x32_200_0, k0_pay70 (rcvM.view.readAt (Elt F) (Rect.unit (s := S32x8x128) ![6, 0, 32] S1x8x32.size inb_S32x8x128_S1x8x32_6_0_32).toLoadRect R)⟩ ::
   ⟨Rect.unit (s := S1024x32) ![192, 0] S8x32.size inb_S1024x32_S8x32_192_0, k0_pay69 (rcvM.view.readAt (Elt F) (Rect.unit (s := S32x8x128) ![6, 0, 0] S1x8x32.size inb_S32x8x128_S1x8x32_6_0_0).toLoadRect R)⟩ ::
   ⟨Rect.unit (s := S1024x32) ![184, 0] S8x32.size inb_S1024x32_S8x32_184_0, k0_pay68 (rcvM.view.readAt (Elt F) (Rect.unit (s := S32x8x128) ![5, 0, 96] S1x8x32.size inb_S32x8x128_S1x8x32_5_0_96).toLoadRect R)⟩ ::
   ⟨Rect.unit (s := S1024x32) ![176, 0] S8x32.size inb_S1024x32_S8x32_176_0, k0_pay67 (rcvM.view.readAt (Elt F) (Rect.unit (s := S32x8x128) ![5, 0, 64] S1x8x32.size inb_S32x8x128_S1x8x32_5_0_64).toLoadRect R)⟩ ::
   ⟨Rect.unit (s := S1024x32) ![168, 0] S8x32.size inb_S1024x32_S8x32_168_0, k0_pay66 (rcvM.view.readAt (Elt F) (Rect.unit (s := S32x8x128) ![5, 0, 32] S1x8x32.size inb_S32x8x128_S1x8x32_5_0_32).toLoadRect R)⟩ ::
   ⟨Rect.unit (s := S1024x32) ![160, 0] S8x32.size inb_S1024x32_S8x32_160_0, k0_pay65 (rcvM.view.readAt (Elt F) (Rect.unit (s := S32x8x128) ![5, 0, 0] S1x8x32.size inb_S32x8x128_S1x8x32_5_0_0).toLoadRect R)⟩ ::
   ⟨Rect.unit (s := S1024x32) ![152, 0] S8x32.size inb_S1024x32_S8x32_152_0, k0_pay64 (rcvM.view.readAt (Elt F) (Rect.unit (s := S32x8x128) ![4, 0, 96] S1x8x32.size inb_S32x8x128_S1x8x32_4_0_96).toLoadRect R)⟩ ::
   ⟨Rect.unit (s := S1024x32) ![144, 0] S8x32.size inb_S1024x32_S8x32_144_0, k0_pay63 (rcvM.view.readAt (Elt F) (Rect.unit (s := S32x8x128) ![4, 0, 64] S1x8x32.size inb_S32x8x128_S1x8x32_4_0_64).toLoadRect R)⟩ ::
   ⟨Rect.unit (s := S1024x32) ![136, 0] S8x32.size inb_S1024x32_S8x32_136_0, k0_pay62 (rcvM.view.readAt (Elt F) (Rect.unit (s := S32x8x128) ![4, 0, 32] S1x8x32.size inb_S32x8x128_S1x8x32_4_0_32).toLoadRect R)⟩ ::
   ⟨Rect.unit (s := S1024x32) ![128, 0] S8x32.size inb_S1024x32_S8x32_128_0, k0_pay61 (rcvM.view.readAt (Elt F) (Rect.unit (s := S32x8x128) ![4, 0, 0] S1x8x32.size inb_S32x8x128_S1x8x32_4_0_0).toLoadRect R)⟩ ::
   ⟨Rect.unit (s := S1024x32) ![120, 0] S8x32.size inb_S1024x32_S8x32_120_0, k0_pay60 (rcvM.view.readAt (Elt F) (Rect.unit (s := S32x8x128) ![3, 0, 96] S1x8x32.size inb_S32x8x128_S1x8x32_3_0_96).toLoadRect R)⟩ ::
   ⟨Rect.unit (s := S1024x32) ![112, 0] S8x32.size inb_S1024x32_S8x32_112_0, k0_pay59 (rcvM.view.readAt (Elt F) (Rect.unit (s := S32x8x128) ![3, 0, 64] S1x8x32.size inb_S32x8x128_S1x8x32_3_0_64).toLoadRect R)⟩ ::
   ⟨Rect.unit (s := S1024x32) ![104, 0] S8x32.size inb_S1024x32_S8x32_104_0, k0_pay58 (rcvM.view.readAt (Elt F) (Rect.unit (s := S32x8x128) ![3, 0, 32] S1x8x32.size inb_S32x8x128_S1x8x32_3_0_32).toLoadRect R)⟩ ::
   ⟨Rect.unit (s := S1024x32) ![96, 0] S8x32.size inb_S1024x32_S8x32_96_0, k0_pay57 (rcvM.view.readAt (Elt F) (Rect.unit (s := S32x8x128) ![3, 0, 0] S1x8x32.size inb_S32x8x128_S1x8x32_3_0_0).toLoadRect R)⟩ ::
   ⟨Rect.unit (s := S1024x32) ![88, 0] S8x32.size inb_S1024x32_S8x32_88_0, k0_pay56 (rcvM.view.readAt (Elt F) (Rect.unit (s := S32x8x128) ![2, 0, 96] S1x8x32.size inb_S32x8x128_S1x8x32_2_0_96).toLoadRect R)⟩ ::
   ⟨Rect.unit (s := S1024x32) ![80, 0] S8x32.size inb_S1024x32_S8x32_80_0, k0_pay55 (rcvM.view.readAt (Elt F) (Rect.unit (s := S32x8x128) ![2, 0, 64] S1x8x32.size inb_S32x8x128_S1x8x32_2_0_64).toLoadRect R)⟩ ::
   ⟨Rect.unit (s := S1024x32) ![72, 0] S8x32.size inb_S1024x32_S8x32_72_0, k0_pay54 (rcvM.view.readAt (Elt F) (Rect.unit (s := S32x8x128) ![2, 0, 32] S1x8x32.size inb_S32x8x128_S1x8x32_2_0_32).toLoadRect R)⟩ ::
   ⟨Rect.unit (s := S1024x32) ![64, 0] S8x32.size inb_S1024x32_S8x32_64_0, k0_pay53 (rcvM.view.readAt (Elt F) (Rect.unit (s := S32x8x128) ![2, 0, 0] S1x8x32.size inb_S32x8x128_S1x8x32_2_0_0).toLoadRect R)⟩ ::
   ⟨Rect.unit (s := S1024x32) ![56, 0] S8x32.size inb_S1024x32_S8x32_56_0, k0_pay52 (rcvM.view.readAt (Elt F) (Rect.unit (s := S32x8x128) ![1, 0, 96] S1x8x32.size inb_S32x8x128_S1x8x32_1_0_96).toLoadRect R)⟩ ::
   ⟨Rect.unit (s := S1024x32) ![48, 0] S8x32.size inb_S1024x32_S8x32_48_0, k0_pay51 (rcvM.view.readAt (Elt F) (Rect.unit (s := S32x8x128) ![1, 0, 64] S1x8x32.size inb_S32x8x128_S1x8x32_1_0_64).toLoadRect R)⟩ ::
   ⟨Rect.unit (s := S1024x32) ![40, 0] S8x32.size inb_S1024x32_S8x32_40_0, k0_pay50 (rcvM.view.readAt (Elt F) (Rect.unit (s := S32x8x128) ![1, 0, 32] S1x8x32.size inb_S32x8x128_S1x8x32_1_0_32).toLoadRect R)⟩ ::
   ⟨Rect.unit (s := S1024x32) ![32, 0] S8x32.size inb_S1024x32_S8x32_32_0, k0_pay49 (rcvM.view.readAt (Elt F) (Rect.unit (s := S32x8x128) ![1, 0, 0] S1x8x32.size inb_S32x8x128_S1x8x32_1_0_0).toLoadRect R)⟩ ::
   ⟨Rect.unit (s := S1024x32) ![24, 0] S8x32.size inb_S1024x32_S8x32_24_0, k0_pay48 (rcvM.view.readAt (Elt F) (Rect.unit (s := S32x8x128) ![0, 0, 96] S1x8x32.size inb_S32x8x128_S1x8x32_0_0_96).toLoadRect R)⟩ ::
   ⟨Rect.unit (s := S1024x32) ![16, 0] S8x32.size inb_S1024x32_S8x32_16_0, k0_pay47 (rcvM.view.readAt (Elt F) (Rect.unit (s := S32x8x128) ![0, 0, 64] S1x8x32.size inb_S32x8x128_S1x8x32_0_0_64).toLoadRect R)⟩ ::
   ⟨Rect.unit (s := S1024x32) ![8, 0] S8x32.size inb_S1024x32_S8x32_8_0, k0_pay46 (rcvM.view.readAt (Elt F) (Rect.unit (s := S32x8x128) ![0, 0, 32] S1x8x32.size inb_S32x8x128_S1x8x32_0_0_32).toLoadRect R)⟩ ::
   ⟨Rect.unit (s := S1024x32) ![0, 0] S8x32.size inb_S1024x32_S8x32_0_0, k0_pay45 (rcvM.view.readAt (Elt F) (Rect.unit (s := S32x8x128) ![0, 0, 0] S1x8x32.size inb_S32x8x128_S1x8x32_0_0_0).toLoadRect R)⟩ :: []

theorem outPieces_length (c : Dev nD) (R : Buf (Elt F) (rcvM.view.loc (c : Thread nD τ))) : (outPieces c R).length = 128 := rfl

/-- One band: entry `(r, j)` of the block of slot `s`, lanes `32 q …`, is the closed form's entry at row `32 s + 8 q + r`,
    column `j`. -/
theorem piece_agree (c : Dev nD) (s q : Nat) (hs : s < 32) (hq : q < 4)
    (P : Vec F S1x8x32 .f32 → FVec F S8x32 .f32) (hP : P = k0_pay45)
    (inbO : ∀ a, (![32 * s + 8 * q, 0] : Fin 2 → Nat) a + S8x32.size a ≤ S1024x32.size a)
    (inbL : ∀ a, (![s, 0, 32 * q] : Fin 3 → Nat) a + S1x8x32.size a ≤ S32x8x128.size a)
    (x : (Rect.unit (s := S1024x32) ![32 * s + 8 * q, 0] S8x32.size inbO).shape.Idx) :
    P (rcvM.view.readAt (Elt F) (Rect.unit (s := S32x8x128) ![s, 0, 32 * q] S1x8x32.size inbL).toLoadRect (Rfin m c)) x
      = outFin m c ((Rect.unit (s := S1024x32) ![32 * s + 8 * q, 0] S8x32.size inbO).emb x) := by
  subst hP
  obtain ⟨r, j, rfl⟩ : ∃ (r : Fin 8) (j : Fin 32), x = ValueIdx.ix2 r j := ⟨x 0, x 1, ValueIdx.eq_ix2 x⟩
  refine (StageValue.out_pay45_apply _ r j).trans ?_
  show Rfin m c ((Rect.unit (s := S32x8x128) ![s, 0, 32 * q] S1x8x32.size inbL).toLoadRect.idx (ValueIdx.ix3 (n0 := 1) ⟨0, Nat.one_pos⟩ r j)) = _
  unfold outFin
  congr 1
  funext z
  apply Fin.ext
  match z with
  | ⟨0, _⟩ => show s + 1 * 0 = (32 * s + 8 * q + 1 * r.val) / 32; omega
  | ⟨1, _⟩ => show 0 + 1 * r.val = (32 * s + 8 * q + 1 * r.val) % 8; omega
  | ⟨2, _⟩ => show 32 * q + 1 * j.val = 32 * ((32 * s + 8 * q + 1 * r.val) % 32 / 8) + (0 + 1 * j.val); omega

/-- Every piece agrees with the closed form on its band. -/
theorem outPieces_agree (c : Dev nD) :
    ∀ p ∈ outPieces c (Rfin m c), ∀ x : p.1.shape.Idx, p.2 x = outFin m c (p.1.emb x) := by
  unfold outPieces
  refine List.forall_mem_cons.2 ⟨piece_agree m c 31 3 (by omega) (by omega) _ StageValue.out_pay_eq_172 inb_S1024x32_S8x32_1016_0 inb_S32x8x128_S1x8x32_31_0_96, ?_⟩
  refine List.forall_mem_cons.2 ⟨piece_agree m c 31 2 (by omega) (by omega) _ StageValue.out_pay_eq_171 inb_S1024x32_S8x32_1008_0 inb_S32x8x128_S1x8x32_31_0_64, ?_⟩
  refine List.forall_mem_cons.2 ⟨piece_agree m c 31 1 (by omega) (by omega) _ StageValue.out_pay_eq_170 inb_S1024x32_S8x32_1000_0 inb_S32x8x128_S1x8x32_31_0_32, ?_⟩
  refine List.forall_mem_cons.2 ⟨piece_agree m c 31 0 (by omega) (by omega) _ StageValue.out_pay_eq_169 inb_S1024x32_S8x32_992_0 inb_S32x8x128_S1x8x32_31_0_0, ?_⟩
  refine List.forall_mem_cons.2 ⟨piece_agree m c 30 3 (by omega) (by omega) _ StageValue.out_pay_eq_168 inb_S1024x32_S8x32_984_0 inb_S32x8x128_S1x8x32_30_0_96, ?_⟩
  refine List.forall_mem_cons.2 ⟨piece_agree m c 30 2 (by omega) (by omega) _ StageValue.out_pay_eq_167 inb_S1024x32_S8x32_976_0 inb_S32x8x128_S1x8x32_30_0_64, ?_⟩
  refine List.forall_mem_cons.2 ⟨piece_agree m c 30 1 (by omega) (by omega) _ StageValue.out_pay_eq_166 inb_S1024x32_S8x32_968_0 inb_S32x8x128_S1x8x32_30_0_32, ?_⟩
  refine List.forall_mem_cons.2 ⟨piece_agree m c 30 0 (by omega) (by omega) _ StageValue.out_pay_eq_165 inb_S1024x32_S8x32_960_0 inb_S32x8x128_S1x8x32_30_0_0, ?_⟩
  refine List.forall_mem_cons.2 ⟨piece_agree m c 29 3 (by omega) (by omega) _ StageValue.out_pay_eq_164 inb_S1024x32_S8x32_952_0 inb_S32x8x128_S1x8x32_29_0_96, ?_⟩
  refine List.forall_mem_cons.2 ⟨piece_agree m c 29 2 (by omega) (by omega) _ StageValue.out_pay_eq_163 inb_S1024x32_S8x32_944_0 inb_S32x8x128_S1x8x32_29_0_64, ?_⟩
  refine List.forall_mem_cons.2 ⟨piece_agree m c 29 1 (by omega) (by omega) _ StageValue.out_pay_eq_162 inb_S1024x32_S8x32_936_0 inb_S32x8x128_S1x8x32_29_0_32, ?_⟩
  refine List.forall_mem_cons.2 ⟨piece_agree m c 29 0 (by omega) (by omega) _ StageValue.out_pay_eq_161 inb_S1024x32_S8x32_928_0 inb_S32x8x128_S1x8x32_29_0_0, ?_⟩
  refine List.forall_mem_cons.2 ⟨piece_agree m c 28 3 (by omega) (by omega) _ StageValue.out_pay_eq_160 inb_S1024x32_S8x32_920_0 inb_S32x8x128_S1x8x32_28_0_96, ?_⟩
  refine List.forall_mem_cons.2 ⟨piece_agree m c 28 2 (by omega) (by omega) _ StageValue.out_pay_eq_159 inb_S1024x32_S8x32_912_0 inb_S32x8x128_S1x8x32_28_0_64, ?_⟩
  refine List.forall_mem_cons.2 ⟨piece_agree m c 28 1 (by omega) (by omega) _ StageValue.out_pay_eq_158 inb_S1024x32_S8x32_904_0 inb_S32x8x128_S1x8x32_28_0_32, ?_⟩
  refine List.forall_mem_cons.2 ⟨piece_agree m c 28 0 (by omega) (by omega) _ StageValue.out_pay_eq_157 inb_S1024x32_S8x32_896_0 inb_S32x8x128_S1x8x32_28_0_0, ?_⟩
  refine List.forall_mem_cons.2 ⟨piece_agree m c 27 3 (by omega) (by omega) _ StageValue.out_pay_eq_156 inb_S1024x32_S8x32_888_0 inb_S32x8x128_S1x8x32_27_0_96, ?_⟩
  refine List.forall_mem_cons.2 ⟨piece_agree m c 27 2 (by omega) (by omega) _ StageValue.out_pay_eq_155 inb_S1024x32_S8x32_880_0 inb_S32x8x128_S1x8x32_27_0_64, ?_⟩
  refine List.forall_mem_cons.2 ⟨piece_agree m c 27 1 (by omega) (by omega) _ StageValue.out_pay_eq_154 inb_S1024x32_S8x32_872_0 inb_S32x8x128_S1x8x32_27_0_32, ?_⟩
  refine List.forall_mem_cons.2 ⟨piece_agree m c 27 0 (by omega) (by omega) _ StageValue.out_pay_eq_153 inb_S1024x32_S8x32_864_0 inb_S32x8x128_S1x8x32_27_0_0, ?_⟩
  refine List.forall_mem_cons.2 ⟨piece_agree m c 26 3 (by omega) (by omega) _ StageValue.out_pay_eq_152 inb_S1024x32_S8x32_856_0 inb_S32x8x128_S1x8x32_26_0_96, ?_⟩
  refine List.forall_mem_cons.2 ⟨piece_agree m c 26 2 (by omega) (by omega) _ StageValue.out_pay_eq_151 inb_S1024x32_S8x32_848_0 inb_S32x8x128_S1x8x32_26_0_64, ?_⟩
  refine List.forall_mem_cons.2 ⟨piece_agree m c 26 1 (by omega) (by omega) _ StageValue.out_pay_eq_150 inb_S1024x32_S8x32_840_0 inb_S32x8x128_S1x8x32_26_0_32, ?_⟩
  refine List.forall_mem_cons.2 ⟨piece_agree m c 26 0 (by omega) (by omega) _ StageValue.out_pay_eq_149 inb_S1024x32_S8x32_832_0 inb_S32x8x128_S1x8x32_26_0_0, ?_⟩
  refine List.forall_mem_cons.2 ⟨piece_agree m c 25 3 (by omega) (by omega) _ StageValue.out_pay_eq_148 inb_S1024x32_S8x32_824_0 inb_S32x8x128_S1x8x32_25_0_96, ?_⟩
  refine List.forall_mem_cons.2 ⟨piece_agree m c 25 2 (by omega) (by omega) _ StageValue.out_pay_eq_147 inb_S1024x32_S8x32_816_0 inb_S32x8x128_S1x8x32_25_0_64, ?_⟩
  refine List.forall_mem_cons.2 ⟨piece_agree m c 25 1 (by omega) (by omega) _ StageValue.out_pay_eq_146 inb_S1024x32_S8x32_808_0 inb_S32x8x128_S1x8x32_25_0_32, ?_⟩
  refine List.forall_mem_cons.2 ⟨piece_agree m c 25 0 (by omega) (by omega) _ StageValue.out_pay_eq_145 inb_S1024x32_S8x32_800_0 inb_S32x8x128_S1x8x32_25_0_0, ?_⟩
  refine List.forall_mem_cons.2 ⟨piece_agree m c 24 3 (by omega) (by omega) _ StageValue.out_pay_eq_144 inb_S1024x32_S8x32_792_0 inb_S32x8x128_S1x8x32_24_0_96, ?_⟩
  refine List.forall_mem_cons.2 ⟨piece_agree m c 24 2 (by omega) (by omega) _ StageValue.out_pay_eq_143 inb_S1024x32_S8x32_784_0 inb_S32x8x128_S1x8x32_24_0_64, ?_⟩
  refine List.forall_mem_cons.2 ⟨piece_agree m c 24 1 (by omega) (by omega) _ StageValue.out_pay_eq_142 inb_S1024x32_S8x32_776_0 inb_S32x8x128_S1x8x32_24_0_32, ?_⟩
  refine List.forall_mem_cons.2 ⟨piece_agree m c 24 0 (by omega) (by omega) _ StageValue.out_pay_eq_141 inb_S1024x32_S8x32_768_0 inb_S32x8x128_S1x8x32_24_0_0, ?_⟩
  refine List.forall_mem_cons.2 ⟨piece_agree m c 23 3 (by omega) (by omega) _ StageValue.out_pay_eq_140 inb_S1024x32_S8x32_760_0 inb_S32x8x128_S1x8x32_23_0_96, ?_⟩
  refine List.forall_mem_cons.2 ⟨piece_agree m c 23 2 (by omega) (by omega) _ StageValue.out_pay_eq_139 inb_S1024x32_S8x32_752_0 inb_S32x8x128_S1x8x32_23_0_64, ?_⟩
  refine List.forall_mem_cons.2 ⟨piece_agree m c 23 1 (by omega) (by omega) _ StageValue.out_pay_eq_138 inb_S1024x32_S8x32_744_0 inb_S32x8x128_S1x8x32_23_0_32, ?_⟩
  refine List.forall_mem_cons.2 ⟨piece_agree m c 23 0 (by omega) (by omega) _ StageValue.out_pay_eq_137 inb_S1024x32_S8x32_736_0 inb_S32x8x128_S1x8x32_23_0_0, ?_⟩
  refine List.forall_mem_cons.2 ⟨piece_agree m c 22 3 (by omega) (by omega) _ StageValue.out_pay_eq_136 inb_S1024x32_S8x32_728_0 inb_S32x8x128_S1x8x32_22_0_96, ?_⟩
  refine List.forall_mem_cons.2 ⟨piece_agree m c 22 2 (by omega) (by omega) _ StageValue.out_pay_eq_135 inb_S1024x32_S8x32_720_0 inb_S32x8x128_S1x8x32_22_0_64, ?_⟩
  refine List.forall_mem_cons.2 ⟨piece_agree m c 22 1 (by omega) (by omega) _ StageValue.out_pay_eq_134 inb_S1024x32_S8x32_712_0 inb_S32x8x128_S1x8x32_22_0_32, ?_⟩
  refine List.forall_mem_cons.2 ⟨piece_agree m c 22 0 (by omega) (by omega) _ StageValue.out_pay_eq_133 inb_S1024x32_S8x32_704_0 inb_S32x8x128_S1x8x32_22_0_0, ?_⟩
  refine List.forall_mem_cons.2 ⟨piece_agree m c 21 3 (by omega) (by omega) _ StageValue.out_pay_eq_132 inb_S1024x32_S8x32_696_0 inb_S32x8x128_S1x8x32_21_0_96, ?_⟩
  refine List.forall_mem_cons.2 ⟨piece_agree m c 21 2 (by omega) (by omega) _ StageValue.out_pay_eq_131 inb_S1024x32_S8x32_688_0 inb_S32x8x128_S1x8x32_21_0_64, ?_⟩
  refine List.forall_mem_cons.2 ⟨piece_agree m c 21 1 (by omega) (by omega) _ StageValue.out_pay_eq_130 inb_S1024x32_S8x32_680_0 inb_S32x8x128_S1x8x32_21_0_32, ?_⟩
  refine List.forall_mem_cons.2 ⟨piece_agree m c 21 0 (by omega) (by omega) _ StageValue.out_pay_eq_129 inb_S1024x32_S8x32_672_0 inb_S32x8x128_S1x8x32_21_0_0, ?_⟩
  refine List.forall_mem_cons.2 ⟨piece_agree m c 20 3 (by omega) (by omega) _ StageValue.out_pay_eq_128 inb_S1024x32_S8x32_664_0 inb_S32x8x128_S1x8x32_20_0_96, ?_⟩
  refine List.forall_mem_cons.2 ⟨piece_agree m c 20 2 (by omega) (by omega) _ StageValue.out_pay_eq_127 inb_S1024x32_S8x32_656_0 inb_S32x8x128_S1x8x32_20_0_64, ?_⟩
  refine List.forall_mem_cons.2 ⟨piece_agree m c 20 1 (by omega) (by omega) _ StageValue.out_pay_eq_126 inb_S1024x32_S8x32_648_0 inb_S32x8x128_S1x8x32_20_0_32, ?_⟩
  refine List.forall_mem_cons.2 ⟨piece_agree m c 20 0 (by omega) (by omega) _ StageValue.out_pay_eq_125 inb_S1024x32_S8x32_640_0 inb_S32x8x128_S1x8x32_20_0_0, ?_⟩
  refine List.forall_mem_cons.2 ⟨piece_agree m c 19 3 (by omega) (by omega) _ StageValue.out_pay_eq_124 inb_S1024x32_S8x32_632_0 inb_S32x8x128_S1x8x32_19_0_96, ?_⟩
  refine List.forall_mem_cons.2 ⟨piece_agree m c 19 2 (by omega) (by omega) _ StageValue.out_pay_eq_123 inb_S1024x32_S8x32_624_0 inb_S32x8x128_S1x8x32_19_0_64, ?_⟩
  refine List.forall_mem_cons.2 ⟨piece_agree m c 19 1 (by omega) (by omega) _ StageValue.out_pay_eq_122 inb_S1024x32_S8x32_616_0 inb_S32x8x128_S1x8x32_19_0_32, ?_⟩
  refine List.forall_mem_cons.2 ⟨piece_agree m c 19 0 (by omega) (by omega) _ StageValue.out_pay_eq_121 inb_S1024x32_S8x32_608_0 inb_S32x8x128_S1x8x32_19_0_0, ?_⟩
  refine List.forall_mem_cons.2 ⟨piece_agree m c 18 3 (by omega) (by omega) _ StageValue.out_pay_eq_120 inb_S1024x32_S8x32_600_0 inb_S32x8x128_S1x8x32_18_0_96, ?_⟩
  refine List.forall_mem_cons.2 ⟨piece_agree m c 18 2 (by omega) (by omega) _ StageValue.out_pay_eq_119 inb_S1024x32_S8x32_592_0 inb_S32x8x128_S1x8x32_18_0_64, ?_⟩
  refine List.forall_mem_cons.2 ⟨piece_agree m c 18 1 (by omega) (by omega) _ StageValue.out_pay_eq_118 inb_S1024x32_S8x32_584_0 inb_S32x8x128_S1x8x32_18_0_32, ?_⟩
  refine List.forall_mem_cons.2 ⟨piece_agree m c 18 0 (by omega) (by omega) _ StageValue.out_pay_eq_117 inb_S1024x32_S8x32_576_0 inb_S32x8x128_S1x8x32_18_0_0, ?_⟩
  refine List.forall_mem_cons.2 ⟨piece_agree m c 17 3 (by omega) (by omega) _ StageValue.out_pay_eq_116 inb_S1024x32_S8x32_568_0 inb_S32x8x128_S1x8x32_17_0_96, ?_⟩
  refine List.forall_mem_cons.2 ⟨piece_agree m c 17 2 (by omega) (by omega) _ StageValue.out_pay_eq_115 inb_S1024x32_S8x32_560_0 inb_S32x8x128_S1x8x32_17_0_64, ?_⟩
  refine List.forall_mem_cons.2 ⟨piece_agree m c 17 1 (by omega) (by omega) _ StageValue.out_pay_eq_114 inb_S1024x32_S8x32_552_0 inb_S32x8x128_S1x8x32_17_0_32, ?_⟩
  refine List.forall_mem_cons.2 ⟨piece_agree m c 17 0 (by omega) (by omega) _ StageValue.out_pay_eq_113 inb_S1024x32_S8x32_544_0 inb_S32x8x128_S1x8x32_17_0_0, ?_⟩
  refine List.forall_mem_cons.2 ⟨piece_agree m c 16 3 (by omega) (by omega) _ StageValue.out_pay_eq_112 inb_S1024x32_S8x32_536_0 inb_S32x8x128_S1x8x32_16_0_96, ?_⟩
  refine List.forall_mem_cons.2 ⟨piece_agree m c 16 2 (by omega) (by omega) _ StageValue.out_pay_eq_111 inb_S1024x32_S8x32_528_0 inb_S32x8x128_S1x8x32_16_0_64, ?_⟩
  refine List.forall_mem_cons.2 ⟨piece_agree m c 16 1 (by omega) (by omega) _ StageValue.out_pay_eq_110 inb_S1024x32_S8x32_520_0 inb_S32x8x128_S1x8x32_16_0_32, ?_⟩
  refine List.forall_mem_cons.2 ⟨piece_agree m c 16 0 (by omega) (by omega) _ StageValue.out_pay_eq_109 inb_S1024x32_S8x32_512_0 inb_S32x8x128_S1x8x32_16_0_0, ?_⟩
  refine List.forall_mem_cons.2 ⟨piece_agree m c 15 3 (by omega) (by omega) _ StageValue.out_pay_eq_108 inb_S1024x32_S8x32_504_0 inb_S32x8x128_S1x8x32_15_0_96, ?_⟩
  refine List.forall_mem_cons.2 ⟨piece_agree m c 15 2 (by omega) (by omega) _ StageValue.out_pay_eq_107 inb_S1024x32_S8x32_496_0 inb_S32x8x128_S1x8x32_15_0_64, ?_⟩
  refine List.forall_mem_cons.2 ⟨piece_agree m c 15 1 (by omega) (by omega) _ StageValue.out_pay_eq_106 inb_S1024x32_S8x32_488_0 inb_S32x8x128_S1x8x32_15_0_32, ?_⟩
  refine List.forall_mem_cons.2 ⟨piece_agree m c 15 0 (by omega) (by omega) _ StageValue.out_pay_eq_105 inb_S1024x32_S8x32_480_0 inb_S32x8x128_S1x8x32_15_0_0, ?_⟩
  refine List.forall_mem_cons.2 ⟨piece_agree m c 14 3 (by omega) (by omega) _ StageValue.out_pay_eq_104 inb_S1024x32_S8x32_472_0 inb_S32x8x128_S1x8x32_14_0_96, ?_⟩
  refine List.forall_mem_cons.2 ⟨piece_agree m c 14 2 (by omega) (by omega) _ StageValue.out_pay_eq_103 inb_S1024x32_S8x32_464_0 inb_S32x8x128_S1x8x32_14_0_64, ?_⟩
  refine List.forall_mem_cons.2 ⟨piece_agree m c 14 1 (by omega) (by omega) _ StageValue.out_pay_eq_102 inb_S1024x32_S8x32_456_0 inb_S32x8x128_S1x8x32_14_0_32, ?_⟩
  refine List.forall_mem_cons.2 ⟨piece_agree m c 14 0 (by omega) (by omega) _ StageValue.out_pay_eq_101 inb_S1024x32_S8x32_448_0 inb_S32x8x128_S1x8x32_14_0_0, ?_⟩
  refine List.forall_mem_cons.2 ⟨piece_agree m c 13 3 (by omega) (by omega) _ StageValue.out_pay_eq_100 inb_S1024x32_S8x32_440_0 inb_S32x8x128_S1x8x32_13_0_96, ?_⟩
  refine List.forall_mem_cons.2 ⟨piece_agree m c 13 2 (by omega) (by omega) _ StageValue.out_pay_eq_99 inb_S1024x32_S8x32_432_0 inb_S32x8x128_S1x8x32_13_0_64, ?_⟩
  refine List.forall_mem_cons.2 ⟨piece_agree m c 13 1 (by omega) (by omega) _ StageValue.out_pay_eq_98 inb_S1024x32_S8x32_424_0 inb_S32x8x128_S1x8x32_13_0_32, ?_⟩
  refine List.forall_mem_cons.2 ⟨piece_agree m c 13 0 (by omega) (by omega) _ StageValue.out_pay_eq_97 inb_S1024x32_S8x32_416_0 inb_S32x8x128_S1x8x32_13_0_0, ?_⟩
  refine List.forall_mem_cons.2 ⟨piece_agree m c 12 3 (by omega) (by omega) _ StageValue.out_pay_eq_96 inb_S1024x32_S8x32_408_0 inb_S32x8x128_S1x8x32_12_0_96, ?_⟩
  refine List.forall_mem_cons.2 ⟨piece_agree m c 12 2 (by omega) (by omega) _ StageValue.out_pay_eq_95 inb_S1024x32_S8x32_400_0 inb_S32x8x128_S1x8x32_12_0_64, ?_⟩
  refine List.forall_mem_cons.2 ⟨piece_agree m c 12 1 (by omega) (by omega) _ StageValue.out_pay_eq_94 inb_S1024x32_S8x32_392_0 inb_S32x8x128_S1x8x32_12_0_32, ?_⟩
  refine List.forall_mem_cons.2 ⟨piece_agree m c 12 0 (by omega) (by omega) _ StageValue.out_pay_eq_93 inb_S1024x32_S8x32_384_0 inb_S32x8x128_S1x8x32_12_0_0, ?_⟩
  refine List.forall_mem_cons.2 ⟨piece_agree m c 11 3 (by omega) (by omega) _ StageValue.out_pay_eq_92 inb_S1024x32_S8x32_376_0 inb_S32x8x128_S1x8x32_11_0_96, ?_⟩
  refine List.forall_mem_cons.2 ⟨piece_agree m c 11 2 (by omega) (by omega) _ StageValue.out_pay_eq_91 inb_S1024x32_S8x32_368_0 inb_S32x8x128_S1x8x32_11_0_64, ?_⟩
  refine List.forall_mem_cons.2 ⟨piece_agree m c 11 1 (by omega) (by omega) _ StageValue.out_pay_eq_90 inb_S1024x32_S8x32_360_0 inb_S32x8x128_S1x8x32_11_0_32, ?_⟩
  refine List.forall_mem_cons.2 ⟨piece_agree m c 11 0 (by omega) (by omega) _ StageValue.out_pay_eq_89 inb_S1024x32_S8x32_352_0 inb_S32x8x128_S1x8x32_11_0_0, ?_⟩
  refine List.forall_mem_cons.2 ⟨piece_agree m c 10 3 (by omega) (by omega) _ StageValue.out_pay_eq_88 inb_S1024x32_S8x32_344_0 inb_S32x8x128_S1x8x32_10_0_96, ?_⟩
  refine List.forall_mem_cons.2 ⟨piece_agree m c 10 2 (by omega) (by omega) _ StageValue.out_pay_eq_87 inb_S1024x32_S8x32_336_0 inb_S32x8x128_S1x8x32_10_0_64, ?_⟩
  refine List.forall_mem_cons.2 ⟨piece_agree m c 10 1 (by omega) (by omega) _ StageValue.out_pay_eq_86 inb_S1024x32_S8x32_328_0 inb_S32x8x128_S1x8x32_10_0_32, ?_⟩
  refine List.forall_mem_cons.2 ⟨piece_agree m c 10 0 (by omega) (by omega) _ StageValue.out_pay_eq_85 inb_S1024x32_S8x32_320_0 inb_S32x8x128_S1x8x32_10_0_0, ?_⟩
  refine List.forall_mem_cons.2 ⟨piece_agree m c 9 3 (by omega) (by omega) _ StageValue.out_pay_eq_84 inb_S1024x32_S8x32_312_0 inb_S32x8x128_S1x8x32_9_0_96, ?_⟩
  refine List.forall_mem_cons.2 ⟨piece_agree m c 9 2 (by omega) (by omega) _ StageValue.out_pay_eq_83 inb_S1024x32_S8x32_304_0 inb_S32x8x128_S1x8x32_9_0_64, ?_⟩
  refine List.forall_mem_cons.2 ⟨piece_agree m c 9 1 (by omega) (by omega) _ StageValue.out_pay_eq_82 inb_S1024x32_S8x32_296_0 inb_S32x8x128_S1x8x32_9_0_32, ?_⟩
  refine List.forall_mem_cons.2 ⟨piece_agree m c 9 0 (by omega) (by omega) _ StageValue.out_pay_eq_81 inb_S1024x32_S8x32_288_0 inb_S32x8x128_S1x8x32_9_0_0, ?_⟩
  refine List.forall_mem_cons.2 ⟨piece_agree m c 8 3 (by omega) (by omega) _ StageValue.out_pay_eq_80 inb_S1024x32_S8x32_280_0 inb_S32x8x128_S1x8x32_8_0_96, ?_⟩
  refine List.forall_mem_cons.2 ⟨piece_agree m c 8 2 (by omega) (by omega) _ StageValue.out_pay_eq_79 inb_S1024x32_S8x32_272_0 inb_S32x8x128_S1x8x32_8_0_64, ?_⟩
  refine List.forall_mem_cons.2 ⟨piece_agree m c 8 1 (by omega) (by omega) _ StageValue.out_pay_eq_78 inb_S1024x32_S8x32_264_0 inb_S32x8x128_S1x8x32_8_0_32, ?_⟩
  refine List.forall_mem_cons.2 ⟨piece_agree m c 8 0 (by omega) (by omega) _ StageValue.out_pay_eq_77 inb_S1024x32_S8x32_256_0 inb_S32x8x128_S1x8x32_8_0_0, ?_⟩
  refine List.forall_mem_cons.2 ⟨piece_agree m c 7 3 (by omega) (by omega) _ StageValue.out_pay_eq_76 inb_S1024x32_S8x32_248_0 inb_S32x8x128_S1x8x32_7_0_96, ?_⟩
  refine List.forall_mem_cons.2 ⟨piece_agree m c 7 2 (by omega) (by omega) _ StageValue.out_pay_eq_75 inb_S1024x32_S8x32_240_0 inb_S32x8x128_S1x8x32_7_0_64, ?_⟩
  refine List.forall_mem_cons.2 ⟨piece_agree m c 7 1 (by omega) (by omega) _ StageValue.out_pay_eq_74 inb_S1024x32_S8x32_232_0 inb_S32x8x128_S1x8x32_7_0_32, ?_⟩
  refine List.forall_mem_cons.2 ⟨piece_agree m c 7 0 (by omega) (by omega) _ StageValue.out_pay_eq_73 inb_S1024x32_S8x32_224_0 inb_S32x8x128_S1x8x32_7_0_0, ?_⟩
  refine List.forall_mem_cons.2 ⟨piece_agree m c 6 3 (by omega) (by omega) _ StageValue.out_pay_eq_72 inb_S1024x32_S8x32_216_0 inb_S32x8x128_S1x8x32_6_0_96, ?_⟩
  refine List.forall_mem_cons.2 ⟨piece_agree m c 6 2 (by omega) (by omega) _ StageValue.out_pay_eq_71 inb_S1024x32_S8x32_208_0 inb_S32x8x128_S1x8x32_6_0_64, ?_⟩
  refine List.forall_mem_cons.2 ⟨piece_agree m c 6 1 (by omega) (by omega) _ StageValue.out_pay_eq_70 inb_S1024x32_S8x32_200_0 inb_S32x8x128_S1x8x32_6_0_32, ?_⟩
  refine List.forall_mem_cons.2 ⟨piece_agree m c 6 0 (by omega) (by omega) _ StageValue.out_pay_eq_69 inb_S1024x32_S8x32_192_0 inb_S32x8x128_S1x8x32_6_0_0, ?_⟩
  refine List.forall_mem_cons.2 ⟨piece_agree m c 5 3 (by omega) (by omega) _ StageValue.out_pay_eq_68 inb_S1024x32_S8x32_184_0 inb_S32x8x128_S1x8x32_5_0_96, ?_⟩
  refine List.forall_mem_cons.2 ⟨piece_agree m c 5 2 (by omega) (by omega) _ StageValue.out_pay_eq_67 inb_S1024x32_S8x32_176_0 inb_S32x8x128_S1x8x32_5_0_64, ?_⟩
  refine List.forall_mem_cons.2 ⟨piece_agree m c 5 1 (by omega) (by omega) _ StageValue.out_pay_eq_66 inb_S1024x32_S8x32_168_0 inb_S32x8x128_S1x8x32_5_0_32, ?_⟩
  refine List.forall_mem_cons.2 ⟨piece_agree m c 5 0 (by omega) (by omega) _ StageValue.out_pay_eq_65 inb_S1024x32_S8x32_160_0 inb_S32x8x128_S1x8x32_5_0_0, ?_⟩
  refine List.forall_mem_cons.2 ⟨piece_agree m c 4 3 (by omega) (by omega) _ StageValue.out_pay_eq_64 inb_S1024x32_S8x32_152_0 inb_S32x8x128_S1x8x32_4_0_96, ?_⟩
  refine List.forall_mem_cons.2 ⟨piece_agree m c 4 2 (by omega) (by omega) _ StageValue.out_pay_eq_63 inb_S1024x32_S8x32_144_0 inb_S32x8x128_S1x8x32_4_0_64, ?_⟩
  refine List.forall_mem_cons.2 ⟨piece_agree m c 4 1 (by omega) (by omega) _ StageValue.out_pay_eq_62 inb_S1024x32_S8x32_136_0 inb_S32x8x128_S1x8x32_4_0_32, ?_⟩
  refine List.forall_mem_cons.2 ⟨piece_agree m c 4 0 (by omega) (by omega) _ StageValue.out_pay_eq_61 inb_S1024x32_S8x32_128_0 inb_S32x8x128_S1x8x32_4_0_0, ?_⟩
  refine List.forall_mem_cons.2 ⟨piece_agree m c 3 3 (by omega) (by omega) _ StageValue.out_pay_eq_60 inb_S1024x32_S8x32_120_0 inb_S32x8x128_S1x8x32_3_0_96, ?_⟩
  refine List.forall_mem_cons.2 ⟨piece_agree m c 3 2 (by omega) (by omega) _ StageValue.out_pay_eq_59 inb_S1024x32_S8x32_112_0 inb_S32x8x128_S1x8x32_3_0_64, ?_⟩
  refine List.forall_mem_cons.2 ⟨piece_agree m c 3 1 (by omega) (by omega) _ StageValue.out_pay_eq_58 inb_S1024x32_S8x32_104_0 inb_S32x8x128_S1x8x32_3_0_32, ?_⟩
  refine List.forall_mem_cons.2 ⟨piece_agree m c 3 0 (by omega) (by omega) _ StageValue.out_pay_eq_57 inb_S1024x32_S8x32_96_0 inb_S32x8x128_S1x8x32_3_0_0, ?_⟩
  refine List.forall_mem_cons.2 ⟨piece_agree m c 2 3 (by omega) (by omega) _ StageValue.out_pay_eq_56 inb_S1024x32_S8x32_88_0 inb_S32x8x128_S1x8x32_2_0_96, ?_⟩
  refine List.forall_mem_cons.2 ⟨piece_agree m c 2 2 (by omega) (by omega) _ StageValue.out_pay_eq_55 inb_S1024x32_S8x32_80_0 inb_S32x8x128_S1x8x32_2_0_64, ?_⟩
  refine List.forall_mem_cons.2 ⟨piece_agree m c 2 1 (by omega) (by omega) _ StageValue.out_pay_eq_54 inb_S1024x32_S8x32_72_0 inb_S32x8x128_S1x8x32_2_0_32, ?_⟩
  refine List.forall_mem_cons.2 ⟨piece_agree m c 2 0 (by omega) (by omega) _ StageValue.out_pay_eq_53 inb_S1024x32_S8x32_64_0 inb_S32x8x128_S1x8x32_2_0_0, ?_⟩
  refine List.forall_mem_cons.2 ⟨piece_agree m c 1 3 (by omega) (by omega) _ StageValue.out_pay_eq_52 inb_S1024x32_S8x32_56_0 inb_S32x8x128_S1x8x32_1_0_96, ?_⟩
  refine List.forall_mem_cons.2 ⟨piece_agree m c 1 2 (by omega) (by omega) _ StageValue.out_pay_eq_51 inb_S1024x32_S8x32_48_0 inb_S32x8x128_S1x8x32_1_0_64, ?_⟩
  refine List.forall_mem_cons.2 ⟨piece_agree m c 1 1 (by omega) (by omega) _ StageValue.out_pay_eq_50 inb_S1024x32_S8x32_40_0 inb_S32x8x128_S1x8x32_1_0_32, ?_⟩
  refine List.forall_mem_cons.2 ⟨piece_agree m c 1 0 (by omega) (by omega) _ StageValue.out_pay_eq_49 inb_S1024x32_S8x32_32_0 inb_S32x8x128_S1x8x32_1_0_0, ?_⟩
  refine List.forall_mem_cons.2 ⟨piece_agree m c 0 3 (by omega) (by omega) _ StageValue.out_pay_eq_48 inb_S1024x32_S8x32_24_0 inb_S32x8x128_S1x8x32_0_0_96, ?_⟩
  refine List.forall_mem_cons.2 ⟨piece_agree m c 0 2 (by omega) (by omega) _ StageValue.out_pay_eq_47 inb_S1024x32_S8x32_16_0 inb_S32x8x128_S1x8x32_0_0_64, ?_⟩
  refine List.forall_mem_cons.2 ⟨piece_agree m c 0 1 (by omega) (by omega) _ StageValue.out_pay_eq_46 inb_S1024x32_S8x32_8_0 inb_S32x8x128_S1x8x32_0_0_32, ?_⟩
  refine List.forall_mem_cons.2 ⟨piece_agree m c 0 0 (by omega) (by omega) _ StageValue.out_pay_eq_45 inb_S1024x32_S8x32_0_0 inb_S32x8x128_S1x8x32_0_0_0, ?_⟩
  exact fun p hp => absurd hp List.not_mem_nil

/-- Row `ρ` lies in the band that starts at `8 (ρ / 8)`. -/
theorem cover_at (c : Dev nD) (R : Buf (Elt F) (rcvM.view.loc (c : Thread nD τ))) (i : S1024x32.Idx) (k : Nat)
    (hi : (i 0).val / 8 = k) (t : Nat) (ht : t < (outPieces c R).length)
    (inb : ∀ a, (![8 * k, 0] : Fin 2 → Nat) a + S8x32.size a ≤ S1024x32.size a)
    (w : (Rect.unit (s := S1024x32) ![8 * k, 0] S8x32.size inb).shape.Idx → Elt F .f32)
    (hget : (outPieces c R)[t] = ⟨Rect.unit (s := S1024x32) ![8 * k, 0] S8x32.size inb, w⟩) :
    ∃ p ∈ outPieces c R, i ∈ p.1.set := by
  refine ⟨_, List.getElem_mem ht, ?_⟩
  rw [hget]
  show i ∈ (Rect.unit (s := S1024x32) ![8 * k, 0] S8x32.size inb).set
  rw [Rect.mem_set_unit]
  intro a
  have h1 : (i 1).val < 32 := (i 1).isLt
  match a with
  | ⟨0, _⟩ => show 8 * k ≤ (i 0).val ∧ (i 0).val < 8 * k + 8; omega
  | ⟨1, _⟩ => show 0 ≤ (i 1).val ∧ (i 1).val < 0 + 32; omega

/-- The 128 bands cover the tile. -/
theorem outPieces_cover (c : Dev nD) (R : Buf (Elt F) (rcvM.view.loc (c : Thread nD τ))) (i : S1024x32.Idx) :
    ∃ p ∈ outPieces c R, i ∈ p.1.set := by
  have h0 : (i 0).val < 1024 := (i 0).isLt
  have hk : (i 0).val / 8 < 128 := by omega
  generalize hkk : (i 0).val / 8 = k at hk
  interval_cases k
  · exact cover_at c R i 0 hkk 127 (by rw [outPieces_length]; omega) _ _ rfl
  · exact cover_at c R i 1 hkk 126 (by rw [outPieces_length]; omega) _ _ rfl
  · exact cover_at c R i 2 hkk 125 (by rw [outPieces_length]; omega) _ _ rfl
  · exact cover_at c R i 3 hkk 124 (by rw [outPieces_length]; omega) _ _ rfl
  · exact cover_at c R i 4 hkk 123 (by rw [outPieces_length]; omega) _ _ rfl
  · exact cover_at c R i 5 hkk 122 (by rw [outPieces_length]; omega) _ _ rfl
  · exact cover_at c R i 6 hkk 121 (by rw [outPieces_length]; omega) _ _ rfl
  · exact cover_at c R i 7 hkk 120 (by rw [outPieces_length]; omega) _ _ rfl
  · exact cover_at c R i 8 hkk 119 (by rw [outPieces_length]; omega) _ _ rfl
  · exact cover_at c R i 9 hkk 118 (by rw [outPieces_length]; omega) _ _ rfl
  · exact cover_at c R i 10 hkk 117 (by rw [outPieces_length]; omega) _ _ rfl
  · exact cover_at c R i 11 hkk 116 (by rw [outPieces_length]; omega) _ _ rfl
  · exact cover_at c R i 12 hkk 115 (by rw [outPieces_length]; omega) _ _ rfl
  · exact cover_at c R i 13 hkk 114 (by rw [outPieces_length]; omega) _ _ rfl
  · exact cover_at c R i 14 hkk 113 (by rw [outPieces_length]; omega) _ _ rfl
  · exact cover_at c R i 15 hkk 112 (by rw [outPieces_length]; omega) _ _ rfl
  · exact cover_at c R i 16 hkk 111 (by rw [outPieces_length]; omega) _ _ rfl
  · exact cover_at c R i 17 hkk 110 (by rw [outPieces_length]; omega) _ _ rfl
  · exact cover_at c R i 18 hkk 109 (by rw [outPieces_length]; omega) _ _ rfl
  · exact cover_at c R i 19 hkk 108 (by rw [outPieces_length]; omega) _ _ rfl
  · exact cover_at c R i 20 hkk 107 (by rw [outPieces_length]; omega) _ _ rfl
  · exact cover_at c R i 21 hkk 106 (by rw [outPieces_length]; omega) _ _ rfl
  · exact cover_at c R i 22 hkk 105 (by rw [outPieces_length]; omega) _ _ rfl
  · exact cover_at c R i 23 hkk 104 (by rw [outPieces_length]; omega) _ _ rfl
  · exact cover_at c R i 24 hkk 103 (by rw [outPieces_length]; omega) _ _ rfl
  · exact cover_at c R i 25 hkk 102 (by rw [outPieces_length]; omega) _ _ rfl
  · exact cover_at c R i 26 hkk 101 (by rw [outPieces_length]; omega) _ _ rfl
  · exact cover_at c R i 27 hkk 100 (by rw [outPieces_length]; omega) _ _ rfl
  · exact cover_at c R i 28 hkk 99 (by rw [outPieces_length]; omega) _ _ rfl
  · exact cover_at c R i 29 hkk 98 (by rw [outPieces_length]; omega) _ _ rfl
  · exact cover_at c R i 30 hkk 97 (by rw [outPieces_length]; omega) _ _ rfl
  · exact cover_at c R i 31 hkk 96 (by rw [outPieces_length]; omega) _ _ rfl
  · exact cover_at c R i 32 hkk 95 (by rw [outPieces_length]; omega) _ _ rfl
  · exact cover_at c R i 33 hkk 94 (by rw [outPieces_length]; omega) _ _ rfl
  · exact cover_at c R i 34 hkk 93 (by rw [outPieces_length]; omega) _ _ rfl
  · exact cover_at c R i 35 hkk 92 (by rw [outPieces_length]; omega) _ _ rfl
  · exact cover_at c R i 36 hkk 91 (by rw [outPieces_length]; omega) _ _ rfl
  · exact cover_at c R i 37 hkk 90 (by rw [outPieces_length]; omega) _ _ rfl
  · exact cover_at c R i 38 hkk 89 (by rw [outPieces_length]; omega) _ _ rfl
  · exact cover_at c R i 39 hkk 88 (by rw [outPieces_length]; omega) _ _ rfl
  · exact cover_at c R i 40 hkk 87 (by rw [outPieces_length]; omega) _ _ rfl
  · exact cover_at c R i 41 hkk 86 (by rw [outPieces_length]; omega) _ _ rfl
  · exact cover_at c R i 42 hkk 85 (by rw [outPieces_length]; omega) _ _ rfl
  · exact cover_at c R i 43 hkk 84 (by rw [outPieces_length]; omega) _ _ rfl
  · exact cover_at c R i 44 hkk 83 (by rw [outPieces_length]; omega) _ _ rfl
  · exact cover_at c R i 45 hkk 82 (by rw [outPieces_length]; omega) _ _ rfl
  · exact cover_at c R i 46 hkk 81 (by rw [outPieces_length]; omega) _ _ rfl
  · exact cover_at c R i 47 hkk 80 (by rw [outPieces_length]; omega) _ _ rfl
  · exact cover_at c R i 48 hkk 79 (by rw [outPieces_length]; omega) _ _ rfl
  · exact cover_at c R i 49 hkk 78 (by rw [outPieces_length]; omega) _ _ rfl
  · exact cover_at c R i 50 hkk 77 (by rw [outPieces_length]; omega) _ _ rfl
  · exact cover_at c R i 51 hkk 76 (by rw [outPieces_length]; omega) _ _ rfl
  · exact cover_at c R i 52 hkk 75 (by rw [outPieces_length]; omega) _ _ rfl
  · exact cover_at c R i 53 hkk 74 (by rw [outPieces_length]; omega) _ _ rfl
  · exact cover_at c R i 54 hkk 73 (by rw [outPieces_length]; omega) _ _ rfl
  · exact cover_at c R i 55 hkk 72 (by rw [outPieces_length]; omega) _ _ rfl
  · exact cover_at c R i 56 hkk 71 (by rw [outPieces_length]; omega) _ _ rfl
  · exact cover_at c R i 57 hkk 70 (by rw [outPieces_length]; omega) _ _ rfl
  · exact cover_at c R i 58 hkk 69 (by rw [outPieces_length]; omega) _ _ rfl
  · exact cover_at c R i 59 hkk 68 (by rw [outPieces_length]; omega) _ _ rfl
  · exact cover_at c R i 60 hkk 67 (by rw [outPieces_length]; omega) _ _ rfl
  · exact cover_at c R i 61 hkk 66 (by rw [outPieces_length]; omega) _ _ rfl
  · exact cover_at c R i 62 hkk 65 (by rw [outPieces_length]; omega) _ _ rfl
  · exact cover_at c R i 63 hkk 64 (by rw [outPieces_length]; omega) _ _ rfl
  · exact cover_at c R i 64 hkk 63 (by rw [outPieces_length]; omega) _ _ rfl
  · exact cover_at c R i 65 hkk 62 (by rw [outPieces_length]; omega) _ _ rfl
  · exact cover_at c R i 66 hkk 61 (by rw [outPieces_length]; omega) _ _ rfl
  · exact cover_at c R i 67 hkk 60 (by rw [outPieces_length]; omega) _ _ rfl
  · exact cover_at c R i 68 hkk 59 (by rw [outPieces_length]; omega) _ _ rfl
  · exact cover_at c R i 69 hkk 58 (by rw [outPieces_length]; omega) _ _ rfl
  · exact cover_at c R i 70 hkk 57 (by rw [outPieces_length]; omega) _ _ rfl
  · exact cover_at c R i 71 hkk 56 (by rw [outPieces_length]; omega) _ _ rfl
  · exact cover_at c R i 72 hkk 55 (by rw [outPieces_length]; omega) _ _ rfl
  · exact cover_at c R i 73 hkk 54 (by rw [outPieces_length]; omega) _ _ rfl
  · exact cover_at c R i 74 hkk 53 (by rw [outPieces_length]; omega) _ _ rfl
  · exact cover_at c R i 75 hkk 52 (by rw [outPieces_length]; omega) _ _ rfl
  · exact cover_at c R i 76 hkk 51 (by rw [outPieces_length]; omega) _ _ rfl
  · exact cover_at c R i 77 hkk 50 (by rw [outPieces_length]; omega) _ _ rfl
  · exact cover_at c R i 78 hkk 49 (by rw [outPieces_length]; omega) _ _ rfl
  · exact cover_at c R i 79 hkk 48 (by rw [outPieces_length]; omega) _ _ rfl
  · exact cover_at c R i 80 hkk 47 (by rw [outPieces_length]; omega) _ _ rfl
  · exact cover_at c R i 81 hkk 46 (by rw [outPieces_length]; omega) _ _ rfl
  · exact cover_at c R i 82 hkk 45 (by rw [outPieces_length]; omega) _ _ rfl
  · exact cover_at c R i 83 hkk 44 (by rw [outPieces_length]; omega) _ _ rfl
  · exact cover_at c R i 84 hkk 43 (by rw [outPieces_length]; omega) _ _ rfl
  · exact cover_at c R i 85 hkk 42 (by rw [outPieces_length]; omega) _ _ rfl
  · exact cover_at c R i 86 hkk 41 (by rw [outPieces_length]; omega) _ _ rfl
  · exact cover_at c R i 87 hkk 40 (by rw [outPieces_length]; omega) _ _ rfl
  · exact cover_at c R i 88 hkk 39 (by rw [outPieces_length]; omega) _ _ rfl
  · exact cover_at c R i 89 hkk 38 (by rw [outPieces_length]; omega) _ _ rfl
  · exact cover_at c R i 90 hkk 37 (by rw [outPieces_length]; omega) _ _ rfl
  · exact cover_at c R i 91 hkk 36 (by rw [outPieces_length]; omega) _ _ rfl
  · exact cover_at c R i 92 hkk 35 (by rw [outPieces_length]; omega) _ _ rfl
  · exact cover_at c R i 93 hkk 34 (by rw [outPieces_length]; omega) _ _ rfl
  · exact cover_at c R i 94 hkk 33 (by rw [outPieces_length]; omega) _ _ rfl
  · exact cover_at c R i 95 hkk 32 (by rw [outPieces_length]; omega) _ _ rfl
  · exact cover_at c R i 96 hkk 31 (by rw [outPieces_length]; omega) _ _ rfl
  · exact cover_at c R i 97 hkk 30 (by rw [outPieces_length]; omega) _ _ rfl
  · exact cover_at c R i 98 hkk 29 (by rw [outPieces_length]; omega) _ _ rfl
  · exact cover_at c R i 99 hkk 28 (by rw [outPieces_length]; omega) _ _ rfl
  · exact cover_at c R i 100 hkk 27 (by rw [outPieces_length]; omega) _ _ rfl
  · exact cover_at c R i 101 hkk 26 (by rw [outPieces_length]; omega) _ _ rfl
  · exact cover_at c R i 102 hkk 25 (by rw [outPieces_length]; omega) _ _ rfl
  · exact cover_at c R i 103 hkk 24 (by rw [outPieces_length]; omega) _ _ rfl
  · exact cover_at c R i 104 hkk 23 (by rw [outPieces_length]; omega) _ _ rfl
  · exact cover_at c R i 105 hkk 22 (by rw [outPieces_length]; omega) _ _ rfl
  · exact cover_at c R i 106 hkk 21 (by rw [outPieces_length]; omega) _ _ rfl
  · exact cover_at c R i 107 hkk 20 (by rw [outPieces_length]; omega) _ _ rfl
  · exact cover_at c R i 108 hkk 19 (by rw [outPieces_length]; omega) _ _ rfl
  · exact cover_at c R i 109 hkk 18 (by rw [outPieces_length]; omega) _ _ rfl
  · exact cover_at c R i 110 hkk 17 (by rw [outPieces_length]; omega) _ _ rfl
  · exact cover_at c R i 111 hkk 16 (by rw [outPieces_length]; omega) _ _ rfl
  · exact cover_at c R i 112 hkk 15 (by rw [outPieces_length]; omega) _ _ rfl
  · exact cover_at c R i 113 hkk 14 (by rw [outPieces_length]; omega) _ _ rfl
  · exact cover_at c R i 114 hkk 13 (by rw [outPieces_length]; omega) _ _ rfl
  · exact cover_at c R i 115 hkk 12 (by rw [outPieces_length]; omega) _ _ rfl
  · exact cover_at c R i 116 hkk 11 (by rw [outPieces_length]; omega) _ _ rfl
  · exact cover_at c R i 117 hkk 10 (by rw [outPieces_length]; omega) _ _ rfl
  · exact cover_at c R i 118 hkk 9 (by rw [outPieces_length]; omega) _ _ rfl
  · exact cover_at c R i 119 hkk 8 (by rw [outPieces_length]; omega) _ _ rfl
  · exact cover_at c R i 120 hkk 7 (by rw [outPieces_length]; omega) _ _ rfl
  · exact cover_at c R i 121 hkk 6 (by rw [outPieces_length]; omega) _ _ rfl
  · exact cover_at c R i 122 hkk 5 (by rw [outPieces_length]; omega) _ _ rfl
  · exact cover_at c R i 123 hkk 4 (by rw [outPieces_length]; omega) _ _ rfl
  · exact cover_at c R i 124 hkk 3 (by rw [outPieces_length]; omega) _ _ rfl
  · exact cover_at c R i 125 hkk 2 (by rw [outPieces_length]; omega) _ _ rfl
  · exact cover_at c R i 126 hkk 1 (by rw [outPieces_length]; omega) _ _ rfl
  · exact cover_at c R i 127 hkk 0 (by rw [outPieces_length]; omega) _ _ rfl

/-- The result tile after the 128 stores, over any prior contents, is the closed form. -/
theorem out_final (c : Dev nD) (fo : Buf (Elt F) ((Memref.whole cc0_stg2_0 : Memref sig .tc .vmem S1024x32 .f32).view.loc (c : Thread nD τ))) :
    (Memref.whole cc0_stg2_0 : Memref sig .tc .vmem S1024x32 .f32).view.writes (Elt F) fo (outPieces c (Rfin m c)) = outFin m c := by
  funext i
  exact View.read_writes_apply_of_pieces (Memref.whole cc0_stg2_0 : Memref sig .tc .vmem S1024x32 .f32).view fo (outFin m c) (outPieces c (Rfin m c))
    (outPieces_agree m c) i (outPieces_cover c (Rfin m c) i)

end Cert.KernelIdeal.Exchange

end
-- ==== Proof.Body.lean ====
import proofs.«900436_g7700000000000437_dist_gemm_a2a_m1024_k1024_n1024_f32_relu_v7x_i32_1_alg».proof.Proof.BodyPost
import proofs.«900436_g7700000000000437_dist_gemm_a2a_m1024_k1024_n1024_f32_relu_v7x_i32_1_alg».proof.Proof.StageHw
import proofs.«900436_g7700000000000437_dist_gemm_a2a_m1024_k1024_n1024_f32_relu_v7x_i32_1_alg».proof.Proof.OutFinal

/-!
# One device's body

The body of device `c`, run from what the launch deals it to what the region's exit needs: the local statements in program order
over buffers held whole or slot by slot, each remote statement by its rule of the protocol.
-/

set_option maxRecDepth 16384

noncomputable section

namespace Cert.KernelIdeal.Exchange

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-- The signal rule, the device given by its printed chain's equation and the receive slot as a rectangle of the buffer. -/
theorem step_signal' (K : Dev nD × CellIx → ℕ) (c p dev : Dev nD) (hdev : dev = p) (hp : p ≠ c)
    (O' O : CellTallies nD τ sig Unit) (hO : O' = O + tallyAt (barCell p) () 1) (W : Waits sig Unit)
    (f : Buf (Elt F) ((c : Thread nD τ).loc cc0_scratch1)) (n : ℕ) (hn : n = 1)
    {α : Type} {Q : α → sProp 𝕄} {k : PUnit → Prog (TpuEff nD τ sig (Elt F) Λ₀ .tc) α} :
    iprop(records m K ∗ owes (c : Thread nD τ) O' W ∗ dutyTok ER (barCell p) 0 c
        ∗ (((c : Thread nD τ).loc cc0_scratch1) ↦[(slotRect p).set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dev, Proc.tc) : Thread nD τ) barS n) k) Q) := by
  subst hdev hO hn
  rw [← rcvSlot_eq]
  exact step_signal m K c dev hp O W f

/-- After a whole-tile store into slot `d` the slot holds the stored tile: if the tile is the final contents' there, so
    are the slot's contents. -/
theorem store_val (c d : Dev nD) (f : Buf (Elt F) ((c : Thread nD τ).loc cc0_scratch0)) (w : FVec F S1x8x128 .f32)
    (hw : ∀ (r : Fin 8) (l : Fin 128), w (ValueIdx.ix3 (n0 := 1) ⟨0, Nat.one_pos⟩ r l) = Sfin m c (ValueIdx.ix3 (n0 := 32) d r l)) :
    ∀ j ∈ (slotRect d).set, View.write (Elt F) (stgM.access (slotRect d)) f w Finset.univ j = Sfin m c j := by
  intro j hj
  have hj' : j ∈ (stgM.access (slotRect d)).set := by
    rw [show (stgM.access (slotRect d)).set = (slotRect d).set from View.set_slice_whole _ _]; exact hj
  obtain ⟨y, rfl⟩ := View.exists_emb_of_mem_set _ hj'
  rw [View.write_emb_of_mem _ _ (Finset.mem_univ y)]
  obtain ⟨z, r, l, rfl⟩ : ∃ (z : Fin 1) (r : Fin 8) (l : Fin 128), y = ValueIdx.ix3 z r l := ⟨y 0, y 1, y 2, ValueIdx.eq_ix3 y⟩
  have hz : z = ⟨0, Nat.one_pos⟩ := Fin.ext (by have := z.isLt; omega)
  subst hz
  have he : (stgM.access (slotRect d)).emb (ValueIdx.ix3 (n0 := 1) ⟨0, Nat.one_pos⟩ r l) = ValueIdx.ix3 (n0 := 32) d r l := by
    funext a
    apply Fin.ext
    match a with
    | ⟨0, _⟩ => show d.val + 1 * 0 = d.val; omega
    | ⟨1, _⟩ => show 0 + 1 * r.val = r.val; omega
    | ⟨2, _⟩ => show 0 + 1 * l.val = l.val; omega
  rw [he]
  exact hw r l

/-- A buffer's contents given a name, with the equation that defines it. -/
theorem pts_name (c : Dev nD) (f : Buf (Elt F) (oM.view.loc (c : Thread nD τ))) :
    ((oM.view.loc (c : Thread nD τ) ↦[oM.view.set]{fullShare} f) : sProp 𝕄)
      ⊢ iprop(∃ g : Buf (Elt F) (oM.view.loc (c : Thread nD τ)), ⌜g = f⌝ ∗ (oM.view.loc (c : Thread nD τ) ↦[oM.view.set]{fullShare} g)) := by
  iintro H
  iexists f
  isplitr
  · ipureintro; rfl
  · iexact H

/-- A program that has returned satisfies its postcondition at the returned value. -/
theorem wp_ret_of (c : Dev nD) {α : Type} (a : α) (Q : α → sProp 𝕄) :
    Q a ⊢ wp frame (wpE (defs₀ (F := F)) 𝒱₀ (c : Thread nD τ) none) Set.univ (Prog.ret a) Q := by
  rw [wp_ret]; iintro H; imodintro; iexact H

/-- The two DMA waits, the printed semaphore and slot given by their equations. -/
theorem step_recv_wait' (K : Dev nD × CellIx → ℕ) (c s : Dev nD) (W : Waits sig Unit)
    (q : DmaSem sig) (hq : q = recvQ s) (dst : Memref sig .tc .vmem S8x128 .f32) (hdstM : dst = slotM rcvM s)
    {sp' : Space} {s' : Shape} {e' : EltTy} {src : Memref sig .tc sp' s' e'} {hsrc : src.view.WordExact} {hdst : dst.view.WordExact}
    {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvQ s), ()) W) ∗ atPos ER (recvCell c s) 1 ∅ 0 ∗ rcvSlot c s (Rfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdstM
  exact step_recv_wait m K c s W
theorem step_send_wait' (K : Dev nD × CellIx → ℕ) (c d : Dev nD) (W : Waits sig Unit)
    (q : DmaSem sig) (hq : q = sendQ d) (dst : Memref sig .tc .vmem S8x128 .f32) (hdstM : dst = slotM stgM d)
    {sp' : Space} {s' : Shape} {e' : EltTy} {src : Memref sig .tc sp' s' e'} {hsrc : src.view.WordExact} {hdst : dst.view.WordExact}
    {α : Type} {Q : α → sProp 𝕄} {k : PUnit → Prog (TpuEff nD τ sig (Elt F) Λ₀ .tc) α} :
    iprop(records m K ∗ cred (tallyAt (sendCell c d) () N) ∗ owes (c : Thread nD τ) 0 W ∗ atPos ER (sendCell c d) 0 ∅ 0)
      ⊢ iprop(((owes (c : Thread nD τ) 0 (insert (SemLoc.dma (sendQ d), ()) W) ∗ atPos ER (sendCell c d) 1 ∅ 0 ∗ stgSlot c d (Sfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdstM
  exact step_send_wait m K c d W

set_option maxHeartbeats 8000000 in
/-- THE RUN of one device's body. -/
theorem body_run : BodyRun (F := F) m := fun K c W fs fr fo => by
  unfold bodyPre
  iintro ⟨#HR, Hlin, Hcb, Hcr, #Hlev, Hs, Hr, HO, Hx, Hw, Ho⟩
  unfold linear
  icases Hlin with ⟨HaB, HaS, HaR, HtB, HtS, HtR⟩
  rw [O₀_owe]
  -- tokens, positions and credit, each in the order the body consumes it
  ihave HtB := (Entails.of_eq (chain_sig c (fun p : Dev nD => (dutyTok ER (barCell p) 0 c : sProp 𝕄)))) $$ HtB
  icases HtB with ⟨HtB1, HtB2, HtB3, HtB4, HtB5, HtB6, HtB7, HtB8, HtB9, HtB10, HtB11, HtB12, HtB13, HtB14, HtB15, HtB16, HtB17, HtB18, HtB19, HtB20, HtB21, HtB22, HtB23, HtB24, HtB25, HtB26, HtB27, HtB28, HtB29, HtB30, HtB31⟩
  ihave HtS := (Entails.of_eq (chain_send c (fun d : Dev nD => (dutyTok ER (sendCell c d) 0 c : sProp 𝕄)))) $$ HtS
  icases HtS with ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29, HtS30, HtS31⟩
  ihave HtR := (Entails.of_eq (chain_send c (fun d : Dev nD => (dutyTok ER (recvCell d c) 0 c : sProp 𝕄)))) $$ HtR
  icases HtR with ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29, HtR30, HtR31⟩
  ihave HaS := (Entails.of_eq (chain_send c (fun d : Dev nD => (atPos ER (sendCell c d) 0 ∅ 0 : sProp 𝕄)))) $$ HaS
  icases HaS with ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31⟩
  ihave HaR := (Entails.of_eq (chain_all (fun s : Dev nD => (atPos ER (recvCell c s) 0 ∅ 0 : sProp 𝕄)))) $$ HaR
  icases HaR with ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31⟩
  ihave Hcr := (Entails.of_eq (chain_all (fun s : Dev nD => (cred (tallyAt (recvCell c s) () N) : sProp 𝕄)))) $$ Hcr
  icases Hcr with ⟨Hcr0, Hcr1, Hcr2, Hcr3, Hcr4, Hcr5, Hcr6, Hcr7, Hcr8, Hcr9, Hcr10, Hcr11, Hcr12, Hcr13, Hcr14, Hcr15, Hcr16, Hcr17, Hcr18, Hcr19, Hcr20, Hcr21, Hcr22, Hcr23, Hcr24, Hcr25, Hcr26, Hcr27, Hcr28, Hcr29, Hcr30, Hcr31⟩
  -- the receive scratch by slots: the device's own, and the 31 it hands to the others, in signalling order
  ihave Hr := (Entails.of_eq (rcv_slots (F := F) c fullShare fr)) $$ Hr
  ihave Hr := (Entails.of_eq (split_own c (fun d : Dev nD => ((((c : Thread nD τ).loc cc0_scratch1) ↦[(slotRect d).set]{fullShare} fr) : sProp 𝕄)))) $$ Hr
  icases Hr with ⟨Hrc, Hrest⟩
  ihave Hrch := (Entails.of_eq (chain_sig c (fun d : Dev nD => ((((c : Thread nD τ).loc cc0_scratch1) ↦[(slotRect d).set]{fullShare} fr) : sProp 𝕄)))) $$ Hrest
  icases Hrch with ⟨Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31⟩
  -- the staging scratch by slots, by number
  ihave Hs := (Entails.of_eq (stg_slots (F := F) c fullShare fs)) $$ Hs
  ihave Hsch := (Entails.of_eq (chain_all (fun d : Dev nD => ((((c : Thread nD τ).loc cc0_scratch0) ↦[(slotRect d).set]{fullShare} fs) : sProp 𝕄)))) $$ Hs
  icases Hsch with ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31⟩
  ihave Hs0 := (Entails.of_eq (stgSlot_eq c 0 fs).symm) $$ Hs0
  ihave Hs1 := (Entails.of_eq (stgSlot_eq c 1 fs).symm) $$ Hs1
  ihave Hs2 := (Entails.of_eq (stgSlot_eq c 2 fs).symm) $$ Hs2
  ihave Hs3 := (Entails.of_eq (stgSlot_eq c 3 fs).symm) $$ Hs3
  ihave Hs4 := (Entails.of_eq (stgSlot_eq c 4 fs).symm) $$ Hs4
  ihave Hs5 := (Entails.of_eq (stgSlot_eq c 5 fs).symm) $$ Hs5
  ihave Hs6 := (Entails.of_eq (stgSlot_eq c 6 fs).symm) $$ Hs6
  ihave Hs7 := (Entails.of_eq (stgSlot_eq c 7 fs).symm) $$ Hs7
  ihave Hs8 := (Entails.of_eq (stgSlot_eq c 8 fs).symm) $$ Hs8
  ihave Hs9 := (Entails.of_eq (stgSlot_eq c 9 fs).symm) $$ Hs9
  ihave Hs10 := (Entails.of_eq (stgSlot_eq c 10 fs).symm) $$ Hs10
  ihave Hs11 := (Entails.of_eq (stgSlot_eq c 11 fs).symm) $$ Hs11
  ihave Hs12 := (Entails.of_eq (stgSlot_eq c 12 fs).symm) $$ Hs12
  ihave Hs13 := (Entails.of_eq (stgSlot_eq c 13 fs).symm) $$ Hs13
  ihave Hs14 := (Entails.of_eq (stgSlot_eq c 14 fs).symm) $$ Hs14
  ihave Hs15 := (Entails.of_eq (stgSlot_eq c 15 fs).symm) $$ Hs15
  ihave Hs16 := (Entails.of_eq (stgSlot_eq c 16 fs).symm) $$ Hs16
  ihave Hs17 := (Entails.of_eq (stgSlot_eq c 17 fs).symm) $$ Hs17
  ihave Hs18 := (Entails.of_eq (stgSlot_eq c 18 fs).symm) $$ Hs18
  ihave Hs19 := (Entails.of_eq (stgSlot_eq c 19 fs).symm) $$ Hs19
  ihave Hs20 := (Entails.of_eq (stgSlot_eq c 20 fs).symm) $$ Hs20
  ihave Hs21 := (Entails.of_eq (stgSlot_eq c 21 fs).symm) $$ Hs21
  ihave Hs22 := (Entails.of_eq (stgSlot_eq c 22 fs).symm) $$ Hs22
  ihave Hs23 := (Entails.of_eq (stgSlot_eq c 23 fs).symm) $$ Hs23
  ihave Hs24 := (Entails.of_eq (stgSlot_eq c 24 fs).symm) $$ Hs24
  ihave Hs25 := (Entails.of_eq (stgSlot_eq c 25 fs).symm) $$ Hs25
  ihave Hs26 := (Entails.of_eq (stgSlot_eq c 26 fs).symm) $$ Hs26
  ihave Hs27 := (Entails.of_eq (stgSlot_eq c 27 fs).symm) $$ Hs27
  ihave Hs28 := (Entails.of_eq (stgSlot_eq c 28 fs).symm) $$ Hs28
  ihave Hs29 := (Entails.of_eq (stgSlot_eq c 29 fs).symm) $$ Hs29
  ihave Hs30 := (Entails.of_eq (stgSlot_eq c 30 fs).symm) $$ Hs30
  ihave Hs31 := (Entails.of_eq (stgSlot_eq c 31 fs).symm) $$ Hs31
  -- the signal to the device 1 place on
  try sl_exec
  iapply (step_signal' m K c (peer c 1) _ (dev1_eq c) (peer_ne c 1 (by decide) (by decide)) (owe0 c) (owe1 c) rfl W fr _ rfl) $$ [HO HtB1 Hr1]
  · isplitr; · iexact HR
    isplitl [HO]; · iexact HO
    isplitl [HtB1]; · iexact HtB1
    iexact Hr1
  iintro HO
  -- the signal to the device 2 places on
  try sl_exec
  iapply (step_signal' m K c (peer c 2) _ (dev2_eq c) (peer_ne c 2 (by decide) (by decide)) (owe1 c) (owe2 c) rfl W fr _ rfl) $$ [HO HtB2 Hr2]
  · isplitr; · iexact HR
    isplitl [HO]; · iexact HO
    isplitl [HtB2]; · iexact HtB2
    iexact Hr2
  iintro HO
  -- the signal to the device 3 places on
  try sl_exec
  iapply (step_signal' m K c (peer c 3) _ (dev3_eq c) (peer_ne c 3 (by decide) (by decide)) (owe2 c) (owe3 c) rfl W fr _ rfl) $$ [HO HtB3 Hr3]
  · isplitr; · iexact HR
    isplitl [HO]; · iexact HO
    isplitl [HtB3]; · iexact HtB3
    iexact Hr3
  iintro HO
  -- the signal to the device 4 places on
  try sl_exec
  iapply (step_signal' m K c (peer c 4) _ (dev4_eq c) (peer_ne c 4 (by decide) (by decide)) (owe3 c) (owe4 c) rfl W fr _ rfl) $$ [HO HtB4 Hr4]
  · isplitr; · iexact HR
    isplitl [HO]; · iexact HO
    isplitl [HtB4]; · iexact HtB4
    iexact Hr4
  iintro HO
  -- the signal to the device 5 places on
  try sl_exec
  iapply (step_signal' m K c (peer c 5) _ (dev5_eq c) (peer_ne c 5 (by decide) (by decide)) (owe4 c) (owe5 c) rfl W fr _ rfl) $$ [HO HtB5 Hr5]
  · isplitr; · iexact HR
    isplitl [HO]; · iexact HO
    isplitl [HtB5]; · iexact HtB5
    iexact Hr5
  iintro HO
  -- the signal to the device 6 places on
  try sl_exec
  iapply (step_signal' m K c (peer c 6) _ (dev6_eq c) (peer_ne c 6 (by decide) (by decide)) (owe5 c) (owe6 c) rfl W fr _ rfl) $$ [HO HtB6 Hr6]
  · isplitr; · iexact HR
    isplitl [HO]; · iexact HO
    isplitl [HtB6]; · iexact HtB6
    iexact Hr6
  iintro HO
  -- the signal to the device 7 places on
  try sl_exec
  iapply (step_signal' m K c (peer c 7) _ (dev7_eq c) (peer_ne c 7 (by decide) (by decide)) (owe6 c) (owe7 c) rfl W fr _ rfl) $$ [HO HtB7 Hr7]
  · isplitr; · iexact HR
    isplitl [HO]; · iexact HO
    isplitl [HtB7]; · iexact HtB7
    iexact Hr7
  iintro HO
  -- the signal to the device 8 places on
  try sl_exec
  iapply (step_signal' m K c (peer c 8) _ (dev8_eq c) (peer_ne c 8 (by decide) (by decide)) (owe7 c) (owe8 c) rfl W fr _ rfl) $$ [HO HtB8 Hr8]
  · isplitr; · iexact HR
    isplitl [HO]; · iexact HO
    isplitl [HtB8]; · iexact HtB8
    iexact Hr8
  iintro HO
  -- the signal to the device 9 places on
  try sl_exec
  iapply (step_signal' m K c (peer c 9) _ (dev9_eq c) (peer_ne c 9 (by decide) (by decide)) (owe8 c) (owe9 c) rfl W fr _ rfl) $$ [HO HtB9 Hr9]
  · isplitr; · iexact HR
    isplitl [HO]; · iexact HO
    isplitl [HtB9]; · iexact HtB9
    iexact Hr9
  iintro HO
  -- the signal to the device 10 places on
  try sl_exec
  iapply (step_signal' m K c (peer c 10) _ (dev10_eq c) (peer_ne c 10 (by decide) (by decide)) (owe9 c) (owe10 c) rfl W fr _ rfl) $$ [HO HtB10 Hr10]
  · isplitr; · iexact HR
    isplitl [HO]; · iexact HO
    isplitl [HtB10]; · iexact HtB10
    iexact Hr10
  iintro HO
  -- the signal to the device 11 places on
  try sl_exec
  iapply (step_signal' m K c (peer c 11) _ (dev11_eq c) (peer_ne c 11 (by decide) (by decide)) (owe10 c) (owe11 c) rfl W fr _ rfl) $$ [HO HtB11 Hr11]
  · isplitr; · iexact HR
    isplitl [HO]; · iexact HO
    isplitl [HtB11]; · iexact HtB11
    iexact Hr11
  iintro HO
  -- the signal to the device 12 places on
  try sl_exec
  iapply (step_signal' m K c (peer c 12) _ (dev12_eq c) (peer_ne c 12 (by decide) (by decide)) (owe11 c) (owe12 c) rfl W fr _ rfl) $$ [HO HtB12 Hr12]
  · isplitr; · iexact HR
    isplitl [HO]; · iexact HO
    isplitl [HtB12]; · iexact HtB12
    iexact Hr12
  iintro HO
  -- the signal to the device 13 places on
  try sl_exec
  iapply (step_signal' m K c (peer c 13) _ (dev13_eq c) (peer_ne c 13 (by decide) (by decide)) (owe12 c) (owe13 c) rfl W fr _ rfl) $$ [HO HtB13 Hr13]
  · isplitr; · iexact HR
    isplitl [HO]; · iexact HO
    isplitl [HtB13]; · iexact HtB13
    iexact Hr13
  iintro HO
  -- the signal to the device 14 places on
  try sl_exec
  iapply (step_signal' m K c (peer c 14) _ (dev14_eq c) (peer_ne c 14 (by decide) (by decide)) (owe13 c) (owe14 c) rfl W fr _ rfl) $$ [HO HtB14 Hr14]
  · isplitr; · iexact HR
    isplitl [HO]; · iexact HO
    isplitl [HtB14]; · iexact HtB14
    iexact Hr14
  iintro HO
  -- the signal to the device 15 places on
  try sl_exec
  iapply (step_signal' m K c (peer c 15) _ (dev15_eq c) (peer_ne c 15 (by decide) (by decide)) (owe14 c) (owe15 c) rfl W fr _ rfl) $$ [HO HtB15 Hr15]
  · isplitr; · iexact HR
    isplitl [HO]; · iexact HO
    isplitl [HtB15]; · iexact HtB15
    iexact Hr15
  iintro HO
  -- the signal to the device 16 places on
  try sl_exec
  iapply (step_signal' m K c (peer c 16) _ (dev16_eq c) (peer_ne c 16 (by decide) (by decide)) (owe15 c) (owe16 c) rfl W fr _ rfl) $$ [HO HtB16 Hr16]
  · isplitr; · iexact HR
    isplitl [HO]; · iexact HO
    isplitl [HtB16]; · iexact HtB16
    iexact Hr16
  iintro HO
  -- the signal to the device 17 places on
  try sl_exec
  iapply (step_signal' m K c (peer c 17) _ (dev17_eq c) (peer_ne c 17 (by decide) (by decide)) (owe16 c) (owe17 c) rfl W fr _ rfl) $$ [HO HtB17 Hr17]
  · isplitr; · iexact HR
    isplitl [HO]; · iexact HO
    isplitl [HtB17]; · iexact HtB17
    iexact Hr17
  iintro HO
  -- the signal to the device 18 places on
  try sl_exec
  iapply (step_signal' m K c (peer c 18) _ (dev18_eq c) (peer_ne c 18 (by decide) (by decide)) (owe17 c) (owe18 c) rfl W fr _ rfl) $$ [HO HtB18 Hr18]
  · isplitr; · iexact HR
    isplitl [HO]; · iexact HO
    isplitl [HtB18]; · iexact HtB18
    iexact Hr18
  iintro HO
  -- the signal to the device 19 places on
  try sl_exec
  iapply (step_signal' m K c (peer c 19) _ (dev19_eq c) (peer_ne c 19 (by decide) (by decide)) (owe18 c) (owe19 c) rfl W fr _ rfl) $$ [HO HtB19 Hr19]
  · isplitr; · iexact HR
    isplitl [HO]; · iexact HO
    isplitl [HtB19]; · iexact HtB19
    iexact Hr19
  iintro HO
  -- the signal to the device 20 places on
  try sl_exec
  iapply (step_signal' m K c (peer c 20) _ (dev20_eq c) (peer_ne c 20 (by decide) (by decide)) (owe19 c) (owe20 c) rfl W fr _ rfl) $$ [HO HtB20 Hr20]
  · isplitr; · iexact HR
    isplitl [HO]; · iexact HO
    isplitl [HtB20]; · iexact HtB20
    iexact Hr20
  iintro HO
  -- the signal to the device 21 places on
  try sl_exec
  iapply (step_signal' m K c (peer c 21) _ (dev21_eq c) (peer_ne c 21 (by decide) (by decide)) (owe20 c) (owe21 c) rfl W fr _ rfl) $$ [HO HtB21 Hr21]
  · isplitr; · iexact HR
    isplitl [HO]; · iexact HO
    isplitl [HtB21]; · iexact HtB21
    iexact Hr21
  iintro HO
  -- the signal to the device 22 places on
  try sl_exec
  iapply (step_signal' m K c (peer c 22) _ (dev22_eq c) (peer_ne c 22 (by decide) (by decide)) (owe21 c) (owe22 c) rfl W fr _ rfl) $$ [HO HtB22 Hr22]
  · isplitr; · iexact HR
    isplitl [HO]; · iexact HO
    isplitl [HtB22]; · iexact HtB22
    iexact Hr22
  iintro HO
  -- the signal to the device 23 places on
  try sl_exec
  iapply (step_signal' m K c (peer c 23) _ (dev23_eq c) (peer_ne c 23 (by decide) (by decide)) (owe22 c) (owe23 c) rfl W fr _ rfl) $$ [HO HtB23 Hr23]
  · isplitr; · iexact HR
    isplitl [HO]; · iexact HO
    isplitl [HtB23]; · iexact HtB23
    iexact Hr23
  iintro HO
  -- the signal to the device 24 places on
  try sl_exec
  iapply (step_signal' m K c (peer c 24) _ (dev24_eq c) (peer_ne c 24 (by decide) (by decide)) (owe23 c) (owe24 c) rfl W fr _ rfl) $$ [HO HtB24 Hr24]
  · isplitr; · iexact HR
    isplitl [HO]; · iexact HO
    isplitl [HtB24]; · iexact HtB24
    iexact Hr24
  iintro HO
  -- the signal to the device 25 places on
  try sl_exec
  iapply (step_signal' m K c (peer c 25) _ (dev25_eq c) (peer_ne c 25 (by decide) (by decide)) (owe24 c) (owe25 c) rfl W fr _ rfl) $$ [HO HtB25 Hr25]
  · isplitr; · iexact HR
    isplitl [HO]; · iexact HO
    isplitl [HtB25]; · iexact HtB25
    iexact Hr25
  iintro HO
  -- the signal to the device 26 places on
  try sl_exec
  iapply (step_signal' m K c (peer c 26) _ (dev26_eq c) (peer_ne c 26 (by decide) (by decide)) (owe25 c) (owe26 c) rfl W fr _ rfl) $$ [HO HtB26 Hr26]
  · isplitr; · iexact HR
    isplitl [HO]; · iexact HO
    isplitl [HtB26]; · iexact HtB26
    iexact Hr26
  iintro HO
  -- the signal to the device 27 places on
  try sl_exec
  iapply (step_signal' m K c (peer c 27) _ (dev27_eq c) (peer_ne c 27 (by decide) (by decide)) (owe26 c) (owe27 c) rfl W fr _ rfl) $$ [HO HtB27 Hr27]
  · isplitr; · iexact HR
    isplitl [HO]; · iexact HO
    isplitl [HtB27]; · iexact HtB27
    iexact Hr27
  iintro HO
  -- the signal to the device 28 places on
  try sl_exec
  iapply (step_signal' m K c (peer c 28) _ (dev28_eq c) (peer_ne c 28 (by decide) (by decide)) (owe27 c) (owe28 c) rfl W fr _ rfl) $$ [HO HtB28 Hr28]
  · isplitr; · iexact HR
    isplitl [HO]; · iexact HO
    isplitl [HtB28]; · iexact HtB28
    iexact Hr28
  iintro HO
  -- the signal to the device 29 places on
  try sl_exec
  iapply (step_signal' m K c (peer c 29) _ (dev29_eq c) (peer_ne c 29 (by decide) (by decide)) (owe28 c) (owe29 c) rfl W fr _ rfl) $$ [HO HtB29 Hr29]
  · isplitr; · iexact HR
    isplitl [HO]; · iexact HO
    isplitl [HtB29]; · iexact HtB29
    iexact Hr29
  iintro HO
  -- the signal to the device 30 places on
  try sl_exec
  iapply (step_signal' m K c (peer c 30) _ (dev30_eq c) (peer_ne c 30 (by decide) (by decide)) (owe29 c) (owe30 c) rfl W fr _ rfl) $$ [HO HtB30 Hr30]
  · isplitr; · iexact HR
    isplitl [HO]; · iexact HO
    isplitl [HtB30]; · iexact HtB30
    iexact Hr30
  iintro HO
  -- the signal to the device 31 places on
  try sl_exec
  iapply (step_signal' m K c (peer c 31) _ (dev31_eq c) (peer_ne c 31 (by decide) (by decide)) (owe30 c) (owe31 c) rfl W fr _ rfl) $$ [HO HtB31 Hr31]
  · isplitr; · iexact HR
    isplitl [HO]; · iexact HO
    isplitl [HtB31]; · iexact HtB31
    iexact Hr31
  iintro HO
  -- the wait for the 31 signals; with them slot `c` of every other device's receive scratch
  try sl_exec
  iapply (step_barrier m K c (owe31 c) W) $$ [Hcb HO HaB]
  · isplitr; · iexact HR
    isplitl [Hcb]; · iexact Hcb
    isplitl [HO]; · iexact HO
    isplitr; · iapply (mayWait_bar (F := F) c); iexact Hlev
    iexact HaB
  iintro ⟨HO, HaB, Hpay⟩
  ihave Hdst := (barPay_all (F := F) c fr) $$ [Hrc Hpay]
  · isplitl [Hrc]; · iexact Hrc
    iexact Hpay
  ihave Hdch := (Entails.of_eq (chain_send c (fun d : Dev nD => (iprop(∃ f : Buf (Elt F) ((d : Thread nD τ).loc cc0_scratch1), ((d : Thread nD τ).loc cc0_scratch1) ↦[(slotRect c).set]{fullShare} f) : sProp 𝕄)))) $$ Hdst
  icases Hdch with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩, ⟨%fd16, Hd16⟩, ⟨%fd17, Hd17⟩, ⟨%fd18, Hd18⟩, ⟨%fd19, Hd19⟩, ⟨%fd20, Hd20⟩, ⟨%fd21, Hd21⟩, ⟨%fd22, Hd22⟩, ⟨%fd23, Hd23⟩, ⟨%fd24, Hd24⟩, ⟨%fd25, Hd25⟩, ⟨%fd26, Hd26⟩, ⟨%fd27, Hd27⟩, ⟨%fd28, Hd28⟩, ⟨%fd29, Hd29⟩, ⟨%fd30, Hd30⟩, ⟨%fd31, Hd31⟩⟩
  -- group 0: each stored slot holds the final contents there; then the eight slots in sending order
  ihave Hs0 := (Entails.of_eq (stgSlot_eq c 0 _)) $$ Hs0
  ihave Hs0 := (Entails.of_eq (BI.Region.is_congr (store_val m c 0 _ _ (stage_hw_0 m c)))) $$ Hs0
  ihave Hs1 := (Entails.of_eq (stgSlot_eq c 1 _)) $$ Hs1
  ihave Hs1 := (Entails.of_eq (BI.Region.is_congr (store_val m c 1 _ _ (stage_hw_1 m c)))) $$ Hs1
  ihave Hs2 := (Entails.of_eq (stgSlot_eq c 2 _)) $$ Hs2
  ihave Hs2 := (Entails.of_eq (BI.Region.is_congr (store_val m c 2 _ _ (stage_hw_2 m c)))) $$ Hs2
  ihave Hs3 := (Entails.of_eq (stgSlot_eq c 3 _)) $$ Hs3
  ihave Hs3 := (Entails.of_eq (BI.Region.is_congr (store_val m c 3 _ _ (stage_hw_3 m c)))) $$ Hs3
  ihave Hs4 := (Entails.of_eq (stgSlot_eq c 4 _)) $$ Hs4
  ihave Hs4 := (Entails.of_eq (BI.Region.is_congr (store_val m c 4 _ _ (stage_hw_4 m c)))) $$ Hs4
  ihave Hs5 := (Entails.of_eq (stgSlot_eq c 5 _)) $$ Hs5
  ihave Hs5 := (Entails.of_eq (BI.Region.is_congr (store_val m c 5 _ _ (stage_hw_5 m c)))) $$ Hs5
  ihave Hs6 := (Entails.of_eq (stgSlot_eq c 6 _)) $$ Hs6
  ihave Hs6 := (Entails.of_eq (BI.Region.is_congr (store_val m c 6 _ _ (stage_hw_6 m c)))) $$ Hs6
  ihave Hs7 := (Entails.of_eq (stgSlot_eq c 7 _)) $$ Hs7
  ihave Hs7 := (Entails.of_eq (BI.Region.is_congr (store_val m c 7 _ _ (stage_hw_7 m c)))) $$ Hs7
  ihave Hg0 := (Entails.of_eq (grp0_rot c (fun d : Dev nD => ((((c : Thread nD τ).loc cc0_scratch0) ↦[(slotRect d).set]{fullShare} Sfin m c) : sProp 𝕄)))) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  icases Hg0 with ⟨HSs0, HSs1, HSs2, HSs3, HSs4, HSs5, HSs6, HSs7⟩
  -- the copy to the device `dest c 0 0`
  try sl_exec
  iapply (step_send' m K c (dest c 0 0) _ (dev32_eq c) _ _ (src_eq c 0 0 _ _) (dst_eq c _ _) _ _ (send_sem_eq c 0 0 _) (recv_sem_eq c _)
      (owe31 c) (owe32 c) rfl _ (Sfin m c) (fun _ _ => rfl) fd0) $$ [HSs0 Hd0 HO HtS0 HtR0]
  · isplitr; · iexact HR
    isplitl [HSs0]; · iexact HSs0
    isplitl [Hd0]; · iexact Hd0
    isplitl [HO]; · iexact HO
    isplitl [HtS0]; · iexact HtS0
    iexact HtR0
  iintro ⟨Hcs0, HO⟩
  -- the copy to the device `dest c 0 1`
  try sl_exec
  iapply (step_send' m K c (dest c 0 1) _ (dev33_eq c) _ _ (src_eq c 0 1 _ _) (dst_eq c _ _) _ _ (send_sem_eq c 0 1 _) (recv_sem_eq c _)
      (owe32 c) (owe33 c) rfl _ (Sfin m c) (fun _ _ => rfl) fd1) $$ [HSs1 Hd1 HO HtS1 HtR1]
  · isplitr; · iexact HR
    isplitl [HSs1]; · iexact HSs1
    isplitl [Hd1]; · iexact Hd1
    isplitl [HO]; · iexact HO
    isplitl [HtS1]; · iexact HtS1
    iexact HtR1
  iintro ⟨Hcs1, HO⟩
  -- the copy to the device `dest c 0 2`
  try sl_exec
  iapply (step_send' m K c (dest c 0 2) _ (dev34_eq c) _ _ (src_eq c 0 2 _ _) (dst_eq c _ _) _ _ (send_sem_eq c 0 2 _) (recv_sem_eq c _)
      (owe33 c) (owe34 c) rfl _ (Sfin m c) (fun _ _ => rfl) fd2) $$ [HSs2 Hd2 HO HtS2 HtR2]
  · isplitr; · iexact HR
    isplitl [HSs2]; · iexact HSs2
    isplitl [Hd2]; · iexact Hd2
    isplitl [HO]; · iexact HO
    isplitl [HtS2]; · iexact HtS2
    iexact HtR2
  iintro ⟨Hcs2, HO⟩
  -- the copy to the device `dest c 0 3`
  try sl_exec
  iapply (step_send' m K c (dest c 0 3) _ (dev35_eq c) _ _ (src_eq c 0 3 _ _) (dst_eq c _ _) _ _ (send_sem_eq c 0 3 _) (recv_sem_eq c _)
      (owe34 c) (owe35 c) rfl _ (Sfin m c) (fun _ _ => rfl) fd3) $$ [HSs3 Hd3 HO HtS3 HtR3]
  · isplitr; · iexact HR
    isplitl [HSs3]; · iexact HSs3
    isplitl [Hd3]; · iexact Hd3
    isplitl [HO]; · iexact HO
    isplitl [HtS3]; · iexact HtS3
    iexact HtR3
  iintro ⟨Hcs3, HO⟩
  -- the copy to the device `dest c 0 4`
  try sl_exec
  iapply (step_send' m K c (dest c 0 4) _ (dev36_eq c) _ _ (src_eq c 0 4 _ _) (dst_eq c _ _) _ _ (send_sem_eq c 0 4 _) (recv_sem_eq c _)
      (owe35 c) (owe36 c) rfl _ (Sfin m c) (fun _ _ => rfl) fd4) $$ [HSs4 Hd4 HO HtS4 HtR4]
  · isplitr; · iexact HR
    isplitl [HSs4]; · iexact HSs4
    isplitl [Hd4]; · iexact Hd4
    isplitl [HO]; · iexact HO
    isplitl [HtS4]; · iexact HtS4
    iexact HtR4
  iintro ⟨Hcs4, HO⟩
  -- the copy to the device `dest c 0 5`
  try sl_exec
  iapply (step_send' m K c (dest c 0 5) _ (dev37_eq c) _ _ (src_eq c 0 5 _ _) (dst_eq c _ _) _ _ (send_sem_eq c 0 5 _) (recv_sem_eq c _)
      (owe36 c) (owe37 c) rfl _ (Sfin m c) (fun _ _ => rfl) fd5) $$ [HSs5 Hd5 HO HtS5 HtR5]
  · isplitr; · iexact HR
    isplitl [HSs5]; · iexact HSs5
    isplitl [Hd5]; · iexact Hd5
    isplitl [HO]; · iexact HO
    isplitl [HtS5]; · iexact HtS5
    iexact HtR5
  iintro ⟨Hcs5, HO⟩
  -- the copy to the device `dest c 0 6`
  try sl_exec
  iapply (step_send' m K c (dest c 0 6) _ (dev38_eq c) _ _ (src_eq c 0 6 _ _) (dst_eq c _ _) _ _ (send_sem_eq c 0 6 _) (recv_sem_eq c _)
      (owe37 c) (owe38 c) rfl _ (Sfin m c) (fun _ _ => rfl) fd6) $$ [HSs6 Hd6 HO HtS6 HtR6]
  · isplitr; · iexact HR
    isplitl [HSs6]; · iexact HSs6
    isplitl [Hd6]; · iexact Hd6
    isplitl [HO]; · iexact HO
    isplitl [HtS6]; · iexact HtS6
    iexact HtR6
  iintro ⟨Hcs6, HO⟩
  -- the copy to the device `dest c 0 7`
  try sl_exec
  iapply (step_send' m K c (dest c 0 7) _ (dev39_eq c) _ _ (src_eq c 0 7 _ _) (dst_eq c _ _) _ _ (send_sem_eq c 0 7 _) (recv_sem_eq c _)
      (owe38 c) (owe39 c) rfl _ (Sfin m c) (fun _ _ => rfl) fd7) $$ [HSs7 Hd7 HO HtS7 HtR7]
  · isplitr; · iexact HR
    isplitl [HSs7]; · iexact HSs7
    isplitl [Hd7]; · iexact Hd7
    isplitl [HO]; · iexact HO
    isplitl [HtS7]; · iexact HtS7
    iexact HtR7
  iintro ⟨Hcs7, HO⟩
  try sl_exec
  -- group 1: each stored slot holds the final contents there; then the eight slots in sending order
  ihave Hs8 := (Entails.of_eq (stgSlot_eq c 8 _)) $$ Hs8
  ihave Hs8 := (Entails.of_eq (BI.Region.is_congr (store_val m c 8 _ _ (stage_hw_8 m c)))) $$ Hs8
  ihave Hs9 := (Entails.of_eq (stgSlot_eq c 9 _)) $$ Hs9
  ihave Hs9 := (Entails.of_eq (BI.Region.is_congr (store_val m c 9 _ _ (stage_hw_9 m c)))) $$ Hs9
  ihave Hs10 := (Entails.of_eq (stgSlot_eq c 10 _)) $$ Hs10
  ihave Hs10 := (Entails.of_eq (BI.Region.is_congr (store_val m c 10 _ _ (stage_hw_10 m c)))) $$ Hs10
  ihave Hs11 := (Entails.of_eq (stgSlot_eq c 11 _)) $$ Hs11
  ihave Hs11 := (Entails.of_eq (BI.Region.is_congr (store_val m c 11 _ _ (stage_hw_11 m c)))) $$ Hs11
  ihave Hs12 := (Entails.of_eq (stgSlot_eq c 12 _)) $$ Hs12
  ihave Hs12 := (Entails.of_eq (BI.Region.is_congr (store_val m c 12 _ _ (stage_hw_12 m c)))) $$ Hs12
  ihave Hs13 := (Entails.of_eq (stgSlot_eq c 13 _)) $$ Hs13
  ihave Hs13 := (Entails.of_eq (BI.Region.is_congr (store_val m c 13 _ _ (stage_hw_13 m c)))) $$ Hs13
  ihave Hs14 := (Entails.of_eq (stgSlot_eq c 14 _)) $$ Hs14
  ihave Hs14 := (Entails.of_eq (BI.Region.is_congr (store_val m c 14 _ _ (stage_hw_14 m c)))) $$ Hs14
  ihave Hs15 := (Entails.of_eq (stgSlot_eq c 15 _)) $$ Hs15
  ihave Hs15 := (Entails.of_eq (BI.Region.is_congr (store_val m c 15 _ _ (stage_hw_15 m c)))) $$ Hs15
  ihave Hg1 := (Entails.of_eq (grp1_rot c (fun d : Dev nD => ((((c : Thread nD τ).loc cc0_scratch0) ↦[(slotRect d).set]{fullShare} Sfin m c) : sProp 𝕄)))) $$ [Hs8 Hs9 Hs10 Hs11 Hs12 Hs13 Hs14 Hs15]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  icases Hg1 with ⟨HSs8, HSs9, HSs10, HSs11, HSs12, HSs13, HSs14, HSs15⟩
  -- the copy to the device `dest c 1 0`
  try sl_exec
  iapply (step_send' m K c (dest c 1 0) _ (dev40_eq c) _ _ (src_eq c 1 0 _ _) (dst_eq c _ _) _ _ (send_sem_eq c 1 0 _) (recv_sem_eq c _)
      (owe39 c) (owe40 c) rfl _ (Sfin m c) (fun _ _ => rfl) fd8) $$ [HSs8 Hd8 HO HtS8 HtR8]
  · isplitr; · iexact HR
    isplitl [HSs8]; · iexact HSs8
    isplitl [Hd8]; · iexact Hd8
    isplitl [HO]; · iexact HO
    isplitl [HtS8]; · iexact HtS8
    iexact HtR8
  iintro ⟨Hcs8, HO⟩
  -- the copy to the device `dest c 1 1`
  try sl_exec
  iapply (step_send' m K c (dest c 1 1) _ (dev41_eq c) _ _ (src_eq c 1 1 _ _) (dst_eq c _ _) _ _ (send_sem_eq c 1 1 _) (recv_sem_eq c _)
      (owe40 c) (owe41 c) rfl _ (Sfin m c) (fun _ _ => rfl) fd9) $$ [HSs9 Hd9 HO HtS9 HtR9]
  · isplitr; · iexact HR
    isplitl [HSs9]; · iexact HSs9
    isplitl [Hd9]; · iexact Hd9
    isplitl [HO]; · iexact HO
    isplitl [HtS9]; · iexact HtS9
    iexact HtR9
  iintro ⟨Hcs9, HO⟩
  -- the copy to the device `dest c 1 2`
  try sl_exec
  iapply (step_send' m K c (dest c 1 2) _ (dev42_eq c) _ _ (src_eq c 1 2 _ _) (dst_eq c _ _) _ _ (send_sem_eq c 1 2 _) (recv_sem_eq c _)
      (owe41 c) (owe42 c) rfl _ (Sfin m c) (fun _ _ => rfl) fd10) $$ [HSs10 Hd10 HO HtS10 HtR10]
  · isplitr; · iexact HR
    isplitl [HSs10]; · iexact HSs10
    isplitl [Hd10]; · iexact Hd10
    isplitl [HO]; · iexact HO
    isplitl [HtS10]; · iexact HtS10
    iexact HtR10
  iintro ⟨Hcs10, HO⟩
  -- the copy to the device `dest c 1 3`
  try sl_exec
  iapply (step_send' m K c (dest c 1 3) _ (dev43_eq c) _ _ (src_eq c 1 3 _ _) (dst_eq c _ _) _ _ (send_sem_eq c 1 3 _) (recv_sem_eq c _)
      (owe42 c) (owe43 c) rfl _ (Sfin m c) (fun _ _ => rfl) fd11) $$ [HSs11 Hd11 HO HtS11 HtR11]
  · isplitr; · iexact HR
    isplitl [HSs11]; · iexact HSs11
    isplitl [Hd11]; · iexact Hd11
    isplitl [HO]; · iexact HO
    isplitl [HtS11]; · iexact HtS11
    iexact HtR11
  iintro ⟨Hcs11, HO⟩
  -- the copy to the device `dest c 1 4`
  try sl_exec
  iapply (step_send' m K c (dest c 1 4) _ (dev44_eq c) _ _ (src_eq c 1 4 _ _) (dst_eq c _ _) _ _ (send_sem_eq c 1 4 _) (recv_sem_eq c _)
      (owe43 c) (owe44 c) rfl _ (Sfin m c) (fun _ _ => rfl) fd12) $$ [HSs12 Hd12 HO HtS12 HtR12]
  · isplitr; · iexact HR
    isplitl [HSs12]; · iexact HSs12
    isplitl [Hd12]; · iexact Hd12
    isplitl [HO]; · iexact HO
    isplitl [HtS12]; · iexact HtS12
    iexact HtR12
  iintro ⟨Hcs12, HO⟩
  -- the copy to the device `dest c 1 5`
  try sl_exec
  iapply (step_send' m K c (dest c 1 5) _ (dev45_eq c) _ _ (src_eq c 1 5 _ _) (dst_eq c _ _) _ _ (send_sem_eq c 1 5 _) (recv_sem_eq c _)
      (owe44 c) (owe45 c) rfl _ (Sfin m c) (fun _ _ => rfl) fd13) $$ [HSs13 Hd13 HO HtS13 HtR13]
  · isplitr; · iexact HR
    isplitl [HSs13]; · iexact HSs13
    isplitl [Hd13]; · iexact Hd13
    isplitl [HO]; · iexact HO
    isplitl [HtS13]; · iexact HtS13
    iexact HtR13
  iintro ⟨Hcs13, HO⟩
  -- the copy to the device `dest c 1 6`
  try sl_exec
  iapply (step_send' m K c (dest c 1 6) _ (dev46_eq c) _ _ (src_eq c 1 6 _ _) (dst_eq c _ _) _ _ (send_sem_eq c 1 6 _) (recv_sem_eq c _)
      (owe45 c) (owe46 c) rfl _ (Sfin m c) (fun _ _ => rfl) fd14) $$ [HSs14 Hd14 HO HtS14 HtR14]
  · isplitr; · iexact HR
    isplitl [HSs14]; · iexact HSs14
    isplitl [Hd14]; · iexact Hd14
    isplitl [HO]; · iexact HO
    isplitl [HtS14]; · iexact HtS14
    iexact HtR14
  iintro ⟨Hcs14, HO⟩
  -- the copy to the device `dest c 1 7`
  try sl_exec
  iapply (step_send' m K c (dest c 1 7) _ (dev47_eq c) _ _ (src_eq c 1 7 _ _) (dst_eq c _ _) _ _ (send_sem_eq c 1 7 _) (recv_sem_eq c _)
      (owe46 c) (owe47 c) rfl _ (Sfin m c) (fun _ _ => rfl) fd15) $$ [HSs15 Hd15 HO HtS15 HtR15]
  · isplitr; · iexact HR
    isplitl [HSs15]; · iexact HSs15
    isplitl [Hd15]; · iexact Hd15
    isplitl [HO]; · iexact HO
    isplitl [HtS15]; · iexact HtS15
    iexact HtR15
  iintro ⟨Hcs15, HO⟩
  try sl_exec
  -- group 2: each stored slot holds the final contents there; then the eight slots in sending order
  ihave Hs16 := (Entails.of_eq (stgSlot_eq c 16 _)) $$ Hs16
  ihave Hs16 := (Entails.of_eq (BI.Region.is_congr (store_val m c 16 _ _ (stage_hw_16 m c)))) $$ Hs16
  ihave Hs17 := (Entails.of_eq (stgSlot_eq c 17 _)) $$ Hs17
  ihave Hs17 := (Entails.of_eq (BI.Region.is_congr (store_val m c 17 _ _ (stage_hw_17 m c)))) $$ Hs17
  ihave Hs18 := (Entails.of_eq (stgSlot_eq c 18 _)) $$ Hs18
  ihave Hs18 := (Entails.of_eq (BI.Region.is_congr (store_val m c 18 _ _ (stage_hw_18 m c)))) $$ Hs18
  ihave Hs19 := (Entails.of_eq (stgSlot_eq c 19 _)) $$ Hs19
  ihave Hs19 := (Entails.of_eq (BI.Region.is_congr (store_val m c 19 _ _ (stage_hw_19 m c)))) $$ Hs19
  ihave Hs20 := (Entails.of_eq (stgSlot_eq c 20 _)) $$ Hs20
  ihave Hs20 := (Entails.of_eq (BI.Region.is_congr (store_val m c 20 _ _ (stage_hw_20 m c)))) $$ Hs20
  ihave Hs21 := (Entails.of_eq (stgSlot_eq c 21 _)) $$ Hs21
  ihave Hs21 := (Entails.of_eq (BI.Region.is_congr (store_val m c 21 _ _ (stage_hw_21 m c)))) $$ Hs21
  ihave Hs22 := (Entails.of_eq (stgSlot_eq c 22 _)) $$ Hs22
  ihave Hs22 := (Entails.of_eq (BI.Region.is_congr (store_val m c 22 _ _ (stage_hw_22 m c)))) $$ Hs22
  ihave Hs23 := (Entails.of_eq (stgSlot_eq c 23 _)) $$ Hs23
  ihave Hs23 := (Entails.of_eq (BI.Region.is_congr (store_val m c 23 _ _ (stage_hw_23 m c)))) $$ Hs23
  ihave Hg2 := (Entails.of_eq (grp2_rot c (fun d : Dev nD => ((((c : Thread nD τ).loc cc0_scratch0) ↦[(slotRect d).set]{fullShare} Sfin m c) : sProp 𝕄)))) $$ [Hs16 Hs17 Hs18 Hs19 Hs20 Hs21 Hs22 Hs23]
  · isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    iexact Hs23
  icases Hg2 with ⟨HSs16, HSs17, HSs18, HSs19, HSs20, HSs21, HSs22, HSs23⟩
  -- the copy to the device `dest c 2 0`
  try sl_exec
  iapply (step_send' m K c (dest c 2 0) _ (dev48_eq c) _ _ (src_eq c 2 0 _ _) (dst_eq c _ _) _ _ (send_sem_eq c 2 0 _) (recv_sem_eq c _)
      (owe47 c) (owe48 c) rfl _ (Sfin m c) (fun _ _ => rfl) fd16) $$ [HSs16 Hd16 HO HtS16 HtR16]
  · isplitr; · iexact HR
    isplitl [HSs16]; · iexact HSs16
    isplitl [Hd16]; · iexact Hd16
    isplitl [HO]; · iexact HO
    isplitl [HtS16]; · iexact HtS16
    iexact HtR16
  iintro ⟨Hcs16, HO⟩
  -- the copy to the device `dest c 2 1`
  try sl_exec
  iapply (step_send' m K c (dest c 2 1) _ (dev49_eq c) _ _ (src_eq c 2 1 _ _) (dst_eq c _ _) _ _ (send_sem_eq c 2 1 _) (recv_sem_eq c _)
      (owe48 c) (owe49 c) rfl _ (Sfin m c) (fun _ _ => rfl) fd17) $$ [HSs17 Hd17 HO HtS17 HtR17]
  · isplitr; · iexact HR
    isplitl [HSs17]; · iexact HSs17
    isplitl [Hd17]; · iexact Hd17
    isplitl [HO]; · iexact HO
    isplitl [HtS17]; · iexact HtS17
    iexact HtR17
  iintro ⟨Hcs17, HO⟩
  -- the copy to the device `dest c 2 2`
  try sl_exec
  iapply (step_send' m K c (dest c 2 2) _ (dev50_eq c) _ _ (src_eq c 2 2 _ _) (dst_eq c _ _) _ _ (send_sem_eq c 2 2 _) (recv_sem_eq c _)
      (owe49 c) (owe50 c) rfl _ (Sfin m c) (fun _ _ => rfl) fd18) $$ [HSs18 Hd18 HO HtS18 HtR18]
  · isplitr; · iexact HR
    isplitl [HSs18]; · iexact HSs18
    isplitl [Hd18]; · iexact Hd18
    isplitl [HO]; · iexact HO
    isplitl [HtS18]; · iexact HtS18
    iexact HtR18
  iintro ⟨Hcs18, HO⟩
  -- the copy to the device `dest c 2 3`
  try sl_exec
  iapply (step_send' m K c (dest c 2 3) _ (dev51_eq c) _ _ (src_eq c 2 3 _ _) (dst_eq c _ _) _ _ (send_sem_eq c 2 3 _) (recv_sem_eq c _)
      (owe50 c) (owe51 c) rfl _ (Sfin m c) (fun _ _ => rfl) fd19) $$ [HSs19 Hd19 HO HtS19 HtR19]
  · isplitr; · iexact HR
    isplitl [HSs19]; · iexact HSs19
    isplitl [Hd19]; · iexact Hd19
    isplitl [HO]; · iexact HO
    isplitl [HtS19]; · iexact HtS19
    iexact HtR19
  iintro ⟨Hcs19, HO⟩
  -- the copy to the device `dest c 2 4`
  try sl_exec
  iapply (step_send' m K c (dest c 2 4) _ (dev52_eq c) _ _ (src_eq c 2 4 _ _) (dst_eq c _ _) _ _ (send_sem_eq c 2 4 _) (recv_sem_eq c _)
      (owe51 c) (owe52 c) rfl _ (Sfin m c) (fun _ _ => rfl) fd20) $$ [HSs20 Hd20 HO HtS20 HtR20]
  · isplitr; · iexact HR
    isplitl [HSs20]; · iexact HSs20
    isplitl [Hd20]; · iexact Hd20
    isplitl [HO]; · iexact HO
    isplitl [HtS20]; · iexact HtS20
    iexact HtR20
  iintro ⟨Hcs20, HO⟩
  -- the copy to the device `dest c 2 5`
  try sl_exec
  iapply (step_send' m K c (dest c 2 5) _ (dev53_eq c) _ _ (src_eq c 2 5 _ _) (dst_eq c _ _) _ _ (send_sem_eq c 2 5 _) (recv_sem_eq c _)
      (owe52 c) (owe53 c) rfl _ (Sfin m c) (fun _ _ => rfl) fd21) $$ [HSs21 Hd21 HO HtS21 HtR21]
  · isplitr; · iexact HR
    isplitl [HSs21]; · iexact HSs21
    isplitl [Hd21]; · iexact Hd21
    isplitl [HO]; · iexact HO
    isplitl [HtS21]; · iexact HtS21
    iexact HtR21
  iintro ⟨Hcs21, HO⟩
  -- the copy to the device `dest c 2 6`
  try sl_exec
  iapply (step_send' m K c (dest c 2 6) _ (dev54_eq c) _ _ (src_eq c 2 6 _ _) (dst_eq c _ _) _ _ (send_sem_eq c 2 6 _) (recv_sem_eq c _)
      (owe53 c) (owe54 c) rfl _ (Sfin m c) (fun _ _ => rfl) fd22) $$ [HSs22 Hd22 HO HtS22 HtR22]
  · isplitr; · iexact HR
    isplitl [HSs22]; · iexact HSs22
    isplitl [Hd22]; · iexact Hd22
    isplitl [HO]; · iexact HO
    isplitl [HtS22]; · iexact HtS22
    iexact HtR22
  iintro ⟨Hcs22, HO⟩
  -- the copy to the device `dest c 2 7`
  try sl_exec
  iapply (step_send' m K c (dest c 2 7) _ (dev55_eq c) _ _ (src_eq c 2 7 _ _) (dst_eq c _ _) _ _ (send_sem_eq c 2 7 _) (recv_sem_eq c _)
      (owe54 c) (owe55 c) rfl _ (Sfin m c) (fun _ _ => rfl) fd23) $$ [HSs23 Hd23 HO HtS23 HtR23]
  · isplitr; · iexact HR
    isplitl [HSs23]; · iexact HSs23
    isplitl [Hd23]; · iexact Hd23
    isplitl [HO]; · iexact HO
    isplitl [HtS23]; · iexact HtS23
    iexact HtR23
  iintro ⟨Hcs23, HO⟩
  try sl_exec
  -- group 3: each stored slot holds the final contents there; then the eight slots in sending order
  ihave Hs24 := (Entails.of_eq (stgSlot_eq c 24 _)) $$ Hs24
  ihave Hs24 := (Entails.of_eq (BI.Region.is_congr (store_val m c 24 _ _ (stage_hw_24 m c)))) $$ Hs24
  ihave Hs25 := (Entails.of_eq (stgSlot_eq c 25 _)) $$ Hs25
  ihave Hs25 := (Entails.of_eq (BI.Region.is_congr (store_val m c 25 _ _ (stage_hw_25 m c)))) $$ Hs25
  ihave Hs26 := (Entails.of_eq (stgSlot_eq c 26 _)) $$ Hs26
  ihave Hs26 := (Entails.of_eq (BI.Region.is_congr (store_val m c 26 _ _ (stage_hw_26 m c)))) $$ Hs26
  ihave Hs27 := (Entails.of_eq (stgSlot_eq c 27 _)) $$ Hs27
  ihave Hs27 := (Entails.of_eq (BI.Region.is_congr (store_val m c 27 _ _ (stage_hw_27 m c)))) $$ Hs27
  ihave Hs28 := (Entails.of_eq (stgSlot_eq c 28 _)) $$ Hs28
  ihave Hs28 := (Entails.of_eq (BI.Region.is_congr (store_val m c 28 _ _ (stage_hw_28 m c)))) $$ Hs28
  ihave Hs29 := (Entails.of_eq (stgSlot_eq c 29 _)) $$ Hs29
  ihave Hs29 := (Entails.of_eq (BI.Region.is_congr (store_val m c 29 _ _ (stage_hw_29 m c)))) $$ Hs29
  ihave Hs30 := (Entails.of_eq (stgSlot_eq c 30 _)) $$ Hs30
  ihave Hs30 := (Entails.of_eq (BI.Region.is_congr (store_val m c 30 _ _ (stage_hw_30 m c)))) $$ Hs30
  ihave Hs31 := (Entails.of_eq (stgSlot_eq c 31 _)) $$ Hs31
  ihave Hs31 := (Entails.of_eq (BI.Region.is_congr (store_val m c 31 _ _ (stage_hw_31 m c)))) $$ Hs31
  ihave Hg3 := (Entails.of_eq (grp3_rot c (fun d : Dev nD => ((((c : Thread nD τ).loc cc0_scratch0) ↦[(slotRect d).set]{fullShare} Sfin m c) : sProp 𝕄)))) $$ [Hs24 Hs25 Hs26 Hs27 Hs28 Hs29 Hs30 Hs31]
  · isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    iexact Hs31
  icases Hg3 with ⟨HSs24, HSs25, HSs26, HSs27, HSs28, HSs29, HSs30, HSs31⟩
  -- the copy to the device `dest c 3 0`
  try sl_exec
  iapply (step_send' m K c (dest c 3 0) _ (dev56_eq c) _ _ (src_eq c 3 0 _ _) (dst_eq c _ _) _ _ (send_sem_eq c 3 0 _) (recv_sem_eq c _)
      (owe55 c) (owe56 c) rfl _ (Sfin m c) (fun _ _ => rfl) fd24) $$ [HSs24 Hd24 HO HtS24 HtR24]
  · isplitr; · iexact HR
    isplitl [HSs24]; · iexact HSs24
    isplitl [Hd24]; · iexact Hd24
    isplitl [HO]; · iexact HO
    isplitl [HtS24]; · iexact HtS24
    iexact HtR24
  iintro ⟨Hcs24, HO⟩
  -- the copy to the device `dest c 3 1`
  try sl_exec
  iapply (step_send' m K c (dest c 3 1) _ (dev57_eq c) _ _ (src_eq c 3 1 _ _) (dst_eq c _ _) _ _ (send_sem_eq c 3 1 _) (recv_sem_eq c _)
      (owe56 c) (owe57 c) rfl _ (Sfin m c) (fun _ _ => rfl) fd25) $$ [HSs25 Hd25 HO HtS25 HtR25]
  · isplitr; · iexact HR
    isplitl [HSs25]; · iexact HSs25
    isplitl [Hd25]; · iexact Hd25
    isplitl [HO]; · iexact HO
    isplitl [HtS25]; · iexact HtS25
    iexact HtR25
  iintro ⟨Hcs25, HO⟩
  -- the copy to the device `dest c 3 2`
  try sl_exec
  iapply (step_send' m K c (dest c 3 2) _ (dev58_eq c) _ _ (src_eq c 3 2 _ _) (dst_eq c _ _) _ _ (send_sem_eq c 3 2 _) (recv_sem_eq c _)
      (owe57 c) (owe58 c) rfl _ (Sfin m c) (fun _ _ => rfl) fd26) $$ [HSs26 Hd26 HO HtS26 HtR26]
  · isplitr; · iexact HR
    isplitl [HSs26]; · iexact HSs26
    isplitl [Hd26]; · iexact Hd26
    isplitl [HO]; · iexact HO
    isplitl [HtS26]; · iexact HtS26
    iexact HtR26
  iintro ⟨Hcs26, HO⟩
  -- the copy to the device `dest c 3 3`
  try sl_exec
  iapply (step_send' m K c (dest c 3 3) _ (dev59_eq c) _ _ (src_eq c 3 3 _ _) (dst_eq c _ _) _ _ (send_sem_eq c 3 3 _) (recv_sem_eq c _)
      (owe58 c) (owe59 c) rfl _ (Sfin m c) (fun _ _ => rfl) fd27) $$ [HSs27 Hd27 HO HtS27 HtR27]
  · isplitr; · iexact HR
    isplitl [HSs27]; · iexact HSs27
    isplitl [Hd27]; · iexact Hd27
    isplitl [HO]; · iexact HO
    isplitl [HtS27]; · iexact HtS27
    iexact HtR27
  iintro ⟨Hcs27, HO⟩
  -- the copy to the device `dest c 3 4`
  try sl_exec
  iapply (step_send' m K c (dest c 3 4) _ (dev60_eq c) _ _ (src_eq c 3 4 _ _) (dst_eq c _ _) _ _ (send_sem_eq c 3 4 _) (recv_sem_eq c _)
      (owe59 c) (owe60 c) rfl _ (Sfin m c) (fun _ _ => rfl) fd28) $$ [HSs28 Hd28 HO HtS28 HtR28]
  · isplitr; · iexact HR
    isplitl [HSs28]; · iexact HSs28
    isplitl [Hd28]; · iexact Hd28
    isplitl [HO]; · iexact HO
    isplitl [HtS28]; · iexact HtS28
    iexact HtR28
  iintro ⟨Hcs28, HO⟩
  -- the copy to the device `dest c 3 5`
  try sl_exec
  iapply (step_send' m K c (dest c 3 5) _ (dev61_eq c) _ _ (src_eq c 3 5 _ _) (dst_eq c _ _) _ _ (send_sem_eq c 3 5 _) (recv_sem_eq c _)
      (owe60 c) (owe61 c) rfl _ (Sfin m c) (fun _ _ => rfl) fd29) $$ [HSs29 Hd29 HO HtS29 HtR29]
  · isplitr; · iexact HR
    isplitl [HSs29]; · iexact HSs29
    isplitl [Hd29]; · iexact Hd29
    isplitl [HO]; · iexact HO
    isplitl [HtS29]; · iexact HtS29
    iexact HtR29
  iintro ⟨Hcs29, HO⟩
  -- the copy to the device `dest c 3 6`
  try sl_exec
  iapply (step_send' m K c (dest c 3 6) _ (dev62_eq c) _ _ (src_eq c 3 6 _ _) (dst_eq c _ _) _ _ (send_sem_eq c 3 6 _) (recv_sem_eq c _)
      (owe61 c) (owe62 c) rfl _ (Sfin m c) (fun _ _ => rfl) fd30) $$ [HSs30 Hd30 HO HtS30 HtR30]
  · isplitr; · iexact HR
    isplitl [HSs30]; · iexact HSs30
    isplitl [Hd30]; · iexact Hd30
    isplitl [HO]; · iexact HO
    isplitl [HtS30]; · iexact HtS30
    iexact HtR30
  iintro ⟨Hcs30, HO⟩
  -- the copy to the device `dest c 3 7`
  try sl_exec
  iapply (step_send' m K c (dest c 3 7) _ (dev63_eq c) _ _ (src_eq c 3 7 _ _) (dst_eq c _ _) _ _ (send_sem_eq c 3 7 _) (recv_sem_eq c _)
      (owe62 c) (owe63 c) rfl _ (Sfin m c) (fun _ _ => rfl) fd31) $$ [HSs31 Hd31 HO HtS31 HtR31]
  · isplitr; · iexact HR
    isplitl [HSs31]; · iexact HSs31
    isplitl [Hd31]; · iexact Hd31
    isplitl [HO]; · iexact HO
    isplitl [HtS31]; · iexact HtS31
    iexact HtR31
  iintro ⟨Hcs31, HO⟩
  -- the copy from device 0 has landed: receive slot 0; its cell's one round is consumed and the cell closes
  try sl_exec
  iapply (step_recv_wait' m K c 0 _ _ (Fin.ext (sem_at 35 hcc0_scratch3 0)) _ rfl) $$ [Hcr0 HO HaR0]
  · isplitr; · iexact HR
    isplitl [Hcr0]; · iexact Hcr0
    isplitl [HO]; · iexact HO
    iexact HaR0
  iintro ⟨HO, HaR0, Hrv0⟩
  imod (Rounds.cell_close ER (sched m) (Set.mem_univ (K (c, .inr (.inr 0)))) (fun h => h) (R := 0 + 1) (duties_later m (recvCell c 0))) $$ [HaR0] with HzR0
  · isplitr; · iapply (inv_at m K (c, .inr (.inr 0))); iexact HR
    iexact HaR0
  -- the copy from device 1 has landed: receive slot 1; its cell's one round is consumed and the cell closes
  try sl_exec
  iapply (step_recv_wait' m K c 1 _ _ (Fin.ext (sem_at 35 hcc0_scratch3 1)) _ rfl) $$ [Hcr1 HO HaR1]
  · isplitr; · iexact HR
    isplitl [Hcr1]; · iexact Hcr1
    isplitl [HO]; · iexact HO
    iexact HaR1
  iintro ⟨HO, HaR1, Hrv1⟩
  imod (Rounds.cell_close ER (sched m) (Set.mem_univ (K (c, .inr (.inr 1)))) (fun h => h) (R := 0 + 1) (duties_later m (recvCell c 1))) $$ [HaR1] with HzR1
  · isplitr; · iapply (inv_at m K (c, .inr (.inr 1))); iexact HR
    iexact HaR1
  -- the copy from device 2 has landed: receive slot 2; its cell's one round is consumed and the cell closes
  try sl_exec
  iapply (step_recv_wait' m K c 2 _ _ (Fin.ext (sem_at 35 hcc0_scratch3 2)) _ rfl) $$ [Hcr2 HO HaR2]
  · isplitr; · iexact HR
    isplitl [Hcr2]; · iexact Hcr2
    isplitl [HO]; · iexact HO
    iexact HaR2
  iintro ⟨HO, HaR2, Hrv2⟩
  imod (Rounds.cell_close ER (sched m) (Set.mem_univ (K (c, .inr (.inr 2)))) (fun h => h) (R := 0 + 1) (duties_later m (recvCell c 2))) $$ [HaR2] with HzR2
  · isplitr; · iapply (inv_at m K (c, .inr (.inr 2))); iexact HR
    iexact HaR2
  -- the copy from device 3 has landed: receive slot 3; its cell's one round is consumed and the cell closes
  try sl_exec
  iapply (step_recv_wait' m K c 3 _ _ (Fin.ext (sem_at 35 hcc0_scratch3 3)) _ rfl) $$ [Hcr3 HO HaR3]
  · isplitr; · iexact HR
    isplitl [Hcr3]; · iexact Hcr3
    isplitl [HO]; · iexact HO
    iexact HaR3
  iintro ⟨HO, HaR3, Hrv3⟩
  imod (Rounds.cell_close ER (sched m) (Set.mem_univ (K (c, .inr (.inr 3)))) (fun h => h) (R := 0 + 1) (duties_later m (recvCell c 3))) $$ [HaR3] with HzR3
  · isplitr; · iapply (inv_at m K (c, .inr (.inr 3))); iexact HR
    iexact HaR3
  -- the copy from device 4 has landed: receive slot 4; its cell's one round is consumed and the cell closes
  try sl_exec
  iapply (step_recv_wait' m K c 4 _ _ (Fin.ext (sem_at 35 hcc0_scratch3 4)) _ rfl) $$ [Hcr4 HO HaR4]
  · isplitr; · iexact HR
    isplitl [Hcr4]; · iexact Hcr4
    isplitl [HO]; · iexact HO
    iexact HaR4
  iintro ⟨HO, HaR4, Hrv4⟩
  imod (Rounds.cell_close ER (sched m) (Set.mem_univ (K (c, .inr (.inr 4)))) (fun h => h) (R := 0 + 1) (duties_later m (recvCell c 4))) $$ [HaR4] with HzR4
  · isplitr; · iapply (inv_at m K (c, .inr (.inr 4))); iexact HR
    iexact HaR4
  -- the copy from device 5 has landed: receive slot 5; its cell's one round is consumed and the cell closes
  try sl_exec
  iapply (step_recv_wait' m K c 5 _ _ (Fin.ext (sem_at 35 hcc0_scratch3 5)) _ rfl) $$ [Hcr5 HO HaR5]
  · isplitr; · iexact HR
    isplitl [Hcr5]; · iexact Hcr5
    isplitl [HO]; · iexact HO
    iexact HaR5
  iintro ⟨HO, HaR5, Hrv5⟩
  imod (Rounds.cell_close ER (sched m) (Set.mem_univ (K (c, .inr (.inr 5)))) (fun h => h) (R := 0 + 1) (duties_later m (recvCell c 5))) $$ [HaR5] with HzR5
  · isplitr; · iapply (inv_at m K (c, .inr (.inr 5))); iexact HR
    iexact HaR5
  -- the copy from device 6 has landed: receive slot 6; its cell's one round is consumed and the cell closes
  try sl_exec
  iapply (step_recv_wait' m K c 6 _ _ (Fin.ext (sem_at 35 hcc0_scratch3 6)) _ rfl) $$ [Hcr6 HO HaR6]
  · isplitr; · iexact HR
    isplitl [Hcr6]; · iexact Hcr6
    isplitl [HO]; · iexact HO
    iexact HaR6
  iintro ⟨HO, HaR6, Hrv6⟩
  imod (Rounds.cell_close ER (sched m) (Set.mem_univ (K (c, .inr (.inr 6)))) (fun h => h) (R := 0 + 1) (duties_later m (recvCell c 6))) $$ [HaR6] with HzR6
  · isplitr; · iapply (inv_at m K (c, .inr (.inr 6))); iexact HR
    iexact HaR6
  -- the copy from device 7 has landed: receive slot 7; its cell's one round is consumed and the cell closes
  try sl_exec
  iapply (step_recv_wait' m K c 7 _ _ (Fin.ext (sem_at 35 hcc0_scratch3 7)) _ rfl) $$ [Hcr7 HO HaR7]
  · isplitr; · iexact HR
    isplitl [Hcr7]; · iexact Hcr7
    isplitl [HO]; · iexact HO
    iexact HaR7
  iintro ⟨HO, HaR7, Hrv7⟩
  imod (Rounds.cell_close ER (sched m) (Set.mem_univ (K (c, .inr (.inr 7)))) (fun h => h) (R := 0 + 1) (duties_later m (recvCell c 7))) $$ [HaR7] with HzR7
  · isplitr; · iapply (inv_at m K (c, .inr (.inr 7))); iexact HR
    iexact HaR7
  -- the copy from device 8 has landed: receive slot 8; its cell's one round is consumed and the cell closes
  try sl_exec
  iapply (step_recv_wait' m K c 8 _ _ (Fin.ext (sem_at 35 hcc0_scratch3 8)) _ rfl) $$ [Hcr8 HO HaR8]
  · isplitr; · iexact HR
    isplitl [Hcr8]; · iexact Hcr8
    isplitl [HO]; · iexact HO
    iexact HaR8
  iintro ⟨HO, HaR8, Hrv8⟩
  imod (Rounds.cell_close ER (sched m) (Set.mem_univ (K (c, .inr (.inr 8)))) (fun h => h) (R := 0 + 1) (duties_later m (recvCell c 8))) $$ [HaR8] with HzR8
  · isplitr; · iapply (inv_at m K (c, .inr (.inr 8))); iexact HR
    iexact HaR8
  -- the copy from device 9 has landed: receive slot 9; its cell's one round is consumed and the cell closes
  try sl_exec
  iapply (step_recv_wait' m K c 9 _ _ (Fin.ext (sem_at 35 hcc0_scratch3 9)) _ rfl) $$ [Hcr9 HO HaR9]
  · isplitr; · iexact HR
    isplitl [Hcr9]; · iexact Hcr9
    isplitl [HO]; · iexact HO
    iexact HaR9
  iintro ⟨HO, HaR9, Hrv9⟩
  imod (Rounds.cell_close ER (sched m) (Set.mem_univ (K (c, .inr (.inr 9)))) (fun h => h) (R := 0 + 1) (duties_later m (recvCell c 9))) $$ [HaR9] with HzR9
  · isplitr; · iapply (inv_at m K (c, .inr (.inr 9))); iexact HR
    iexact HaR9
  -- the copy from device 10 has landed: receive slot 10; its cell's one round is consumed and the cell closes
  try sl_exec
  iapply (step_recv_wait' m K c 10 _ _ (Fin.ext (sem_at 35 hcc0_scratch3 10)) _ rfl) $$ [Hcr10 HO HaR10]
  · isplitr; · iexact HR
    isplitl [Hcr10]; · iexact Hcr10
    isplitl [HO]; · iexact HO
    iexact HaR10
  iintro ⟨HO, HaR10, Hrv10⟩
  imod (Rounds.cell_close ER (sched m) (Set.mem_univ (K (c, .inr (.inr 10)))) (fun h => h) (R := 0 + 1) (duties_later m (recvCell c 10))) $$ [HaR10] with HzR10
  · isplitr; · iapply (inv_at m K (c, .inr (.inr 10))); iexact HR
    iexact HaR10
  -- the copy from device 11 has landed: receive slot 11; its cell's one round is consumed and the cell closes
  try sl_exec
  iapply (step_recv_wait' m K c 11 _ _ (Fin.ext (sem_at 35 hcc0_scratch3 11)) _ rfl) $$ [Hcr11 HO HaR11]
  · isplitr; · iexact HR
    isplitl [Hcr11]; · iexact Hcr11
    isplitl [HO]; · iexact HO
    iexact HaR11
  iintro ⟨HO, HaR11, Hrv11⟩
  imod (Rounds.cell_close ER (sched m) (Set.mem_univ (K (c, .inr (.inr 11)))) (fun h => h) (R := 0 + 1) (duties_later m (recvCell c 11))) $$ [HaR11] with HzR11
  · isplitr; · iapply (inv_at m K (c, .inr (.inr 11))); iexact HR
    iexact HaR11
  -- the copy from device 12 has landed: receive slot 12; its cell's one round is consumed and the cell closes
  try sl_exec
  iapply (step_recv_wait' m K c 12 _ _ (Fin.ext (sem_at 35 hcc0_scratch3 12)) _ rfl) $$ [Hcr12 HO HaR12]
  · isplitr; · iexact HR
    isplitl [Hcr12]; · iexact Hcr12
    isplitl [HO]; · iexact HO
    iexact HaR12
  iintro ⟨HO, HaR12, Hrv12⟩
  imod (Rounds.cell_close ER (sched m) (Set.mem_univ (K (c, .inr (.inr 12)))) (fun h => h) (R := 0 + 1) (duties_later m (recvCell c 12))) $$ [HaR12] with HzR12
  · isplitr; · iapply (inv_at m K (c, .inr (.inr 12))); iexact HR
    iexact HaR12
  -- the copy from device 13 has landed: receive slot 13; its cell's one round is consumed and the cell closes
  try sl_exec
  iapply (step_recv_wait' m K c 13 _ _ (Fin.ext (sem_at 35 hcc0_scratch3 13)) _ rfl) $$ [Hcr13 HO HaR13]
  · isplitr; · iexact HR
    isplitl [Hcr13]; · iexact Hcr13
    isplitl [HO]; · iexact HO
    iexact HaR13
  iintro ⟨HO, HaR13, Hrv13⟩
  imod (Rounds.cell_close ER (sched m) (Set.mem_univ (K (c, .inr (.inr 13)))) (fun h => h) (R := 0 + 1) (duties_later m (recvCell c 13))) $$ [HaR13] with HzR13
  · isplitr; · iapply (inv_at m K (c, .inr (.inr 13))); iexact HR
    iexact HaR13
  -- the copy from device 14 has landed: receive slot 14; its cell's one round is consumed and the cell closes
  try sl_exec
  iapply (step_recv_wait' m K c 14 _ _ (Fin.ext (sem_at 35 hcc0_scratch3 14)) _ rfl) $$ [Hcr14 HO HaR14]
  · isplitr; · iexact HR
    isplitl [Hcr14]; · iexact Hcr14
    isplitl [HO]; · iexact HO
    iexact HaR14
  iintro ⟨HO, HaR14, Hrv14⟩
  imod (Rounds.cell_close ER (sched m) (Set.mem_univ (K (c, .inr (.inr 14)))) (fun h => h) (R := 0 + 1) (duties_later m (recvCell c 14))) $$ [HaR14] with HzR14
  · isplitr; · iapply (inv_at m K (c, .inr (.inr 14))); iexact HR
    iexact HaR14
  -- the copy from device 15 has landed: receive slot 15; its cell's one round is consumed and the cell closes
  try sl_exec
  iapply (step_recv_wait' m K c 15 _ _ (Fin.ext (sem_at 35 hcc0_scratch3 15)) _ rfl) $$ [Hcr15 HO HaR15]
  · isplitr; · iexact HR
    isplitl [Hcr15]; · iexact Hcr15
    isplitl [HO]; · iexact HO
    iexact HaR15
  iintro ⟨HO, HaR15, Hrv15⟩
  imod (Rounds.cell_close ER (sched m) (Set.mem_univ (K (c, .inr (.inr 15)))) (fun h => h) (R := 0 + 1) (duties_later m (recvCell c 15))) $$ [HaR15] with HzR15
  · isplitr; · iapply (inv_at m K (c, .inr (.inr 15))); iexact HR
    iexact HaR15
  -- the copy from device 16 has landed: receive slot 16; its cell's one round is consumed and the cell closes
  try sl_exec
  iapply (step_recv_wait' m K c 16 _ _ (Fin.ext (sem_at 35 hcc0_scratch3 16)) _ rfl) $$ [Hcr16 HO HaR16]
  · isplitr; · iexact HR
    isplitl [Hcr16]; · iexact Hcr16
    isplitl [HO]; · iexact HO
    iexact HaR16
  iintro ⟨HO, HaR16, Hrv16⟩
  imod (Rounds.cell_close ER (sched m) (Set.mem_univ (K (c, .inr (.inr 16)))) (fun h => h) (R := 0 + 1) (duties_later m (recvCell c 16))) $$ [HaR16] with HzR16
  · isplitr; · iapply (inv_at m K (c, .inr (.inr 16))); iexact HR
    iexact HaR16
  -- the copy from device 17 has landed: receive slot 17; its cell's one round is consumed and the cell closes
  try sl_exec
  iapply (step_recv_wait' m K c 17 _ _ (Fin.ext (sem_at 35 hcc0_scratch3 17)) _ rfl) $$ [Hcr17 HO HaR17]
  · isplitr; · iexact HR
    isplitl [Hcr17]; · iexact Hcr17
    isplitl [HO]; · iexact HO
    iexact HaR17
  iintro ⟨HO, HaR17, Hrv17⟩
  imod (Rounds.cell_close ER (sched m) (Set.mem_univ (K (c, .inr (.inr 17)))) (fun h => h) (R := 0 + 1) (duties_later m (recvCell c 17))) $$ [HaR17] with HzR17
  · isplitr; · iapply (inv_at m K (c, .inr (.inr 17))); iexact HR
    iexact HaR17
  -- the copy from device 18 has landed: receive slot 18; its cell's one round is consumed and the cell closes
  try sl_exec
  iapply (step_recv_wait' m K c 18 _ _ (Fin.ext (sem_at 35 hcc0_scratch3 18)) _ rfl) $$ [Hcr18 HO HaR18]
  · isplitr; · iexact HR
    isplitl [Hcr18]; · iexact Hcr18
    isplitl [HO]; · iexact HO
    iexact HaR18
  iintro ⟨HO, HaR18, Hrv18⟩
  imod (Rounds.cell_close ER (sched m) (Set.mem_univ (K (c, .inr (.inr 18)))) (fun h => h) (R := 0 + 1) (duties_later m (recvCell c 18))) $$ [HaR18] with HzR18
  · isplitr; · iapply (inv_at m K (c, .inr (.inr 18))); iexact HR
    iexact HaR18
  -- the copy from device 19 has landed: receive slot 19; its cell's one round is consumed and the cell closes
  try sl_exec
  iapply (step_recv_wait' m K c 19 _ _ (Fin.ext (sem_at 35 hcc0_scratch3 19)) _ rfl) $$ [Hcr19 HO HaR19]
  · isplitr; · iexact HR
    isplitl [Hcr19]; · iexact Hcr19
    isplitl [HO]; · iexact HO
    iexact HaR19
  iintro ⟨HO, HaR19, Hrv19⟩
  imod (Rounds.cell_close ER (sched m) (Set.mem_univ (K (c, .inr (.inr 19)))) (fun h => h) (R := 0 + 1) (duties_later m (recvCell c 19))) $$ [HaR19] with HzR19
  · isplitr; · iapply (inv_at m K (c, .inr (.inr 19))); iexact HR
    iexact HaR19
  -- the copy from device 20 has landed: receive slot 20; its cell's one round is consumed and the cell closes
  try sl_exec
  iapply (step_recv_wait' m K c 20 _ _ (Fin.ext (sem_at 35 hcc0_scratch3 20)) _ rfl) $$ [Hcr20 HO HaR20]
  · isplitr; · iexact HR
    isplitl [Hcr20]; · iexact Hcr20
    isplitl [HO]; · iexact HO
    iexact HaR20
  iintro ⟨HO, HaR20, Hrv20⟩
  imod (Rounds.cell_close ER (sched m) (Set.mem_univ (K (c, .inr (.inr 20)))) (fun h => h) (R := 0 + 1) (duties_later m (recvCell c 20))) $$ [HaR20] with HzR20
  · isplitr; · iapply (inv_at m K (c, .inr (.inr 20))); iexact HR
    iexact HaR20
  -- the copy from device 21 has landed: receive slot 21; its cell's one round is consumed and the cell closes
  try sl_exec
  iapply (step_recv_wait' m K c 21 _ _ (Fin.ext (sem_at 35 hcc0_scratch3 21)) _ rfl) $$ [Hcr21 HO HaR21]
  · isplitr; · iexact HR
    isplitl [Hcr21]; · iexact Hcr21
    isplitl [HO]; · iexact HO
    iexact HaR21
  iintro ⟨HO, HaR21, Hrv21⟩
  imod (Rounds.cell_close ER (sched m) (Set.mem_univ (K (c, .inr (.inr 21)))) (fun h => h) (R := 0 + 1) (duties_later m (recvCell c 21))) $$ [HaR21] with HzR21
  · isplitr; · iapply (inv_at m K (c, .inr (.inr 21))); iexact HR
    iexact HaR21
  -- the copy from device 22 has landed: receive slot 22; its cell's one round is consumed and the cell closes
  try sl_exec
  iapply (step_recv_wait' m K c 22 _ _ (Fin.ext (sem_at 35 hcc0_scratch3 22)) _ rfl) $$ [Hcr22 HO HaR22]
  · isplitr; · iexact HR
    isplitl [Hcr22]; · iexact Hcr22
    isplitl [HO]; · iexact HO
    iexact HaR22
  iintro ⟨HO, HaR22, Hrv22⟩
  imod (Rounds.cell_close ER (sched m) (Set.mem_univ (K (c, .inr (.inr 22)))) (fun h => h) (R := 0 + 1) (duties_later m (recvCell c 22))) $$ [HaR22] with HzR22
  · isplitr; · iapply (inv_at m K (c, .inr (.inr 22))); iexact HR
    iexact HaR22
  -- the copy from device 23 has landed: receive slot 23; its cell's one round is consumed and the cell closes
  try sl_exec
  iapply (step_recv_wait' m K c 23 _ _ (Fin.ext (sem_at 35 hcc0_scratch3 23)) _ rfl) $$ [Hcr23 HO HaR23]
  · isplitr; · iexact HR
    isplitl [Hcr23]; · iexact Hcr23
    isplitl [HO]; · iexact HO
    iexact HaR23
  iintro ⟨HO, HaR23, Hrv23⟩
  imod (Rounds.cell_close ER (sched m) (Set.mem_univ (K (c, .inr (.inr 23)))) (fun h => h) (R := 0 + 1) (duties_later m (recvCell c 23))) $$ [HaR23] with HzR23
  · isplitr; · iapply (inv_at m K (c, .inr (.inr 23))); iexact HR
    iexact HaR23
  -- the copy from device 24 has landed: receive slot 24; its cell's one round is consumed and the cell closes
  try sl_exec
  iapply (step_recv_wait' m K c 24 _ _ (Fin.ext (sem_at 35 hcc0_scratch3 24)) _ rfl) $$ [Hcr24 HO HaR24]
  · isplitr; · iexact HR
    isplitl [Hcr24]; · iexact Hcr24
    isplitl [HO]; · iexact HO
    iexact HaR24
  iintro ⟨HO, HaR24, Hrv24⟩
  imod (Rounds.cell_close ER (sched m) (Set.mem_univ (K (c, .inr (.inr 24)))) (fun h => h) (R := 0 + 1) (duties_later m (recvCell c 24))) $$ [HaR24] with HzR24
  · isplitr; · iapply (inv_at m K (c, .inr (.inr 24))); iexact HR
    iexact HaR24
  -- the copy from device 25 has landed: receive slot 25; its cell's one round is consumed and the cell closes
  try sl_exec
  iapply (step_recv_wait' m K c 25 _ _ (Fin.ext (sem_at 35 hcc0_scratch3 25)) _ rfl) $$ [Hcr25 HO HaR25]
  · isplitr; · iexact HR
    isplitl [Hcr25]; · iexact Hcr25
    isplitl [HO]; · iexact HO
    iexact HaR25
  iintro ⟨HO, HaR25, Hrv25⟩
  imod (Rounds.cell_close ER (sched m) (Set.mem_univ (K (c, .inr (.inr 25)))) (fun h => h) (R := 0 + 1) (duties_later m (recvCell c 25))) $$ [HaR25] with HzR25
  · isplitr; · iapply (inv_at m K (c, .inr (.inr 25))); iexact HR
    iexact HaR25
  -- the copy from device 26 has landed: receive slot 26; its cell's one round is consumed and the cell closes
  try sl_exec
  iapply (step_recv_wait' m K c 26 _ _ (Fin.ext (sem_at 35 hcc0_scratch3 26)) _ rfl) $$ [Hcr26 HO HaR26]
  · isplitr; · iexact HR
    isplitl [Hcr26]; · iexact Hcr26
    isplitl [HO]; · iexact HO
    iexact HaR26
  iintro ⟨HO, HaR26, Hrv26⟩
  imod (Rounds.cell_close ER (sched m) (Set.mem_univ (K (c, .inr (.inr 26)))) (fun h => h) (R := 0 + 1) (duties_later m (recvCell c 26))) $$ [HaR26] with HzR26
  · isplitr; · iapply (inv_at m K (c, .inr (.inr 26))); iexact HR
    iexact HaR26
  -- the copy from device 27 has landed: receive slot 27; its cell's one round is consumed and the cell closes
  try sl_exec
  iapply (step_recv_wait' m K c 27 _ _ (Fin.ext (sem_at 35 hcc0_scratch3 27)) _ rfl) $$ [Hcr27 HO HaR27]
  · isplitr; · iexact HR
    isplitl [Hcr27]; · iexact Hcr27
    isplitl [HO]; · iexact HO
    iexact HaR27
  iintro ⟨HO, HaR27, Hrv27⟩
  imod (Rounds.cell_close ER (sched m) (Set.mem_univ (K (c, .inr (.inr 27)))) (fun h => h) (R := 0 + 1) (duties_later m (recvCell c 27))) $$ [HaR27] with HzR27
  · isplitr; · iapply (inv_at m K (c, .inr (.inr 27))); iexact HR
    iexact HaR27
  -- the copy from device 28 has landed: receive slot 28; its cell's one round is consumed and the cell closes
  try sl_exec
  iapply (step_recv_wait' m K c 28 _ _ (Fin.ext (sem_at 35 hcc0_scratch3 28)) _ rfl) $$ [Hcr28 HO HaR28]
  · isplitr; · iexact HR
    isplitl [Hcr28]; · iexact Hcr28
    isplitl [HO]; · iexact HO
    iexact HaR28
  iintro ⟨HO, HaR28, Hrv28⟩
  imod (Rounds.cell_close ER (sched m) (Set.mem_univ (K (c, .inr (.inr 28)))) (fun h => h) (R := 0 + 1) (duties_later m (recvCell c 28))) $$ [HaR28] with HzR28
  · isplitr; · iapply (inv_at m K (c, .inr (.inr 28))); iexact HR
    iexact HaR28
  -- the copy from device 29 has landed: receive slot 29; its cell's one round is consumed and the cell closes
  try sl_exec
  iapply (step_recv_wait' m K c 29 _ _ (Fin.ext (sem_at 35 hcc0_scratch3 29)) _ rfl) $$ [Hcr29 HO HaR29]
  · isplitr; · iexact HR
    isplitl [Hcr29]; · iexact Hcr29
    isplitl [HO]; · iexact HO
    iexact HaR29
  iintro ⟨HO, HaR29, Hrv29⟩
  imod (Rounds.cell_close ER (sched m) (Set.mem_univ (K (c, .inr (.inr 29)))) (fun h => h) (R := 0 + 1) (duties_later m (recvCell c 29))) $$ [HaR29] with HzR29
  · isplitr; · iapply (inv_at m K (c, .inr (.inr 29))); iexact HR
    iexact HaR29
  -- the copy from device 30 has landed: receive slot 30; its cell's one round is consumed and the cell closes
  try sl_exec
  iapply (step_recv_wait' m K c 30 _ _ (Fin.ext (sem_at 35 hcc0_scratch3 30)) _ rfl) $$ [Hcr30 HO HaR30]
  · isplitr; · iexact HR
    isplitl [Hcr30]; · iexact Hcr30
    isplitl [HO]; · iexact HO
    iexact HaR30
  iintro ⟨HO, HaR30, Hrv30⟩
  imod (Rounds.cell_close ER (sched m) (Set.mem_univ (K (c, .inr (.inr 30)))) (fun h => h) (R := 0 + 1) (duties_later m (recvCell c 30))) $$ [HaR30] with HzR30
  · isplitr; · iapply (inv_at m K (c, .inr (.inr 30))); iexact HR
    iexact HaR30
  -- the copy from device 31 has landed: receive slot 31; its cell's one round is consumed and the cell closes
  try sl_exec
  iapply (step_recv_wait' m K c 31 _ _ (Fin.ext (sem_at 35 hcc0_scratch3 31)) _ rfl) $$ [Hcr31 HO HaR31]
  · isplitr; · iexact HR
    isplitl [Hcr31]; · iexact Hcr31
    isplitl [HO]; · iexact HO
    iexact HaR31
  iintro ⟨HO, HaR31, Hrv31⟩
  imod (Rounds.cell_close ER (sched m) (Set.mem_univ (K (c, .inr (.inr 31)))) (fun h => h) (R := 0 + 1) (duties_later m (recvCell c 31))) $$ [HaR31] with HzR31
  · isplitr; · iapply (inv_at m K (c, .inr (.inr 31))); iexact HR
    iexact HaR31
  -- slot 31's stores, up to the first send wait
  set_option sl_exec.maxSteps 14 in sl_exec
  -- the copy to `dest c 0 0` has read its source: the staging slot is back; the send cell closes
  iapply (step_send_wait' m K c (dest c 0 0) _ _ (send_sem_eq c 0 0 _) _ (src_eq c 0 0 _ _)) $$ [Hcs0 HO HaS0]
  · isplitr; · iexact HR
    isplitl [Hcs0]; · iexact Hcs0
    isplitl [HO]; · iexact HO
    iexact HaS0
  iintro ⟨HO, HaS0, HSb0⟩
  imod (Rounds.cell_close ER (sched m) (Set.mem_univ (K (c, .inr (.inl (dest c 0 0))))) (fun h => h) (R := 0 + 1) (duties_later m (sendCell c (dest c 0 0)))) $$ [HaS0] with HzS0
  · isplitr; · iapply (inv_at m K (c, .inr (.inl (dest c 0 0)))); iexact HR
    iexact HaS0
  -- the copy to `dest c 0 1` has read its source: the staging slot is back; the send cell closes
  iapply (step_send_wait' m K c (dest c 0 1) _ _ (send_sem_eq c 0 1 _) _ (src_eq c 0 1 _ _)) $$ [Hcs1 HO HaS1]
  · isplitr; · iexact HR
    isplitl [Hcs1]; · iexact Hcs1
    isplitl [HO]; · iexact HO
    iexact HaS1
  iintro ⟨HO, HaS1, HSb1⟩
  imod (Rounds.cell_close ER (sched m) (Set.mem_univ (K (c, .inr (.inl (dest c 0 1))))) (fun h => h) (R := 0 + 1) (duties_later m (sendCell c (dest c 0 1)))) $$ [HaS1] with HzS1
  · isplitr; · iapply (inv_at m K (c, .inr (.inl (dest c 0 1)))); iexact HR
    iexact HaS1
  -- the copy to `dest c 0 2` has read its source: the staging slot is back; the send cell closes
  iapply (step_send_wait' m K c (dest c 0 2) _ _ (send_sem_eq c 0 2 _) _ (src_eq c 0 2 _ _)) $$ [Hcs2 HO HaS2]
  · isplitr; · iexact HR
    isplitl [Hcs2]; · iexact Hcs2
    isplitl [HO]; · iexact HO
    iexact HaS2
  iintro ⟨HO, HaS2, HSb2⟩
  imod (Rounds.cell_close ER (sched m) (Set.mem_univ (K (c, .inr (.inl (dest c 0 2))))) (fun h => h) (R := 0 + 1) (duties_later m (sendCell c (dest c 0 2)))) $$ [HaS2] with HzS2
  · isplitr; · iapply (inv_at m K (c, .inr (.inl (dest c 0 2)))); iexact HR
    iexact HaS2
  -- the copy to `dest c 0 3` has read its source: the staging slot is back; the send cell closes
  -- a printed part the run had entered ends: back in its caller
  iapply (wp_ret_of (F := F) c _ _)
  iapply (step_send_wait' m K c (dest c 0 3) _ _ (send_sem_eq c 0 3 _) _ (src_eq c 0 3 _ _)) $$ [Hcs3 HO HaS3]
  · isplitr; · iexact HR
    isplitl [Hcs3]; · iexact Hcs3
    isplitl [HO]; · iexact HO
    iexact HaS3
  iintro ⟨HO, HaS3, HSb3⟩
  imod (Rounds.cell_close ER (sched m) (Set.mem_univ (K (c, .inr (.inl (dest c 0 3))))) (fun h => h) (R := 0 + 1) (duties_later m (sendCell c (dest c 0 3)))) $$ [HaS3] with HzS3
  · isplitr; · iapply (inv_at m K (c, .inr (.inl (dest c 0 3)))); iexact HR
    iexact HaS3
  -- the copy to `dest c 0 4` has read its source: the staging slot is back; the send cell closes
  iapply (step_send_wait' m K c (dest c 0 4) _ _ (send_sem_eq c 0 4 _) _ (src_eq c 0 4 _ _)) $$ [Hcs4 HO HaS4]
  · isplitr; · iexact HR
    isplitl [Hcs4]; · iexact Hcs4
    isplitl [HO]; · iexact HO
    iexact HaS4
  iintro ⟨HO, HaS4, HSb4⟩
  imod (Rounds.cell_close ER (sched m) (Set.mem_univ (K (c, .inr (.inl (dest c 0 4))))) (fun h => h) (R := 0 + 1) (duties_later m (sendCell c (dest c 0 4)))) $$ [HaS4] with HzS4
  · isplitr; · iapply (inv_at m K (c, .inr (.inl (dest c 0 4)))); iexact HR
    iexact HaS4
  -- the copy to `dest c 0 5` has read its source: the staging slot is back; the send cell closes
  iapply (step_send_wait' m K c (dest c 0 5) _ _ (send_sem_eq c 0 5 _) _ (src_eq c 0 5 _ _)) $$ [Hcs5 HO HaS5]
  · isplitr; · iexact HR
    isplitl [Hcs5]; · iexact Hcs5
    isplitl [HO]; · iexact HO
    iexact HaS5
  iintro ⟨HO, HaS5, HSb5⟩
  imod (Rounds.cell_close ER (sched m) (Set.mem_univ (K (c, .inr (.inl (dest c 0 5))))) (fun h => h) (R := 0 + 1) (duties_later m (sendCell c (dest c 0 5)))) $$ [HaS5] with HzS5
  · isplitr; · iapply (inv_at m K (c, .inr (.inl (dest c 0 5)))); iexact HR
    iexact HaS5
  -- the copy to `dest c 0 6` has read its source: the staging slot is back; the send cell closes
  iapply (step_send_wait' m K c (dest c 0 6) _ _ (send_sem_eq c 0 6 _) _ (src_eq c 0 6 _ _)) $$ [Hcs6 HO HaS6]
  · isplitr; · iexact HR
    isplitl [Hcs6]; · iexact Hcs6
    isplitl [HO]; · iexact HO
    iexact HaS6
  iintro ⟨HO, HaS6, HSb6⟩
  imod (Rounds.cell_close ER (sched m) (Set.mem_univ (K (c, .inr (.inl (dest c 0 6))))) (fun h => h) (R := 0 + 1) (duties_later m (sendCell c (dest c 0 6)))) $$ [HaS6] with HzS6
  · isplitr; · iapply (inv_at m K (c, .inr (.inl (dest c 0 6)))); iexact HR
    iexact HaS6
  -- the copy to `dest c 0 7` has read its source: the staging slot is back; the send cell closes
  iapply (step_send_wait' m K c (dest c 0 7) _ _ (send_sem_eq c 0 7 _) _ (src_eq c 0 7 _ _)) $$ [Hcs7 HO HaS7]
  · isplitr; · iexact HR
    isplitl [Hcs7]; · iexact Hcs7
    isplitl [HO]; · iexact HO
    iexact HaS7
  iintro ⟨HO, HaS7, HSb7⟩
  imod (Rounds.cell_close ER (sched m) (Set.mem_univ (K (c, .inr (.inl (dest c 0 7))))) (fun h => h) (R := 0 + 1) (duties_later m (sendCell c (dest c 0 7)))) $$ [HaS7] with HzS7
  · isplitr; · iapply (inv_at m K (c, .inr (.inl (dest c 0 7)))); iexact HR
    iexact HaS7
  -- the copy to `dest c 1 0` has read its source: the staging slot is back; the send cell closes
  iapply (step_send_wait' m K c (dest c 1 0) _ _ (send_sem_eq c 1 0 _) _ (src_eq c 1 0 _ _)) $$ [Hcs8 HO HaS8]
  · isplitr; · iexact HR
    isplitl [Hcs8]; · iexact Hcs8
    isplitl [HO]; · iexact HO
    iexact HaS8
  iintro ⟨HO, HaS8, HSb8⟩
  imod (Rounds.cell_close ER (sched m) (Set.mem_univ (K (c, .inr (.inl (dest c 1 0))))) (fun h => h) (R := 0 + 1) (duties_later m (sendCell c (dest c 1 0)))) $$ [HaS8] with HzS8
  · isplitr; · iapply (inv_at m K (c, .inr (.inl (dest c 1 0)))); iexact HR
    iexact HaS8
  -- the copy to `dest c 1 1` has read its source: the staging slot is back; the send cell closes
  iapply (step_send_wait' m K c (dest c 1 1) _ _ (send_sem_eq c 1 1 _) _ (src_eq c 1 1 _ _)) $$ [Hcs9 HO HaS9]
  · isplitr; · iexact HR
    isplitl [Hcs9]; · iexact Hcs9
    isplitl [HO]; · iexact HO
    iexact HaS9
  iintro ⟨HO, HaS9, HSb9⟩
  imod (Rounds.cell_close ER (sched m) (Set.mem_univ (K (c, .inr (.inl (dest c 1 1))))) (fun h => h) (R := 0 + 1) (duties_later m (sendCell c (dest c 1 1)))) $$ [HaS9] with HzS9
  · isplitr; · iapply (inv_at m K (c, .inr (.inl (dest c 1 1)))); iexact HR
    iexact HaS9
  -- the copy to `dest c 1 2` has read its source: the staging slot is back; the send cell closes
  iapply (step_send_wait' m K c (dest c 1 2) _ _ (send_sem_eq c 1 2 _) _ (src_eq c 1 2 _ _)) $$ [Hcs10 HO HaS10]
  · isplitr; · iexact HR
    isplitl [Hcs10]; · iexact Hcs10
    isplitl [HO]; · iexact HO
    iexact HaS10
  iintro ⟨HO, HaS10, HSb10⟩
  imod (Rounds.cell_close ER (sched m) (Set.mem_univ (K (c, .inr (.inl (dest c 1 2))))) (fun h => h) (R := 0 + 1) (duties_later m (sendCell c (dest c 1 2)))) $$ [HaS10] with HzS10
  · isplitr; · iapply (inv_at m K (c, .inr (.inl (dest c 1 2)))); iexact HR
    iexact HaS10
  -- the copy to `dest c 1 3` has read its source: the staging slot is back; the send cell closes
  iapply (step_send_wait' m K c (dest c 1 3) _ _ (send_sem_eq c 1 3 _) _ (src_eq c 1 3 _ _)) $$ [Hcs11 HO HaS11]
  · isplitr; · iexact HR
    isplitl [Hcs11]; · iexact Hcs11
    isplitl [HO]; · iexact HO
    iexact HaS11
  iintro ⟨HO, HaS11, HSb11⟩
  imod (Rounds.cell_close ER (sched m) (Set.mem_univ (K (c, .inr (.inl (dest c 1 3))))) (fun h => h) (R := 0 + 1) (duties_later m (sendCell c (dest c 1 3)))) $$ [HaS11] with HzS11
  · isplitr; · iapply (inv_at m K (c, .inr (.inl (dest c 1 3)))); iexact HR
    iexact HaS11
  -- the copy to `dest c 1 4` has read its source: the staging slot is back; the send cell closes
  iapply (step_send_wait' m K c (dest c 1 4) _ _ (send_sem_eq c 1 4 _) _ (src_eq c 1 4 _ _)) $$ [Hcs12 HO HaS12]
  · isplitr; · iexact HR
    isplitl [Hcs12]; · iexact Hcs12
    isplitl [HO]; · iexact HO
    iexact HaS12
  iintro ⟨HO, HaS12, HSb12⟩
  imod (Rounds.cell_close ER (sched m) (Set.mem_univ (K (c, .inr (.inl (dest c 1 4))))) (fun h => h) (R := 0 + 1) (duties_later m (sendCell c (dest c 1 4)))) $$ [HaS12] with HzS12
  · isplitr; · iapply (inv_at m K (c, .inr (.inl (dest c 1 4)))); iexact HR
    iexact HaS12
  -- the copy to `dest c 1 5` has read its source: the staging slot is back; the send cell closes
  iapply (step_send_wait' m K c (dest c 1 5) _ _ (send_sem_eq c 1 5 _) _ (src_eq c 1 5 _ _)) $$ [Hcs13 HO HaS13]
  · isplitr; · iexact HR
    isplitl [Hcs13]; · iexact Hcs13
    isplitl [HO]; · iexact HO
    iexact HaS13
  iintro ⟨HO, HaS13, HSb13⟩
  imod (Rounds.cell_close ER (sched m) (Set.mem_univ (K (c, .inr (.inl (dest c 1 5))))) (fun h => h) (R := 0 + 1) (duties_later m (sendCell c (dest c 1 5)))) $$ [HaS13] with HzS13
  · isplitr; · iapply (inv_at m K (c, .inr (.inl (dest c 1 5)))); iexact HR
    iexact HaS13
  -- the copy to `dest c 1 6` has read its source: the staging slot is back; the send cell closes
  iapply (step_send_wait' m K c (dest c 1 6) _ _ (send_sem_eq c 1 6 _) _ (src_eq c 1 6 _ _)) $$ [Hcs14 HO HaS14]
  · isplitr; · iexact HR
    isplitl [Hcs14]; · iexact Hcs14
    isplitl [HO]; · iexact HO
    iexact HaS14
  iintro ⟨HO, HaS14, HSb14⟩
  imod (Rounds.cell_close ER (sched m) (Set.mem_univ (K (c, .inr (.inl (dest c 1 6))))) (fun h => h) (R := 0 + 1) (duties_later m (sendCell c (dest c 1 6)))) $$ [HaS14] with HzS14
  · isplitr; · iapply (inv_at m K (c, .inr (.inl (dest c 1 6)))); iexact HR
    iexact HaS14
  -- the copy to `dest c 1 7` has read its source: the staging slot is back; the send cell closes
  iapply (step_send_wait' m K c (dest c 1 7) _ _ (send_sem_eq c 1 7 _) _ (src_eq c 1 7 _ _)) $$ [Hcs15 HO HaS15]
  · isplitr; · iexact HR
    isplitl [Hcs15]; · iexact Hcs15
    isplitl [HO]; · iexact HO
    iexact HaS15
  iintro ⟨HO, HaS15, HSb15⟩
  imod (Rounds.cell_close ER (sched m) (Set.mem_univ (K (c, .inr (.inl (dest c 1 7))))) (fun h => h) (R := 0 + 1) (duties_later m (sendCell c (dest c 1 7)))) $$ [HaS15] with HzS15
  · isplitr; · iapply (inv_at m K (c, .inr (.inl (dest c 1 7)))); iexact HR
    iexact HaS15
  -- the copy to `dest c 2 0` has read its source: the staging slot is back; the send cell closes
  iapply (step_send_wait' m K c (dest c 2 0) _ _ (send_sem_eq c 2 0 _) _ (src_eq c 2 0 _ _)) $$ [Hcs16 HO HaS16]
  · isplitr; · iexact HR
    isplitl [Hcs16]; · iexact Hcs16
    isplitl [HO]; · iexact HO
    iexact HaS16
  iintro ⟨HO, HaS16, HSb16⟩
  imod (Rounds.cell_close ER (sched m) (Set.mem_univ (K (c, .inr (.inl (dest c 2 0))))) (fun h => h) (R := 0 + 1) (duties_later m (sendCell c (dest c 2 0)))) $$ [HaS16] with HzS16
  · isplitr; · iapply (inv_at m K (c, .inr (.inl (dest c 2 0)))); iexact HR
    iexact HaS16
  -- the copy to `dest c 2 1` has read its source: the staging slot is back; the send cell closes
  iapply (step_send_wait' m K c (dest c 2 1) _ _ (send_sem_eq c 2 1 _) _ (src_eq c 2 1 _ _)) $$ [Hcs17 HO HaS17]
  · isplitr; · iexact HR
    isplitl [Hcs17]; · iexact Hcs17
    isplitl [HO]; · iexact HO
    iexact HaS17
  iintro ⟨HO, HaS17, HSb17⟩
  imod (Rounds.cell_close ER (sched m) (Set.mem_univ (K (c, .inr (.inl (dest c 2 1))))) (fun h => h) (R := 0 + 1) (duties_later m (sendCell c (dest c 2 1)))) $$ [HaS17] with HzS17
  · isplitr; · iapply (inv_at m K (c, .inr (.inl (dest c 2 1)))); iexact HR
    iexact HaS17
  -- the copy to `dest c 2 2` has read its source: the staging slot is back; the send cell closes
  iapply (step_send_wait' m K c (dest c 2 2) _ _ (send_sem_eq c 2 2 _) _ (src_eq c 2 2 _ _)) $$ [Hcs18 HO HaS18]
  · isplitr; · iexact HR
    isplitl [Hcs18]; · iexact Hcs18
    isplitl [HO]; · iexact HO
    iexact HaS18
  iintro ⟨HO, HaS18, HSb18⟩
  imod (Rounds.cell_close ER (sched m) (Set.mem_univ (K (c, .inr (.inl (dest c 2 2))))) (fun h => h) (R := 0 + 1) (duties_later m (sendCell c (dest c 2 2)))) $$ [HaS18] with HzS18
  · isplitr; · iapply (inv_at m K (c, .inr (.inl (dest c 2 2)))); iexact HR
    iexact HaS18
  -- the copy to `dest c 2 3` has read its source: the staging slot is back; the send cell closes
  iapply (step_send_wait' m K c (dest c 2 3) _ _ (send_sem_eq c 2 3 _) _ (src_eq c 2 3 _ _)) $$ [Hcs19 HO HaS19]
  · isplitr; · iexact HR
    isplitl [Hcs19]; · iexact Hcs19
    isplitl [HO]; · iexact HO
    iexact HaS19
  iintro ⟨HO, HaS19, HSb19⟩
  imod (Rounds.cell_close ER (sched m) (Set.mem_univ (K (c, .inr (.inl (dest c 2 3))))) (fun h => h) (R := 0 + 1) (duties_later m (sendCell c (dest c 2 3)))) $$ [HaS19] with HzS19
  · isplitr; · iapply (inv_at m K (c, .inr (.inl (dest c 2 3)))); iexact HR
    iexact HaS19
  -- the copy to `dest c 2 4` has read its source: the staging slot is back; the send cell closes
  iapply (step_send_wait' m K c (dest c 2 4) _ _ (send_sem_eq c 2 4 _) _ (src_eq c 2 4 _ _)) $$ [Hcs20 HO HaS20]
  · isplitr; · iexact HR
    isplitl [Hcs20]; · iexact Hcs20
    isplitl [HO]; · iexact HO
    iexact HaS20
  iintro ⟨HO, HaS20, HSb20⟩
  imod (Rounds.cell_close ER (sched m) (Set.mem_univ (K (c, .inr (.inl (dest c 2 4))))) (fun h => h) (R := 0 + 1) (duties_later m (sendCell c (dest c 2 4)))) $$ [HaS20] with HzS20
  · isplitr; · iapply (inv_at m K (c, .inr (.inl (dest c 2 4)))); iexact HR
    iexact HaS20
  -- the copy to `dest c 2 5` has read its source: the staging slot is back; the send cell closes
  iapply (step_send_wait' m K c (dest c 2 5) _ _ (send_sem_eq c 2 5 _) _ (src_eq c 2 5 _ _)) $$ [Hcs21 HO HaS21]
  · isplitr; · iexact HR
    isplitl [Hcs21]; · iexact Hcs21
    isplitl [HO]; · iexact HO
    iexact HaS21
  iintro ⟨HO, HaS21, HSb21⟩
  imod (Rounds.cell_close ER (sched m) (Set.mem_univ (K (c, .inr (.inl (dest c 2 5))))) (fun h => h) (R := 0 + 1) (duties_later m (sendCell c (dest c 2 5)))) $$ [HaS21] with HzS21
  · isplitr; · iapply (inv_at m K (c, .inr (.inl (dest c 2 5)))); iexact HR
    iexact HaS21
  -- the copy to `dest c 2 6` has read its source: the staging slot is back; the send cell closes
  iapply (step_send_wait' m K c (dest c 2 6) _ _ (send_sem_eq c 2 6 _) _ (src_eq c 2 6 _ _)) $$ [Hcs22 HO HaS22]
  · isplitr; · iexact HR
    isplitl [Hcs22]; · iexact Hcs22
    isplitl [HO]; · iexact HO
    iexact HaS22
  iintro ⟨HO, HaS22, HSb22⟩
  imod (Rounds.cell_close ER (sched m) (Set.mem_univ (K (c, .inr (.inl (dest c 2 6))))) (fun h => h) (R := 0 + 1) (duties_later m (sendCell c (dest c 2 6)))) $$ [HaS22] with HzS22
  · isplitr; · iapply (inv_at m K (c, .inr (.inl (dest c 2 6)))); iexact HR
    iexact HaS22
  -- the copy to `dest c 2 7` has read its source: the staging slot is back; the send cell closes
  -- a printed part the run had entered ends: back in its caller
  iapply (wp_ret_of (F := F) c _ _)
  iapply (step_send_wait' m K c (dest c 2 7) _ _ (send_sem_eq c 2 7 _) _ (src_eq c 2 7 _ _)) $$ [Hcs23 HO HaS23]
  · isplitr; · iexact HR
    isplitl [Hcs23]; · iexact Hcs23
    isplitl [HO]; · iexact HO
    iexact HaS23
  iintro ⟨HO, HaS23, HSb23⟩
  imod (Rounds.cell_close ER (sched m) (Set.mem_univ (K (c, .inr (.inl (dest c 2 7))))) (fun h => h) (R := 0 + 1) (duties_later m (sendCell c (dest c 2 7)))) $$ [HaS23] with HzS23
  · isplitr; · iapply (inv_at m K (c, .inr (.inl (dest c 2 7)))); iexact HR
    iexact HaS23
  -- the copy to `dest c 3 0` has read its source: the staging slot is back; the send cell closes
  iapply (step_send_wait' m K c (dest c 3 0) _ _ (send_sem_eq c 3 0 _) _ (src_eq c 3 0 _ _)) $$ [Hcs24 HO HaS24]
  · isplitr; · iexact HR
    isplitl [Hcs24]; · iexact Hcs24
    isplitl [HO]; · iexact HO
    iexact HaS24
  iintro ⟨HO, HaS24, HSb24⟩
  imod (Rounds.cell_close ER (sched m) (Set.mem_univ (K (c, .inr (.inl (dest c 3 0))))) (fun h => h) (R := 0 + 1) (duties_later m (sendCell c (dest c 3 0)))) $$ [HaS24] with HzS24
  · isplitr; · iapply (inv_at m K (c, .inr (.inl (dest c 3 0)))); iexact HR
    iexact HaS24
  -- the copy to `dest c 3 1` has read its source: the staging slot is back; the send cell closes
  iapply (step_send_wait' m K c (dest c 3 1) _ _ (send_sem_eq c 3 1 _) _ (src_eq c 3 1 _ _)) $$ [Hcs25 HO HaS25]
  · isplitr; · iexact HR
    isplitl [Hcs25]; · iexact Hcs25
    isplitl [HO]; · iexact HO
    iexact HaS25
  iintro ⟨HO, HaS25, HSb25⟩
  imod (Rounds.cell_close ER (sched m) (Set.mem_univ (K (c, .inr (.inl (dest c 3 1))))) (fun h => h) (R := 0 + 1) (duties_later m (sendCell c (dest c 3 1)))) $$ [HaS25] with HzS25
  · isplitr; · iapply (inv_at m K (c, .inr (.inl (dest c 3 1)))); iexact HR
    iexact HaS25
  -- the copy to `dest c 3 2` has read its source: the staging slot is back; the send cell closes
  iapply (step_send_wait' m K c (dest c 3 2) _ _ (send_sem_eq c 3 2 _) _ (src_eq c 3 2 _ _)) $$ [Hcs26 HO HaS26]
  · isplitr; · iexact HR
    isplitl [Hcs26]; · iexact Hcs26
    isplitl [HO]; · iexact HO
    iexact HaS26
  iintro ⟨HO, HaS26, HSb26⟩
  imod (Rounds.cell_close ER (sched m) (Set.mem_univ (K (c, .inr (.inl (dest c 3 2))))) (fun h => h) (R := 0 + 1) (duties_later m (sendCell c (dest c 3 2)))) $$ [HaS26] with HzS26
  · isplitr; · iapply (inv_at m K (c, .inr (.inl (dest c 3 2)))); iexact HR
    iexact HaS26
  -- the copy to `dest c 3 3` has read its source: the staging slot is back; the send cell closes
  iapply (step_send_wait' m K c (dest c 3 3) _ _ (send_sem_eq c 3 3 _) _ (src_eq c 3 3 _ _)) $$ [Hcs27 HO HaS27]
  · isplitr; · iexact HR
    isplitl [Hcs27]; · iexact Hcs27
    isplitl [HO]; · iexact HO
    iexact HaS27
  iintro ⟨HO, HaS27, HSb27⟩
  imod (Rounds.cell_close ER (sched m) (Set.mem_univ (K (c, .inr (.inl (dest c 3 3))))) (fun h => h) (R := 0 + 1) (duties_later m (sendCell c (dest c 3 3)))) $$ [HaS27] with HzS27
  · isplitr; · iapply (inv_at m K (c, .inr (.inl (dest c 3 3)))); iexact HR
    iexact HaS27
  -- the copy to `dest c 3 4` has read its source: the staging slot is back; the send cell closes
  iapply (step_send_wait' m K c (dest c 3 4) _ _ (send_sem_eq c 3 4 _) _ (src_eq c 3 4 _ _)) $$ [Hcs28 HO HaS28]
  · isplitr; · iexact HR
    isplitl [Hcs28]; · iexact Hcs28
    isplitl [HO]; · iexact HO
    iexact HaS28
  iintro ⟨HO, HaS28, HSb28⟩
  imod (Rounds.cell_close ER (sched m) (Set.mem_univ (K (c, .inr (.inl (dest c 3 4))))) (fun h => h) (R := 0 + 1) (duties_later m (sendCell c (dest c 3 4)))) $$ [HaS28] with HzS28
  · isplitr; · iapply (inv_at m K (c, .inr (.inl (dest c 3 4)))); iexact HR
    iexact HaS28
  -- the copy to `dest c 3 5` has read its source: the staging slot is back; the send cell closes
  iapply (step_send_wait' m K c (dest c 3 5) _ _ (send_sem_eq c 3 5 _) _ (src_eq c 3 5 _ _)) $$ [Hcs29 HO HaS29]
  · isplitr; · iexact HR
    isplitl [Hcs29]; · iexact Hcs29
    isplitl [HO]; · iexact HO
    iexact HaS29
  iintro ⟨HO, HaS29, HSb29⟩
  imod (Rounds.cell_close ER (sched m) (Set.mem_univ (K (c, .inr (.inl (dest c 3 5))))) (fun h => h) (R := 0 + 1) (duties_later m (sendCell c (dest c 3 5)))) $$ [HaS29] with HzS29
  · isplitr; · iapply (inv_at m K (c, .inr (.inl (dest c 3 5)))); iexact HR
    iexact HaS29
  -- the copy to `dest c 3 6` has read its source: the staging slot is back; the send cell closes
  iapply (step_send_wait' m K c (dest c 3 6) _ _ (send_sem_eq c 3 6 _) _ (src_eq c 3 6 _ _)) $$ [Hcs30 HO HaS30]
  · isplitr; · iexact HR
    isplitl [Hcs30]; · iexact Hcs30
    isplitl [HO]; · iexact HO
    iexact HaS30
  iintro ⟨HO, HaS30, HSb30⟩
  imod (Rounds.cell_close ER (sched m) (Set.mem_univ (K (c, .inr (.inl (dest c 3 6))))) (fun h => h) (R := 0 + 1) (duties_later m (sendCell c (dest c 3 6)))) $$ [HaS30] with HzS30
  · isplitr; · iapply (inv_at m K (c, .inr (.inl (dest c 3 6)))); iexact HR
    iexact HaS30
  -- the copy to `dest c 3 7` has read its source: the staging slot is back; the send cell closes
  iapply (step_send_wait' m K c (dest c 3 7) _ _ (send_sem_eq c 3 7 _) _ (src_eq c 3 7 _ _)) $$ [Hcs31 HO HaS31]
  · isplitr; · iexact HR
    isplitl [Hcs31]; · iexact Hcs31
    isplitl [HO]; · iexact HO
    iexact HaS31
  iintro ⟨HO, HaS31, HSb31⟩
  imod (Rounds.cell_close ER (sched m) (Set.mem_univ (K (c, .inr (.inl (dest c 3 7))))) (fun h => h) (R := 0 + 1) (duties_later m (sendCell c (dest c 3 7)))) $$ [HaS31] with HzS31
  · isplitr; · iapply (inv_at m K (c, .inr (.inl (dest c 3 7)))); iexact HR
    iexact HaS31
  -- the body returns
  iapply (wp_ret_of (F := F) c _ _)
  -- the staging scratch whole again, at its final contents
  ihave HSb0 := (Entails.of_eq (stgSlot_eq c (dest c 0 0) (Sfin m c))) $$ HSb0
  ihave HSb1 := (Entails.of_eq (stgSlot_eq c (dest c 0 1) (Sfin m c))) $$ HSb1
  ihave HSb2 := (Entails.of_eq (stgSlot_eq c (dest c 0 2) (Sfin m c))) $$ HSb2
  ihave HSb3 := (Entails.of_eq (stgSlot_eq c (dest c 0 3) (Sfin m c))) $$ HSb3
  ihave HSb4 := (Entails.of_eq (stgSlot_eq c (dest c 0 4) (Sfin m c))) $$ HSb4
  ihave HSb5 := (Entails.of_eq (stgSlot_eq c (dest c 0 5) (Sfin m c))) $$ HSb5
  ihave HSb6 := (Entails.of_eq (stgSlot_eq c (dest c 0 6) (Sfin m c))) $$ HSb6
  ihave HSb7 := (Entails.of_eq (stgSlot_eq c (dest c 0 7) (Sfin m c))) $$ HSb7
  ihave HSb8 := (Entails.of_eq (stgSlot_eq c (dest c 1 0) (Sfin m c))) $$ HSb8
  ihave HSb9 := (Entails.of_eq (stgSlot_eq c (dest c 1 1) (Sfin m c))) $$ HSb9
  ihave HSb10 := (Entails.of_eq (stgSlot_eq c (dest c 1 2) (Sfin m c))) $$ HSb10
  ihave HSb11 := (Entails.of_eq (stgSlot_eq c (dest c 1 3) (Sfin m c))) $$ HSb11
  ihave HSb12 := (Entails.of_eq (stgSlot_eq c (dest c 1 4) (Sfin m c))) $$ HSb12
  ihave HSb13 := (Entails.of_eq (stgSlot_eq c (dest c 1 5) (Sfin m c))) $$ HSb13
  ihave HSb14 := (Entails.of_eq (stgSlot_eq c (dest c 1 6) (Sfin m c))) $$ HSb14
  ihave HSb15 := (Entails.of_eq (stgSlot_eq c (dest c 1 7) (Sfin m c))) $$ HSb15
  ihave HSb16 := (Entails.of_eq (stgSlot_eq c (dest c 2 0) (Sfin m c))) $$ HSb16
  ihave HSb17 := (Entails.of_eq (stgSlot_eq c (dest c 2 1) (Sfin m c))) $$ HSb17
  ihave HSb18 := (Entails.of_eq (stgSlot_eq c (dest c 2 2) (Sfin m c))) $$ HSb18
  ihave HSb19 := (Entails.of_eq (stgSlot_eq c (dest c 2 3) (Sfin m c))) $$ HSb19
  ihave HSb20 := (Entails.of_eq (stgSlot_eq c (dest c 2 4) (Sfin m c))) $$ HSb20
  ihave HSb21 := (Entails.of_eq (stgSlot_eq c (dest c 2 5) (Sfin m c))) $$ HSb21
  ihave HSb22 := (Entails.of_eq (stgSlot_eq c (dest c 2 6) (Sfin m c))) $$ HSb22
  ihave HSb23 := (Entails.of_eq (stgSlot_eq c (dest c 2 7) (Sfin m c))) $$ HSb23
  ihave HSb24 := (Entails.of_eq (stgSlot_eq c (dest c 3 0) (Sfin m c))) $$ HSb24
  ihave HSb25 := (Entails.of_eq (stgSlot_eq c (dest c 3 1) (Sfin m c))) $$ HSb25
  ihave HSb26 := (Entails.of_eq (stgSlot_eq c (dest c 3 2) (Sfin m c))) $$ HSb26
  ihave HSb27 := (Entails.of_eq (stgSlot_eq c (dest c 3 3) (Sfin m c))) $$ HSb27
  ihave HSb28 := (Entails.of_eq (stgSlot_eq c (dest c 3 4) (Sfin m c))) $$ HSb28
  ihave HSb29 := (Entails.of_eq (stgSlot_eq c (dest c 3 5) (Sfin m c))) $$ HSb29
  ihave HSb30 := (Entails.of_eq (stgSlot_eq c (dest c 3 6) (Sfin m c))) $$ HSb30
  ihave HSb31 := (Entails.of_eq (stgSlot_eq c (dest c 3 7) (Sfin m c))) $$ HSb31
  ihave HSall := (Entails.of_eq (chain_send c (fun d : Dev nD => ((((c : Thread nD τ).loc cc0_scratch0) ↦[(slotRect d).set]{fullShare} Sfin m c) : sProp 𝕄))).symm) $$ [HSb0 HSb1 HSb2 HSb3 HSb4 HSb5 HSb6 HSb7 HSb8 HSb9 HSb10 HSb11 HSb12 HSb13 HSb14 HSb15 HSb16 HSb17 HSb18 HSb19 HSb20 HSb21 HSb22 HSb23 HSb24 HSb25 HSb26 HSb27 HSb28 HSb29 HSb30 HSb31]
  · isplitl [HSb0]; · iexact HSb0
    isplitl [HSb1]; · iexact HSb1
    isplitl [HSb2]; · iexact HSb2
    isplitl [HSb3]; · iexact HSb3
    isplitl [HSb4]; · iexact HSb4
    isplitl [HSb5]; · iexact HSb5
    isplitl [HSb6]; · iexact HSb6
    isplitl [HSb7]; · iexact HSb7
    isplitl [HSb8]; · iexact HSb8
    isplitl [HSb9]; · iexact HSb9
    isplitl [HSb10]; · iexact HSb10
    isplitl [HSb11]; · iexact HSb11
    isplitl [HSb12]; · iexact HSb12
    isplitl [HSb13]; · iexact HSb13
    isplitl [HSb14]; · iexact HSb14
    isplitl [HSb15]; · iexact HSb15
    isplitl [HSb16]; · iexact HSb16
    isplitl [HSb17]; · iexact HSb17
    isplitl [HSb18]; · iexact HSb18
    isplitl [HSb19]; · iexact HSb19
    isplitl [HSb20]; · iexact HSb20
    isplitl [HSb21]; · iexact HSb21
    isplitl [HSb22]; · iexact HSb22
    isplitl [HSb23]; · iexact HSb23
    isplitl [HSb24]; · iexact HSb24
    isplitl [HSb25]; · iexact HSb25
    isplitl [HSb26]; · iexact HSb26
    isplitl [HSb27]; · iexact HSb27
    isplitl [HSb28]; · iexact HSb28
    isplitl [HSb29]; · iexact HSb29
    isplitl [HSb30]; · iexact HSb30
    iexact HSb31
  ihave HSall := (Entails.of_eq (stg_slots (F := F) c fullShare (Sfin m c)).symm) $$ HSall
  -- the receive scratch whole again
  ihave Hrv0 := (Entails.of_eq (rcvSlot_eq c 0 (Rfin m c))) $$ Hrv0
  ihave Hrv1 := (Entails.of_eq (rcvSlot_eq c 1 (Rfin m c))) $$ Hrv1
  ihave Hrv2 := (Entails.of_eq (rcvSlot_eq c 2 (Rfin m c))) $$ Hrv2
  ihave Hrv3 := (Entails.of_eq (rcvSlot_eq c 3 (Rfin m c))) $$ Hrv3
  ihave Hrv4 := (Entails.of_eq (rcvSlot_eq c 4 (Rfin m c))) $$ Hrv4
  ihave Hrv5 := (Entails.of_eq (rcvSlot_eq c 5 (Rfin m c))) $$ Hrv5
  ihave Hrv6 := (Entails.of_eq (rcvSlot_eq c 6 (Rfin m c))) $$ Hrv6
  ihave Hrv7 := (Entails.of_eq (rcvSlot_eq c 7 (Rfin m c))) $$ Hrv7
  ihave Hrv8 := (Entails.of_eq (rcvSlot_eq c 8 (Rfin m c))) $$ Hrv8
  ihave Hrv9 := (Entails.of_eq (rcvSlot_eq c 9 (Rfin m c))) $$ Hrv9
  ihave Hrv10 := (Entails.of_eq (rcvSlot_eq c 10 (Rfin m c))) $$ Hrv10
  ihave Hrv11 := (Entails.of_eq (rcvSlot_eq c 11 (Rfin m c))) $$ Hrv11
  ihave Hrv12 := (Entails.of_eq (rcvSlot_eq c 12 (Rfin m c))) $$ Hrv12
  ihave Hrv13 := (Entails.of_eq (rcvSlot_eq c 13 (Rfin m c))) $$ Hrv13
  ihave Hrv14 := (Entails.of_eq (rcvSlot_eq c 14 (Rfin m c))) $$ Hrv14
  ihave Hrv15 := (Entails.of_eq (rcvSlot_eq c 15 (Rfin m c))) $$ Hrv15
  ihave Hrv16 := (Entails.of_eq (rcvSlot_eq c 16 (Rfin m c))) $$ Hrv16
  ihave Hrv17 := (Entails.of_eq (rcvSlot_eq c 17 (Rfin m c))) $$ Hrv17
  ihave Hrv18 := (Entails.of_eq (rcvSlot_eq c 18 (Rfin m c))) $$ Hrv18
  ihave Hrv19 := (Entails.of_eq (rcvSlot_eq c 19 (Rfin m c))) $$ Hrv19
  ihave Hrv20 := (Entails.of_eq (rcvSlot_eq c 20 (Rfin m c))) $$ Hrv20
  ihave Hrv21 := (Entails.of_eq (rcvSlot_eq c 21 (Rfin m c))) $$ Hrv21
  ihave Hrv22 := (Entails.of_eq (rcvSlot_eq c 22 (Rfin m c))) $$ Hrv22
  ihave Hrv23 := (Entails.of_eq (rcvSlot_eq c 23 (Rfin m c))) $$ Hrv23
  ihave Hrv24 := (Entails.of_eq (rcvSlot_eq c 24 (Rfin m c))) $$ Hrv24
  ihave Hrv25 := (Entails.of_eq (rcvSlot_eq c 25 (Rfin m c))) $$ Hrv25
  ihave Hrv26 := (Entails.of_eq (rcvSlot_eq c 26 (Rfin m c))) $$ Hrv26
  ihave Hrv27 := (Entails.of_eq (rcvSlot_eq c 27 (Rfin m c))) $$ Hrv27
  ihave Hrv28 := (Entails.of_eq (rcvSlot_eq c 28 (Rfin m c))) $$ Hrv28
  ihave Hrv29 := (Entails.of_eq (rcvSlot_eq c 29 (Rfin m c))) $$ Hrv29
  ihave Hrv30 := (Entails.of_eq (rcvSlot_eq c 30 (Rfin m c))) $$ Hrv30
  ihave Hrv31 := (Entails.of_eq (rcvSlot_eq c 31 (Rfin m c))) $$ Hrv31
  ihave HRall := (Entails.of_eq (chain_all (fun d : Dev nD => ((((c : Thread nD τ).loc cc0_scratch1) ↦[(slotRect d).set]{fullShare} Rfin m c) : sProp 𝕄))).symm) $$ [Hrv0 Hrv1 Hrv2 Hrv3 Hrv4 Hrv5 Hrv6 Hrv7 Hrv8 Hrv9 Hrv10 Hrv11 Hrv12 Hrv13 Hrv14 Hrv15 Hrv16 Hrv17 Hrv18 Hrv19 Hrv20 Hrv21 Hrv22 Hrv23 Hrv24 Hrv25 Hrv26 Hrv27 Hrv28 Hrv29 Hrv30 Hrv31]
  · isplitl [Hrv0]; · iexact Hrv0
    isplitl [Hrv1]; · iexact Hrv1
    isplitl [Hrv2]; · iexact Hrv2
    isplitl [Hrv3]; · iexact Hrv3
    isplitl [Hrv4]; · iexact Hrv4
    isplitl [Hrv5]; · iexact Hrv5
    isplitl [Hrv6]; · iexact Hrv6
    isplitl [Hrv7]; · iexact Hrv7
    isplitl [Hrv8]; · iexact Hrv8
    isplitl [Hrv9]; · iexact Hrv9
    isplitl [Hrv10]; · iexact Hrv10
    isplitl [Hrv11]; · iexact Hrv11
    isplitl [Hrv12]; · iexact Hrv12
    isplitl [Hrv13]; · iexact Hrv13
    isplitl [Hrv14]; · iexact Hrv14
    isplitl [Hrv15]; · iexact Hrv15
    isplitl [Hrv16]; · iexact Hrv16
    isplitl [Hrv17]; · iexact Hrv17
    isplitl [Hrv18]; · iexact Hrv18
    isplitl [Hrv19]; · iexact Hrv19
    isplitl [Hrv20]; · iexact Hrv20
    isplitl [Hrv21]; · iexact Hrv21
    isplitl [Hrv22]; · iexact Hrv22
    isplitl [Hrv23]; · iexact Hrv23
    isplitl [Hrv24]; · iexact Hrv24
    isplitl [Hrv25]; · iexact Hrv25
    isplitl [Hrv26]; · iexact Hrv26
    isplitl [Hrv27]; · iexact Hrv27
    isplitl [Hrv28]; · iexact Hrv28
    isplitl [Hrv29]; · iexact Hrv29
    isplitl [Hrv30]; · iexact Hrv30
    iexact Hrv31
  ihave HRall := (Entails.of_eq (rcv_slots (F := F) c fullShare (Rfin m c)).symm) $$ HRall
  -- the 64 closed cells
  ihave HzSall := (Entails.of_eq (chain_send c (fun d : Dev nD => (semVal (sendCell c d) 0 : sProp 𝕄))).symm) $$ [HzS0 HzS1 HzS2 HzS3 HzS4 HzS5 HzS6 HzS7 HzS8 HzS9 HzS10 HzS11 HzS12 HzS13 HzS14 HzS15 HzS16 HzS17 HzS18 HzS19 HzS20 HzS21 HzS22 HzS23 HzS24 HzS25 HzS26 HzS27 HzS28 HzS29 HzS30 HzS31]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzS7]; · iexact HzS7
    isplitl [HzS8]; · iexact HzS8
    isplitl [HzS9]; · iexact HzS9
    isplitl [HzS10]; · iexact HzS10
    isplitl [HzS11]; · iexact HzS11
    isplitl [HzS12]; · iexact HzS12
    isplitl [HzS13]; · iexact HzS13
    isplitl [HzS14]; · iexact HzS14
    isplitl [HzS15]; · iexact HzS15
    isplitl [HzS16]; · iexact HzS16
    isplitl [HzS17]; · iexact HzS17
    isplitl [HzS18]; · iexact HzS18
    isplitl [HzS19]; · iexact HzS19
    isplitl [HzS20]; · iexact HzS20
    isplitl [HzS21]; · iexact HzS21
    isplitl [HzS22]; · iexact HzS22
    isplitl [HzS23]; · iexact HzS23
    isplitl [HzS24]; · iexact HzS24
    isplitl [HzS25]; · iexact HzS25
    isplitl [HzS26]; · iexact HzS26
    isplitl [HzS27]; · iexact HzS27
    isplitl [HzS28]; · iexact HzS28
    isplitl [HzS29]; · iexact HzS29
    isplitl [HzS30]; · iexact HzS30
    iexact HzS31
  ihave HzRall := (Entails.of_eq (chain_all (fun s : Dev nD => (semVal (recvCell c s) 0 : sProp 𝕄))).symm) $$ [HzR0 HzR1 HzR2 HzR3 HzR4 HzR5 HzR6 HzR7 HzR8 HzR9 HzR10 HzR11 HzR12 HzR13 HzR14 HzR15 HzR16 HzR17 HzR18 HzR19 HzR20 HzR21 HzR22 HzR23 HzR24 HzR25 HzR26 HzR27 HzR28 HzR29 HzR30 HzR31]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    isplitl [HzR15]; · iexact HzR15
    isplitl [HzR16]; · iexact HzR16
    isplitl [HzR17]; · iexact HzR17
    isplitl [HzR18]; · iexact HzR18
    isplitl [HzR19]; · iexact HzR19
    isplitl [HzR20]; · iexact HzR20
    isplitl [HzR21]; · iexact HzR21
    isplitl [HzR22]; · iexact HzR22
    isplitl [HzR23]; · iexact HzR23
    isplitl [HzR24]; · iexact HzR24
    isplitl [HzR25]; · iexact HzR25
    isplitl [HzR26]; · iexact HzR26
    isplitl [HzR27]; · iexact HzR27
    isplitl [HzR28]; · iexact HzR28
    isplitl [HzR29]; · iexact HzR29
    isplitl [HzR30]; · iexact HzR30
    iexact HzR31
  -- the result tile: the 128 stored pieces are the tile laid out from the received slots
  ihave Ho := (pts_name (F := F) c _) $$ Ho
  icases Ho with ⟨%g, %hg, Ho⟩
  have hg2 : g = outFin m c := hg.trans (out_final m c fo)
  subst hg2
  unfold bodyPost Φ₁
  isplitl [HSall HRall HzSall HzRall]
  · isplitl [HSall]; · iexact HSall
    isplitl [HRall]; · iexact HRall
    isplitl [HzSall]; · iexact HzSall
    iexact HzRall
  isplitl [HO]; · iexists _; iexact HO
  isplitl [Hx]; · iexact Hx
  isplitl [Hw]; · iexact Hw
  iexact Ho

end Cert.KernelIdeal.Exchange

end
-- ==== Proof.Obligation.lean ====
import proofs.«900436_g7700000000000437_dist_gemm_a2a_m1024_k1024_n1024_f32_relu_v7x_i32_1_alg».proof.Proof.BodyPost
import Idealize.ShloMosaic.Lib.Pipeline.Launch
import Idealize.ShloMosaic.Lib.Pipeline.Kit
import Idealize.ShloMosaic.Lib.Tactic

/-!
# The body's run as the pipeline's body obligation

The region has one point. There the pipeline hands the body the invariant before the point, what the device owes, and
the three staged windows: the tile of `x` and the copy of `w` as fetched, the result tile at some contents. The run of
the body takes exactly these, regrouped, and gives back the invariant after the point, nothing owed, the two inputs as
they were and the result tile laid out from the received slots. Nothing here is about the kernel: the obligation's
two sides are opened, the pieces handed over, the post weakened to the form the pipeline takes back.
-/

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A whole staging buffer owned at contents `X`: the buffer at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer through its memref's view is the buffer itself. -/
theorem pts_whole_eq (c : Dev nD) (b : Ref sig .tc) (f : Buf (Elt F) ((c : Thread nD τ).loc b)) :
    ((((Memref.whole b).view.loc (c : Thread nD τ)) ↦[(Memref.whole b).view.set]{fullShare} f) : sProp 𝕄)
      = (((c : Thread nD τ).loc b) ↦{fullShare} f) := by
  rw [View.set_whole]

/-- The library's body obligation on device `c`, from the run of its body. -/
theorem body_obligation (hrun : BodyRun (F := F) m) (c : Dev nD) :
    BodyObligation (dats (F := F) m 0 c) (defs₀ (F := F)) 𝒱₀ () Set.univ := fun t => by
  rw [fin_N0 t]
  rw [bigSep_W0, bigSep_W0]
  simp only [owns_whole_eq]
  rw [show defs₀ (F := F) Proc.tc 0 (t0_0, cfg0.slots t0_0) = bodyAt0 (F := F) t0_0 from rfl,
    show bodyAt0 (F := F) t0_0 = (cc0_body xM (Memref.isWhole_whole _) wM (Memref.isWhole_whole _) oM (Memref.isWhole_whole _)
      stgM (Memref.isWhole_whole _) rcvM (Memref.isWhole_whole _) cc0_scratch2 cc0_scratch3) from rfl,
    show (dats m 0 c).Φ t0_0.castSucc = Φ₀ m c from rfl, show (dats m 0 c).Φ t0_0.succ = Φ₁ m c from rfl,
    show (dats m 0 c).after 0 t0_0 = xstg m c from rfl, show (dats m 0 c).after 1 t0_0 = wstg m c from rfl,
    show (dats m 0 c).after 2 t0_0 = outFin m c from rfl]
  refine BI.Entails.trans ?_ (wp_mono _ _ _ (Q := fun _ => bodyPost m c) fun _ => ?_)
  · unfold Φ₀ start ghost
    change (_ : sProp 𝕄) ⊢ _
    iintro ⟨⟨⟨⟨%K, Hrec, Hlin⟩, Hc1, Hc2, Hlev⟩, ⟨%fs, Hs⟩, ⟨%fr, Hr⟩⟩, Ho, ⟨%d0, %g0, %hg0, Hx⟩, ⟨%d1, %g1, %hg1, Hw⟩, ⟨%d2, %g2, %hg2, Hout⟩⟩
    have hx : g0 = xstg m c := by rw [hg0]; unfold Dat.before; rw [if_pos (fetch0_0 t0_0)]; rfl
    have hw : g1 = wstg m c := by rw [hg1]; unfold Dat.before; rw [if_pos (fetch0_1 t0_0)]; rfl
    subst hx; subst hw
    unfold Dat.owesAt Pipeline.owesWithin
    icases Ho with ⟨%W, %hW, HO⟩
    rw [show (dats m 0 c).owed t0_0.castSucc = O₀ c from rfl]
    ihave Hx' := (Entails.of_eq (pts_whole_eq (F := F) c cc0_stg0_0 (xstg m c)).symm) $$ Hx
    ihave Hw' := (Entails.of_eq (pts_whole_eq (F := F) c cc0_stg1_0 (wstg m c)).symm) $$ Hw
    ihave Hout' := (Entails.of_eq (pts_whole_eq (F := F) c cc0_stg2_0 g2).symm) $$ Hout
    iapply (hrun K c W fs fr g2)
    unfold bodyPre
    isplitl [Hrec]; · iexact Hrec
    isplitl [Hlin]; · iexact Hlin
    isplitl [Hc1]; · iexact Hc1
    isplitl [Hc2]; · iexact Hc2
    isplitl [Hlev]; · iexact Hlev
    isplitl [Hs]; · iexact Hs
    isplitl [Hr]; · iexact Hr
    isplitl [HO]; · iexact HO
    isplitl [Hx']; · iexact Hx'
    isplitl [Hw']; · iexact Hw'
    iexact Hout'
  · unfold bodyPost Dat.owesAt Pipeline.owesWithin
    rw [show (dats m 0 c).owed t0_0.succ = 0 from rfl]
    change (_ : sProp 𝕄) ⊢ _
    iintro ⟨HΦ, ⟨%W', HO⟩, Hx, Hw, Hout⟩
    ihave Hx' := (Entails.of_eq (pts_whole_eq (F := F) c cc0_stg0_0 (xstg m c))) $$ Hx
    ihave Hw' := (Entails.of_eq (pts_whole_eq (F := F) c cc0_stg1_0 (wstg m c))) $$ Hw
    ihave Hout' := (Entails.of_eq (pts_whole_eq (F := F) c cc0_stg2_0 (outFin m c))) $$ Hout
    isplitl [HΦ]; · iexact HΦ
    isplitl [HO]
    · iexists W'
      isplitr; · ipureintro; exact fun _ _ => Or.inl trivial
      iexact HO
    isplitl [Hx']
    · iexists _; isplitr; · (ipureintro; rfl)
      iexact Hx'
    isplitl [Hw']
    · iexists _; isplitr; · (ipureintro; rfl)
      iexact Hw'
    iexists _; isplitr; · (ipureintro; rfl)
    iexact Hout'

end Cert.KernelIdeal.Exchange

end
-- ==== Proof.W.Sched.lean ====
import proofs.«900436_g7700000000000437_dist_gemm_a2a_m1024_k1024_n1024_f32_relu_v7x_i32_1_alg».proof.Proof.Gen.Kernel
import proofs.«900436_g7700000000000437_dist_gemm_a2a_m1024_k1024_n1024_f32_relu_v7x_i32_1_alg».proof.Proof.Gen.Kernel.Skeleton
import proofs.«900436_g7700000000000437_dist_gemm_a2a_m1024_k1024_n1024_f32_relu_v7x_i32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

/-!
# The exchange's protocol

Thirty-two devices. Device `c` computes `Y_c = max (x_c · W) 0` (32 × 1024), lays block `d` of its columns
(32 columns) into slot `d` of a staging scratch as an 8 × 128 tile (row `r`, lane `32q + j` holds `Y_c[8q + r, 32d + j]`),
and copies slot `d` into slot `c` of device `d`'s receive scratch. Before its first copy it has signalled every other
device's barrier semaphore once and waited for the 31 signals addressed to it.

Cells and duties (a duty is named by the device that pays it):
* the barrier cell of `c`: one round, a duty of one unit from every `p ≠ c`, handing `c` slot `c` of `p`'s receive
  scratch (at any contents) and the fact that `p` has reached round 0 of its receive cell `c`;
* receive cell `s` of `c`: one round, one duty, paid by device `s`'s copy, handing `c` its receive slot `s` holding
  slot `c` of `s`'s staging scratch;
* send cell `d` of `c`: one round, one duty, paid by `c`'s own copy to `d`, handing back staging slot `d`.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices, semaphores, cells -/

/-- The device `off` places after `c` around the mesh. -/
def peer (c : Dev nD) (off : ℕ) : Dev nD := ⟨(c.val + off) % 32, Nat.mod_lt _ (by decide)⟩

/-- The destination of copy `i` of group `g`: within the group's eight devices, rotated by `c`. -/
def dest (c : Dev nD) (g : Fin 4) (i : Fin 8) : Dev nD := ⟨8 * g.val + (i.val + c.val) % 8, by have := g.isLt; have := Nat.mod_lt (i.val + c.val) (show 0 < 8 by decide); show _ < 32; omega⟩

abbrev barS : Sem sig := (SemArray.scalar (sig.barrier 0 rfl) : Sems sig S_).sem
/-- Send semaphore `d` and receive semaphore `s` of the two scratch arrays, by their place in the pool. -/
def sendQ (d : Dev nD) : DmaSem sig := ⟨3 + d.val, by have h : d.val < 32 := d.isLt; show 3 + d.val < 67; omega⟩
def recvQ (s : Dev nD) : DmaSem sig := ⟨35 + s.val, by have h : s.val < 32 := s.isLt; show 35 + s.val < 67; omega⟩

abbrev barCell (c : Dev nD) : GSem nD τ sig := ((c : Thread nD τ), .reg barS)
abbrev sendCell (c d : Dev nD) : GSem nD τ sig := ((c : Thread nD τ), .dma (sendQ d))
abbrev recvCell (c s : Dev nD) : GSem nD τ sig := ((c : Thread nD τ), .dma (recvQ s))

/-! ## The two scratch buffers by slots -/

abbrev stgM : Memref sig .tc .vmem S32x8x128 .f32 := Memref.whole cc0_scratch0
abbrev rcvM : Memref sig .tc .vmem S32x8x128 .f32 := Memref.whole cc0_scratch1

theorem slot_inb (d : Dev nD) : ∀ a, (![d.val, 0, 0] : Fin 3 → Nat) a + S1x8x128.size a ≤ S32x8x128.size a := by
  intro a; have h : d.val < 32 := d.isLt
  match a with
  | ⟨0, _⟩ => show d.val + 1 ≤ 32; omega
  | ⟨1, _⟩ => show 0 + 8 ≤ 8; omega
  | ⟨2, _⟩ => show 0 + 128 ≤ 128; omega

/-- Slot `d` of a 32-slot scratch, as the kernel addresses it: the slice, squeezed to a tile. -/
abbrev slotM (M : Memref sig .tc .vmem S32x8x128 .f32) (d : Dev nD) : Memref sig .tc .vmem S8x128 .f32 :=
  (M.slice (Rect.unit (s := S32x8x128) ![d.val, 0, 0] S1x8x128.size (slot_inb d)) (fun _ => rfl)).squeeze S8x128 squeezes_S1x8x128_S8x128

/-- A tile's credit on a DMA semaphore. -/
abbrev N : ℕ := (slotM rcvM (0 : Dev nD)).view.dmaCredit
theorem N_pos : 0 < N := View.dmaCredit_pos _ (by decide)

/-! ## Contents -/

/-- Device `c`'s block of `x` and its copy of `w` as the region's first point stages them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- What the body's load of the whole `x` tile reads, -/
def xld (c : Dev nD) : Vec F S32x1024 .f32 :=
  (Memref.whole cc0_stg0_0 : Memref sig .tc .vmem S32x1024 .f32).view.readAt (Elt F)
    (Rect.unit (s := S32x1024) ![0, 0] S32x1024.size inb_S32x1024_S32x1024_0_0).toLoadRect (xstg m c)
/-- and its load of column group `g` of `w` (columns 256g … 256g + 255). -/
def wld (c : Dev nD) (g : Fin 4) : Vec F S1024x256 .f32 := match g with
  | 0 => (Memref.whole cc0_stg1_0 : Memref sig .tc .vmem S1024x1024 .f32).view.readAt (Elt F)
      (Rect.unit (s := S1024x1024) ![0, 0] S1024x256.size inb_S1024x1024_S1024x256_0_0).toLoadRect (wstg m c)
  | 1 => (Memref.whole cc0_stg1_0 : Memref sig .tc .vmem S1024x1024 .f32).view.readAt (Elt F)
      (Rect.unit (s := S1024x1024) ![0, 256] S1024x256.size inb_S1024x1024_S1024x256_0_256).toLoadRect (wstg m c)
  | 2 => (Memref.whole cc0_stg1_0 : Memref sig .tc .vmem S1024x1024 .f32).view.readAt (Elt F)
      (Rect.unit (s := S1024x1024) ![0, 512] S1024x256.size inb_S1024x1024_S1024x256_0_512).toLoadRect (wstg m c)
  | 3 => (Memref.whole cc0_stg1_0 : Memref sig .tc .vmem S1024x1024 .f32).view.readAt (Elt F)
      (Rect.unit (s := S1024x1024) ![0, 768] S1024x256.size inb_S1024x1024_S1024x256_0_768).toLoadRect (wstg m c)

/-- Column group `g` of `Y_c = max (x_c · W) 0`: the body's product of the two loads into a zero accumulator, then the
    maximum with zero (the skeleton's first payload; the other three groups compute the same function of their loads). -/
def Ygrp (c : Dev nD) (g : Fin 4) : FVec F S32x256 .f32 := k0_pay1 (xld m c) (wld m c g)

/-- The staging scratch of `c` once its 32 slots are stored: slot `d`, row `r`, lane `l` holds
    `Y_c[8 (l / 32) + r, 32 d + l % 32]`, column `32 (d % 8) + l % 32` of group `d / 8`. -/
def Sfin (c : Dev nD) : Buf (Elt F) ((c : Thread nD τ).loc cc0_scratch0) := fun j =>
  Ygrp m c ⟨(j 0).val / 8, by have h : (j 0).val < 32 := (j 0).isLt; omega⟩
    (ValueIdx.ix2 (n0 := 32) (n1 := 256)
      ⟨8 * ((j 2).val / 32) + (j 1).val, by have h1 : (j 1).val < 8 := (j 1).isLt; have h2 : (j 2).val < 128 := (j 2).isLt; omega⟩
      ⟨32 * ((j 0).val % 8) + (j 2).val % 32, by omega⟩)

/-- The receive scratch of `c` once the 32 copies have landed: slot `s` holds slot `c` of `s`'s staging scratch. -/
def Rfin (c : Dev nD) : Buf (Elt F) ((c : Thread nD τ).loc cc0_scratch1) := fun j =>
  Sfin m ⟨(j 0).val, (j 0).isLt⟩ (ValueIdx.ix3 (n0 := 32) (n1 := 8) (n2 := 128) c ⟨(j 1).val, (j 1).isLt⟩ ⟨(j 2).val, (j 2).isLt⟩)

/-! ## The schedule -/

/-- What `p`'s signal hands `c`: slot `c` of `p`'s receive scratch at any contents, and that `p` has reached round 0 of
    its receive cell `c` — what `c`'s copy into that slot needs. -/
def barPay (c p : Dev nD) : sProp 𝕄 :=
  iprop((∃ f : Buf (Elt F) ((slotM rcvM c).view.loc (p : Thread nD τ)), (slotM rcvM c).view.loc (p : Thread nD τ) ↦[(slotM rcvM c).view.set]{fullShare} f)
    ∗ reached ER (recvCell p c) 0)
/-- What the copy from `s` hands `c`: receive slot `s`, holding what landed. -/
def recvPay (c s : Dev nD) : sProp 𝕄 :=
  (slotM rcvM s).view.loc (c : Thread nD τ) ↦[(slotM rcvM s).view.set]{fullShare} Rfin m c
/-- What `c`'s own copy to `d` hands back: staging slot `d`, unchanged. -/
def sendPay (c d : Dev nD) : sProp 𝕄 :=
  (slotM stgM d).view.loc (c : Thread nD τ) ↦[(slotM stgM d).view.set]{fullShare} Sfin m c

def slotOfSend (q : DmaSem sig) : Dev nD := ⟨(q.val - 3) % 32, Nat.mod_lt _ (by decide)⟩
def slotOfRecv (q : DmaSem sig) : Dev nD := ⟨(q.val - 35) % 32, Nat.mod_lt _ (by decide)⟩

theorem slotOfSend_sendQ (d : Dev nD) : slotOfSend (sendQ d) = d := by
  have h : d.val < 32 := d.isLt
  exact Fin.ext (show (3 + d.val - 3) % 32 = d.val by omega)
theorem slotOfRecv_recvQ (s : Dev nD) : slotOfRecv (recvQ s) = s := by
  have h : s.val < 32 := s.isLt
  exact Fin.ext (show (35 + s.val - 35) % 32 = s.val by omega)

/-- One round. A barrier cell: a duty of one unit from every other device. A send cell: one duty, the device's own.
    A receive cell `s`: one duty, device `s`'s. -/
def sched : Rounds.Schedule (GSem nD τ sig) (Dev nD) 𝕄 where
  duties g r := if r ≠ 0 ∨ g.1.2 ≠ .tc then ∅ else match g.2 with
    | .reg s => if s = barS then Finset.univ.erase g.1.1 else ∅
    | .dma q => if 3 ≤ q.val ∧ q.val < 35 then {g.1.1} else if 35 ≤ q.val then {slotOfRecv q} else ∅
  amount g _ _ := match g.2 with
    | .reg _ => 1
    | .dma _ => N
  payload g _ d := match g.2 with
    | .reg _ => barPay g.1.1 d
    | .dma q => if q.val < 35 then sendPay m g.1.1 (slotOfSend q) else recvPay m g.1.1 (slotOfRecv q)
  amount_pos g _ _ _ := by
    cases g.2 with
    | reg _ => exact Nat.one_pos
    | dma _ => exact N_pos

instance sched_payload_storable (g : GSem nD τ sig) (r : ℕ) (d : Dev nD) :
    BI.Storable (upEmb : UEmb _ 𝕄) ((sched (F := F) m).payload g r d) := by
  show BI.Storable upEmb (match g.2 with
    | .reg _ => barPay g.1.1 d
    | .dma q => if q.val < 35 then sendPay m g.1.1 (slotOfSend q) else recvPay m g.1.1 (slotOfRecv q))
  unfold barPay recvPay sendPay
  (repeat' split) <;> infer_instance

section Tables
variable (c : Dev nD)

theorem duties_bar : (sched (F := F) m).duties (barCell c) 0 = Finset.univ.erase c := by
  dsimp only [sched]; rw [if_neg (by simp)]; exact if_pos rfl
theorem duties_send (d : Dev nD) : (sched (F := F) m).duties (sendCell c d) 0 = {c} := by
  dsimp only [sched]; rw [if_neg (by simp)]
  have h : d.val < 32 := d.isLt
  exact if_pos ⟨show 3 ≤ 3 + d.val by omega, show 3 + d.val < 35 by omega⟩
theorem duties_recv (s : Dev nD) : (sched (F := F) m).duties (recvCell c s) 0 = {s} := by
  dsimp only [sched]; rw [if_neg (by simp)]
  have h : s.val < 32 := s.isLt
  show (if 3 ≤ 35 + s.val ∧ 35 + s.val < 35 then ({c} : Finset (Dev nD)) else if 35 ≤ 35 + s.val then {slotOfRecv (recvQ s)} else ∅) = {s}
  rw [if_neg (by omega), if_pos (by omega), slotOfRecv_recvQ]
theorem duties_later (g : GSem nD τ sig) : ∀ r, 1 ≤ r → (sched (F := F) m).duties g r = ∅ :=
  fun r hr => by dsimp only [sched]; exact if_pos (Or.inl (by omega))

theorem amount_bar (d : Dev nD) : (sched (F := F) m).amount (barCell c) 0 d = 1 := rfl
theorem amount_send (d e : Dev nD) : (sched (F := F) m).amount (sendCell c d) 0 e = N := rfl
theorem amount_recv (s e : Dev nD) : (sched (F := F) m).amount (recvCell c s) 0 e = N := rfl

theorem payload_bar (p : Dev nD) : (sched (F := F) m).payload (barCell c) 0 p = barPay c p := rfl
theorem payload_send (d e : Dev nD) : (sched (F := F) m).payload (sendCell c d) 0 e = sendPay m c d := by
  have h : d.val < 32 := d.isLt
  show (if 3 + d.val < 35 then sendPay m c (slotOfSend (sendQ d)) else recvPay m c (slotOfRecv (sendQ d))) = _
  rw [if_pos (by omega), slotOfSend_sendQ]
theorem payload_recv (s e : Dev nD) : (sched (F := F) m).payload (recvCell c s) 0 e = recvPay m c s := by
  show (if 35 + s.val < 35 then sendPay m c (slotOfSend (recvQ s)) else recvPay m c (slotOfRecv (recvQ s))) = _
  rw [if_neg (by omega), slotOfRecv_recvQ]

theorem expect_bar : (sched (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_send (d : Dev nD) : (sched (F := F) m).expect (sendCell c d) 0 = N := by
  unfold Schedule.expect Schedule.amountOf; rw [duties_send, Finset.sum_singleton, amount_send]
theorem expect_recv (s : Dev nD) : (sched (F := F) m).expect (recvCell c s) 0 = N := by
  unfold Schedule.expect Schedule.amountOf; rw [duties_recv, Finset.sum_singleton, amount_recv]

end Tables

end Cert.Kernel.Exchange

end
-- ==== Proof.W.Slots.lean ====
import proofs.«900436_g7700000000000437_dist_gemm_a2a_m1024_k1024_n1024_f32_relu_v7x_i32_1_alg».proof.Proof.W.Sched

/-!
# The two scratch buffers, slot by slot

A 32 × 8 × 128 scratch is the disjoint union of its 32 tiles: an index lies in slot `d` exactly when its first coordinate
is `d`. So a points-to of the whole buffer is the `∗` of the points-tos of its slots at the same contents, in any order
of the slots: by slot number, around the mesh from a device (`peer c`), or group by group in the rotated order a device
sends them (`dest c`).
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The rectangle of slot `d`: first coordinate `d`, the other two free. -/
abbrev slotRect (d : Dev nD) : Rect S32x8x128 := Rect.unit (s := S32x8x128) ![d.val, 0, 0] S1x8x128.size (slot_inb d)

theorem mem_slotRect (d : Dev nD) (j : S32x8x128.Idx) : j ∈ (slotRect d).set ↔ (j 0).val = d.val := by
  rw [Rect.mem_set_unit]
  constructor
  · intro h
    have h0 : d.val ≤ (j 0).val ∧ (j 0).val < d.val + 1 := h 0
    omega
  · intro h a
    have h1 : (j 1).val < 8 := (j 1).isLt
    have h2 : (j 2).val < 128 := (j 2).isLt
    match a with
    | 0 => show d.val ≤ (j 0).val ∧ (j 0).val < d.val + 1; omega
    | 1 => show 0 ≤ (j 1).val ∧ (j 1).val < 0 + 8; omega
    | 2 => show 0 ≤ (j 2).val ∧ (j 2).val < 0 + 128; omega

theorem slotRect_disjoint {d d' : Dev nD} (h : d ≠ d') : Disjoint (slotRect d).set (slotRect d').set := by
  rw [Finset.disjoint_left]
  intro j hj hj'
  rw [mem_slotRect] at hj hj'
  exact h (Fin.ext (hj.symm.trans hj'))

theorem slotRect_cover : (Finset.univ : Finset (Dev nD)).biUnion (fun d => (slotRect d).set) = Finset.univ := by
  ext j
  simp only [Finset.mem_biUnion, Finset.mem_univ, true_and, iff_true]
  exact ⟨⟨(j 0).val, (j 0).isLt⟩, (mem_slotRect _ j).mpr rfl⟩

/-- A slot's elements, through the kernel's slice-and-squeeze of either scratch. -/
theorem slot_set_stg (d : Dev nD) : (slotM stgM d).view.set = (slotRect d).set := by
  rw [Memref.set_view_squeeze]
  show ((View.whole cc0_scratch0).slice (slotRect d)).set = _
  exact View.set_slice_whole _ _
theorem slot_set_rcv (d : Dev nD) : (slotM rcvM d).view.set = (slotRect d).set := by
  rw [Memref.set_view_squeeze]
  show ((View.whole cc0_scratch1).slice (slotRect d)).set = _
  exact View.set_slice_whole _ _

/-- The staging scratch whole is its 32 slots, each at the same contents; -/
theorem stg_slots (c : Dev nD) (q : PosShare TreeShare) (f : Buf (Elt F) ((c : Thread nD τ).loc cc0_scratch0)) :
    ((((c : Thread nD τ).loc cc0_scratch0) ↦{q} f) : sProp 𝕄)
      = bigSep Finset.univ fun d : Dev nD => (((c : Thread nD τ).loc cc0_scratch0) ↦[(slotRect d).set]{q} f) := by
  have h := pointsTo_biUnion (Ix := Unit) (Name := ℕ) (U := UU) (Lvl := ℕ) (Val := Elt F) (q := q) (f := f) Finset.univ (fun d : Dev nD => (slotRect d).set)
    (fun t _ t' _ h => slotRect_disjoint h)
  rw [slotRect_cover] at h
  exact h
/-- and so is the receive scratch. -/
theorem rcv_slots (c : Dev nD) (q : PosShare TreeShare) (f : Buf (Elt F) ((c : Thread nD τ).loc cc0_scratch1)) :
    ((((c : Thread nD τ).loc cc0_scratch1) ↦{q} f) : sProp 𝕄)
      = bigSep Finset.univ fun d : Dev nD => (((c : Thread nD τ).loc cc0_scratch1) ↦[(slotRect d).set]{q} f) := by
  have h := pointsTo_biUnion (Ix := Unit) (Name := ℕ) (U := UU) (Lvl := ℕ) (Val := Elt F) (q := q) (f := f) Finset.univ (fun d : Dev nD => (slotRect d).set)
    (fun t _ t' _ h => slotRect_disjoint h)
  rw [slotRect_cover] at h
  exact h

/-! ## Re-indexing the slots -/

/-- Around the mesh from `c`: offset `k` names device `(c + k) mod 32`. -/
def around (c : Dev nD) : Dev nD ≃ Dev nD where
  toFun k := peer c k.val
  invFun p := ⟨(p.val + 32 - c.val) % 32, Nat.mod_lt _ (by decide)⟩
  left_inv k := by
    have hc : c.val < 32 := c.isLt; have hk : k.val < 32 := k.isLt
    apply Fin.ext; show ((c.val + k.val) % 32 + 32 - c.val) % 32 = k.val; omega
  right_inv p := by
    have hc : c.val < 32 := c.isLt; have hp : p.val < 32 := p.isLt
    apply Fin.ext; show (c.val + (p.val + 32 - c.val) % 32) % 32 = p.val; omega

theorem around_zero (c : Dev nD) : around c 0 = c := by
  have hc : c.val < 32 := c.isLt
  apply Fin.ext; show (c.val + 0) % 32 = c.val; omega

/-- Group by group in the order `c` sends: `(g, i)` names device `8 g + (i + c) mod 8`. -/
def sendOrder (c : Dev nD) : Fin 4 × Fin 8 ≃ Dev nD where
  toFun gi := dest c gi.1 gi.2
  invFun d := (⟨d.val / 8, by have h : d.val < 32 := d.isLt; omega⟩, ⟨(d.val % 8 + 8 - c.val % 8) % 8, Nat.mod_lt _ (by decide)⟩)
  left_inv gi := by
    obtain ⟨g, i⟩ := gi
    have hg : g.val < 4 := g.isLt; have hi : i.val < 8 := i.isLt; have hc : c.val < 32 := c.isLt
    apply Prod.ext
    · apply Fin.ext; show (8 * g.val + (i.val + c.val) % 8) / 8 = g.val; omega
    · apply Fin.ext; show ((8 * g.val + (i.val + c.val) % 8) % 8 + 8 - c.val % 8) % 8 = i.val; omega
  right_inv d := by
    have hd : d.val < 32 := d.isLt; have hc : c.val < 32 := c.isLt
    apply Fin.ext; show 8 * (d.val / 8) + ((d.val % 8 + 8 - c.val % 8) % 8 + c.val) % 8 = d.val; omega

end Cert.Kernel.Exchange

end
-- ==== Proof.W.Steps.lean ====
import proofs.«900436_g7700000000000437_dist_gemm_a2a_m1024_k1024_n1024_f32_relu_v7x_i32_1_alg».proof.Proof.W.Slots

/-!
# The protocol's steps

Each remote statement of a device's body, as one rule over the schedule: the signal to a peer's barrier cell, the wait on
the device's own barrier cell, the copy of a staging slot into a peer's receive slot, and the two waits that close a copy
(on the receive cell, on the send cell). Every device holds, persistently, every cell's invariant (at some name) and the
fact that round 0 of every cell is reached; the rest is what the statement consumes and returns.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's 65 cells: its barrier cell, its 32 send cells, its 32 receive cells. -/
abbrev CellIx : Type := Unit ⊕ (Dev nD ⊕ Dev nD)
def kcell (ck : Dev nD × CellIx) : GSem nD τ sig := match ck.2 with
  | .inl _ => barCell ck.1
  | .inr (.inl d) => sendCell ck.1 d
  | .inr (.inr s) => recvCell ck.1 s

/-- What every device knows of every cell: its invariant's name, and that its round 0 is reached. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records m K) := by unfold records; infer_instance

theorem inv_at' (K : Dev nD × CellIx → ℕ) (ck : Dev nD × CellIx) :
    (bigSep Finset.univ fun ck : Dev nD × CellIx => (cellInv ER (sched m) (K ck) (kcell ck) : sProp 𝕄)) ⊢ cellInv ER (sched m) (K ck) (kcell ck) :=
  bigSep_elim (Finset.mem_univ ck)
theorem reached_at' (ck : Dev nD × CellIx) :
    (bigSep Finset.univ fun ck : Dev nD × CellIx => (reached ER (kcell ck) 0 : sProp 𝕄)) ⊢ reached ER (kcell ck) 0 :=
  bigSep_elim (Finset.mem_univ ck)
theorem inv_at (K : Dev nD × CellIx → ℕ) (ck : Dev nD × CellIx) : records m K ⊢ cellInv ER (sched m) (K ck) (kcell ck) := by
  unfold records; iintro ⟨HI, -⟩
  iapply (inv_at' m K ck); iexact HI
theorem reached_at (K : Dev nD × CellIx → ℕ) (ck : Dev nD × CellIx) : records m K ⊢ reached ER (kcell ck) 0 := by
  unfold records; iintro ⟨-, HR⟩
  iapply (reached_at' (F := F) ck); iexact HR

/-- Slot `d` of the receive scratch of device `c`, at contents `f`; of its staging scratch. -/
abbrev rcvSlot (c d : Dev nD) (f : Buf (Elt F) ((slotM rcvM d).view.loc (c : Thread nD τ))) : sProp 𝕄 :=
  (slotM rcvM d).view.loc (c : Thread nD τ) ↦[(slotM rcvM d).view.set]{fullShare} f
abbrev stgSlot (c d : Dev nD) (f : Buf (Elt F) ((slotM stgM d).view.loc (c : Thread nD τ))) : sProp 𝕄 :=
  (slotM stgM d).view.loc (c : Thread nD τ) ↦[(slotM stgM d).view.set]{fullShare} f

/-- THE SIGNAL to peer `p`'s barrier cell: `c` pays its duty there with one unit off what it owes, handing over slot `p`
    of its own receive scratch (the slot `p`'s copy will fill). -/
theorem step_signal (K : Dev nD × CellIx → ℕ) (c p : Dev nD) (hp : p ≠ c) (O : CellTallies nD τ sig Unit) (W : Waits sig Unit)
    (f : Buf (Elt F) ((slotM rcvM p).view.loc (c : Thread nD τ)))
    {α : Type} {Q : α → sProp 𝕄} {k : PUnit → Prog (TpuEff nD τ sig (Elt F) Λ₀ .tc) α} :
    iprop(records m K ∗ owes (c : Thread nD τ) (O + tallyAt (barCell p) () 1) W ∗ dutyTok ER (barCell p) 0 c ∗ rcvSlot c p f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) := by
  iintro ⟨#HR, HO, Htok, Hslot⟩
  iapply (Rounds.wp_signal 𝒱₀ ER (sched m) (c : Thread nD τ) none (dst := (p : Thread nD τ)) (κ := K (p, .inl ()))
      (d := c) (by rw [duties_bar]; exact Finset.mem_erase.mpr ⟨fun h => hp h.symm, Finset.mem_univ _⟩) (amount_bar m p c) () O rfl)
    $$ [HO Htok Hslot]
  · isplitr; · iapply (inv_at m K (p, .inl ())); iexact HR
    isplitl [HO]; · iexact HO
    isplitl [Htok]; · iexact Htok
    isplitl [Hslot]
    · rw [payload_bar]; unfold barPay
      isplitl [Hslot]; · iexists f; iexact Hslot
      iapply (reached_at m K (c, .inr (.inr p))); iexact HR
    · iapply (reached_at m K (p, .inl ())); iexact HR

/-! ## The waits -/

theorem rest_bar (c : Dev nD) :
    bigSep ((sched (F := F) m).duties (barCell c) 0 \ ∅) (fun d => (sched (F := F) m).payload (barCell c) 0 d)
      = bigSep (Finset.univ.erase c) (fun p => barPay (F := F) c p) := by
  rw [Finset.sdiff_empty, duties_bar]; rfl
theorem rest_send (c d : Dev nD) :
    bigSep ((sched (F := F) m).duties (sendCell c d) 0 \ ∅) (fun e => (sched (F := F) m).payload (sendCell c d) 0 e) = sendPay m c d := by
  rw [Finset.sdiff_empty, duties_send, bigSep_singleton, payload_send]
theorem rest_recv (c s : Dev nD) :
    bigSep ((sched (F := F) m).duties (recvCell c s) 0 \ ∅) (fun e => (sched (F := F) m).payload (recvCell c s) 0 e) = recvPay m c s := by
  rw [Finset.sdiff_empty, duties_recv, bigSep_singleton, payload_recv]

/-- THE WAIT for 31 on the device's own barrier cell: every other device's signal has landed, and with them slot `c` of
    every other device's receive scratch. -/
theorem step_barrier (K : Dev nD × CellIx → ℕ) (c : Dev nD) (O : CellTallies nD τ sig Unit) (W : Waits sig Unit)
    {α : Type} {Q : α → sProp 𝕄} {k : PUnit → Prog (TpuEff nD τ sig (Elt F) Λ₀ .tc) α} :
    iprop(records m K ∗ cred (tallyAt (barCell c) () 31) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ bigSep (Finset.univ.erase c) (fun p => barPay (F := F) c p))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HR, Hcr, HO, Hlev, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hcr HO Hlev Hat]
  · isplitr; · iapply (inv_at m K (c, .inl ())); iexact HR
    isplitl [Hcr]; · iexact Hcr
    isplitl [HO]; · iexact HO
    isplitl [Hlev]; · iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- THE WAIT on receive cell `s`, owing nothing: device `s`'s copy has landed, receive slot `s` holds slot `c` of its staging
    scratch; the cell's one round is consumed. -/
theorem step_recv_wait (K : Dev nD × CellIx → ℕ) (c s : Dev nD) (W : Waits sig Unit)
    {sp' : Space} {s' : Shape} {e' : EltTy} {src : Memref sig .tc sp' s' e'} {hsrc : src.view.WordExact} {hdst : (slotM rcvM s).view.WordExact}
    {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvQ s), ()) W) ∗ atPos ER (recvCell c s) 1 ∅ 0 ∗ rcvSlot c s (Rfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ s) src (slotM rcvM s) hsrc hdst) k) Q) := by
  iintro ⟨#HR, Hcr, HO, Hat⟩ Hk
  iapply (Rounds.wp_wait_rest_token 𝒱₀ ER (sched m) (c : Thread nD τ) none (κ := K (c, .inr (.inr s)))
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iapply (inv_at m K (c, .inr (.inr s))); iexact HR
    isplitl [Hcr]; · iexact Hcr
    isplitl [HO]; · iexact HO
    isplitr; · rw [MayWait_zero]; iempintro
    iexact Hat
  iintro ⟨HO, Hat, -, Hpay⟩
  ihave Hp := (Entails.of_eq (rest_recv m c s)) $$ Hpay
  iapply Hk
  isplitl [HO]; · iexact HO
  isplitl [Hat]; · iexact Hat
  unfold recvPay; iexact Hp

/-- THE WAIT on send cell `d`, owing nothing: the copy to `d` has read its source, staging slot `d` is back. -/
theorem step_send_wait (K : Dev nD × CellIx → ℕ) (c d : Dev nD) (W : Waits sig Unit)
    {sp' : Space} {s' : Shape} {e' : EltTy} {src : Memref sig .tc sp' s' e'} {hsrc : src.view.WordExact} {hdst : (slotM stgM d).view.WordExact}
    {α : Type} {Q : α → sProp 𝕄} {k : PUnit → Prog (TpuEff nD τ sig (Elt F) Λ₀ .tc) α} :
    iprop(records m K ∗ cred (tallyAt (sendCell c d) () N) ∗ owes (c : Thread nD τ) 0 W ∗ atPos ER (sendCell c d) 0 ∅ 0)
      ⊢ iprop(((owes (c : Thread nD τ) 0 (insert (SemLoc.dma (sendQ d), ()) W) ∗ atPos ER (sendCell c d) 1 ∅ 0 ∗ stgSlot c d (Sfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ d) src (slotM stgM d) hsrc hdst) k) Q) := by
  iintro ⟨#HR, Hcr, HO, Hat⟩ Hk
  iapply (Rounds.wp_wait_rest_token 𝒱₀ ER (sched m) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (inv_at m K (c, .inr (.inl d))); iexact HR
    isplitl [Hcr]; · iexact Hcr
    isplitl [HO]; · iexact HO
    isplitr; · rw [MayWait_zero]; iempintro
    iexact Hat
  iintro ⟨HO, Hat, -, Hpay⟩
  ihave Hp := (Entails.of_eq (rest_send m c d)) $$ Hpay
  iapply Hk
  isplitl [HO]; · iexact HO
  isplitl [Hat]; · iexact Hat
  unfold sendPay; iexact Hp

end Cert.Kernel.Exchange

end
-- ==== Proof.W.Copy.lean ====
import proofs.«900436_g7700000000000437_dist_gemm_a2a_m1024_k1024_n1024_f32_relu_v7x_i32_1_alg».proof.Proof.W.Steps
import Idealize.ShloMosaic.Lib.Pipeline.Value
import Idealize.ShloMosaic.Lib.ValueLayout

/-!
# The copy

A device's copy of staging slot `d` into slot `c` of device `d`'s receive scratch. Element `(r, l)` of a slot is element
`(d, r, l)` of its scratch, so what lands in receive slot `c` of `d` is the tile `(r, l) ↦ S_c[d, r, l]`: exactly the
receive scratch's final contents there. The copy pays the device's duty on its own send cell (the source comes back with
it) and on the destination's receive cell (the landed slot goes to the destination's device).
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Element `(r, l)` of slot `d` is element `(d, r, l)` of the scratch. -/
theorem slot_emb_stg (d : Dev nD) (r : Fin 8) (l : Fin 128) :
    (slotM stgM d).view.emb (ValueIdx.ix2 r l) = ValueIdx.ix3 (n0 := 32) d r l := by
  show (slotRect d).emb (Shape.reshapeEquiv squeezes_S1x8x128_S8x128.numel_eq (ValueIdx.ix2 r l)) = _
  rw [ValueIdx.reshapeEquiv_ix2_1ab]
  funext a
  apply Fin.ext
  match a with
  | ⟨0, _⟩ => show d.val + 1 * 0 = d.val; omega
  | ⟨1, _⟩ => show 0 + 1 * r.val = r.val; omega
  | ⟨2, _⟩ => show 0 + 1 * l.val = l.val; omega
theorem slot_emb_rcv (d : Dev nD) (r : Fin 8) (l : Fin 128) :
    (slotM rcvM d).view.emb (ValueIdx.ix2 r l) = ValueIdx.ix3 (n0 := 32) d r l := by
  show (slotRect d).emb (Shape.reshapeEquiv squeezes_S1x8x128_S8x128.numel_eq (ValueIdx.ix2 r l)) = _
  rw [ValueIdx.reshapeEquiv_ix2_1ab]
  funext a
  apply Fin.ext
  match a with
  | ⟨0, _⟩ => show d.val + 1 * 0 = d.val; omega
  | ⟨1, _⟩ => show 0 + 1 * r.val = r.val; omega
  | ⟨2, _⟩ => show 0 + 1 * l.val = l.val; omega

/-- What the copy from `c` lands in slot `c` of `d`'s receive scratch is that scratch's final contents there, whatever the
    slot held before. -/
theorem landing (c d : Dev nD) (fd : Buf (Elt F) ((slotM rcvM c).view.loc (d : Thread nD τ))) :
    ((slotM rcvM c).view.loc (d : Thread nD τ) ↦[(slotM rcvM c).view.set]{fullShare}
        ((slotM rcvM c).view.write (Elt F) fd ((slotM stgM d).view.read (Elt F) (Sfin m c)) Finset.univ) : sProp 𝕄)
      = rcvSlot d c (Rfin m d) := by
  refine BI.Region.is_congr fun i hi => ?_
  obtain ⟨y, rfl⟩ := View.exists_emb_of_mem_set _ hi
  rw [View.write_emb_of_mem _ _ (Finset.mem_univ y), View.read_apply]
  obtain ⟨r, l, rfl⟩ : ∃ (r : Fin 8) (l : Fin 128), y = ValueIdx.ix2 r l := ⟨y 0, y 1, ValueIdx.eq_ix2 y⟩
  rw [slot_emb_stg, slot_emb_rcv]
  simp only [cast_cast, cast_eq]
  rfl

/-- THE COPY of staging slot `d` to device `d`: `c` lends the slot to its send cell, fills slot `c` of `d`'s receive scratch
    (which `d`'s barrier signal handed it, or which is its own when `d = c`), and pays the tile's credit off what it owes. -/
theorem step_send (K : Dev nD × CellIx → ℕ) (c d dev : Dev nD) (hdev : dev = d) (O : CellTallies nD τ sig Unit) (W : Waits sig Unit)
    (fd : Buf (Elt F) ((slotM rcvM c).view.loc (d : Thread nD τ)))
    {hsc : (slotM rcvM c : Memref sig (Dev.tc dev : Thread nD τ).2.kind .vmem S8x128 .f32).view.ref.isScScratch = false}
    {hsrc : (slotM stgM d).view.WordExact} {hdst : (slotM rcvM c).view.WordExact}
    {hsem : DmaTarget.Typed .vmem (.dma (recvQ c)) (.remote (Dev.tc dev : Thread nD τ) (slotM rcvM c) (.dma (sendQ d)) hsc)}
    {α : Type} {Q : α → sProp 𝕄} {k : PUnit → Prog (TpuEff nD τ sig (Elt F) Λ₀ .tc) α} :
    iprop(records m K ∗ stgSlot c d (Sfin m c) ∗ rcvSlot d c fd ∗ owes (c : Thread nD τ) (O + tallyAt (recvCell d c) () N) W
        ∗ dutyTok ER (sendCell c d) 0 c ∗ dutyTok ER (recvCell d c) 0 c)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM stgM d) (.remote (Dev.tc dev : Thread nD τ) (slotM rcvM c) (.dma (sendQ d)) hsc) (.dma (recvQ c)) hsrc hdst hsem) k) Q) := by
  subst hdev
  iintro ⟨#HR, Hsrc, Hdst, HO, Hts, Htr⟩
  iapply (Rounds.wp_send_pointsTo 𝒱₀ ER (sched m) (c : Thread nD τ) none (κ₁ := K (c, .inr (.inl dev))) (κ₂ := K (dev, .inr (.inr c)))
    (r₁ := 0) (r₂ := 0) (d₁ := c) (d₂ := c) (fd := fd)
    (by rw [duties_send]; exact Finset.mem_singleton_self _) (by rw [duties_recv]; exact Finset.mem_singleton_self _)
    () () N rfl (amount_send m c dev c) (amount_recv m dev c c) O rfl (W := W)
    (by rw [payload_send]; exact BI.Entails.refl _)
    (by rw [payload_recv]; unfold recvPay; rw [landing])) $$ [Hsrc Hdst HO Hts Htr]
  isplitr; · iapply (inv_at m K (c, .inr (.inl dev))); iexact HR
  isplitr; · iapply (inv_at m K (dev, .inr (.inr c))); iexact HR
  isplitl [Hsrc]; · iexact Hsrc
  isplitl [Hdst]; · iexact Hdst
  isplitl [HO]; · iexact HO
  isplitl [Hts]; · iexact Hts
  isplitr; · iapply (reached_at m K (c, .inr (.inl dev))); iexact HR
  isplitl [Htr]; · iexact Htr
  iapply (reached_at m K (dev, .inr (.inr c))); iexact HR

end Cert.Kernel.Exchange

end
-- ==== Proof.W.GroupValue.lean ====
import proofs.«900436_g7700000000000437_dist_gemm_a2a_m1024_k1024_n1024_f32_relu_v7x_i32_1_alg».proof.Proof.Gen.Kernel
import proofs.«900436_g7700000000000437_dist_gemm_a2a_m1024_k1024_n1024_f32_relu_v7x_i32_1_alg».proof.Proof.Gen.Kernel.Skeleton
import Idealize.ShloMosaic.Lib.Pipeline.Value
import Idealize.ShloMosaic.Lib.ValueIdx
import Idealize.ShloMosaic.PureOps.Ideal.Laws

/-!
# A column group of `max (x · W) 0`, index by index

The body computes each group of 256 columns as a matrix product of the 32 × 1024 tile of `x` with a 1024 × 256 slab of
`W` into a zero accumulator, then the maximum with zero. On the extended reals entry `(a, b)` of that is
`max (∑ₖ x[a, k] · w[k, b]) 0`: the product into a zero accumulator is the plain sum over the contracted index.
-/

noncomputable section

namespace Cert.Kernel.GroupValue

open Cert.Kernel Cert.Kernel.Gen Idealize.ShloMosaic Idealize.ShloMosaic.TcCoe

theorem lhs_0 (i : S32x256.Idx) (q : dot_S32x1024_S1024x256_S32x256_1_0_0_1_n_n.contr.Idx) : (dot_S32x1024_S1024x256_S32x256_1_0_0_1_n_n.lhsIdx i q 0).val = (i 0).val := by
  unfold DotDims.lhsIdx
  rw [dif_neg (show ¬(0 : Fin S32x1024.rank) ∈ dot_S32x1024_S1024x256_S32x256_1_0_0_1_n_n.lhsBatch by decide), dif_pos (show (0 : Fin S32x1024.rank) ∈ dot_S32x1024_S1024x256_S32x256_1_0_0_1_n_n.lhsNonContracting by decide)]
  rfl
theorem lhs_1 (i : S32x256.Idx) (q : dot_S32x1024_S1024x256_S32x256_1_0_0_1_n_n.contr.Idx) : (dot_S32x1024_S1024x256_S32x256_1_0_0_1_n_n.lhsIdx i q 1).val = (q ⟨0, by decide⟩).val :=
  dot_S32x1024_S1024x256_S32x256_1_0_0_1_n_n.lhsIdx_val_of_single rfl i q
theorem rhs_0 (i : S32x256.Idx) (q : dot_S32x1024_S1024x256_S32x256_1_0_0_1_n_n.contr.Idx) : (dot_S32x1024_S1024x256_S32x256_1_0_0_1_n_n.rhsIdx i q 0).val = (q ⟨0, by decide⟩).val :=
  dot_S32x1024_S1024x256_S32x256_1_0_0_1_n_n.rhsIdx_val_of_single rfl i q
theorem rhs_1 (i : S32x256.Idx) (q : dot_S32x1024_S1024x256_S32x256_1_0_0_1_n_n.contr.Idx) : (dot_S32x1024_S1024x256_S32x256_1_0_0_1_n_n.rhsIdx i q 1).val = (i 1).val := by
  unfold DotDims.rhsIdx
  rw [dif_neg (show ¬(1 : Fin S1024x256.rank) ∈ dot_S32x1024_S1024x256_S32x256_1_0_0_1_n_n.rhsBatch by decide), dif_pos (show (1 : Fin S1024x256.rank) ∈ dot_S32x1024_S1024x256_S32x256_1_0_0_1_n_n.rhsNonContracting by decide)]
  rfl

/-- The kernel's product into a zero accumulator, at an entry: the sum over the 1024 contracted positions. -/
theorem matmul_zero_apply (x : FVec Ideal S32x1024 .f32) (w : FVec Ideal S1024x256 .f32) (a : Fin 32) (b : Fin 256) :
    FloatOps.matmul dot_S32x1024_S1024x256_S32x256_1_0_0_1_n_n none x w (constant S32x256 .f32 0x00000000#32) (ValueIdx.ix2 a b)
      = ∑ k : Fin 1024, x (ValueIdx.ix2 a k) * w (ValueIdx.ix2 k b) := by
  rw [Ideal.matmul_constant_zero_apply, ← Equiv.sum_comp (ValueIdx.contrEquiv1 dot_S32x1024_S1024x256_S32x256_1_0_0_1_n_n 1024 rfl rfl).symm]
  refine Finset.sum_congr rfl fun k _ => ?_
  have hk := ValueIdx.contrEquiv1_symm_val dot_S32x1024_S1024x256_S32x256_1_0_0_1_n_n 1024 rfl rfl k
  have el : dot_S32x1024_S1024x256_S32x256_1_0_0_1_n_n.lhsIdx (ValueIdx.ix2 a b) ((ValueIdx.contrEquiv1 dot_S32x1024_S1024x256_S32x256_1_0_0_1_n_n 1024 rfl rfl).symm k) = ValueIdx.ix2 a k := funext fun z => Fin.ext (by
    match z with
    | ⟨0, _⟩ => exact lhs_0 _ _
    | ⟨1, _⟩ => exact (lhs_1 _ _).trans hk)
  have er : dot_S32x1024_S1024x256_S32x256_1_0_0_1_n_n.rhsIdx (ValueIdx.ix2 a b) ((ValueIdx.contrEquiv1 dot_S32x1024_S1024x256_S32x256_1_0_0_1_n_n 1024 rfl rfl).symm k) = ValueIdx.ix2 k b := funext fun z => Fin.ext (by
    match z with
    | ⟨0, _⟩ => exact (rhs_0 _ _).trans hk
    | ⟨1, _⟩ => exact rhs_1 _ _)
  rw [el, er]

/-- A column group's payload at an entry: `max (∑ₖ x[a, k] · w[k, b]) 0`. -/
theorem pay1_apply (x : Vec Ideal S32x1024 .f32) (w : Vec Ideal S1024x256 .f32) (a : Fin 32) (b : Fin 256) :
    k0_pay1 (F := Ideal) x w (ValueIdx.ix2 a b)
      = max (∑ k : Fin 1024, x (ValueIdx.ix2 a k) * w (ValueIdx.ix2 k b)) (Ideal.ofBits .f32 0x00000000#32) := by
  unfold k0_pay1
  show max (FloatOps.matmul dot_S32x1024_S1024x256_S32x256_1_0_0_1_n_n none (shapeCast S32x1024 x shapeCasts_S32x1024_S32x1024) (shapeCast S1024x256 w shapeCasts_S1024x256_S1024x256)
      (constant S32x256 .f32 0x00000000#32) (ValueIdx.ix2 a b)) (Ideal.ofBits .f32 0x00000000#32) = _
  rw [matmul_zero_apply]
  simp only [shapeCast_self]

end Cert.Kernel.GroupValue

end
-- ==== Proof.W.OutValue.lean ====
import proofs.«900436_g7700000000000437_dist_gemm_a2a_m1024_k1024_n1024_f32_relu_v7x_i32_1_alg».proof.Proof.W.Sched
import proofs.«900436_g7700000000000437_dist_gemm_a2a_m1024_k1024_n1024_f32_relu_v7x_i32_1_alg».proof.Proof.W.GroupValue
import proofs.«900436_g7700000000000437_dist_gemm_a2a_m1024_k1024_n1024_f32_relu_v7x_i32_1_alg».proof.Proof.Ref
import Idealize.ShloMosaic.Lib.Layout

/-!
# The value: every device ends with its columns of `max (X · W) 0`

Device `c`'s result tile, read off its receive scratch once all 32 copies have landed: row `ρ = 32 s + 8 q + r`, column `j`
is element `(s, r, 32 q + j)` of the receive scratch, which is element `(c, r, 32 q + j)` of device `s`'s staging scratch,
which is `Y_s[8 q + r, 32 c + j]`. With device `s` holding rows `32 s … 32 s + 31` of `X` and every device all of `W`, that is
`max (∑ₖ X[ρ, k] · W[k, 32 c + j]) 0`: entry `(ρ, 32 c + j)` of the reference's result, the entry block `c` of its columns
has at `(ρ, j)`. Nothing but re-indexing: the same sum on both sides, so no finiteness is needed.
-/

set_option maxRecDepth 16384

noncomputable section

namespace Cert.Kernel.Exchange

open Cert.Kernel Cert.Kernel.Gen
open Idealize.ShloMosaic Idealize.ShloMosaic.TcCoe Idealize.SL.Sem

section AnyFloat
variable {F : FTy → Type} [FloatOps F]
variable (m : (ℓ : Loc nD τ sig) → Buf (Elt F) ℓ)

/-- The result tile of device `c` once the 32 received slots are laid out: rows `32 s … 32 s + 31` from slot `s`. -/
def outFin (c : Dev nD) : Buf (Elt F) ((c : Thread nD τ).loc cc0_stg2_0) := fun i =>
  Rfin m c (ValueIdx.ix3 (n0 := 32) (n1 := 8) (n2 := 128)
    ⟨(i 0).val / 32, by have h : (i 0).val < 1024 := (i 0).isLt; omega⟩
    ⟨(i 0).val % 8, by omega⟩
    ⟨32 * ((i 0).val % 32 / 8) + (i 1).val, by have h : (i 1).val < 32 := (i 1).isLt; omega⟩)

theorem hz2 : (![0, 0] : Fin 2 → Nat) = fun _ => 0 := funext fun a => by
  match a with
  | ⟨0, _⟩ => rfl
  | ⟨1, _⟩ => rfl

/-- The staged tile of `x` is the argument buffer, and the body's load of it reads it whole. -/
theorem xld_apply (c : Dev nD) (a : Fin 32) (k : Fin 1024) :
    xld m c (ValueIdx.ix2 a k) = m ((c : Thread nD τ).loc main_arg0) (ValueIdx.ix2 a k) := by
  have h : xld m c = xstg m c := Memref.readAt_unit_zero (Elt F) cc0_stg0_0 hz2 inb_S32x1024_S32x1024_0_0 (xstg m c)
  rw [h]
  unfold xstg
  show m ((c : Thread nD τ).loc main_arg0) ((win0_0.blk (0 : Fin 1)).view.emb (ValueIdx.ix2 a k)) = _
  congr 1
  funext z
  apply Fin.ext
  match z with
  | ⟨0, _⟩ => show 0 * 32 + 1 * a.val = a.val; omega
  | ⟨1, _⟩ => show 0 * 1024 + 1 * k.val = k.val; omega

/-- The body's load of column group `g` of `w` reads columns `256 g …` of the argument buffer. -/
theorem wld_apply (c : Dev nD) (g : Fin 4) (k : Fin 1024) (b : Fin 256) :
    wld m c g (ValueIdx.ix2 k b)
      = m ((c : Thread nD τ).loc main_arg1) (ValueIdx.ix2 (n0 := 1024) (n1 := 1024) k ⟨256 * g.val + b.val, by have := g.isLt; have := b.isLt; omega⟩) := by
  match g with
  | ⟨0, _⟩ =>
    show m ((c : Thread nD τ).loc main_arg1) ((win0_1.blk (0 : Fin 1)).view.emb
      ((Rect.unit (s := S1024x1024) ![0, 0] S1024x256.size inb_S1024x1024_S1024x256_0_0).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (0 + 1 * b.val) = 256 * 0 + b.val; omega
  | ⟨1, _⟩ =>
    show m ((c : Thread nD τ).loc main_arg1) ((win0_1.blk (0 : Fin 1)).view.emb
      ((Rect.unit (s := S1024x1024) ![0, 256] S1024x256.size inb_S1024x1024_S1024x256_0_256).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (256 + 1 * b.val) = 256 * 1 + b.val; omega
  | ⟨2, _⟩ =>
    show m ((c : Thread nD τ).loc main_arg1) ((win0_1.blk (0 : Fin 1)).view.emb
      ((Rect.unit (s := S1024x1024) ![0, 512] S1024x256.size inb_S1024x1024_S1024x256_0_512).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (512 + 1 * b.val) = 256 * 2 + b.val; omega
  | ⟨3, _⟩ =>
    show m ((c : Thread nD τ).loc main_arg1) ((win0_1.blk (0 : Fin 1)).view.emb
      ((Rect.unit (s := S1024x1024) ![0, 768] S1024x256.size inb_S1024x1024_S1024x256_0_768).toLoadRect.idx (ValueIdx.ix2 k b))) = _
    congr 1
    funext z
    apply Fin.ext
    match z with
    | ⟨0, _⟩ => show 0 * 1024 + 1 * (0 + 1 * k.val) = k.val; omega
    | ⟨1, _⟩ => show 0 * 1024 + 1 * (768 + 1 * b.val) = 256 * 3 + b.val; omega

/-- The two scratch buffers' final contents, at coordinates. -/
theorem Sfin_apply (c d : Dev nD) (r : Fin 8) (l : Fin 128) :
    Sfin m c (ValueIdx.ix3 (n0 := 32) d r l)
      = Ygrp m c ⟨d.val / 8, by have h : d.val < 32 := d.isLt; omega⟩
          (ValueIdx.ix2 (n0 := 32) (n1 := 256) ⟨8 * (l.val / 32) + r.val, by have := r.isLt; have := l.isLt; omega⟩
            ⟨32 * (d.val % 8) + l.val % 32, by omega⟩) := rfl
theorem Rfin_apply (c s : Dev nD) (r : Fin 8) (l : Fin 128) :
    Rfin m c (ValueIdx.ix3 (n0 := 32) s r l) = Sfin m s (ValueIdx.ix3 (n0 := 32) c r l) := rfl

/-- Entry `(ρ, j)` of device `c`'s result tile is entry `(ρ mod 32, 32 (c mod 8) + j)` of column group `c / 8` of `Y` on
    device `ρ / 32`. -/
theorem outFin_apply (c : Dev nD) (ρ : Fin 1024) (j : Fin 32) :
    outFin m c (ValueIdx.ix2 ρ j)
      = Ygrp m ⟨ρ.val / 32, by have := ρ.isLt; show ρ.val / 32 < 32; omega⟩ ⟨c.val / 8, by have h : c.val < 32 := c.isLt; omega⟩
          (ValueIdx.ix2 (n0 := 32) (n1 := 256) ⟨ρ.val % 32, Nat.mod_lt _ (by decide)⟩
            ⟨32 * (c.val % 8) + j.val, by have := j.isLt; omega⟩) := by
  have hρ := ρ.isLt; have hj := j.isLt; have hc : c.val < 32 := c.isLt
  show Rfin m c (ValueIdx.ix3 (n0 := 32) (n1 := 8) (n2 := 128) ⟨ρ.val / 32, _⟩ ⟨ρ.val % 8, _⟩ ⟨32 * (ρ.val % 32 / 8) + j.val, _⟩) = _
  rw [Rfin_apply, Sfin_apply]
  congr 2
  · exact Fin.ext (show 8 * ((32 * (ρ.val % 32 / 8) + j.val) / 32) + ρ.val % 8 = ρ.val % 32 by omega)
  · exact Fin.ext (show 32 * (c.val % 8) + (32 * (ρ.val % 32 / 8) + j.val) % 32 = 32 * (c.val % 8) + j.val by omega)

end AnyFloat

section AtIdeal
variable (m : (ℓ : Loc nD τ sig) → Buf (Elt Ideal) ℓ)

/-- With device `s` holding rows `32 s …` of `X` and every device all of `W`, device `c`'s result tile is block `c` of the
    columns of the reference's result. -/
theorem outFin_eq_block (X W : (⟨S1024x1024, .f32⟩ : BufTy).Contents (Elt Ideal))
    (hx : ∀ s : Dev nD, m ((s : Thread nD τ).loc main_arg0) = Layout.block ⟨2, ![32, 1024]⟩ ⟨2, ![1024, 1024]⟩ 0 32 s X)
    (hw : ∀ s : Dev nD, m ((s : Thread nD τ).loc main_arg1) = W) (c : Dev nD) :
    outFin m c = Layout.block ⟨2, ![1024, 32]⟩ ⟨2, ![1024, 1024]⟩ 1 32 c (Cert.ReferenceIdeal.Read.val_main_v2 (F := Ideal) X W) := by
  funext i
  obtain ⟨ρ, j, rfl⟩ : ∃ (ρ : Fin 1024) (j : Fin 32), i = ValueIdx.ix2 ρ j := ⟨i 0, i 1, ValueIdx.eq_ix2 i⟩
  have hρ := ρ.isLt; have hj := j.isLt; have hc : c.val < 32 := c.isLt
  rw [outFin_apply, Layout.block_apply, Cert.RefSide.result_apply]
  unfold Ygrp Cert.RefSide.reluDot
  rw [GroupValue.pay1_apply]
  refine congrArg (fun t : EReal => max t (Ideal.ofBits .f32 0x00000000#32)) ?_
  refine Finset.sum_congr rfl fun k _ => ?_
  rw [xld_apply, wld_apply, hx, hw, Layout.block_apply]
  congr 1
  · congr 1
    funext z; apply Fin.ext
    match z with
    | ⟨0, _⟩ => show (ρ.val / 32) * 32 + ρ.val % 32 = ρ.val; omega
    | ⟨1, _⟩ => rfl
  · congr 1
    funext z; apply Fin.ext
    match z with
    | ⟨0, _⟩ => rfl
    | ⟨1, _⟩ => show 256 * (c.val / 8) + (32 * (c.val % 8) + j.val) = c.val * 32 + j.val; omega

end AtIdeal

end Cert.Kernel.Exchange

end
-- ==== Proof.W.Data.lean ====
import proofs.«900436_g7700000000000437_dist_gemm_a2a_m1024_k1024_n1024_f32_relu_v7x_i32_1_alg».proof.Proof.W.Copy
import proofs.«900436_g7700000000000437_dist_gemm_a2a_m1024_k1024_n1024_f32_relu_v7x_i32_1_alg».proof.Proof.W.OutValue
import proofs.«900436_g7700000000000437_dist_gemm_a2a_m1024_k1024_n1024_f32_relu_v7x_i32_1_alg».proof.Proof.Gen.Kernel.Points
import proofs.«900436_g7700000000000437_dist_gemm_a2a_m1024_k1024_n1024_f32_relu_v7x_i32_1_alg».proof.Proof.Gen.Kernel.Frame

/-!
# The proof data

What each device owes at launch, the levels, the ghost state it starts from, the invariant before and after the region's
one point, and the contents of the three staged windows after the body: the `x` tile and the `w` copy unchanged, the
result tile laid out from the 32 received slots.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

/-- Device `c` owes every other device's barrier cell one unit, and receive cell `c` of every device (its own included)
    a tile's credit. -/
def O₀ (c : Dev nD) : CellTallies nD τ sig Unit :=
  (∑ p ∈ Finset.univ.erase c, tallyAt (barCell p) () 1) + ∑ d : Dev nD, tallyAt (recvCell d c) () N

def L (g : GSem nD τ sig) : Finset Unit := if g.1.2 = .tc then {()} else ∅
/-- Barrier cells at 1, receive cells (pool places 35 … 66) at 2, everything else (staging, send) at 0. -/
def lv (g : GSem nD τ sig) (_ : Unit) : ℕ := match g.2 with
  | .reg s => if s = barS then 1 else 0
  | .dma q => if 35 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- Its positions at round 0 of its 65 cells, and the tokens of the 95 duties IT pays: every other device's barrier duty
    `c`, its own 32 send duties, duty `c` of receive cell `c` of every device. -/
def linear (c : Dev nD) : sProp 𝕄 :=
  iprop(atPos ER (barCell c) 0 ∅ 0
    ∗ (bigSep Finset.univ fun d : Dev nD => atPos ER (sendCell c d) 0 ∅ 0)
    ∗ (bigSep Finset.univ fun s : Dev nD => atPos ER (recvCell c s) 0 ∅ 0)
    ∗ (bigSep (Finset.univ.erase c) fun p : Dev nD => dutyTok ER (barCell p) 0 c)
    ∗ (bigSep Finset.univ fun d : Dev nD => dutyTok ER (sendCell c d) 0 c)
    ∗ (bigSep Finset.univ fun d : Dev nD => dutyTok ER (recvCell d c) 0 c))

def ghost (K : Dev nD × CellIx → ℕ) (c : Dev nD) : sProp 𝕄 := iprop(records m K ∗ linear (F := F) c)

/-- What device `c`'s body starts from: the ghost state at some names, the credit its waits consume (31 units on its
    barrier cell, a tile's credit on each receive cell) and the level facts. -/
def start (c : Dev nD) : sProp 𝕄 :=
  iprop((∃ K, ghost m K c) ∗ cred (tallyAt (barCell c) () 31)
    ∗ (bigSep Finset.univ fun s : Dev nD => cred (tallyAt (recvCell c s) () N)) ∗ levAts L lv)

/-- Before the point: that, and the two scratch buffers at any contents. -/
def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two scratch buffers at their final contents, and the device's 64 own DMA cells closed at zero (the
    barrier cell is the runtime's: nothing to hand back). -/
def Φ₁ (c : Dev nD) : sProp 𝕄 :=
  iprop((((c : Thread nD τ).loc cc0_scratch0) ↦{fullShare} Sfin m c) ∗ (((c : Thread nD τ).loc cc0_scratch1) ↦{fullShare} Rfin m c)
    ∗ (bigSep Finset.univ fun d : Dev nD => semVal (sendCell c d) 0)
    ∗ (bigSep Finset.univ fun s : Dev nD => semVal (recvCell c s) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outFin m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Exchange

end
-- ==== Proof.W.Launch.lean ====
import proofs.«900436_g7700000000000437_dist_gemm_a2a_m1024_k1024_n1024_f32_relu_v7x_i32_1_alg».proof.Proof.W.Data

/-!
# The launch

The exchange's ghost state is allocated for all thirty-two devices at once: every device's 65 cells (its barrier
cell, its 32 send cells, its 32 receive cells) get their invariants under one update, the duty tokens minted at a
device's own cells are dealt to the devices that pay them, and the credit the launch deals a device for what the
others owe its cells is read off: 31 units on its barrier cell, one tile's credit on each receive cell. With the
body obligation as a hypothesis, the run of @main follows from the pipeline library's launch theorem.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

theorem sendQ_inj {d d' : Dev nD} (h : sendQ d = sendQ d') : d = d' := by
  rw [← slotOfSend_sendQ d, ← slotOfSend_sendQ d', h]
theorem recvQ_inj {s s' : Dev nD} (h : recvQ s = recvQ s') : s = s' := by
  rw [← slotOfRecv_recvQ s, ← slotOfRecv_recvQ s', h]
theorem sendQ_ne_recvQ (d s : Dev nD) : sendQ d ≠ recvQ s := fun h => by
  have h1 : d.val < 32 := d.isLt
  have h2 : (sendQ d).val = (recvQ s).val := congrArg Fin.val h
  have h3 : 3 + d.val = 35 + s.val := h2
  omega
theorem send_ne_bar (d : Dev nD) : (SemLoc.dma (sendQ d) : SemLoc sig) ≠ .reg barS := fun h => by cases h
theorem recv_ne_bar (s : Dev nD) : (SemLoc.dma (recvQ s) : SemLoc sig) ≠ .reg barS := fun h => by cases h

/-- The kernel's own (scoped) semaphores: the 32 send and the 32 receive semaphores. The barrier semaphore is the
    runtime's. -/
abbrev osem : Dev nD ⊕ Dev nD → SemLoc sig := fun
  | .inl d => .dma (sendQ d)
  | .inr s => .dma (recvQ s)

theorem ownSemFacts : Pipeline.OwnSemFacts cfg0.spec osem := by decide

theorem share_eq (c : Dev nD) (w : Fin cfg0.W) : (dats m 0 c).share w = fullShare := by unfold Dat.share; split <;> rfl

/-! ## The cells and the tokens -/

theorem kcell_injective : Function.Injective (kcell : Dev nD × CellIx → GSem nD τ sig) := by
  rintro ⟨c, k⟩ ⟨c', k'⟩ h
  have h1 : c = c' := by
    rcases k with u | d | s <;> rcases k' with u' | d' | s' <;> exact congrArg (fun g : GSem nD τ sig => g.1.1) h
  subst h1
  rcases k with u | d | s <;> rcases k' with u' | d' | s'
  · rfl
  · exact absurd (congrArg Prod.snd h) (fun h' => by cases h')
  · exact absurd (congrArg Prod.snd h) (fun h' => by cases h')
  · exact absurd (congrArg Prod.snd h) (fun h' => by cases h')
  · have : d = d' := sendQ_inj (SemLoc.dma.inj (congrArg Prod.snd h))
    subst this; rfl
  · exact absurd (SemLoc.dma.inj (congrArg Prod.snd h)) (sendQ_ne_recvQ d s')
  · exact absurd (congrArg Prod.snd h) (fun h' => by cases h')
  · exact absurd (SemLoc.dma.inj (congrArg Prod.snd h)).symm (sendQ_ne_recvQ d' s)
  · have : s = s' := recvQ_inj (SemLoc.dma.inj (congrArg Prod.snd h))
    subst this; rfl

/-- Every device's 65 cells. -/
def exCells : Finset (GSem nD τ sig) := Finset.univ.map ⟨kcell, kcell_injective⟩

/-- The duty tokens as minted, at the cell they pay into: at device `c`'s barrier cell one per device, at its send
    cell `d` its own, at its receive cell `s` device `s`'s. -/
abbrev TokIx : Type := Dev nD ⊕ (Dev nD ⊕ Dev nD)
def tokOf (cj : Dev nD × TokIx) : GSem nD τ sig × ℕ × Dev nD := match cj.2 with
  | .inl p => (barCell cj.1, 0, p)
  | .inr (.inl d) => (sendCell cj.1 d, 0, cj.1)
  | .inr (.inr s) => (recvCell cj.1 s, 0, s)

theorem tokOf_injective : Function.Injective (tokOf : Dev nD × TokIx → GSem nD τ sig × ℕ × Dev nD) := by
  rintro ⟨c, j⟩ ⟨c', j'⟩ h
  have h1 : c = c' := by
    rcases j with p | d | s <;> rcases j' with p' | d' | s' <;> exact congrArg (fun x : GSem nD τ sig × ℕ × Dev nD => x.1.1.1) h
  subst h1
  rcases j with p | d | s <;> rcases j' with p' | d' | s'
  · have : p = p' := congrArg (fun x : GSem nD τ sig × ℕ × Dev nD => x.2.2) h
    subst this; rfl
  · exact absurd (congrArg (fun x : GSem nD τ sig × ℕ × Dev nD => x.1.2) h) (fun h' => by cases h')
  · exact absurd (congrArg (fun x : GSem nD τ sig × ℕ × Dev nD => x.1.2) h) (fun h' => by cases h')
  · exact absurd (congrArg (fun x : GSem nD τ sig × ℕ × Dev nD => x.1.2) h) (fun h' => by cases h')
  · have : d = d' := sendQ_inj (SemLoc.dma.inj (congrArg (fun x : GSem nD τ sig × ℕ × Dev nD => x.1.2) h))
    subst this; rfl
  · exact absurd (SemLoc.dma.inj (congrArg (fun x : GSem nD τ sig × ℕ × Dev nD => x.1.2) h)) (sendQ_ne_recvQ d s')
  · exact absurd (congrArg (fun x : GSem nD τ sig × ℕ × Dev nD => x.1.2) h) (fun h' => by cases h')
  · exact absurd (SemLoc.dma.inj (congrArg (fun x : GSem nD τ sig × ℕ × Dev nD => x.1.2) h)).symm (sendQ_ne_recvQ d' s)
  · have : s = s' := recvQ_inj (SemLoc.dma.inj (congrArg (fun x : GSem nD τ sig × ℕ × Dev nD => x.1.2) h))
    subst this; rfl

def exToks : Finset (GSem nD τ sig × ℕ × Dev nD) := Finset.univ.map ⟨tokOf, tokOf_injective⟩

/-- The launch element: the pipeline's staging cells beside the exchange's cells and tokens. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun p : Dev nD => dutyTok ER (barCell c) 0 p)
    ∗ (bigSep Finset.univ fun d : Dev nD => dutyTok ER (sendCell c d) 0 c)
    ∗ (bigSep Finset.univ fun s : Dev nD => dutyTok ER (recvCell c s) 0 s))

/-- What the launch element deals device `c` (the theorem's `G`). -/
def G (c : Dev nD) : sProp 𝕄 :=
  iprop((bigSep Finset.univ fun k : CellIx => roundState ER (sched m) (kcell (c, k)) 0)
    ∗ (bigSep Finset.univ fun k : CellIx => iprop(atPos ER (kcell (c, k)) 0 ∅ 0 ∗ reached ER (kcell (c, k)) 0)) ∗ toks c)

/-- What the global step makes of it (`G'`). -/
def G' (c : Dev nD) : sProp 𝕄 := iprop(∃ K, ghost m K c)

/-- A conjunction over a device's 65 cells, by kind. -/
theorem bigSep_cellIx (Φ : CellIx → sProp 𝕄) :
    bigSep Finset.univ Φ = iprop(Φ (.inl ()) ∗ (bigSep Finset.univ fun d : Dev nD => Φ (.inr (.inl d))) ∗ bigSep Finset.univ fun s : Dev nD => Φ (.inr (.inr s))) := by
  rw [bigSep_univ_sum, bigSep_univ_of_subsingleton (), bigSep_univ_sum]
  rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CellIx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun d : Dev nD => semVal (sendCell c d) 0) ∗ bigSep Finset.univ fun s : Dev nD => semVal (recvCell c s) 0) := by
  unfold Pipeline.ownSems0; rw [bigSep_univ_sum]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m) (kcell (c, k)) 0)
      ⊢ (|={Set.univ}=> bigSep Finset.univ fun k : CellIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records m K ∗ linear (F := F) c) ⊢ G' m c := by
  unfold G' ghost
  iintro H
  iexists K
  iexact H

/-- The tokens of the duties device `c` pays: every other device's barrier duty `c`, its own send duties, duty `c` of
    receive cell `c` of every device. -/
def payToks (c : Dev nD) : sProp 𝕄 :=
  iprop((bigSep (Finset.univ.erase c) fun p : Dev nD => dutyTok ER (barCell p) 0 c)
    ∗ (bigSep Finset.univ fun d : Dev nD => dutyTok ER (sendCell c d) 0 c)
    ∗ (bigSep Finset.univ fun d : Dev nD => dutyTok ER (recvCell d c) 0 c))

/-- The tokens dealt to their payers: the token of barrier cell `c`'s duty `p` and the token of receive cell `(c, s)`
    go to the device that names the duty — the two device indices of a double conjunction change places —; the
    send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c p : Dev nD => (dutyTok ER (barCell c) 0 p : sProp 𝕄)),
    bigSep_univ_comm (fun c s : Dev nD => (dutyTok ER (recvCell c s) 0 s : sProp 𝕄))]
  exact sep_mono (bigSep_mono fun c _ => bigSep_subset (Finset.erase_subset c Finset.univ)) .rfl

theorem linear_intro (c : Dev nD) :
    iprop((bigSep Finset.univ fun k : CellIx => (atPos ER (kcell (c, k)) 0 ∅ 0 : sProp 𝕄)) ∗ payToks c) ⊢ linear (F := F) c := by
  unfold linear payToks
  rw [bigSep_cellIx]
  iintro ⟨⟨Ha, Hb, Hc⟩, H1, H2, H3⟩
  isplitl [Ha]; · iexact Ha
  isplitl [Hb]; · iexact Hb
  isplitl [Hc]; · iexact Hc
  isplitl [H1]; · iexact H1
  isplitl [H2]; · iexact H2
  iexact H3

theorem regroup :
    (bigSep Finset.univ fun c : Dev nD => iprop((bigSep Finset.univ fun k : CellIx => iprop(∃ κ : ℕ, cellInv ER (sched m) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (recvCell a s = recvCell b t) (a = b ∧ s = t) :=
  ⟨fun h => ⟨congrArg (fun g : GSem nD τ sig => g.1.1) h, recvQ_inj (SemLoc.dma.inj (congrArg Prod.snd h))⟩, fun ⟨h1, h2⟩ => h1 ▸ h2 ▸ rfl⟩

theorem tally_bar_bar (p c : Dev nD) (k : ℕ) : (tallyAt (barCell p) () k : CellTallies nD τ sig Unit) (barCell c) () = if c = p then k else 0 := by
  rw [tallyAt_apply]; exact if_congr ⟨fun h => bar_eq_iff.mp h.1, fun h => ⟨bar_eq_iff.mpr h, rfl⟩⟩ rfl rfl
theorem tally_recv_bar (e d c : Dev nD) (k : ℕ) : (tallyAt (recvCell e d) () k : CellTallies nD τ sig Unit) (barCell c) () = 0 := by
  rw [tallyAt_ne_cell (fun h => recv_ne_bar d (congrArg Prod.snd h).symm)]; rfl
theorem tally_bar_recv (p c s : Dev nD) (k : ℕ) : (tallyAt (barCell p) () k : CellTallies nD τ sig Unit) (recvCell c s) () = 0 := by
  rw [tallyAt_ne_cell (fun h => recv_ne_bar s (congrArg Prod.snd h))]; rfl
theorem tally_recv_recv (e d c s : Dev nD) (k : ℕ) :
    (tallyAt (recvCell e d) () k : CellTallies nD τ sig Unit) (recvCell c s) () = if c = e ∧ s = d then k else 0 := by
  rw [tallyAt_apply]; exact if_congr ⟨fun h => recv_eq_iff.mp h.1, fun h => ⟨recv_eq_iff.mpr h, rfl⟩⟩ rfl rfl

/-- What device `d` owes device `c`'s barrier cell: one unit, unless `d = c`. -/
theorem owed_bar (d c : Dev nD) : O₀ d (barCell c) () = if d ∈ Finset.univ.erase c then 1 else 0 := by
  have h1 : (∑ p ∈ Finset.univ.erase d, tallyAt (barCell p) () 1 : CellTallies nD τ sig Unit) (barCell c) () = if c ∈ Finset.univ.erase d then 1 else 0 := by
    rw [Finset.sum_apply, Finsupp.finsetSum_apply, Finset.sum_congr rfl fun p _ => tally_bar_bar p c 1, Finset.sum_ite_eq]
  have h2 : (∑ e : Dev nD, tallyAt (recvCell e d) () N : CellTallies nD τ sig Unit) (barCell c) () = 0 := by
    rw [Finset.sum_apply, Finsupp.finsetSum_apply, Finset.sum_congr rfl fun e _ => tally_recv_bar e d c N, Finset.sum_const_zero]
  unfold O₀
  rw [Pi.add_apply, Finsupp.add_apply, h1, h2, Nat.add_zero]
  exact if_congr ⟨fun h => Finset.mem_erase.mpr ⟨fun e => (Finset.mem_erase.mp h).1 e.symm, Finset.mem_univ _⟩,
    fun h => Finset.mem_erase.mpr ⟨fun e => (Finset.mem_erase.mp h).1 e.symm, Finset.mem_univ _⟩⟩ rfl rfl

/-- What device `d` owes receive cell `s` of device `c`: a tile's credit if `d = s` (its copy to `c`), nothing otherwise. -/
theorem owed_recv (d c s : Dev nD) : O₀ d (recvCell c s) () = if s = d then N else 0 := by
  have h1 : (∑ p ∈ Finset.univ.erase d, tallyAt (barCell p) () 1 : CellTallies nD τ sig Unit) (recvCell c s) () = 0 := by
    rw [Finset.sum_apply, Finsupp.finsetSum_apply, Finset.sum_congr rfl fun p _ => tally_bar_recv p c s 1, Finset.sum_const_zero]
  have h2 : (∑ e : Dev nD, tallyAt (recvCell e d) () N : CellTallies nD τ sig Unit) (recvCell c s) () = if s = d then N else 0 := by
    rw [Finset.sum_apply, Finsupp.finsetSum_apply, Finset.sum_congr rfl fun e _ => tally_recv_recv e d c s N]
    by_cases h : s = d
    · rw [if_pos h, Finset.sum_congr rfl fun e _ => if_congr (and_iff_left h) rfl rfl, Finset.sum_ite_eq, if_pos (Finset.mem_univ _)]
    · rw [if_neg h, Finset.sum_congr rfl fun e _ => if_neg (fun h' => h h'.2), Finset.sum_const_zero]
  unfold O₀
  rw [Pi.add_apply, Finsupp.add_apply, h1, h2, Nat.zero_add]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_mem, Finset.univ_inter,
    Finset.sum_const, Finset.card_erase_of_mem (Finset.mem_univ _), Finset.card_univ, Fintype.card_fin, smul_eq_mul]
  rfl

theorem launch_recv (c s : Dev nD) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq,
    if_pos (Finset.mem_univ _)]

/-- The credit the launch deals device `c`: the 31 units the others owe its barrier cell, and on each receive cell
    the tile's credit its one sender owes. -/
theorem creds (c : Dev nD) :
    (Pipeline.launchCred O₀ c : sProp 𝕄) ⊢ iprop(cred (tallyAt (barCell c) () 31) ∗ bigSep Finset.univ fun s : Dev nD => cred (tallyAt (recvCell c s) () N)) := by
  unfold Pipeline.launchCred
  rw [bigSep_univ_at _ (SemLoc.reg barS), launch_bar]
  refine sep_mono_right ?_
  have e : (bigSep Finset.univ fun s : Dev nD => (cred (tallyAt (recvCell c s) () N) : sProp 𝕄))
      = bigSep (Finset.univ.map ⟨fun s : Dev nD => (SemLoc.dma (recvQ s) : SemLoc sig), fun a b h => recvQ_inj (SemLoc.dma.inj h)⟩)
          fun sm => cred (tallyOn ((c : Thread nD τ), sm) (launchCredit (Pipeline.owing O₀) 0 ((c : Thread nD τ), sm))) := by
    rw [bigSep_map]; exact bigSep_congr fun s _ => congrArg cred (launch_recv c s).symm
  rw [e]
  exact bigSep_subset fun sm h => by
    obtain ⟨s, _, rfl⟩ := Finset.mem_map.mp h
    exact Finset.mem_erase.mpr ⟨recv_ne_bar s, Finset.mem_univ _⟩

/-! ## The levels: everything a device owes sits above its staging and send cells -/

theorem O₀_pos {c : Dev nD} {g : GSem nD τ sig} {u : Unit} (h : 0 < O₀ c g u) : (∃ p, g = barCell p) ∨ ∃ d, g = recvCell d c := by
  by_contra hn
  rw [not_or, not_exists, not_exists] at hn
  have h1 : (∑ p ∈ Finset.univ.erase c, tallyAt (barCell p) () 1 : CellTallies nD τ sig Unit) g u = 0 := by
    rw [Finset.sum_apply, Finsupp.finsetSum_apply]
    exact Finset.sum_eq_zero fun p _ => by rw [tallyAt_apply, if_neg (fun h' => hn.1 p h'.1)]
  have h2 : (∑ d : Dev nD, tallyAt (recvCell d c) () N : CellTallies nD τ sig Unit) g u = 0 := by
    rw [Finset.sum_apply, Finsupp.finsetSum_apply]
    exact Finset.sum_eq_zero fun d _ => by rw [tallyAt_apply, if_neg (fun h' => hn.2 d h'.1)]
  unfold O₀ at h
  rw [Pi.add_apply, Finsupp.add_apply, h1, h2] at h
  exact Nat.lt_irrefl 0 h

/-- A wait on a DMA semaphore below the receive semaphores (a staging cell, a send cell), owing what the device owes at
    launch or nothing: the barrier cells sit at level 1 and the receive cells at level 2, above the waited cell's 0. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨d, rfl⟩ <;> exact Finset.mem_singleton_self _)
      (fun p hp => by
        rw [Finset.mem_singleton.mp hp]
        show (if 35 ≤ q.val then 2 else 0) ≤ 0
        rw [if_neg (by omega)])
      (fun g u hg => by
        rcases O₀_pos hg with ⟨p, rfl⟩ | ⟨d, rfl⟩
        · show 0 < (if barS = barS then 1 else 0)
          rw [if_pos rfl]; decide
        · show 0 < (if 35 ≤ (recvQ c).val then 2 else 0)
          have h35 : 35 ≤ (recvQ c).val := show 35 ≤ 35 + c.val by omega
          rw [if_pos h35]; decide)
  · rw [MayWait_zero]; iintro -; iempintro

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨HS, HR, HzS, HzV⟩
  isplitr; · iempintro
  isplitl [HzS HzV]
  · isplitl [HzS]; · iexact HzS
    iexact HzV
  isplitl [HS]
  · iexists (Sfin m c); iexact HS
  · iexists (Rfin m c); iexact HR

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 32768 in
/-- At the compiled mesh of thirty-two devices, for any float values, from any memory with zero counters, given the body
    obligation on every device: every weakly fair execution of @main — the thirty-two kernels signalling each other's
    barrier semaphore, then exchanging their tiles — terminates, and every final state has each window's array at what
    the proof data compute for it. -/
theorem run_main (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Exchange.run_main' depends on axioms: [propext, Classical.choice, Quot.sound] -/
#guard_msgs in #print axioms run_main

/-! ## The final arrays -/

/-- The `x` and `w` arrays after the run hold what they held. -/
theorem final_x (c : Dev nD) : (dats m 0 c).arrAt (0 : Fin 3) cfg0.N = m ((c : Thread nD τ).loc main_arg0) :=
  (dats (F := F) m 0 c).arrAt_in (0 : Fin 3) rfl _
theorem final_w (c : Dev nD) : (dats m 0 c).arrAt (1 : Fin 3) cfg0.N = m ((c : Thread nD τ).loc main_arg1) :=
  (dats (F := F) m 0 c).arrAt_in (1 : Fin 3) rfl _

/-- The result array after the run: written back whole at the one point, it holds what the body left in its staging
    buffer. -/
theorem final_out (c : Dev nD) : (dats m 0 c).arrAt (2 : Fin 3) cfg0.N = outFin m c := by
  have h := (dats (F := F) m 0 c).arrAt_succ (2 : Fin 3) t0_0
  rw [flush0_2, if_pos rfl] at h
  exact h.trans (Memref.write_access_unit_zero_univ (Elt F) main_v1 (funext fun a => Nat.zero_mul _) _ _ _)

end Cert.Kernel.Exchange

end
-- ==== Proof.W.Order.lean ====
import proofs.«900436_g7700000000000437_dist_gemm_a2a_m1024_k1024_n1024_f32_relu_v7x_i32_1_alg».proof.Proof.W.Data

/-!
# The orders in which a device's body consumes its resources

Its 31 barrier signals go around the mesh (`peer c 1, …, peer c 31`: every device but `c`, once each); its 32 copies go
group by group, within a group rotated by `c` (`dest c g i`: every device, once each); its 32 receive waits go by slot
number. A `∗` over the corresponding finite set is the `∗`-chain along the list, and what the device owes at launch is
the sum along the first two lists.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

def sigL (c : Dev nD) : List (Dev nD) := [peer c 1, peer c 2, peer c 3, peer c 4, peer c 5, peer c 6, peer c 7, peer c 8, peer c 9, peer c 10, peer c 11, peer c 12, peer c 13, peer c 14, peer c 15, peer c 16, peer c 17, peer c 18, peer c 19, peer c 20, peer c 21, peer c 22, peer c 23, peer c 24, peer c 25, peer c 26, peer c 27, peer c 28, peer c 29, peer c 30, peer c 31]
def sendL (c : Dev nD) : List (Dev nD) := [dest c 0 0, dest c 0 1, dest c 0 2, dest c 0 3, dest c 0 4, dest c 0 5, dest c 0 6, dest c 0 7, dest c 1 0, dest c 1 1, dest c 1 2, dest c 1 3, dest c 1 4, dest c 1 5, dest c 1 6, dest c 1 7, dest c 2 0, dest c 2 1, dest c 2 2, dest c 2 3, dest c 2 4, dest c 2 5, dest c 2 6, dest c 2 7, dest c 3 0, dest c 3 1, dest c 3 2, dest c 3 3, dest c 3 4, dest c 3 5, dest c 3 6, dest c 3 7]
def allL : List (Dev nD) := [0, 1, 2, 3, 4, 5, 6, 7, 8, 9, 10, 11, 12, 13, 14, 15, 16, 17, 18, 19, 20, 21, 22, 23, 24, 25, 26, 27, 28, 29, 30, 31]

theorem sigL_toFinset : ∀ c : Dev nD, Finset.univ.erase c = (sigL c).toFinset := by decide +kernel
theorem sigL_nodup : ∀ c : Dev nD, (sigL c).Nodup := by decide +kernel
theorem sendL_toFinset : ∀ c : Dev nD, (Finset.univ : Finset (Dev nD)) = (sendL c).toFinset := by decide +kernel
theorem sendL_nodup : ∀ c : Dev nD, (sendL c).Nodup := by decide +kernel
theorem allL_toFinset : (Finset.univ : Finset (Dev nD)) = allL.toFinset := by decide +kernel
theorem allL_nodup : allL.Nodup := by decide +kernel

theorem flat_sig (c : Dev nD) (Φ : Dev nD → sProp 𝕄) : bigSep (Finset.univ.erase c) Φ = bigSepL (sigL c) Φ :=
  bigSep_eq_bigSepL_of_eq (sigL c) (sigL_toFinset c) (sigL_nodup c) Φ
theorem flat_send (c : Dev nD) (Φ : Dev nD → sProp 𝕄) : bigSep Finset.univ Φ = bigSepL (sendL c) Φ :=
  bigSep_univ_eq_bigSepL (sendL c) (sendL_toFinset c) (sendL_nodup c) Φ
theorem flat_all (Φ : Dev nD → sProp 𝕄) : bigSep Finset.univ Φ = bigSepL allL Φ :=
  bigSep_univ_eq_bigSepL allL allL_toFinset allL_nodup Φ

theorem sum_sig {M : Type} [AddCommMonoid M] (c : Dev nD) (f : Dev nD → M) : ∑ p ∈ Finset.univ.erase c, f p = ((sigL c).map f).sum := by
  rw [sigL_toFinset c, List.sum_toFinset _ (sigL_nodup c)]
theorem sum_send {M : Type} [AddCommMonoid M] (c : Dev nD) (g : Dev nD → M) : ∑ d : Dev nD, g d = ((sendL c).map g).sum := by
  have h : (∑ d : Dev nD, g d) = ∑ d ∈ (sendL c).toFinset, g d := by rw [← sendL_toFinset c]
  rw [h, List.sum_toFinset _ (sendL_nodup c)]

/-- What a device owes at launch, along its program: the 31 barrier units in signalling order, then the 32 tile credits
    in sending order. -/
theorem O₀_list (c : Dev nD) :
    O₀ c = ((sigL c).map fun p => tallyAt (barCell p) () 1).sum + ((sendL c).map fun d => tallyAt (recvCell d c) () N).sum := by
  unfold O₀; rw [sum_sig, sum_send]

end Cert.Kernel.Exchange

end
-- ==== Proof.W.Prep.lean ====
import proofs.«900436_g7700000000000437_dist_gemm_a2a_m1024_k1024_n1024_f32_relu_v7x_i32_1_alg».proof.Proof.W.Order

/-!
# Tables for the body

The device each printed `device_id` chain names; what a device still owes before each of its 63 payments, in program
order (31 barrier units, then 32 tile credits), as a chain of definitions each a payment more than the next; and the three
`∗`-chains along the body's three orders.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## The devices the body addresses -/

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 16 := Fin.ext (k0_dev16_eq c)
theorem dev17_eq (c : Dev nD) : (⟨k0_dev17 c, k0_dev17_lt c⟩ : Dev nD) = peer c 17 := Fin.ext (k0_dev17_eq c)
theorem dev18_eq (c : Dev nD) : (⟨k0_dev18 c, k0_dev18_lt c⟩ : Dev nD) = peer c 18 := Fin.ext (k0_dev18_eq c)
theorem dev19_eq (c : Dev nD) : (⟨k0_dev19 c, k0_dev19_lt c⟩ : Dev nD) = peer c 19 := Fin.ext (k0_dev19_eq c)
theorem dev20_eq (c : Dev nD) : (⟨k0_dev20 c, k0_dev20_lt c⟩ : Dev nD) = peer c 20 := Fin.ext (k0_dev20_eq c)
theorem dev21_eq (c : Dev nD) : (⟨k0_dev21 c, k0_dev21_lt c⟩ : Dev nD) = peer c 21 := Fin.ext (k0_dev21_eq c)
theorem dev22_eq (c : Dev nD) : (⟨k0_dev22 c, k0_dev22_lt c⟩ : Dev nD) = peer c 22 := Fin.ext (k0_dev22_eq c)
theorem dev23_eq (c : Dev nD) : (⟨k0_dev23 c, k0_dev23_lt c⟩ : Dev nD) = peer c 23 := Fin.ext (k0_dev23_eq c)
theorem dev24_eq (c : Dev nD) : (⟨k0_dev24 c, k0_dev24_lt c⟩ : Dev nD) = peer c 24 := Fin.ext (k0_dev24_eq c)
theorem dev25_eq (c : Dev nD) : (⟨k0_dev25 c, k0_dev25_lt c⟩ : Dev nD) = peer c 25 := Fin.ext (k0_dev25_eq c)
theorem dev26_eq (c : Dev nD) : (⟨k0_dev26 c, k0_dev26_lt c⟩ : Dev nD) = peer c 26 := Fin.ext (k0_dev26_eq c)
theorem dev27_eq (c : Dev nD) : (⟨k0_dev27 c, k0_dev27_lt c⟩ : Dev nD) = peer c 27 := Fin.ext (k0_dev27_eq c)
theorem dev28_eq (c : Dev nD) : (⟨k0_dev28 c, k0_dev28_lt c⟩ : Dev nD) = peer c 28 := Fin.ext (k0_dev28_eq c)
theorem dev29_eq (c : Dev nD) : (⟨k0_dev29 c, k0_dev29_lt c⟩ : Dev nD) = peer c 29 := Fin.ext (k0_dev29_eq c)
theorem dev30_eq (c : Dev nD) : (⟨k0_dev30 c, k0_dev30_lt c⟩ : Dev nD) = peer c 30 := Fin.ext (k0_dev30_eq c)
theorem dev31_eq (c : Dev nD) : (⟨k0_dev31 c, k0_dev31_lt c⟩ : Dev nD) = peer c 31 := Fin.ext (k0_dev31_eq c)
theorem dev32_eq (c : Dev nD) : (⟨k0_dev32 c, k0_dev32_lt c⟩ : Dev nD) = dest c 0 0 := Fin.ext ((k0_dev32_eq c).trans (by show _ = 8 * 0 + (0 + c.val) % 8; omega))
theorem dev33_eq (c : Dev nD) : (⟨k0_dev33 c, k0_dev33_lt c⟩ : Dev nD) = dest c 0 1 := Fin.ext ((k0_dev33_eq c).trans (by show _ = 8 * 0 + (1 + c.val) % 8; omega))
theorem dev34_eq (c : Dev nD) : (⟨k0_dev34 c, k0_dev34_lt c⟩ : Dev nD) = dest c 0 2 := Fin.ext ((k0_dev34_eq c).trans (by show _ = 8 * 0 + (2 + c.val) % 8; omega))
theorem dev35_eq (c : Dev nD) : (⟨k0_dev35 c, k0_dev35_lt c⟩ : Dev nD) = dest c 0 3 := Fin.ext ((k0_dev35_eq c).trans (by show _ = 8 * 0 + (3 + c.val) % 8; omega))
theorem dev36_eq (c : Dev nD) : (⟨k0_dev36 c, k0_dev36_lt c⟩ : Dev nD) = dest c 0 4 := Fin.ext ((k0_dev36_eq c).trans (by show _ = 8 * 0 + (4 + c.val) % 8; omega))
theorem dev37_eq (c : Dev nD) : (⟨k0_dev37 c, k0_dev37_lt c⟩ : Dev nD) = dest c 0 5 := Fin.ext ((k0_dev37_eq c).trans (by show _ = 8 * 0 + (5 + c.val) % 8; omega))
theorem dev38_eq (c : Dev nD) : (⟨k0_dev38 c, k0_dev38_lt c⟩ : Dev nD) = dest c 0 6 := Fin.ext ((k0_dev38_eq c).trans (by show _ = 8 * 0 + (6 + c.val) % 8; omega))
theorem dev39_eq (c : Dev nD) : (⟨k0_dev39 c, k0_dev39_lt c⟩ : Dev nD) = dest c 0 7 := Fin.ext ((k0_dev39_eq c).trans (by show _ = 8 * 0 + (7 + c.val) % 8; omega))
theorem dev40_eq (c : Dev nD) : (⟨k0_dev40 c, k0_dev40_lt c⟩ : Dev nD) = dest c 1 0 := Fin.ext ((k0_dev40_eq c).trans (by show _ = 8 * 1 + (0 + c.val) % 8; omega))
theorem dev41_eq (c : Dev nD) : (⟨k0_dev41 c, k0_dev41_lt c⟩ : Dev nD) = dest c 1 1 := Fin.ext ((k0_dev41_eq c).trans (by show _ = 8 * 1 + (1 + c.val) % 8; omega))
theorem dev42_eq (c : Dev nD) : (⟨k0_dev42 c, k0_dev42_lt c⟩ : Dev nD) = dest c 1 2 := Fin.ext ((k0_dev42_eq c).trans (by show _ = 8 * 1 + (2 + c.val) % 8; omega))
theorem dev43_eq (c : Dev nD) : (⟨k0_dev43 c, k0_dev43_lt c⟩ : Dev nD) = dest c 1 3 := Fin.ext ((k0_dev43_eq c).trans (by show _ = 8 * 1 + (3 + c.val) % 8; omega))
theorem dev44_eq (c : Dev nD) : (⟨k0_dev44 c, k0_dev44_lt c⟩ : Dev nD) = dest c 1 4 := Fin.ext ((k0_dev44_eq c).trans (by show _ = 8 * 1 + (4 + c.val) % 8; omega))
theorem dev45_eq (c : Dev nD) : (⟨k0_dev45 c, k0_dev45_lt c⟩ : Dev nD) = dest c 1 5 := Fin.ext ((k0_dev45_eq c).trans (by show _ = 8 * 1 + (5 + c.val) % 8; omega))
theorem dev46_eq (c : Dev nD) : (⟨k0_dev46 c, k0_dev46_lt c⟩ : Dev nD) = dest c 1 6 := Fin.ext ((k0_dev46_eq c).trans (by show _ = 8 * 1 + (6 + c.val) % 8; omega))
theorem dev47_eq (c : Dev nD) : (⟨k0_dev47 c, k0_dev47_lt c⟩ : Dev nD) = dest c 1 7 := Fin.ext ((k0_dev47_eq c).trans (by show _ = 8 * 1 + (7 + c.val) % 8; omega))
theorem dev48_eq (c : Dev nD) : (⟨k0_dev48 c, k0_dev48_lt c⟩ : Dev nD) = dest c 2 0 := Fin.ext ((k0_dev48_eq c).trans (by show _ = 8 * 2 + (0 + c.val) % 8; omega))
theorem dev49_eq (c : Dev nD) : (⟨k0_dev49 c, k0_dev49_lt c⟩ : Dev nD) = dest c 2 1 := Fin.ext ((k0_dev49_eq c).trans (by show _ = 8 * 2 + (1 + c.val) % 8; omega))
theorem dev50_eq (c : Dev nD) : (⟨k0_dev50 c, k0_dev50_lt c⟩ : Dev nD) = dest c 2 2 := Fin.ext ((k0_dev50_eq c).trans (by show _ = 8 * 2 + (2 + c.val) % 8; omega))
theorem dev51_eq (c : Dev nD) : (⟨k0_dev51 c, k0_dev51_lt c⟩ : Dev nD) = dest c 2 3 := Fin.ext ((k0_dev51_eq c).trans (by show _ = 8 * 2 + (3 + c.val) % 8; omega))
theorem dev52_eq (c : Dev nD) : (⟨k0_dev52 c, k0_dev52_lt c⟩ : Dev nD) = dest c 2 4 := Fin.ext ((k0_dev52_eq c).trans (by show _ = 8 * 2 + (4 + c.val) % 8; omega))
theorem dev53_eq (c : Dev nD) : (⟨k0_dev53 c, k0_dev53_lt c⟩ : Dev nD) = dest c 2 5 := Fin.ext ((k0_dev53_eq c).trans (by show _ = 8 * 2 + (5 + c.val) % 8; omega))
theorem dev54_eq (c : Dev nD) : (⟨k0_dev54 c, k0_dev54_lt c⟩ : Dev nD) = dest c 2 6 := Fin.ext ((k0_dev54_eq c).trans (by show _ = 8 * 2 + (6 + c.val) % 8; omega))
theorem dev55_eq (c : Dev nD) : (⟨k0_dev55 c, k0_dev55_lt c⟩ : Dev nD) = dest c 2 7 := Fin.ext ((k0_dev55_eq c).trans (by show _ = 8 * 2 + (7 + c.val) % 8; omega))
theorem dev56_eq (c : Dev nD) : (⟨k0_dev56 c, k0_dev56_lt c⟩ : Dev nD) = dest c 3 0 := Fin.ext ((k0_dev56_eq c).trans (by show _ = 8 * 3 + (0 + c.val) % 8; omega))
theorem dev57_eq (c : Dev nD) : (⟨k0_dev57 c, k0_dev57_lt c⟩ : Dev nD) = dest c 3 1 := Fin.ext ((k0_dev57_eq c).trans (by show _ = 8 * 3 + (1 + c.val) % 8; omega))
theorem dev58_eq (c : Dev nD) : (⟨k0_dev58 c, k0_dev58_lt c⟩ : Dev nD) = dest c 3 2 := Fin.ext ((k0_dev58_eq c).trans (by show _ = 8 * 3 + (2 + c.val) % 8; omega))
theorem dev59_eq (c : Dev nD) : (⟨k0_dev59 c, k0_dev59_lt c⟩ : Dev nD) = dest c 3 3 := Fin.ext ((k0_dev59_eq c).trans (by show _ = 8 * 3 + (3 + c.val) % 8; omega))
theorem dev60_eq (c : Dev nD) : (⟨k0_dev60 c, k0_dev60_lt c⟩ : Dev nD) = dest c 3 4 := Fin.ext ((k0_dev60_eq c).trans (by show _ = 8 * 3 + (4 + c.val) % 8; omega))
theorem dev61_eq (c : Dev nD) : (⟨k0_dev61 c, k0_dev61_lt c⟩ : Dev nD) = dest c 3 5 := Fin.ext ((k0_dev61_eq c).trans (by show _ = 8 * 3 + (5 + c.val) % 8; omega))
theorem dev62_eq (c : Dev nD) : (⟨k0_dev62 c, k0_dev62_lt c⟩ : Dev nD) = dest c 3 6 := Fin.ext ((k0_dev62_eq c).trans (by show _ = 8 * 3 + (6 + c.val) % 8; omega))
theorem dev63_eq (c : Dev nD) : (⟨k0_dev63 c, k0_dev63_lt c⟩ : Dev nD) = dest c 3 7 := Fin.ext ((k0_dev63_eq c).trans (by show _ = 8 * 3 + (7 + c.val) % 8; omega))

theorem peer_ne (c : Dev nD) (k : ℕ) (h1 : 1 ≤ k) (h2 : k < 32) : peer c k ≠ c := by
  intro h
  have hv : (c.val + k) % 32 = c.val := congrArg Fin.val h
  have hc : c.val < 32 := c.isLt
  omega

/-! ## What is owed before each payment -/

def owe63 (c : Dev nD) : CellTallies nD τ sig Unit := 0
def owe62 (c : Dev nD) : CellTallies nD τ sig Unit := owe63 c + tallyAt (recvCell (dest c 3 7) c) () N
def owe61 (c : Dev nD) : CellTallies nD τ sig Unit := owe62 c + tallyAt (recvCell (dest c 3 6) c) () N
def owe60 (c : Dev nD) : CellTallies nD τ sig Unit := owe61 c + tallyAt (recvCell (dest c 3 5) c) () N
def owe59 (c : Dev nD) : CellTallies nD τ sig Unit := owe60 c + tallyAt (recvCell (dest c 3 4) c) () N
def owe58 (c : Dev nD) : CellTallies nD τ sig Unit := owe59 c + tallyAt (recvCell (dest c 3 3) c) () N
def owe57 (c : Dev nD) : CellTallies nD τ sig Unit := owe58 c + tallyAt (recvCell (dest c 3 2) c) () N
def owe56 (c : Dev nD) : CellTallies nD τ sig Unit := owe57 c + tallyAt (recvCell (dest c 3 1) c) () N
def owe55 (c : Dev nD) : CellTallies nD τ sig Unit := owe56 c + tallyAt (recvCell (dest c 3 0) c) () N
def owe54 (c : Dev nD) : CellTallies nD τ sig Unit := owe55 c + tallyAt (recvCell (dest c 2 7) c) () N
def owe53 (c : Dev nD) : CellTallies nD τ sig Unit := owe54 c + tallyAt (recvCell (dest c 2 6) c) () N
def owe52 (c : Dev nD) : CellTallies nD τ sig Unit := owe53 c + tallyAt (recvCell (dest c 2 5) c) () N
def owe51 (c : Dev nD) : CellTallies nD τ sig Unit := owe52 c + tallyAt (recvCell (dest c 2 4) c) () N
def owe50 (c : Dev nD) : CellTallies nD τ sig Unit := owe51 c + tallyAt (recvCell (dest c 2 3) c) () N
def owe49 (c : Dev nD) : CellTallies nD τ sig Unit := owe50 c + tallyAt (recvCell (dest c 2 2) c) () N
def owe48 (c : Dev nD) : CellTallies nD τ sig Unit := owe49 c + tallyAt (recvCell (dest c 2 1) c) () N
def owe47 (c : Dev nD) : CellTallies nD τ sig Unit := owe48 c + tallyAt (recvCell (dest c 2 0) c) () N
def owe46 (c : Dev nD) : CellTallies nD τ sig Unit := owe47 c + tallyAt (recvCell (dest c 1 7) c) () N
def owe45 (c : Dev nD) : CellTallies nD τ sig Unit := owe46 c + tallyAt (recvCell (dest c 1 6) c) () N
def owe44 (c : Dev nD) : CellTallies nD τ sig Unit := owe45 c + tallyAt (recvCell (dest c 1 5) c) () N
def owe43 (c : Dev nD) : CellTallies nD τ sig Unit := owe44 c + tallyAt (recvCell (dest c 1 4) c) () N
def owe42 (c : Dev nD) : CellTallies nD τ sig Unit := owe43 c + tallyAt (recvCell (dest c 1 3) c) () N
def owe41 (c : Dev nD) : CellTallies nD τ sig Unit := owe42 c + tallyAt (recvCell (dest c 1 2) c) () N
def owe40 (c : Dev nD) : CellTallies nD τ sig Unit := owe41 c + tallyAt (recvCell (dest c 1 1) c) () N
def owe39 (c : Dev nD) : CellTallies nD τ sig Unit := owe40 c + tallyAt (recvCell (dest c 1 0) c) () N
def owe38 (c : Dev nD) : CellTallies nD τ sig Unit := owe39 c + tallyAt (recvCell (dest c 0 7) c) () N
def owe37 (c : Dev nD) : CellTallies nD τ sig Unit := owe38 c + tallyAt (recvCell (dest c 0 6) c) () N
def owe36 (c : Dev nD) : CellTallies nD τ sig Unit := owe37 c + tallyAt (recvCell (dest c 0 5) c) () N
def owe35 (c : Dev nD) : CellTallies nD τ sig Unit := owe36 c + tallyAt (recvCell (dest c 0 4) c) () N
def owe34 (c : Dev nD) : CellTallies nD τ sig Unit := owe35 c + tallyAt (recvCell (dest c 0 3) c) () N
def owe33 (c : Dev nD) : CellTallies nD τ sig Unit := owe34 c + tallyAt (recvCell (dest c 0 2) c) () N
def owe32 (c : Dev nD) : CellTallies nD τ sig Unit := owe33 c + tallyAt (recvCell (dest c 0 1) c) () N
def owe31 (c : Dev nD) : CellTallies nD τ sig Unit := owe32 c + tallyAt (recvCell (dest c 0 0) c) () N
def owe30 (c : Dev nD) : CellTallies nD τ sig Unit := owe31 c + tallyAt (barCell (peer c 31)) () 1
def owe29 (c : Dev nD) : CellTallies nD τ sig Unit := owe30 c + tallyAt (barCell (peer c 30)) () 1
def owe28 (c : Dev nD) : CellTallies nD τ sig Unit := owe29 c + tallyAt (barCell (peer c 29)) () 1
def owe27 (c : Dev nD) : CellTallies nD τ sig Unit := owe28 c + tallyAt (barCell (peer c 28)) () 1
def owe26 (c : Dev nD) : CellTallies nD τ sig Unit := owe27 c + tallyAt (barCell (peer c 27)) () 1
def owe25 (c : Dev nD) : CellTallies nD τ sig Unit := owe26 c + tallyAt (barCell (peer c 26)) () 1
def owe24 (c : Dev nD) : CellTallies nD τ sig Unit := owe25 c + tallyAt (barCell (peer c 25)) () 1
def owe23 (c : Dev nD) : CellTallies nD τ sig Unit := owe24 c + tallyAt (barCell (peer c 24)) () 1
def owe22 (c : Dev nD) : CellTallies nD τ sig Unit := owe23 c + tallyAt (barCell (peer c 23)) () 1
def owe21 (c : Dev nD) : CellTallies nD τ sig Unit := owe22 c + tallyAt (barCell (peer c 22)) () 1
def owe20 (c : Dev nD) : CellTallies nD τ sig Unit := owe21 c + tallyAt (barCell (peer c 21)) () 1
def owe19 (c : Dev nD) : CellTallies nD τ sig Unit := owe20 c + tallyAt (barCell (peer c 20)) () 1
def owe18 (c : Dev nD) : CellTallies nD τ sig Unit := owe19 c + tallyAt (barCell (peer c 19)) () 1
def owe17 (c : Dev nD) : CellTallies nD τ sig Unit := owe18 c + tallyAt (barCell (peer c 18)) () 1
def owe16 (c : Dev nD) : CellTallies nD τ sig Unit := owe17 c + tallyAt (barCell (peer c 17)) () 1
def owe15 (c : Dev nD) : CellTallies nD τ sig Unit := owe16 c + tallyAt (barCell (peer c 16)) () 1
def owe14 (c : Dev nD) : CellTallies nD τ sig Unit := owe15 c + tallyAt (barCell (peer c 15)) () 1
def owe13 (c : Dev nD) : CellTallies nD τ sig Unit := owe14 c + tallyAt (barCell (peer c 14)) () 1
def owe12 (c : Dev nD) : CellTallies nD τ sig Unit := owe13 c + tallyAt (barCell (peer c 13)) () 1
def owe11 (c : Dev nD) : CellTallies nD τ sig Unit := owe12 c + tallyAt (barCell (peer c 12)) () 1
def owe10 (c : Dev nD) : CellTallies nD τ sig Unit := owe11 c + tallyAt (barCell (peer c 11)) () 1
def owe9 (c : Dev nD) : CellTallies nD τ sig Unit := owe10 c + tallyAt (barCell (peer c 10)) () 1
def owe8 (c : Dev nD) : CellTallies nD τ sig Unit := owe9 c + tallyAt (barCell (peer c 9)) () 1
def owe7 (c : Dev nD) : CellTallies nD τ sig Unit := owe8 c + tallyAt (barCell (peer c 8)) () 1
def owe6 (c : Dev nD) : CellTallies nD τ sig Unit := owe7 c + tallyAt (barCell (peer c 7)) () 1
def owe5 (c : Dev nD) : CellTallies nD τ sig Unit := owe6 c + tallyAt (barCell (peer c 6)) () 1
def owe4 (c : Dev nD) : CellTallies nD τ sig Unit := owe5 c + tallyAt (barCell (peer c 5)) () 1
def owe3 (c : Dev nD) : CellTallies nD τ sig Unit := owe4 c + tallyAt (barCell (peer c 4)) () 1
def owe2 (c : Dev nD) : CellTallies nD τ sig Unit := owe3 c + tallyAt (barCell (peer c 3)) () 1
def owe1 (c : Dev nD) : CellTallies nD τ sig Unit := owe2 c + tallyAt (barCell (peer c 2)) () 1
def owe0 (c : Dev nD) : CellTallies nD τ sig Unit := owe1 c + tallyAt (barCell (peer c 1)) () 1

theorem O₀_owe (c : Dev nD) : O₀ c = owe0 c := by
  rw [O₀_list]
  simp only [sigL, sendL, List.map_cons, List.map_nil, List.sum_cons, List.sum_nil, owe0, owe1, owe2, owe3, owe4, owe5, owe6, owe7, owe8, owe9, owe10, owe11, owe12, owe13, owe14, owe15, owe16, owe17, owe18, owe19, owe20, owe21, owe22, owe23, owe24, owe25, owe26, owe27, owe28, owe29, owe30, owe31, owe32, owe33, owe34, owe35, owe36, owe37, owe38, owe39, owe40, owe41, owe42, owe43, owe44, owe45, owe46, owe47, owe48, owe49, owe50, owe51, owe52, owe53, owe54, owe55, owe56, owe57, owe58, owe59, owe60, owe61, owe62, owe63]
  abel

/-! ## The three chains -/

theorem chain_sig (c : Dev nD) (Φ : Dev nD → sProp 𝕄) :
    bigSep (Finset.univ.erase c) Φ = iprop(Φ (peer c 1) ∗ Φ (peer c 2) ∗ Φ (peer c 3) ∗ Φ (peer c 4) ∗ Φ (peer c 5) ∗ Φ (peer c 6) ∗ Φ (peer c 7) ∗ Φ (peer c 8) ∗ Φ (peer c 9) ∗ Φ (peer c 10) ∗ Φ (peer c 11) ∗ Φ (peer c 12) ∗ Φ (peer c 13) ∗ Φ (peer c 14) ∗ Φ (peer c 15) ∗ Φ (peer c 16) ∗ Φ (peer c 17) ∗ Φ (peer c 18) ∗ Φ (peer c 19) ∗ Φ (peer c 20) ∗ Φ (peer c 21) ∗ Φ (peer c 22) ∗ Φ (peer c 23) ∗ Φ (peer c 24) ∗ Φ (peer c 25) ∗ Φ (peer c 26) ∗ Φ (peer c 27) ∗ Φ (peer c 28) ∗ Φ (peer c 29) ∗ Φ (peer c 30) ∗ Φ (peer c 31)) := flat_sig c Φ
theorem chain_send (c : Dev nD) (Φ : Dev nD → sProp 𝕄) :
    bigSep Finset.univ Φ = iprop(Φ (dest c 0 0) ∗ Φ (dest c 0 1) ∗ Φ (dest c 0 2) ∗ Φ (dest c 0 3) ∗ Φ (dest c 0 4) ∗ Φ (dest c 0 5) ∗ Φ (dest c 0 6) ∗ Φ (dest c 0 7) ∗ Φ (dest c 1 0) ∗ Φ (dest c 1 1) ∗ Φ (dest c 1 2) ∗ Φ (dest c 1 3) ∗ Φ (dest c 1 4) ∗ Φ (dest c 1 5) ∗ Φ (dest c 1 6) ∗ Φ (dest c 1 7) ∗ Φ (dest c 2 0) ∗ Φ (dest c 2 1) ∗ Φ (dest c 2 2) ∗ Φ (dest c 2 3) ∗ Φ (dest c 2 4) ∗ Φ (dest c 2 5) ∗ Φ (dest c 2 6) ∗ Φ (dest c 2 7) ∗ Φ (dest c 3 0) ∗ Φ (dest c 3 1) ∗ Φ (dest c 3 2) ∗ Φ (dest c 3 3) ∗ Φ (dest c 3 4) ∗ Φ (dest c 3 5) ∗ Φ (dest c 3 6) ∗ Φ (dest c 3 7)) := flat_send c Φ
theorem chain_all (Φ : Dev nD → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := flat_all Φ

end Cert.Kernel.Exchange

end
-- ==== Proof.W.Names.lean ====
import proofs.«900436_g7700000000000437_dist_gemm_a2a_m1024_k1024_n1024_f32_relu_v7x_i32_1_alg».proof.Proof.W.Prep

/-!
# The printed copies' operands

The kernel addresses the source slot, the destination slot and the two semaphores of each copy through offsets it
computes from its device id. In closed form those are: staging slot `dest c g i`, receive slot `c`, send semaphore
`dest c g i`, receive semaphore `c`.
-/

set_option maxRecDepth 16384

noncomputable section

namespace Cert.Kernel.Exchange

open Cert.Kernel Cert.Kernel.Gen
open Idealize.ShloMosaic Idealize.ShloMosaic.TcCoe

theorem off4_dest (c : Dev nD) (g : Fin 4) (i : Fin 8) :
    k0_off4 c (BitVec.ofNat 32 (8 * g.val)) (BitVec.ofNat 32 i.val) = ![(dest c g i).val, 0, 0] := k0_off4_eq c g i
theorem off1_dest (c : Dev nD) (g : Fin 4) (i : Fin 8) :
    k0_off1 c (BitVec.ofNat 32 (8 * g.val)) (BitVec.ofNat 32 i.val) = ![(dest c g i).val] := k0_off1_eq c g i

/-- The source of copy `(g, i)`: staging slot `dest c g i`. -/
theorem src_eq (c : Dev nD) (g : Fin 4) (i : Fin 8) (p : ∀ a, (k0_off4 c (BitVec.ofNat 32 (8 * g.val)) (BitVec.ofNat 32 i.val)) a + S1x8x128.size a ≤ S32x8x128.size a)
    (hs : ∀ a, (Rect.unit (s := S32x8x128) (k0_off4 c (BitVec.ofNat 32 (8 * g.val)) (BitVec.ofNat 32 i.val)) S1x8x128.size p).stride a = 1) :
    (stgM.slice (Rect.unit (s := S32x8x128) (k0_off4 c (BitVec.ofNat 32 (8 * g.val)) (BitVec.ofNat 32 i.val)) S1x8x128.size p) hs).squeeze S8x128 squeezes_S1x8x128_S8x128
      = slotM stgM (dest c g i) :=
  congrArg (fun M : Memref sig .tc .vmem S1x8x128 .f32 => M.squeeze S8x128 squeezes_S1x8x128_S8x128)
    (Memref.slice_unit_congr stgM (off4_dest c g i) p (slot_inb (dest c g i)) hs (fun _ => rfl))
/-- Its destination: receive slot `c` (of the addressed device). -/
theorem dst_eq (c : Dev nD) (p : ∀ a, (k0_off3 c) a + S1x8x128.size a ≤ S32x8x128.size a)
    (hs : ∀ a, (Rect.unit (s := S32x8x128) (k0_off3 c) S1x8x128.size p).stride a = 1) :
    (rcvM.slice (Rect.unit (s := S32x8x128) (k0_off3 c) S1x8x128.size p) hs).squeeze S8x128 squeezes_S1x8x128_S8x128 = slotM rcvM c :=
  congrArg (fun M : Memref sig .tc .vmem S1x8x128 .f32 => M.squeeze S8x128 squeezes_S1x8x128_S8x128)
    (Memref.slice_unit_congr rcvM (k0_off3_eq c) p (slot_inb c) hs (fun _ => rfl))

theorem s32_inb (d : Dev nD) : ∀ a, (![d.val] : Fin 1 → Nat) a + S1.size a ≤ S32.size a := by
  intro a; have h : d.val < 32 := d.isLt
  match a with
  | ⟨0, _⟩ => show d.val + 1 ≤ 32; omega

/-- One semaphore of a 32-array at place `d`: the pool's place `base + d`. -/
theorem sem_at (base : ℕ) (hb : base + S32.numel ≤ sig.nDmaSem) (d : Dev nD) :
    (((SemArray.consecutive base S32 hb : DmaSems sig S32).slice (Rect.unit (s := S32) ![d.val] S1.size (s32_inb d))).squeeze S_ squeezes_S1_S_).sem.val = base + d.val := by
  show base + (S32.rowMajor ((Rect.unit (s := S32) ![d.val] S1.size (s32_inb d)).emb (Shape.reshapeEquiv squeezes_S1_S_.numel_eq (fun a => a.elim0)))).val = _
  rw [Shape.rowMajor_val_one]
  show base + (d.val + 1 * ((Shape.reshapeEquiv squeezes_S1_S_.numel_eq (fun a => a.elim0) : S1.Idx) 0).val) = _
  have h0 : ((Shape.reshapeEquiv squeezes_S1_S_.numel_eq (fun a => a.elim0) : S1.Idx) 0).val = 0 := by
    have := ((Shape.reshapeEquiv squeezes_S1_S_.numel_eq (fun a => a.elim0) : S1.Idx) 0).isLt
    have h1 : S1.size 0 = 1 := rfl
    omega
  rw [h0]; omega

/-- The send semaphore of copy `(g, i)`, and the receive semaphore every copy of `c` credits. -/
theorem send_sem_eq (c : Dev nD) (g : Fin 4) (i : Fin 8) (p : ∀ a, (k0_off1 c (BitVec.ofNat 32 (8 * g.val)) (BitVec.ofNat 32 i.val)) a + S1.size a ≤ S32.size a) :
    ((cc0_scratch2.slice (Rect.unit (s := S32) (k0_off1 c (BitVec.ofNat 32 (8 * g.val)) (BitVec.ofNat 32 i.val)) S1.size p)).squeeze S_ squeezes_S1_S_).sem = sendQ (dest c g i) := by
  rw [SemArray.slice_unit_congr cc0_scratch2 (off1_dest c g i) p (s32_inb (dest c g i))]
  exact Fin.ext (sem_at 3 hcc0_scratch2 (dest c g i))
theorem recv_sem_eq (c : Dev nD) (p : ∀ a, (k0_off2 c) a + S1.size a ≤ S32.size a) :
    ((cc0_scratch3.slice (Rect.unit (s := S32) (k0_off2 c) S1.size p)).squeeze S_ squeezes_S1_S_).sem = recvQ c := by
  rw [SemArray.slice_unit_congr cc0_scratch3 (k0_off2_eq c) p (s32_inb c)]
  exact Fin.ext (sem_at 35 hcc0_scratch3 c)

end Cert.Kernel.Exchange

end
-- ==== Proof.W.BodyRules.lean ====
import proofs.«900436_g7700000000000437_dist_gemm_a2a_m1024_k1024_n1024_f32_relu_v7x_i32_1_alg».proof.Proof.W.Names

/-!
# The body's remaining rules

The level evidence at the barrier wait (a device then owes only tile credits, on receive cells, which sit above barrier
cells); the barrier wait's 31 payloads and the device's own slot regrouped by destination; a group's eight staging slots
by number and in sending order; and the copy rule with the printed operands given by their equations.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

theorem rcvSlot_eq (c d : Dev nD) (f : Buf (Elt F) ((c : Thread nD τ).loc cc0_scratch1)) :
    (rcvSlot c d f : sProp 𝕄) = (((c : Thread nD τ).loc cc0_scratch1) ↦[(slotRect d).set]{fullShare} f) := by
  show ((((c : Thread nD τ).loc cc0_scratch1) ↦[(slotM rcvM d).view.set]{fullShare} f) : sProp 𝕄) = _
  rw [slot_set_rcv]
theorem stgSlot_eq (c d : Dev nD) (f : Buf (Elt F) ((c : Thread nD τ).loc cc0_scratch0)) :
    (stgSlot c d f : sProp 𝕄) = (((c : Thread nD τ).loc cc0_scratch0) ↦[(slotRect d).set]{fullShare} f) := by
  show ((((c : Thread nD τ).loc cc0_scratch0) ↦[(slotM stgM d).view.set]{fullShare} f) : sProp 𝕄) = _
  rw [slot_set_stg]

theorem split_own (c : Dev nD) (Φ : Dev nD → sProp 𝕄) : bigSep Finset.univ Φ = iprop(Φ c ∗ bigSep (Finset.univ.erase c) Φ) :=
  bigSep_univ_split c

/-! ## The barrier wait -/

theorem owe31_eq (c : Dev nD) : owe31 c = ∑ d : Dev nD, tallyAt (recvCell d c) () N := by
  rw [sum_send c]
  simp only [sendL, List.map_cons, List.map_nil, List.sum_cons, List.sum_nil, owe31, owe32, owe33, owe34, owe35, owe36, owe37, owe38, owe39, owe40, owe41, owe42, owe43, owe44, owe45, owe46, owe47, owe48, owe49, owe50, owe51, owe52, owe53, owe54, owe55, owe56, owe57, owe58, owe59, owe60, owe61, owe62, owe63]
  abel

theorem owe31_pos {c : Dev nD} {g : GSem nD τ sig} {u : Unit} (h : 0 < owe31 c g u) : ∃ d : Dev nD, g = recvCell d c := by
  rw [owe31_eq, Finset.sum_apply, Finsupp.finset_sum_apply] at h
  by_contra hn
  have hz : ∀ d ∈ (Finset.univ : Finset (Dev nD)), (tallyAt (recvCell d c) () N : CellTallies nD τ sig Unit) g u = 0 := fun d _ => by
    rw [tallyAt_apply, if_neg (fun h' => hn ⟨d, h'.1⟩)]
  rw [Finset.sum_eq_zero hz] at h
  exact Nat.lt_irrefl 0 h

/-- At its barrier wait a device owes tile credits only, on receive cells: above its barrier cell. -/
theorem mayWait_bar (c : Dev nD) : (levAts L lv : sProp 𝕄) ⊢ MayWait (c : Thread nD τ) (.reg barS) () (owe31 c) :=
  MayOwe.of_cut (L := L) (lev := lv) 1 (fun p hp => by rw [Finset.mem_singleton.mp hp, L_tc]; exact Finset.mem_singleton_self _)
    (fun g u hg => by obtain ⟨d, rfl⟩ := owe31_pos hg; rw [L_tc]; exact Finset.mem_singleton_self _)
    (fun p hp => by rw [Finset.mem_singleton.mp hp]; show (if barS = barS then 1 else 0) ≤ 1; rw [if_pos rfl])
    (fun g u hg => by
      obtain ⟨d, rfl⟩ := owe31_pos hg
      show 1 < (if 35 ≤ 35 + c.val then 2 else 0)
      rw [if_pos (by omega)]; decide)

/-- A barrier payload gives slot `c` of the signalling device's receive scratch, at some contents. -/
theorem barPay_drop (c p : Dev nD) :
    barPay (F := F) c p
      ⊢ iprop(∃ f : Buf (Elt F) ((p : Thread nD τ).loc cc0_scratch1), ((p : Thread nD τ).loc cc0_scratch1) ↦[(slotRect c).set]{fullShare} f) := by
  unfold barPay
  iintro ⟨⟨%f, H⟩, -⟩
  iexists f
  rw [← rcvSlot_eq]
  iexact H
theorem barPay_others (c : Dev nD) :
    bigSep (Finset.univ.erase c) (fun p => barPay (F := F) c p)
      ⊢ bigSep (Finset.univ.erase c) (fun d : Dev nD =>
          iprop(∃ f : Buf (Elt F) ((d : Thread nD τ).loc cc0_scratch1), ((d : Thread nD τ).loc cc0_scratch1) ↦[(slotRect c).set]{fullShare} f)) :=
  bigSep_mono fun p _ => barPay_drop c p
/-- The device's own receive slot and the 31 the barrier wait brings: slot `c` of every device's receive scratch. -/
theorem barPay_all (c : Dev nD) (fr : Buf (Elt F) ((c : Thread nD τ).loc cc0_scratch1)) :
    iprop((((c : Thread nD τ).loc cc0_scratch1) ↦[(slotRect c).set]{fullShare} fr) ∗ bigSep (Finset.univ.erase c) (fun p => barPay (F := F) c p))
      ⊢ bigSep Finset.univ (fun d : Dev nD =>
          iprop(∃ f : Buf (Elt F) ((d : Thread nD τ).loc cc0_scratch1), ((d : Thread nD τ).loc cc0_scratch1) ↦[(slotRect c).set]{fullShare} f)) := by
  rw [split_own c]
  iintro ⟨H, Hp⟩
  isplitl [H]
  · iexists fr; iexact H
  · iapply (barPay_others (F := F) c); iexact Hp

/-! ## A group's slots -/

theorem grp0_set : ∀ c : Dev nD, ([0, 1, 2, 3, 4, 5, 6, 7] : List (Dev nD)).toFinset = [dest c 0 0, dest c 0 1, dest c 0 2, dest c 0 3, dest c 0 4, dest c 0 5, dest c 0 6, dest c 0 7].toFinset := by decide +kernel
theorem grp0_nodup : ∀ c : Dev nD, ([dest c 0 0, dest c 0 1, dest c 0 2, dest c 0 3, dest c 0 4, dest c 0 5, dest c 0 6, dest c 0 7] : List (Dev nD)).Nodup := by decide +kernel
/-- Group 0's eight slots, by number or in the order `c` sends them: the same eight. -/
theorem grp0_rot (c : Dev nD) (Φ : Dev nD → sProp 𝕄) :
    iprop(Φ 0 ∗ Φ 1 ∗ Φ 2 ∗ Φ 3 ∗ Φ 4 ∗ Φ 5 ∗ Φ 6 ∗ Φ 7) = iprop(Φ (dest c 0 0) ∗ Φ (dest c 0 1) ∗ Φ (dest c 0 2) ∗ Φ (dest c 0 3) ∗ Φ (dest c 0 4) ∗ Φ (dest c 0 5) ∗ Φ (dest c 0 6) ∗ Φ (dest c 0 7)) :=
  (bigSep_eq_bigSepL_of_eq [0, 1, 2, 3, 4, 5, 6, 7] rfl (by decide) Φ).symm.trans (bigSep_eq_bigSepL_of_eq [dest c 0 0, dest c 0 1, dest c 0 2, dest c 0 3, dest c 0 4, dest c 0 5, dest c 0 6, dest c 0 7] (grp0_set c) (grp0_nodup c) Φ)

theorem grp1_set : ∀ c : Dev nD, ([8, 9, 10, 11, 12, 13, 14, 15] : List (Dev nD)).toFinset = [dest c 1 0, dest c 1 1, dest c 1 2, dest c 1 3, dest c 1 4, dest c 1 5, dest c 1 6, dest c 1 7].toFinset := by decide +kernel
theorem grp1_nodup : ∀ c : Dev nD, ([dest c 1 0, dest c 1 1, dest c 1 2, dest c 1 3, dest c 1 4, dest c 1 5, dest c 1 6, dest c 1 7] : List (Dev nD)).Nodup := by decide +kernel
/-- Group 1's eight slots, by number or in the order `c` sends them: the same eight. -/
theorem grp1_rot (c : Dev nD) (Φ : Dev nD → sProp 𝕄) :
    iprop(Φ 8 ∗ Φ 9 ∗ Φ 10 ∗ Φ 11 ∗ Φ 12 ∗ Φ 13 ∗ Φ 14 ∗ Φ 15) = iprop(Φ (dest c 1 0) ∗ Φ (dest c 1 1) ∗ Φ (dest c 1 2) ∗ Φ (dest c 1 3) ∗ Φ (dest c 1 4) ∗ Φ (dest c 1 5) ∗ Φ (dest c 1 6) ∗ Φ (dest c 1 7)) :=
  (bigSep_eq_bigSepL_of_eq [8, 9, 10, 11, 12, 13, 14, 15] rfl (by decide) Φ).symm.trans (bigSep_eq_bigSepL_of_eq [dest c 1 0, dest c 1 1, dest c 1 2, dest c 1 3, dest c 1 4, dest c 1 5, dest c 1 6, dest c 1 7] (grp1_set c) (grp1_nodup c) Φ)

theorem grp2_set : ∀ c : Dev nD, ([16, 17, 18, 19, 20, 21, 22, 23] : List (Dev nD)).toFinset = [dest c 2 0, dest c 2 1, dest c 2 2, dest c 2 3, dest c 2 4, dest c 2 5, dest c 2 6, dest c 2 7].toFinset := by decide +kernel
theorem grp2_nodup : ∀ c : Dev nD, ([dest c 2 0, dest c 2 1, dest c 2 2, dest c 2 3, dest c 2 4, dest c 2 5, dest c 2 6, dest c 2 7] : List (Dev nD)).Nodup := by decide +kernel
/-- Group 2's eight slots, by number or in the order `c` sends them: the same eight. -/
theorem grp2_rot (c : Dev nD) (Φ : Dev nD → sProp 𝕄) :
    iprop(Φ 16 ∗ Φ 17 ∗ Φ 18 ∗ Φ 19 ∗ Φ 20 ∗ Φ 21 ∗ Φ 22 ∗ Φ 23) = iprop(Φ (dest c 2 0) ∗ Φ (dest c 2 1) ∗ Φ (dest c 2 2) ∗ Φ (dest c 2 3) ∗ Φ (dest c 2 4) ∗ Φ (dest c 2 5) ∗ Φ (dest c 2 6) ∗ Φ (dest c 2 7)) :=
  (bigSep_eq_bigSepL_of_eq [16, 17, 18, 19, 20, 21, 22, 23] rfl (by decide) Φ).symm.trans (bigSep_eq_bigSepL_of_eq [dest c 2 0, dest c 2 1, dest c 2 2, dest c 2 3, dest c 2 4, dest c 2 5, dest c 2 6, dest c 2 7] (grp2_set c) (grp2_nodup c) Φ)

theorem grp3_set : ∀ c : Dev nD, ([24, 25, 26, 27, 28, 29, 30, 31] : List (Dev nD)).toFinset = [dest c 3 0, dest c 3 1, dest c 3 2, dest c 3 3, dest c 3 4, dest c 3 5, dest c 3 6, dest c 3 7].toFinset := by decide +kernel
theorem grp3_nodup : ∀ c : Dev nD, ([dest c 3 0, dest c 3 1, dest c 3 2, dest c 3 3, dest c 3 4, dest c 3 5, dest c 3 6, dest c 3 7] : List (Dev nD)).Nodup := by decide +kernel
/-- Group 3's eight slots, by number or in the order `c` sends them: the same eight. -/
theorem grp3_rot (c : Dev nD) (Φ : Dev nD → sProp 𝕄) :
    iprop(Φ 24 ∗ Φ 25 ∗ Φ 26 ∗ Φ 27 ∗ Φ 28 ∗ Φ 29 ∗ Φ 30 ∗ Φ 31) = iprop(Φ (dest c 3 0) ∗ Φ (dest c 3 1) ∗ Φ (dest c 3 2) ∗ Φ (dest c 3 3) ∗ Φ (dest c 3 4) ∗ Φ (dest c 3 5) ∗ Φ (dest c 3 6) ∗ Φ (dest c 3 7)) :=
  (bigSep_eq_bigSepL_of_eq [24, 25, 26, 27, 28, 29, 30, 31] rfl (by decide) Φ).symm.trans (bigSep_eq_bigSepL_of_eq [dest c 3 0, dest c 3 1, dest c 3 2, dest c 3 3, dest c 3 4, dest c 3 5, dest c 3 6, dest c 3 7] (grp3_set c) (grp3_nodup c) Φ)

/-! ## The copy, its printed operands given by their equations -/

theorem step_send' (K : Dev nD × CellIx → ℕ) (c d dev : Dev nD) (hdev : dev = d)
    (src dst : Memref sig .tc .vmem S8x128 .f32) (hsrcM : src = slotM stgM d) (hdstM : dst = slotM rcvM c)
    (qs qr : DmaSem sig) (hqs : qs = sendQ d) (hqr : qr = recvQ c)
    (O' O : CellTallies nD τ sig Unit) (hO : O' = O + tallyAt (recvCell d c) () N) (W : Waits sig Unit)
    (fsrc : Buf (Elt F) ((c : Thread nD τ).loc cc0_scratch0)) (hv : ∀ j ∈ (slotRect d).set, fsrc j = Sfin m c j)
    (fd : Buf (Elt F) ((d : Thread nD τ).loc cc0_scratch1))
    {hsc : (dst : Memref sig (Dev.tc dev : Thread nD τ).2.kind .vmem S8x128 .f32).view.ref.isScScratch = false}
    {hsrc : src.view.WordExact} {hdst : dst.view.WordExact}
    {hsem : DmaTarget.Typed .vmem (.dma qr) (.remote (Dev.tc dev : Thread nD τ) dst (.dma qs) hsc)}
    {α : Type} {Q : α → sProp 𝕄} {k : PUnit → Prog (TpuEff nD τ sig (Elt F) Λ₀ .tc) α} :
    iprop(records m K ∗ (((c : Thread nD τ).loc cc0_scratch0) ↦[(slotRect d).set]{fullShare} fsrc)
        ∗ (((d : Thread nD τ).loc cc0_scratch1) ↦[(slotRect c).set]{fullShare} fd)
        ∗ owes (c : Thread nD τ) O' W ∗ dutyTok ER (sendCell c d) 0 c ∗ dutyTok ER (recvCell d c) 0 c)
      ⊢ iprop(((cred (tallyAt (sendCell c d) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dev : Thread nD τ) dst (.dma qs) hsc) (.dma qr) hsrc hdst hsem) k) Q) := by
  subst hdev hsrcM hdstM hqs hqr hO
  have hs : ((((c : Thread nD τ).loc cc0_scratch0) ↦[(slotRect dev).set]{fullShare} fsrc) : sProp 𝕄) = stgSlot c dev (Sfin m c) := by
    rw [stgSlot_eq]; exact BI.Region.is_congr hv
  rw [hs, ← rcvSlot_eq]
  exact step_send m K c dev dev rfl O W fd

end Cert.Kernel.Exchange

end
-- ==== Proof.W.BodyPost.lean ====
import proofs.«900436_g7700000000000437_dist_gemm_a2a_m1024_k1024_n1024_f32_relu_v7x_i32_1_alg».proof.Proof.W.BodyRules

/-!
# What one device's body is run from and to

From: the ghost state at names `K`, the credit its waits consume, the level facts, the two scratch buffers whole at any
contents, what it owes at launch, and the three staged windows (`x` and `w` as fetched, the result tile at any contents).
To: the two scratch buffers whole at their final contents, its 64 own DMA cells closed at zero, nothing owed, `x` and `w`
as they were, and the result tile laid out from the received slots.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

abbrev xM : Memref sig .tc .vmem S32x1024 .f32 := Memref.whole cc0_stg0_0
abbrev wM : Memref sig .tc .vmem S1024x1024 .f32 := Memref.whole cc0_stg1_0
abbrev oM : Memref sig .tc .vmem S1024x32 .f32 := Memref.whole cc0_stg2_0

def bodyPre (K : Dev nD × CellIx → ℕ) (c : Dev nD) (W : Waits sig Unit)
    (fs : Buf (Elt F) ((c : Thread nD τ).loc cc0_scratch0)) (fr : Buf (Elt F) ((c : Thread nD τ).loc cc0_scratch1))
    (fo : Buf (Elt F) (oM.view.loc (c : Thread nD τ))) : sProp 𝕄 :=
  iprop(records m K ∗ linear (F := F) c ∗ cred (tallyAt (barCell c) () 31)
    ∗ (bigSep Finset.univ fun s : Dev nD => cred (tallyAt (recvCell c s) () N)) ∗ levAts L lv
    ∗ (((c : Thread nD τ).loc cc0_scratch0) ↦{fullShare} fs)
    ∗ (((c : Thread nD τ).loc cc0_scratch1) ↦{fullShare} fr)
    ∗ owes (c : Thread nD τ) (O₀ c) W
    ∗ (xM.view.loc (c : Thread nD τ) ↦[xM.view.set]{fullShare} xstg m c)
    ∗ (wM.view.loc (c : Thread nD τ) ↦[wM.view.set]{fullShare} wstg m c)
    ∗ (oM.view.loc (c : Thread nD τ) ↦[oM.view.set]{fullShare} fo))

def bodyPost (c : Dev nD) : sProp 𝕄 :=
  iprop(Φ₁ m c ∗ (∃ W' : Waits sig Unit, owes (c : Thread nD τ) 0 W')
    ∗ (xM.view.loc (c : Thread nD τ) ↦[xM.view.set]{fullShare} xstg m c)
    ∗ (wM.view.loc (c : Thread nD τ) ↦[wM.view.set]{fullShare} wstg m c)
    ∗ (oM.view.loc (c : Thread nD τ) ↦[oM.view.set]{fullShare} outFin m c))

/-- The run of one device's body. -/
def BodyRun : Prop :=
  ∀ (K : Dev nD × CellIx → ℕ) (c : Dev nD) (W : Waits sig Unit)
    (fs : Buf (Elt F) ((c : Thread nD τ).loc cc0_scratch0)) (fr : Buf (Elt F) ((c : Thread nD τ).loc cc0_scratch1))
    (fo : Buf (Elt F) (oM.view.loc (c : Thread nD τ))),
    bodyPre m K c W fs fr fo
      ⊢ wp frame (wpE (defs₀ (F := F)) 𝒱₀ (c : Thread nD τ) none) Set.univ
          (cc0_body xM (Memref.isWhole_whole _) wM (Memref.isWhole_whole _) oM (Memref.isWhole_whole _)
            stgM (Memref.isWhole_whole _) rcvM (Memref.isWhole_whole _) cc0_scratch2 cc0_scratch3) (fun _ => bodyPost m c)

end Cert.Kernel.Exchange

end
-- ==== Proof.W.StageValue.lean ====
import proofs.«900436_g7700000000000437_dist_gemm_a2a_m1024_k1024_n1024_f32_relu_v7x_i32_1_alg».proof.Proof.Gen.Kernel
import proofs.«900436_g7700000000000437_dist_gemm_a2a_m1024_k1024_n1024_f32_relu_v7x_i32_1_alg».proof.Proof.Gen.Kernel.Skeleton
import Idealize.ShloMosaic.Lib.Pipeline.Value
import Idealize.ShloMosaic.Lib.ValueIdx
import Idealize.ShloMosaic.Lib.ValueLayout

/-!
# The staged tiles and the result tiles, index by index

Each column group `Y` (32 rows, 256 columns) is staged as eight 8 × 128 tiles. Tile `i` takes the 32 columns
`32 i … 32 i + 31` of `Y`, cuts them in four bands of 8 rows and lays the bands side by side along the columns, so
entry `(r, l)` of the tile is `Y (8 (l / 32) + r, 32 i + l % 32)`. Only layout operations are involved: a slice, a
concatenation and a shape cast each read one entry of their operand.
-/

noncomputable section

namespace Cert.Kernel.StageValue

open Cert.Kernel Cert.Kernel.Gen Idealize.ShloMosaic Idealize.ShloMosaic.TcCoe

variable {F : FTy → Type} [FloatOps F]

section Bands
variable {α : Type}

/-! Four 8 × 32 pieces side by side: column `l` of the 8 × 128 result lies in piece `l / 32`, at column `l % 32`. -/

theorem concat4_apply_0 (p0 p1 p2 p3 : S8x32.Idx → α) (r : Fin 8) (l : Fin 128) (hl : l.val / 32 = 0) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p0 (ValueIdx.ix2 r ⟨l.val % 32, Nat.mod_lt _ (by decide)⟩) := by
  refine concatenate_apply_piece (t := S8x128) 1 _ _ (ValueIdx.ix2 r l) 0 (by simp) S8x32 p0 rfl rfl 0 rfl
    (ValueIdx.ix2 r ⟨l.val % 32, Nat.mod_lt _ (by decide)⟩) ?_ ?_
  · intro b hb
    match b with
    | ⟨0, _⟩ => rfl
    | ⟨1, _⟩ => exact absurd rfl hb
  · show 0 + l.val % 32 = l.val
    omega

theorem concat4_apply_1 (p0 p1 p2 p3 : S8x32.Idx → α) (r : Fin 8) (l : Fin 128) (hl : l.val / 32 = 1) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p1 (ValueIdx.ix2 r ⟨l.val % 32, Nat.mod_lt _ (by decide)⟩) := by
  refine concatenate_apply_piece (t := S8x128) 1 _ _ (ValueIdx.ix2 r l) 1 (by simp) S8x32 p1 rfl rfl 32 rfl
    (ValueIdx.ix2 r ⟨l.val % 32, Nat.mod_lt _ (by decide)⟩) ?_ ?_
  · intro b hb
    match b with
    | ⟨0, _⟩ => rfl
    | ⟨1, _⟩ => exact absurd rfl hb
  · show 32 + l.val % 32 = l.val
    omega

theorem concat4_apply_2 (p0 p1 p2 p3 : S8x32.Idx → α) (r : Fin 8) (l : Fin 128) (hl : l.val / 32 = 2) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p2 (ValueIdx.ix2 r ⟨l.val % 32, Nat.mod_lt _ (by decide)⟩) := by
  refine concatenate_apply_piece (t := S8x128) 1 _ _ (ValueIdx.ix2 r l) 2 (by simp) S8x32 p2 rfl rfl 64 rfl
    (ValueIdx.ix2 r ⟨l.val % 32, Nat.mod_lt _ (by decide)⟩) ?_ ?_
  · intro b hb
    match b with
    | ⟨0, _⟩ => rfl
    | ⟨1, _⟩ => exact absurd rfl hb
  · show 64 + l.val % 32 = l.val
    omega

theorem concat4_apply_3 (p0 p1 p2 p3 : S8x32.Idx → α) (r : Fin 8) (l : Fin 128) (hl : l.val / 32 = 3) :
    concatenate S8x128 1 [⟨S8x32, p0⟩, ⟨S8x32, p1⟩, ⟨S8x32, p2⟩, ⟨S8x32, p3⟩] concatenates_S8x32_S8x32_S8x32_S8x32_S8x128_d1
        (ValueIdx.ix2 r l)
      = p3 (ValueIdx.ix2 r ⟨l.val % 32, Nat.mod_lt _ (by decide)⟩) := by
  refine concatenate_apply_piece (t := S8x128) 1 _ _ (ValueIdx.ix2 r l) 3 (by simp) S8x32 p3 rfl rfl 96 rfl
    (ValueIdx.ix2 r ⟨l.val % 32, Nat.mod_lt _ (by decide)⟩) ?_ ?_
  · intro b hb
    match b with
    | ⟨0, _⟩ => rfl
    | ⟨1, _⟩ => exact absurd rfl hb
  · show 96 + l.val % 32 = l.val
    omega

end Bands

section Tile
variable {α : Type}

/-- A band of eight rows of a 32 × 32 block, read at an entry. -/
theorem band_apply (B : S32x32.Idx → α) (o : Nat) (ho : o + 8 ≤ 32) (hs : S32x32.Slices ![o, 0] S8x32) (r : Fin 8) (c : Fin 32) :
    extractStridedSlice S8x32 ![o, 0] B hs (ValueIdx.ix2 r c) = B (ValueIdx.ix2 ⟨o + r.val, by have := r.isLt; omega⟩ c) := by
  refine extractStridedSlice_apply _ _ _ _ _ fun a => ?_
  match a with
  | ⟨0, _⟩ => rfl
  | ⟨1, _⟩ => show c.val = 0 + c.val; omega

/-- A block of 32 columns of a column group, read at an entry. -/
theorem block_apply (Y : S32x256.Idx → α) (c : Nat) (hc : c + 32 ≤ 256) (hs : S32x256.Slices ![0, c] S32x32) (a : Fin 32) (b : Fin 32) :
    extractStridedSlice S32x32 ![0, c] Y hs (ValueIdx.ix2 a b) = Y (ValueIdx.ix2 a ⟨c + b.val, by have := b.isLt; omega⟩) := by
  refine extractStridedSlice_apply _ _ _ _ _ fun d => ?_
  match d with
  | ⟨0, _⟩ => show a.val = 0 + a.val; omega
  | ⟨1, _⟩ => rfl

/-- The staged tile of the 32 columns from `c` of a column group `Y`: its four bands of eight rows laid side by side,
    with a leading unit axis. Entry `(0, r, l)` is `Y (8 (l / 32) + r, c + l % 32)`. -/
theorem tile_apply (Y : S32x256.Idx → α) (c : Nat) (hc : c + 32 ≤ 256) (hs : S32x256.Slices ![0, c] S32x32) (r : Fin 8) (l : Fin 128) :
    shapeCast S1x8x128
        (concatenate S8x128 1
          [⟨S8x32, extractStridedSlice S8x32 ![0, 0] (extractStridedSlice S32x32 ![0, c] Y hs) slices_S32x32_o0_0_S8x32⟩,
           ⟨S8x32, extractStridedSlice S8x32 ![8, 0] (extractStridedSlice S32x32 ![0, c] Y hs) slices_S32x32_o8_0_S8x32⟩,
           ⟨S8x32, extractStridedSlice S8x32 ![16, 0] (extractStridedSlice S32x32 ![0, c] Y hs) slices_S32x32_o16_0_S8x32⟩,
           ⟨S8x32, extractStridedSlice S8x32 ![24, 0] (extractStridedSlice S32x32 ![0, c] Y hs) slices_S32x32_o24_0_S8x32⟩]
          concatenates_S8x32_S8x32_S8x32_S8x32_S8x128_d1)
        shapeCasts_S8x128_S1x8x128 (ValueIdx.ix3 (n0 := 1) (n1 := 8) (n2 := 128) ⟨0, Nat.one_pos⟩ r l)
      = Y (ValueIdx.ix2 (n0 := 32) (n1 := 256) ⟨8 * (l.val / 32) + r.val, by have := r.isLt; have := l.isLt; omega⟩
            ⟨c + l.val % 32, by omega⟩) := by
  refine (shapeCast_addUnit_apply (n := 2) ![8, 128] _ _ _).trans ?_
  have e : (fun a : Fin 2 => ValueIdx.ix3 (n0 := 1) (n1 := 8) (n2 := 128) ⟨0, Nat.one_pos⟩ r l a.succ) = ValueIdx.ix2 r l := by
    funext a
    match a with
    | ⟨0, _⟩ => rfl
    | ⟨1, _⟩ => rfl
  refine (congrArg _ e).trans ?_
  have h4 : l.val / 32 = 0 ∨ l.val / 32 = 1 ∨ l.val / 32 = 2 ∨ l.val / 32 = 3 := by have := l.isLt; omega
  rcases h4 with h | h | h | h
  · refine (concat4_apply_0 _ _ _ _ r l h).trans ?_
    refine (band_apply _ 0 (by omega) _ r _).trans ?_
    refine (block_apply Y c hc hs _ _).trans ?_
    refine congrArg Y (funext fun a => ?_)
    match a with
    | ⟨0, _⟩ => exact Fin.ext (by show 0 + r.val = 8 * (l.val / 32) + r.val; omega)
    | ⟨1, _⟩ => rfl
  · refine (concat4_apply_1 _ _ _ _ r l h).trans ?_
    refine (band_apply _ 8 (by omega) _ r _).trans ?_
    refine (block_apply Y c hc hs _ _).trans ?_
    refine congrArg Y (funext fun a => ?_)
    match a with
    | ⟨0, _⟩ => exact Fin.ext (by show 8 + r.val = 8 * (l.val / 32) + r.val; omega)
    | ⟨1, _⟩ => rfl
  · refine (concat4_apply_2 _ _ _ _ r l h).trans ?_
    refine (band_apply _ 16 (by omega) _ r _).trans ?_
    refine (block_apply Y c hc hs _ _).trans ?_
    refine congrArg Y (funext fun a => ?_)
    match a with
    | ⟨0, _⟩ => exact Fin.ext (by show 16 + r.val = 8 * (l.val / 32) + r.val; omega)
    | ⟨1, _⟩ => rfl
  · refine (concat4_apply_3 _ _ _ _ r l h).trans ?_
    refine (band_apply _ 24 (by omega) _ r _).trans ?_
    refine (block_apply Y c hc hs _ _).trans ?_
    refine congrArg Y (funext fun a => ?_)
    match a with
    | ⟨0, _⟩ => exact Fin.ext (by show 24 + r.val = 8 * (l.val / 32) + r.val; omega)
    | ⟨1, _⟩ => rfl

end Tile

/-! The four column groups are one function of the tile of `x` and the slab of `W`. -/

theorem pay14_eq (x : Vec F S32x1024 .f32) (w : Vec F S1024x256 .f32) : k0_pay14 x w = k0_pay1 x w := rfl
theorem pay24_eq (x : Vec F S32x1024 .f32) (w : Vec F S1024x256 .f32) : k0_pay24 x w = k0_pay1 x w := rfl
theorem pay34_eq (x : Vec F S32x1024 .f32) (w : Vec F S1024x256 .f32) : k0_pay34 x w = k0_pay1 x w := rfl
theorem pay14_eq_fun : k0_pay14 (F := F) = k0_pay1 := rfl
theorem pay24_eq_fun : k0_pay24 (F := F) = k0_pay1 := rfl
theorem pay34_eq_fun : k0_pay34 (F := F) = k0_pay1 := rfl

/-! ## The 32 staged tiles

Slot `d = 8 g + i` holds tile `i` of column group `g`: entry `(0, r, l)` is entry `(8 (l / 32) + r, 32 i + l % 32)` of
the group. -/

theorem stage_pay_0 (x : Vec F S32x1024 .f32) (w : Vec F S1024x256 .f32) (r : Fin 8) (l : Fin 128) :
    (k0_pay2 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  unfold k0_pay2
  exact tile_apply (k0_pay1 x w) 0 (by omega) slices_S32x256_o0_0_S32x32 r l

theorem stage_pay_1 (x : Vec F S32x1024 .f32) (w : Vec F S1024x256 .f32) (r : Fin 8) (l : Fin 128) :
    (k0_pay3 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  unfold k0_pay3
  exact tile_apply (k0_pay1 x w) 32 (by omega) slices_S32x256_o0_32_S32x32 r l

theorem stage_pay_2 (x : Vec F S32x1024 .f32) (w : Vec F S1024x256 .f32) (r : Fin 8) (l : Fin 128) :
    (k0_pay8 (k0_pay4 x w) (k0_pay5 x w) (k0_pay6 x w) (k0_pay7 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  unfold k0_pay8 k0_pay5 k0_pay6 k0_pay7 k0_pay4
  exact tile_apply (k0_pay1 x w) 64 (by omega) slices_S32x256_o0_64_S32x32 r l

theorem stage_pay_3 (x : Vec F S32x1024 .f32) (w : Vec F S1024x256 .f32) (r : Fin 8) (l : Fin 128) :
    (k0_pay9 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  unfold k0_pay9
  exact tile_apply (k0_pay1 x w) 96 (by omega) slices_S32x256_o0_96_S32x32 r l

theorem stage_pay_4 (x : Vec F S32x1024 .f32) (w : Vec F S1024x256 .f32) (r : Fin 8) (l : Fin 128) :
    (k0_pay10 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  unfold k0_pay10
  exact tile_apply (k0_pay1 x w) 128 (by omega) slices_S32x256_o0_128_S32x32 r l

theorem stage_pay_5 (x : Vec F S32x1024 .f32) (w : Vec F S1024x256 .f32) (r : Fin 8) (l : Fin 128) :
    (k0_pay11 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  unfold k0_pay11
  exact tile_apply (k0_pay1 x w) 160 (by omega) slices_S32x256_o0_160_S32x32 r l

theorem stage_pay_6 (x : Vec F S32x1024 .f32) (w : Vec F S1024x256 .f32) (r : Fin 8) (l : Fin 128) :
    (k0_pay12 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  unfold k0_pay12
  exact tile_apply (k0_pay1 x w) 192 (by omega) slices_S32x256_o0_192_S32x32 r l

theorem stage_pay_7 (x : Vec F S32x1024 .f32) (w : Vec F S1024x256 .f32) (r : Fin 8) (l : Fin 128) :
    (k0_pay13 (k0_pay1 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  unfold k0_pay13
  exact tile_apply (k0_pay1 x w) 224 (by omega) slices_S32x256_o0_224_S32x32 r l

theorem stage_pay_8 (x : Vec F S32x1024 .f32) (w : Vec F S1024x256 .f32) (r : Fin 8) (l : Fin 128) :
    (k0_pay15 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay14_eq x w) _)
  unfold k0_pay15
  exact tile_apply (k0_pay14 x w) 0 (by omega) slices_S32x256_o0_0_S32x32 r l

theorem stage_pay_9 (x : Vec F S32x1024 .f32) (w : Vec F S1024x256 .f32) (r : Fin 8) (l : Fin 128) :
    (k0_pay16 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay14_eq x w) _)
  unfold k0_pay16
  exact tile_apply (k0_pay14 x w) 32 (by omega) slices_S32x256_o0_32_S32x32 r l

theorem stage_pay_10 (x : Vec F S32x1024 .f32) (w : Vec F S1024x256 .f32) (r : Fin 8) (l : Fin 128) :
    (k0_pay17 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay14_eq x w) _)
  unfold k0_pay17
  exact tile_apply (k0_pay14 x w) 64 (by omega) slices_S32x256_o0_64_S32x32 r l

theorem stage_pay_11 (x : Vec F S32x1024 .f32) (w : Vec F S1024x256 .f32) (r : Fin 8) (l : Fin 128) :
    (k0_pay18 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay14_eq x w) _)
  unfold k0_pay18
  exact tile_apply (k0_pay14 x w) 96 (by omega) slices_S32x256_o0_96_S32x32 r l

theorem stage_pay_12 (x : Vec F S32x1024 .f32) (w : Vec F S1024x256 .f32) (r : Fin 8) (l : Fin 128) :
    (k0_pay19 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay14_eq x w) _)
  unfold k0_pay19
  exact tile_apply (k0_pay14 x w) 128 (by omega) slices_S32x256_o0_128_S32x32 r l

theorem stage_pay_13 (x : Vec F S32x1024 .f32) (w : Vec F S1024x256 .f32) (r : Fin 8) (l : Fin 128) :
    (k0_pay20 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay14_eq x w) _)
  unfold k0_pay20
  exact tile_apply (k0_pay14 x w) 160 (by omega) slices_S32x256_o0_160_S32x32 r l

theorem stage_pay_14 (x : Vec F S32x1024 .f32) (w : Vec F S1024x256 .f32) (r : Fin 8) (l : Fin 128) :
    (k0_pay22 (k0_pay21 (k0_pay14 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay14_eq x w) _)
  unfold k0_pay22 k0_pay21
  exact tile_apply (k0_pay14 x w) 192 (by omega) slices_S32x256_o0_192_S32x32 r l

theorem stage_pay_15 (x : Vec F S32x1024 .f32) (w : Vec F S1024x256 .f32) (r : Fin 8) (l : Fin 128) :
    (k0_pay23 (k0_pay14 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay14_eq x w) _)
  unfold k0_pay23
  exact tile_apply (k0_pay14 x w) 224 (by omega) slices_S32x256_o0_224_S32x32 r l

theorem stage_pay_16 (x : Vec F S32x1024 .f32) (w : Vec F S1024x256 .f32) (r : Fin 8) (l : Fin 128) :
    (k0_pay25 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay24_eq x w) _)
  unfold k0_pay25
  exact tile_apply (k0_pay24 x w) 0 (by omega) slices_S32x256_o0_0_S32x32 r l

theorem stage_pay_17 (x : Vec F S32x1024 .f32) (w : Vec F S1024x256 .f32) (r : Fin 8) (l : Fin 128) :
    (k0_pay26 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay24_eq x w) _)
  unfold k0_pay26
  exact tile_apply (k0_pay24 x w) 32 (by omega) slices_S32x256_o0_32_S32x32 r l

theorem stage_pay_18 (x : Vec F S32x1024 .f32) (w : Vec F S1024x256 .f32) (r : Fin 8) (l : Fin 128) :
    (k0_pay27 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay24_eq x w) _)
  unfold k0_pay27
  exact tile_apply (k0_pay24 x w) 64 (by omega) slices_S32x256_o0_64_S32x32 r l

theorem stage_pay_19 (x : Vec F S32x1024 .f32) (w : Vec F S1024x256 .f32) (r : Fin 8) (l : Fin 128) :
    (k0_pay28 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay24_eq x w) _)
  unfold k0_pay28
  exact tile_apply (k0_pay24 x w) 96 (by omega) slices_S32x256_o0_96_S32x32 r l

theorem stage_pay_20 (x : Vec F S32x1024 .f32) (w : Vec F S1024x256 .f32) (r : Fin 8) (l : Fin 128) :
    (k0_pay29 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay24_eq x w) _)
  unfold k0_pay29
  exact tile_apply (k0_pay24 x w) 128 (by omega) slices_S32x256_o0_128_S32x32 r l

theorem stage_pay_21 (x : Vec F S32x1024 .f32) (w : Vec F S1024x256 .f32) (r : Fin 8) (l : Fin 128) :
    (k0_pay30 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay24_eq x w) _)
  unfold k0_pay30
  exact tile_apply (k0_pay24 x w) 160 (by omega) slices_S32x256_o0_160_S32x32 r l

theorem stage_pay_22 (x : Vec F S32x1024 .f32) (w : Vec F S1024x256 .f32) (r : Fin 8) (l : Fin 128) :
    (k0_pay32 (k0_pay31 (k0_pay24 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay24_eq x w) _)
  unfold k0_pay32 k0_pay31
  exact tile_apply (k0_pay24 x w) 192 (by omega) slices_S32x256_o0_192_S32x32 r l

theorem stage_pay_23 (x : Vec F S32x1024 .f32) (w : Vec F S1024x256 .f32) (r : Fin 8) (l : Fin 128) :
    (k0_pay33 (k0_pay24 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay24_eq x w) _)
  unfold k0_pay33
  exact tile_apply (k0_pay24 x w) 224 (by omega) slices_S32x256_o0_224_S32x32 r l

theorem stage_pay_24 (x : Vec F S32x1024 .f32) (w : Vec F S1024x256 .f32) (r : Fin 8) (l : Fin 128) :
    (k0_pay35 x w) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 0 + l.val % 32, by omega⟩) := by
  refine Eq.trans ?_ (congrFun (pay34_eq x w) _)
  unfold k0_pay35
  exact tile_apply (k0_pay34 x w) 0 (by omega) slices_S32x256_o0_0_S32x32 r l

theorem stage_pay_25 (x : Vec F S32x1024 .f32) (w : Vec F S1024x256 .f32) (r : Fin 8) (l : Fin 128) :
    (k0_pay37 (k0_pay36 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 1 + l.val % 32, by omega⟩) := by
  refine Eq.trans ?_ (congrFun (pay34_eq x w) _)
  unfold k0_pay37 k0_pay36
  exact tile_apply (k0_pay34 x w) 32 (by omega) slices_S32x256_o0_32_S32x32 r l

theorem stage_pay_26 (x : Vec F S32x1024 .f32) (w : Vec F S1024x256 .f32) (r : Fin 8) (l : Fin 128) :
    (k0_pay38 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 2 + l.val % 32, by omega⟩) := by
  refine Eq.trans ?_ (congrFun (pay34_eq x w) _)
  unfold k0_pay38
  exact tile_apply (k0_pay34 x w) 64 (by omega) slices_S32x256_o0_64_S32x32 r l

theorem stage_pay_27 (x : Vec F S32x1024 .f32) (w : Vec F S1024x256 .f32) (r : Fin 8) (l : Fin 128) :
    (k0_pay39 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 3 + l.val % 32, by omega⟩) := by
  refine Eq.trans ?_ (congrFun (pay34_eq x w) _)
  unfold k0_pay39
  exact tile_apply (k0_pay34 x w) 96 (by omega) slices_S32x256_o0_96_S32x32 r l

theorem stage_pay_28 (x : Vec F S32x1024 .f32) (w : Vec F S1024x256 .f32) (r : Fin 8) (l : Fin 128) :
    (k0_pay40 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 4 + l.val % 32, by omega⟩) := by
  refine Eq.trans ?_ (congrFun (pay34_eq x w) _)
  unfold k0_pay40
  exact tile_apply (k0_pay34 x w) 128 (by omega) slices_S32x256_o0_128_S32x32 r l

theorem stage_pay_29 (x : Vec F S32x1024 .f32) (w : Vec F S1024x256 .f32) (r : Fin 8) (l : Fin 128) :
    (k0_pay41 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 5 + l.val % 32, by omega⟩) := by
  refine Eq.trans ?_ (congrFun (pay34_eq x w) _)
  unfold k0_pay41
  exact tile_apply (k0_pay34 x w) 160 (by omega) slices_S32x256_o0_160_S32x32 r l

theorem stage_pay_30 (x : Vec F S32x1024 .f32) (w : Vec F S1024x256 .f32) (r : Fin 8) (l : Fin 128) :
    (k0_pay43 (k0_pay42 (k0_pay34 x w))) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 6 + l.val % 32, by omega⟩) := by
  refine Eq.trans ?_ (congrFun (pay34_eq x w) _)
  unfold k0_pay43 k0_pay42
  exact tile_apply (k0_pay34 x w) 192 (by omega) slices_S32x256_o0_192_S32x32 r l

theorem stage_pay_31 (x : Vec F S32x1024 .f32) (w : Vec F S1024x256 .f32) (r : Fin 8) (l : Fin 128) :
    (k0_pay44 (k0_pay34 x w)) (ValueIdx.ix3 (n0 := 1) (n1 := 8) (n2 := 128) ⟨0, Nat.one_pos⟩ r l)
      = k0_pay1 x w (ValueIdx.ix2 (n0 := 32) (n1 := 256) ⟨8 * (l.val / 32) + r.val, by have := r.isLt; have := l.isLt; omega⟩
          ⟨32 * 7 + l.val % 32, by omega⟩) := by
  refine Eq.trans ?_ (congrFun (pay34_eq x w) _)
  unfold k0_pay44
  exact tile_apply (k0_pay34 x w) 224 (by omega) slices_S32x256_o0_224_S32x32 r l

/-! ## The 128 result tiles

Every result store takes its 8 × 32 tile from a received 1 × 8 × 32 block by dropping the unit axis: the 128 payloads
are one function, and entry `(r, j)` of the tile is entry `(0, r, j)` of the block. -/

theorem out_pay_eq_45 : k0_pay45 (F := F) = k0_pay45 := rfl
theorem out_pay_eq_46 : k0_pay46 (F := F) = k0_pay45 := rfl
theorem out_pay_eq_47 : k0_pay47 (F := F) = k0_pay45 := rfl
theorem out_pay_eq_48 : k0_pay48 (F := F) = k0_pay45 := rfl
theorem out_pay_eq_49 : k0_pay49 (F := F) = k0_pay45 := rfl
theorem out_pay_eq_50 : k0_pay50 (F := F) = k0_pay45 := rfl
theorem out_pay_eq_51 : k0_pay51 (F := F) = k0_pay45 := rfl
theorem out_pay_eq_52 : k0_pay52 (F := F) = k0_pay45 := rfl
theorem out_pay_eq_53 : k0_pay53 (F := F) = k0_pay45 := rfl
theorem out_pay_eq_54 : k0_pay54 (F := F) = k0_pay45 := rfl
theorem out_pay_eq_55 : k0_pay55 (F := F) = k0_pay45 := rfl
theorem out_pay_eq_56 : k0_pay56 (F := F) = k0_pay45 := rfl
theorem out_pay_eq_57 : k0_pay57 (F := F) = k0_pay45 := rfl
theorem out_pay_eq_58 : k0_pay58 (F := F) = k0_pay45 := rfl
theorem out_pay_eq_59 : k0_pay59 (F := F) = k0_pay45 := rfl
theorem out_pay_eq_60 : k0_pay60 (F := F) = k0_pay45 := rfl
theorem out_pay_eq_61 : k0_pay61 (F := F) = k0_pay45 := rfl
theorem out_pay_eq_62 : k0_pay62 (F := F) = k0_pay45 := rfl
theorem out_pay_eq_63 : k0_pay63 (F := F) = k0_pay45 := rfl
theorem out_pay_eq_64 : k0_pay64 (F := F) = k0_pay45 := rfl
theorem out_pay_eq_65 : k0_pay65 (F := F) = k0_pay45 := rfl
theorem out_pay_eq_66 : k0_pay66 (F := F) = k0_pay45 := rfl
theorem out_pay_eq_67 : k0_pay67 (F := F) = k0_pay45 := rfl
theorem out_pay_eq_68 : k0_pay68 (F := F) = k0_pay45 := rfl
theorem out_pay_eq_69 : k0_pay69 (F := F) = k0_pay45 := rfl
theorem out_pay_eq_70 : k0_pay70 (F := F) = k0_pay45 := rfl
theorem out_pay_eq_71 : k0_pay71 (F := F) = k0_pay45 := rfl
theorem out_pay_eq_72 : k0_pay72 (F := F) = k0_pay45 := rfl
theorem out_pay_eq_73 : k0_pay73 (F := F) = k0_pay45 := rfl
theorem out_pay_eq_74 : k0_pay74 (F := F) = k0_pay45 := rfl
theorem out_pay_eq_75 : k0_pay75 (F := F) = k0_pay45 := rfl
theorem out_pay_eq_76 : k0_pay76 (F := F) = k0_pay45 := rfl
theorem out_pay_eq_77 : k0_pay77 (F := F) = k0_pay45 := rfl
theorem out_pay_eq_78 : k0_pay78 (F := F) = k0_pay45 := rfl
theorem out_pay_eq_79 : k0_pay79 (F := F) = k0_pay45 := rfl
theorem out_pay_eq_80 : k0_pay80 (F := F) = k0_pay45 := rfl
theorem out_pay_eq_81 : k0_pay81 (F := F) = k0_pay45 := rfl
theorem out_pay_eq_82 : k0_pay82 (F := F) = k0_pay45 := rfl
theorem out_pay_eq_83 : k0_pay83 (F := F) = k0_pay45 := rfl
theorem out_pay_eq_84 : k0_pay84 (F := F) = k0_pay45 := rfl
theorem out_pay_eq_85 : k0_pay85 (F := F) = k0_pay45 := rfl
theorem out_pay_eq_86 : k0_pay86 (F := F) = k0_pay45 := rfl
theorem out_pay_eq_87 : k0_pay87 (F := F) = k0_pay45 := rfl
theorem out_pay_eq_88 : k0_pay88 (F := F) = k0_pay45 := rfl
theorem out_pay_eq_89 : k0_pay89 (F := F) = k0_pay45 := rfl
theorem out_pay_eq_90 : k0_pay90 (F := F) = k0_pay45 := rfl
theorem out_pay_eq_91 : k0_pay91 (F := F) = k0_pay45 := rfl
theorem out_pay_eq_92 : k0_pay92 (F := F) = k0_pay45 := rfl
theorem out_pay_eq_93 : k0_pay93 (F := F) = k0_pay45 := rfl
theorem out_pay_eq_94 : k0_pay94 (F := F) = k0_pay45 := rfl
theorem out_pay_eq_95 : k0_pay95 (F := F) = k0_pay45 := rfl
theorem out_pay_eq_96 : k0_pay96 (F := F) = k0_pay45 := rfl
theorem out_pay_eq_97 : k0_pay97 (F := F) = k0_pay45 := rfl
theorem out_pay_eq_98 : k0_pay98 (F := F) = k0_pay45 := rfl
theorem out_pay_eq_99 : k0_pay99 (F := F) = k0_pay45 := rfl
theorem out_pay_eq_100 : k0_pay100 (F := F) = k0_pay45 := rfl
theorem out_pay_eq_101 : k0_pay101 (F := F) = k0_pay45 := rfl
theorem out_pay_eq_102 : k0_pay102 (F := F) = k0_pay45 := rfl
theorem out_pay_eq_103 : k0_pay103 (F := F) = k0_pay45 := rfl
theorem out_pay_eq_104 : k0_pay104 (F := F) = k0_pay45 := rfl
theorem out_pay_eq_105 : k0_pay105 (F := F) = k0_pay45 := rfl
theorem out_pay_eq_106 : k0_pay106 (F := F) = k0_pay45 := rfl
theorem out_pay_eq_107 : k0_pay107 (F := F) = k0_pay45 := rfl
theorem out_pay_eq_108 : k0_pay108 (F := F) = k0_pay45 := rfl
theorem out_pay_eq_109 : k0_pay109 (F := F) = k0_pay45 := rfl
theorem out_pay_eq_110 : k0_pay110 (F := F) = k0_pay45 := rfl
theorem out_pay_eq_111 : k0_pay111 (F := F) = k0_pay45 := rfl
theorem out_pay_eq_112 : k0_pay112 (F := F) = k0_pay45 := rfl
theorem out_pay_eq_113 : k0_pay113 (F := F) = k0_pay45 := rfl
theorem out_pay_eq_114 : k0_pay114 (F := F) = k0_pay45 := rfl
theorem out_pay_eq_115 : k0_pay115 (F := F) = k0_pay45 := rfl
theorem out_pay_eq_116 : k0_pay116 (F := F) = k0_pay45 := rfl
theorem out_pay_eq_117 : k0_pay117 (F := F) = k0_pay45 := rfl
theorem out_pay_eq_118 : k0_pay118 (F := F) = k0_pay45 := rfl
theorem out_pay_eq_119 : k0_pay119 (F := F) = k0_pay45 := rfl
theorem out_pay_eq_120 : k0_pay120 (F := F) = k0_pay45 := rfl
theorem out_pay_eq_121 : k0_pay121 (F := F) = k0_pay45 := rfl
theorem out_pay_eq_122 : k0_pay122 (F := F) = k0_pay45 := rfl
theorem out_pay_eq_123 : k0_pay123 (F := F) = k0_pay45 := rfl
theorem out_pay_eq_124 : k0_pay124 (F := F) = k0_pay45 := rfl
theorem out_pay_eq_125 : k0_pay125 (F := F) = k0_pay45 := rfl
theorem out_pay_eq_126 : k0_pay126 (F := F) = k0_pay45 := rfl
theorem out_pay_eq_127 : k0_pay127 (F := F) = k0_pay45 := rfl
theorem out_pay_eq_128 : k0_pay128 (F := F) = k0_pay45 := rfl
theorem out_pay_eq_129 : k0_pay129 (F := F) = k0_pay45 := rfl
theorem out_pay_eq_130 : k0_pay130 (F := F) = k0_pay45 := rfl
theorem out_pay_eq_131 : k0_pay131 (F := F) = k0_pay45 := rfl
theorem out_pay_eq_132 : k0_pay132 (F := F) = k0_pay45 := rfl
theorem out_pay_eq_133 : k0_pay133 (F := F) = k0_pay45 := rfl
theorem out_pay_eq_134 : k0_pay134 (F := F) = k0_pay45 := rfl
theorem out_pay_eq_135 : k0_pay135 (F := F) = k0_pay45 := rfl
theorem out_pay_eq_136 : k0_pay136 (F := F) = k0_pay45 := rfl
theorem out_pay_eq_137 : k0_pay137 (F := F) = k0_pay45 := rfl
theorem out_pay_eq_138 : k0_pay138 (F := F) = k0_pay45 := rfl
theorem out_pay_eq_139 : k0_pay139 (F := F) = k0_pay45 := rfl
theorem out_pay_eq_140 : k0_pay140 (F := F) = k0_pay45 := rfl
theorem out_pay_eq_141 : k0_pay141 (F := F) = k0_pay45 := rfl
theorem out_pay_eq_142 : k0_pay142 (F := F) = k0_pay45 := rfl
theorem out_pay_eq_143 : k0_pay143 (F := F) = k0_pay45 := rfl
theorem out_pay_eq_144 : k0_pay144 (F := F) = k0_pay45 := rfl
theorem out_pay_eq_145 : k0_pay145 (F := F) = k0_pay45 := rfl
theorem out_pay_eq_146 : k0_pay146 (F := F) = k0_pay45 := rfl
theorem out_pay_eq_147 : k0_pay147 (F := F) = k0_pay45 := rfl
theorem out_pay_eq_148 : k0_pay148 (F := F) = k0_pay45 := rfl
theorem out_pay_eq_149 : k0_pay149 (F := F) = k0_pay45 := rfl
theorem out_pay_eq_150 : k0_pay150 (F := F) = k0_pay45 := rfl
theorem out_pay_eq_151 : k0_pay151 (F := F) = k0_pay45 := rfl
theorem out_pay_eq_152 : k0_pay152 (F := F) = k0_pay45 := rfl
theorem out_pay_eq_153 : k0_pay153 (F := F) = k0_pay45 := rfl
theorem out_pay_eq_154 : k0_pay154 (F := F) = k0_pay45 := rfl
theorem out_pay_eq_155 : k0_pay155 (F := F) = k0_pay45 := rfl
theorem out_pay_eq_156 : k0_pay156 (F := F) = k0_pay45 := rfl
theorem out_pay_eq_157 : k0_pay157 (F := F) = k0_pay45 := rfl
theorem out_pay_eq_158 : k0_pay158 (F := F) = k0_pay45 := rfl
theorem out_pay_eq_159 : k0_pay159 (F := F) = k0_pay45 := rfl
theorem out_pay_eq_160 : k0_pay160 (F := F) = k0_pay45 := rfl
theorem out_pay_eq_161 : k0_pay161 (F := F) = k0_pay45 := rfl
theorem out_pay_eq_162 : k0_pay162 (F := F) = k0_pay45 := rfl
theorem out_pay_eq_163 : k0_pay163 (F := F) = k0_pay45 := rfl
theorem out_pay_eq_164 : k0_pay164 (F := F) = k0_pay45 := rfl
theorem out_pay_eq_165 : k0_pay165 (F := F) = k0_pay45 := rfl
theorem out_pay_eq_166 : k0_pay166 (F := F) = k0_pay45 := rfl
theorem out_pay_eq_167 : k0_pay167 (F := F) = k0_pay45 := rfl
theorem out_pay_eq_168 : k0_pay168 (F := F) = k0_pay45 := rfl
theorem out_pay_eq_169 : k0_pay169 (F := F) = k0_pay45 := rfl
theorem out_pay_eq_170 : k0_pay170 (F := F) = k0_pay45 := rfl
theorem out_pay_eq_171 : k0_pay171 (F := F) = k0_pay45 := rfl
theorem out_pay_eq_172 : k0_pay172 (F := F) = k0_pay45 := rfl

/-- Dropping the leading unit axis: entry `(r, j)` of the tile is entry `(0, r, j)` of the block. -/
theorem out_pay45_apply (v : Vec F S1x8x32 .f32) (r : Fin 8) (j : Fin 32) :
    k0_pay45 v (ValueIdx.ix2 r j) = v (ValueIdx.ix3 (n0 := 1) ⟨0, Nat.one_pos⟩ r j) := by
  unfold k0_pay45
  refine (shapeCast_dropUnit_apply (n := 2) ![8, 32] _ _ _).trans ?_
  refine congrArg v (funext fun a => ?_)
  match a with
  | ⟨0, _⟩ => rfl
  | ⟨1, _⟩ => rfl
  | ⟨2, _⟩ => rfl

end Cert.Kernel.StageValue

end
-- ==== Proof.W.StageHw.lean ====
import proofs.«900436_g7700000000000437_dist_gemm_a2a_m1024_k1024_n1024_f32_relu_v7x_i32_1_alg».proof.Proof.W.StageValue
import proofs.«900436_g7700000000000437_dist_gemm_a2a_m1024_k1024_n1024_f32_relu_v7x_i32_1_alg».proof.Proof.W.OutValue

/-!
# The stored tiles are the staging scratch's final contents

Slot `d` of the staging scratch is stored once, with the tile the body computes from its loads of `x` and of column
group `d / 8` of `w`. Read at `(0, r, l)` that tile is `Y_c[8 (l / 32) + r, 32 d + l mod 32]`: the final contents of the
scratch at `(d, r, l)`.
-/

set_option maxRecDepth 16384

noncomputable section

namespace Cert.Kernel.Exchange

open Cert.Kernel Cert.Kernel.Gen Idealize.ShloMosaic Idealize.ShloMosaic.TcCoe Idealize.SL.Sem

variable {F : FTy → Type} [FloatOps F]
variable (m : (ℓ : Loc nD τ sig) → Buf (Elt F) ℓ)

theorem stage_hw_0 (c : Dev nD) (r : Fin 8) (l : Fin 128) :
    (k0_pay2 (xld m c) (wld m c 0)) (ValueIdx.ix3 (n0 := 1) (n1 := 8) (n2 := 128) ⟨0, Nat.one_pos⟩ r l) = Sfin m c (ValueIdx.ix3 (n0 := 32) 0 r l) := by
  rw [Sfin_apply]
  exact StageValue.stage_pay_0 (xld m c) (wld m c 0) r l
theorem stage_hw_1 (c : Dev nD) (r : Fin 8) (l : Fin 128) :
    (k0_pay3 (xld m c) (wld m c 0)) (ValueIdx.ix3 (n0 := 1) (n1 := 8) (n2 := 128) ⟨0, Nat.one_pos⟩ r l) = Sfin m c (ValueIdx.ix3 (n0 := 32) 1 r l) := by
  rw [Sfin_apply]
  exact StageValue.stage_pay_1 (xld m c) (wld m c 0) r l
theorem stage_hw_2 (c : Dev nD) (r : Fin 8) (l : Fin 128) :
    (k0_pay8 (k0_pay4 (xld m c) (wld m c 0)) (k0_pay5 (xld m c) (wld m c 0)) (k0_pay6 (xld m c) (wld m c 0)) (k0_pay7 (xld m c) (wld m c 0))) (ValueIdx.ix3 (n0 := 1) (n1 := 8) (n2 := 128) ⟨0, Nat.one_pos⟩ r l) = Sfin m c (ValueIdx.ix3 (n0 := 32) 2 r l) := by
  rw [Sfin_apply]
  exact StageValue.stage_pay_2 (xld m c) (wld m c 0) r l
theorem stage_hw_3 (c : Dev nD) (r : Fin 8) (l : Fin 128) :
    (k0_pay9 (k0_pay1 (xld m c) (wld m c 0))) (ValueIdx.ix3 (n0 := 1) (n1 := 8) (n2 := 128) ⟨0, Nat.one_pos⟩ r l) = Sfin m c (ValueIdx.ix3 (n0 := 32) 3 r l) := by
  rw [Sfin_apply]
  exact StageValue.stage_pay_3 (xld m c) (wld m c 0) r l
theorem stage_hw_4 (c : Dev nD) (r : Fin 8) (l : Fin 128) :
    (k0_pay10 (k0_pay1 (xld m c) (wld m c 0))) (ValueIdx.ix3 (n0 := 1) (n1 := 8) (n2 := 128) ⟨0, Nat.one_pos⟩ r l) = Sfin m c (ValueIdx.ix3 (n0 := 32) 4 r l) := by
  rw [Sfin_apply]
  exact StageValue.stage_pay_4 (xld m c) (wld m c 0) r l
theorem stage_hw_5 (c : Dev nD) (r : Fin 8) (l : Fin 128) :
    (k0_pay11 (k0_pay1 (xld m c) (wld m c 0))) (ValueIdx.ix3 (n0 := 1) (n1 := 8) (n2 := 128) ⟨0, Nat.one_pos⟩ r l) = Sfin m c (ValueIdx.ix3 (n0 := 32) 5 r l) := by
  rw [Sfin_apply]
  exact StageValue.stage_pay_5 (xld m c) (wld m c 0) r l
theorem stage_hw_6 (c : Dev nD) (r : Fin 8) (l : Fin 128) :
    (k0_pay12 (k0_pay1 (xld m c) (wld m c 0))) (ValueIdx.ix3 (n0 := 1) (n1 := 8) (n2 := 128) ⟨0, Nat.one_pos⟩ r l) = Sfin m c (ValueIdx.ix3 (n0 := 32) 6 r l) := by
  rw [Sfin_apply]
  exact StageValue.stage_pay_6 (xld m c) (wld m c 0) r l
theorem stage_hw_7 (c : Dev nD) (r : Fin 8) (l : Fin 128) :
    (k0_pay13 (k0_pay1 (xld m c) (wld m c 0))) (ValueIdx.ix3 (n0 := 1) (n1 := 8) (n2 := 128) ⟨0, Nat.one_pos⟩ r l) = Sfin m c (ValueIdx.ix3 (n0 := 32) 7 r l) := by
  rw [Sfin_apply]
  exact StageValue.stage_pay_7 (xld m c) (wld m c 0) r l
theorem stage_hw_8 (c : Dev nD) (r : Fin 8) (l : Fin 128) :
    (k0_pay15 (xld m c) (wld m c 1)) (ValueIdx.ix3 (n0 := 1) (n1 := 8) (n2 := 128) ⟨0, Nat.one_pos⟩ r l) = Sfin m c (ValueIdx.ix3 (n0 := 32) 8 r l) := by
  rw [Sfin_apply]
  exact StageValue.stage_pay_8 (xld m c) (wld m c 1) r l
theorem stage_hw_9 (c : Dev nD) (r : Fin 8) (l : Fin 128) :
    (k0_pay16 (xld m c) (wld m c 1)) (ValueIdx.ix3 (n0 := 1) (n1 := 8) (n2 := 128) ⟨0, Nat.one_pos⟩ r l) = Sfin m c (ValueIdx.ix3 (n0 := 32) 9 r l) := by
  rw [Sfin_apply]
  exact StageValue.stage_pay_9 (xld m c) (wld m c 1) r l
theorem stage_hw_10 (c : Dev nD) (r : Fin 8) (l : Fin 128) :
    (k0_pay17 (k0_pay14 (xld m c) (wld m c 1))) (ValueIdx.ix3 (n0 := 1) (n1 := 8) (n2 := 128) ⟨0, Nat.one_pos⟩ r l) = Sfin m c (ValueIdx.ix3 (n0 := 32) 10 r l) := by
  rw [Sfin_apply]
  exact StageValue.stage_pay_10 (xld m c) (wld m c 1) r l
theorem stage_hw_11 (c : Dev nD) (r : Fin 8) (l : Fin 128) :
    (k0_pay18 (k0_pay14 (xld m c) (wld m c 1))) (ValueIdx.ix3 (n0 := 1) (n1 := 8) (n2 := 128) ⟨0, Nat.one_pos⟩ r l) = Sfin m c (ValueIdx.ix3 (n0 := 32) 11 r l) := by
  rw [Sfin_apply]
  exact StageValue.stage_pay_11 (xld m c) (wld m c 1) r l
theorem stage_hw_12 (c : Dev nD) (r : Fin 8) (l : Fin 128) :
    (k0_pay19 (k0_pay14 (xld m c) (wld m c 1))) (ValueIdx.ix3 (n0 := 1) (n1 := 8) (n2 := 128) ⟨0, Nat.one_pos⟩ r l) = Sfin m c (ValueIdx.ix3 (n0 := 32) 12 r l) := by
  rw [Sfin_apply]
  exact StageValue.stage_pay_12 (xld m c) (wld m c 1) r l
theorem stage_hw_13 (c : Dev nD) (r : Fin 8) (l : Fin 128) :
    (k0_pay20 (k0_pay14 (xld m c) (wld m c 1))) (ValueIdx.ix3 (n0 := 1) (n1 := 8) (n2 := 128) ⟨0, Nat.one_pos⟩ r l) = Sfin m c (ValueIdx.ix3 (n0 := 32) 13 r l) := by
  rw [Sfin_apply]
  exact StageValue.stage_pay_13 (xld m c) (wld m c 1) r l
theorem stage_hw_14 (c : Dev nD) (r : Fin 8) (l : Fin 128) :
    (k0_pay22 (k0_pay21 (k0_pay14 (xld m c) (wld m c 1)))) (ValueIdx.ix3 (n0 := 1) (n1 := 8) (n2 := 128) ⟨0, Nat.one_pos⟩ r l) = Sfin m c (ValueIdx.ix3 (n0 := 32) 14 r l) := by
  rw [Sfin_apply]
  exact StageValue.stage_pay_14 (xld m c) (wld m c 1) r l
theorem stage_hw_15 (c : Dev nD) (r : Fin 8) (l : Fin 128) :
    (k0_pay23 (k0_pay14 (xld m c) (wld m c 1))) (ValueIdx.ix3 (n0 := 1) (n1 := 8) (n2 := 128) ⟨0, Nat.one_pos⟩ r l) = Sfin m c (ValueIdx.ix3 (n0 := 32) 15 r l) := by
  rw [Sfin_apply]
  exact StageValue.stage_pay_15 (xld m c) (wld m c 1) r l
theorem stage_hw_16 (c : Dev nD) (r : Fin 8) (l : Fin 128) :
    (k0_pay25 (xld m c) (wld m c 2)) (ValueIdx.ix3 (n0 := 1) (n1 := 8) (n2 := 128) ⟨0, Nat.one_pos⟩ r l) = Sfin m c (ValueIdx.ix3 (n0 := 32) 16 r l) := by
  rw [Sfin_apply]
  exact StageValue.stage_pay_16 (xld m c) (wld m c 2) r l
theorem stage_hw_17 (c : Dev nD) (r : Fin 8) (l : Fin 128) :
    (k0_pay26 (xld m c) (wld m c 2)) (ValueIdx.ix3 (n0 := 1) (n1 := 8) (n2 := 128) ⟨0, Nat.one_pos⟩ r l) = Sfin m c (ValueIdx.ix3 (n0 := 32) 17 r l) := by
  rw [Sfin_apply]
  exact StageValue.stage_pay_17 (xld m c) (wld m c 2) r l
theorem stage_hw_18 (c : Dev nD) (r : Fin 8) (l : Fin 128) :
    (k0_pay27 (k0_pay24 (xld m c) (wld m c 2))) (ValueIdx.ix3 (n0 := 1) (n1 := 8) (n2 := 128) ⟨0, Nat.one_pos⟩ r l) = Sfin m c (ValueIdx.ix3 (n0 := 32) 18 r l) := by
  rw [Sfin_apply]
  exact StageValue.stage_pay_18 (xld m c) (wld m c 2) r l
theorem stage_hw_19 (c : Dev nD) (r : Fin 8) (l : Fin 128) :
    (k0_pay28 (k0_pay24 (xld m c) (wld m c 2))) (ValueIdx.ix3 (n0 := 1) (n1 := 8) (n2 := 128) ⟨0, Nat.one_pos⟩ r l) = Sfin m c (ValueIdx.ix3 (n0 := 32) 19 r l) := by
  rw [Sfin_apply]
  exact StageValue.stage_pay_19 (xld m c) (wld m c 2) r l
theorem stage_hw_20 (c : Dev nD) (r : Fin 8) (l : Fin 128) :
    (k0_pay29 (k0_pay24 (xld m c) (wld m c 2))) (ValueIdx.ix3 (n0 := 1) (n1 := 8) (n2 := 128) ⟨0, Nat.one_pos⟩ r l) = Sfin m c (ValueIdx.ix3 (n0 := 32) 20 r l) := by
  rw [Sfin_apply]
  exact StageValue.stage_pay_20 (xld m c) (wld m c 2) r l
theorem stage_hw_21 (c : Dev nD) (r : Fin 8) (l : Fin 128) :
    (k0_pay30 (k0_pay24 (xld m c) (wld m c 2))) (ValueIdx.ix3 (n0 := 1) (n1 := 8) (n2 := 128) ⟨0, Nat.one_pos⟩ r l) = Sfin m c (ValueIdx.ix3 (n0 := 32) 21 r l) := by
  rw [Sfin_apply]
  exact StageValue.stage_pay_21 (xld m c) (wld m c 2) r l
theorem stage_hw_22 (c : Dev nD) (r : Fin 8) (l : Fin 128) :
    (k0_pay32 (k0_pay31 (k0_pay24 (xld m c) (wld m c 2)))) (ValueIdx.ix3 (n0 := 1) (n1 := 8) (n2 := 128) ⟨0, Nat.one_pos⟩ r l) = Sfin m c (ValueIdx.ix3 (n0 := 32) 22 r l) := by
  rw [Sfin_apply]
  exact StageValue.stage_pay_22 (xld m c) (wld m c 2) r l
theorem stage_hw_23 (c : Dev nD) (r : Fin 8) (l : Fin 128) :
    (k0_pay33 (k0_pay24 (xld m c) (wld m c 2))) (ValueIdx.ix3 (n0 := 1) (n1 := 8) (n2 := 128) ⟨0, Nat.one_pos⟩ r l) = Sfin m c (ValueIdx.ix3 (n0 := 32) 23 r l) := by
  rw [Sfin_apply]
  exact StageValue.stage_pay_23 (xld m c) (wld m c 2) r l
theorem stage_hw_24 (c : Dev nD) (r : Fin 8) (l : Fin 128) :
    (k0_pay35 (xld m c) (wld m c 3)) (ValueIdx.ix3 (n0 := 1) (n1 := 8) (n2 := 128) ⟨0, Nat.one_pos⟩ r l) = Sfin m c (ValueIdx.ix3 (n0 := 32) 24 r l) := by
  rw [Sfin_apply]
  exact StageValue.stage_pay_24 (xld m c) (wld m c 3) r l
theorem stage_hw_25 (c : Dev nD) (r : Fin 8) (l : Fin 128) :
    (k0_pay37 (k0_pay36 (xld m c) (wld m c 3))) (ValueIdx.ix3 (n0 := 1) (n1 := 8) (n2 := 128) ⟨0, Nat.one_pos⟩ r l) = Sfin m c (ValueIdx.ix3 (n0 := 32) 25 r l) := by
  rw [Sfin_apply]
  exact StageValue.stage_pay_25 (xld m c) (wld m c 3) r l
theorem stage_hw_26 (c : Dev nD) (r : Fin 8) (l : Fin 128) :
    (k0_pay38 (k0_pay34 (xld m c) (wld m c 3))) (ValueIdx.ix3 (n0 := 1) (n1 := 8) (n2 := 128) ⟨0, Nat.one_pos⟩ r l) = Sfin m c (ValueIdx.ix3 (n0 := 32) 26 r l) := by
  rw [Sfin_apply]
  exact StageValue.stage_pay_26 (xld m c) (wld m c 3) r l
theorem stage_hw_27 (c : Dev nD) (r : Fin 8) (l : Fin 128) :
    (k0_pay39 (k0_pay34 (xld m c) (wld m c 3))) (ValueIdx.ix3 (n0 := 1) (n1 := 8) (n2 := 128) ⟨0, Nat.one_pos⟩ r l) = Sfin m c (ValueIdx.ix3 (n0 := 32) 27 r l) := by
  rw [Sfin_apply]
  exact StageValue.stage_pay_27 (xld m c) (wld m c 3) r l
theorem stage_hw_28 (c : Dev nD) (r : Fin 8) (l : Fin 128) :
    (k0_pay40 (k0_pay34 (xld m c) (wld m c 3))) (ValueIdx.ix3 (n0 := 1) (n1 := 8) (n2 := 128) ⟨0, Nat.one_pos⟩ r l) = Sfin m c (ValueIdx.ix3 (n0 := 32) 28 r l) := by
  rw [Sfin_apply]
  exact StageValue.stage_pay_28 (xld m c) (wld m c 3) r l
theorem stage_hw_29 (c : Dev nD) (r : Fin 8) (l : Fin 128) :
    (k0_pay41 (k0_pay34 (xld m c) (wld m c 3))) (ValueIdx.ix3 (n0 := 1) (n1 := 8) (n2 := 128) ⟨0, Nat.one_pos⟩ r l) = Sfin m c (ValueIdx.ix3 (n0 := 32) 29 r l) := by
  rw [Sfin_apply]
  exact StageValue.stage_pay_29 (xld m c) (wld m c 3) r l
theorem stage_hw_30 (c : Dev nD) (r : Fin 8) (l : Fin 128) :
    (k0_pay43 (k0_pay42 (k0_pay34 (xld m c) (wld m c 3)))) (ValueIdx.ix3 (n0 := 1) (n1 := 8) (n2 := 128) ⟨0, Nat.one_pos⟩ r l) = Sfin m c (ValueIdx.ix3 (n0 := 32) 30 r l) := by
  rw [Sfin_apply]
  exact StageValue.stage_pay_30 (xld m c) (wld m c 3) r l
theorem stage_hw_31 (c : Dev nD) (r : Fin 8) (l : Fin 128) :
    (k0_pay44 (k0_pay34 (xld m c) (wld m c 3))) (ValueIdx.ix3 (n0 := 1) (n1 := 8) (n2 := 128) ⟨0, Nat.one_pos⟩ r l) = Sfin m c (ValueIdx.ix3 (n0 := 32) 31 r l) := by
  rw [Sfin_apply]
  exact StageValue.stage_pay_31 (xld m c) (wld m c 3) r l

end Cert.Kernel.Exchange

end
-- ==== Proof.W.OutFinal.lean ====
import proofs.«900436_g7700000000000437_dist_gemm_a2a_m1024_k1024_n1024_f32_relu_v7x_i32_1_alg».proof.Proof.W.StageValue
import proofs.«900436_g7700000000000437_dist_gemm_a2a_m1024_k1024_n1024_f32_relu_v7x_i32_1_alg».proof.Proof.W.OutValue
import Idealize.ShloMosaic.Lib.Pipeline.Value
import Idealize.ShloMosaic.Lib.Pipeline.FrameBody
import Idealize.ShloMosaic.Lib.Writes

/-!
# The result tile after its 128 stores

Once the 32 slots of the receive scratch `R` have landed, the body fills the 1024 × 32 result tile by 128 stores: for
`s = 0 … 31` and `q = 0 … 3`, rows `32 s + 8 q … 32 s + 8 q + 7` take the 8 × 32 block of slot `s` of `R` at lanes
`32 q … 32 q + 31`, its leading unit axis dropped. The 128 row bands are disjoint and cover the tile, and entry `(r, j)` of
the band of `(s, q)` is `R (s, r, 32 q + j)`: what the closed form of the tile has at row `32 s + 8 q + r`, column `j`.
So the tile after the stores is that closed form, whatever it held before.
-/

set_option maxRecDepth 16384

noncomputable section

namespace Cert.Kernel.Exchange

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- The 128 stores into the result tile as pieces, the last store first: the band of rows `32 s + 8 q …` with the block of
    slot `s`, lanes `32 q …`, of the receive scratch `R`. -/
def outPieces (c : Dev nD) (R : Buf (Elt F) (rcvM.view.loc (c : Thread nD τ))) : List (View.Piece (Elt F) S1024x32 .f32) :=
   ⟨Rect.unit (s := S1024x32) ![1016, 0] S8x32.size inb_S1024x32_S8x32_1016_0, k0_pay172 (rcvM.view.readAt (Elt F) (Rect.unit (s := S32x8x128) ![31, 0, 96] S1x8x32.size inb_S32x8x128_S1x8x32_31_0_96).toLoadRect R)⟩ ::
   ⟨Rect.unit (s := S1024x32) ![1008, 0] S8x32.size inb_S1024x32_S8x32_1008_0, k0_pay171 (rcvM.view.readAt (Elt F) (Rect.unit (s := S32x8x128) ![31, 0, 64] S1x8x32.size inb_S32x8x128_S1x8x32_31_0_64).toLoadRect R)⟩ ::
   ⟨Rect.unit (s := S1024x32) ![1000, 0] S8x32.size inb_S1024x32_S8x32_1000_0, k0_pay170 (rcvM.view.readAt (Elt F) (Rect.unit (s := S32x8x128) ![31, 0, 32] S1x8x32.size inb_S32x8x128_S1x8x32_31_0_32).toLoadRect R)⟩ ::
   ⟨Rect.unit (s := S1024x32) ![992, 0] S8x32.size inb_S1024x32_S8x32_992_0, k0_pay169 (rcvM.view.readAt (Elt F) (Rect.unit (s := S32x8x128) ![31, 0, 0] S1x8x32.size inb_S32x8x128_S1x8x32_31_0_0).toLoadRect R)⟩ ::
   ⟨Rect.unit (s := S1024x32) ![984, 0] S8x32.size inb_S1024x32_S8x32_984_0, k0_pay168 (rcvM.view.readAt (Elt F) (Rect.unit (s := S32x8x128) ![30, 0, 96] S1x8x32.size inb_S32x8x128_S1x8x32_30_0_96).toLoadRect R)⟩ ::
   ⟨Rect.unit (s := S1024x32) ![976, 0] S8x32.size inb_S1024x32_S8x32_976_0, k0_pay167 (rcvM.view.readAt (Elt F) (Rect.unit (s := S32x8x128) ![30, 0, 64] S1x8x32.size inb_S32x8x128_S1x8x32_30_0_64).toLoadRect R)⟩ ::
   ⟨Rect.unit (s := S1024x32) ![968, 0] S8x32.size inb_S1024x32_S8x32_968_0, k0_pay166 (rcvM.view.readAt (Elt F) (Rect.unit (s := S32x8x128) ![30, 0, 32] S1x8x32.size inb_S32x8x128_S1x8x32_30_0_32).toLoadRect R)⟩ ::
   ⟨Rect.unit (s := S1024x32) ![960, 0] S8x32.size inb_S1024x32_S8x32_960_0, k0_pay165 (rcvM.view.readAt (Elt F) (Rect.unit (s := S32x8x128) ![30, 0, 0] S1x8x32.size inb_S32x8x128_S1x8x32_30_0_0).toLoadRect R)⟩ ::
   ⟨Rect.unit (s := S1024x32) ![952, 0] S8x32.size inb_S1024x32_S8x32_952_0, k0_pay164 (rcvM.view.readAt (Elt F) (Rect.unit (s := S32x8x128) ![29, 0, 96] S1x8x32.size inb_S32x8x128_S1x8x32_29_0_96).toLoadRect R)⟩ ::
   ⟨Rect.unit (s := S1024x32) ![944, 0] S8x32.size inb_S1024x32_S8x32_944_0, k0_pay163 (rcvM.view.readAt (Elt F) (Rect.unit (s := S32x8x128) ![29, 0, 64] S1x8x32.size inb_S32x8x128_S1x8x32_29_0_64).toLoadRect R)⟩ ::
   ⟨Rect.unit (s := S1024x32) ![936, 0] S8x32.size inb_S1024x32_S8x32_936_0, k0_pay162 (rcvM.view.readAt (Elt F) (Rect.unit (s := S32x8x128) ![29, 0, 32] S1x8x32.size inb_S32x8x128_S1x8x32_29_0_32).toLoadRect R)⟩ ::
   ⟨Rect.unit (s := S1024x32) ![928, 0] S8x32.size inb_S1024x32_S8x32_928_0, k0_pay161 (rcvM.view.readAt (Elt F) (Rect.unit (s := S32x8x128) ![29, 0, 0] S1x8x32.size inb_S32x8x128_S1x8x32_29_0_0).toLoadRect R)⟩ ::
   ⟨Rect.unit (s := S1024x32) ![920, 0] S8x32.size inb_S1024x32_S8x32_920_0, k0_pay160 (rcvM.view.readAt (Elt F) (Rect.unit (s := S32x8x128) ![28, 0, 96] S1x8x32.size inb_S32x8x128_S1x8x32_28_0_96).toLoadRect R)⟩ ::
   ⟨Rect.unit (s := S1024x32) ![912, 0] S8x32.size inb_S1024x32_S8x32_912_0, k0_pay159 (rcvM.view.readAt (Elt F) (Rect.unit (s := S32x8x128) ![28, 0, 64] S1x8x32.size inb_S32x8x128_S1x8x32_28_0_64).toLoadRect R)⟩ ::
   ⟨Rect.unit (s := S1024x32) ![904, 0] S8x32.size inb_S1024x32_S8x32_904_0, k0_pay158 (rcvM.view.readAt (Elt F) (Rect.unit (s := S32x8x128) ![28, 0, 32] S1x8x32.size inb_S32x8x128_S1x8x32_28_0_32).toLoadRect R)⟩ ::
   ⟨Rect.unit (s := S1024x32) ![896, 0] S8x32.size inb_S1024x32_S8x32_896_0, k0_pay157 (rcvM.view.readAt (Elt F) (Rect.unit (s := S32x8x128) ![28, 0, 0] S1x8x32.size inb_S32x8x128_S1x8x32_28_0_0).toLoadRect R)⟩ ::
   ⟨Rect.unit (s := S1024x32) ![888, 0] S8x32.size inb_S1024x32_S8x32_888_0, k0_pay156 (rcvM.view.readAt (Elt F) (Rect.unit (s := S32x8x128) ![27, 0, 96] S1x8x32.size inb_S32x8x128_S1x8x32_27_0_96).toLoadRect R)⟩ ::
   ⟨Rect.unit (s := S1024x32) ![880, 0] S8x32.size inb_S1024x32_S8x32_880_0, k0_pay155 (rcvM.view.readAt (Elt F) (Rect.unit (s := S32x8x128) ![27, 0, 64] S1x8x32.size inb_S32x8x128_S1x8x32_27_0_64).toLoadRect R)⟩ ::
   ⟨Rect.unit (s := S1024x32) ![872, 0] S8x32.size inb_S1024x32_S8x32_872_0, k0_pay154 (rcvM.view.readAt (Elt F) (Rect.unit (s := S32x8x128) ![27, 0, 32] S1x8x32.size inb_S32x8x128_S1x8x32_27_0_32).toLoadRect R)⟩ ::
   ⟨Rect.unit (s := S1024x32) ![864, 0] S8x32.size inb_S1024x32_S8x32_864_0, k0_pay153 (rcvM.view.readAt (Elt F) (Rect.unit (s := S32x8x128) ![27, 0, 0] S1x8x32.size inb_S32x8x128_S1x8x32_27_0_0).toLoadRect R)⟩ ::
   ⟨Rect.unit (s := S1024x32) ![856, 0] S8x32.size inb_S1024x32_S8x32_856_0, k0_pay152 (rcvM.view.readAt (Elt F) (Rect.unit (s := S32x8x128) ![26, 0, 96] S1x8x32.size inb_S32x8x128_S1x8x32_26_0_96).toLoadRect R)⟩ ::
   ⟨Rect.unit (s := S1024x32) ![848, 0] S8x32.size inb_S1024x32_S8x32_848_0, k0_pay151 (rcvM.view.readAt (Elt F) (Rect.unit (s := S32x8x128) ![26, 0, 64] S1x8x32.size inb_S32x8x128_S1x8x32_26_0_64).toLoadRect R)⟩ ::
   ⟨Rect.unit (s := S1024x32) ![840, 0] S8x32.size inb_S1024x32_S8x32_840_0, k0_pay150 (rcvM.view.readAt (Elt F) (Rect.unit (s := S32x8x128) ![26, 0, 32] S1x8x32.size inb_S32x8x128_S1x8x32_26_0_32).toLoadRect R)⟩ ::
   ⟨Rect.unit (s := S1024x32) ![832, 0] S8x32.size inb_S1024x32_S8x32_832_0, k0_pay149 (rcvM.view.readAt (Elt F) (Rect.unit (s := S32x8x128) ![26, 0, 0] S1x8x32.size inb_S32x8x128_S1x8x32_26_0_0).toLoadRect R)⟩ ::
   ⟨Rect.unit (s := S1024x32) ![824, 0] S8x32.size inb_S1024x32_S8x32_824_0, k0_pay148 (rcvM.view.readAt (Elt F) (Rect.unit (s := S32x8x128) ![25, 0, 96] S1x8x32.size inb_S32x8x128_S1x8x32_25_0_96).toLoadRect R)⟩ ::
   ⟨Rect.unit (s := S1024x32) ![816, 0] S8x32.size inb_S1024x32_S8x32_816_0, k0_pay147 (rcvM.view.readAt (Elt F) (Rect.unit (s := S32x8x128) ![25, 0, 64] S1x8x32.size inb_S32x8x128_S1x8x32_25_0_64).toLoadRect R)⟩ ::
   ⟨Rect.unit (s := S1024x32) ![808, 0] S8x32.size inb_S1024x32_S8x32_808_0, k0_pay146 (rcvM.view.readAt (Elt F) (Rect.unit (s := S32x8x128) ![25, 0, 32] S1x8x32.size inb_S32x8x128_S1x8x32_25_0_32).toLoadRect R)⟩ ::
   ⟨Rect.unit (s := S1024x32) ![800, 0] S8x32.size inb_S1024x32_S8x32_800_0, k0_pay145 (rcvM.view.readAt (Elt F) (Rect.unit (s := S32x8x128) ![25, 0, 0] S1x8x32.size inb_S32x8x128_S1x8x32_25_0_0).toLoadRect R)⟩ ::
   ⟨Rect.unit (s := S1024x32) ![792, 0] S8x32.size inb_S1024x32_S8x32_792_0, k0_pay144 (rcvM.view.readAt (Elt F) (Rect.unit (s := S32x8x128) ![24, 0, 96] S1x8x32.size inb_S32x8x128_S1x8x32_24_0_96).toLoadRect R)⟩ ::
   ⟨Rect.unit (s := S1024x32) ![784, 0] S8x32.size inb_S1024x32_S8x32_784_0, k0_pay143 (rcvM.view.readAt (Elt F) (Rect.unit (s := S32x8x128) ![24, 0, 64] S1x8x32.size inb_S32x8x128_S1x8x32_24_0_64).toLoadRect R)⟩ ::
   ⟨Rect.unit (s := S1024x32) ![776, 0] S8x32.size inb_S1024x32_S8x32_776_0, k0_pay142 (rcvM.view.readAt (Elt F) (Rect.unit (s := S32x8x128) ![24, 0, 32] S1x8x32.size inb_S32x8x128_S1x8x32_24_0_32).toLoadRect R)⟩ ::
   ⟨Rect.unit (s := S1024x32) ![768, 0] S8x32.size inb_S1024x32_S8x32_768_0, k0_pay141 (rcvM.view.readAt (Elt F) (Rect.unit (s := S32x8x128) ![24, 0, 0] S1x8x32.size inb_S32x8x128_S1x8x32_24_0_0).toLoadRect R)⟩ ::
   ⟨Rect.unit (s := S1024x32) ![760, 0] S8x32.size inb_S1024x32_S8x32_760_0, k0_pay140 (rcvM.view.readAt (Elt F) (Rect.unit (s := S32x8x128) ![23, 0, 96] S1x8x32.size inb_S32x8x128_S1x8x32_23_0_96).toLoadRect R)⟩ ::
   ⟨Rect.unit (s := S1024x32) ![752, 0] S8x32.size inb_S1024x32_S8x32_752_0, k0_pay139 (rcvM.view.readAt (Elt F) (Rect.unit (s := S32x8x128) ![23, 0, 64] S1x8x32.size inb_S32x8x128_S1x8x32_23_0_64).toLoadRect R)⟩ ::
   ⟨Rect.unit (s := S1024x32) ![744, 0] S8x32.size inb_S1024x32_S8x32_744_0, k0_pay138 (rcvM.view.readAt (Elt F) (Rect.unit (s := S32x8x128) ![23, 0, 32] S1x8x32.size inb_S32x8x128_S1x8x32_23_0_32).toLoadRect R)⟩ ::
   ⟨Rect.unit (s := S1024x32) ![736, 0] S8x32.size inb_S1024x32_S8x32_736_0, k0_pay137 (rcvM.view.readAt (Elt F) (Rect.unit (s := S32x8x128) ![23, 0, 0] S1x8x32.size inb_S32x8x128_S1x8x32_23_0_0).toLoadRect R)⟩ ::
   ⟨Rect.unit (s := S1024x32) ![728, 0] S8x32.size inb_S1024x32_S8x32_728_0, k0_pay136 (rcvM.view.readAt (Elt F) (Rect.unit (s := S32x8x128) ![22, 0, 96] S1x8x32.size inb_S32x8x128_S1x8x32_22_0_96).toLoadRect R)⟩ ::
   ⟨Rect.unit (s := S1024x32) ![720, 0] S8x32.size inb_S1024x32_S8x32_720_0, k0_pay135 (rcvM.view.readAt (Elt F) (Rect.unit (s := S32x8x128) ![22, 0, 64] S1x8x32.size inb_S32x8x128_S1x8x32_22_0_64).toLoadRect R)⟩ ::
   ⟨Rect.unit (s := S1024x32) ![712, 0] S8x32.size inb_S1024x32_S8x32_712_0, k0_pay134 (rcvM.view.readAt (Elt F) (Rect.unit (s := S32x8x128) ![22, 0, 32] S1x8x32.size inb_S32x8x128_S1x8x32_22_0_32).toLoadRect R)⟩ ::
   ⟨Rect.unit (s := S1024x32) ![704, 0] S8x32.size inb_S1024x32_S8x32_704_0, k0_pay133 (rcvM.view.readAt (Elt F) (Rect.unit (s := S32x8x128) ![22, 0, 0] S1x8x32.size inb_S32x8x128_S1x8x32_22_0_0).toLoadRect R)⟩ ::
   ⟨Rect.unit (s := S1024x32) ![696, 0] S8x32.size inb_S1024x32_S8x32_696_0, k0_pay132 (rcvM.view.readAt (Elt F) (Rect.unit (s := S32x8x128) ![21, 0, 96] S1x8x32.size inb_S32x8x128_S1x8x32_21_0_96).toLoadRect R)⟩ ::
   ⟨Rect.unit (s := S1024x32) ![688, 0] S8x32.size inb_S1024x32_S8x32_688_0, k0_pay131 (rcvM.view.readAt (Elt F) (Rect.unit (s := S32x8x128) ![21, 0, 64] S1x8x32.size inb_S32x8x128_S1x8x32_21_0_64).toLoadRect R)⟩ ::
   ⟨Rect.unit (s := S1024x32) ![680, 0] S8x32.size inb_S1024x32_S8x32_680_0, k0_pay130 (rcvM.view.readAt (Elt F) (Rect.unit (s := S32x8x128) ![21, 0, 32] S1x8x32.size inb_S32x8x128_S1x8x32_21_0_32).toLoadRect R)⟩ ::
   ⟨Rect.unit (s := S1024x32) ![672, 0] S8x32.size inb_S1024x32_S8x32_672_0, k0_pay129 (rcvM.view.readAt (Elt F) (Rect.unit (s := S32x8x128) ![21, 0, 0] S1x8x32.size inb_S32x8x128_S1x8x32_21_0_0).toLoadRect R)⟩ ::
   ⟨Rect.unit (s := S1024x32) ![664, 0] S8x32.size inb_S1024x32_S8x32_664_0, k0_pay128 (rcvM.view.readAt (Elt F) (Rect.unit (s := S32x8x128) ![20, 0, 96] S1x8x32.size inb_S32x8x128_S1x8x32_20_0_96).toLoadRect R)⟩ ::
   ⟨Rect.unit (s := S1024x32) ![656, 0] S8x32.size inb_S1024x32_S8x32_656_0, k0_pay127 (rcvM.view.readAt (Elt F) (Rect.unit (s := S32x8x128) ![20, 0, 64] S1x8x32.size inb_S32x8x128_S1x8x32_20_0_64).toLoadRect R)⟩ ::
   ⟨Rect.unit (s := S1024x32) ![648, 0] S8x32.size inb_S1024x32_S8x32_648_0, k0_pay126 (rcvM.view.readAt (Elt F) (Rect.unit (s := S32x8x128) ![20, 0, 32] S1x8x32.size inb_S32x8x128_S1x8x32_20_0_32).toLoadRect R)⟩ ::
   ⟨Rect.unit (s := S1024x32) ![640, 0] S8x32.size inb_S1024x32_S8x32_640_0, k0_pay125 (rcvM.view.readAt (Elt F) (Rect.unit (s := S32x8x128) ![20, 0, 0] S1x8x32.size inb_S32x8x128_S1x8x32_20_0_0).toLoadRect R)⟩ ::
   ⟨Rect.unit (s := S1024x32) ![632, 0] S8x32.size inb_S1024x32_S8x32_632_0, k0_pay124 (rcvM.view.readAt (Elt F) (Rect.unit (s := S32x8x128) ![19, 0, 96] S1x8x32.size inb_S32x8x128_S1x8x32_19_0_96).toLoadRect R)⟩ ::
   ⟨Rect.unit (s := S1024x32) ![624, 0] S8x32.size inb_S1024x32_S8x32_624_0, k0_pay123 (rcvM.view.readAt (Elt F) (Rect.unit (s := S32x8x128) ![19, 0, 64] S1x8x32.size inb_S32x8x128_S1x8x32_19_0_64).toLoadRect R)⟩ ::
   ⟨Rect.unit (s := S1024x32) ![616, 0] S8x32.size inb_S1024x32_S8x32_616_0, k0_pay122 (rcvM.view.readAt (Elt F) (Rect.unit (s := S32x8x128) ![19, 0, 32] S1x8x32.size inb_S32x8x128_S1x8x32_19_0_32).toLoadRect R)⟩ ::
   ⟨Rect.unit (s := S1024x32) ![608, 0] S8x32.size inb_S1024x32_S8x32_608_0, k0_pay121 (rcvM.view.readAt (Elt F) (Rect.unit (s := S32x8x128) ![19, 0, 0] S1x8x32.size inb_S32x8x128_S1x8x32_19_0_0).toLoadRect R)⟩ ::
   ⟨Rect.unit (s := S1024x32) ![600, 0] S8x32.size inb_S1024x32_S8x32_600_0, k0_pay120 (rcvM.view.readAt (Elt F) (Rect.unit (s := S32x8x128) ![18, 0, 96] S1x8x32.size inb_S32x8x128_S1x8x32_18_0_96).toLoadRect R)⟩ ::
   ⟨Rect.unit (s := S1024x32) ![592, 0] S8x32.size inb_S1024x32_S8x32_592_0, k0_pay119 (rcvM.view.readAt (Elt F) (Rect.unit (s := S32x8x128) ![18, 0, 64] S1x8x32.size inb_S32x8x128_S1x8x32_18_0_64).toLoadRect R)⟩ ::
   ⟨Rect.unit (s := S1024x32) ![584, 0] S8x32.size inb_S1024x32_S8x32_584_0, k0_pay118 (rcvM.view.readAt (Elt F) (Rect.unit (s := S32x8x128) ![18, 0, 32] S1x8x32.size inb_S32x8x128_S1x8x32_18_0_32).toLoadRect R)⟩ ::
   ⟨Rect.unit (s := S1024x32) ![576, 0] S8x32.size inb_S1024x32_S8x32_576_0, k0_pay117 (rcvM.view.readAt (Elt F) (Rect.unit (s := S32x8x128) ![18, 0, 0] S1x8x32.size inb_S32x8x128_S1x8x32_18_0_0).toLoadRect R)⟩ ::
   ⟨Rect.unit (s := S1024x32) ![568, 0] S8x32.size inb_S1024x32_S8x32_568_0, k0_pay116 (rcvM.view.readAt (Elt F) (Rect.unit (s := S32x8x128) ![17, 0, 96] S1x8x32.size inb_S32x8x128_S1x8x32_17_0_96).toLoadRect R)⟩ ::
   ⟨Rect.unit (s := S1024x32) ![560, 0] S8x32.size inb_S1024x32_S8x32_560_0, k0_pay115 (rcvM.view.readAt (Elt F) (Rect.unit (s := S32x8x128) ![17, 0, 64] S1x8x32.size inb_S32x8x128_S1x8x32_17_0_64).toLoadRect R)⟩ ::
   ⟨Rect.unit (s := S1024x32) ![552, 0] S8x32.size inb_S1024x32_S8x32_552_0, k0_pay114 (rcvM.view.readAt (Elt F) (Rect.unit (s := S32x8x128) ![17, 0, 32] S1x8x32.size inb_S32x8x128_S1x8x32_17_0_32).toLoadRect R)⟩ ::
   ⟨Rect.unit (s := S1024x32) ![544, 0] S8x32.size inb_S1024x32_S8x32_544_0, k0_pay113 (rcvM.view.readAt (Elt F) (Rect.unit (s := S32x8x128) ![17, 0, 0] S1x8x32.size inb_S32x8x128_S1x8x32_17_0_0).toLoadRect R)⟩ ::
   ⟨Rect.unit (s := S1024x32) ![536, 0] S8x32.size inb_S1024x32_S8x32_536_0, k0_pay112 (rcvM.view.readAt (Elt F) (Rect.unit (s := S32x8x128) ![16, 0, 96] S1x8x32.size inb_S32x8x128_S1x8x32_16_0_96).toLoadRect R)⟩ ::
   ⟨Rect.unit (s := S1024x32) ![528, 0] S8x32.size inb_S1024x32_S8x32_528_0, k0_pay111 (rcvM.view.readAt (Elt F) (Rect.unit (s := S32x8x128) ![16, 0, 64] S1x8x32.size inb_S32x8x128_S1x8x32_16_0_64).toLoadRect R)⟩ ::
   ⟨Rect.unit (s := S1024x32) ![520, 0] S8x32.size inb_S1024x32_S8x32_520_0, k0_pay110 (rcvM.view.readAt (Elt F) (Rect.unit (s := S32x8x128) ![16, 0, 32] S1x8x32.size inb_S32x8x128_S1x8x32_16_0_32).toLoadRect R)⟩ ::
   ⟨Rect.unit (s := S1024x32) ![512, 0] S8x32.size inb_S1024x32_S8x32_512_0, k0_pay109 (rcvM.view.readAt (Elt F) (Rect.unit (s := S32x8x128) ![16, 0, 0] S1x8x32.size inb_S32x8x128_S1x8x32_16_0_0).toLoadRect R)⟩ ::
   ⟨Rect.unit (s := S1024x32) ![504, 0] S8x32.size inb_S1024x32_S8x32_504_0, k0_pay108 (rcvM.view.readAt (Elt F) (Rect.unit (s := S32x8x128) ![15, 0, 96] S1x8x32.size inb_S32x8x128_S1x8x32_15_0_96).toLoadRect R)⟩ ::
   ⟨Rect.unit (s := S1024x32) ![496, 0] S8x32.size inb_S1024x32_S8x32_496_0, k0_pay107 (rcvM.view.readAt (Elt F) (Rect.unit (s := S32x8x128) ![15, 0, 64] S1x8x32.size inb_S32x8x128_S1x8x32_15_0_64).toLoadRect R)⟩ ::
   ⟨Rect.unit (s := S1024x32) ![488, 0] S8x32.size inb_S1024x32_S8x32_488_0, k0_pay106 (rcvM.view.readAt (Elt F) (Rect.unit (s := S32x8x128) ![15, 0, 32] S1x8x32.size inb_S32x8x128_S1x8x32_15_0_32).toLoadRect R)⟩ ::
   ⟨Rect.unit (s := S1024x32) ![480, 0] S8x32.size inb_S1024x32_S8x32_480_0, k0_pay105 (rcvM.view.readAt (Elt F) (Rect.unit (s := S32x8x128) ![15, 0, 0] S1x8x32.size inb_S32x8x128_S1x8x32_15_0_0).toLoadRect R)⟩ ::
   ⟨Rect.unit (s := S1024x32) ![472, 0] S8x32.size inb_S1024x32_S8x32_472_0, k0_pay104 (rcvM.view.readAt (Elt F) (Rect.unit (s := S32x8x128) ![14, 0, 96] S1x8x32.size inb_S32x8x128_S1x8x32_14_0_96).toLoadRect R)⟩ ::
   ⟨Rect.unit (s := S1024x32) ![464, 0] S8x32.size inb_S1024x32_S8x32_464_0, k0_pay103 (rcvM.view.readAt (Elt F) (Rect.unit (s := S32x8x128) ![14, 0, 64] S1x8x32.size inb_S32x8x128_S1x8x32_14_0_64).toLoadRect R)⟩ ::
   ⟨Rect.unit (s := S1024x32) ![456, 0] S8x32.size inb_S1024x32_S8x32_456_0, k0_pay102 (rcvM.view.readAt (Elt F) (Rect.unit (s := S32x8x128) ![14, 0, 32] S1x8x32.size inb_S32x8x128_S1x8x32_14_0_32).toLoadRect R)⟩ ::
   ⟨Rect.unit (s := S1024x32) ![448, 0] S8x32.size inb_S1024x32_S8x32_448_0, k0_pay101 (rcvM.view.readAt (Elt F) (Rect.unit (s := S32x8x128) ![14, 0, 0] S1x8x32.size inb_S32x8x128_S1x8x32_14_0_0).toLoadRect R)⟩ ::
   ⟨Rect.unit (s := S1024x32) ![440, 0] S8x32.size inb_S1024x32_S8x32_440_0, k0_pay100 (rcvM.view.readAt (Elt F) (Rect.unit (s := S32x8x128) ![13, 0, 96] S1x8x32.size inb_S32x8x128_S1x8x32_13_0_96).toLoadRect R)⟩ ::
   ⟨Rect.unit (s := S1024x32) ![432, 0] S8x32.size inb_S1024x32_S8x32_432_0, k0_pay99 (rcvM.view.readAt (Elt F) (Rect.unit (s := S32x8x128) ![13, 0, 64] S1x8x32.size inb_S32x8x128_S1x8x32_13_0_64).toLoadRect R)⟩ ::
   ⟨Rect.unit (s := S1024x32) ![424, 0] S8x32.size inb_S1024x32_S8x32_424_0, k0_pay98 (rcvM.view.readAt (Elt F) (Rect.unit (s := S32x8x128) ![13, 0, 32] S1x8x32.size inb_S32x8x128_S1x8x32_13_0_32).toLoadRect R)⟩ ::
   ⟨Rect.unit (s := S1024x32) ![416, 0] S8x32.size inb_S1024x32_S8x32_416_0, k0_pay97 (rcvM.view.readAt (Elt F) (Rect.unit (s := S32x8x128) ![13, 0, 0] S1x8x32.size inb_S32x8x128_S1x8x32_13_0_0).toLoadRect R)⟩ ::
   ⟨Rect.unit (s := S1024x32) ![408, 0] S8x32.size inb_S1024x32_S8x32_408_0, k0_pay96 (rcvM.view.readAt (Elt F) (Rect.unit (s := S32x8x128) ![12, 0, 96] S1x8x32.size inb_S32x8x128_S1x8x32_12_0_96).toLoadRect R)⟩ ::
   ⟨Rect.unit (s := S1024x32) ![400, 0] S8x32.size inb_S1024x32_S8x32_400_0, k0_pay95 (rcvM.view.readAt (Elt F) (Rect.unit (s := S32x8x128) ![12, 0, 64] S1x8x32.size inb_S32x8x128_S1x8x32_12_0_64).toLoadRect R)⟩ ::
   ⟨Rect.unit (s := S1024x32) ![392, 0] S8x32.size inb_S1024x32_S8x32_392_0, k0_pay94 (rcvM.view.readAt (Elt F) (Rect.unit (s := S32x8x128) ![12, 0, 32] S1x8x32.size inb_S32x8x128_S1x8x32_12_0_32).toLoadRect R)⟩ ::
   ⟨Rect.unit (s := S1024x32) ![384, 0] S8x32.size inb_S1024x32_S8x32_384_0, k0_pay93 (rcvM.view.readAt (Elt F) (Rect.unit (s := S32x8x128) ![12, 0, 0] S1x8x32.size inb_S32x8x128_S1x8x32_12_0_0).toLoadRect R)⟩ ::
   ⟨Rect.unit (s := S1024x32) ![376, 0] S8x32.size inb_S1024x32_S8x32_376_0, k0_pay92 (rcvM.view.readAt (Elt F) (Rect.unit (s := S32x8x128) ![11, 0, 96] S1x8x32.size inb_S32x8x128_S1x8x32_11_0_96).toLoadRect R)⟩ ::
   ⟨Rect.unit (s := S1024x32) ![368, 0] S8x32.size inb_S1024x32_S8x32_368_0, k0_pay91 (rcvM.view.readAt (Elt F) (Rect.unit (s := S32x8x128) ![11, 0, 64] S1x8x32.size inb_S32x8x128_S1x8x32_11_0_64).toLoadRect R)⟩ ::
   ⟨Rect.unit (s := S1024x32) ![360, 0] S8x32.size inb_S1024x32_S8x32_360_0, k0_pay90 (rcvM.view.readAt (Elt F) (Rect.unit (s := S32x8x128) ![11, 0, 32] S1x8x32.size inb_S32x8x128_S1x8x32_11_0_32).toLoadRect R)⟩ ::
   ⟨Rect.unit (s := S1024x32) ![352, 0] S8x32.size inb_S1024x32_S8x32_352_0, k0_pay89 (rcvM.view.readAt (Elt F) (Rect.unit (s := S32x8x128) ![11, 0, 0] S1x8x32.size inb_S32x8x128_S1x8x32_11_0_0).toLoadRect R)⟩ ::
   ⟨Rect.unit (s := S1024x32) ![344, 0] S8x32.size inb_S1024x32_S8x32_344_0, k0_pay88 (rcvM.view.readAt (Elt F) (Rect.unit (s := S32x8x128) ![10, 0, 96] S1x8x32.size inb_S32x8x128_S1x8x32_10_0_96).toLoadRect R)⟩ ::
   ⟨Rect.unit (s := S1024x32) ![336, 0] S8x32.size inb_S1024x32_S8x32_336_0, k0_pay87 (rcvM.view.readAt (Elt F) (Rect.unit (s := S32x8x128) ![10, 0, 64] S1x8x32.size inb_S32x8x128_S1x8x32_10_0_64).toLoadRect R)⟩ ::
   ⟨Rect.unit (s := S1024x32) ![328, 0] S8x32.size inb_S1024x32_S8x32_328_0, k0_pay86 (rcvM.view.readAt (Elt F) (Rect.unit (s := S32x8x128) ![10, 0, 32] S1x8x32.size inb_S32x8x128_S1x8x32_10_0_32).toLoadRect R)⟩ ::
   ⟨Rect.unit (s := S1024x32) ![320, 0] S8x32.size inb_S1024x32_S8x32_320_0, k0_pay85 (rcvM.view.readAt (Elt F) (Rect.unit (s := S32x8x128) ![10, 0, 0] S1x8x32.size inb_S32x8x128_S1x8x32_10_0_0).toLoadRect R)⟩ ::
   ⟨Rect.unit (s := S1024x32) ![312, 0] S8x32.size inb_S1024x32_S8x32_312_0, k0_pay84 (rcvM.view.readAt (Elt F) (Rect.unit (s := S32x8x128) ![9, 0, 96] S1x8x32.size inb_S32x8x128_S1x8x32_9_0_96).toLoadRect R)⟩ ::
   ⟨Rect.unit (s := S1024x32) ![304, 0] S8x32.size inb_S1024x32_S8x32_304_0, k0_pay83 (rcvM.view.readAt (Elt F) (Rect.unit (s := S32x8x128) ![9, 0, 64] S1x8x32.size inb_S32x8x128_S1x8x32_9_0_64).toLoadRect R)⟩ ::
   ⟨Rect.unit (s := S1024x32) ![296, 0] S8x32.size inb_S1024x32_S8x32_296_0, k0_pay82 (rcvM.view.readAt (Elt F) (Rect.unit (s := S32x8x128) ![9, 0, 32] S1x8x32.size inb_S32x8x128_S1x8x32_9_0_32).toLoadRect R)⟩ ::
   ⟨Rect.unit (s := S1024x32) ![288, 0] S8x32.size inb_S1024x32_S8x32_288_0, k0_pay81 (rcvM.view.readAt (Elt F) (Rect.unit (s := S32x8x128) ![9, 0, 0] S1x8x32.size inb_S32x8x128_S1x8x32_9_0_0).toLoadRect R)⟩ ::
   ⟨Rect.unit (s := S1024x32) ![280, 0] S8x32.size inb_S1024x32_S8x32_280_0, k0_pay80 (rcvM.view.readAt (Elt F) (Rect.unit (s := S32x8x128) ![8, 0, 96] S1x8x32.size inb_S32x8x128_S1x8x32_8_0_96).toLoadRect R)⟩ ::
   ⟨Rect.unit (s := S1024x32) ![272, 0] S8x32.size inb_S1024x32_S8x32_272_0, k0_pay79 (rcvM.view.readAt (Elt F) (Rect.unit (s := S32x8x128) ![8, 0, 64] S1x8x32.size inb_S32x8x128_S1x8x32_8_0_64).toLoadRect R)⟩ ::
   ⟨Rect.unit (s := S1024x32) ![264, 0] S8x32.size inb_S1024x32_S8x32_264_0, k0_pay78 (rcvM.view.readAt (Elt F) (Rect.unit (s := S32x8x128) ![8, 0, 32] S1x8x32.size inb_S32x8x128_S1x8x32_8_0_32).toLoadRect R)⟩ ::
   ⟨Rect.unit (s := S1024x32) ![256, 0] S8x32.size inb_S1024x32_S8x32_256_0, k0_pay77 (rcvM.view.readAt (Elt F) (Rect.unit (s := S32x8x128) ![8, 0, 0] S1x8x32.size inb_S32x8x128_S1x8x32_8_0_0).toLoadRect R)⟩ ::
   ⟨Rect.unit (s := S1024x32) ![248, 0] S8x32.size inb_S1024x32_S8x32_248_0, k0_pay76 (rcvM.view.readAt (Elt F) (Rect.unit (s := S32x8x128) ![7, 0, 96] S1x8x32.size inb_S32x8x128_S1x8x32_7_0_96).toLoadRect R)⟩ ::
   ⟨Rect.unit (s := S1024x32) ![240, 0] S8x32.size inb_S1024x32_S8x32_240_0, k0_pay75 (rcvM.view.readAt (Elt F) (Rect.unit (s := S32x8x128) ![7, 0, 64] S1x8x32.size inb_S32x8x128_S1x8x32_7_0_64).toLoadRect R)⟩ ::
   ⟨Rect.unit (s := S1024x32) ![232, 0] S8x32.size inb_S1024x32_S8x32_232_0, k0_pay74 (rcvM.view.readAt (Elt F) (Rect.unit (s := S32x8x128) ![7, 0, 32] S1x8x32.size inb_S32x8x128_S1x8x32_7_0_32).toLoadRect R)⟩ ::
   ⟨Rect.unit (s := S1024x32) ![224, 0] S8x32.size inb_S1024x32_S8x32_224_0, k0_pay73 (rcvM.view.readAt (Elt F) (Rect.unit (s := S32x8x128) ![7, 0, 0] S1x8x32.size inb_S32x8x128_S1x8x32_7_0_0).toLoadRect R)⟩ ::
   ⟨Rect.unit (s := S1024x32) ![216, 0] S8x32.size inb_S1024x32_S8x32_216_0, k0_pay72 (rcvM.view.readAt (Elt F) (Rect.unit (s := S32x8x128) ![6, 0, 96] S1x8x32.size inb_S32x8x128_S1x8x32_6_0_96).toLoadRect R)⟩ ::
   ⟨Rect.unit (s := S1024x32) ![208, 0] S8x32.size inb_S1024x32_S8x32_208_0, k0_pay71 (rcvM.view.readAt (Elt F) (Rect.unit (s := S32x8x128) ![6, 0, 64] S1x8x32.size inb_S32x8x128_S1x8x32_6_0_64).toLoadRect R)⟩ ::
   ⟨Rect.unit (s := S1024x32) ![200, 0] S8x32.size inb_S1024x32_S8x32_200_0, k0_pay70 (rcvM.view.readAt (Elt F) (Rect.unit (s := S32x8x128) ![6, 0, 32] S1x8x32.size inb_S32x8x128_S1x8x32_6_0_32).toLoadRect R)⟩ ::
   ⟨Rect.unit (s := S1024x32) ![192, 0] S8x32.size inb_S1024x32_S8x32_192_0, k0_pay69 (rcvM.view.readAt (Elt F) (Rect.unit (s := S32x8x128) ![6, 0, 0] S1x8x32.size inb_S32x8x128_S1x8x32_6_0_0).toLoadRect R)⟩ ::
   ⟨Rect.unit (s := S1024x32) ![184, 0] S8x32.size inb_S1024x32_S8x32_184_0, k0_pay68 (rcvM.view.readAt (Elt F) (Rect.unit (s := S32x8x128) ![5, 0, 96] S1x8x32.size inb_S32x8x128_S1x8x32_5_0_96).toLoadRect R)⟩ ::
   ⟨Rect.unit (s := S1024x32) ![176, 0] S8x32.size inb_S1024x32_S8x32_176_0, k0_pay67 (rcvM.view.readAt (Elt F) (Rect.unit (s := S32x8x128) ![5, 0, 64] S1x8x32.size inb_S32x8x128_S1x8x32_5_0_64).toLoadRect R)⟩ ::
   ⟨Rect.unit (s := S1024x32) ![168, 0] S8x32.size inb_S1024x32_S8x32_168_0, k0_pay66 (rcvM.view.readAt (Elt F) (Rect.unit (s := S32x8x128) ![5, 0, 32] S1x8x32.size inb_S32x8x128_S1x8x32_5_0_32).toLoadRect R)⟩ ::
   ⟨Rect.unit (s := S1024x32) ![160, 0] S8x32.size inb_S1024x32_S8x32_160_0, k0_pay65 (rcvM.view.readAt (Elt F) (Rect.unit (s := S32x8x128) ![5, 0, 0] S1x8x32.size inb_S32x8x128_S1x8x32_5_0_0).toLoadRect R)⟩ ::
   ⟨Rect.unit (s := S1024x32) ![152, 0] S8x32.size inb_S1024x32_S8x32_152_0, k0_pay64 (rcvM.view.readAt (Elt F) (Rect.unit (s := S32x8x128) ![4, 0, 96] S1x8x32.size inb_S32x8x128_S1x8x32_4_0_96).toLoadRect R)⟩ ::
   ⟨Rect.unit (s := S1024x32) ![144, 0] S8x32.size inb_S1024x32_S8x32_144_0, k0_pay63 (rcvM.view.readAt (Elt F) (Rect.unit (s := S32x8x128) ![4, 0, 64] S1x8x32.size inb_S32x8x128_S1x8x32_4_0_64).toLoadRect R)⟩ ::
   ⟨Rect.unit (s := S1024x32) ![136, 0] S8x32.size inb_S1024x32_S8x32_136_0, k0_pay62 (rcvM.view.readAt (Elt F) (Rect.unit (s := S32x8x128) ![4, 0, 32] S1x8x32.size inb_S32x8x128_S1x8x32_4_0_32).toLoadRect R)⟩ ::
   ⟨Rect.unit (s := S1024x32) ![128, 0] S8x32.size inb_S1024x32_S8x32_128_0, k0_pay61 (rcvM.view.readAt (Elt F) (Rect.unit (s := S32x8x128) ![4, 0, 0] S1x8x32.size inb_S32x8x128_S1x8x32_4_0_0).toLoadRect R)⟩ ::
   ⟨Rect.unit (s := S1024x32) ![120, 0] S8x32.size inb_S1024x32_S8x32_120_0, k0_pay60 (rcvM.view.readAt (Elt F) (Rect.unit (s := S32x8x128) ![3, 0, 96] S1x8x32.size inb_S32x8x128_S1x8x32_3_0_96).toLoadRect R)⟩ ::
   ⟨Rect.unit (s := S1024x32) ![112, 0] S8x32.size inb_S1024x32_S8x32_112_0, k0_pay59 (rcvM.view.readAt (Elt F) (Rect.unit (s := S32x8x128) ![3, 0, 64] S1x8x32.size inb_S32x8x128_S1x8x32_3_0_64).toLoadRect R)⟩ ::
   ⟨Rect.unit (s := S1024x32) ![104, 0] S8x32.size inb_S1024x32_S8x32_104_0, k0_pay58 (rcvM.view.readAt (Elt F) (Rect.unit (s := S32x8x128) ![3, 0, 32] S1x8x32.size inb_S32x8x128_S1x8x32_3_0_32).toLoadRect R)⟩ ::
   ⟨Rect.unit (s := S1024x32) ![96, 0] S8x32.size inb_S1024x32_S8x32_96_0, k0_pay57 (rcvM.view.readAt (Elt F) (Rect.unit (s := S32x8x128) ![3, 0, 0] S1x8x32.size inb_S32x8x128_S1x8x32_3_0_0).toLoadRect R)⟩ ::
   ⟨Rect.unit (s := S1024x32) ![88, 0] S8x32.size inb_S1024x32_S8x32_88_0, k0_pay56 (rcvM.view.readAt (Elt F) (Rect.unit (s := S32x8x128) ![2, 0, 96] S1x8x32.size inb_S32x8x128_S1x8x32_2_0_96).toLoadRect R)⟩ ::
   ⟨Rect.unit (s := S1024x32) ![80, 0] S8x32.size inb_S1024x32_S8x32_80_0, k0_pay55 (rcvM.view.readAt (Elt F) (Rect.unit (s := S32x8x128) ![2, 0, 64] S1x8x32.size inb_S32x8x128_S1x8x32_2_0_64).toLoadRect R)⟩ ::
   ⟨Rect.unit (s := S1024x32) ![72, 0] S8x32.size inb_S1024x32_S8x32_72_0, k0_pay54 (rcvM.view.readAt (Elt F) (Rect.unit (s := S32x8x128) ![2, 0, 32] S1x8x32.size inb_S32x8x128_S1x8x32_2_0_32).toLoadRect R)⟩ ::
   ⟨Rect.unit (s := S1024x32) ![64, 0] S8x32.size inb_S1024x32_S8x32_64_0, k0_pay53 (rcvM.view.readAt (Elt F) (Rect.unit (s := S32x8x128) ![2, 0, 0] S1x8x32.size inb_S32x8x128_S1x8x32_2_0_0).toLoadRect R)⟩ ::
   ⟨Rect.unit (s := S1024x32) ![56, 0] S8x32.size inb_S1024x32_S8x32_56_0, k0_pay52 (rcvM.view.readAt (Elt F) (Rect.unit (s := S32x8x128) ![1, 0, 96] S1x8x32.size inb_S32x8x128_S1x8x32_1_0_96).toLoadRect R)⟩ ::
   ⟨Rect.unit (s := S1024x32) ![48, 0] S8x32.size inb_S1024x32_S8x32_48_0, k0_pay51 (rcvM.view.readAt (Elt F) (Rect.unit (s := S32x8x128) ![1, 0, 64] S1x8x32.size inb_S32x8x128_S1x8x32_1_0_64).toLoadRect R)⟩ ::
   ⟨Rect.unit (s := S1024x32) ![40, 0] S8x32.size inb_S1024x32_S8x32_40_0, k0_pay50 (rcvM.view.readAt (Elt F) (Rect.unit (s := S32x8x128) ![1, 0, 32] S1x8x32.size inb_S32x8x128_S1x8x32_1_0_32).toLoadRect R)⟩ ::
   ⟨Rect.unit (s := S1024x32) ![32, 0] S8x32.size inb_S1024x32_S8x32_32_0, k0_pay49 (rcvM.view.readAt (Elt F) (Rect.unit (s := S32x8x128) ![1, 0, 0] S1x8x32.size inb_S32x8x128_S1x8x32_1_0_0).toLoadRect R)⟩ ::
   ⟨Rect.unit (s := S1024x32) ![24, 0] S8x32.size inb_S1024x32_S8x32_24_0, k0_pay48 (rcvM.view.readAt (Elt F) (Rect.unit (s := S32x8x128) ![0, 0, 96] S1x8x32.size inb_S32x8x128_S1x8x32_0_0_96).toLoadRect R)⟩ ::
   ⟨Rect.unit (s := S1024x32) ![16, 0] S8x32.size inb_S1024x32_S8x32_16_0, k0_pay47 (rcvM.view.readAt (Elt F) (Rect.unit (s := S32x8x128) ![0, 0, 64] S1x8x32.size inb_S32x8x128_S1x8x32_0_0_64).toLoadRect R)⟩ ::
   ⟨Rect.unit (s := S1024x32) ![8, 0] S8x32.size inb_S1024x32_S8x32_8_0, k0_pay46 (rcvM.view.readAt (Elt F) (Rect.unit (s := S32x8x128) ![0, 0, 32] S1x8x32.size inb_S32x8x128_S1x8x32_0_0_32).toLoadRect R)⟩ ::
   ⟨Rect.unit (s := S1024x32) ![0, 0] S8x32.size inb_S1024x32_S8x32_0_0, k0_pay45 (rcvM.view.readAt (Elt F) (Rect.unit (s := S32x8x128) ![0, 0, 0] S1x8x32.size inb_S32x8x128_S1x8x32_0_0_0).toLoadRect R)⟩ :: []

theorem outPieces_length (c : Dev nD) (R : Buf (Elt F) (rcvM.view.loc (c : Thread nD τ))) : (outPieces c R).length = 128 := rfl

/-- One band: entry `(r, j)` of the block of slot `s`, lanes `32 q …`, is the closed form's entry at row `32 s + 8 q + r`,
    column `j`. -/
theorem piece_agree (c : Dev nD) (s q : Nat) (hs : s < 32) (hq : q < 4)
    (P : Vec F S1x8x32 .f32 → FVec F S8x32 .f32) (hP : P = k0_pay45)
    (inbO : ∀ a, (![32 * s + 8 * q, 0] : Fin 2 → Nat) a + S8x32.size a ≤ S1024x32.size a)
    (inbL : ∀ a, (![s, 0, 32 * q] : Fin 3 → Nat) a + S1x8x32.size a ≤ S32x8x128.size a)
    (x : (Rect.unit (s := S1024x32) ![32 * s + 8 * q, 0] S8x32.size inbO).shape.Idx) :
    P (rcvM.view.readAt (Elt F) (Rect.unit (s := S32x8x128) ![s, 0, 32 * q] S1x8x32.size inbL).toLoadRect (Rfin m c)) x
      = outFin m c ((Rect.unit (s := S1024x32) ![32 * s + 8 * q, 0] S8x32.size inbO).emb x) := by
  subst hP
  obtain ⟨r, j, rfl⟩ : ∃ (r : Fin 8) (j : Fin 32), x = ValueIdx.ix2 r j := ⟨x 0, x 1, ValueIdx.eq_ix2 x⟩
  refine (StageValue.out_pay45_apply _ r j).trans ?_
  show Rfin m c ((Rect.unit (s := S32x8x128) ![s, 0, 32 * q] S1x8x32.size inbL).toLoadRect.idx (ValueIdx.ix3 (n0 := 1) ⟨0, Nat.one_pos⟩ r j)) = _
  unfold outFin
  congr 1
  funext z
  apply Fin.ext
  match z with
  | ⟨0, _⟩ => show s + 1 * 0 = (32 * s + 8 * q + 1 * r.val) / 32; omega
  | ⟨1, _⟩ => show 0 + 1 * r.val = (32 * s + 8 * q + 1 * r.val) % 8; omega
  | ⟨2, _⟩ => show 32 * q + 1 * j.val = 32 * ((32 * s + 8 * q + 1 * r.val) % 32 / 8) + (0 + 1 * j.val); omega

/-- Every piece agrees with the closed form on its band. -/
theorem outPieces_agree (c : Dev nD) :
    ∀ p ∈ outPieces c (Rfin m c), ∀ x : p.1.shape.Idx, p.2 x = outFin m c (p.1.emb x) := by
  unfold outPieces
  refine List.forall_mem_cons.2 ⟨piece_agree m c 31 3 (by omega) (by omega) _ StageValue.out_pay_eq_172 inb_S1024x32_S8x32_1016_0 inb_S32x8x128_S1x8x32_31_0_96, ?_⟩
  refine List.forall_mem_cons.2 ⟨piece_agree m c 31 2 (by omega) (by omega) _ StageValue.out_pay_eq_171 inb_S1024x32_S8x32_1008_0 inb_S32x8x128_S1x8x32_31_0_64, ?_⟩
  refine List.forall_mem_cons.2 ⟨piece_agree m c 31 1 (by omega) (by omega) _ StageValue.out_pay_eq_170 inb_S1024x32_S8x32_1000_0 inb_S32x8x128_S1x8x32_31_0_32, ?_⟩
  refine List.forall_mem_cons.2 ⟨piece_agree m c 31 0 (by omega) (by omega) _ StageValue.out_pay_eq_169 inb_S1024x32_S8x32_992_0 inb_S32x8x128_S1x8x32_31_0_0, ?_⟩
  refine List.forall_mem_cons.2 ⟨piece_agree m c 30 3 (by omega) (by omega) _ StageValue.out_pay_eq_168 inb_S1024x32_S8x32_984_0 inb_S32x8x128_S1x8x32_30_0_96, ?_⟩
  refine List.forall_mem_cons.2 ⟨piece_agree m c 30 2 (by omega) (by omega) _ StageValue.out_pay_eq_167 inb_S1024x32_S8x32_976_0 inb_S32x8x128_S1x8x32_30_0_64, ?_⟩
  refine List.forall_mem_cons.2 ⟨piece_agree m c 30 1 (by omega) (by omega) _ StageValue.out_pay_eq_166 inb_S1024x32_S8x32_968_0 inb_S32x8x128_S1x8x32_30_0_32, ?_⟩
  refine List.forall_mem_cons.2 ⟨piece_agree m c 30 0 (by omega) (by omega) _ StageValue.out_pay_eq_165 inb_S1024x32_S8x32_960_0 inb_S32x8x128_S1x8x32_30_0_0, ?_⟩
  refine List.forall_mem_cons.2 ⟨piece_agree m c 29 3 (by omega) (by omega) _ StageValue.out_pay_eq_164 inb_S1024x32_S8x32_952_0 inb_S32x8x128_S1x8x32_29_0_96, ?_⟩
  refine List.forall_mem_cons.2 ⟨piece_agree m c 29 2 (by omega) (by omega) _ StageValue.out_pay_eq_163 inb_S1024x32_S8x32_944_0 inb_S32x8x128_S1x8x32_29_0_64, ?_⟩
  refine List.forall_mem_cons.2 ⟨piece_agree m c 29 1 (by omega) (by omega) _ StageValue.out_pay_eq_162 inb_S1024x32_S8x32_936_0 inb_S32x8x128_S1x8x32_29_0_32, ?_⟩
  refine List.forall_mem_cons.2 ⟨piece_agree m c 29 0 (by omega) (by omega) _ StageValue.out_pay_eq_161 inb_S1024x32_S8x32_928_0 inb_S32x8x128_S1x8x32_29_0_0, ?_⟩
  refine List.forall_mem_cons.2 ⟨piece_agree m c 28 3 (by omega) (by omega) _ StageValue.out_pay_eq_160 inb_S1024x32_S8x32_920_0 inb_S32x8x128_S1x8x32_28_0_96, ?_⟩
  refine List.forall_mem_cons.2 ⟨piece_agree m c 28 2 (by omega) (by omega) _ StageValue.out_pay_eq_159 inb_S1024x32_S8x32_912_0 inb_S32x8x128_S1x8x32_28_0_64, ?_⟩
  refine List.forall_mem_cons.2 ⟨piece_agree m c 28 1 (by omega) (by omega) _ StageValue.out_pay_eq_158 inb_S1024x32_S8x32_904_0 inb_S32x8x128_S1x8x32_28_0_32, ?_⟩
  refine List.forall_mem_cons.2 ⟨piece_agree m c 28 0 (by omega) (by omega) _ StageValue.out_pay_eq_157 inb_S1024x32_S8x32_896_0 inb_S32x8x128_S1x8x32_28_0_0, ?_⟩
  refine List.forall_mem_cons.2 ⟨piece_agree m c 27 3 (by omega) (by omega) _ StageValue.out_pay_eq_156 inb_S1024x32_S8x32_888_0 inb_S32x8x128_S1x8x32_27_0_96, ?_⟩
  refine List.forall_mem_cons.2 ⟨piece_agree m c 27 2 (by omega) (by omega) _ StageValue.out_pay_eq_155 inb_S1024x32_S8x32_880_0 inb_S32x8x128_S1x8x32_27_0_64, ?_⟩
  refine List.forall_mem_cons.2 ⟨piece_agree m c 27 1 (by omega) (by omega) _ StageValue.out_pay_eq_154 inb_S1024x32_S8x32_872_0 inb_S32x8x128_S1x8x32_27_0_32, ?_⟩
  refine List.forall_mem_cons.2 ⟨piece_agree m c 27 0 (by omega) (by omega) _ StageValue.out_pay_eq_153 inb_S1024x32_S8x32_864_0 inb_S32x8x128_S1x8x32_27_0_0, ?_⟩
  refine List.forall_mem_cons.2 ⟨piece_agree m c 26 3 (by omega) (by omega) _ StageValue.out_pay_eq_152 inb_S1024x32_S8x32_856_0 inb_S32x8x128_S1x8x32_26_0_96, ?_⟩
  refine List.forall_mem_cons.2 ⟨piece_agree m c 26 2 (by omega) (by omega) _ StageValue.out_pay_eq_151 inb_S1024x32_S8x32_848_0 inb_S32x8x128_S1x8x32_26_0_64, ?_⟩
  refine List.forall_mem_cons.2 ⟨piece_agree m c 26 1 (by omega) (by omega) _ StageValue.out_pay_eq_150 inb_S1024x32_S8x32_840_0 inb_S32x8x128_S1x8x32_26_0_32, ?_⟩
  refine List.forall_mem_cons.2 ⟨piece_agree m c 26 0 (by omega) (by omega) _ StageValue.out_pay_eq_149 inb_S1024x32_S8x32_832_0 inb_S32x8x128_S1x8x32_26_0_0, ?_⟩
  refine List.forall_mem_cons.2 ⟨piece_agree m c 25 3 (by omega) (by omega) _ StageValue.out_pay_eq_148 inb_S1024x32_S8x32_824_0 inb_S32x8x128_S1x8x32_25_0_96, ?_⟩
  refine List.forall_mem_cons.2 ⟨piece_agree m c 25 2 (by omega) (by omega) _ StageValue.out_pay_eq_147 inb_S1024x32_S8x32_816_0 inb_S32x8x128_S1x8x32_25_0_64, ?_⟩
  refine List.forall_mem_cons.2 ⟨piece_agree m c 25 1 (by omega) (by omega) _ StageValue.out_pay_eq_146 inb_S1024x32_S8x32_808_0 inb_S32x8x128_S1x8x32_25_0_32, ?_⟩
  refine List.forall_mem_cons.2 ⟨piece_agree m c 25 0 (by omega) (by omega) _ StageValue.out_pay_eq_145 inb_S1024x32_S8x32_800_0 inb_S32x8x128_S1x8x32_25_0_0, ?_⟩
  refine List.forall_mem_cons.2 ⟨piece_agree m c 24 3 (by omega) (by omega) _ StageValue.out_pay_eq_144 inb_S1024x32_S8x32_792_0 inb_S32x8x128_S1x8x32_24_0_96, ?_⟩
  refine List.forall_mem_cons.2 ⟨piece_agree m c 24 2 (by omega) (by omega) _ StageValue.out_pay_eq_143 inb_S1024x32_S8x32_784_0 inb_S32x8x128_S1x8x32_24_0_64, ?_⟩
  refine List.forall_mem_cons.2 ⟨piece_agree m c 24 1 (by omega) (by omega) _ StageValue.out_pay_eq_142 inb_S1024x32_S8x32_776_0 inb_S32x8x128_S1x8x32_24_0_32, ?_⟩
  refine List.forall_mem_cons.2 ⟨piece_agree m c 24 0 (by omega) (by omega) _ StageValue.out_pay_eq_141 inb_S1024x32_S8x32_768_0 inb_S32x8x128_S1x8x32_24_0_0, ?_⟩
  refine List.forall_mem_cons.2 ⟨piece_agree m c 23 3 (by omega) (by omega) _ StageValue.out_pay_eq_140 inb_S1024x32_S8x32_760_0 inb_S32x8x128_S1x8x32_23_0_96, ?_⟩
  refine List.forall_mem_cons.2 ⟨piece_agree m c 23 2 (by omega) (by omega) _ StageValue.out_pay_eq_139 inb_S1024x32_S8x32_752_0 inb_S32x8x128_S1x8x32_23_0_64, ?_⟩
  refine List.forall_mem_cons.2 ⟨piece_agree m c 23 1 (by omega) (by omega) _ StageValue.out_pay_eq_138 inb_S1024x32_S8x32_744_0 inb_S32x8x128_S1x8x32_23_0_32, ?_⟩
  refine List.forall_mem_cons.2 ⟨piece_agree m c 23 0 (by omega) (by omega) _ StageValue.out_pay_eq_137 inb_S1024x32_S8x32_736_0 inb_S32x8x128_S1x8x32_23_0_0, ?_⟩
  refine List.forall_mem_cons.2 ⟨piece_agree m c 22 3 (by omega) (by omega) _ StageValue.out_pay_eq_136 inb_S1024x32_S8x32_728_0 inb_S32x8x128_S1x8x32_22_0_96, ?_⟩
  refine List.forall_mem_cons.2 ⟨piece_agree m c 22 2 (by omega) (by omega) _ StageValue.out_pay_eq_135 inb_S1024x32_S8x32_720_0 inb_S32x8x128_S1x8x32_22_0_64, ?_⟩
  refine List.forall_mem_cons.2 ⟨piece_agree m c 22 1 (by omega) (by omega) _ StageValue.out_pay_eq_134 inb_S1024x32_S8x32_712_0 inb_S32x8x128_S1x8x32_22_0_32, ?_⟩
  refine List.forall_mem_cons.2 ⟨piece_agree m c 22 0 (by omega) (by omega) _ StageValue.out_pay_eq_133 inb_S1024x32_S8x32_704_0 inb_S32x8x128_S1x8x32_22_0_0, ?_⟩
  refine List.forall_mem_cons.2 ⟨piece_agree m c 21 3 (by omega) (by omega) _ StageValue.out_pay_eq_132 inb_S1024x32_S8x32_696_0 inb_S32x8x128_S1x8x32_21_0_96, ?_⟩
  refine List.forall_mem_cons.2 ⟨piece_agree m c 21 2 (by omega) (by omega) _ StageValue.out_pay_eq_131 inb_S1024x32_S8x32_688_0 inb_S32x8x128_S1x8x32_21_0_64, ?_⟩
  refine List.forall_mem_cons.2 ⟨piece_agree m c 21 1 (by omega) (by omega) _ StageValue.out_pay_eq_130 inb_S1024x32_S8x32_680_0 inb_S32x8x128_S1x8x32_21_0_32, ?_⟩
  refine List.forall_mem_cons.2 ⟨piece_agree m c 21 0 (by omega) (by omega) _ StageValue.out_pay_eq_129 inb_S1024x32_S8x32_672_0 inb_S32x8x128_S1x8x32_21_0_0, ?_⟩
  refine List.forall_mem_cons.2 ⟨piece_agree m c 20 3 (by omega) (by omega) _ StageValue.out_pay_eq_128 inb_S1024x32_S8x32_664_0 inb_S32x8x128_S1x8x32_20_0_96, ?_⟩
  refine List.forall_mem_cons.2 ⟨piece_agree m c 20 2 (by omega) (by omega) _ StageValue.out_pay_eq_127 inb_S1024x32_S8x32_656_0 inb_S32x8x128_S1x8x32_20_0_64, ?_⟩
  refine List.forall_mem_cons.2 ⟨piece_agree m c 20 1 (by omega) (by omega) _ StageValue.out_pay_eq_126 inb_S1024x32_S8x32_648_0 inb_S32x8x128_S1x8x32_20_0_32, ?_⟩
  refine List.forall_mem_cons.2 ⟨piece_agree m c 20 0 (by omega) (by omega) _ StageValue.out_pay_eq_125 inb_S1024x32_S8x32_640_0 inb_S32x8x128_S1x8x32_20_0_0, ?_⟩
  refine List.forall_mem_cons.2 ⟨piece_agree m c 19 3 (by omega) (by omega) _ StageValue.out_pay_eq_124 inb_S1024x32_S8x32_632_0 inb_S32x8x128_S1x8x32_19_0_96, ?_⟩
  refine List.forall_mem_cons.2 ⟨piece_agree m c 19 2 (by omega) (by omega) _ StageValue.out_pay_eq_123 inb_S1024x32_S8x32_624_0 inb_S32x8x128_S1x8x32_19_0_64, ?_⟩
  refine List.forall_mem_cons.2 ⟨piece_agree m c 19 1 (by omega) (by omega) _ StageValue.out_pay_eq_122 inb_S1024x32_S8x32_616_0 inb_S32x8x128_S1x8x32_19_0_32, ?_⟩
  refine List.forall_mem_cons.2 ⟨piece_agree m c 19 0 (by omega) (by omega) _ StageValue.out_pay_eq_121 inb_S1024x32_S8x32_608_0 inb_S32x8x128_S1x8x32_19_0_0, ?_⟩
  refine List.forall_mem_cons.2 ⟨piece_agree m c 18 3 (by omega) (by omega) _ StageValue.out_pay_eq_120 inb_S1024x32_S8x32_600_0 inb_S32x8x128_S1x8x32_18_0_96, ?_⟩
  refine List.forall_mem_cons.2 ⟨piece_agree m c 18 2 (by omega) (by omega) _ StageValue.out_pay_eq_119 inb_S1024x32_S8x32_592_0 inb_S32x8x128_S1x8x32_18_0_64, ?_⟩
  refine List.forall_mem_cons.2 ⟨piece_agree m c 18 1 (by omega) (by omega) _ StageValue.out_pay_eq_118 inb_S1024x32_S8x32_584_0 inb_S32x8x128_S1x8x32_18_0_32, ?_⟩
  refine List.forall_mem_cons.2 ⟨piece_agree m c 18 0 (by omega) (by omega) _ StageValue.out_pay_eq_117 inb_S1024x32_S8x32_576_0 inb_S32x8x128_S1x8x32_18_0_0, ?_⟩
  refine List.forall_mem_cons.2 ⟨piece_agree m c 17 3 (by omega) (by omega) _ StageValue.out_pay_eq_116 inb_S1024x32_S8x32_568_0 inb_S32x8x128_S1x8x32_17_0_96, ?_⟩
  refine List.forall_mem_cons.2 ⟨piece_agree m c 17 2 (by omega) (by omega) _ StageValue.out_pay_eq_115 inb_S1024x32_S8x32_560_0 inb_S32x8x128_S1x8x32_17_0_64, ?_⟩
  refine List.forall_mem_cons.2 ⟨piece_agree m c 17 1 (by omega) (by omega) _ StageValue.out_pay_eq_114 inb_S1024x32_S8x32_552_0 inb_S32x8x128_S1x8x32_17_0_32, ?_⟩
  refine List.forall_mem_cons.2 ⟨piece_agree m c 17 0 (by omega) (by omega) _ StageValue.out_pay_eq_113 inb_S1024x32_S8x32_544_0 inb_S32x8x128_S1x8x32_17_0_0, ?_⟩
  refine List.forall_mem_cons.2 ⟨piece_agree m c 16 3 (by omega) (by omega) _ StageValue.out_pay_eq_112 inb_S1024x32_S8x32_536_0 inb_S32x8x128_S1x8x32_16_0_96, ?_⟩
  refine List.forall_mem_cons.2 ⟨piece_agree m c 16 2 (by omega) (by omega) _ StageValue.out_pay_eq_111 inb_S1024x32_S8x32_528_0 inb_S32x8x128_S1x8x32_16_0_64, ?_⟩
  refine List.forall_mem_cons.2 ⟨piece_agree m c 16 1 (by omega) (by omega) _ StageValue.out_pay_eq_110 inb_S1024x32_S8x32_520_0 inb_S32x8x128_S1x8x32_16_0_32, ?_⟩
  refine List.forall_mem_cons.2 ⟨piece_agree m c 16 0 (by omega) (by omega) _ StageValue.out_pay_eq_109 inb_S1024x32_S8x32_512_0 inb_S32x8x128_S1x8x32_16_0_0, ?_⟩
  refine List.forall_mem_cons.2 ⟨piece_agree m c 15 3 (by omega) (by omega) _ StageValue.out_pay_eq_108 inb_S1024x32_S8x32_504_0 inb_S32x8x128_S1x8x32_15_0_96, ?_⟩
  refine List.forall_mem_cons.2 ⟨piece_agree m c 15 2 (by omega) (by omega) _ StageValue.out_pay_eq_107 inb_S1024x32_S8x32_496_0 inb_S32x8x128_S1x8x32_15_0_64, ?_⟩
  refine List.forall_mem_cons.2 ⟨piece_agree m c 15 1 (by omega) (by omega) _ StageValue.out_pay_eq_106 inb_S1024x32_S8x32_488_0 inb_S32x8x128_S1x8x32_15_0_32, ?_⟩
  refine List.forall_mem_cons.2 ⟨piece_agree m c 15 0 (by omega) (by omega) _ StageValue.out_pay_eq_105 inb_S1024x32_S8x32_480_0 inb_S32x8x128_S1x8x32_15_0_0, ?_⟩
  refine List.forall_mem_cons.2 ⟨piece_agree m c 14 3 (by omega) (by omega) _ StageValue.out_pay_eq_104 inb_S1024x32_S8x32_472_0 inb_S32x8x128_S1x8x32_14_0_96, ?_⟩
  refine List.forall_mem_cons.2 ⟨piece_agree m c 14 2 (by omega) (by omega) _ StageValue.out_pay_eq_103 inb_S1024x32_S8x32_464_0 inb_S32x8x128_S1x8x32_14_0_64, ?_⟩
  refine List.forall_mem_cons.2 ⟨piece_agree m c 14 1 (by omega) (by omega) _ StageValue.out_pay_eq_102 inb_S1024x32_S8x32_456_0 inb_S32x8x128_S1x8x32_14_0_32, ?_⟩
  refine List.forall_mem_cons.2 ⟨piece_agree m c 14 0 (by omega) (by omega) _ StageValue.out_pay_eq_101 inb_S1024x32_S8x32_448_0 inb_S32x8x128_S1x8x32_14_0_0, ?_⟩
  refine List.forall_mem_cons.2 ⟨piece_agree m c 13 3 (by omega) (by omega) _ StageValue.out_pay_eq_100 inb_S1024x32_S8x32_440_0 inb_S32x8x128_S1x8x32_13_0_96, ?_⟩
  refine List.forall_mem_cons.2 ⟨piece_agree m c 13 2 (by omega) (by omega) _ StageValue.out_pay_eq_99 inb_S1024x32_S8x32_432_0 inb_S32x8x128_S1x8x32_13_0_64, ?_⟩
  refine List.forall_mem_cons.2 ⟨piece_agree m c 13 1 (by omega) (by omega) _ StageValue.out_pay_eq_98 inb_S1024x32_S8x32_424_0 inb_S32x8x128_S1x8x32_13_0_32, ?_⟩
  refine List.forall_mem_cons.2 ⟨piece_agree m c 13 0 (by omega) (by omega) _ StageValue.out_pay_eq_97 inb_S1024x32_S8x32_416_0 inb_S32x8x128_S1x8x32_13_0_0, ?_⟩
  refine List.forall_mem_cons.2 ⟨piece_agree m c 12 3 (by omega) (by omega) _ StageValue.out_pay_eq_96 inb_S1024x32_S8x32_408_0 inb_S32x8x128_S1x8x32_12_0_96, ?_⟩
  refine List.forall_mem_cons.2 ⟨piece_agree m c 12 2 (by omega) (by omega) _ StageValue.out_pay_eq_95 inb_S1024x32_S8x32_400_0 inb_S32x8x128_S1x8x32_12_0_64, ?_⟩
  refine List.forall_mem_cons.2 ⟨piece_agree m c 12 1 (by omega) (by omega) _ StageValue.out_pay_eq_94 inb_S1024x32_S8x32_392_0 inb_S32x8x128_S1x8x32_12_0_32, ?_⟩
  refine List.forall_mem_cons.2 ⟨piece_agree m c 12 0 (by omega) (by omega) _ StageValue.out_pay_eq_93 inb_S1024x32_S8x32_384_0 inb_S32x8x128_S1x8x32_12_0_0, ?_⟩
  refine List.forall_mem_cons.2 ⟨piece_agree m c 11 3 (by omega) (by omega) _ StageValue.out_pay_eq_92 inb_S1024x32_S8x32_376_0 inb_S32x8x128_S1x8x32_11_0_96, ?_⟩
  refine List.forall_mem_cons.2 ⟨piece_agree m c 11 2 (by omega) (by omega) _ StageValue.out_pay_eq_91 inb_S1024x32_S8x32_368_0 inb_S32x8x128_S1x8x32_11_0_64, ?_⟩
  refine List.forall_mem_cons.2 ⟨piece_agree m c 11 1 (by omega) (by omega) _ StageValue.out_pay_eq_90 inb_S1024x32_S8x32_360_0 inb_S32x8x128_S1x8x32_11_0_32, ?_⟩
  refine List.forall_mem_cons.2 ⟨piece_agree m c 11 0 (by omega) (by omega) _ StageValue.out_pay_eq_89 inb_S1024x32_S8x32_352_0 inb_S32x8x128_S1x8x32_11_0_0, ?_⟩
  refine List.forall_mem_cons.2 ⟨piece_agree m c 10 3 (by omega) (by omega) _ StageValue.out_pay_eq_88 inb_S1024x32_S8x32_344_0 inb_S32x8x128_S1x8x32_10_0_96, ?_⟩
  refine List.forall_mem_cons.2 ⟨piece_agree m c 10 2 (by omega) (by omega) _ StageValue.out_pay_eq_87 inb_S1024x32_S8x32_336_0 inb_S32x8x128_S1x8x32_10_0_64, ?_⟩
  refine List.forall_mem_cons.2 ⟨piece_agree m c 10 1 (by omega) (by omega) _ StageValue.out_pay_eq_86 inb_S1024x32_S8x32_328_0 inb_S32x8x128_S1x8x32_10_0_32, ?_⟩
  refine List.forall_mem_cons.2 ⟨piece_agree m c 10 0 (by omega) (by omega) _ StageValue.out_pay_eq_85 inb_S1024x32_S8x32_320_0 inb_S32x8x128_S1x8x32_10_0_0, ?_⟩
  refine List.forall_mem_cons.2 ⟨piece_agree m c 9 3 (by omega) (by omega) _ StageValue.out_pay_eq_84 inb_S1024x32_S8x32_312_0 inb_S32x8x128_S1x8x32_9_0_96, ?_⟩
  refine List.forall_mem_cons.2 ⟨piece_agree m c 9 2 (by omega) (by omega) _ StageValue.out_pay_eq_83 inb_S1024x32_S8x32_304_0 inb_S32x8x128_S1x8x32_9_0_64, ?_⟩
  refine List.forall_mem_cons.2 ⟨piece_agree m c 9 1 (by omega) (by omega) _ StageValue.out_pay_eq_82 inb_S1024x32_S8x32_296_0 inb_S32x8x128_S1x8x32_9_0_32, ?_⟩
  refine List.forall_mem_cons.2 ⟨piece_agree m c 9 0 (by omega) (by omega) _ StageValue.out_pay_eq_81 inb_S1024x32_S8x32_288_0 inb_S32x8x128_S1x8x32_9_0_0, ?_⟩
  refine List.forall_mem_cons.2 ⟨piece_agree m c 8 3 (by omega) (by omega) _ StageValue.out_pay_eq_80 inb_S1024x32_S8x32_280_0 inb_S32x8x128_S1x8x32_8_0_96, ?_⟩
  refine List.forall_mem_cons.2 ⟨piece_agree m c 8 2 (by omega) (by omega) _ StageValue.out_pay_eq_79 inb_S1024x32_S8x32_272_0 inb_S32x8x128_S1x8x32_8_0_64, ?_⟩
  refine List.forall_mem_cons.2 ⟨piece_agree m c 8 1 (by omega) (by omega) _ StageValue.out_pay_eq_78 inb_S1024x32_S8x32_264_0 inb_S32x8x128_S1x8x32_8_0_32, ?_⟩
  refine List.forall_mem_cons.2 ⟨piece_agree m c 8 0 (by omega) (by omega) _ StageValue.out_pay_eq_77 inb_S1024x32_S8x32_256_0 inb_S32x8x128_S1x8x32_8_0_0, ?_⟩
  refine List.forall_mem_cons.2 ⟨piece_agree m c 7 3 (by omega) (by omega) _ StageValue.out_pay_eq_76 inb_S1024x32_S8x32_248_0 inb_S32x8x128_S1x8x32_7_0_96, ?_⟩
  refine List.forall_mem_cons.2 ⟨piece_agree m c 7 2 (by omega) (by omega) _ StageValue.out_pay_eq_75 inb_S1024x32_S8x32_240_0 inb_S32x8x128_S1x8x32_7_0_64, ?_⟩
  refine List.forall_mem_cons.2 ⟨piece_agree m c 7 1 (by omega) (by omega) _ StageValue.out_pay_eq_74 inb_S1024x32_S8x32_232_0 inb_S32x8x128_S1x8x32_7_0_32, ?_⟩
  refine List.forall_mem_cons.2 ⟨piece_agree m c 7 0 (by omega) (by omega) _ StageValue.out_pay_eq_73 inb_S1024x32_S8x32_224_0 inb_S32x8x128_S1x8x32_7_0_0, ?_⟩
  refine List.forall_mem_cons.2 ⟨piece_agree m c 6 3 (by omega) (by omega) _ StageValue.out_pay_eq_72 inb_S1024x32_S8x32_216_0 inb_S32x8x128_S1x8x32_6_0_96, ?_⟩
  refine List.forall_mem_cons.2 ⟨piece_agree m c 6 2 (by omega) (by omega) _ StageValue.out_pay_eq_71 inb_S1024x32_S8x32_208_0 inb_S32x8x128_S1x8x32_6_0_64, ?_⟩
  refine List.forall_mem_cons.2 ⟨piece_agree m c 6 1 (by omega) (by omega) _ StageValue.out_pay_eq_70 inb_S1024x32_S8x32_200_0 inb_S32x8x128_S1x8x32_6_0_32, ?_⟩
  refine List.forall_mem_cons.2 ⟨piece_agree m c 6 0 (by omega) (by omega) _ StageValue.out_pay_eq_69 inb_S1024x32_S8x32_192_0 inb_S32x8x128_S1x8x32_6_0_0, ?_⟩
  refine List.forall_mem_cons.2 ⟨piece_agree m c 5 3 (by omega) (by omega) _ StageValue.out_pay_eq_68 inb_S1024x32_S8x32_184_0 inb_S32x8x128_S1x8x32_5_0_96, ?_⟩
  refine List.forall_mem_cons.2 ⟨piece_agree m c 5 2 (by omega) (by omega) _ StageValue.out_pay_eq_67 inb_S1024x32_S8x32_176_0 inb_S32x8x128_S1x8x32_5_0_64, ?_⟩
  refine List.forall_mem_cons.2 ⟨piece_agree m c 5 1 (by omega) (by omega) _ StageValue.out_pay_eq_66 inb_S1024x32_S8x32_168_0 inb_S32x8x128_S1x8x32_5_0_32, ?_⟩
  refine List.forall_mem_cons.2 ⟨piece_agree m c 5 0 (by omega) (by omega) _ StageValue.out_pay_eq_65 inb_S1024x32_S8x32_160_0 inb_S32x8x128_S1x8x32_5_0_0, ?_⟩
  refine List.forall_mem_cons.2 ⟨piece_agree m c 4 3 (by omega) (by omega) _ StageValue.out_pay_eq_64 inb_S1024x32_S8x32_152_0 inb_S32x8x128_S1x8x32_4_0_96, ?_⟩
  refine List.forall_mem_cons.2 ⟨piece_agree m c 4 2 (by omega) (by omega) _ StageValue.out_pay_eq_63 inb_S1024x32_S8x32_144_0 inb_S32x8x128_S1x8x32_4_0_64, ?_⟩
  refine List.forall_mem_cons.2 ⟨piece_agree m c 4 1 (by omega) (by omega) _ StageValue.out_pay_eq_62 inb_S1024x32_S8x32_136_0 inb_S32x8x128_S1x8x32_4_0_32, ?_⟩
  refine List.forall_mem_cons.2 ⟨piece_agree m c 4 0 (by omega) (by omega) _ StageValue.out_pay_eq_61 inb_S1024x32_S8x32_128_0 inb_S32x8x128_S1x8x32_4_0_0, ?_⟩
  refine List.forall_mem_cons.2 ⟨piece_agree m c 3 3 (by omega) (by omega) _ StageValue.out_pay_eq_60 inb_S1024x32_S8x32_120_0 inb_S32x8x128_S1x8x32_3_0_96, ?_⟩
  refine List.forall_mem_cons.2 ⟨piece_agree m c 3 2 (by omega) (by omega) _ StageValue.out_pay_eq_59 inb_S1024x32_S8x32_112_0 inb_S32x8x128_S1x8x32_3_0_64, ?_⟩
  refine List.forall_mem_cons.2 ⟨piece_agree m c 3 1 (by omega) (by omega) _ StageValue.out_pay_eq_58 inb_S1024x32_S8x32_104_0 inb_S32x8x128_S1x8x32_3_0_32, ?_⟩
  refine List.forall_mem_cons.2 ⟨piece_agree m c 3 0 (by omega) (by omega) _ StageValue.out_pay_eq_57 inb_S1024x32_S8x32_96_0 inb_S32x8x128_S1x8x32_3_0_0, ?_⟩
  refine List.forall_mem_cons.2 ⟨piece_agree m c 2 3 (by omega) (by omega) _ StageValue.out_pay_eq_56 inb_S1024x32_S8x32_88_0 inb_S32x8x128_S1x8x32_2_0_96, ?_⟩
  refine List.forall_mem_cons.2 ⟨piece_agree m c 2 2 (by omega) (by omega) _ StageValue.out_pay_eq_55 inb_S1024x32_S8x32_80_0 inb_S32x8x128_S1x8x32_2_0_64, ?_⟩
  refine List.forall_mem_cons.2 ⟨piece_agree m c 2 1 (by omega) (by omega) _ StageValue.out_pay_eq_54 inb_S1024x32_S8x32_72_0 inb_S32x8x128_S1x8x32_2_0_32, ?_⟩
  refine List.forall_mem_cons.2 ⟨piece_agree m c 2 0 (by omega) (by omega) _ StageValue.out_pay_eq_53 inb_S1024x32_S8x32_64_0 inb_S32x8x128_S1x8x32_2_0_0, ?_⟩
  refine List.forall_mem_cons.2 ⟨piece_agree m c 1 3 (by omega) (by omega) _ StageValue.out_pay_eq_52 inb_S1024x32_S8x32_56_0 inb_S32x8x128_S1x8x32_1_0_96, ?_⟩
  refine List.forall_mem_cons.2 ⟨piece_agree m c 1 2 (by omega) (by omega) _ StageValue.out_pay_eq_51 inb_S1024x32_S8x32_48_0 inb_S32x8x128_S1x8x32_1_0_64, ?_⟩
  refine List.forall_mem_cons.2 ⟨piece_agree m c 1 1 (by omega) (by omega) _ StageValue.out_pay_eq_50 inb_S1024x32_S8x32_40_0 inb_S32x8x128_S1x8x32_1_0_32, ?_⟩
  refine List.forall_mem_cons.2 ⟨piece_agree m c 1 0 (by omega) (by omega) _ StageValue.out_pay_eq_49 inb_S1024x32_S8x32_32_0 inb_S32x8x128_S1x8x32_1_0_0, ?_⟩
  refine List.forall_mem_cons.2 ⟨piece_agree m c 0 3 (by omega) (by omega) _ StageValue.out_pay_eq_48 inb_S1024x32_S8x32_24_0 inb_S32x8x128_S1x8x32_0_0_96, ?_⟩
  refine List.forall_mem_cons.2 ⟨piece_agree m c 0 2 (by omega) (by omega) _ StageValue.out_pay_eq_47 inb_S1024x32_S8x32_16_0 inb_S32x8x128_S1x8x32_0_0_64, ?_⟩
  refine List.forall_mem_cons.2 ⟨piece_agree m c 0 1 (by omega) (by omega) _ StageValue.out_pay_eq_46 inb_S1024x32_S8x32_8_0 inb_S32x8x128_S1x8x32_0_0_32, ?_⟩
  refine List.forall_mem_cons.2 ⟨piece_agree m c 0 0 (by omega) (by omega) _ StageValue.out_pay_eq_45 inb_S1024x32_S8x32_0_0 inb_S32x8x128_S1x8x32_0_0_0, ?_⟩
  exact fun p hp => absurd hp List.not_mem_nil

/-- Row `ρ` lies in the band that starts at `8 (ρ / 8)`. -/
theorem cover_at (c : Dev nD) (R : Buf (Elt F) (rcvM.view.loc (c : Thread nD τ))) (i : S1024x32.Idx) (k : Nat)
    (hi : (i 0).val / 8 = k) (t : Nat) (ht : t < (outPieces c R).length)
    (inb : ∀ a, (![8 * k, 0] : Fin 2 → Nat) a + S8x32.size a ≤ S1024x32.size a)
    (w : (Rect.unit (s := S1024x32) ![8 * k, 0] S8x32.size inb).shape.Idx → Elt F .f32)
    (hget : (outPieces c R)[t] = ⟨Rect.unit (s := S1024x32) ![8 * k, 0] S8x32.size inb, w⟩) :
    ∃ p ∈ outPieces c R, i ∈ p.1.set := by
  refine ⟨_, List.getElem_mem ht, ?_⟩
  rw [hget]
  show i ∈ (Rect.unit (s := S1024x32) ![8 * k, 0] S8x32.size inb).set
  rw [Rect.mem_set_unit]
  intro a
  have h1 : (i 1).val < 32 := (i 1).isLt
  match a with
  | ⟨0, _⟩ => show 8 * k ≤ (i 0).val ∧ (i 0).val < 8 * k + 8; omega
  | ⟨1, _⟩ => show 0 ≤ (i 1).val ∧ (i 1).val < 0 + 32; omega

/-- The 128 bands cover the tile. -/
theorem outPieces_cover (c : Dev nD) (R : Buf (Elt F) (rcvM.view.loc (c : Thread nD τ))) (i : S1024x32.Idx) :
    ∃ p ∈ outPieces c R, i ∈ p.1.set := by
  have h0 : (i 0).val < 1024 := (i 0).isLt
  have hk : (i 0).val / 8 < 128 := by omega
  generalize hkk : (i 0).val / 8 = k at hk
  interval_cases k
  · exact cover_at c R i 0 hkk 127 (by rw [outPieces_length]; omega) _ _ rfl
  · exact cover_at c R i 1 hkk 126 (by rw [outPieces_length]; omega) _ _ rfl
  · exact cover_at c R i 2 hkk 125 (by rw [outPieces_length]; omega) _ _ rfl
  · exact cover_at c R i 3 hkk 124 (by rw [outPieces_length]; omega) _ _ rfl
  · exact cover_at c R i 4 hkk 123 (by rw [outPieces_length]; omega) _ _ rfl
  · exact cover_at c R i 5 hkk 122 (by rw [outPieces_length]; omega) _ _ rfl
  · exact cover_at c R i 6 hkk 121 (by rw [outPieces_length]; omega) _ _ rfl
  · exact cover_at c R i 7 hkk 120 (by rw [outPieces_length]; omega) _ _ rfl
  · exact cover_at c R i 8 hkk 119 (by rw [outPieces_length]; omega) _ _ rfl
  · exact cover_at c R i 9 hkk 118 (by rw [outPieces_length]; omega) _ _ rfl
  · exact cover_at c R i 10 hkk 117 (by rw [outPieces_length]; omega) _ _ rfl
  · exact cover_at c R i 11 hkk 116 (by rw [outPieces_length]; omega) _ _ rfl
  · exact cover_at c R i 12 hkk 115 (by rw [outPieces_length]; omega) _ _ rfl
  · exact cover_at c R i 13 hkk 114 (by rw [outPieces_length]; omega) _ _ rfl
  · exact cover_at c R i 14 hkk 113 (by rw [outPieces_length]; omega) _ _ rfl
  · exact cover_at c R i 15 hkk 112 (by rw [outPieces_length]; omega) _ _ rfl
  · exact cover_at c R i 16 hkk 111 (by rw [outPieces_length]; omega) _ _ rfl
  · exact cover_at c R i 17 hkk 110 (by rw [outPieces_length]; omega) _ _ rfl
  · exact cover_at c R i 18 hkk 109 (by rw [outPieces_length]; omega) _ _ rfl
  · exact cover_at c R i 19 hkk 108 (by rw [outPieces_length]; omega) _ _ rfl
  · exact cover_at c R i 20 hkk 107 (by rw [outPieces_length]; omega) _ _ rfl
  · exact cover_at c R i 21 hkk 106 (by rw [outPieces_length]; omega) _ _ rfl
  · exact cover_at c R i 22 hkk 105 (by rw [outPieces_length]; omega) _ _ rfl
  · exact cover_at c R i 23 hkk 104 (by rw [outPieces_length]; omega) _ _ rfl
  · exact cover_at c R i 24 hkk 103 (by rw [outPieces_length]; omega) _ _ rfl
  · exact cover_at c R i 25 hkk 102 (by rw [outPieces_length]; omega) _ _ rfl
  · exact cover_at c R i 26 hkk 101 (by rw [outPieces_length]; omega) _ _ rfl
  · exact cover_at c R i 27 hkk 100 (by rw [outPieces_length]; omega) _ _ rfl
  · exact cover_at c R i 28 hkk 99 (by rw [outPieces_length]; omega) _ _ rfl
  · exact cover_at c R i 29 hkk 98 (by rw [outPieces_length]; omega) _ _ rfl
  · exact cover_at c R i 30 hkk 97 (by rw [outPieces_length]; omega) _ _ rfl
  · exact cover_at c R i 31 hkk 96 (by rw [outPieces_length]; omega) _ _ rfl
  · exact cover_at c R i 32 hkk 95 (by rw [outPieces_length]; omega) _ _ rfl
  · exact cover_at c R i 33 hkk 94 (by rw [outPieces_length]; omega) _ _ rfl
  · exact cover_at c R i 34 hkk 93 (by rw [outPieces_length]; omega) _ _ rfl
  · exact cover_at c R i 35 hkk 92 (by rw [outPieces_length]; omega) _ _ rfl
  · exact cover_at c R i 36 hkk 91 (by rw [outPieces_length]; omega) _ _ rfl
  · exact cover_at c R i 37 hkk 90 (by rw [outPieces_length]; omega) _ _ rfl
  · exact cover_at c R i 38 hkk 89 (by rw [outPieces_length]; omega) _ _ rfl
  · exact cover_at c R i 39 hkk 88 (by rw [outPieces_length]; omega) _ _ rfl
  · exact cover_at c R i 40 hkk 87 (by rw [outPieces_length]; omega) _ _ rfl
  · exact cover_at c R i 41 hkk 86 (by rw [outPieces_length]; omega) _ _ rfl
  · exact cover_at c R i 42 hkk 85 (by rw [outPieces_length]; omega) _ _ rfl
  · exact cover_at c R i 43 hkk 84 (by rw [outPieces_length]; omega) _ _ rfl
  · exact cover_at c R i 44 hkk 83 (by rw [outPieces_length]; omega) _ _ rfl
  · exact cover_at c R i 45 hkk 82 (by rw [outPieces_length]; omega) _ _ rfl
  · exact cover_at c R i 46 hkk 81 (by rw [outPieces_length]; omega) _ _ rfl
  · exact cover_at c R i 47 hkk 80 (by rw [outPieces_length]; omega) _ _ rfl
  · exact cover_at c R i 48 hkk 79 (by rw [outPieces_length]; omega) _ _ rfl
  · exact cover_at c R i 49 hkk 78 (by rw [outPieces_length]; omega) _ _ rfl
  · exact cover_at c R i 50 hkk 77 (by rw [outPieces_length]; omega) _ _ rfl
  · exact cover_at c R i 51 hkk 76 (by rw [outPieces_length]; omega) _ _ rfl
  · exact cover_at c R i 52 hkk 75 (by rw [outPieces_length]; omega) _ _ rfl
  · exact cover_at c R i 53 hkk 74 (by rw [outPieces_length]; omega) _ _ rfl
  · exact cover_at c R i 54 hkk 73 (by rw [outPieces_length]; omega) _ _ rfl
  · exact cover_at c R i 55 hkk 72 (by rw [outPieces_length]; omega) _ _ rfl
  · exact cover_at c R i 56 hkk 71 (by rw [outPieces_length]; omega) _ _ rfl
  · exact cover_at c R i 57 hkk 70 (by rw [outPieces_length]; omega) _ _ rfl
  · exact cover_at c R i 58 hkk 69 (by rw [outPieces_length]; omega) _ _ rfl
  · exact cover_at c R i 59 hkk 68 (by rw [outPieces_length]; omega) _ _ rfl
  · exact cover_at c R i 60 hkk 67 (by rw [outPieces_length]; omega) _ _ rfl
  · exact cover_at c R i 61 hkk 66 (by rw [outPieces_length]; omega) _ _ rfl
  · exact cover_at c R i 62 hkk 65 (by rw [outPieces_length]; omega) _ _ rfl
  · exact cover_at c R i 63 hkk 64 (by rw [outPieces_length]; omega) _ _ rfl
  · exact cover_at c R i 64 hkk 63 (by rw [outPieces_length]; omega) _ _ rfl
  · exact cover_at c R i 65 hkk 62 (by rw [outPieces_length]; omega) _ _ rfl
  · exact cover_at c R i 66 hkk 61 (by rw [outPieces_length]; omega) _ _ rfl
  · exact cover_at c R i 67 hkk 60 (by rw [outPieces_length]; omega) _ _ rfl
  · exact cover_at c R i 68 hkk 59 (by rw [outPieces_length]; omega) _ _ rfl
  · exact cover_at c R i 69 hkk 58 (by rw [outPieces_length]; omega) _ _ rfl
  · exact cover_at c R i 70 hkk 57 (by rw [outPieces_length]; omega) _ _ rfl
  · exact cover_at c R i 71 hkk 56 (by rw [outPieces_length]; omega) _ _ rfl
  · exact cover_at c R i 72 hkk 55 (by rw [outPieces_length]; omega) _ _ rfl
  · exact cover_at c R i 73 hkk 54 (by rw [outPieces_length]; omega) _ _ rfl
  · exact cover_at c R i 74 hkk 53 (by rw [outPieces_length]; omega) _ _ rfl
  · exact cover_at c R i 75 hkk 52 (by rw [outPieces_length]; omega) _ _ rfl
  · exact cover_at c R i 76 hkk 51 (by rw [outPieces_length]; omega) _ _ rfl
  · exact cover_at c R i 77 hkk 50 (by rw [outPieces_length]; omega) _ _ rfl
  · exact cover_at c R i 78 hkk 49 (by rw [outPieces_length]; omega) _ _ rfl
  · exact cover_at c R i 79 hkk 48 (by rw [outPieces_length]; omega) _ _ rfl
  · exact cover_at c R i 80 hkk 47 (by rw [outPieces_length]; omega) _ _ rfl
  · exact cover_at c R i 81 hkk 46 (by rw [outPieces_length]; omega) _ _ rfl
  · exact cover_at c R i 82 hkk 45 (by rw [outPieces_length]; omega) _ _ rfl
  · exact cover_at c R i 83 hkk 44 (by rw [outPieces_length]; omega) _ _ rfl
  · exact cover_at c R i 84 hkk 43 (by rw [outPieces_length]; omega) _ _ rfl
  · exact cover_at c R i 85 hkk 42 (by rw [outPieces_length]; omega) _ _ rfl
  · exact cover_at c R i 86 hkk 41 (by rw [outPieces_length]; omega) _ _ rfl
  · exact cover_at c R i 87 hkk 40 (by rw [outPieces_length]; omega) _ _ rfl
  · exact cover_at c R i 88 hkk 39 (by rw [outPieces_length]; omega) _ _ rfl
  · exact cover_at c R i 89 hkk 38 (by rw [outPieces_length]; omega) _ _ rfl
  · exact cover_at c R i 90 hkk 37 (by rw [outPieces_length]; omega) _ _ rfl
  · exact cover_at c R i 91 hkk 36 (by rw [outPieces_length]; omega) _ _ rfl
  · exact cover_at c R i 92 hkk 35 (by rw [outPieces_length]; omega) _ _ rfl
  · exact cover_at c R i 93 hkk 34 (by rw [outPieces_length]; omega) _ _ rfl
  · exact cover_at c R i 94 hkk 33 (by rw [outPieces_length]; omega) _ _ rfl
  · exact cover_at c R i 95 hkk 32 (by rw [outPieces_length]; omega) _ _ rfl
  · exact cover_at c R i 96 hkk 31 (by rw [outPieces_length]; omega) _ _ rfl
  · exact cover_at c R i 97 hkk 30 (by rw [outPieces_length]; omega) _ _ rfl
  · exact cover_at c R i 98 hkk 29 (by rw [outPieces_length]; omega) _ _ rfl
  · exact cover_at c R i 99 hkk 28 (by rw [outPieces_length]; omega) _ _ rfl
  · exact cover_at c R i 100 hkk 27 (by rw [outPieces_length]; omega) _ _ rfl
  · exact cover_at c R i 101 hkk 26 (by rw [outPieces_length]; omega) _ _ rfl
  · exact cover_at c R i 102 hkk 25 (by rw [outPieces_length]; omega) _ _ rfl
  · exact cover_at c R i 103 hkk 24 (by rw [outPieces_length]; omega) _ _ rfl
  · exact cover_at c R i 104 hkk 23 (by rw [outPieces_length]; omega) _ _ rfl
  · exact cover_at c R i 105 hkk 22 (by rw [outPieces_length]; omega) _ _ rfl
  · exact cover_at c R i 106 hkk 21 (by rw [outPieces_length]; omega) _ _ rfl
  · exact cover_at c R i 107 hkk 20 (by rw [outPieces_length]; omega) _ _ rfl
  · exact cover_at c R i 108 hkk 19 (by rw [outPieces_length]; omega) _ _ rfl
  · exact cover_at c R i 109 hkk 18 (by rw [outPieces_length]; omega) _ _ rfl
  · exact cover_at c R i 110 hkk 17 (by rw [outPieces_length]; omega) _ _ rfl
  · exact cover_at c R i 111 hkk 16 (by rw [outPieces_length]; omega) _ _ rfl
  · exact cover_at c R i 112 hkk 15 (by rw [outPieces_length]; omega) _ _ rfl
  · exact cover_at c R i 113 hkk 14 (by rw [outPieces_length]; omega) _ _ rfl
  · exact cover_at c R i 114 hkk 13 (by rw [outPieces_length]; omega) _ _ rfl
  · exact cover_at c R i 115 hkk 12 (by rw [outPieces_length]; omega) _ _ rfl
  · exact cover_at c R i 116 hkk 11 (by rw [outPieces_length]; omega) _ _ rfl
  · exact cover_at c R i 117 hkk 10 (by rw [outPieces_length]; omega) _ _ rfl
  · exact cover_at c R i 118 hkk 9 (by rw [outPieces_length]; omega) _ _ rfl
  · exact cover_at c R i 119 hkk 8 (by rw [outPieces_length]; omega) _ _ rfl
  · exact cover_at c R i 120 hkk 7 (by rw [outPieces_length]; omega) _ _ rfl
  · exact cover_at c R i 121 hkk 6 (by rw [outPieces_length]; omega) _ _ rfl
  · exact cover_at c R i 122 hkk 5 (by rw [outPieces_length]; omega) _ _ rfl
  · exact cover_at c R i 123 hkk 4 (by rw [outPieces_length]; omega) _ _ rfl
  · exact cover_at c R i 124 hkk 3 (by rw [outPieces_length]; omega) _ _ rfl
  · exact cover_at c R i 125 hkk 2 (by rw [outPieces_length]; omega) _ _ rfl
  · exact cover_at c R i 126 hkk 1 (by rw [outPieces_length]; omega) _ _ rfl
  · exact cover_at c R i 127 hkk 0 (by rw [outPieces_length]; omega) _ _ rfl

/-- The result tile after the 128 stores, over any prior contents, is the closed form. -/
theorem out_final (c : Dev nD) (fo : Buf (Elt F) ((Memref.whole cc0_stg2_0 : Memref sig .tc .vmem S1024x32 .f32).view.loc (c : Thread nD τ))) :
    (Memref.whole cc0_stg2_0 : Memref sig .tc .vmem S1024x32 .f32).view.writes (Elt F) fo (outPieces c (Rfin m c)) = outFin m c := by
  funext i
  exact View.read_writes_apply_of_pieces (Memref.whole cc0_stg2_0 : Memref sig .tc .vmem S1024x32 .f32).view fo (outFin m c) (outPieces c (Rfin m c))
    (outPieces_agree m c) i (outPieces_cover c (Rfin m c) i)

end Cert.Kernel.Exchange

end
-- ==== Proof.W.Body.lean ====
import proofs.«900436_g7700000000000437_dist_gemm_a2a_m1024_k1024_n1024_f32_relu_v7x_i32_1_alg».proof.Proof.W.BodyPost
import proofs.«900436_g7700000000000437_dist_gemm_a2a_m1024_k1024_n1024_f32_relu_v7x_i32_1_alg».proof.Proof.W.StageHw
import proofs.«900436_g7700000000000437_dist_gemm_a2a_m1024_k1024_n1024_f32_relu_v7x_i32_1_alg».proof.Proof.W.OutFinal

/-!
# One device's body

The body of device `c`, run from what the launch deals it to what the region's exit needs: the local statements in program order
over buffers held whole or slot by slot, each remote statement by its rule of the protocol.
-/

set_option maxRecDepth 16384

noncomputable section

namespace Cert.Kernel.Exchange

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-- The signal rule, the device given by its printed chain's equation and the receive slot as a rectangle of the buffer. -/
theorem step_signal' (K : Dev nD × CellIx → ℕ) (c p dev : Dev nD) (hdev : dev = p) (hp : p ≠ c)
    (O' O : CellTallies nD τ sig Unit) (hO : O' = O + tallyAt (barCell p) () 1) (W : Waits sig Unit)
    (f : Buf (Elt F) ((c : Thread nD τ).loc cc0_scratch1)) (n : ℕ) (hn : n = 1)
    {α : Type} {Q : α → sProp 𝕄} {k : PUnit → Prog (TpuEff nD τ sig (Elt F) Λ₀ .tc) α} :
    iprop(records m K ∗ owes (c : Thread nD τ) O' W ∗ dutyTok ER (barCell p) 0 c
        ∗ (((c : Thread nD τ).loc cc0_scratch1) ↦[(slotRect p).set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((dev, Proc.tc) : Thread nD τ) barS n) k) Q) := by
  subst hdev hO hn
  rw [← rcvSlot_eq]
  exact step_signal m K c dev hp O W f

/-- After a whole-tile store into slot `d` the slot holds the stored tile: if the tile is the final contents' there, so
    are the slot's contents. -/
theorem store_val (c d : Dev nD) (f : Buf (Elt F) ((c : Thread nD τ).loc cc0_scratch0)) (w : FVec F S1x8x128 .f32)
    (hw : ∀ (r : Fin 8) (l : Fin 128), w (ValueIdx.ix3 (n0 := 1) ⟨0, Nat.one_pos⟩ r l) = Sfin m c (ValueIdx.ix3 (n0 := 32) d r l)) :
    ∀ j ∈ (slotRect d).set, View.write (Elt F) (stgM.access (slotRect d)) f w Finset.univ j = Sfin m c j := by
  intro j hj
  have hj' : j ∈ (stgM.access (slotRect d)).set := by
    rw [show (stgM.access (slotRect d)).set = (slotRect d).set from View.set_slice_whole _ _]; exact hj
  obtain ⟨y, rfl⟩ := View.exists_emb_of_mem_set _ hj'
  rw [View.write_emb_of_mem _ _ (Finset.mem_univ y)]
  obtain ⟨z, r, l, rfl⟩ : ∃ (z : Fin 1) (r : Fin 8) (l : Fin 128), y = ValueIdx.ix3 z r l := ⟨y 0, y 1, y 2, ValueIdx.eq_ix3 y⟩
  have hz : z = ⟨0, Nat.one_pos⟩ := Fin.ext (by have := z.isLt; omega)
  subst hz
  have he : (stgM.access (slotRect d)).emb (ValueIdx.ix3 (n0 := 1) ⟨0, Nat.one_pos⟩ r l) = ValueIdx.ix3 (n0 := 32) d r l := by
    funext a
    apply Fin.ext
    match a with
    | ⟨0, _⟩ => show d.val + 1 * 0 = d.val; omega
    | ⟨1, _⟩ => show 0 + 1 * r.val = r.val; omega
    | ⟨2, _⟩ => show 0 + 1 * l.val = l.val; omega
  rw [he]
  exact hw r l

/-- A buffer's contents given a name, with the equation that defines it. -/
theorem pts_name (c : Dev nD) (f : Buf (Elt F) (oM.view.loc (c : Thread nD τ))) :
    ((oM.view.loc (c : Thread nD τ) ↦[oM.view.set]{fullShare} f) : sProp 𝕄)
      ⊢ iprop(∃ g : Buf (Elt F) (oM.view.loc (c : Thread nD τ)), ⌜g = f⌝ ∗ (oM.view.loc (c : Thread nD τ) ↦[oM.view.set]{fullShare} g)) := by
  iintro H
  iexists f
  isplitr
  · ipureintro; rfl
  · iexact H

/-- A program that has returned satisfies its postcondition at the returned value. -/
theorem wp_ret_of (c : Dev nD) {α : Type} (a : α) (Q : α → sProp 𝕄) :
    Q a ⊢ wp frame (wpE (defs₀ (F := F)) 𝒱₀ (c : Thread nD τ) none) Set.univ (Prog.ret a) Q := by
  rw [wp_ret]; iintro H; imodintro; iexact H

/-- The two DMA waits, the printed semaphore and slot given by their equations. -/
theorem step_recv_wait' (K : Dev nD × CellIx → ℕ) (c s : Dev nD) (W : Waits sig Unit)
    (q : DmaSem sig) (hq : q = recvQ s) (dst : Memref sig .tc .vmem S8x128 .f32) (hdstM : dst = slotM rcvM s)
    {sp' : Space} {s' : Shape} {e' : EltTy} {src : Memref sig .tc sp' s' e'} {hsrc : src.view.WordExact} {hdst : dst.view.WordExact}
    {α : Type} {Q : α → sProp 𝕄} {k : PUnit → Prog (TpuEff nD τ sig (Elt F) Λ₀ .tc) α} :
    iprop(records m K ∗ cred (tallyAt (recvCell c s) () N) ∗ owes (c : Thread nD τ) 0 W ∗ atPos ER (recvCell c s) 0 ∅ 0)
      ⊢ iprop(((owes (c : Thread nD τ) 0 (insert (SemLoc.dma (recvQ s), ()) W) ∗ atPos ER (recvCell c s) 1 ∅ 0 ∗ rcvSlot c s (Rfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdstM
  exact step_recv_wait m K c s W
theorem step_send_wait' (K : Dev nD × CellIx → ℕ) (c d : Dev nD) (W : Waits sig Unit)
    (q : DmaSem sig) (hq : q = sendQ d) (dst : Memref sig .tc .vmem S8x128 .f32) (hdstM : dst = slotM stgM d)
    {sp' : Space} {s' : Shape} {e' : EltTy} {src : Memref sig .tc sp' s' e'} {hsrc : src.view.WordExact} {hdst : dst.view.WordExact}
    {α : Type} {Q : α → sProp 𝕄} {k : PUnit → Prog (TpuEff nD τ sig (Elt F) Λ₀ .tc) α} :
    iprop(records m K ∗ cred (tallyAt (sendCell c d) () N) ∗ owes (c : Thread nD τ) 0 W ∗ atPos ER (sendCell c d) 0 ∅ 0)
      ⊢ iprop(((owes (c : Thread nD τ) 0 (insert (SemLoc.dma (sendQ d), ()) W) ∗ atPos ER (sendCell c d) 1 ∅ 0 ∗ stgSlot c d (Sfin m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdstM
  exact step_send_wait m K c d W

set_option maxHeartbeats 8000000 in
/-- THE RUN of one device's body. -/
theorem body_run : BodyRun (F := F) m := fun K c W fs fr fo => by
  unfold bodyPre
  iintro ⟨#HR, Hlin, Hcb, Hcr, #Hlev, Hs, Hr, HO, Hx, Hw, Ho⟩
  unfold linear
  icases Hlin with ⟨HaB, HaS, HaR, HtB, HtS, HtR⟩
  rw [O₀_owe]
  -- tokens, positions and credit, each in the order the body consumes it
  ihave HtB := (Entails.of_eq (chain_sig c (fun p : Dev nD => (dutyTok ER (barCell p) 0 c : sProp 𝕄)))) $$ HtB
  icases HtB with ⟨HtB1, HtB2, HtB3, HtB4, HtB5, HtB6, HtB7, HtB8, HtB9, HtB10, HtB11, HtB12, HtB13, HtB14, HtB15, HtB16, HtB17, HtB18, HtB19, HtB20, HtB21, HtB22, HtB23, HtB24, HtB25, HtB26, HtB27, HtB28, HtB29, HtB30, HtB31⟩
  ihave HtS := (Entails.of_eq (chain_send c (fun d : Dev nD => (dutyTok ER (sendCell c d) 0 c : sProp 𝕄)))) $$ HtS
  icases HtS with ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29, HtS30, HtS31⟩
  ihave HtR := (Entails.of_eq (chain_send c (fun d : Dev nD => (dutyTok ER (recvCell d c) 0 c : sProp 𝕄)))) $$ HtR
  icases HtR with ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29, HtR30, HtR31⟩
  ihave HaS := (Entails.of_eq (chain_send c (fun d : Dev nD => (atPos ER (sendCell c d) 0 ∅ 0 : sProp 𝕄)))) $$ HaS
  icases HaS with ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31⟩
  ihave HaR := (Entails.of_eq (chain_all (fun s : Dev nD => (atPos ER (recvCell c s) 0 ∅ 0 : sProp 𝕄)))) $$ HaR
  icases HaR with ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31⟩
  ihave Hcr := (Entails.of_eq (chain_all (fun s : Dev nD => (cred (tallyAt (recvCell c s) () N) : sProp 𝕄)))) $$ Hcr
  icases Hcr with ⟨Hcr0, Hcr1, Hcr2, Hcr3, Hcr4, Hcr5, Hcr6, Hcr7, Hcr8, Hcr9, Hcr10, Hcr11, Hcr12, Hcr13, Hcr14, Hcr15, Hcr16, Hcr17, Hcr18, Hcr19, Hcr20, Hcr21, Hcr22, Hcr23, Hcr24, Hcr25, Hcr26, Hcr27, Hcr28, Hcr29, Hcr30, Hcr31⟩
  -- the receive scratch by slots: the device's own, and the 31 it hands to the others, in signalling order
  ihave Hr := (Entails.of_eq (rcv_slots (F := F) c fullShare fr)) $$ Hr
  ihave Hr := (Entails.of_eq (split_own c (fun d : Dev nD => ((((c : Thread nD τ).loc cc0_scratch1) ↦[(slotRect d).set]{fullShare} fr) : sProp 𝕄)))) $$ Hr
  icases Hr with ⟨Hrc, Hrest⟩
  ihave Hrch := (Entails.of_eq (chain_sig c (fun d : Dev nD => ((((c : Thread nD τ).loc cc0_scratch1) ↦[(slotRect d).set]{fullShare} fr) : sProp 𝕄)))) $$ Hrest
  icases Hrch with ⟨Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31⟩
  -- the staging scratch by slots, by number
  ihave Hs := (Entails.of_eq (stg_slots (F := F) c fullShare fs)) $$ Hs
  ihave Hsch := (Entails.of_eq (chain_all (fun d : Dev nD => ((((c : Thread nD τ).loc cc0_scratch0) ↦[(slotRect d).set]{fullShare} fs) : sProp 𝕄)))) $$ Hs
  icases Hsch with ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31⟩
  ihave Hs0 := (Entails.of_eq (stgSlot_eq c 0 fs).symm) $$ Hs0
  ihave Hs1 := (Entails.of_eq (stgSlot_eq c 1 fs).symm) $$ Hs1
  ihave Hs2 := (Entails.of_eq (stgSlot_eq c 2 fs).symm) $$ Hs2
  ihave Hs3 := (Entails.of_eq (stgSlot_eq c 3 fs).symm) $$ Hs3
  ihave Hs4 := (Entails.of_eq (stgSlot_eq c 4 fs).symm) $$ Hs4
  ihave Hs5 := (Entails.of_eq (stgSlot_eq c 5 fs).symm) $$ Hs5
  ihave Hs6 := (Entails.of_eq (stgSlot_eq c 6 fs).symm) $$ Hs6
  ihave Hs7 := (Entails.of_eq (stgSlot_eq c 7 fs).symm) $$ Hs7
  ihave Hs8 := (Entails.of_eq (stgSlot_eq c 8 fs).symm) $$ Hs8
  ihave Hs9 := (Entails.of_eq (stgSlot_eq c 9 fs).symm) $$ Hs9
  ihave Hs10 := (Entails.of_eq (stgSlot_eq c 10 fs).symm) $$ Hs10
  ihave Hs11 := (Entails.of_eq (stgSlot_eq c 11 fs).symm) $$ Hs11
  ihave Hs12 := (Entails.of_eq (stgSlot_eq c 12 fs).symm) $$ Hs12
  ihave Hs13 := (Entails.of_eq (stgSlot_eq c 13 fs).symm) $$ Hs13
  ihave Hs14 := (Entails.of_eq (stgSlot_eq c 14 fs).symm) $$ Hs14
  ihave Hs15 := (Entails.of_eq (stgSlot_eq c 15 fs).symm) $$ Hs15
  ihave Hs16 := (Entails.of_eq (stgSlot_eq c 16 fs).symm) $$ Hs16
  ihave Hs17 := (Entails.of_eq (stgSlot_eq c 17 fs).symm) $$ Hs17
  ihave Hs18 := (Entails.of_eq (stgSlot_eq c 18 fs).symm) $$ Hs18
  ihave Hs19 := (Entails.of_eq (stgSlot_eq c 19 fs).symm) $$ Hs19
  ihave Hs20 := (Entails.of_eq (stgSlot_eq c 20 fs).symm) $$ Hs20
  ihave Hs21 := (Entails.of_eq (stgSlot_eq c 21 fs).symm) $$ Hs21
  ihave Hs22 := (Entails.of_eq (stgSlot_eq c 22 fs).symm) $$ Hs22
  ihave Hs23 := (Entails.of_eq (stgSlot_eq c 23 fs).symm) $$ Hs23
  ihave Hs24 := (Entails.of_eq (stgSlot_eq c 24 fs).symm) $$ Hs24
  ihave Hs25 := (Entails.of_eq (stgSlot_eq c 25 fs).symm) $$ Hs25
  ihave Hs26 := (Entails.of_eq (stgSlot_eq c 26 fs).symm) $$ Hs26
  ihave Hs27 := (Entails.of_eq (stgSlot_eq c 27 fs).symm) $$ Hs27
  ihave Hs28 := (Entails.of_eq (stgSlot_eq c 28 fs).symm) $$ Hs28
  ihave Hs29 := (Entails.of_eq (stgSlot_eq c 29 fs).symm) $$ Hs29
  ihave Hs30 := (Entails.of_eq (stgSlot_eq c 30 fs).symm) $$ Hs30
  ihave Hs31 := (Entails.of_eq (stgSlot_eq c 31 fs).symm) $$ Hs31
  -- the signal to the device 1 place on
  try sl_exec
  iapply (step_signal' m K c (peer c 1) _ (dev1_eq c) (peer_ne c 1 (by decide) (by decide)) (owe0 c) (owe1 c) rfl W fr _ rfl) $$ [HO HtB1 Hr1]
  · isplitr; · iexact HR
    isplitl [HO]; · iexact HO
    isplitl [HtB1]; · iexact HtB1
    iexact Hr1
  iintro HO
  -- the signal to the device 2 places on
  try sl_exec
  iapply (step_signal' m K c (peer c 2) _ (dev2_eq c) (peer_ne c 2 (by decide) (by decide)) (owe1 c) (owe2 c) rfl W fr _ rfl) $$ [HO HtB2 Hr2]
  · isplitr; · iexact HR
    isplitl [HO]; · iexact HO
    isplitl [HtB2]; · iexact HtB2
    iexact Hr2
  iintro HO
  -- the signal to the device 3 places on
  try sl_exec
  iapply (step_signal' m K c (peer c 3) _ (dev3_eq c) (peer_ne c 3 (by decide) (by decide)) (owe2 c) (owe3 c) rfl W fr _ rfl) $$ [HO HtB3 Hr3]
  · isplitr; · iexact HR
    isplitl [HO]; · iexact HO
    isplitl [HtB3]; · iexact HtB3
    iexact Hr3
  iintro HO
  -- the signal to the device 4 places on
  try sl_exec
  iapply (step_signal' m K c (peer c 4) _ (dev4_eq c) (peer_ne c 4 (by decide) (by decide)) (owe3 c) (owe4 c) rfl W fr _ rfl) $$ [HO HtB4 Hr4]
  · isplitr; · iexact HR
    isplitl [HO]; · iexact HO
    isplitl [HtB4]; · iexact HtB4
    iexact Hr4
  iintro HO
  -- the signal to the device 5 places on
  try sl_exec
  iapply (step_signal' m K c (peer c 5) _ (dev5_eq c) (peer_ne c 5 (by decide) (by decide)) (owe4 c) (owe5 c) rfl W fr _ rfl) $$ [HO HtB5 Hr5]
  · isplitr; · iexact HR
    isplitl [HO]; · iexact HO
    isplitl [HtB5]; · iexact HtB5
    iexact Hr5
  iintro HO
  -- the signal to the device 6 places on
  try sl_exec
  iapply (step_signal' m K c (peer c 6) _ (dev6_eq c) (peer_ne c 6 (by decide) (by decide)) (owe5 c) (owe6 c) rfl W fr _ rfl) $$ [HO HtB6 Hr6]
  · isplitr; · iexact HR
    isplitl [HO]; · iexact HO
    isplitl [HtB6]; · iexact HtB6
    iexact Hr6
  iintro HO
  -- the signal to the device 7 places on
  try sl_exec
  iapply (step_signal' m K c (peer c 7) _ (dev7_eq c) (peer_ne c 7 (by decide) (by decide)) (owe6 c) (owe7 c) rfl W fr _ rfl) $$ [HO HtB7 Hr7]
  · isplitr; · iexact HR
    isplitl [HO]; · iexact HO
    isplitl [HtB7]; · iexact HtB7
    iexact Hr7
  iintro HO
  -- the signal to the device 8 places on
  try sl_exec
  iapply (step_signal' m K c (peer c 8) _ (dev8_eq c) (peer_ne c 8 (by decide) (by decide)) (owe7 c) (owe8 c) rfl W fr _ rfl) $$ [HO HtB8 Hr8]
  · isplitr; · iexact HR
    isplitl [HO]; · iexact HO
    isplitl [HtB8]; · iexact HtB8
    iexact Hr8
  iintro HO
  -- the signal to the device 9 places on
  try sl_exec
  iapply (step_signal' m K c (peer c 9) _ (dev9_eq c) (peer_ne c 9 (by decide) (by decide)) (owe8 c) (owe9 c) rfl W fr _ rfl) $$ [HO HtB9 Hr9]
  · isplitr; · iexact HR
    isplitl [HO]; · iexact HO
    isplitl [HtB9]; · iexact HtB9
    iexact Hr9
  iintro HO
  -- the signal to the device 10 places on
  try sl_exec
  iapply (step_signal' m K c (peer c 10) _ (dev10_eq c) (peer_ne c 10 (by decide) (by decide)) (owe9 c) (owe10 c) rfl W fr _ rfl) $$ [HO HtB10 Hr10]
  · isplitr; · iexact HR
    isplitl [HO]; · iexact HO
    isplitl [HtB10]; · iexact HtB10
    iexact Hr10
  iintro HO
  -- the signal to the device 11 places on
  try sl_exec
  iapply (step_signal' m K c (peer c 11) _ (dev11_eq c) (peer_ne c 11 (by decide) (by decide)) (owe10 c) (owe11 c) rfl W fr _ rfl) $$ [HO HtB11 Hr11]
  · isplitr; · iexact HR
    isplitl [HO]; · iexact HO
    isplitl [HtB11]; · iexact HtB11
    iexact Hr11
  iintro HO
  -- the signal to the device 12 places on
  try sl_exec
  iapply (step_signal' m K c (peer c 12) _ (dev12_eq c) (peer_ne c 12 (by decide) (by decide)) (owe11 c) (owe12 c) rfl W fr _ rfl) $$ [HO HtB12 Hr12]
  · isplitr; · iexact HR
    isplitl [HO]; · iexact HO
    isplitl [HtB12]; · iexact HtB12
    iexact Hr12
  iintro HO
  -- the signal to the device 13 places on
  try sl_exec
  iapply (step_signal' m K c (peer c 13) _ (dev13_eq c) (peer_ne c 13 (by decide) (by decide)) (owe12 c) (owe13 c) rfl W fr _ rfl) $$ [HO HtB13 Hr13]
  · isplitr; · iexact HR
    isplitl [HO]; · iexact HO
    isplitl [HtB13]; · iexact HtB13
    iexact Hr13
  iintro HO
  -- the signal to the device 14 places on
  try sl_exec
  iapply (step_signal' m K c (peer c 14) _ (dev14_eq c) (peer_ne c 14 (by decide) (by decide)) (owe13 c) (owe14 c) rfl W fr _ rfl) $$ [HO HtB14 Hr14]
  · isplitr; · iexact HR
    isplitl [HO]; · iexact HO
    isplitl [HtB14]; · iexact HtB14
    iexact Hr14
  iintro HO
  -- the signal to the device 15 places on
  try sl_exec
  iapply (step_signal' m K c (peer c 15) _ (dev15_eq c) (peer_ne c 15 (by decide) (by decide)) (owe14 c) (owe15 c) rfl W fr _ rfl) $$ [HO HtB15 Hr15]
  · isplitr; · iexact HR
    isplitl [HO]; · iexact HO
    isplitl [HtB15]; · iexact HtB15
    iexact Hr15
  iintro HO
  -- the signal to the device 16 places on
  try sl_exec
  iapply (step_signal' m K c (peer c 16) _ (dev16_eq c) (peer_ne c 16 (by decide) (by decide)) (owe15 c) (owe16 c) rfl W fr _ rfl) $$ [HO HtB16 Hr16]
  · isplitr; · iexact HR
    isplitl [HO]; · iexact HO
    isplitl [HtB16]; · iexact HtB16
    iexact Hr16
  iintro HO
  -- the signal to the device 17 places on
  try sl_exec
  iapply (step_signal' m K c (peer c 17) _ (dev17_eq c) (peer_ne c 17 (by decide) (by decide)) (owe16 c) (owe17 c) rfl W fr _ rfl) $$ [HO HtB17 Hr17]
  · isplitr; · iexact HR
    isplitl [HO]; · iexact HO
    isplitl [HtB17]; · iexact HtB17
    iexact Hr17
  iintro HO
  -- the signal to the device 18 places on
  try sl_exec
  iapply (step_signal' m K c (peer c 18) _ (dev18_eq c) (peer_ne c 18 (by decide) (by decide)) (owe17 c) (owe18 c) rfl W fr _ rfl) $$ [HO HtB18 Hr18]
  · isplitr; · iexact HR
    isplitl [HO]; · iexact HO
    isplitl [HtB18]; · iexact HtB18
    iexact Hr18
  iintro HO
  -- the signal to the device 19 places on
  try sl_exec
  iapply (step_signal' m K c (peer c 19) _ (dev19_eq c) (peer_ne c 19 (by decide) (by decide)) (owe18 c) (owe19 c) rfl W fr _ rfl) $$ [HO HtB19 Hr19]
  · isplitr; · iexact HR
    isplitl [HO]; · iexact HO
    isplitl [HtB19]; · iexact HtB19
    iexact Hr19
  iintro HO
  -- the signal to the device 20 places on
  try sl_exec
  iapply (step_signal' m K c (peer c 20) _ (dev20_eq c) (peer_ne c 20 (by decide) (by decide)) (owe19 c) (owe20 c) rfl W fr _ rfl) $$ [HO HtB20 Hr20]
  · isplitr; · iexact HR
    isplitl [HO]; · iexact HO
    isplitl [HtB20]; · iexact HtB20
    iexact Hr20
  iintro HO
  -- the signal to the device 21 places on
  try sl_exec
  iapply (step_signal' m K c (peer c 21) _ (dev21_eq c) (peer_ne c 21 (by decide) (by decide)) (owe20 c) (owe21 c) rfl W fr _ rfl) $$ [HO HtB21 Hr21]
  · isplitr; · iexact HR
    isplitl [HO]; · iexact HO
    isplitl [HtB21]; · iexact HtB21
    iexact Hr21
  iintro HO
  -- the signal to the device 22 places on
  try sl_exec
  iapply (step_signal' m K c (peer c 22) _ (dev22_eq c) (peer_ne c 22 (by decide) (by decide)) (owe21 c) (owe22 c) rfl W fr _ rfl) $$ [HO HtB22 Hr22]
  · isplitr; · iexact HR
    isplitl [HO]; · iexact HO
    isplitl [HtB22]; · iexact HtB22
    iexact Hr22
  iintro HO
  -- the signal to the device 23 places on
  try sl_exec
  iapply (step_signal' m K c (peer c 23) _ (dev23_eq c) (peer_ne c 23 (by decide) (by decide)) (owe22 c) (owe23 c) rfl W fr _ rfl) $$ [HO HtB23 Hr23]
  · isplitr; · iexact HR
    isplitl [HO]; · iexact HO
    isplitl [HtB23]; · iexact HtB23
    iexact Hr23
  iintro HO
  -- the signal to the device 24 places on
  try sl_exec
  iapply (step_signal' m K c (peer c 24) _ (dev24_eq c) (peer_ne c 24 (by decide) (by decide)) (owe23 c) (owe24 c) rfl W fr _ rfl) $$ [HO HtB24 Hr24]
  · isplitr; · iexact HR
    isplitl [HO]; · iexact HO
    isplitl [HtB24]; · iexact HtB24
    iexact Hr24
  iintro HO
  -- the signal to the device 25 places on
  try sl_exec
  iapply (step_signal' m K c (peer c 25) _ (dev25_eq c) (peer_ne c 25 (by decide) (by decide)) (owe24 c) (owe25 c) rfl W fr _ rfl) $$ [HO HtB25 Hr25]
  · isplitr; · iexact HR
    isplitl [HO]; · iexact HO
    isplitl [HtB25]; · iexact HtB25
    iexact Hr25
  iintro HO
  -- the signal to the device 26 places on
  try sl_exec
  iapply (step_signal' m K c (peer c 26) _ (dev26_eq c) (peer_ne c 26 (by decide) (by decide)) (owe25 c) (owe26 c) rfl W fr _ rfl) $$ [HO HtB26 Hr26]
  · isplitr; · iexact HR
    isplitl [HO]; · iexact HO
    isplitl [HtB26]; · iexact HtB26
    iexact Hr26
  iintro HO
  -- the signal to the device 27 places on
  try sl_exec
  iapply (step_signal' m K c (peer c 27) _ (dev27_eq c) (peer_ne c 27 (by decide) (by decide)) (owe26 c) (owe27 c) rfl W fr _ rfl) $$ [HO HtB27 Hr27]
  · isplitr; · iexact HR
    isplitl [HO]; · iexact HO
    isplitl [HtB27]; · iexact HtB27
    iexact Hr27
  iintro HO
  -- the signal to the device 28 places on
  try sl_exec
  iapply (step_signal' m K c (peer c 28) _ (dev28_eq c) (peer_ne c 28 (by decide) (by decide)) (owe27 c) (owe28 c) rfl W fr _ rfl) $$ [HO HtB28 Hr28]
  · isplitr; · iexact HR
    isplitl [HO]; · iexact HO
    isplitl [HtB28]; · iexact HtB28
    iexact Hr28
  iintro HO
  -- the signal to the device 29 places on
  try sl_exec
  iapply (step_signal' m K c (peer c 29) _ (dev29_eq c) (peer_ne c 29 (by decide) (by decide)) (owe28 c) (owe29 c) rfl W fr _ rfl) $$ [HO HtB29 Hr29]
  · isplitr; · iexact HR
    isplitl [HO]; · iexact HO
    isplitl [HtB29]; · iexact HtB29
    iexact Hr29
  iintro HO
  -- the signal to the device 30 places on
  try sl_exec
  iapply (step_signal' m K c (peer c 30) _ (dev30_eq c) (peer_ne c 30 (by decide) (by decide)) (owe29 c) (owe30 c) rfl W fr _ rfl) $$ [HO HtB30 Hr30]
  · isplitr; · iexact HR
    isplitl [HO]; · iexact HO
    isplitl [HtB30]; · iexact HtB30
    iexact Hr30
  iintro HO
  -- the signal to the device 31 places on
  try sl_exec
  iapply (step_signal' m K c (peer c 31) _ (dev31_eq c) (peer_ne c 31 (by decide) (by decide)) (owe30 c) (owe31 c) rfl W fr _ rfl) $$ [HO HtB31 Hr31]
  · isplitr; · iexact HR
    isplitl [HO]; · iexact HO
    isplitl [HtB31]; · iexact HtB31
    iexact Hr31
  iintro HO
  -- the wait for the 31 signals; with them slot `c` of every other device's receive scratch
  try sl_exec
  iapply (step_barrier m K c (owe31 c) W) $$ [Hcb HO HaB]
  · isplitr; · iexact HR
    isplitl [Hcb]; · iexact Hcb
    isplitl [HO]; · iexact HO
    isplitr; · iapply (mayWait_bar (F := F) c); iexact Hlev
    iexact HaB
  iintro ⟨HO, HaB, Hpay⟩
  ihave Hdst := (barPay_all (F := F) c fr) $$ [Hrc Hpay]
  · isplitl [Hrc]; · iexact Hrc
    iexact Hpay
  ihave Hdch := (Entails.of_eq (chain_send c (fun d : Dev nD => (iprop(∃ f : Buf (Elt F) ((d : Thread nD τ).loc cc0_scratch1), ((d : Thread nD τ).loc cc0_scratch1) ↦[(slotRect c).set]{fullShare} f) : sProp 𝕄)))) $$ Hdst
  icases Hdch with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩, ⟨%fd15, Hd15⟩, ⟨%fd16, Hd16⟩, ⟨%fd17, Hd17⟩, ⟨%fd18, Hd18⟩, ⟨%fd19, Hd19⟩, ⟨%fd20, Hd20⟩, ⟨%fd21, Hd21⟩, ⟨%fd22, Hd22⟩, ⟨%fd23, Hd23⟩, ⟨%fd24, Hd24⟩, ⟨%fd25, Hd25⟩, ⟨%fd26, Hd26⟩, ⟨%fd27, Hd27⟩, ⟨%fd28, Hd28⟩, ⟨%fd29, Hd29⟩, ⟨%fd30, Hd30⟩, ⟨%fd31, Hd31⟩⟩
  -- group 0: each stored slot holds the final contents there; then the eight slots in sending order
  ihave Hs0 := (Entails.of_eq (stgSlot_eq c 0 _)) $$ Hs0
  ihave Hs0 := (Entails.of_eq (BI.Region.is_congr (store_val m c 0 _ _ (stage_hw_0 m c)))) $$ Hs0
  ihave Hs1 := (Entails.of_eq (stgSlot_eq c 1 _)) $$ Hs1
  ihave Hs1 := (Entails.of_eq (BI.Region.is_congr (store_val m c 1 _ _ (stage_hw_1 m c)))) $$ Hs1
  ihave Hs2 := (Entails.of_eq (stgSlot_eq c 2 _)) $$ Hs2
  ihave Hs2 := (Entails.of_eq (BI.Region.is_congr (store_val m c 2 _ _ (stage_hw_2 m c)))) $$ Hs2
  ihave Hs3 := (Entails.of_eq (stgSlot_eq c 3 _)) $$ Hs3
  ihave Hs3 := (Entails.of_eq (BI.Region.is_congr (store_val m c 3 _ _ (stage_hw_3 m c)))) $$ Hs3
  ihave Hs4 := (Entails.of_eq (stgSlot_eq c 4 _)) $$ Hs4
  ihave Hs4 := (Entails.of_eq (BI.Region.is_congr (store_val m c 4 _ _ (stage_hw_4 m c)))) $$ Hs4
  ihave Hs5 := (Entails.of_eq (stgSlot_eq c 5 _)) $$ Hs5
  ihave Hs5 := (Entails.of_eq (BI.Region.is_congr (store_val m c 5 _ _ (stage_hw_5 m c)))) $$ Hs5
  ihave Hs6 := (Entails.of_eq (stgSlot_eq c 6 _)) $$ Hs6
  ihave Hs6 := (Entails.of_eq (BI.Region.is_congr (store_val m c 6 _ _ (stage_hw_6 m c)))) $$ Hs6
  ihave Hs7 := (Entails.of_eq (stgSlot_eq c 7 _)) $$ Hs7
  ihave Hs7 := (Entails.of_eq (BI.Region.is_congr (store_val m c 7 _ _ (stage_hw_7 m c)))) $$ Hs7
  ihave Hg0 := (Entails.of_eq (grp0_rot c (fun d : Dev nD => ((((c : Thread nD τ).loc cc0_scratch0) ↦[(slotRect d).set]{fullShare} Sfin m c) : sProp 𝕄)))) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  icases Hg0 with ⟨HSs0, HSs1, HSs2, HSs3, HSs4, HSs5, HSs6, HSs7⟩
  -- the copy to the device `dest c 0 0`
  try sl_exec
  iapply (step_send' m K c (dest c 0 0) _ (dev32_eq c) _ _ (src_eq c 0 0 _ _) (dst_eq c _ _) _ _ (send_sem_eq c 0 0 _) (recv_sem_eq c _)
      (owe31 c) (owe32 c) rfl _ (Sfin m c) (fun _ _ => rfl) fd0) $$ [HSs0 Hd0 HO HtS0 HtR0]
  · isplitr; · iexact HR
    isplitl [HSs0]; · iexact HSs0
    isplitl [Hd0]; · iexact Hd0
    isplitl [HO]; · iexact HO
    isplitl [HtS0]; · iexact HtS0
    iexact HtR0
  iintro ⟨Hcs0, HO⟩
  -- the copy to the device `dest c 0 1`
  try sl_exec
  iapply (step_send' m K c (dest c 0 1) _ (dev33_eq c) _ _ (src_eq c 0 1 _ _) (dst_eq c _ _) _ _ (send_sem_eq c 0 1 _) (recv_sem_eq c _)
      (owe32 c) (owe33 c) rfl _ (Sfin m c) (fun _ _ => rfl) fd1) $$ [HSs1 Hd1 HO HtS1 HtR1]
  · isplitr; · iexact HR
    isplitl [HSs1]; · iexact HSs1
    isplitl [Hd1]; · iexact Hd1
    isplitl [HO]; · iexact HO
    isplitl [HtS1]; · iexact HtS1
    iexact HtR1
  iintro ⟨Hcs1, HO⟩
  -- the copy to the device `dest c 0 2`
  try sl_exec
  iapply (step_send' m K c (dest c 0 2) _ (dev34_eq c) _ _ (src_eq c 0 2 _ _) (dst_eq c _ _) _ _ (send_sem_eq c 0 2 _) (recv_sem_eq c _)
      (owe33 c) (owe34 c) rfl _ (Sfin m c) (fun _ _ => rfl) fd2) $$ [HSs2 Hd2 HO HtS2 HtR2]
  · isplitr; · iexact HR
    isplitl [HSs2]; · iexact HSs2
    isplitl [Hd2]; · iexact Hd2
    isplitl [HO]; · iexact HO
    isplitl [HtS2]; · iexact HtS2
    iexact HtR2
  iintro ⟨Hcs2, HO⟩
  -- the copy to the device `dest c 0 3`
  try sl_exec
  iapply (step_send' m K c (dest c 0 3) _ (dev35_eq c) _ _ (src_eq c 0 3 _ _) (dst_eq c _ _) _ _ (send_sem_eq c 0 3 _) (recv_sem_eq c _)
      (owe34 c) (owe35 c) rfl _ (Sfin m c) (fun _ _ => rfl) fd3) $$ [HSs3 Hd3 HO HtS3 HtR3]
  · isplitr; · iexact HR
    isplitl [HSs3]; · iexact HSs3
    isplitl [Hd3]; · iexact Hd3
    isplitl [HO]; · iexact HO
    isplitl [HtS3]; · iexact HtS3
    iexact HtR3
  iintro ⟨Hcs3, HO⟩
  -- the copy to the device `dest c 0 4`
  try sl_exec
  iapply (step_send' m K c (dest c 0 4) _ (dev36_eq c) _ _ (src_eq c 0 4 _ _) (dst_eq c _ _) _ _ (send_sem_eq c 0 4 _) (recv_sem_eq c _)
      (owe35 c) (owe36 c) rfl _ (Sfin m c) (fun _ _ => rfl) fd4) $$ [HSs4 Hd4 HO HtS4 HtR4]
  · isplitr; · iexact HR
    isplitl [HSs4]; · iexact HSs4
    isplitl [Hd4]; · iexact Hd4
    isplitl [HO]; · iexact HO
    isplitl [HtS4]; · iexact HtS4
    iexact HtR4
  iintro ⟨Hcs4, HO⟩
  -- the copy to the device `dest c 0 5`
  try sl_exec
  iapply (step_send' m K c (dest c 0 5) _ (dev37_eq c) _ _ (src_eq c 0 5 _ _) (dst_eq c _ _) _ _ (send_sem_eq c 0 5 _) (recv_sem_eq c _)
      (owe36 c) (owe37 c) rfl _ (Sfin m c) (fun _ _ => rfl) fd5) $$ [HSs5 Hd5 HO HtS5 HtR5]
  · isplitr; · iexact HR
    isplitl [HSs5]; · iexact HSs5
    isplitl [Hd5]; · iexact Hd5
    isplitl [HO]; · iexact HO
    isplitl [HtS5]; · iexact HtS5
    iexact HtR5
  iintro ⟨Hcs5, HO⟩
  -- the copy to the device `dest c 0 6`
  try sl_exec
  iapply (step_send' m K c (dest c 0 6) _ (dev38_eq c) _ _ (src_eq c 0 6 _ _) (dst_eq c _ _) _ _ (send_sem_eq c 0 6 _) (recv_sem_eq c _)
      (owe37 c) (owe38 c) rfl _ (Sfin m c) (fun _ _ => rfl) fd6) $$ [HSs6 Hd6 HO HtS6 HtR6]
  · isplitr; · iexact HR
    isplitl [HSs6]; · iexact HSs6
    isplitl [Hd6]; · iexact Hd6
    isplitl [HO]; · iexact HO
    isplitl [HtS6]; · iexact HtS6
    iexact HtR6
  iintro ⟨Hcs6, HO⟩
  -- the copy to the device `dest c 0 7`
  try sl_exec
  iapply (step_send' m K c (dest c 0 7) _ (dev39_eq c) _ _ (src_eq c 0 7 _ _) (dst_eq c _ _) _ _ (send_sem_eq c 0 7 _) (recv_sem_eq c _)
      (owe38 c) (owe39 c) rfl _ (Sfin m c) (fun _ _ => rfl) fd7) $$ [HSs7 Hd7 HO HtS7 HtR7]
  · isplitr; · iexact HR
    isplitl [HSs7]; · iexact HSs7
    isplitl [Hd7]; · iexact Hd7
    isplitl [HO]; · iexact HO
    isplitl [HtS7]; · iexact HtS7
    iexact HtR7
  iintro ⟨Hcs7, HO⟩
  try sl_exec
  -- group 1: each stored slot holds the final contents there; then the eight slots in sending order
  ihave Hs8 := (Entails.of_eq (stgSlot_eq c 8 _)) $$ Hs8
  ihave Hs8 := (Entails.of_eq (BI.Region.is_congr (store_val m c 8 _ _ (stage_hw_8 m c)))) $$ Hs8
  ihave Hs9 := (Entails.of_eq (stgSlot_eq c 9 _)) $$ Hs9
  ihave Hs9 := (Entails.of_eq (BI.Region.is_congr (store_val m c 9 _ _ (stage_hw_9 m c)))) $$ Hs9
  ihave Hs10 := (Entails.of_eq (stgSlot_eq c 10 _)) $$ Hs10
  ihave Hs10 := (Entails.of_eq (BI.Region.is_congr (store_val m c 10 _ _ (stage_hw_10 m c)))) $$ Hs10
  ihave Hs11 := (Entails.of_eq (stgSlot_eq c 11 _)) $$ Hs11
  ihave Hs11 := (Entails.of_eq (BI.Region.is_congr (store_val m c 11 _ _ (stage_hw_11 m c)))) $$ Hs11
  ihave Hs12 := (Entails.of_eq (stgSlot_eq c 12 _)) $$ Hs12
  ihave Hs12 := (Entails.of_eq (BI.Region.is_congr (store_val m c 12 _ _ (stage_hw_12 m c)))) $$ Hs12
  ihave Hs13 := (Entails.of_eq (stgSlot_eq c 13 _)) $$ Hs13
  ihave Hs13 := (Entails.of_eq (BI.Region.is_congr (store_val m c 13 _ _ (stage_hw_13 m c)))) $$ Hs13
  ihave Hs14 := (Entails.of_eq (stgSlot_eq c 14 _)) $$ Hs14
  ihave Hs14 := (Entails.of_eq (BI.Region.is_congr (store_val m c 14 _ _ (stage_hw_14 m c)))) $$ Hs14
  ihave Hs15 := (Entails.of_eq (stgSlot_eq c 15 _)) $$ Hs15
  ihave Hs15 := (Entails.of_eq (BI.Region.is_congr (store_val m c 15 _ _ (stage_hw_15 m c)))) $$ Hs15
  ihave Hg1 := (Entails.of_eq (grp1_rot c (fun d : Dev nD => ((((c : Thread nD τ).loc cc0_scratch0) ↦[(slotRect d).set]{fullShare} Sfin m c) : sProp 𝕄)))) $$ [Hs8 Hs9 Hs10 Hs11 Hs12 Hs13 Hs14 Hs15]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  icases Hg1 with ⟨HSs8, HSs9, HSs10, HSs11, HSs12, HSs13, HSs14, HSs15⟩
  -- the copy to the device `dest c 1 0`
  try sl_exec
  iapply (step_send' m K c (dest c 1 0) _ (dev40_eq c) _ _ (src_eq c 1 0 _ _) (dst_eq c _ _) _ _ (send_sem_eq c 1 0 _) (recv_sem_eq c _)
      (owe39 c) (owe40 c) rfl _ (Sfin m c) (fun _ _ => rfl) fd8) $$ [HSs8 Hd8 HO HtS8 HtR8]
  · isplitr; · iexact HR
    isplitl [HSs8]; · iexact HSs8
    isplitl [Hd8]; · iexact Hd8
    isplitl [HO]; · iexact HO
    isplitl [HtS8]; · iexact HtS8
    iexact HtR8
  iintro ⟨Hcs8, HO⟩
  -- the copy to the device `dest c 1 1`
  try sl_exec
  iapply (step_send' m K c (dest c 1 1) _ (dev41_eq c) _ _ (src_eq c 1 1 _ _) (dst_eq c _ _) _ _ (send_sem_eq c 1 1 _) (recv_sem_eq c _)
      (owe40 c) (owe41 c) rfl _ (Sfin m c) (fun _ _ => rfl) fd9) $$ [HSs9 Hd9 HO HtS9 HtR9]
  · isplitr; · iexact HR
    isplitl [HSs9]; · iexact HSs9
    isplitl [Hd9]; · iexact Hd9
    isplitl [HO]; · iexact HO
    isplitl [HtS9]; · iexact HtS9
    iexact HtR9
  iintro ⟨Hcs9, HO⟩
  -- the copy to the device `dest c 1 2`
  try sl_exec
  iapply (step_send' m K c (dest c 1 2) _ (dev42_eq c) _ _ (src_eq c 1 2 _ _) (dst_eq c _ _) _ _ (send_sem_eq c 1 2 _) (recv_sem_eq c _)
      (owe41 c) (owe42 c) rfl _ (Sfin m c) (fun _ _ => rfl) fd10) $$ [HSs10 Hd10 HO HtS10 HtR10]
  · isplitr; · iexact HR
    isplitl [HSs10]; · iexact HSs10
    isplitl [Hd10]; · iexact Hd10
    isplitl [HO]; · iexact HO
    isplitl [HtS10]; · iexact HtS10
    iexact HtR10
  iintro ⟨Hcs10, HO⟩
  -- the copy to the device `dest c 1 3`
  try sl_exec
  iapply (step_send' m K c (dest c 1 3) _ (dev43_eq c) _ _ (src_eq c 1 3 _ _) (dst_eq c _ _) _ _ (send_sem_eq c 1 3 _) (recv_sem_eq c _)
      (owe42 c) (owe43 c) rfl _ (Sfin m c) (fun _ _ => rfl) fd11) $$ [HSs11 Hd11 HO HtS11 HtR11]
  · isplitr; · iexact HR
    isplitl [HSs11]; · iexact HSs11
    isplitl [Hd11]; · iexact Hd11
    isplitl [HO]; · iexact HO
    isplitl [HtS11]; · iexact HtS11
    iexact HtR11
  iintro ⟨Hcs11, HO⟩
  -- the copy to the device `dest c 1 4`
  try sl_exec
  iapply (step_send' m K c (dest c 1 4) _ (dev44_eq c) _ _ (src_eq c 1 4 _ _) (dst_eq c _ _) _ _ (send_sem_eq c 1 4 _) (recv_sem_eq c _)
      (owe43 c) (owe44 c) rfl _ (Sfin m c) (fun _ _ => rfl) fd12) $$ [HSs12 Hd12 HO HtS12 HtR12]
  · isplitr; · iexact HR
    isplitl [HSs12]; · iexact HSs12
    isplitl [Hd12]; · iexact Hd12
    isplitl [HO]; · iexact HO
    isplitl [HtS12]; · iexact HtS12
    iexact HtR12
  iintro ⟨Hcs12, HO⟩
  -- the copy to the device `dest c 1 5`
  try sl_exec
  iapply (step_send' m K c (dest c 1 5) _ (dev45_eq c) _ _ (src_eq c 1 5 _ _) (dst_eq c _ _) _ _ (send_sem_eq c 1 5 _) (recv_sem_eq c _)
      (owe44 c) (owe45 c) rfl _ (Sfin m c) (fun _ _ => rfl) fd13) $$ [HSs13 Hd13 HO HtS13 HtR13]
  · isplitr; · iexact HR
    isplitl [HSs13]; · iexact HSs13
    isplitl [Hd13]; · iexact Hd13
    isplitl [HO]; · iexact HO
    isplitl [HtS13]; · iexact HtS13
    iexact HtR13
  iintro ⟨Hcs13, HO⟩
  -- the copy to the device `dest c 1 6`
  try sl_exec
  iapply (step_send' m K c (dest c 1 6) _ (dev46_eq c) _ _ (src_eq c 1 6 _ _) (dst_eq c _ _) _ _ (send_sem_eq c 1 6 _) (recv_sem_eq c _)
      (owe45 c) (owe46 c) rfl _ (Sfin m c) (fun _ _ => rfl) fd14) $$ [HSs14 Hd14 HO HtS14 HtR14]
  · isplitr; · iexact HR
    isplitl [HSs14]; · iexact HSs14
    isplitl [Hd14]; · iexact Hd14
    isplitl [HO]; · iexact HO
    isplitl [HtS14]; · iexact HtS14
    iexact HtR14
  iintro ⟨Hcs14, HO⟩
  -- the copy to the device `dest c 1 7`
  try sl_exec
  iapply (step_send' m K c (dest c 1 7) _ (dev47_eq c) _ _ (src_eq c 1 7 _ _) (dst_eq c _ _) _ _ (send_sem_eq c 1 7 _) (recv_sem_eq c _)
      (owe46 c) (owe47 c) rfl _ (Sfin m c) (fun _ _ => rfl) fd15) $$ [HSs15 Hd15 HO HtS15 HtR15]
  · isplitr; · iexact HR
    isplitl [HSs15]; · iexact HSs15
    isplitl [Hd15]; · iexact Hd15
    isplitl [HO]; · iexact HO
    isplitl [HtS15]; · iexact HtS15
    iexact HtR15
  iintro ⟨Hcs15, HO⟩
  try sl_exec
  -- group 2: each stored slot holds the final contents there; then the eight slots in sending order
  ihave Hs16 := (Entails.of_eq (stgSlot_eq c 16 _)) $$ Hs16
  ihave Hs16 := (Entails.of_eq (BI.Region.is_congr (store_val m c 16 _ _ (stage_hw_16 m c)))) $$ Hs16
  ihave Hs17 := (Entails.of_eq (stgSlot_eq c 17 _)) $$ Hs17
  ihave Hs17 := (Entails.of_eq (BI.Region.is_congr (store_val m c 17 _ _ (stage_hw_17 m c)))) $$ Hs17
  ihave Hs18 := (Entails.of_eq (stgSlot_eq c 18 _)) $$ Hs18
  ihave Hs18 := (Entails.of_eq (BI.Region.is_congr (store_val m c 18 _ _ (stage_hw_18 m c)))) $$ Hs18
  ihave Hs19 := (Entails.of_eq (stgSlot_eq c 19 _)) $$ Hs19
  ihave Hs19 := (Entails.of_eq (BI.Region.is_congr (store_val m c 19 _ _ (stage_hw_19 m c)))) $$ Hs19
  ihave Hs20 := (Entails.of_eq (stgSlot_eq c 20 _)) $$ Hs20
  ihave Hs20 := (Entails.of_eq (BI.Region.is_congr (store_val m c 20 _ _ (stage_hw_20 m c)))) $$ Hs20
  ihave Hs21 := (Entails.of_eq (stgSlot_eq c 21 _)) $$ Hs21
  ihave Hs21 := (Entails.of_eq (BI.Region.is_congr (store_val m c 21 _ _ (stage_hw_21 m c)))) $$ Hs21
  ihave Hs22 := (Entails.of_eq (stgSlot_eq c 22 _)) $$ Hs22
  ihave Hs22 := (Entails.of_eq (BI.Region.is_congr (store_val m c 22 _ _ (stage_hw_22 m c)))) $$ Hs22
  ihave Hs23 := (Entails.of_eq (stgSlot_eq c 23 _)) $$ Hs23
  ihave Hs23 := (Entails.of_eq (BI.Region.is_congr (store_val m c 23 _ _ (stage_hw_23 m c)))) $$ Hs23
  ihave Hg2 := (Entails.of_eq (grp2_rot c (fun d : Dev nD => ((((c : Thread nD τ).loc cc0_scratch0) ↦[(slotRect d).set]{fullShare} Sfin m c) : sProp 𝕄)))) $$ [Hs16 Hs17 Hs18 Hs19 Hs20 Hs21 Hs22 Hs23]
  · isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    iexact Hs23
  icases Hg2 with ⟨HSs16, HSs17, HSs18, HSs19, HSs20, HSs21, HSs22, HSs23⟩
  -- the copy to the device `dest c 2 0`
  try sl_exec
  iapply (step_send' m K c (dest c 2 0) _ (dev48_eq c) _ _ (src_eq c 2 0 _ _) (dst_eq c _ _) _ _ (send_sem_eq c 2 0 _) (recv_sem_eq c _)
      (owe47 c) (owe48 c) rfl _ (Sfin m c) (fun _ _ => rfl) fd16) $$ [HSs16 Hd16 HO HtS16 HtR16]
  · isplitr; · iexact HR
    isplitl [HSs16]; · iexact HSs16
    isplitl [Hd16]; · iexact Hd16
    isplitl [HO]; · iexact HO
    isplitl [HtS16]; · iexact HtS16
    iexact HtR16
  iintro ⟨Hcs16, HO⟩
  -- the copy to the device `dest c 2 1`
  try sl_exec
  iapply (step_send' m K c (dest c 2 1) _ (dev49_eq c) _ _ (src_eq c 2 1 _ _) (dst_eq c _ _) _ _ (send_sem_eq c 2 1 _) (recv_sem_eq c _)
      (owe48 c) (owe49 c) rfl _ (Sfin m c) (fun _ _ => rfl) fd17) $$ [HSs17 Hd17 HO HtS17 HtR17]
  · isplitr; · iexact HR
    isplitl [HSs17]; · iexact HSs17
    isplitl [Hd17]; · iexact Hd17
    isplitl [HO]; · iexact HO
    isplitl [HtS17]; · iexact HtS17
    iexact HtR17
  iintro ⟨Hcs17, HO⟩
  -- the copy to the device `dest c 2 2`
  try sl_exec
  iapply (step_send' m K c (dest c 2 2) _ (dev50_eq c) _ _ (src_eq c 2 2 _ _) (dst_eq c _ _) _ _ (send_sem_eq c 2 2 _) (recv_sem_eq c _)
      (owe49 c) (owe50 c) rfl _ (Sfin m c) (fun _ _ => rfl) fd18) $$ [HSs18 Hd18 HO HtS18 HtR18]
  · isplitr; · iexact HR
    isplitl [HSs18]; · iexact HSs18
    isplitl [Hd18]; · iexact Hd18
    isplitl [HO]; · iexact HO
    isplitl [HtS18]; · iexact HtS18
    iexact HtR18
  iintro ⟨Hcs18, HO⟩
  -- the copy to the device `dest c 2 3`
  try sl_exec
  iapply (step_send' m K c (dest c 2 3) _ (dev51_eq c) _ _ (src_eq c 2 3 _ _) (dst_eq c _ _) _ _ (send_sem_eq c 2 3 _) (recv_sem_eq c _)
      (owe50 c) (owe51 c) rfl _ (Sfin m c) (fun _ _ => rfl) fd19) $$ [HSs19 Hd19 HO HtS19 HtR19]
  · isplitr; · iexact HR
    isplitl [HSs19]; · iexact HSs19
    isplitl [Hd19]; · iexact Hd19
    isplitl [HO]; · iexact HO
    isplitl [HtS19]; · iexact HtS19
    iexact HtR19
  iintro ⟨Hcs19, HO⟩
  -- the copy to the device `dest c 2 4`
  try sl_exec
  iapply (step_send' m K c (dest c 2 4) _ (dev52_eq c) _ _ (src_eq c 2 4 _ _) (dst_eq c _ _) _ _ (send_sem_eq c 2 4 _) (recv_sem_eq c _)
      (owe51 c) (owe52 c) rfl _ (Sfin m c) (fun _ _ => rfl) fd20) $$ [HSs20 Hd20 HO HtS20 HtR20]
  · isplitr; · iexact HR
    isplitl [HSs20]; · iexact HSs20
    isplitl [Hd20]; · iexact Hd20
    isplitl [HO]; · iexact HO
    isplitl [HtS20]; · iexact HtS20
    iexact HtR20
  iintro ⟨Hcs20, HO⟩
  -- the copy to the device `dest c 2 5`
  try sl_exec
  iapply (step_send' m K c (dest c 2 5) _ (dev53_eq c) _ _ (src_eq c 2 5 _ _) (dst_eq c _ _) _ _ (send_sem_eq c 2 5 _) (recv_sem_eq c _)
      (owe52 c) (owe53 c) rfl _ (Sfin m c) (fun _ _ => rfl) fd21) $$ [HSs21 Hd21 HO HtS21 HtR21]
  · isplitr; · iexact HR
    isplitl [HSs21]; · iexact HSs21
    isplitl [Hd21]; · iexact Hd21
    isplitl [HO]; · iexact HO
    isplitl [HtS21]; · iexact HtS21
    iexact HtR21
  iintro ⟨Hcs21, HO⟩
  -- the copy to the device `dest c 2 6`
  try sl_exec
  iapply (step_send' m K c (dest c 2 6) _ (dev54_eq c) _ _ (src_eq c 2 6 _ _) (dst_eq c _ _) _ _ (send_sem_eq c 2 6 _) (recv_sem_eq c _)
      (owe53 c) (owe54 c) rfl _ (Sfin m c) (fun _ _ => rfl) fd22) $$ [HSs22 Hd22 HO HtS22 HtR22]
  · isplitr; · iexact HR
    isplitl [HSs22]; · iexact HSs22
    isplitl [Hd22]; · iexact Hd22
    isplitl [HO]; · iexact HO
    isplitl [HtS22]; · iexact HtS22
    iexact HtR22
  iintro ⟨Hcs22, HO⟩
  -- the copy to the device `dest c 2 7`
  try sl_exec
  iapply (step_send' m K c (dest c 2 7) _ (dev55_eq c) _ _ (src_eq c 2 7 _ _) (dst_eq c _ _) _ _ (send_sem_eq c 2 7 _) (recv_sem_eq c _)
      (owe54 c) (owe55 c) rfl _ (Sfin m c) (fun _ _ => rfl) fd23) $$ [HSs23 Hd23 HO HtS23 HtR23]
  · isplitr; · iexact HR
    isplitl [HSs23]; · iexact HSs23
    isplitl [Hd23]; · iexact Hd23
    isplitl [HO]; · iexact HO
    isplitl [HtS23]; · iexact HtS23
    iexact HtR23
  iintro ⟨Hcs23, HO⟩
  try sl_exec
  -- group 3: each stored slot holds the final contents there; then the eight slots in sending order
  ihave Hs24 := (Entails.of_eq (stgSlot_eq c 24 _)) $$ Hs24
  ihave Hs24 := (Entails.of_eq (BI.Region.is_congr (store_val m c 24 _ _ (stage_hw_24 m c)))) $$ Hs24
  ihave Hs25 := (Entails.of_eq (stgSlot_eq c 25 _)) $$ Hs25
  ihave Hs25 := (Entails.of_eq (BI.Region.is_congr (store_val m c 25 _ _ (stage_hw_25 m c)))) $$ Hs25
  ihave Hs26 := (Entails.of_eq (stgSlot_eq c 26 _)) $$ Hs26
  ihave Hs26 := (Entails.of_eq (BI.Region.is_congr (store_val m c 26 _ _ (stage_hw_26 m c)))) $$ Hs26
  ihave Hs27 := (Entails.of_eq (stgSlot_eq c 27 _)) $$ Hs27
  ihave Hs27 := (Entails.of_eq (BI.Region.is_congr (store_val m c 27 _ _ (stage_hw_27 m c)))) $$ Hs27
  ihave Hs28 := (Entails.of_eq (stgSlot_eq c 28 _)) $$ Hs28
  ihave Hs28 := (Entails.of_eq (BI.Region.is_congr (store_val m c 28 _ _ (stage_hw_28 m c)))) $$ Hs28
  ihave Hs29 := (Entails.of_eq (stgSlot_eq c 29 _)) $$ Hs29
  ihave Hs29 := (Entails.of_eq (BI.Region.is_congr (store_val m c 29 _ _ (stage_hw_29 m c)))) $$ Hs29
  ihave Hs30 := (Entails.of_eq (stgSlot_eq c 30 _)) $$ Hs30
  ihave Hs30 := (Entails.of_eq (BI.Region.is_congr (store_val m c 30 _ _ (stage_hw_30 m c)))) $$ Hs30
  ihave Hs31 := (Entails.of_eq (stgSlot_eq c 31 _)) $$ Hs31
  ihave Hs31 := (Entails.of_eq (BI.Region.is_congr (store_val m c 31 _ _ (stage_hw_31 m c)))) $$ Hs31
  ihave Hg3 := (Entails.of_eq (grp3_rot c (fun d : Dev nD => ((((c : Thread nD τ).loc cc0_scratch0) ↦[(slotRect d).set]{fullShare} Sfin m c) : sProp 𝕄)))) $$ [Hs24 Hs25 Hs26 Hs27 Hs28 Hs29 Hs30 Hs31]
  · isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    iexact Hs31
  icases Hg3 with ⟨HSs24, HSs25, HSs26, HSs27, HSs28, HSs29, HSs30, HSs31⟩
  -- the copy to the device `dest c 3 0`
  try sl_exec
  iapply (step_send' m K c (dest c 3 0) _ (dev56_eq c) _ _ (src_eq c 3 0 _ _) (dst_eq c _ _) _ _ (send_sem_eq c 3 0 _) (recv_sem_eq c _)
      (owe55 c) (owe56 c) rfl _ (Sfin m c) (fun _ _ => rfl) fd24) $$ [HSs24 Hd24 HO HtS24 HtR24]
  · isplitr; · iexact HR
    isplitl [HSs24]; · iexact HSs24
    isplitl [Hd24]; · iexact Hd24
    isplitl [HO]; · iexact HO
    isplitl [HtS24]; · iexact HtS24
    iexact HtR24
  iintro ⟨Hcs24, HO⟩
  -- the copy to the device `dest c 3 1`
  try sl_exec
  iapply (step_send' m K c (dest c 3 1) _ (dev57_eq c) _ _ (src_eq c 3 1 _ _) (dst_eq c _ _) _ _ (send_sem_eq c 3 1 _) (recv_sem_eq c _)
      (owe56 c) (owe57 c) rfl _ (Sfin m c) (fun _ _ => rfl) fd25) $$ [HSs25 Hd25 HO HtS25 HtR25]
  · isplitr; · iexact HR
    isplitl [HSs25]; · iexact HSs25
    isplitl [Hd25]; · iexact Hd25
    isplitl [HO]; · iexact HO
    isplitl [HtS25]; · iexact HtS25
    iexact HtR25
  iintro ⟨Hcs25, HO⟩
  -- the copy to the device `dest c 3 2`
  try sl_exec
  iapply (step_send' m K c (dest c 3 2) _ (dev58_eq c) _ _ (src_eq c 3 2 _ _) (dst_eq c _ _) _ _ (send_sem_eq c 3 2 _) (recv_sem_eq c _)
      (owe57 c) (owe58 c) rfl _ (Sfin m c) (fun _ _ => rfl) fd26) $$ [HSs26 Hd26 HO HtS26 HtR26]
  · isplitr; · iexact HR
    isplitl [HSs26]; · iexact HSs26
    isplitl [Hd26]; · iexact Hd26
    isplitl [HO]; · iexact HO
    isplitl [HtS26]; · iexact HtS26
    iexact HtR26
  iintro ⟨Hcs26, HO⟩
  -- the copy to the device `dest c 3 3`
  try sl_exec
  iapply (step_send' m K c (dest c 3 3) _ (dev59_eq c) _ _ (src_eq c 3 3 _ _) (dst_eq c _ _) _ _ (send_sem_eq c 3 3 _) (recv_sem_eq c _)
      (owe58 c) (owe59 c) rfl _ (Sfin m c) (fun _ _ => rfl) fd27) $$ [HSs27 Hd27 HO HtS27 HtR27]
  · isplitr; · iexact HR
    isplitl [HSs27]; · iexact HSs27
    isplitl [Hd27]; · iexact Hd27
    isplitl [HO]; · iexact HO
    isplitl [HtS27]; · iexact HtS27
    iexact HtR27
  iintro ⟨Hcs27, HO⟩
  -- the copy to the device `dest c 3 4`
  try sl_exec
  iapply (step_send' m K c (dest c 3 4) _ (dev60_eq c) _ _ (src_eq c 3 4 _ _) (dst_eq c _ _) _ _ (send_sem_eq c 3 4 _) (recv_sem_eq c _)
      (owe59 c) (owe60 c) rfl _ (Sfin m c) (fun _ _ => rfl) fd28) $$ [HSs28 Hd28 HO HtS28 HtR28]
  · isplitr; · iexact HR
    isplitl [HSs28]; · iexact HSs28
    isplitl [Hd28]; · iexact Hd28
    isplitl [HO]; · iexact HO
    isplitl [HtS28]; · iexact HtS28
    iexact HtR28
  iintro ⟨Hcs28, HO⟩
  -- the copy to the device `dest c 3 5`
  try sl_exec
  iapply (step_send' m K c (dest c 3 5) _ (dev61_eq c) _ _ (src_eq c 3 5 _ _) (dst_eq c _ _) _ _ (send_sem_eq c 3 5 _) (recv_sem_eq c _)
      (owe60 c) (owe61 c) rfl _ (Sfin m c) (fun _ _ => rfl) fd29) $$ [HSs29 Hd29 HO HtS29 HtR29]
  · isplitr; · iexact HR
    isplitl [HSs29]; · iexact HSs29
    isplitl [Hd29]; · iexact Hd29
    isplitl [HO]; · iexact HO
    isplitl [HtS29]; · iexact HtS29
    iexact HtR29
  iintro ⟨Hcs29, HO⟩
  -- the copy to the device `dest c 3 6`
  try sl_exec
  iapply (step_send' m K c (dest c 3 6) _ (dev62_eq c) _ _ (src_eq c 3 6 _ _) (dst_eq c _ _) _ _ (send_sem_eq c 3 6 _) (recv_sem_eq c _)
      (owe61 c) (owe62 c) rfl _ (Sfin m c) (fun _ _ => rfl) fd30) $$ [HSs30 Hd30 HO HtS30 HtR30]
  · isplitr; · iexact HR
    isplitl [HSs30]; · iexact HSs30
    isplitl [Hd30]; · iexact Hd30
    isplitl [HO]; · iexact HO
    isplitl [HtS30]; · iexact HtS30
    iexact HtR30
  iintro ⟨Hcs30, HO⟩
  -- the copy to the device `dest c 3 7`
  try sl_exec
  iapply (step_send' m K c (dest c 3 7) _ (dev63_eq c) _ _ (src_eq c 3 7 _ _) (dst_eq c _ _) _ _ (send_sem_eq c 3 7 _) (recv_sem_eq c _)
      (owe62 c) (owe63 c) rfl _ (Sfin m c) (fun _ _ => rfl) fd31) $$ [HSs31 Hd31 HO HtS31 HtR31]
  · isplitr; · iexact HR
    isplitl [HSs31]; · iexact HSs31
    isplitl [Hd31]; · iexact Hd31
    isplitl [HO]; · iexact HO
    isplitl [HtS31]; · iexact HtS31
    iexact HtR31
  iintro ⟨Hcs31, HO⟩
  -- the copy from device 0 has landed: receive slot 0; its cell's one round is consumed and the cell closes
  try sl_exec
  iapply (step_recv_wait' m K c 0 _ _ (Fin.ext (sem_at 35 hcc0_scratch3 0)) _ rfl) $$ [Hcr0 HO HaR0]
  · isplitr; · iexact HR
    isplitl [Hcr0]; · iexact Hcr0
    isplitl [HO]; · iexact HO
    iexact HaR0
  iintro ⟨HO, HaR0, Hrv0⟩
  imod (Rounds.cell_close ER (sched m) (Set.mem_univ (K (c, .inr (.inr 0)))) (fun h => h) (R := 0 + 1) (duties_later m (recvCell c 0))) $$ [HaR0] with HzR0
  · isplitr; · iapply (inv_at m K (c, .inr (.inr 0))); iexact HR
    iexact HaR0
  -- the copy from device 1 has landed: receive slot 1; its cell's one round is consumed and the cell closes
  try sl_exec
  iapply (step_recv_wait' m K c 1 _ _ (Fin.ext (sem_at 35 hcc0_scratch3 1)) _ rfl) $$ [Hcr1 HO HaR1]
  · isplitr; · iexact HR
    isplitl [Hcr1]; · iexact Hcr1
    isplitl [HO]; · iexact HO
    iexact HaR1
  iintro ⟨HO, HaR1, Hrv1⟩
  imod (Rounds.cell_close ER (sched m) (Set.mem_univ (K (c, .inr (.inr 1)))) (fun h => h) (R := 0 + 1) (duties_later m (recvCell c 1))) $$ [HaR1] with HzR1
  · isplitr; · iapply (inv_at m K (c, .inr (.inr 1))); iexact HR
    iexact HaR1
  -- the copy from device 2 has landed: receive slot 2; its cell's one round is consumed and the cell closes
  try sl_exec
  iapply (step_recv_wait' m K c 2 _ _ (Fin.ext (sem_at 35 hcc0_scratch3 2)) _ rfl) $$ [Hcr2 HO HaR2]
  · isplitr; · iexact HR
    isplitl [Hcr2]; · iexact Hcr2
    isplitl [HO]; · iexact HO
    iexact HaR2
  iintro ⟨HO, HaR2, Hrv2⟩
  imod (Rounds.cell_close ER (sched m) (Set.mem_univ (K (c, .inr (.inr 2)))) (fun h => h) (R := 0 + 1) (duties_later m (recvCell c 2))) $$ [HaR2] with HzR2
  · isplitr; · iapply (inv_at m K (c, .inr (.inr 2))); iexact HR
    iexact HaR2
  -- the copy from device 3 has landed: receive slot 3; its cell's one round is consumed and the cell closes
  try sl_exec
  iapply (step_recv_wait' m K c 3 _ _ (Fin.ext (sem_at 35 hcc0_scratch3 3)) _ rfl) $$ [Hcr3 HO HaR3]
  · isplitr; · iexact HR
    isplitl [Hcr3]; · iexact Hcr3
    isplitl [HO]; · iexact HO
    iexact HaR3
  iintro ⟨HO, HaR3, Hrv3⟩
  imod (Rounds.cell_close ER (sched m) (Set.mem_univ (K (c, .inr (.inr 3)))) (fun h => h) (R := 0 + 1) (duties_later m (recvCell c 3))) $$ [HaR3] with HzR3
  · isplitr; · iapply (inv_at m K (c, .inr (.inr 3))); iexact HR
    iexact HaR3
  -- the copy from device 4 has landed: receive slot 4; its cell's one round is consumed and the cell closes
  try sl_exec
  iapply (step_recv_wait' m K c 4 _ _ (Fin.ext (sem_at 35 hcc0_scratch3 4)) _ rfl) $$ [Hcr4 HO HaR4]
  · isplitr; · iexact HR
    isplitl [Hcr4]; · iexact Hcr4
    isplitl [HO]; · iexact HO
    iexact HaR4
  iintro ⟨HO, HaR4, Hrv4⟩
  imod (Rounds.cell_close ER (sched m) (Set.mem_univ (K (c, .inr (.inr 4)))) (fun h => h) (R := 0 + 1) (duties_later m (recvCell c 4))) $$ [HaR4] with HzR4
  · isplitr; · iapply (inv_at m K (c, .inr (.inr 4))); iexact HR
    iexact HaR4
  -- the copy from device 5 has landed: receive slot 5; its cell's one round is consumed and the cell closes
  try sl_exec
  iapply (step_recv_wait' m K c 5 _ _ (Fin.ext (sem_at 35 hcc0_scratch3 5)) _ rfl) $$ [Hcr5 HO HaR5]
  · isplitr; · iexact HR
    isplitl [Hcr5]; · iexact Hcr5
    isplitl [HO]; · iexact HO
    iexact HaR5
  iintro ⟨HO, HaR5, Hrv5⟩
  imod (Rounds.cell_close ER (sched m) (Set.mem_univ (K (c, .inr (.inr 5)))) (fun h => h) (R := 0 + 1) (duties_later m (recvCell c 5))) $$ [HaR5] with HzR5
  · isplitr; · iapply (inv_at m K (c, .inr (.inr 5))); iexact HR
    iexact HaR5
  -- the copy from device 6 has landed: receive slot 6; its cell's one round is consumed and the cell closes
  try sl_exec
  iapply (step_recv_wait' m K c 6 _ _ (Fin.ext (sem_at 35 hcc0_scratch3 6)) _ rfl) $$ [Hcr6 HO HaR6]
  · isplitr; · iexact HR
    isplitl [Hcr6]; · iexact Hcr6
    isplitl [HO]; · iexact HO
    iexact HaR6
  iintro ⟨HO, HaR6, Hrv6⟩
  imod (Rounds.cell_close ER (sched m) (Set.mem_univ (K (c, .inr (.inr 6)))) (fun h => h) (R := 0 + 1) (duties_later m (recvCell c 6))) $$ [HaR6] with HzR6
  · isplitr; · iapply (inv_at m K (c, .inr (.inr 6))); iexact HR
    iexact HaR6
  -- the copy from device 7 has landed: receive slot 7; its cell's one round is consumed and the cell closes
  try sl_exec
  iapply (step_recv_wait' m K c 7 _ _ (Fin.ext (sem_at 35 hcc0_scratch3 7)) _ rfl) $$ [Hcr7 HO HaR7]
  · isplitr; · iexact HR
    isplitl [Hcr7]; · iexact Hcr7
    isplitl [HO]; · iexact HO
    iexact HaR7
  iintro ⟨HO, HaR7, Hrv7⟩
  imod (Rounds.cell_close ER (sched m) (Set.mem_univ (K (c, .inr (.inr 7)))) (fun h => h) (R := 0 + 1) (duties_later m (recvCell c 7))) $$ [HaR7] with HzR7
  · isplitr; · iapply (inv_at m K (c, .inr (.inr 7))); iexact HR
    iexact HaR7
  -- the copy from device 8 has landed: receive slot 8; its cell's one round is consumed and the cell closes
  try sl_exec
  iapply (step_recv_wait' m K c 8 _ _ (Fin.ext (sem_at 35 hcc0_scratch3 8)) _ rfl) $$ [Hcr8 HO HaR8]
  · isplitr; · iexact HR
    isplitl [Hcr8]; · iexact Hcr8
    isplitl [HO]; · iexact HO
    iexact HaR8
  iintro ⟨HO, HaR8, Hrv8⟩
  imod (Rounds.cell_close ER (sched m) (Set.mem_univ (K (c, .inr (.inr 8)))) (fun h => h) (R := 0 + 1) (duties_later m (recvCell c 8))) $$ [HaR8] with HzR8
  · isplitr; · iapply (inv_at m K (c, .inr (.inr 8))); iexact HR
    iexact HaR8
  -- the copy from device 9 has landed: receive slot 9; its cell's one round is consumed and the cell closes
  try sl_exec
  iapply (step_recv_wait' m K c 9 _ _ (Fin.ext (sem_at 35 hcc0_scratch3 9)) _ rfl) $$ [Hcr9 HO HaR9]
  · isplitr; · iexact HR
    isplitl [Hcr9]; · iexact Hcr9
    isplitl [HO]; · iexact HO
    iexact HaR9
  iintro ⟨HO, HaR9, Hrv9⟩
  imod (Rounds.cell_close ER (sched m) (Set.mem_univ (K (c, .inr (.inr 9)))) (fun h => h) (R := 0 + 1) (duties_later m (recvCell c 9))) $$ [HaR9] with HzR9
  · isplitr; · iapply (inv_at m K (c, .inr (.inr 9))); iexact HR
    iexact HaR9
  -- the copy from device 10 has landed: receive slot 10; its cell's one round is consumed and the cell closes
  try sl_exec
  iapply (step_recv_wait' m K c 10 _ _ (Fin.ext (sem_at 35 hcc0_scratch3 10)) _ rfl) $$ [Hcr10 HO HaR10]
  · isplitr; · iexact HR
    isplitl [Hcr10]; · iexact Hcr10
    isplitl [HO]; · iexact HO
    iexact HaR10
  iintro ⟨HO, HaR10, Hrv10⟩
  imod (Rounds.cell_close ER (sched m) (Set.mem_univ (K (c, .inr (.inr 10)))) (fun h => h) (R := 0 + 1) (duties_later m (recvCell c 10))) $$ [HaR10] with HzR10
  · isplitr; · iapply (inv_at m K (c, .inr (.inr 10))); iexact HR
    iexact HaR10
  -- the copy from device 11 has landed: receive slot 11; its cell's one round is consumed and the cell closes
  try sl_exec
  iapply (step_recv_wait' m K c 11 _ _ (Fin.ext (sem_at 35 hcc0_scratch3 11)) _ rfl) $$ [Hcr11 HO HaR11]
  · isplitr; · iexact HR
    isplitl [Hcr11]; · iexact Hcr11
    isplitl [HO]; · iexact HO
    iexact HaR11
  iintro ⟨HO, HaR11, Hrv11⟩
  imod (Rounds.cell_close ER (sched m) (Set.mem_univ (K (c, .inr (.inr 11)))) (fun h => h) (R := 0 + 1) (duties_later m (recvCell c 11))) $$ [HaR11] with HzR11
  · isplitr; · iapply (inv_at m K (c, .inr (.inr 11))); iexact HR
    iexact HaR11
  -- the copy from device 12 has landed: receive slot 12; its cell's one round is consumed and the cell closes
  try sl_exec
  iapply (step_recv_wait' m K c 12 _ _ (Fin.ext (sem_at 35 hcc0_scratch3 12)) _ rfl) $$ [Hcr12 HO HaR12]
  · isplitr; · iexact HR
    isplitl [Hcr12]; · iexact Hcr12
    isplitl [HO]; · iexact HO
    iexact HaR12
  iintro ⟨HO, HaR12, Hrv12⟩
  imod (Rounds.cell_close ER (sched m) (Set.mem_univ (K (c, .inr (.inr 12)))) (fun h => h) (R := 0 + 1) (duties_later m (recvCell c 12))) $$ [HaR12] with HzR12
  · isplitr; · iapply (inv_at m K (c, .inr (.inr 12))); iexact HR
    iexact HaR12
  -- the copy from device 13 has landed: receive slot 13; its cell's one round is consumed and the cell closes
  try sl_exec
  iapply (step_recv_wait' m K c 13 _ _ (Fin.ext (sem_at 35 hcc0_scratch3 13)) _ rfl) $$ [Hcr13 HO HaR13]
  · isplitr; · iexact HR
    isplitl [Hcr13]; · iexact Hcr13
    isplitl [HO]; · iexact HO
    iexact HaR13
  iintro ⟨HO, HaR13, Hrv13⟩
  imod (Rounds.cell_close ER (sched m) (Set.mem_univ (K (c, .inr (.inr 13)))) (fun h => h) (R := 0 + 1) (duties_later m (recvCell c 13))) $$ [HaR13] with HzR13
  · isplitr; · iapply (inv_at m K (c, .inr (.inr 13))); iexact HR
    iexact HaR13
  -- the copy from device 14 has landed: receive slot 14; its cell's one round is consumed and the cell closes
  try sl_exec
  iapply (step_recv_wait' m K c 14 _ _ (Fin.ext (sem_at 35 hcc0_scratch3 14)) _ rfl) $$ [Hcr14 HO HaR14]
  · isplitr; · iexact HR
    isplitl [Hcr14]; · iexact Hcr14
    isplitl [HO]; · iexact HO
    iexact HaR14
  iintro ⟨HO, HaR14, Hrv14⟩
  imod (Rounds.cell_close ER (sched m) (Set.mem_univ (K (c, .inr (.inr 14)))) (fun h => h) (R := 0 + 1) (duties_later m (recvCell c 14))) $$ [HaR14] with HzR14
  · isplitr; · iapply (inv_at m K (c, .inr (.inr 14))); iexact HR
    iexact HaR14
  -- the copy from device 15 has landed: receive slot 15; its cell's one round is consumed and the cell closes
  try sl_exec
  iapply (step_recv_wait' m K c 15 _ _ (Fin.ext (sem_at 35 hcc0_scratch3 15)) _ rfl) $$ [Hcr15 HO HaR15]
  · isplitr; · iexact HR
    isplitl [Hcr15]; · iexact Hcr15
    isplitl [HO]; · iexact HO
    iexact HaR15
  iintro ⟨HO, HaR15, Hrv15⟩
  imod (Rounds.cell_close ER (sched m) (Set.mem_univ (K (c, .inr (.inr 15)))) (fun h => h) (R := 0 + 1) (duties_later m (recvCell c 15))) $$ [HaR15] with HzR15
  · isplitr; · iapply (inv_at m K (c, .inr (.inr 15))); iexact HR
    iexact HaR15
  -- the copy from device 16 has landed: receive slot 16; its cell's one round is consumed and the cell closes
  try sl_exec
  iapply (step_recv_wait' m K c 16 _ _ (Fin.ext (sem_at 35 hcc0_scratch3 16)) _ rfl) $$ [Hcr16 HO HaR16]
  · isplitr; · iexact HR
    isplitl [Hcr16]; · iexact Hcr16
    isplitl [HO]; · iexact HO
    iexact HaR16
  iintro ⟨HO, HaR16, Hrv16⟩
  imod (Rounds.cell_close ER (sched m) (Set.mem_univ (K (c, .inr (.inr 16)))) (fun h => h) (R := 0 + 1) (duties_later m (recvCell c 16))) $$ [HaR16] with HzR16
  · isplitr; · iapply (inv_at m K (c, .inr (.inr 16))); iexact HR
    iexact HaR16
  -- the copy from device 17 has landed: receive slot 17; its cell's one round is consumed and the cell closes
  try sl_exec
  iapply (step_recv_wait' m K c 17 _ _ (Fin.ext (sem_at 35 hcc0_scratch3 17)) _ rfl) $$ [Hcr17 HO HaR17]
  · isplitr; · iexact HR
    isplitl [Hcr17]; · iexact Hcr17
    isplitl [HO]; · iexact HO
    iexact HaR17
  iintro ⟨HO, HaR17, Hrv17⟩
  imod (Rounds.cell_close ER (sched m) (Set.mem_univ (K (c, .inr (.inr 17)))) (fun h => h) (R := 0 + 1) (duties_later m (recvCell c 17))) $$ [HaR17] with HzR17
  · isplitr; · iapply (inv_at m K (c, .inr (.inr 17))); iexact HR
    iexact HaR17
  -- the copy from device 18 has landed: receive slot 18; its cell's one round is consumed and the cell closes
  try sl_exec
  iapply (step_recv_wait' m K c 18 _ _ (Fin.ext (sem_at 35 hcc0_scratch3 18)) _ rfl) $$ [Hcr18 HO HaR18]
  · isplitr; · iexact HR
    isplitl [Hcr18]; · iexact Hcr18
    isplitl [HO]; · iexact HO
    iexact HaR18
  iintro ⟨HO, HaR18, Hrv18⟩
  imod (Rounds.cell_close ER (sched m) (Set.mem_univ (K (c, .inr (.inr 18)))) (fun h => h) (R := 0 + 1) (duties_later m (recvCell c 18))) $$ [HaR18] with HzR18
  · isplitr; · iapply (inv_at m K (c, .inr (.inr 18))); iexact HR
    iexact HaR18
  -- the copy from device 19 has landed: receive slot 19; its cell's one round is consumed and the cell closes
  try sl_exec
  iapply (step_recv_wait' m K c 19 _ _ (Fin.ext (sem_at 35 hcc0_scratch3 19)) _ rfl) $$ [Hcr19 HO HaR19]
  · isplitr; · iexact HR
    isplitl [Hcr19]; · iexact Hcr19
    isplitl [HO]; · iexact HO
    iexact HaR19
  iintro ⟨HO, HaR19, Hrv19⟩
  imod (Rounds.cell_close ER (sched m) (Set.mem_univ (K (c, .inr (.inr 19)))) (fun h => h) (R := 0 + 1) (duties_later m (recvCell c 19))) $$ [HaR19] with HzR19
  · isplitr; · iapply (inv_at m K (c, .inr (.inr 19))); iexact HR
    iexact HaR19
  -- the copy from device 20 has landed: receive slot 20; its cell's one round is consumed and the cell closes
  try sl_exec
  iapply (step_recv_wait' m K c 20 _ _ (Fin.ext (sem_at 35 hcc0_scratch3 20)) _ rfl) $$ [Hcr20 HO HaR20]
  · isplitr; · iexact HR
    isplitl [Hcr20]; · iexact Hcr20
    isplitl [HO]; · iexact HO
    iexact HaR20
  iintro ⟨HO, HaR20, Hrv20⟩
  imod (Rounds.cell_close ER (sched m) (Set.mem_univ (K (c, .inr (.inr 20)))) (fun h => h) (R := 0 + 1) (duties_later m (recvCell c 20))) $$ [HaR20] with HzR20
  · isplitr; · iapply (inv_at m K (c, .inr (.inr 20))); iexact HR
    iexact HaR20
  -- the copy from device 21 has landed: receive slot 21; its cell's one round is consumed and the cell closes
  try sl_exec
  iapply (step_recv_wait' m K c 21 _ _ (Fin.ext (sem_at 35 hcc0_scratch3 21)) _ rfl) $$ [Hcr21 HO HaR21]
  · isplitr; · iexact HR
    isplitl [Hcr21]; · iexact Hcr21
    isplitl [HO]; · iexact HO
    iexact HaR21
  iintro ⟨HO, HaR21, Hrv21⟩
  imod (Rounds.cell_close ER (sched m) (Set.mem_univ (K (c, .inr (.inr 21)))) (fun h => h) (R := 0 + 1) (duties_later m (recvCell c 21))) $$ [HaR21] with HzR21
  · isplitr; · iapply (inv_at m K (c, .inr (.inr 21))); iexact HR
    iexact HaR21
  -- the copy from device 22 has landed: receive slot 22; its cell's one round is consumed and the cell closes
  try sl_exec
  iapply (step_recv_wait' m K c 22 _ _ (Fin.ext (sem_at 35 hcc0_scratch3 22)) _ rfl) $$ [Hcr22 HO HaR22]
  · isplitr; · iexact HR
    isplitl [Hcr22]; · iexact Hcr22
    isplitl [HO]; · iexact HO
    iexact HaR22
  iintro ⟨HO, HaR22, Hrv22⟩
  imod (Rounds.cell_close ER (sched m) (Set.mem_univ (K (c, .inr (.inr 22)))) (fun h => h) (R := 0 + 1) (duties_later m (recvCell c 22))) $$ [HaR22] with HzR22
  · isplitr; · iapply (inv_at m K (c, .inr (.inr 22))); iexact HR
    iexact HaR22
  -- the copy from device 23 has landed: receive slot 23; its cell's one round is consumed and the cell closes
  try sl_exec
  iapply (step_recv_wait' m K c 23 _ _ (Fin.ext (sem_at 35 hcc0_scratch3 23)) _ rfl) $$ [Hcr23 HO HaR23]
  · isplitr; · iexact HR
    isplitl [Hcr23]; · iexact Hcr23
    isplitl [HO]; · iexact HO
    iexact HaR23
  iintro ⟨HO, HaR23, Hrv23⟩
  imod (Rounds.cell_close ER (sched m) (Set.mem_univ (K (c, .inr (.inr 23)))) (fun h => h) (R := 0 + 1) (duties_later m (recvCell c 23))) $$ [HaR23] with HzR23
  · isplitr; · iapply (inv_at m K (c, .inr (.inr 23))); iexact HR
    iexact HaR23
  -- the copy from device 24 has landed: receive slot 24; its cell's one round is consumed and the cell closes
  try sl_exec
  iapply (step_recv_wait' m K c 24 _ _ (Fin.ext (sem_at 35 hcc0_scratch3 24)) _ rfl) $$ [Hcr24 HO HaR24]
  · isplitr; · iexact HR
    isplitl [Hcr24]; · iexact Hcr24
    isplitl [HO]; · iexact HO
    iexact HaR24
  iintro ⟨HO, HaR24, Hrv24⟩
  imod (Rounds.cell_close ER (sched m) (Set.mem_univ (K (c, .inr (.inr 24)))) (fun h => h) (R := 0 + 1) (duties_later m (recvCell c 24))) $$ [HaR24] with HzR24
  · isplitr; · iapply (inv_at m K (c, .inr (.inr 24))); iexact HR
    iexact HaR24
  -- the copy from device 25 has landed: receive slot 25; its cell's one round is consumed and the cell closes
  try sl_exec
  iapply (step_recv_wait' m K c 25 _ _ (Fin.ext (sem_at 35 hcc0_scratch3 25)) _ rfl) $$ [Hcr25 HO HaR25]
  · isplitr; · iexact HR
    isplitl [Hcr25]; · iexact Hcr25
    isplitl [HO]; · iexact HO
    iexact HaR25
  iintro ⟨HO, HaR25, Hrv25⟩
  imod (Rounds.cell_close ER (sched m) (Set.mem_univ (K (c, .inr (.inr 25)))) (fun h => h) (R := 0 + 1) (duties_later m (recvCell c 25))) $$ [HaR25] with HzR25
  · isplitr; · iapply (inv_at m K (c, .inr (.inr 25))); iexact HR
    iexact HaR25
  -- the copy from device 26 has landed: receive slot 26; its cell's one round is consumed and the cell closes
  try sl_exec
  iapply (step_recv_wait' m K c 26 _ _ (Fin.ext (sem_at 35 hcc0_scratch3 26)) _ rfl) $$ [Hcr26 HO HaR26]
  · isplitr; · iexact HR
    isplitl [Hcr26]; · iexact Hcr26
    isplitl [HO]; · iexact HO
    iexact HaR26
  iintro ⟨HO, HaR26, Hrv26⟩
  imod (Rounds.cell_close ER (sched m) (Set.mem_univ (K (c, .inr (.inr 26)))) (fun h => h) (R := 0 + 1) (duties_later m (recvCell c 26))) $$ [HaR26] with HzR26
  · isplitr; · iapply (inv_at m K (c, .inr (.inr 26))); iexact HR
    iexact HaR26
  -- the copy from device 27 has landed: receive slot 27; its cell's one round is consumed and the cell closes
  try sl_exec
  iapply (step_recv_wait' m K c 27 _ _ (Fin.ext (sem_at 35 hcc0_scratch3 27)) _ rfl) $$ [Hcr27 HO HaR27]
  · isplitr; · iexact HR
    isplitl [Hcr27]; · iexact Hcr27
    isplitl [HO]; · iexact HO
    iexact HaR27
  iintro ⟨HO, HaR27, Hrv27⟩
  imod (Rounds.cell_close ER (sched m) (Set.mem_univ (K (c, .inr (.inr 27)))) (fun h => h) (R := 0 + 1) (duties_later m (recvCell c 27))) $$ [HaR27] with HzR27
  · isplitr; · iapply (inv_at m K (c, .inr (.inr 27))); iexact HR
    iexact HaR27
  -- the copy from device 28 has landed: receive slot 28; its cell's one round is consumed and the cell closes
  try sl_exec
  iapply (step_recv_wait' m K c 28 _ _ (Fin.ext (sem_at 35 hcc0_scratch3 28)) _ rfl) $$ [Hcr28 HO HaR28]
  · isplitr; · iexact HR
    isplitl [Hcr28]; · iexact Hcr28
    isplitl [HO]; · iexact HO
    iexact HaR28
  iintro ⟨HO, HaR28, Hrv28⟩
  imod (Rounds.cell_close ER (sched m) (Set.mem_univ (K (c, .inr (.inr 28)))) (fun h => h) (R := 0 + 1) (duties_later m (recvCell c 28))) $$ [HaR28] with HzR28
  · isplitr; · iapply (inv_at m K (c, .inr (.inr 28))); iexact HR
    iexact HaR28
  -- the copy from device 29 has landed: receive slot 29; its cell's one round is consumed and the cell closes
  try sl_exec
  iapply (step_recv_wait' m K c 29 _ _ (Fin.ext (sem_at 35 hcc0_scratch3 29)) _ rfl) $$ [Hcr29 HO HaR29]
  · isplitr; · iexact HR
    isplitl [Hcr29]; · iexact Hcr29
    isplitl [HO]; · iexact HO
    iexact HaR29
  iintro ⟨HO, HaR29, Hrv29⟩
  imod (Rounds.cell_close ER (sched m) (Set.mem_univ (K (c, .inr (.inr 29)))) (fun h => h) (R := 0 + 1) (duties_later m (recvCell c 29))) $$ [HaR29] with HzR29
  · isplitr; · iapply (inv_at m K (c, .inr (.inr 29))); iexact HR
    iexact HaR29
  -- the copy from device 30 has landed: receive slot 30; its cell's one round is consumed and the cell closes
  try sl_exec
  iapply (step_recv_wait' m K c 30 _ _ (Fin.ext (sem_at 35 hcc0_scratch3 30)) _ rfl) $$ [Hcr30 HO HaR30]
  · isplitr; · iexact HR
    isplitl [Hcr30]; · iexact Hcr30
    isplitl [HO]; · iexact HO
    iexact HaR30
  iintro ⟨HO, HaR30, Hrv30⟩
  imod (Rounds.cell_close ER (sched m) (Set.mem_univ (K (c, .inr (.inr 30)))) (fun h => h) (R := 0 + 1) (duties_later m (recvCell c 30))) $$ [HaR30] with HzR30
  · isplitr; · iapply (inv_at m K (c, .inr (.inr 30))); iexact HR
    iexact HaR30
  -- the copy from device 31 has landed: receive slot 31; its cell's one round is consumed and the cell closes
  try sl_exec
  iapply (step_recv_wait' m K c 31 _ _ (Fin.ext (sem_at 35 hcc0_scratch3 31)) _ rfl) $$ [Hcr31 HO HaR31]
  · isplitr; · iexact HR
    isplitl [Hcr31]; · iexact Hcr31
    isplitl [HO]; · iexact HO
    iexact HaR31
  iintro ⟨HO, HaR31, Hrv31⟩
  imod (Rounds.cell_close ER (sched m) (Set.mem_univ (K (c, .inr (.inr 31)))) (fun h => h) (R := 0 + 1) (duties_later m (recvCell c 31))) $$ [HaR31] with HzR31
  · isplitr; · iapply (inv_at m K (c, .inr (.inr 31))); iexact HR
    iexact HaR31
  -- slot 31's stores, up to the first send wait
  set_option sl_exec.maxSteps 14 in sl_exec
  -- the copy to `dest c 0 0` has read its source: the staging slot is back; the send cell closes
  iapply (step_send_wait' m K c (dest c 0 0) _ _ (send_sem_eq c 0 0 _) _ (src_eq c 0 0 _ _)) $$ [Hcs0 HO HaS0]
  · isplitr; · iexact HR
    isplitl [Hcs0]; · iexact Hcs0
    isplitl [HO]; · iexact HO
    iexact HaS0
  iintro ⟨HO, HaS0, HSb0⟩
  imod (Rounds.cell_close ER (sched m) (Set.mem_univ (K (c, .inr (.inl (dest c 0 0))))) (fun h => h) (R := 0 + 1) (duties_later m (sendCell c (dest c 0 0)))) $$ [HaS0] with HzS0
  · isplitr; · iapply (inv_at m K (c, .inr (.inl (dest c 0 0)))); iexact HR
    iexact HaS0
  -- the copy to `dest c 0 1` has read its source: the staging slot is back; the send cell closes
  iapply (step_send_wait' m K c (dest c 0 1) _ _ (send_sem_eq c 0 1 _) _ (src_eq c 0 1 _ _)) $$ [Hcs1 HO HaS1]
  · isplitr; · iexact HR
    isplitl [Hcs1]; · iexact Hcs1
    isplitl [HO]; · iexact HO
    iexact HaS1
  iintro ⟨HO, HaS1, HSb1⟩
  imod (Rounds.cell_close ER (sched m) (Set.mem_univ (K (c, .inr (.inl (dest c 0 1))))) (fun h => h) (R := 0 + 1) (duties_later m (sendCell c (dest c 0 1)))) $$ [HaS1] with HzS1
  · isplitr; · iapply (inv_at m K (c, .inr (.inl (dest c 0 1)))); iexact HR
    iexact HaS1
  -- the copy to `dest c 0 2` has read its source: the staging slot is back; the send cell closes
  iapply (step_send_wait' m K c (dest c 0 2) _ _ (send_sem_eq c 0 2 _) _ (src_eq c 0 2 _ _)) $$ [Hcs2 HO HaS2]
  · isplitr; · iexact HR
    isplitl [Hcs2]; · iexact Hcs2
    isplitl [HO]; · iexact HO
    iexact HaS2
  iintro ⟨HO, HaS2, HSb2⟩
  imod (Rounds.cell_close ER (sched m) (Set.mem_univ (K (c, .inr (.inl (dest c 0 2))))) (fun h => h) (R := 0 + 1) (duties_later m (sendCell c (dest c 0 2)))) $$ [HaS2] with HzS2
  · isplitr; · iapply (inv_at m K (c, .inr (.inl (dest c 0 2)))); iexact HR
    iexact HaS2
  -- the copy to `dest c 0 3` has read its source: the staging slot is back; the send cell closes
  -- a printed part the run had entered ends: back in its caller
  iapply (wp_ret_of (F := F) c _ _)
  iapply (step_send_wait' m K c (dest c 0 3) _ _ (send_sem_eq c 0 3 _) _ (src_eq c 0 3 _ _)) $$ [Hcs3 HO HaS3]
  · isplitr; · iexact HR
    isplitl [Hcs3]; · iexact Hcs3
    isplitl [HO]; · iexact HO
    iexact HaS3
  iintro ⟨HO, HaS3, HSb3⟩
  imod (Rounds.cell_close ER (sched m) (Set.mem_univ (K (c, .inr (.inl (dest c 0 3))))) (fun h => h) (R := 0 + 1) (duties_later m (sendCell c (dest c 0 3)))) $$ [HaS3] with HzS3
  · isplitr; · iapply (inv_at m K (c, .inr (.inl (dest c 0 3)))); iexact HR
    iexact HaS3
  -- the copy to `dest c 0 4` has read its source: the staging slot is back; the send cell closes
  iapply (step_send_wait' m K c (dest c 0 4) _ _ (send_sem_eq c 0 4 _) _ (src_eq c 0 4 _ _)) $$ [Hcs4 HO HaS4]
  · isplitr; · iexact HR
    isplitl [Hcs4]; · iexact Hcs4
    isplitl [HO]; · iexact HO
    iexact HaS4
  iintro ⟨HO, HaS4, HSb4⟩
  imod (Rounds.cell_close ER (sched m) (Set.mem_univ (K (c, .inr (.inl (dest c 0 4))))) (fun h => h) (R := 0 + 1) (duties_later m (sendCell c (dest c 0 4)))) $$ [HaS4] with HzS4
  · isplitr; · iapply (inv_at m K (c, .inr (.inl (dest c 0 4)))); iexact HR
    iexact HaS4
  -- the copy to `dest c 0 5` has read its source: the staging slot is back; the send cell closes
  iapply (step_send_wait' m K c (dest c 0 5) _ _ (send_sem_eq c 0 5 _) _ (src_eq c 0 5 _ _)) $$ [Hcs5 HO HaS5]
  · isplitr; · iexact HR
    isplitl [Hcs5]; · iexact Hcs5
    isplitl [HO]; · iexact HO
    iexact HaS5
  iintro ⟨HO, HaS5, HSb5⟩
  imod (Rounds.cell_close ER (sched m) (Set.mem_univ (K (c, .inr (.inl (dest c 0 5))))) (fun h => h) (R := 0 + 1) (duties_later m (sendCell c (dest c 0 5)))) $$ [HaS5] with HzS5
  · isplitr; · iapply (inv_at m K (c, .inr (.inl (dest c 0 5)))); iexact HR
    iexact HaS5
  -- the copy to `dest c 0 6` has read its source: the staging slot is back; the send cell closes
  iapply (step_send_wait' m K c (dest c 0 6) _ _ (send_sem_eq c 0 6 _) _ (src_eq c 0 6 _ _)) $$ [Hcs6 HO HaS6]
  · isplitr; · iexact HR
    isplitl [Hcs6]; · iexact Hcs6
    isplitl [HO]; · iexact HO
    iexact HaS6
  iintro ⟨HO, HaS6, HSb6⟩
  imod (Rounds.cell_close ER (sched m) (Set.mem_univ (K (c, .inr (.inl (dest c 0 6))))) (fun h => h) (R := 0 + 1) (duties_later m (sendCell c (dest c 0 6)))) $$ [HaS6] with HzS6
  · isplitr; · iapply (inv_at m K (c, .inr (.inl (dest c 0 6)))); iexact HR
    iexact HaS6
  -- the copy to `dest c 0 7` has read its source: the staging slot is back; the send cell closes
  iapply (step_send_wait' m K c (dest c 0 7) _ _ (send_sem_eq c 0 7 _) _ (src_eq c 0 7 _ _)) $$ [Hcs7 HO HaS7]
  · isplitr; · iexact HR
    isplitl [Hcs7]; · iexact Hcs7
    isplitl [HO]; · iexact HO
    iexact HaS7
  iintro ⟨HO, HaS7, HSb7⟩
  imod (Rounds.cell_close ER (sched m) (Set.mem_univ (K (c, .inr (.inl (dest c 0 7))))) (fun h => h) (R := 0 + 1) (duties_later m (sendCell c (dest c 0 7)))) $$ [HaS7] with HzS7
  · isplitr; · iapply (inv_at m K (c, .inr (.inl (dest c 0 7)))); iexact HR
    iexact HaS7
  -- the copy to `dest c 1 0` has read its source: the staging slot is back; the send cell closes
  iapply (step_send_wait' m K c (dest c 1 0) _ _ (send_sem_eq c 1 0 _) _ (src_eq c 1 0 _ _)) $$ [Hcs8 HO HaS8]
  · isplitr; · iexact HR
    isplitl [Hcs8]; · iexact Hcs8
    isplitl [HO]; · iexact HO
    iexact HaS8
  iintro ⟨HO, HaS8, HSb8⟩
  imod (Rounds.cell_close ER (sched m) (Set.mem_univ (K (c, .inr (.inl (dest c 1 0))))) (fun h => h) (R := 0 + 1) (duties_later m (sendCell c (dest c 1 0)))) $$ [HaS8] with HzS8
  · isplitr; · iapply (inv_at m K (c, .inr (.inl (dest c 1 0)))); iexact HR
    iexact HaS8
  -- the copy to `dest c 1 1` has read its source: the staging slot is back; the send cell closes
  iapply (step_send_wait' m K c (dest c 1 1) _ _ (send_sem_eq c 1 1 _) _ (src_eq c 1 1 _ _)) $$ [Hcs9 HO HaS9]
  · isplitr; · iexact HR
    isplitl [Hcs9]; · iexact Hcs9
    isplitl [HO]; · iexact HO
    iexact HaS9
  iintro ⟨HO, HaS9, HSb9⟩
  imod (Rounds.cell_close ER (sched m) (Set.mem_univ (K (c, .inr (.inl (dest c 1 1))))) (fun h => h) (R := 0 + 1) (duties_later m (sendCell c (dest c 1 1)))) $$ [HaS9] with HzS9
  · isplitr; · iapply (inv_at m K (c, .inr (.inl (dest c 1 1)))); iexact HR
    iexact HaS9
  -- the copy to `dest c 1 2` has read its source: the staging slot is back; the send cell closes
  iapply (step_send_wait' m K c (dest c 1 2) _ _ (send_sem_eq c 1 2 _) _ (src_eq c 1 2 _ _)) $$ [Hcs10 HO HaS10]
  · isplitr; · iexact HR
    isplitl [Hcs10]; · iexact Hcs10
    isplitl [HO]; · iexact HO
    iexact HaS10
  iintro ⟨HO, HaS10, HSb10⟩
  imod (Rounds.cell_close ER (sched m) (Set.mem_univ (K (c, .inr (.inl (dest c 1 2))))) (fun h => h) (R := 0 + 1) (duties_later m (sendCell c (dest c 1 2)))) $$ [HaS10] with HzS10
  · isplitr; · iapply (inv_at m K (c, .inr (.inl (dest c 1 2)))); iexact HR
    iexact HaS10
  -- the copy to `dest c 1 3` has read its source: the staging slot is back; the send cell closes
  iapply (step_send_wait' m K c (dest c 1 3) _ _ (send_sem_eq c 1 3 _) _ (src_eq c 1 3 _ _)) $$ [Hcs11 HO HaS11]
  · isplitr; · iexact HR
    isplitl [Hcs11]; · iexact Hcs11
    isplitl [HO]; · iexact HO
    iexact HaS11
  iintro ⟨HO, HaS11, HSb11⟩
  imod (Rounds.cell_close ER (sched m) (Set.mem_univ (K (c, .inr (.inl (dest c 1 3))))) (fun h => h) (R := 0 + 1) (duties_later m (sendCell c (dest c 1 3)))) $$ [HaS11] with HzS11
  · isplitr; · iapply (inv_at m K (c, .inr (.inl (dest c 1 3)))); iexact HR
    iexact HaS11
  -- the copy to `dest c 1 4` has read its source: the staging slot is back; the send cell closes
  iapply (step_send_wait' m K c (dest c 1 4) _ _ (send_sem_eq c 1 4 _) _ (src_eq c 1 4 _ _)) $$ [Hcs12 HO HaS12]
  · isplitr; · iexact HR
    isplitl [Hcs12]; · iexact Hcs12
    isplitl [HO]; · iexact HO
    iexact HaS12
  iintro ⟨HO, HaS12, HSb12⟩
  imod (Rounds.cell_close ER (sched m) (Set.mem_univ (K (c, .inr (.inl (dest c 1 4))))) (fun h => h) (R := 0 + 1) (duties_later m (sendCell c (dest c 1 4)))) $$ [HaS12] with HzS12
  · isplitr; · iapply (inv_at m K (c, .inr (.inl (dest c 1 4)))); iexact HR
    iexact HaS12
  -- the copy to `dest c 1 5` has read its source: the staging slot is back; the send cell closes
  iapply (step_send_wait' m K c (dest c 1 5) _ _ (send_sem_eq c 1 5 _) _ (src_eq c 1 5 _ _)) $$ [Hcs13 HO HaS13]
  · isplitr; · iexact HR
    isplitl [Hcs13]; · iexact Hcs13
    isplitl [HO]; · iexact HO
    iexact HaS13
  iintro ⟨HO, HaS13, HSb13⟩
  imod (Rounds.cell_close ER (sched m) (Set.mem_univ (K (c, .inr (.inl (dest c 1 5))))) (fun h => h) (R := 0 + 1) (duties_later m (sendCell c (dest c 1 5)))) $$ [HaS13] with HzS13
  · isplitr; · iapply (inv_at m K (c, .inr (.inl (dest c 1 5)))); iexact HR
    iexact HaS13
  -- the copy to `dest c 1 6` has read its source: the staging slot is back; the send cell closes
  iapply (step_send_wait' m K c (dest c 1 6) _ _ (send_sem_eq c 1 6 _) _ (src_eq c 1 6 _ _)) $$ [Hcs14 HO HaS14]
  · isplitr; · iexact HR
    isplitl [Hcs14]; · iexact Hcs14
    isplitl [HO]; · iexact HO
    iexact HaS14
  iintro ⟨HO, HaS14, HSb14⟩
  imod (Rounds.cell_close ER (sched m) (Set.mem_univ (K (c, .inr (.inl (dest c 1 6))))) (fun h => h) (R := 0 + 1) (duties_later m (sendCell c (dest c 1 6)))) $$ [HaS14] with HzS14
  · isplitr; · iapply (inv_at m K (c, .inr (.inl (dest c 1 6)))); iexact HR
    iexact HaS14
  -- the copy to `dest c 1 7` has read its source: the staging slot is back; the send cell closes
  iapply (step_send_wait' m K c (dest c 1 7) _ _ (send_sem_eq c 1 7 _) _ (src_eq c 1 7 _ _)) $$ [Hcs15 HO HaS15]
  · isplitr; · iexact HR
    isplitl [Hcs15]; · iexact Hcs15
    isplitl [HO]; · iexact HO
    iexact HaS15
  iintro ⟨HO, HaS15, HSb15⟩
  imod (Rounds.cell_close ER (sched m) (Set.mem_univ (K (c, .inr (.inl (dest c 1 7))))) (fun h => h) (R := 0 + 1) (duties_later m (sendCell c (dest c 1 7)))) $$ [HaS15] with HzS15
  · isplitr; · iapply (inv_at m K (c, .inr (.inl (dest c 1 7)))); iexact HR
    iexact HaS15
  -- the copy to `dest c 2 0` has read its source: the staging slot is back; the send cell closes
  iapply (step_send_wait' m K c (dest c 2 0) _ _ (send_sem_eq c 2 0 _) _ (src_eq c 2 0 _ _)) $$ [Hcs16 HO HaS16]
  · isplitr; · iexact HR
    isplitl [Hcs16]; · iexact Hcs16
    isplitl [HO]; · iexact HO
    iexact HaS16
  iintro ⟨HO, HaS16, HSb16⟩
  imod (Rounds.cell_close ER (sched m) (Set.mem_univ (K (c, .inr (.inl (dest c 2 0))))) (fun h => h) (R := 0 + 1) (duties_later m (sendCell c (dest c 2 0)))) $$ [HaS16] with HzS16
  · isplitr; · iapply (inv_at m K (c, .inr (.inl (dest c 2 0)))); iexact HR
    iexact HaS16
  -- the copy to `dest c 2 1` has read its source: the staging slot is back; the send cell closes
  iapply (step_send_wait' m K c (dest c 2 1) _ _ (send_sem_eq c 2 1 _) _ (src_eq c 2 1 _ _)) $$ [Hcs17 HO HaS17]
  · isplitr; · iexact HR
    isplitl [Hcs17]; · iexact Hcs17
    isplitl [HO]; · iexact HO
    iexact HaS17
  iintro ⟨HO, HaS17, HSb17⟩
  imod (Rounds.cell_close ER (sched m) (Set.mem_univ (K (c, .inr (.inl (dest c 2 1))))) (fun h => h) (R := 0 + 1) (duties_later m (sendCell c (dest c 2 1)))) $$ [HaS17] with HzS17
  · isplitr; · iapply (inv_at m K (c, .inr (.inl (dest c 2 1)))); iexact HR
    iexact HaS17
  -- the copy to `dest c 2 2` has read its source: the staging slot is back; the send cell closes
  iapply (step_send_wait' m K c (dest c 2 2) _ _ (send_sem_eq c 2 2 _) _ (src_eq c 2 2 _ _)) $$ [Hcs18 HO HaS18]
  · isplitr; · iexact HR
    isplitl [Hcs18]; · iexact Hcs18
    isplitl [HO]; · iexact HO
    iexact HaS18
  iintro ⟨HO, HaS18, HSb18⟩
  imod (Rounds.cell_close ER (sched m) (Set.mem_univ (K (c, .inr (.inl (dest c 2 2))))) (fun h => h) (R := 0 + 1) (duties_later m (sendCell c (dest c 2 2)))) $$ [HaS18] with HzS18
  · isplitr; · iapply (inv_at m K (c, .inr (.inl (dest c 2 2)))); iexact HR
    iexact HaS18
  -- the copy to `dest c 2 3` has read its source: the staging slot is back; the send cell closes
  iapply (step_send_wait' m K c (dest c 2 3) _ _ (send_sem_eq c 2 3 _) _ (src_eq c 2 3 _ _)) $$ [Hcs19 HO HaS19]
  · isplitr; · iexact HR
    isplitl [Hcs19]; · iexact Hcs19
    isplitl [HO]; · iexact HO
    iexact HaS19
  iintro ⟨HO, HaS19, HSb19⟩
  imod (Rounds.cell_close ER (sched m) (Set.mem_univ (K (c, .inr (.inl (dest c 2 3))))) (fun h => h) (R := 0 + 1) (duties_later m (sendCell c (dest c 2 3)))) $$ [HaS19] with HzS19
  · isplitr; · iapply (inv_at m K (c, .inr (.inl (dest c 2 3)))); iexact HR
    iexact HaS19
  -- the copy to `dest c 2 4` has read its source: the staging slot is back; the send cell closes
  iapply (step_send_wait' m K c (dest c 2 4) _ _ (send_sem_eq c 2 4 _) _ (src_eq c 2 4 _ _)) $$ [Hcs20 HO HaS20]
  · isplitr; · iexact HR
    isplitl [Hcs20]; · iexact Hcs20
    isplitl [HO]; · iexact HO
    iexact HaS20
  iintro ⟨HO, HaS20, HSb20⟩
  imod (Rounds.cell_close ER (sched m) (Set.mem_univ (K (c, .inr (.inl (dest c 2 4))))) (fun h => h) (R := 0 + 1) (duties_later m (sendCell c (dest c 2 4)))) $$ [HaS20] with HzS20
  · isplitr; · iapply (inv_at m K (c, .inr (.inl (dest c 2 4)))); iexact HR
    iexact HaS20
  -- the copy to `dest c 2 5` has read its source: the staging slot is back; the send cell closes
  iapply (step_send_wait' m K c (dest c 2 5) _ _ (send_sem_eq c 2 5 _) _ (src_eq c 2 5 _ _)) $$ [Hcs21 HO HaS21]
  · isplitr; · iexact HR
    isplitl [Hcs21]; · iexact Hcs21
    isplitl [HO]; · iexact HO
    iexact HaS21
  iintro ⟨HO, HaS21, HSb21⟩
  imod (Rounds.cell_close ER (sched m) (Set.mem_univ (K (c, .inr (.inl (dest c 2 5))))) (fun h => h) (R := 0 + 1) (duties_later m (sendCell c (dest c 2 5)))) $$ [HaS21] with HzS21
  · isplitr; · iapply (inv_at m K (c, .inr (.inl (dest c 2 5)))); iexact HR
    iexact HaS21
  -- the copy to `dest c 2 6` has read its source: the staging slot is back; the send cell closes
  iapply (step_send_wait' m K c (dest c 2 6) _ _ (send_sem_eq c 2 6 _) _ (src_eq c 2 6 _ _)) $$ [Hcs22 HO HaS22]
  · isplitr; · iexact HR
    isplitl [Hcs22]; · iexact Hcs22
    isplitl [HO]; · iexact HO
    iexact HaS22
  iintro ⟨HO, HaS22, HSb22⟩
  imod (Rounds.cell_close ER (sched m) (Set.mem_univ (K (c, .inr (.inl (dest c 2 6))))) (fun h => h) (R := 0 + 1) (duties_later m (sendCell c (dest c 2 6)))) $$ [HaS22] with HzS22
  · isplitr; · iapply (inv_at m K (c, .inr (.inl (dest c 2 6)))); iexact HR
    iexact HaS22
  -- the copy to `dest c 2 7` has read its source: the staging slot is back; the send cell closes
  -- a printed part the run had entered ends: back in its caller
  iapply (wp_ret_of (F := F) c _ _)
  iapply (step_send_wait' m K c (dest c 2 7) _ _ (send_sem_eq c 2 7 _) _ (src_eq c 2 7 _ _)) $$ [Hcs23 HO HaS23]
  · isplitr; · iexact HR
    isplitl [Hcs23]; · iexact Hcs23
    isplitl [HO]; · iexact HO
    iexact HaS23
  iintro ⟨HO, HaS23, HSb23⟩
  imod (Rounds.cell_close ER (sched m) (Set.mem_univ (K (c, .inr (.inl (dest c 2 7))))) (fun h => h) (R := 0 + 1) (duties_later m (sendCell c (dest c 2 7)))) $$ [HaS23] with HzS23
  · isplitr; · iapply (inv_at m K (c, .inr (.inl (dest c 2 7)))); iexact HR
    iexact HaS23
  -- the copy to `dest c 3 0` has read its source: the staging slot is back; the send cell closes
  iapply (step_send_wait' m K c (dest c 3 0) _ _ (send_sem_eq c 3 0 _) _ (src_eq c 3 0 _ _)) $$ [Hcs24 HO HaS24]
  · isplitr; · iexact HR
    isplitl [Hcs24]; · iexact Hcs24
    isplitl [HO]; · iexact HO
    iexact HaS24
  iintro ⟨HO, HaS24, HSb24⟩
  imod (Rounds.cell_close ER (sched m) (Set.mem_univ (K (c, .inr (.inl (dest c 3 0))))) (fun h => h) (R := 0 + 1) (duties_later m (sendCell c (dest c 3 0)))) $$ [HaS24] with HzS24
  · isplitr; · iapply (inv_at m K (c, .inr (.inl (dest c 3 0)))); iexact HR
    iexact HaS24
  -- the copy to `dest c 3 1` has read its source: the staging slot is back; the send cell closes
  iapply (step_send_wait' m K c (dest c 3 1) _ _ (send_sem_eq c 3 1 _) _ (src_eq c 3 1 _ _)) $$ [Hcs25 HO HaS25]
  · isplitr; · iexact HR
    isplitl [Hcs25]; · iexact Hcs25
    isplitl [HO]; · iexact HO
    iexact HaS25
  iintro ⟨HO, HaS25, HSb25⟩
  imod (Rounds.cell_close ER (sched m) (Set.mem_univ (K (c, .inr (.inl (dest c 3 1))))) (fun h => h) (R := 0 + 1) (duties_later m (sendCell c (dest c 3 1)))) $$ [HaS25] with HzS25
  · isplitr; · iapply (inv_at m K (c, .inr (.inl (dest c 3 1)))); iexact HR
    iexact HaS25
  -- the copy to `dest c 3 2` has read its source: the staging slot is back; the send cell closes
  iapply (step_send_wait' m K c (dest c 3 2) _ _ (send_sem_eq c 3 2 _) _ (src_eq c 3 2 _ _)) $$ [Hcs26 HO HaS26]
  · isplitr; · iexact HR
    isplitl [Hcs26]; · iexact Hcs26
    isplitl [HO]; · iexact HO
    iexact HaS26
  iintro ⟨HO, HaS26, HSb26⟩
  imod (Rounds.cell_close ER (sched m) (Set.mem_univ (K (c, .inr (.inl (dest c 3 2))))) (fun h => h) (R := 0 + 1) (duties_later m (sendCell c (dest c 3 2)))) $$ [HaS26] with HzS26
  · isplitr; · iapply (inv_at m K (c, .inr (.inl (dest c 3 2)))); iexact HR
    iexact HaS26
  -- the copy to `dest c 3 3` has read its source: the staging slot is back; the send cell closes
  iapply (step_send_wait' m K c (dest c 3 3) _ _ (send_sem_eq c 3 3 _) _ (src_eq c 3 3 _ _)) $$ [Hcs27 HO HaS27]
  · isplitr; · iexact HR
    isplitl [Hcs27]; · iexact Hcs27
    isplitl [HO]; · iexact HO
    iexact HaS27
  iintro ⟨HO, HaS27, HSb27⟩
  imod (Rounds.cell_close ER (sched m) (Set.mem_univ (K (c, .inr (.inl (dest c 3 3))))) (fun h => h) (R := 0 + 1) (duties_later m (sendCell c (dest c 3 3)))) $$ [HaS27] with HzS27
  · isplitr; · iapply (inv_at m K (c, .inr (.inl (dest c 3 3)))); iexact HR
    iexact HaS27
  -- the copy to `dest c 3 4` has read its source: the staging slot is back; the send cell closes
  iapply (step_send_wait' m K c (dest c 3 4) _ _ (send_sem_eq c 3 4 _) _ (src_eq c 3 4 _ _)) $$ [Hcs28 HO HaS28]
  · isplitr; · iexact HR
    isplitl [Hcs28]; · iexact Hcs28
    isplitl [HO]; · iexact HO
    iexact HaS28
  iintro ⟨HO, HaS28, HSb28⟩
  imod (Rounds.cell_close ER (sched m) (Set.mem_univ (K (c, .inr (.inl (dest c 3 4))))) (fun h => h) (R := 0 + 1) (duties_later m (sendCell c (dest c 3 4)))) $$ [HaS28] with HzS28
  · isplitr; · iapply (inv_at m K (c, .inr (.inl (dest c 3 4)))); iexact HR
    iexact HaS28
  -- the copy to `dest c 3 5` has read its source: the staging slot is back; the send cell closes
  iapply (step_send_wait' m K c (dest c 3 5) _ _ (send_sem_eq c 3 5 _) _ (src_eq c 3 5 _ _)) $$ [Hcs29 HO HaS29]
  · isplitr; · iexact HR
    isplitl [Hcs29]; · iexact Hcs29
    isplitl [HO]; · iexact HO
    iexact HaS29
  iintro ⟨HO, HaS29, HSb29⟩
  imod (Rounds.cell_close ER (sched m) (Set.mem_univ (K (c, .inr (.inl (dest c 3 5))))) (fun h => h) (R := 0 + 1) (duties_later m (sendCell c (dest c 3 5)))) $$ [HaS29] with HzS29
  · isplitr; · iapply (inv_at m K (c, .inr (.inl (dest c 3 5)))); iexact HR
    iexact HaS29
  -- the copy to `dest c 3 6` has read its source: the staging slot is back; the send cell closes
  iapply (step_send_wait' m K c (dest c 3 6) _ _ (send_sem_eq c 3 6 _) _ (src_eq c 3 6 _ _)) $$ [Hcs30 HO HaS30]
  · isplitr; · iexact HR
    isplitl [Hcs30]; · iexact Hcs30
    isplitl [HO]; · iexact HO
    iexact HaS30
  iintro ⟨HO, HaS30, HSb30⟩
  imod (Rounds.cell_close ER (sched m) (Set.mem_univ (K (c, .inr (.inl (dest c 3 6))))) (fun h => h) (R := 0 + 1) (duties_later m (sendCell c (dest c 3 6)))) $$ [HaS30] with HzS30
  · isplitr; · iapply (inv_at m K (c, .inr (.inl (dest c 3 6)))); iexact HR
    iexact HaS30
  -- the copy to `dest c 3 7` has read its source: the staging slot is back; the send cell closes
  iapply (step_send_wait' m K c (dest c 3 7) _ _ (send_sem_eq c 3 7 _) _ (src_eq c 3 7 _ _)) $$ [Hcs31 HO HaS31]
  · isplitr; · iexact HR
    isplitl [Hcs31]; · iexact Hcs31
    isplitl [HO]; · iexact HO
    iexact HaS31
  iintro ⟨HO, HaS31, HSb31⟩
  imod (Rounds.cell_close ER (sched m) (Set.mem_univ (K (c, .inr (.inl (dest c 3 7))))) (fun h => h) (R := 0 + 1) (duties_later m (sendCell c (dest c 3 7)))) $$ [HaS31] with HzS31
  · isplitr; · iapply (inv_at m K (c, .inr (.inl (dest c 3 7)))); iexact HR
    iexact HaS31
  -- the body returns
  iapply (wp_ret_of (F := F) c _ _)
  -- the staging scratch whole again, at its final contents
  ihave HSb0 := (Entails.of_eq (stgSlot_eq c (dest c 0 0) (Sfin m c))) $$ HSb0
  ihave HSb1 := (Entails.of_eq (stgSlot_eq c (dest c 0 1) (Sfin m c))) $$ HSb1
  ihave HSb2 := (Entails.of_eq (stgSlot_eq c (dest c 0 2) (Sfin m c))) $$ HSb2
  ihave HSb3 := (Entails.of_eq (stgSlot_eq c (dest c 0 3) (Sfin m c))) $$ HSb3
  ihave HSb4 := (Entails.of_eq (stgSlot_eq c (dest c 0 4) (Sfin m c))) $$ HSb4
  ihave HSb5 := (Entails.of_eq (stgSlot_eq c (dest c 0 5) (Sfin m c))) $$ HSb5
  ihave HSb6 := (Entails.of_eq (stgSlot_eq c (dest c 0 6) (Sfin m c))) $$ HSb6
  ihave HSb7 := (Entails.of_eq (stgSlot_eq c (dest c 0 7) (Sfin m c))) $$ HSb7
  ihave HSb8 := (Entails.of_eq (stgSlot_eq c (dest c 1 0) (Sfin m c))) $$ HSb8
  ihave HSb9 := (Entails.of_eq (stgSlot_eq c (dest c 1 1) (Sfin m c))) $$ HSb9
  ihave HSb10 := (Entails.of_eq (stgSlot_eq c (dest c 1 2) (Sfin m c))) $$ HSb10
  ihave HSb11 := (Entails.of_eq (stgSlot_eq c (dest c 1 3) (Sfin m c))) $$ HSb11
  ihave HSb12 := (Entails.of_eq (stgSlot_eq c (dest c 1 4) (Sfin m c))) $$ HSb12
  ihave HSb13 := (Entails.of_eq (stgSlot_eq c (dest c 1 5) (Sfin m c))) $$ HSb13
  ihave HSb14 := (Entails.of_eq (stgSlot_eq c (dest c 1 6) (Sfin m c))) $$ HSb14
  ihave HSb15 := (Entails.of_eq (stgSlot_eq c (dest c 1 7) (Sfin m c))) $$ HSb15
  ihave HSb16 := (Entails.of_eq (stgSlot_eq c (dest c 2 0) (Sfin m c))) $$ HSb16
  ihave HSb17 := (Entails.of_eq (stgSlot_eq c (dest c 2 1) (Sfin m c))) $$ HSb17
  ihave HSb18 := (Entails.of_eq (stgSlot_eq c (dest c 2 2) (Sfin m c))) $$ HSb18
  ihave HSb19 := (Entails.of_eq (stgSlot_eq c (dest c 2 3) (Sfin m c))) $$ HSb19
  ihave HSb20 := (Entails.of_eq (stgSlot_eq c (dest c 2 4) (Sfin m c))) $$ HSb20
  ihave HSb21 := (Entails.of_eq (stgSlot_eq c (dest c 2 5) (Sfin m c))) $$ HSb21
  ihave HSb22 := (Entails.of_eq (stgSlot_eq c (dest c 2 6) (Sfin m c))) $$ HSb22
  ihave HSb23 := (Entails.of_eq (stgSlot_eq c (dest c 2 7) (Sfin m c))) $$ HSb23
  ihave HSb24 := (Entails.of_eq (stgSlot_eq c (dest c 3 0) (Sfin m c))) $$ HSb24
  ihave HSb25 := (Entails.of_eq (stgSlot_eq c (dest c 3 1) (Sfin m c))) $$ HSb25
  ihave HSb26 := (Entails.of_eq (stgSlot_eq c (dest c 3 2) (Sfin m c))) $$ HSb26
  ihave HSb27 := (Entails.of_eq (stgSlot_eq c (dest c 3 3) (Sfin m c))) $$ HSb27
  ihave HSb28 := (Entails.of_eq (stgSlot_eq c (dest c 3 4) (Sfin m c))) $$ HSb28
  ihave HSb29 := (Entails.of_eq (stgSlot_eq c (dest c 3 5) (Sfin m c))) $$ HSb29
  ihave HSb30 := (Entails.of_eq (stgSlot_eq c (dest c 3 6) (Sfin m c))) $$ HSb30
  ihave HSb31 := (Entails.of_eq (stgSlot_eq c (dest c 3 7) (Sfin m c))) $$ HSb31
  ihave HSall := (Entails.of_eq (chain_send c (fun d : Dev nD => ((((c : Thread nD τ).loc cc0_scratch0) ↦[(slotRect d).set]{fullShare} Sfin m c) : sProp 𝕄))).symm) $$ [HSb0 HSb1 HSb2 HSb3 HSb4 HSb5 HSb6 HSb7 HSb8 HSb9 HSb10 HSb11 HSb12 HSb13 HSb14 HSb15 HSb16 HSb17 HSb18 HSb19 HSb20 HSb21 HSb22 HSb23 HSb24 HSb25 HSb26 HSb27 HSb28 HSb29 HSb30 HSb31]
  · isplitl [HSb0]; · iexact HSb0
    isplitl [HSb1]; · iexact HSb1
    isplitl [HSb2]; · iexact HSb2
    isplitl [HSb3]; · iexact HSb3
    isplitl [HSb4]; · iexact HSb4
    isplitl [HSb5]; · iexact HSb5
    isplitl [HSb6]; · iexact HSb6
    isplitl [HSb7]; · iexact HSb7
    isplitl [HSb8]; · iexact HSb8
    isplitl [HSb9]; · iexact HSb9
    isplitl [HSb10]; · iexact HSb10
    isplitl [HSb11]; · iexact HSb11
    isplitl [HSb12]; · iexact HSb12
    isplitl [HSb13]; · iexact HSb13
    isplitl [HSb14]; · iexact HSb14
    isplitl [HSb15]; · iexact HSb15
    isplitl [HSb16]; · iexact HSb16
    isplitl [HSb17]; · iexact HSb17
    isplitl [HSb18]; · iexact HSb18
    isplitl [HSb19]; · iexact HSb19
    isplitl [HSb20]; · iexact HSb20
    isplitl [HSb21]; · iexact HSb21
    isplitl [HSb22]; · iexact HSb22
    isplitl [HSb23]; · iexact HSb23
    isplitl [HSb24]; · iexact HSb24
    isplitl [HSb25]; · iexact HSb25
    isplitl [HSb26]; · iexact HSb26
    isplitl [HSb27]; · iexact HSb27
    isplitl [HSb28]; · iexact HSb28
    isplitl [HSb29]; · iexact HSb29
    isplitl [HSb30]; · iexact HSb30
    iexact HSb31
  ihave HSall := (Entails.of_eq (stg_slots (F := F) c fullShare (Sfin m c)).symm) $$ HSall
  -- the receive scratch whole again
  ihave Hrv0 := (Entails.of_eq (rcvSlot_eq c 0 (Rfin m c))) $$ Hrv0
  ihave Hrv1 := (Entails.of_eq (rcvSlot_eq c 1 (Rfin m c))) $$ Hrv1
  ihave Hrv2 := (Entails.of_eq (rcvSlot_eq c 2 (Rfin m c))) $$ Hrv2
  ihave Hrv3 := (Entails.of_eq (rcvSlot_eq c 3 (Rfin m c))) $$ Hrv3
  ihave Hrv4 := (Entails.of_eq (rcvSlot_eq c 4 (Rfin m c))) $$ Hrv4
  ihave Hrv5 := (Entails.of_eq (rcvSlot_eq c 5 (Rfin m c))) $$ Hrv5
  ihave Hrv6 := (Entails.of_eq (rcvSlot_eq c 6 (Rfin m c))) $$ Hrv6
  ihave Hrv7 := (Entails.of_eq (rcvSlot_eq c 7 (Rfin m c))) $$ Hrv7
  ihave Hrv8 := (Entails.of_eq (rcvSlot_eq c 8 (Rfin m c))) $$ Hrv8
  ihave Hrv9 := (Entails.of_eq (rcvSlot_eq c 9 (Rfin m c))) $$ Hrv9
  ihave Hrv10 := (Entails.of_eq (rcvSlot_eq c 10 (Rfin m c))) $$ Hrv10
  ihave Hrv11 := (Entails.of_eq (rcvSlot_eq c 11 (Rfin m c))) $$ Hrv11
  ihave Hrv12 := (Entails.of_eq (rcvSlot_eq c 12 (Rfin m c))) $$ Hrv12
  ihave Hrv13 := (Entails.of_eq (rcvSlot_eq c 13 (Rfin m c))) $$ Hrv13
  ihave Hrv14 := (Entails.of_eq (rcvSlot_eq c 14 (Rfin m c))) $$ Hrv14
  ihave Hrv15 := (Entails.of_eq (rcvSlot_eq c 15 (Rfin m c))) $$ Hrv15
  ihave Hrv16 := (Entails.of_eq (rcvSlot_eq c 16 (Rfin m c))) $$ Hrv16
  ihave Hrv17 := (Entails.of_eq (rcvSlot_eq c 17 (Rfin m c))) $$ Hrv17
  ihave Hrv18 := (Entails.of_eq (rcvSlot_eq c 18 (Rfin m c))) $$ Hrv18
  ihave Hrv19 := (Entails.of_eq (rcvSlot_eq c 19 (Rfin m c))) $$ Hrv19
  ihave Hrv20 := (Entails.of_eq (rcvSlot_eq c 20 (Rfin m c))) $$ Hrv20
  ihave Hrv21 := (Entails.of_eq (rcvSlot_eq c 21 (Rfin m c))) $$ Hrv21
  ihave Hrv22 := (Entails.of_eq (rcvSlot_eq c 22 (Rfin m c))) $$ Hrv22
  ihave Hrv23 := (Entails.of_eq (rcvSlot_eq c 23 (Rfin m c))) $$ Hrv23
  ihave Hrv24 := (Entails.of_eq (rcvSlot_eq c 24 (Rfin m c))) $$ Hrv24
  ihave Hrv25 := (Entails.of_eq (rcvSlot_eq c 25 (Rfin m c))) $$ Hrv25
  ihave Hrv26 := (Entails.of_eq (rcvSlot_eq c 26 (Rfin m c))) $$ Hrv26
  ihave Hrv27 := (Entails.of_eq (rcvSlot_eq c 27 (Rfin m c))) $$ Hrv27
  ihave Hrv28 := (Entails.of_eq (rcvSlot_eq c 28 (Rfin m c))) $$ Hrv28
  ihave Hrv29 := (Entails.of_eq (rcvSlot_eq c 29 (Rfin m c))) $$ Hrv29
  ihave Hrv30 := (Entails.of_eq (rcvSlot_eq c 30 (Rfin m c))) $$ Hrv30
  ihave Hrv31 := (Entails.of_eq (rcvSlot_eq c 31 (Rfin m c))) $$ Hrv31
  ihave HRall := (Entails.of_eq (chain_all (fun d : Dev nD => ((((c : Thread nD τ).loc cc0_scratch1) ↦[(slotRect d).set]{fullShare} Rfin m c) : sProp 𝕄))).symm) $$ [Hrv0 Hrv1 Hrv2 Hrv3 Hrv4 Hrv5 Hrv6 Hrv7 Hrv8 Hrv9 Hrv10 Hrv11 Hrv12 Hrv13 Hrv14 Hrv15 Hrv16 Hrv17 Hrv18 Hrv19 Hrv20 Hrv21 Hrv22 Hrv23 Hrv24 Hrv25 Hrv26 Hrv27 Hrv28 Hrv29 Hrv30 Hrv31]
  · isplitl [Hrv0]; · iexact Hrv0
    isplitl [Hrv1]; · iexact Hrv1
    isplitl [Hrv2]; · iexact Hrv2
    isplitl [Hrv3]; · iexact Hrv3
    isplitl [Hrv4]; · iexact Hrv4
    isplitl [Hrv5]; · iexact Hrv5
    isplitl [Hrv6]; · iexact Hrv6
    isplitl [Hrv7]; · iexact Hrv7
    isplitl [Hrv8]; · iexact Hrv8
    isplitl [Hrv9]; · iexact Hrv9
    isplitl [Hrv10]; · iexact Hrv10
    isplitl [Hrv11]; · iexact Hrv11
    isplitl [Hrv12]; · iexact Hrv12
    isplitl [Hrv13]; · iexact Hrv13
    isplitl [Hrv14]; · iexact Hrv14
    isplitl [Hrv15]; · iexact Hrv15
    isplitl [Hrv16]; · iexact Hrv16
    isplitl [Hrv17]; · iexact Hrv17
    isplitl [Hrv18]; · iexact Hrv18
    isplitl [Hrv19]; · iexact Hrv19
    isplitl [Hrv20]; · iexact Hrv20
    isplitl [Hrv21]; · iexact Hrv21
    isplitl [Hrv22]; · iexact Hrv22
    isplitl [Hrv23]; · iexact Hrv23
    isplitl [Hrv24]; · iexact Hrv24
    isplitl [Hrv25]; · iexact Hrv25
    isplitl [Hrv26]; · iexact Hrv26
    isplitl [Hrv27]; · iexact Hrv27
    isplitl [Hrv28]; · iexact Hrv28
    isplitl [Hrv29]; · iexact Hrv29
    isplitl [Hrv30]; · iexact Hrv30
    iexact Hrv31
  ihave HRall := (Entails.of_eq (rcv_slots (F := F) c fullShare (Rfin m c)).symm) $$ HRall
  -- the 64 closed cells
  ihave HzSall := (Entails.of_eq (chain_send c (fun d : Dev nD => (semVal (sendCell c d) 0 : sProp 𝕄))).symm) $$ [HzS0 HzS1 HzS2 HzS3 HzS4 HzS5 HzS6 HzS7 HzS8 HzS9 HzS10 HzS11 HzS12 HzS13 HzS14 HzS15 HzS16 HzS17 HzS18 HzS19 HzS20 HzS21 HzS22 HzS23 HzS24 HzS25 HzS26 HzS27 HzS28 HzS29 HzS30 HzS31]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzS7]; · iexact HzS7
    isplitl [HzS8]; · iexact HzS8
    isplitl [HzS9]; · iexact HzS9
    isplitl [HzS10]; · iexact HzS10
    isplitl [HzS11]; · iexact HzS11
    isplitl [HzS12]; · iexact HzS12
    isplitl [HzS13]; · iexact HzS13
    isplitl [HzS14]; · iexact HzS14
    isplitl [HzS15]; · iexact HzS15
    isplitl [HzS16]; · iexact HzS16
    isplitl [HzS17]; · iexact HzS17
    isplitl [HzS18]; · iexact HzS18
    isplitl [HzS19]; · iexact HzS19
    isplitl [HzS20]; · iexact HzS20
    isplitl [HzS21]; · iexact HzS21
    isplitl [HzS22]; · iexact HzS22
    isplitl [HzS23]; · iexact HzS23
    isplitl [HzS24]; · iexact HzS24
    isplitl [HzS25]; · iexact HzS25
    isplitl [HzS26]; · iexact HzS26
    isplitl [HzS27]; · iexact HzS27
    isplitl [HzS28]; · iexact HzS28
    isplitl [HzS29]; · iexact HzS29
    isplitl [HzS30]; · iexact HzS30
    iexact HzS31
  ihave HzRall := (Entails.of_eq (chain_all (fun s : Dev nD => (semVal (recvCell c s) 0 : sProp 𝕄))).symm) $$ [HzR0 HzR1 HzR2 HzR3 HzR4 HzR5 HzR6 HzR7 HzR8 HzR9 HzR10 HzR11 HzR12 HzR13 HzR14 HzR15 HzR16 HzR17 HzR18 HzR19 HzR20 HzR21 HzR22 HzR23 HzR24 HzR25 HzR26 HzR27 HzR28 HzR29 HzR30 HzR31]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    isplitl [HzR15]; · iexact HzR15
    isplitl [HzR16]; · iexact HzR16
    isplitl [HzR17]; · iexact HzR17
    isplitl [HzR18]; · iexact HzR18
    isplitl [HzR19]; · iexact HzR19
    isplitl [HzR20]; · iexact HzR20
    isplitl [HzR21]; · iexact HzR21
    isplitl [HzR22]; · iexact HzR22
    isplitl [HzR23]; · iexact HzR23
    isplitl [HzR24]; · iexact HzR24
    isplitl [HzR25]; · iexact HzR25
    isplitl [HzR26]; · iexact HzR26
    isplitl [HzR27]; · iexact HzR27
    isplitl [HzR28]; · iexact HzR28
    isplitl [HzR29]; · iexact HzR29
    isplitl [HzR30]; · iexact HzR30
    iexact HzR31
  -- the result tile: the 128 stored pieces are the tile laid out from the received slots
  ihave Ho := (pts_name (F := F) c _) $$ Ho
  icases Ho with ⟨%g, %hg, Ho⟩
  have hg2 : g = outFin m c := hg.trans (out_final m c fo)
  subst hg2
  unfold bodyPost Φ₁
  isplitl [HSall HRall HzSall HzRall]
  · isplitl [HSall]; · iexact HSall
    isplitl [HRall]; · iexact HRall
    isplitl [HzSall]; · iexact HzSall
    iexact HzRall
  isplitl [HO]; · iexists _; iexact HO
  isplitl [Hx]; · iexact Hx
  isplitl [Hw]; · iexact Hw
  iexact Ho

end Cert.Kernel.Exchange

end
-- ==== Proof.W.Obligation.lean ====
import proofs.«900436_g7700000000000437_dist_gemm_a2a_m1024_k1024_n1024_f32_relu_v7x_i32_1_alg».proof.Proof.W.BodyPost
import Idealize.ShloMosaic.Lib.Pipeline.Launch
import Idealize.ShloMosaic.Lib.Pipeline.Kit
import Idealize.ShloMosaic.Lib.Tactic

/-!
# The body's run as the pipeline's body obligation

The region has one point. There the pipeline hands the body the invariant before the point, what the device owes, and
the three staged windows: the tile of `x` and the copy of `w` as fetched, the result tile at some contents. The run of
the body takes exactly these, regrouped, and gives back the invariant after the point, nothing owed, the two inputs as
they were and the result tile laid out from the received slots. Nothing here is about the kernel: the obligation's
two sides are opened, the pieces handed over, the post weakened to the form the pipeline takes back.
-/

set_option maxRecDepth 16384

noncomputable section

namespace Cert.Kernel.Exchange

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A whole staging buffer owned at contents `X`: the buffer at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer through its memref's view is the buffer itself. -/
theorem pts_whole_eq (c : Dev nD) (b : Ref sig .tc) (f : Buf (Elt F) ((c : Thread nD τ).loc b)) :
    ((((Memref.whole b).view.loc (c : Thread nD τ)) ↦[(Memref.whole b).view.set]{fullShare} f) : sProp 𝕄)
      = (((c : Thread nD τ).loc b) ↦{fullShare} f) := by
  rw [View.set_whole]

/-- The library's body obligation on device `c`, from the run of its body. -/
theorem body_obligation (hrun : BodyRun (F := F) m) (c : Dev nD) :
    BodyObligation (dats (F := F) m 0 c) (defs₀ (F := F)) 𝒱₀ () Set.univ := fun t => by
  rw [fin_N0 t]
  rw [bigSep_W0, bigSep_W0]
  simp only [owns_whole_eq]
  rw [show defs₀ (F := F) Proc.tc 0 (t0_0, cfg0.slots t0_0) = bodyAt0 (F := F) t0_0 from rfl,
    show bodyAt0 (F := F) t0_0 = (cc0_body xM (Memref.isWhole_whole _) wM (Memref.isWhole_whole _) oM (Memref.isWhole_whole _)
      stgM (Memref.isWhole_whole _) rcvM (Memref.isWhole_whole _) cc0_scratch2 cc0_scratch3) from rfl,
    show (dats m 0 c).Φ t0_0.castSucc = Φ₀ m c from rfl, show (dats m 0 c).Φ t0_0.succ = Φ₁ m c from rfl,
    show (dats m 0 c).after 0 t0_0 = xstg m c from rfl, show (dats m 0 c).after 1 t0_0 = wstg m c from rfl,
    show (dats m 0 c).after 2 t0_0 = outFin m c from rfl]
  refine BI.Entails.trans ?_ (wp_mono _ _ _ (Q := fun _ => bodyPost m c) fun _ => ?_)
  · unfold Φ₀ start ghost
    change (_ : sProp 𝕄) ⊢ _
    iintro ⟨⟨⟨⟨%K, Hrec, Hlin⟩, Hc1, Hc2, Hlev⟩, ⟨%fs, Hs⟩, ⟨%fr, Hr⟩⟩, Ho, ⟨%d0, %g0, %hg0, Hx⟩, ⟨%d1, %g1, %hg1, Hw⟩, ⟨%d2, %g2, %hg2, Hout⟩⟩
    have hx : g0 = xstg m c := by rw [hg0]; unfold Dat.before; rw [if_pos (fetch0_0 t0_0)]; rfl
    have hw : g1 = wstg m c := by rw [hg1]; unfold Dat.before; rw [if_pos (fetch0_1 t0_0)]; rfl
    subst hx; subst hw
    unfold Dat.owesAt Pipeline.owesWithin
    icases Ho with ⟨%W, %hW, HO⟩
    rw [show (dats m 0 c).owed t0_0.castSucc = O₀ c from rfl]
    ihave Hx' := (Entails.of_eq (pts_whole_eq (F := F) c cc0_stg0_0 (xstg m c)).symm) $$ Hx
    ihave Hw' := (Entails.of_eq (pts_whole_eq (F := F) c cc0_stg1_0 (wstg m c)).symm) $$ Hw
    ihave Hout' := (Entails.of_eq (pts_whole_eq (F := F) c cc0_stg2_0 g2).symm) $$ Hout
    iapply (hrun K c W fs fr g2)
    unfold bodyPre
    isplitl [Hrec]; · iexact Hrec
    isplitl [Hlin]; · iexact Hlin
    isplitl [Hc1]; · iexact Hc1
    isplitl [Hc2]; · iexact Hc2
    isplitl [Hlev]; · iexact Hlev
    isplitl [Hs]; · iexact Hs
    isplitl [Hr]; · iexact Hr
    isplitl [HO]; · iexact HO
    isplitl [Hx']; · iexact Hx'
    isplitl [Hw']; · iexact Hw'
    iexact Hout'
  · unfold bodyPost Dat.owesAt Pipeline.owesWithin
    rw [show (dats m 0 c).owed t0_0.succ = 0 from rfl]
    change (_ : sProp 𝕄) ⊢ _
    iintro ⟨HΦ, ⟨%W', HO⟩, Hx, Hw, Hout⟩
    ihave Hx' := (Entails.of_eq (pts_whole_eq (F := F) c cc0_stg0_0 (xstg m c))) $$ Hx
    ihave Hw' := (Entails.of_eq (pts_whole_eq (F := F) c cc0_stg1_0 (wstg m c))) $$ Hw
    ihave Hout' := (Entails.of_eq (pts_whole_eq (F := F) c cc0_stg2_0 (outFin m c))) $$ Hout
    isplitl [HΦ]; · iexact HΦ
    isplitl [HO]
    · iexists W'
      isplitr; · ipureintro; exact fun _ _ => Or.inl trivial
      iexact HO
    isplitl [Hx']
    · iexists _; isplitr; · (ipureintro; rfl)
      iexact Hx'
    isplitl [Hw']
    · iexists _; isplitr; · (ipureintro; rfl)
      iexact Hw'
    iexists _; isplitr; · (ipureintro; rfl)
    iexact Hout'

end Cert.Kernel.Exchange

end
-- ==== Proof.lean ====
/-
  The five claims of this certificate.

  The kernel runs on 32 devices. Device `c` holds rows `32 c … 32 c + 31` of `X` and all of `W`; it computes
  `Y_c = max (x_c · W) 0` in four groups of 256 columns, lays columns `32 d … 32 d + 31` of it into slot `d` of a staging
  scratch as an 8 × 128 tile, and copies slot `d` into slot `c` of device `d`'s receive scratch; from the 32 slots it
  receives it lays out its result: rows `32 s … 32 s + 31` from slot `s`. So device `c` ends with columns
  `32 c … 32 c + 31` of `max (X · W) 0`, which is what the one-device reference computes: the same sum of products on
  both sides, entry by entry, nothing but re-indexing.

  The devices meet only through the kernel's own protocol: every device signals every other device's barrier
  semaphore once and waits for its 31 signals before its first copy (so every destination is inside the kernel when a
  copy can land, and with the signal comes the destination slot); every copy credits the destination's receive
  semaphore `c` and the sender's send semaphore `d`; every device waits for its 32 landings and its 32 departures. Each
  device's body is run once, at a symbolic device, from that protocol's invariant (Proof/Body.lean); the launch turns the
  32 runs into a run of the program (Proof/Launch.lean); the value is Proof/OutValue.lean. The word-level program's
  frame is the same proof read at the word-level instance (Proof/W/).
-/
import proofs.«900436_g7700000000000437_dist_gemm_a2a_m1024_k1024_n1024_f32_relu_v7x_i32_1_alg».proof.Defs
import proofs.«900436_g7700000000000437_dist_gemm_a2a_m1024_k1024_n1024_f32_relu_v7x_i32_1_alg».proof.Proof.Gen.Kernel
import proofs.«900436_g7700000000000437_dist_gemm_a2a_m1024_k1024_n1024_f32_relu_v7x_i32_1_alg».proof.Proof.Gen.KernelIdeal
import proofs.«900436_g7700000000000437_dist_gemm_a2a_m1024_k1024_n1024_f32_relu_v7x_i32_1_alg».proof.Proof.Gen.ReferenceIdeal
import proofs.«900436_g7700000000000437_dist_gemm_a2a_m1024_k1024_n1024_f32_relu_v7x_i32_1_alg».proof.Proof.Gen.Pre_finite_inputs_Kernel
import proofs.«900436_g7700000000000437_dist_gemm_a2a_m1024_k1024_n1024_f32_relu_v7x_i32_1_alg».proof.Proof.Gen.Pre_finite_inputs_ReferenceIdeal
import proofs.«900436_g7700000000000437_dist_gemm_a2a_m1024_k1024_n1024_f32_relu_v7x_i32_1_alg».proof.Proof.Ref
import proofs.«900436_g7700000000000437_dist_gemm_a2a_m1024_k1024_n1024_f32_relu_v7x_i32_1_alg».proof.Proof.Launch
import proofs.«900436_g7700000000000437_dist_gemm_a2a_m1024_k1024_n1024_f32_relu_v7x_i32_1_alg».proof.Proof.Body
import proofs.«900436_g7700000000000437_dist_gemm_a2a_m1024_k1024_n1024_f32_relu_v7x_i32_1_alg».proof.Proof.Obligation
import proofs.«900436_g7700000000000437_dist_gemm_a2a_m1024_k1024_n1024_f32_relu_v7x_i32_1_alg».proof.Proof.W.Launch
import proofs.«900436_g7700000000000437_dist_gemm_a2a_m1024_k1024_n1024_f32_relu_v7x_i32_1_alg».proof.Proof.W.Body
import proofs.«900436_g7700000000000437_dist_gemm_a2a_m1024_k1024_n1024_f32_relu_v7x_i32_1_alg».proof.Proof.W.Obligation
import Idealize.ShloMosaic.Adequacy
import Idealize.ShloMosaic.Init

noncomputable section

namespace Cert.Proof

open Idealize.ShloMosaic Idealize.SL.Sem

/-- The word-level kernel terminates on every device, faults nowhere and leaves its arguments as they were. -/
theorem frame_p : Cert.frame_Kernel := fun m ρ _ =>
  (θ_run (Cert.Kernel.defs (F := Bits)) _ _).mono
    (fun r h c => ⟨(h c 0).trans (Cert.Kernel.Exchange.final_x m c), (h c 1).trans (Cert.Kernel.Exchange.final_w m c)⟩)
    (Cert.Kernel.Exchange.run_main (F := Bits) m ρ
      (fun c => Cert.Kernel.Exchange.body_obligation m (Cert.Kernel.Exchange.body_run m) c))

/-- So does the idealized kernel. -/
theorem frame_pi : Cert.frame_KernelIdeal := fun m ρ _ =>
  (θ_run (Cert.KernelIdeal.defs (F := Ideal)) _ _).mono
    (fun r h c => ⟨(h c 0).trans (Cert.KernelIdeal.Exchange.final_x m c), (h c 1).trans (Cert.KernelIdeal.Exchange.final_w m c)⟩)
    (Cert.KernelIdeal.Exchange.run_main (F := Ideal) m ρ
      (fun c => Cert.KernelIdeal.Exchange.body_obligation m (Cert.KernelIdeal.Exchange.body_run m) c))

/-- The ideal pass rewrote nothing. -/
theorem preserves : Cert.preserves_Kernel_KernelIdeal := trivial

/-- On the extended reals every device ends with its block of columns of the reference's result, `max (X · W) 0`. -/
theorem algebraic : Cert.algebraic_KernelIdeal_ReferenceIdeal := by
  intro m ρ m' ρ' _ hagree
  refine ⟨Cert.ReferenceIdeal.Read.val_main_v2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨?_, (h c 0).trans (Cert.KernelIdeal.Exchange.final_x m c),
        (h c 1).trans (Cert.KernelIdeal.Exchange.final_w m c)⟩)
      (Cert.KernelIdeal.Exchange.run_main (F := Ideal) m ρ
        (fun c => Cert.KernelIdeal.Exchange.body_obligation m (Cert.KernelIdeal.Exchange.body_run m) c))
    exact ((h c 2).trans (Cert.KernelIdeal.Exchange.final_out m c)).trans
      (Cert.KernelIdeal.Exchange.outFin_eq_block m _ _ (fun s => (hagree s).1) (fun s => (hagree s).2) c)
  · refine (θ_run (Cert.ReferenceIdeal.defs (F := Ideal)) _ _).mono (fun _ h => ?_) (Cert.ReferenceIdeal.Value.run (F := Ideal) m' ρ')
    exact ⟨(h 0).1.trans (Cert.ReferenceIdeal.Read.val_main_v2_eq _ _), (h 0).2.1, (h 0).2.2⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, Cert.RefSide.frame_ri, preserves, algebraic⟩

end Cert.Proof

end
